-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v588) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x32x1024 : Shape := ⟨3, ![1, 32, 1024]⟩
abbrev S_ : Shape := ⟨0, ![]⟩

class Facts : Prop where
  bcast_S_S1x32x1024 : S_.BroadcastsInDim S1x32x1024 (![] : Fin 0 → Fin S1x32x1024.rank)
  reducesTo_S1x32x1024_S_d0_1_2 : S1x32x1024.ReducesTo [0, 1, 2] S_
  h_S_ : 0 < S_.numel

variable [Facts]

def fn {F : FTy → Type} [FloatOps F] (main_arg0 : FVec F S1x32x1024 .f32) : IVec S_ 1 :=
  let main_v0 : FVec F S1x32x1024 .f32 := Host.absf main_arg0
  let main_cst : FVec F S_ .f32 := constant S_ .f32 0x7F800000#32
  let main_v1 : FVec F S1x32x1024 .f32 := broadcastInDim S1x32x1024 ![] bcast_S_S1x32x1024 main_cst
  let main_v2 : IVec S1x32x1024 1 := cmpf .olt main_v0 main_v1
  let main_c : IVec S_ 1 := constantI S_ 1 1#1
  let main_v3 : IVec S_ 1 := (fun x v => Host.reduce IntOp.andi x v reducesTo_S1x32x1024_S_d0_1_2 h_S_) main_v2 main_c
  main_v3
-- ==== Kernel.lean ====
abbrev S1x32x1024 : Shape := ⟨3, ![1, 32, 1024]⟩
abbrev S32x1024x1023 : Shape := ⟨3, ![32, 1024, 1023]⟩
abbrev S1x32768x1023 : Shape := ⟨3, ![1, 32768, 1023]⟩
abbrev S1x1024x1023 : Shape := ⟨3, ![1, 1024, 1023]⟩
abbrev S32x1023 : Shape := ⟨2, ![32, 1023]⟩
abbrev S32x1024 : Shape := ⟨2, ![32, 1024]⟩
abbrev S1024x1024 : Shape := ⟨2, ![1024, 1024]⟩
abbrev S1x1023 : Shape := ⟨2, ![1, 1023]⟩
abbrev S1024x1 : Shape := ⟨2, ![1024, 1]⟩
abbrev S1024x1023 : Shape := ⟨2, ![1024, 1023]⟩

abbrev nBuf : Space → Nat
  | .hbm => 3
  | .vmem => 4
  | .smem => 0
  | _ => 0

abbrev bufTy : (tb : Table) → Fin (tcTables nBuf tb) → BufTy
  | .hbm, ⟨0, _⟩ => ⟨S1x32x1024, .f32⟩
  | .hbm, ⟨1, _⟩ => ⟨S32x1024x1023, .f32⟩
  | .hbm, ⟨2, _⟩ => ⟨S1x32768x1023, .f32⟩
  | .local _ .vmem, ⟨0, _⟩ => ⟨S1x32x1024, .f32⟩
  | .local _ .vmem, ⟨1, _⟩ => ⟨S1x1024x1023, .f32⟩
  | .local _ .vmem, ⟨2, _⟩ => ⟨S1x1024x1023, .f32⟩
  | .local _ .vmem, ⟨3, _⟩ => ⟨S32x1023, .f32⟩
  | _, _ => ⟨S1x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1023 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x1024x1023_S1x32768x1023 : S32x1024x1023.ShapeCasts S1x32768x1023
  inb_S1x32x1024_S1x32x1024_0_0_0 : ∀ a, (![0, 0, 0] : Fin 3 → Nat) a + S1x32x1024.size a ≤ S1x32x1024.size a
  h_S1x32x1024 : 0 < S1x32x1024.numel
  shapeCasts_S1x32x1024_S32x1024 : S1x32x1024.ShapeCasts S32x1024
  iota_S1024x1024_d0_w32 : S1024x1024.Iotas .tc 32 [0]
  iota_S1024x1024_d1_w32 : S1024x1024.Iotas .tc 32 [1]
  slices_S32x1024_o0_1_S32x1023 : S32x1024.Slices ![0, 1] S32x1023
  inb_S32x1023_S32x1023_0_0 : ∀ a, (![0, 0] : Fin 2 → Nat) a + S32x1023.size a ≤ S32x1023.size a
  h_S32x1023 : 0 < S32x1023.numel
  shapeCasts_S32x1023_S32x1023 : S32x1023.ShapeCasts S32x1023
  h_S1x1023 : 0 < S1x1023.numel
  iota_S1024x1_d0_w32 : S1024x1.Iotas .tc 32 [0]
  broadcasts_S1x1023_S1024x1023 : S1x1023.Broadcasts S1024x1023
  broadcasts_S1024x1_S1024x1023 : S1024x1.Broadcasts S1024x1023
  inb_S1x1024x1023_S1x1024x1023_0_0_0 : ∀ a, (![0, 0, 0] : Fin 3 → Nat) a + S1x1024x1023.size a ≤ S1x1024x1023.size a
  h_S1x1024x1023 : 0 < S1x1024x1023.numel
  shapeCasts_S1x1024x1023_S1024x1023 : S1x1024x1023.ShapeCasts S1024x1023
  shapeCasts_S1024x1023_S1x1024x1023 : S1024x1023.ShapeCasts S1x1024x1023
  dot_S32x1024_S1024x1024_S32x1024_1_0_0_1_n_n_wf : DotDims.WF S32x1024 S1024x1024 S32x1024 [1] [0] [0] [1] [] []
  hrank0 : 0 < grid0.rank
  k0_off1_inb : ∀ i : grid0.Coords, ∀ a, (k0_off1 i) a + S1x1023.size a ≤ S32x1023.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x32x1024.size a ≤ S1x32x1024.size a
  hwx0_0 : ∀ i : grid0.Coords, EltTy.bits .f32 = 32 ∨ (Rect.block (s := S1x32x1024) S1x32x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1023.size a ≤ S32x1024x1023.size a
  hwx0_1 : ∀ i : grid0.Coords, EltTy.bits .f32 = 32 ∨ (Rect.block (s := S32x1024x1023) S1x1024x1023.size (cc0_transform_1 i) (hinb0_1 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S1x32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x1024x1023.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x32x1024 : Shape := ⟨3, ![1, 32, 1024]⟩
abbrev S1024x32x1 : Shape := ⟨3, ![1024, 32, 1]⟩
abbrev S1024x1024 : Shape := ⟨2, ![1024, 1024]⟩
abbrev S_ : Shape := ⟨0, ![]⟩
abbrev S1024x1x1 : Shape := ⟨3, ![1024, 1, 1]⟩
abbrev S1024 : Shape := ⟨1, ![1024]⟩
abbrev S1024x1 : Shape := ⟨2, ![1024, 1]⟩
abbrev S1 : Shape := ⟨1, ![1]⟩
abbrev S1x1 : Shape := ⟨2, ![1, 1]⟩
abbrev S16384x1024 : Shape := ⟨2, ![16384, 1024]⟩
abbrev S32768x1024 : Shape := ⟨2, ![32768, 1024]⟩
abbrev S32768x1023 : Shape := ⟨2, ![32768, 1023]⟩
abbrev S1x32768x1023 : Shape := ⟨3, ![1, 32768, 1023]⟩

abbrev nBuf : Space → Nat
  | .hbm => 2863
  | .vmem => 0
  | .smem => 0
  | _ => 0

abbrev hbmTy0_0 (i : Nat) : BufTy := match i % 128 with
  | 0 => ⟨S1x32x1024, .f32⟩
  | 1 => ⟨S1x32x1024, .i1⟩
  | 2 => ⟨S1024x32x1, .i1⟩
  | 3 => ⟨S1024x1024, .i32⟩
  | 4 => ⟨S1024x1024, .i32⟩
  | 5 => ⟨S_, .i32⟩
  | 6 => ⟨S1024x1024, .i32⟩
  | 7 => ⟨S1024x1024, .i32⟩
  | 8 => ⟨S1024x1024, .i1⟩
  | 9 => ⟨S1024x1024, .f32⟩
  | 10 => ⟨S1024x1x1, .i1⟩
  | 11 => ⟨S1024, .i1⟩
  | 12 => ⟨S1024, .i1⟩
  | 13 => ⟨S1024, .i32⟩
  | 14 => ⟨S_, .i32⟩
  | 15 => ⟨S_, .i32⟩
  | 16 => ⟨S1024, .i32⟩
  | 17 => ⟨S_, .i32⟩
  | 18 => ⟨S1024, .i32⟩
  | 19 => ⟨S_, .i32⟩
  | 20 => ⟨S_, .i32⟩
  | 21 => ⟨S1024, .i32⟩
  | 22 => ⟨S1024, .i32⟩
  | 23 => ⟨S_, .i32⟩
  | 24 => ⟨S1024, .i32⟩
  | 25 => ⟨S1024, .i1⟩
  | 26 => ⟨S_, .i32⟩
  | 27 => ⟨S1024, .i32⟩
  | 28 => ⟨S1024, .i32⟩
  | 29 => ⟨S1024, .i32⟩
  | 30 => ⟨S1024x1, .i32⟩
  | 31 => ⟨S_, .i32⟩
  | 32 => ⟨S1024, .i32⟩
  | 33 => ⟨S1024, .i32⟩
  | 34 => ⟨S_, .i32⟩
  | 35 => ⟨S_, .i32⟩
  | 36 => ⟨S1024, .i32⟩
  | 37 => ⟨S_, .i32⟩
  | 38 => ⟨S1024, .i32⟩
  | 39 => ⟨S1024, .i32⟩
  | 40 => ⟨S1024, .i32⟩
  | 41 => ⟨S_, .i32⟩
  | 42 => ⟨S1024, .i32⟩
  | 43 => ⟨S1024, .i1⟩
  | 44 => ⟨S1024, .i32⟩
  | 45 => ⟨S1024, .i32⟩
  | 46 => ⟨S_, .i32⟩
  | 47 => ⟨S1024, .i32⟩
  | 48 => ⟨S1024, .i1⟩
  | 49 => ⟨S1024, .i1⟩
  | 50 => ⟨S_, .i32⟩
  | 51 => ⟨S1024, .i32⟩
  | 52 => ⟨S1024, .i32⟩
  | 53 => ⟨S1024, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S1024, .i32⟩
  | 61 => ⟨S1024, .i32⟩
  | 62 => ⟨S_, .i32⟩
  | 63 => ⟨S1024, .i32⟩
  | 64 => ⟨S1024, .i1⟩
  | 65 => ⟨S_, .i32⟩
  | 66 => ⟨S1024, .i32⟩
  | 67 => ⟨S1024, .i1⟩
  | 68 => ⟨S_, .i32⟩
  | 69 => ⟨S_, .i1⟩
  | 70 => ⟨S1024, .i1⟩
  | 71 => ⟨S1024, .i1⟩
  | 72 => ⟨S1024, .i1⟩
  | 73 => ⟨S1024, .i32⟩
  | 74 => ⟨S1024, .i32⟩
  | 75 => ⟨S1024, .i32⟩
  | 76 => ⟨S_, .i32⟩
  | 77 => ⟨S1024, .i32⟩
  | 78 => ⟨S1024, .i1⟩
  | 79 => ⟨S_, .i32⟩
  | 80 => ⟨S1024, .i32⟩
  | 81 => ⟨S1024, .i32⟩
  | 82 => ⟨S1024, .i32⟩
  | 83 => ⟨S1024x1, .i32⟩
  | 84 => ⟨S1, .i32⟩
  | 85 => ⟨S_, .i32⟩
  | 86 => ⟨S1024x1, .i32⟩
  | 87 => ⟨S1024x1, .i1⟩
  | 88 => ⟨S1x1, .i32⟩
  | 89 => ⟨S1024x1, .i32⟩
  | 90 => ⟨S1024x1, .i1⟩
  | 91 => ⟨S1024x1, .i1⟩
  | 92 => ⟨S_, .i1⟩
  | 93 => ⟨S1024, .i1⟩
  | 94 => ⟨S1024x1024, .f32⟩
  | 95 => ⟨S1024x1024, .i1⟩
  | 96 => ⟨S_, .f32⟩
  | 97 => ⟨S1024x1024, .f32⟩
  | 98 => ⟨S1024x1024, .f32⟩
  | 99 => ⟨S1024x1x1, .i1⟩
  | 100 => ⟨S1024, .i1⟩
  | 101 => ⟨S1024, .i1⟩
  | 102 => ⟨S1024, .i32⟩
  | 103 => ⟨S_, .i32⟩
  | 104 => ⟨S_, .i32⟩
  | 105 => ⟨S1024, .i32⟩
  | 106 => ⟨S_, .i32⟩
  | 107 => ⟨S1024, .i32⟩
  | 108 => ⟨S_, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i1⟩
  | 115 => ⟨S_, .i32⟩
  | 116 => ⟨S1024, .i32⟩
  | 117 => ⟨S1024, .i32⟩
  | 118 => ⟨S1024, .i32⟩
  | 119 => ⟨S1024x1, .i32⟩
  | 120 => ⟨S_, .i32⟩
  | 121 => ⟨S1024, .i32⟩
  | 122 => ⟨S1024, .i32⟩
  | 123 => ⟨S_, .i32⟩
  | 124 => ⟨S_, .i32⟩
  | 125 => ⟨S1024, .i32⟩
  | 126 => ⟨S_, .i32⟩
  | 127 => ⟨S1024, .i32⟩
  | _ => ⟨S1x32x1024, .f32⟩

abbrev hbmTy0_1 (i : Nat) : BufTy := match i % 128 with
  | 0 => ⟨S1024, .i32⟩
  | 1 => ⟨S1024, .i32⟩
  | 2 => ⟨S_, .i32⟩
  | 3 => ⟨S1024, .i32⟩
  | 4 => ⟨S1024, .i1⟩
  | 5 => ⟨S1024, .i32⟩
  | 6 => ⟨S1024, .i32⟩
  | 7 => ⟨S_, .i32⟩
  | 8 => ⟨S1024, .i32⟩
  | 9 => ⟨S1024, .i1⟩
  | 10 => ⟨S1024, .i1⟩
  | 11 => ⟨S_, .i32⟩
  | 12 => ⟨S1024, .i32⟩
  | 13 => ⟨S1024, .i32⟩
  | 14 => ⟨S1024, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S1024, .i32⟩
  | 22 => ⟨S1024, .i32⟩
  | 23 => ⟨S_, .i32⟩
  | 24 => ⟨S1024, .i32⟩
  | 25 => ⟨S1024, .i1⟩
  | 26 => ⟨S_, .i32⟩
  | 27 => ⟨S1024, .i32⟩
  | 28 => ⟨S1024, .i1⟩
  | 29 => ⟨S_, .i32⟩
  | 30 => ⟨S_, .i1⟩
  | 31 => ⟨S1024, .i1⟩
  | 32 => ⟨S1024, .i1⟩
  | 33 => ⟨S1024, .i1⟩
  | 34 => ⟨S1024, .i32⟩
  | 35 => ⟨S1024, .i32⟩
  | 36 => ⟨S1024, .i32⟩
  | 37 => ⟨S_, .i32⟩
  | 38 => ⟨S1024, .i32⟩
  | 39 => ⟨S1024, .i1⟩
  | 40 => ⟨S_, .i32⟩
  | 41 => ⟨S1024, .i32⟩
  | 42 => ⟨S1024, .i32⟩
  | 43 => ⟨S1024, .i32⟩
  | 44 => ⟨S1024x1, .i32⟩
  | 45 => ⟨S1, .i32⟩
  | 46 => ⟨S_, .i32⟩
  | 47 => ⟨S1024x1, .i32⟩
  | 48 => ⟨S1024x1, .i1⟩
  | 49 => ⟨S1x1, .i32⟩
  | 50 => ⟨S1024x1, .i32⟩
  | 51 => ⟨S1024x1, .i1⟩
  | 52 => ⟨S1024x1, .i1⟩
  | 53 => ⟨S_, .i1⟩
  | 54 => ⟨S1024, .i1⟩
  | 55 => ⟨S1024x1024, .f32⟩
  | 56 => ⟨S1024x1024, .i1⟩
  | 57 => ⟨S_, .f32⟩
  | 58 => ⟨S1024x1024, .f32⟩
  | 59 => ⟨S1024x1024, .f32⟩
  | 60 => ⟨S1024x1x1, .i1⟩
  | 61 => ⟨S1024, .i1⟩
  | 62 => ⟨S1024, .i1⟩
  | 63 => ⟨S1024, .i32⟩
  | 64 => ⟨S_, .i32⟩
  | 65 => ⟨S_, .i32⟩
  | 66 => ⟨S1024, .i32⟩
  | 67 => ⟨S_, .i32⟩
  | 68 => ⟨S1024, .i32⟩
  | 69 => ⟨S_, .i32⟩
  | 70 => ⟨S_, .i32⟩
  | 71 => ⟨S1024, .i32⟩
  | 72 => ⟨S1024, .i32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S_, .i32⟩
  | 82 => ⟨S1024, .i32⟩
  | 83 => ⟨S1024, .i32⟩
  | 84 => ⟨S_, .i32⟩
  | 85 => ⟨S_, .i32⟩
  | 86 => ⟨S1024, .i32⟩
  | 87 => ⟨S_, .i32⟩
  | 88 => ⟨S1024, .i32⟩
  | 89 => ⟨S1024, .i32⟩
  | 90 => ⟨S1024, .i32⟩
  | 91 => ⟨S_, .i32⟩
  | 92 => ⟨S1024, .i32⟩
  | 93 => ⟨S1024, .i1⟩
  | 94 => ⟨S1024, .i32⟩
  | 95 => ⟨S1024, .i32⟩
  | 96 => ⟨S_, .i32⟩
  | 97 => ⟨S1024, .i32⟩
  | 98 => ⟨S1024, .i1⟩
  | 99 => ⟨S1024, .i1⟩
  | 100 => ⟨S_, .i32⟩
  | 101 => ⟨S1024, .i32⟩
  | 102 => ⟨S1024, .i32⟩
  | 103 => ⟨S1024, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S1024, .i32⟩
  | 111 => ⟨S1024, .i32⟩
  | 112 => ⟨S_, .i32⟩
  | 113 => ⟨S1024, .i32⟩
  | 114 => ⟨S1024, .i1⟩
  | 115 => ⟨S_, .i32⟩
  | 116 => ⟨S1024, .i32⟩
  | 117 => ⟨S1024, .i1⟩
  | 118 => ⟨S_, .i32⟩
  | 119 => ⟨S_, .i1⟩
  | 120 => ⟨S1024, .i1⟩
  | 121 => ⟨S1024, .i1⟩
  | 122 => ⟨S1024, .i1⟩
  | 123 => ⟨S1024, .i32⟩
  | 124 => ⟨S1024, .i32⟩
  | 125 => ⟨S1024, .i32⟩
  | 126 => ⟨S_, .i32⟩
  | 127 => ⟨S1024, .i32⟩
  | _ => ⟨S1x32x1024, .f32⟩

abbrev hbmTy0_2 (i : Nat) : BufTy := match i % 128 with
  | 0 => ⟨S1024, .i1⟩
  | 1 => ⟨S_, .i32⟩
  | 2 => ⟨S1024, .i32⟩
  | 3 => ⟨S1024, .i32⟩
  | 4 => ⟨S1024, .i32⟩
  | 5 => ⟨S1024x1, .i32⟩
  | 6 => ⟨S1, .i32⟩
  | 7 => ⟨S_, .i32⟩
  | 8 => ⟨S1024x1, .i32⟩
  | 9 => ⟨S1024x1, .i1⟩
  | 10 => ⟨S1x1, .i32⟩
  | 11 => ⟨S1024x1, .i32⟩
  | 12 => ⟨S1024x1, .i1⟩
  | 13 => ⟨S1024x1, .i1⟩
  | 14 => ⟨S_, .i1⟩
  | 15 => ⟨S1024, .i1⟩
  | 16 => ⟨S1024x1024, .f32⟩
  | 17 => ⟨S1024x1024, .i1⟩
  | 18 => ⟨S_, .f32⟩
  | 19 => ⟨S1024x1024, .f32⟩
  | 20 => ⟨S1024x1024, .f32⟩
  | 21 => ⟨S1024x1x1, .i1⟩
  | 22 => ⟨S1024, .i1⟩
  | 23 => ⟨S1024, .i1⟩
  | 24 => ⟨S1024, .i32⟩
  | 25 => ⟨S_, .i32⟩
  | 26 => ⟨S_, .i32⟩
  | 27 => ⟨S1024, .i32⟩
  | 28 => ⟨S_, .i32⟩
  | 29 => ⟨S1024, .i32⟩
  | 30 => ⟨S_, .i32⟩
  | 31 => ⟨S_, .i32⟩
  | 32 => ⟨S1024, .i32⟩
  | 33 => ⟨S1024, .i32⟩
  | 34 => ⟨S_, .i32⟩
  | 35 => ⟨S1024, .i32⟩
  | 36 => ⟨S1024, .i1⟩
  | 37 => ⟨S_, .i32⟩
  | 38 => ⟨S1024, .i32⟩
  | 39 => ⟨S1024, .i32⟩
  | 40 => ⟨S1024, .i32⟩
  | 41 => ⟨S1024x1, .i32⟩
  | 42 => ⟨S_, .i32⟩
  | 43 => ⟨S1024, .i32⟩
  | 44 => ⟨S1024, .i32⟩
  | 45 => ⟨S_, .i32⟩
  | 46 => ⟨S_, .i32⟩
  | 47 => ⟨S1024, .i32⟩
  | 48 => ⟨S_, .i32⟩
  | 49 => ⟨S1024, .i32⟩
  | 50 => ⟨S1024, .i32⟩
  | 51 => ⟨S1024, .i32⟩
  | 52 => ⟨S_, .i32⟩
  | 53 => ⟨S1024, .i32⟩
  | 54 => ⟨S1024, .i1⟩
  | 55 => ⟨S1024, .i32⟩
  | 56 => ⟨S1024, .i32⟩
  | 57 => ⟨S_, .i32⟩
  | 58 => ⟨S1024, .i32⟩
  | 59 => ⟨S1024, .i1⟩
  | 60 => ⟨S1024, .i1⟩
  | 61 => ⟨S_, .i32⟩
  | 62 => ⟨S1024, .i32⟩
  | 63 => ⟨S1024, .i32⟩
  | 64 => ⟨S1024, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S1024, .i32⟩
  | 72 => ⟨S1024, .i32⟩
  | 73 => ⟨S_, .i32⟩
  | 74 => ⟨S1024, .i32⟩
  | 75 => ⟨S1024, .i1⟩
  | 76 => ⟨S_, .i32⟩
  | 77 => ⟨S1024, .i32⟩
  | 78 => ⟨S1024, .i1⟩
  | 79 => ⟨S_, .i32⟩
  | 80 => ⟨S_, .i1⟩
  | 81 => ⟨S1024, .i1⟩
  | 82 => ⟨S1024, .i1⟩
  | 83 => ⟨S1024, .i1⟩
  | 84 => ⟨S1024, .i32⟩
  | 85 => ⟨S1024, .i32⟩
  | 86 => ⟨S1024, .i32⟩
  | 87 => ⟨S_, .i32⟩
  | 88 => ⟨S1024, .i32⟩
  | 89 => ⟨S1024, .i1⟩
  | 90 => ⟨S_, .i32⟩
  | 91 => ⟨S1024, .i32⟩
  | 92 => ⟨S1024, .i32⟩
  | 93 => ⟨S1024, .i32⟩
  | 94 => ⟨S1024x1, .i32⟩
  | 95 => ⟨S1, .i32⟩
  | 96 => ⟨S_, .i32⟩
  | 97 => ⟨S1024x1, .i32⟩
  | 98 => ⟨S1024x1, .i1⟩
  | 99 => ⟨S1x1, .i32⟩
  | 100 => ⟨S1024x1, .i32⟩
  | 101 => ⟨S1024x1, .i1⟩
  | 102 => ⟨S1024x1, .i1⟩
  | 103 => ⟨S_, .i1⟩
  | 104 => ⟨S1024, .i1⟩
  | 105 => ⟨S1024x1024, .f32⟩
  | 106 => ⟨S1024x1024, .i1⟩
  | 107 => ⟨S_, .f32⟩
  | 108 => ⟨S1024x1024, .f32⟩
  | 109 => ⟨S1024x1024, .f32⟩
  | 110 => ⟨S1024x1x1, .i1⟩
  | 111 => ⟨S1024, .i1⟩
  | 112 => ⟨S1024, .i1⟩
  | 113 => ⟨S1024, .i32⟩
  | 114 => ⟨S_, .i32⟩
  | 115 => ⟨S_, .i32⟩
  | 116 => ⟨S1024, .i32⟩
  | 117 => ⟨S_, .i32⟩
  | 118 => ⟨S1024, .i32⟩
  | 119 => ⟨S_, .i32⟩
  | 120 => ⟨S_, .i32⟩
  | 121 => ⟨S1024, .i32⟩
  | 122 => ⟨S1024, .i32⟩
  | 123 => ⟨S_, .i32⟩
  | 124 => ⟨S1024, .i32⟩
  | 125 => ⟨S1024, .i1⟩
  | 126 => ⟨S_, .i32⟩
  | 127 => ⟨S1024, .i32⟩
  | _ => ⟨S1x32x1024, .f32⟩

abbrev hbmTy0_3 (i : Nat) : BufTy := match i % 128 with
  | 0 => ⟨S1024, .i32⟩
  | 1 => ⟨S1024, .i32⟩
  | 2 => ⟨S1024x1, .i32⟩
  | 3 => ⟨S_, .i32⟩
  | 4 => ⟨S1024, .i32⟩
  | 5 => ⟨S1024, .i32⟩
  | 6 => ⟨S_, .i32⟩
  | 7 => ⟨S_, .i32⟩
  | 8 => ⟨S1024, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S1024, .i32⟩
  | 33 => ⟨S1024, .i32⟩
  | 34 => ⟨S_, .i32⟩
  | 35 => ⟨S1024, .i32⟩
  | 36 => ⟨S1024, .i1⟩
  | 37 => ⟨S_, .i32⟩
  | 38 => ⟨S1024, .i32⟩
  | 39 => ⟨S1024, .i1⟩
  | 40 => ⟨S_, .i32⟩
  | 41 => ⟨S_, .i1⟩
  | 42 => ⟨S1024, .i1⟩
  | 43 => ⟨S1024, .i1⟩
  | 44 => ⟨S1024, .i1⟩
  | 45 => ⟨S1024, .i32⟩
  | 46 => ⟨S1024, .i32⟩
  | 47 => ⟨S1024, .i32⟩
  | 48 => ⟨S_, .i32⟩
  | 49 => ⟨S1024, .i32⟩
  | 50 => ⟨S1024, .i1⟩
  | 51 => ⟨S_, .i32⟩
  | 52 => ⟨S1024, .i32⟩
  | 53 => ⟨S1024, .i32⟩
  | 54 => ⟨S1024, .i32⟩
  | 55 => ⟨S1024x1, .i32⟩
  | 56 => ⟨S1, .i32⟩
  | 57 => ⟨S_, .i32⟩
  | 58 => ⟨S1024x1, .i32⟩
  | 59 => ⟨S1024x1, .i1⟩
  | 60 => ⟨S1x1, .i32⟩
  | 61 => ⟨S1024x1, .i32⟩
  | 62 => ⟨S1024x1, .i1⟩
  | 63 => ⟨S1024x1, .i1⟩
  | 64 => ⟨S_, .i1⟩
  | 65 => ⟨S1024, .i1⟩
  | 66 => ⟨S1024x1024, .f32⟩
  | 67 => ⟨S1024x1024, .i1⟩
  | 68 => ⟨S_, .f32⟩
  | 69 => ⟨S1024x1024, .f32⟩
  | 70 => ⟨S1024x1024, .f32⟩
  | 71 => ⟨S1024x1x1, .i1⟩
  | 72 => ⟨S1024, .i1⟩
  | 73 => ⟨S1024, .i1⟩
  | 74 => ⟨S1024, .i32⟩
  | 75 => ⟨S_, .i32⟩
  | 76 => ⟨S_, .i32⟩
  | 77 => ⟨S1024, .i32⟩
  | 78 => ⟨S_, .i32⟩
  | 79 => ⟨S1024, .i32⟩
  | 80 => ⟨S_, .i32⟩
  | 81 => ⟨S_, .i32⟩
  | 82 => ⟨S1024, .i32⟩
  | 83 => ⟨S1024, .i32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S_, .i32⟩
  | 93 => ⟨S1024, .i32⟩
  | 94 => ⟨S1024, .i32⟩
  | 95 => ⟨S_, .i32⟩
  | 96 => ⟨S_, .i32⟩
  | 97 => ⟨S1024, .i32⟩
  | 98 => ⟨S_, .i32⟩
  | 99 => ⟨S1024, .i32⟩
  | 100 => ⟨S1024, .i32⟩
  | 101 => ⟨S1024, .i32⟩
  | 102 => ⟨S_, .i32⟩
  | 103 => ⟨S1024, .i32⟩
  | 104 => ⟨S1024, .i1⟩
  | 105 => ⟨S1024, .i32⟩
  | 106 => ⟨S1024, .i32⟩
  | 107 => ⟨S_, .i32⟩
  | 108 => ⟨S1024, .i32⟩
  | 109 => ⟨S1024, .i1⟩
  | 110 => ⟨S1024, .i1⟩
  | 111 => ⟨S_, .i32⟩
  | 112 => ⟨S1024, .i32⟩
  | 113 => ⟨S1024, .i32⟩
  | 114 => ⟨S1024, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S1024, .i32⟩
  | 122 => ⟨S1024, .i32⟩
  | 123 => ⟨S_, .i32⟩
  | 124 => ⟨S1024, .i32⟩
  | 125 => ⟨S1024, .i1⟩
  | 126 => ⟨S_, .i32⟩
  | 127 => ⟨S1024, .i32⟩
  | _ => ⟨S1x32x1024, .f32⟩

abbrev hbmTy0_4 (i : Nat) : BufTy := match i % 128 with
  | 0 => ⟨S1024, .i1⟩
  | 1 => ⟨S_, .i32⟩
  | 2 => ⟨S_, .i1⟩
  | 3 => ⟨S1024, .i1⟩
  | 4 => ⟨S1024, .i1⟩
  | 5 => ⟨S1024, .i1⟩
  | 6 => ⟨S1024, .i32⟩
  | 7 => ⟨S1024, .i32⟩
  | 8 => ⟨S1024, .i32⟩
  | 9 => ⟨S_, .i32⟩
  | 10 => ⟨S1024, .i32⟩
  | 11 => ⟨S1024, .i1⟩
  | 12 => ⟨S_, .i32⟩
  | 13 => ⟨S1024, .i32⟩
  | 14 => ⟨S1024, .i32⟩
  | 15 => ⟨S1024, .i32⟩
  | 16 => ⟨S1024x1, .i32⟩
  | 17 => ⟨S1, .i32⟩
  | 18 => ⟨S_, .i32⟩
  | 19 => ⟨S1024x1, .i32⟩
  | 20 => ⟨S1024x1, .i1⟩
  | 21 => ⟨S1x1, .i32⟩
  | 22 => ⟨S1024x1, .i32⟩
  | 23 => ⟨S1024x1, .i1⟩
  | 24 => ⟨S1024x1, .i1⟩
  | 25 => ⟨S_, .i1⟩
  | 26 => ⟨S1024, .i1⟩
  | 27 => ⟨S1024x1024, .f32⟩
  | 28 => ⟨S1024x1024, .i1⟩
  | 29 => ⟨S_, .f32⟩
  | 30 => ⟨S1024x1024, .f32⟩
  | 31 => ⟨S1024x1024, .f32⟩
  | 32 => ⟨S1024x1x1, .i1⟩
  | 33 => ⟨S1024, .i1⟩
  | 34 => ⟨S1024, .i1⟩
  | 35 => ⟨S1024, .i32⟩
  | 36 => ⟨S_, .i32⟩
  | 37 => ⟨S_, .i32⟩
  | 38 => ⟨S1024, .i32⟩
  | 39 => ⟨S_, .i32⟩
  | 40 => ⟨S1024, .i32⟩
  | 41 => ⟨S_, .i32⟩
  | 42 => ⟨S_, .i32⟩
  | 43 => ⟨S1024, .i32⟩
  | 44 => ⟨S1024, .i32⟩
  | 45 => ⟨S_, .i32⟩
  | 46 => ⟨S1024, .i32⟩
  | 47 => ⟨S1024, .i1⟩
  | 48 => ⟨S_, .i32⟩
  | 49 => ⟨S1024, .i32⟩
  | 50 => ⟨S1024, .i32⟩
  | 51 => ⟨S1024, .i32⟩
  | 52 => ⟨S1024x1, .i32⟩
  | 53 => ⟨S_, .i32⟩
  | 54 => ⟨S1024, .i32⟩
  | 55 => ⟨S1024, .i32⟩
  | 56 => ⟨S_, .i32⟩
  | 57 => ⟨S_, .i32⟩
  | 58 => ⟨S1024, .i32⟩
  | 59 => ⟨S_, .i32⟩
  | 60 => ⟨S1024, .i32⟩
  | 61 => ⟨S1024, .i32⟩
  | 62 => ⟨S1024, .i32⟩
  | 63 => ⟨S_, .i32⟩
  | 64 => ⟨S1024, .i32⟩
  | 65 => ⟨S1024, .i1⟩
  | 66 => ⟨S1024, .i32⟩
  | 67 => ⟨S1024, .i32⟩
  | 68 => ⟨S_, .i32⟩
  | 69 => ⟨S1024, .i32⟩
  | 70 => ⟨S1024, .i1⟩
  | 71 => ⟨S1024, .i1⟩
  | 72 => ⟨S_, .i32⟩
  | 73 => ⟨S1024, .i32⟩
  | 74 => ⟨S1024, .i32⟩
  | 75 => ⟨S1024, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S1024, .i32⟩
  | 83 => ⟨S1024, .i32⟩
  | 84 => ⟨S_, .i32⟩
  | 85 => ⟨S1024, .i32⟩
  | 86 => ⟨S1024, .i1⟩
  | 87 => ⟨S_, .i32⟩
  | 88 => ⟨S1024, .i32⟩
  | 89 => ⟨S1024, .i1⟩
  | 90 => ⟨S_, .i32⟩
  | 91 => ⟨S_, .i1⟩
  | 92 => ⟨S1024, .i1⟩
  | 93 => ⟨S1024, .i1⟩
  | 94 => ⟨S1024, .i1⟩
  | 95 => ⟨S1024, .i32⟩
  | 96 => ⟨S1024, .i32⟩
  | 97 => ⟨S1024, .i32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S1, .i32⟩
  | 107 => ⟨S_, .i32⟩
  | 108 => ⟨S1024x1, .i32⟩
  | 109 => ⟨S1024x1, .i1⟩
  | 110 => ⟨S1x1, .i32⟩
  | 111 => ⟨S1024x1, .i32⟩
  | 112 => ⟨S1024x1, .i1⟩
  | 113 => ⟨S1024x1, .i1⟩
  | 114 => ⟨S_, .i1⟩
  | 115 => ⟨S1024, .i1⟩
  | 116 => ⟨S1024x1024, .f32⟩
  | 117 => ⟨S1024x1024, .i1⟩
  | 118 => ⟨S_, .f32⟩
  | 119 => ⟨S1024x1024, .f32⟩
  | 120 => ⟨S1024x1024, .f32⟩
  | 121 => ⟨S1024x1x1, .i1⟩
  | 122 => ⟨S1024, .i1⟩
  | 123 => ⟨S1024, .i1⟩
  | 124 => ⟨S1024, .i32⟩
  | 125 => ⟨S_, .i32⟩
  | 126 => ⟨S_, .i32⟩
  | 127 => ⟨S1024, .i32⟩
  | _ => ⟨S1x32x1024, .f32⟩

abbrev hbmTy0_5 (i : Nat) : BufTy := match i % 128 with
  | 0 => ⟨S_, .i32⟩
  | 1 => ⟨S1024, .i32⟩
  | 2 => ⟨S_, .i32⟩
  | 3 => ⟨S_, .i32⟩
  | 4 => ⟨S1024, .i32⟩
  | 5 => ⟨S1024, .i32⟩
  | 6 => ⟨S_, .i32⟩
  | 7 => ⟨S1024, .i32⟩
  | 8 => ⟨S1024, .i1⟩
  | 9 => ⟨S_, .i32⟩
  | 10 => ⟨S1024, .i32⟩
  | 11 => ⟨S1024, .i32⟩
  | 12 => ⟨S1024, .i32⟩
  | 13 => ⟨S1024x1, .i32⟩
  | 14 => ⟨S_, .i32⟩
  | 15 => ⟨S1024, .i32⟩
  | 16 => ⟨S1024, .i32⟩
  | 17 => ⟨S_, .i32⟩
  | 18 => ⟨S_, .i32⟩
  | 19 => ⟨S1024, .i32⟩
  | 20 => ⟨S_, .i32⟩
  | 21 => ⟨S1024, .i32⟩
  | 22 => ⟨S1024, .i32⟩
  | 23 => ⟨S1024, .i32⟩
  | 24 => ⟨S_, .i32⟩
  | 25 => ⟨S1024, .i32⟩
  | 26 => ⟨S1024, .i1⟩
  | 27 => ⟨S1024, .i32⟩
  | 28 => ⟨S1024, .i32⟩
  | 29 => ⟨S_, .i32⟩
  | 30 => ⟨S1024, .i32⟩
  | 31 => ⟨S1024, .i1⟩
  | 32 => ⟨S1024, .i1⟩
  | 33 => ⟨S_, .i32⟩
  | 34 => ⟨S1024, .i32⟩
  | 35 => ⟨S1024, .i32⟩
  | 36 => ⟨S1024, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S1024, .i32⟩
  | 44 => ⟨S1024, .i32⟩
  | 45 => ⟨S_, .i32⟩
  | 46 => ⟨S1024, .i32⟩
  | 47 => ⟨S1024, .i1⟩
  | 48 => ⟨S_, .i32⟩
  | 49 => ⟨S1024, .i32⟩
  | 50 => ⟨S1024, .i1⟩
  | 51 => ⟨S_, .i32⟩
  | 52 => ⟨S_, .i1⟩
  | 53 => ⟨S1024, .i1⟩
  | 54 => ⟨S1024, .i1⟩
  | 55 => ⟨S1024, .i1⟩
  | 56 => ⟨S1024, .i32⟩
  | 57 => ⟨S1024, .i32⟩
  | 58 => ⟨S1024, .i32⟩
  | 59 => ⟨S_, .i32⟩
  | 60 => ⟨S1024, .i32⟩
  | 61 => ⟨S1024, .i1⟩
  | 62 => ⟨S_, .i32⟩
  | 63 => ⟨S1024, .i32⟩
  | 64 => ⟨S1024, .i32⟩
  | 65 => ⟨S1024, .i32⟩
  | 66 => ⟨S1024x1, .i32⟩
  | 67 => ⟨S1, .i32⟩
  | 68 => ⟨S_, .i32⟩
  | 69 => ⟨S1024x1, .i32⟩
  | 70 => ⟨S1024x1, .i1⟩
  | 71 => ⟨S1x1, .i32⟩
  | 72 => ⟨S1024x1, .i32⟩
  | 73 => ⟨S1024x1, .i1⟩
  | 74 => ⟨S1024x1, .i1⟩
  | 75 => ⟨S_, .i1⟩
  | 76 => ⟨S1024, .i1⟩
  | 77 => ⟨S1024x1024, .f32⟩
  | 78 => ⟨S1024x1024, .i1⟩
  | 79 => ⟨S_, .f32⟩
  | 80 => ⟨S1024x1024, .f32⟩
  | 81 => ⟨S1024x1024, .f32⟩
  | 82 => ⟨S1024x1x1, .i1⟩
  | 83 => ⟨S1024, .i1⟩
  | 84 => ⟨S1024, .i1⟩
  | 85 => ⟨S1024, .i32⟩
  | 86 => ⟨S_, .i32⟩
  | 87 => ⟨S_, .i32⟩
  | 88 => ⟨S1024, .i32⟩
  | 89 => ⟨S_, .i32⟩
  | 90 => ⟨S1024, .i32⟩
  | 91 => ⟨S_, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i1⟩
  | 98 => ⟨S_, .i32⟩
  | 99 => ⟨S1024, .i32⟩
  | 100 => ⟨S1024, .i32⟩
  | 101 => ⟨S1024, .i32⟩
  | 102 => ⟨S1024x1, .i32⟩
  | 103 => ⟨S_, .i32⟩
  | 104 => ⟨S1024, .i32⟩
  | 105 => ⟨S1024, .i32⟩
  | 106 => ⟨S_, .i32⟩
  | 107 => ⟨S_, .i32⟩
  | 108 => ⟨S1024, .i32⟩
  | 109 => ⟨S_, .i32⟩
  | 110 => ⟨S1024, .i32⟩
  | 111 => ⟨S1024, .i32⟩
  | 112 => ⟨S1024, .i32⟩
  | 113 => ⟨S_, .i32⟩
  | 114 => ⟨S1024, .i32⟩
  | 115 => ⟨S1024, .i1⟩
  | 116 => ⟨S1024, .i32⟩
  | 117 => ⟨S1024, .i32⟩
  | 118 => ⟨S_, .i32⟩
  | 119 => ⟨S1024, .i32⟩
  | 120 => ⟨S1024, .i1⟩
  | 121 => ⟨S1024, .i1⟩
  | 122 => ⟨S_, .i32⟩
  | 123 => ⟨S1024, .i32⟩
  | 124 => ⟨S1024, .i32⟩
  | 125 => ⟨S1024, .i32⟩
  | 126 => ⟨S_, .i32⟩
  | 127 => ⟨S_, .i32⟩
  | _ => ⟨S1x32x1024, .f32⟩

abbrev hbmTy0_6 (i : Nat) : BufTy := match i % 128 with
  | 0 => ⟨S_, .i32⟩
  | 1 => ⟨S_, .i1⟩
  | 2 => ⟨S_, .i32⟩
  | 3 => ⟨S_, .i32⟩
  | 4 => ⟨S1024, .i32⟩
  | 5 => ⟨S1024, .i32⟩
  | 6 => ⟨S_, .i32⟩
  | 7 => ⟨S1024, .i32⟩
  | 8 => ⟨S1024, .i1⟩
  | 9 => ⟨S_, .i32⟩
  | 10 => ⟨S1024, .i32⟩
  | 11 => ⟨S1024, .i1⟩
  | 12 => ⟨S_, .i32⟩
  | 13 => ⟨S_, .i1⟩
  | 14 => ⟨S1024, .i1⟩
  | 15 => ⟨S1024, .i1⟩
  | 16 => ⟨S1024, .i1⟩
  | 17 => ⟨S1024, .i32⟩
  | 18 => ⟨S1024, .i32⟩
  | 19 => ⟨S1024, .i32⟩
  | 20 => ⟨S_, .i32⟩
  | 21 => ⟨S1024, .i32⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S1, .i32⟩
  | 29 => ⟨S_, .i32⟩
  | 30 => ⟨S1024x1, .i32⟩
  | 31 => ⟨S1024x1, .i1⟩
  | 32 => ⟨S1x1, .i32⟩
  | 33 => ⟨S1024x1, .i32⟩
  | 34 => ⟨S1024x1, .i1⟩
  | 35 => ⟨S1024x1, .i1⟩
  | 36 => ⟨S_, .i1⟩
  | 37 => ⟨S1024, .i1⟩
  | 38 => ⟨S1024x1024, .f32⟩
  | 39 => ⟨S1024x1024, .i1⟩
  | 40 => ⟨S_, .f32⟩
  | 41 => ⟨S1024x1024, .f32⟩
  | 42 => ⟨S1024x1024, .f32⟩
  | 43 => ⟨S1024x1x1, .i1⟩
  | 44 => ⟨S1024, .i1⟩
  | 45 => ⟨S1024, .i1⟩
  | 46 => ⟨S1024, .i32⟩
  | 47 => ⟨S_, .i32⟩
  | 48 => ⟨S_, .i32⟩
  | 49 => ⟨S1024, .i32⟩
  | 50 => ⟨S_, .i32⟩
  | 51 => ⟨S1024, .i32⟩
  | 52 => ⟨S_, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i1⟩
  | 59 => ⟨S_, .i32⟩
  | 60 => ⟨S1024, .i32⟩
  | 61 => ⟨S1024, .i32⟩
  | 62 => ⟨S1024, .i32⟩
  | 63 => ⟨S1024x1, .i32⟩
  | 64 => ⟨S_, .i32⟩
  | 65 => ⟨S1024, .i32⟩
  | 66 => ⟨S1024, .i32⟩
  | 67 => ⟨S_, .i32⟩
  | 68 => ⟨S_, .i32⟩
  | 69 => ⟨S1024, .i32⟩
  | 70 => ⟨S_, .i32⟩
  | 71 => ⟨S1024, .i32⟩
  | 72 => ⟨S1024, .i32⟩
  | 73 => ⟨S1024, .i32⟩
  | 74 => ⟨S_, .i32⟩
  | 75 => ⟨S1024, .i32⟩
  | 76 => ⟨S1024, .i1⟩
  | 77 => ⟨S1024, .i32⟩
  | 78 => ⟨S1024, .i32⟩
  | 79 => ⟨S_, .i32⟩
  | 80 => ⟨S1024, .i32⟩
  | 81 => ⟨S1024, .i1⟩
  | 82 => ⟨S1024, .i1⟩
  | 83 => ⟨S_, .i32⟩
  | 84 => ⟨S1024, .i32⟩
  | 85 => ⟨S1024, .i32⟩
  | 86 => ⟨S1024, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S1024, .i32⟩
  | 94 => ⟨S1024, .i32⟩
  | 95 => ⟨S_, .i32⟩
  | 96 => ⟨S1024, .i32⟩
  | 97 => ⟨S1024, .i1⟩
  | 98 => ⟨S_, .i32⟩
  | 99 => ⟨S1024, .i32⟩
  | 100 => ⟨S1024, .i1⟩
  | 101 => ⟨S_, .i32⟩
  | 102 => ⟨S_, .i1⟩
  | 103 => ⟨S1024, .i1⟩
  | 104 => ⟨S1024, .i1⟩
  | 105 => ⟨S1024, .i1⟩
  | 106 => ⟨S1024, .i32⟩
  | 107 => ⟨S1024, .i32⟩
  | 108 => ⟨S1024, .i32⟩
  | 109 => ⟨S_, .i32⟩
  | 110 => ⟨S1024, .i32⟩
  | 111 => ⟨S1024, .i1⟩
  | 112 => ⟨S_, .i32⟩
  | 113 => ⟨S1024, .i32⟩
  | 114 => ⟨S1024, .i32⟩
  | 115 => ⟨S1024, .i32⟩
  | 116 => ⟨S1024x1, .i32⟩
  | 117 => ⟨S1, .i32⟩
  | 118 => ⟨S_, .i32⟩
  | 119 => ⟨S1024x1, .i32⟩
  | 120 => ⟨S1024x1, .i1⟩
  | 121 => ⟨S1x1, .i32⟩
  | 122 => ⟨S1024x1, .i32⟩
  | 123 => ⟨S1024x1, .i1⟩
  | 124 => ⟨S1024x1, .i1⟩
  | 125 => ⟨S_, .i1⟩
  | 126 => ⟨S1024, .i1⟩
  | 127 => ⟨S1024x1024, .f32⟩
  | _ => ⟨S1x32x1024, .f32⟩

abbrev hbmTy0_7 (i : Nat) : BufTy := match i % 128 with
  | 0 => ⟨S1024x1024, .i1⟩
  | 1 => ⟨S_, .f32⟩
  | 2 => ⟨S1024x1024, .f32⟩
  | 3 => ⟨S1024x1024, .f32⟩
  | 4 => ⟨S1024x1x1, .i1⟩
  | 5 => ⟨S1024, .i1⟩
  | 6 => ⟨S1024, .i1⟩
  | 7 => ⟨S1024, .i32⟩
  | 8 => ⟨S_, .i32⟩
  | 9 => ⟨S_, .i32⟩
  | 10 => ⟨S1024, .i32⟩
  | 11 => ⟨S_, .i32⟩
  | 12 => ⟨S1024, .i32⟩
  | 13 => ⟨S_, .i32⟩
  | 14 => ⟨S_, .i32⟩
  | 15 => ⟨S1024, .i32⟩
  | 16 => ⟨S1024, .i32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S_, .i32⟩
  | 26 => ⟨S1024, .i32⟩
  | 27 => ⟨S1024, .i32⟩
  | 28 => ⟨S_, .i32⟩
  | 29 => ⟨S_, .i32⟩
  | 30 => ⟨S1024, .i32⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S1024, .i32⟩
  | 39 => ⟨S1024, .i32⟩
  | 40 => ⟨S_, .i32⟩
  | 41 => ⟨S1024, .i32⟩
  | 42 => ⟨S1024, .i1⟩
  | 43 => ⟨S1024, .i1⟩
  | 44 => ⟨S_, .i32⟩
  | 45 => ⟨S1024, .i32⟩
  | 46 => ⟨S1024, .i32⟩
  | 47 => ⟨S1024, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S1024, .i32⟩
  | 55 => ⟨S1024, .i32⟩
  | 56 => ⟨S_, .i32⟩
  | 57 => ⟨S1024, .i32⟩
  | 58 => ⟨S1024, .i1⟩
  | 59 => ⟨S_, .i32⟩
  | 60 => ⟨S1024, .i32⟩
  | 61 => ⟨S1024, .i1⟩
  | 62 => ⟨S_, .i32⟩
  | 63 => ⟨S_, .i1⟩
  | 64 => ⟨S1024, .i1⟩
  | 65 => ⟨S1024, .i1⟩
  | 66 => ⟨S1024, .i1⟩
  | 67 => ⟨S1024, .i32⟩
  | 68 => ⟨S1024, .i32⟩
  | 69 => ⟨S1024, .i32⟩
  | 70 => ⟨S_, .i32⟩
  | 71 => ⟨S1024, .i32⟩
  | 72 => ⟨S1024, .i1⟩
  | 73 => ⟨S_, .i32⟩
  | 74 => ⟨S1024, .i32⟩
  | 75 => ⟨S1024, .i32⟩
  | 76 => ⟨S1024, .i32⟩
  | 77 => ⟨S1024x1, .i32⟩
  | 78 => ⟨S1, .i32⟩
  | 79 => ⟨S_, .i32⟩
  | 80 => ⟨S1024x1, .i32⟩
  | 81 => ⟨S1024x1, .i1⟩
  | 82 => ⟨S1x1, .i32⟩
  | 83 => ⟨S1024x1, .i32⟩
  | 84 => ⟨S1024x1, .i1⟩
  | 85 => ⟨S1024x1, .i1⟩
  | 86 => ⟨S_, .i1⟩
  | 87 => ⟨S1024, .i1⟩
  | 88 => ⟨S1024x1024, .f32⟩
  | 89 => ⟨S1024x1024, .i1⟩
  | 90 => ⟨S_, .f32⟩
  | 91 => ⟨S1024x1024, .f32⟩
  | 92 => ⟨S1024x1024, .f32⟩
  | 93 => ⟨S1024x1x1, .i1⟩
  | 94 => ⟨S1024, .i1⟩
  | 95 => ⟨S1024, .i1⟩
  | 96 => ⟨S1024, .i32⟩
  | 97 => ⟨S_, .i32⟩
  | 98 => ⟨S_, .i32⟩
  | 99 => ⟨S1024, .i32⟩
  | 100 => ⟨S_, .i32⟩
  | 101 => ⟨S1024, .i32⟩
  | 102 => ⟨S_, .i32⟩
  | 103 => ⟨S_, .i32⟩
  | 104 => ⟨S1024, .i32⟩
  | 105 => ⟨S1024, .i32⟩
  | 106 => ⟨S_, .i32⟩
  | 107 => ⟨S1024, .i32⟩
  | 108 => ⟨S1024, .i1⟩
  | 109 => ⟨S_, .i32⟩
  | 110 => ⟨S1024, .i32⟩
  | 111 => ⟨S1024, .i32⟩
  | 112 => ⟨S1024, .i32⟩
  | 113 => ⟨S1024x1, .i32⟩
  | 114 => ⟨S_, .i32⟩
  | 115 => ⟨S1024, .i32⟩
  | 116 => ⟨S1024, .i32⟩
  | 117 => ⟨S_, .i32⟩
  | 118 => ⟨S_, .i32⟩
  | 119 => ⟨S1024, .i32⟩
  | 120 => ⟨S_, .i32⟩
  | 121 => ⟨S1024, .i32⟩
  | 122 => ⟨S1024, .i32⟩
  | 123 => ⟨S1024, .i32⟩
  | 124 => ⟨S_, .i32⟩
  | 125 => ⟨S1024, .i32⟩
  | 126 => ⟨S1024, .i1⟩
  | 127 => ⟨S1024, .i32⟩
  | _ => ⟨S1x32x1024, .f32⟩

abbrev hbmTy0_8 (i : Nat) : BufTy := match i % 128 with
  | 0 => ⟨S1024, .i32⟩
  | 1 => ⟨S_, .i32⟩
  | 2 => ⟨S1024, .i32⟩
  | 3 => ⟨S1024, .i1⟩
  | 4 => ⟨S1024, .i1⟩
  | 5 => ⟨S_, .i32⟩
  | 6 => ⟨S1024, .i32⟩
  | 7 => ⟨S1024, .i32⟩
  | 8 => ⟨S1024, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S1024, .i32⟩
  | 16 => ⟨S1024, .i32⟩
  | 17 => ⟨S_, .i32⟩
  | 18 => ⟨S1024, .i32⟩
  | 19 => ⟨S1024, .i1⟩
  | 20 => ⟨S_, .i32⟩
  | 21 => ⟨S1024, .i32⟩
  | 22 => ⟨S1024, .i1⟩
  | 23 => ⟨S_, .i32⟩
  | 24 => ⟨S_, .i1⟩
  | 25 => ⟨S1024, .i1⟩
  | 26 => ⟨S1024, .i1⟩
  | 27 => ⟨S1024, .i1⟩
  | 28 => ⟨S1024, .i32⟩
  | 29 => ⟨S1024, .i32⟩
  | 30 => ⟨S1024, .i32⟩
  | 31 => ⟨S_, .i32⟩
  | 32 => ⟨S1024, .i32⟩
  | 33 => ⟨S1024, .i1⟩
  | 34 => ⟨S_, .i32⟩
  | 35 => ⟨S1024, .i32⟩
  | 36 => ⟨S1024, .i32⟩
  | 37 => ⟨S1024, .i32⟩
  | 38 => ⟨S1024x1, .i32⟩
  | 39 => ⟨S1, .i32⟩
  | 40 => ⟨S_, .i32⟩
  | 41 => ⟨S1024x1, .i32⟩
  | 42 => ⟨S1024x1, .i1⟩
  | 43 => ⟨S1x1, .i32⟩
  | 44 => ⟨S1024x1, .i32⟩
  | 45 => ⟨S1024x1, .i1⟩
  | 46 => ⟨S1024x1, .i1⟩
  | 47 => ⟨S_, .i1⟩
  | 48 => ⟨S1024, .i1⟩
  | 49 => ⟨S1024x1024, .f32⟩
  | 50 => ⟨S1024x1024, .i1⟩
  | 51 => ⟨S_, .f32⟩
  | 52 => ⟨S1024x1024, .f32⟩
  | 53 => ⟨S1024x1024, .f32⟩
  | 54 => ⟨S1024x1x1, .i1⟩
  | 55 => ⟨S1024, .i1⟩
  | 56 => ⟨S1024, .i1⟩
  | 57 => ⟨S1024, .i32⟩
  | 58 => ⟨S_, .i32⟩
  | 59 => ⟨S_, .i32⟩
  | 60 => ⟨S1024, .i32⟩
  | 61 => ⟨S_, .i32⟩
  | 62 => ⟨S1024, .i32⟩
  | 63 => ⟨S_, .i32⟩
  | 64 => ⟨S_, .i32⟩
  | 65 => ⟨S1024, .i32⟩
  | 66 => ⟨S1024, .i32⟩
  | 67 => ⟨S_, .i32⟩
  | 68 => ⟨S1024, .i32⟩
  | 69 => ⟨S1024, .i1⟩
  | 70 => ⟨S_, .i32⟩
  | 71 => ⟨S1024, .i32⟩
  | 72 => ⟨S1024, .i32⟩
  | 73 => ⟨S1024, .i32⟩
  | 74 => ⟨S1024x1, .i32⟩
  | 75 => ⟨S_, .i32⟩
  | 76 => ⟨S1024, .i32⟩
  | 77 => ⟨S1024, .i32⟩
  | 78 => ⟨S_, .i32⟩
  | 79 => ⟨S_, .i32⟩
  | 80 => ⟨S1024, .i32⟩
  | 81 => ⟨S_, .i32⟩
  | 82 => ⟨S1024, .i32⟩
  | 83 => ⟨S1024, .i32⟩
  | 84 => ⟨S1024, .i32⟩
  | 85 => ⟨S_, .i32⟩
  | 86 => ⟨S1024, .i32⟩
  | 87 => ⟨S1024, .i1⟩
  | 88 => ⟨S1024, .i32⟩
  | 89 => ⟨S1024, .i32⟩
  | 90 => ⟨S_, .i32⟩
  | 91 => ⟨S1024, .i32⟩
  | 92 => ⟨S1024, .i1⟩
  | 93 => ⟨S1024, .i1⟩
  | 94 => ⟨S_, .i32⟩
  | 95 => ⟨S1024, .i32⟩
  | 96 => ⟨S1024, .i32⟩
  | 97 => ⟨S1024, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S1024, .i32⟩
  | 105 => ⟨S1024, .i32⟩
  | 106 => ⟨S_, .i32⟩
  | 107 => ⟨S1024, .i32⟩
  | 108 => ⟨S1024, .i1⟩
  | 109 => ⟨S_, .i32⟩
  | 110 => ⟨S1024, .i32⟩
  | 111 => ⟨S1024, .i1⟩
  | 112 => ⟨S_, .i32⟩
  | 113 => ⟨S_, .i1⟩
  | 114 => ⟨S1024, .i1⟩
  | 115 => ⟨S1024, .i1⟩
  | 116 => ⟨S1024, .i1⟩
  | 117 => ⟨S1024, .i32⟩
  | 118 => ⟨S1024, .i32⟩
  | 119 => ⟨S1024, .i32⟩
  | 120 => ⟨S_, .i32⟩
  | 121 => ⟨S1024, .i32⟩
  | 122 => ⟨S1024, .i1⟩
  | 123 => ⟨S_, .i32⟩
  | 124 => ⟨S1024, .i32⟩
  | 125 => ⟨S1024, .i32⟩
  | 126 => ⟨S1024, .i32⟩
  | 127 => ⟨S1024x1, .i32⟩
  | _ => ⟨S1x32x1024, .f32⟩

abbrev hbmTy0_9 (i : Nat) : BufTy := match i % 128 with
  | 0 => ⟨S1, .i32⟩
  | 1 => ⟨S_, .i32⟩
  | 2 => ⟨S1024x1, .i32⟩
  | 3 => ⟨S1024x1, .i1⟩
  | 4 => ⟨S1x1, .i32⟩
  | 5 => ⟨S1024x1, .i32⟩
  | 6 => ⟨S1024x1, .i1⟩
  | 7 => ⟨S1024x1, .i1⟩
  | 8 => ⟨S_, .i1⟩
  | 9 => ⟨S1024, .i1⟩
  | 10 => ⟨S1024x1024, .f32⟩
  | 11 => ⟨S1024x1024, .i1⟩
  | 12 => ⟨S_, .f32⟩
  | 13 => ⟨S1024x1024, .f32⟩
  | 14 => ⟨S1024x1024, .f32⟩
  | 15 => ⟨S1024x1x1, .i1⟩
  | 16 => ⟨S1024, .i1⟩
  | 17 => ⟨S1024, .i1⟩
  | 18 => ⟨S1024, .i32⟩
  | 19 => ⟨S_, .i32⟩
  | 20 => ⟨S_, .i32⟩
  | 21 => ⟨S1024, .i32⟩
  | 22 => ⟨S_, .i32⟩
  | 23 => ⟨S1024, .i32⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i1⟩
  | 31 => ⟨S_, .i32⟩
  | 32 => ⟨S1024, .i32⟩
  | 33 => ⟨S1024, .i32⟩
  | 34 => ⟨S1024, .i32⟩
  | 35 => ⟨S1024x1, .i32⟩
  | 36 => ⟨S_, .i32⟩
  | 37 => ⟨S1024, .i32⟩
  | 38 => ⟨S1024, .i32⟩
  | 39 => ⟨S_, .i32⟩
  | 40 => ⟨S_, .i32⟩
  | 41 => ⟨S1024, .i32⟩
  | 42 => ⟨S_, .i32⟩
  | 43 => ⟨S1024, .i32⟩
  | 44 => ⟨S1024, .i32⟩
  | 45 => ⟨S1024, .i32⟩
  | 46 => ⟨S_, .i32⟩
  | 47 => ⟨S1024, .i32⟩
  | 48 => ⟨S1024, .i1⟩
  | 49 => ⟨S1024, .i32⟩
  | 50 => ⟨S1024, .i32⟩
  | 51 => ⟨S_, .i32⟩
  | 52 => ⟨S1024, .i32⟩
  | 53 => ⟨S1024, .i1⟩
  | 54 => ⟨S1024, .i1⟩
  | 55 => ⟨S_, .i32⟩
  | 56 => ⟨S1024, .i32⟩
  | 57 => ⟨S1024, .i32⟩
  | 58 => ⟨S1024, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S1024, .i32⟩
  | 66 => ⟨S1024, .i32⟩
  | 67 => ⟨S_, .i32⟩
  | 68 => ⟨S1024, .i32⟩
  | 69 => ⟨S1024, .i1⟩
  | 70 => ⟨S_, .i32⟩
  | 71 => ⟨S1024, .i32⟩
  | 72 => ⟨S1024, .i1⟩
  | 73 => ⟨S_, .i32⟩
  | 74 => ⟨S_, .i1⟩
  | 75 => ⟨S1024, .i1⟩
  | 76 => ⟨S1024, .i1⟩
  | 77 => ⟨S1024, .i1⟩
  | 78 => ⟨S1024, .i32⟩
  | 79 => ⟨S1024, .i32⟩
  | 80 => ⟨S1024, .i32⟩
  | 81 => ⟨S_, .i32⟩
  | 82 => ⟨S1024, .i32⟩
  | 83 => ⟨S1024, .i1⟩
  | 84 => ⟨S_, .i32⟩
  | 85 => ⟨S1024, .i32⟩
  | 86 => ⟨S1024, .i32⟩
  | 87 => ⟨S1024, .i32⟩
  | 88 => ⟨S1024x1, .i32⟩
  | 89 => ⟨S1, .i32⟩
  | 90 => ⟨S_, .i32⟩
  | 91 => ⟨S1024x1, .i32⟩
  | 92 => ⟨S1024x1, .i1⟩
  | 93 => ⟨S1x1, .i32⟩
  | 94 => ⟨S1024x1, .i32⟩
  | 95 => ⟨S1024x1, .i1⟩
  | 96 => ⟨S1024x1, .i1⟩
  | 97 => ⟨S_, .i1⟩
  | 98 => ⟨S1024, .i1⟩
  | 99 => ⟨S1024x1024, .f32⟩
  | 100 => ⟨S1024x1024, .i1⟩
  | 101 => ⟨S_, .f32⟩
  | 102 => ⟨S1024x1024, .f32⟩
  | 103 => ⟨S1024x1024, .f32⟩
  | 104 => ⟨S1024x1x1, .i1⟩
  | 105 => ⟨S1024, .i1⟩
  | 106 => ⟨S1024, .i1⟩
  | 107 => ⟨S1024, .i32⟩
  | 108 => ⟨S_, .i32⟩
  | 109 => ⟨S_, .i32⟩
  | 110 => ⟨S1024, .i32⟩
  | 111 => ⟨S_, .i32⟩
  | 112 => ⟨S1024, .i32⟩
  | 113 => ⟨S_, .i32⟩
  | 114 => ⟨S_, .i32⟩
  | 115 => ⟨S1024, .i32⟩
  | 116 => ⟨S1024, .i32⟩
  | 117 => ⟨S_, .i32⟩
  | 118 => ⟨S1024, .i32⟩
  | 119 => ⟨S1024, .i1⟩
  | 120 => ⟨S_, .i32⟩
  | 121 => ⟨S1024, .i32⟩
  | 122 => ⟨S1024, .i32⟩
  | 123 => ⟨S1024, .i32⟩
  | 124 => ⟨S1024x1, .i32⟩
  | 125 => ⟨S_, .i32⟩
  | 126 => ⟨S1024, .i32⟩
  | 127 => ⟨S1024, .i32⟩
  | _ => ⟨S1x32x1024, .f32⟩

abbrev hbmTy0_10 (i : Nat) : BufTy := match i % 128 with
  | 0 => ⟨S_, .i32⟩
  | 1 => ⟨S_, .i32⟩
  | 2 => ⟨S1024, .i32⟩
  | 3 => ⟨S_, .i32⟩
  | 4 => ⟨S1024, .i32⟩
  | 5 => ⟨S1024, .i32⟩
  | 6 => ⟨S1024, .i32⟩
  | 7 => ⟨S_, .i32⟩
  | 8 => ⟨S1024, .i32⟩
  | 9 => ⟨S1024, .i1⟩
  | 10 => ⟨S1024, .i32⟩
  | 11 => ⟨S1024, .i32⟩
  | 12 => ⟨S_, .i32⟩
  | 13 => ⟨S1024, .i32⟩
  | 14 => ⟨S1024, .i1⟩
  | 15 => ⟨S1024, .i1⟩
  | 16 => ⟨S_, .i32⟩
  | 17 => ⟨S1024, .i32⟩
  | 18 => ⟨S1024, .i32⟩
  | 19 => ⟨S1024, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S1024, .i32⟩
  | 27 => ⟨S1024, .i32⟩
  | 28 => ⟨S_, .i32⟩
  | 29 => ⟨S1024, .i32⟩
  | 30 => ⟨S1024, .i1⟩
  | 31 => ⟨S_, .i32⟩
  | 32 => ⟨S1024, .i32⟩
  | 33 => ⟨S1024, .i1⟩
  | 34 => ⟨S_, .i32⟩
  | 35 => ⟨S_, .i1⟩
  | 36 => ⟨S1024, .i1⟩
  | 37 => ⟨S1024, .i1⟩
  | 38 => ⟨S1024, .i1⟩
  | 39 => ⟨S1024, .i32⟩
  | 40 => ⟨S1024, .i32⟩
  | 41 => ⟨S1024, .i32⟩
  | 42 => ⟨S_, .i32⟩
  | 43 => ⟨S1024, .i32⟩
  | 44 => ⟨S1024, .i1⟩
  | 45 => ⟨S_, .i32⟩
  | 46 => ⟨S1024, .i32⟩
  | 47 => ⟨S1024, .i32⟩
  | 48 => ⟨S1024, .i32⟩
  | 49 => ⟨S1024x1, .i32⟩
  | 50 => ⟨S1, .i32⟩
  | 51 => ⟨S_, .i32⟩
  | 52 => ⟨S1024x1, .i32⟩
  | 53 => ⟨S1024x1, .i1⟩
  | 54 => ⟨S1x1, .i32⟩
  | 55 => ⟨S1024x1, .i32⟩
  | 56 => ⟨S1024x1, .i1⟩
  | 57 => ⟨S1024x1, .i1⟩
  | 58 => ⟨S_, .i1⟩
  | 59 => ⟨S1024, .i1⟩
  | 60 => ⟨S1024x1024, .f32⟩
  | 61 => ⟨S1024x1024, .i1⟩
  | 62 => ⟨S_, .f32⟩
  | 63 => ⟨S1024x1024, .f32⟩
  | 64 => ⟨S1024x1024, .f32⟩
  | 65 => ⟨S1024x1x1, .i1⟩
  | 66 => ⟨S1024, .i1⟩
  | 67 => ⟨S1024, .i1⟩
  | 68 => ⟨S1024, .i32⟩
  | 69 => ⟨S_, .i32⟩
  | 70 => ⟨S_, .i32⟩
  | 71 => ⟨S1024, .i32⟩
  | 72 => ⟨S_, .i32⟩
  | 73 => ⟨S1024, .i32⟩
  | 74 => ⟨S_, .i32⟩
  | 75 => ⟨S_, .i32⟩
  | 76 => ⟨S1024, .i32⟩
  | 77 => ⟨S1024, .i32⟩
  | 78 => ⟨S_, .i32⟩
  | 79 => ⟨S1024, .i32⟩
  | 80 => ⟨S1024, .i1⟩
  | 81 => ⟨S_, .i32⟩
  | 82 => ⟨S1024, .i32⟩
  | 83 => ⟨S1024, .i32⟩
  | 84 => ⟨S1024, .i32⟩
  | 85 => ⟨S1024x1, .i32⟩
  | 86 => ⟨S_, .i32⟩
  | 87 => ⟨S1024, .i32⟩
  | 88 => ⟨S1024, .i32⟩
  | 89 => ⟨S_, .i32⟩
  | 90 => ⟨S_, .i32⟩
  | 91 => ⟨S1024, .i32⟩
  | 92 => ⟨S_, .i32⟩
  | 93 => ⟨S1024, .i32⟩
  | 94 => ⟨S1024, .i32⟩
  | 95 => ⟨S1024, .i32⟩
  | 96 => ⟨S_, .i32⟩
  | 97 => ⟨S1024, .i32⟩
  | 98 => ⟨S1024, .i1⟩
  | 99 => ⟨S1024, .i32⟩
  | 100 => ⟨S1024, .i32⟩
  | 101 => ⟨S_, .i32⟩
  | 102 => ⟨S1024, .i32⟩
  | 103 => ⟨S1024, .i1⟩
  | 104 => ⟨S1024, .i1⟩
  | 105 => ⟨S_, .i32⟩
  | 106 => ⟨S1024, .i32⟩
  | 107 => ⟨S1024, .i32⟩
  | 108 => ⟨S1024, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S1024, .i32⟩
  | 116 => ⟨S1024, .i32⟩
  | 117 => ⟨S_, .i32⟩
  | 118 => ⟨S1024, .i32⟩
  | 119 => ⟨S1024, .i1⟩
  | 120 => ⟨S_, .i32⟩
  | 121 => ⟨S1024, .i32⟩
  | 122 => ⟨S1024, .i1⟩
  | 123 => ⟨S_, .i32⟩
  | 124 => ⟨S_, .i1⟩
  | 125 => ⟨S1024, .i1⟩
  | 126 => ⟨S1024, .i1⟩
  | 127 => ⟨S1024, .i1⟩
  | _ => ⟨S1x32x1024, .f32⟩

abbrev hbmTy0_11 (i : Nat) : BufTy := match i % 128 with
  | 0 => ⟨S1024, .i32⟩
  | 1 => ⟨S1024, .i32⟩
  | 2 => ⟨S1024, .i32⟩
  | 3 => ⟨S_, .i32⟩
  | 4 => ⟨S1024, .i32⟩
  | 5 => ⟨S1024, .i1⟩
  | 6 => ⟨S_, .i32⟩
  | 7 => ⟨S1024, .i32⟩
  | 8 => ⟨S1024, .i32⟩
  | 9 => ⟨S1024, .i32⟩
  | 10 => ⟨S1024x1, .i32⟩
  | 11 => ⟨S1, .i32⟩
  | 12 => ⟨S_, .i32⟩
  | 13 => ⟨S1024x1, .i32⟩
  | 14 => ⟨S1024x1, .i1⟩
  | 15 => ⟨S1x1, .i32⟩
  | 16 => ⟨S1024x1, .i32⟩
  | 17 => ⟨S1024x1, .i1⟩
  | 18 => ⟨S1024x1, .i1⟩
  | 19 => ⟨S_, .i1⟩
  | 20 => ⟨S1024, .i1⟩
  | 21 => ⟨S1024x1024, .f32⟩
  | 22 => ⟨S1024x1024, .i1⟩
  | 23 => ⟨S_, .f32⟩
  | 24 => ⟨S1024x1024, .f32⟩
  | 25 => ⟨S1024x1024, .f32⟩
  | 26 => ⟨S1024x1x1, .i1⟩
  | 27 => ⟨S1024, .i1⟩
  | 28 => ⟨S1024, .i1⟩
  | 29 => ⟨S1024, .i32⟩
  | 30 => ⟨S_, .i32⟩
  | 31 => ⟨S_, .i32⟩
  | 32 => ⟨S1024, .i32⟩
  | 33 => ⟨S_, .i32⟩
  | 34 => ⟨S1024, .i32⟩
  | 35 => ⟨S_, .i32⟩
  | 36 => ⟨S_, .i32⟩
  | 37 => ⟨S1024, .i32⟩
  | 38 => ⟨S1024, .i32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S_, .i32⟩
  | 48 => ⟨S1024, .i32⟩
  | 49 => ⟨S1024, .i32⟩
  | 50 => ⟨S_, .i32⟩
  | 51 => ⟨S_, .i32⟩
  | 52 => ⟨S1024, .i32⟩
  | 53 => ⟨S_, .i32⟩
  | 54 => ⟨S1024, .i32⟩
  | 55 => ⟨S1024, .i32⟩
  | 56 => ⟨S1024, .i32⟩
  | 57 => ⟨S_, .i32⟩
  | 58 => ⟨S1024, .i32⟩
  | 59 => ⟨S1024, .i1⟩
  | 60 => ⟨S1024, .i32⟩
  | 61 => ⟨S1024, .i32⟩
  | 62 => ⟨S_, .i32⟩
  | 63 => ⟨S1024, .i32⟩
  | 64 => ⟨S1024, .i1⟩
  | 65 => ⟨S1024, .i1⟩
  | 66 => ⟨S_, .i32⟩
  | 67 => ⟨S1024, .i32⟩
  | 68 => ⟨S1024, .i32⟩
  | 69 => ⟨S1024, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S1024, .i32⟩
  | 77 => ⟨S1024, .i32⟩
  | 78 => ⟨S_, .i32⟩
  | 79 => ⟨S1024, .i32⟩
  | 80 => ⟨S1024, .i1⟩
  | 81 => ⟨S_, .i32⟩
  | 82 => ⟨S1024, .i32⟩
  | 83 => ⟨S1024, .i1⟩
  | 84 => ⟨S_, .i32⟩
  | 85 => ⟨S_, .i1⟩
  | 86 => ⟨S1024, .i1⟩
  | 87 => ⟨S1024, .i1⟩
  | 88 => ⟨S1024, .i1⟩
  | 89 => ⟨S1024, .i32⟩
  | 90 => ⟨S1024, .i32⟩
  | 91 => ⟨S1024, .i32⟩
  | 92 => ⟨S_, .i32⟩
  | 93 => ⟨S1024, .i32⟩
  | 94 => ⟨S1024, .i1⟩
  | 95 => ⟨S_, .i32⟩
  | 96 => ⟨S1024, .i32⟩
  | 97 => ⟨S1024, .i32⟩
  | 98 => ⟨S1024, .i32⟩
  | 99 => ⟨S1024x1, .i32⟩
  | 100 => ⟨S1, .i32⟩
  | 101 => ⟨S_, .i32⟩
  | 102 => ⟨S1024x1, .i32⟩
  | 103 => ⟨S1024x1, .i1⟩
  | 104 => ⟨S1x1, .i32⟩
  | 105 => ⟨S1024x1, .i32⟩
  | 106 => ⟨S1024x1, .i1⟩
  | 107 => ⟨S1024x1, .i1⟩
  | 108 => ⟨S_, .i1⟩
  | 109 => ⟨S1024, .i1⟩
  | 110 => ⟨S1024x1024, .f32⟩
  | 111 => ⟨S1024x1024, .i1⟩
  | 112 => ⟨S_, .f32⟩
  | 113 => ⟨S1024x1024, .f32⟩
  | 114 => ⟨S1024x1024, .f32⟩
  | 115 => ⟨S1024x1x1, .i1⟩
  | 116 => ⟨S1024, .i1⟩
  | 117 => ⟨S1024, .i1⟩
  | 118 => ⟨S1024, .i32⟩
  | 119 => ⟨S_, .i32⟩
  | 120 => ⟨S_, .i32⟩
  | 121 => ⟨S1024, .i32⟩
  | 122 => ⟨S_, .i32⟩
  | 123 => ⟨S1024, .i32⟩
  | 124 => ⟨S_, .i32⟩
  | 125 => ⟨S_, .i32⟩
  | 126 => ⟨S1024, .i32⟩
  | 127 => ⟨S1024, .i32⟩
  | _ => ⟨S1x32x1024, .f32⟩

abbrev hbmTy0_12 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i32⟩
  | 6 => ⟨S1024, .i32⟩
  | 7 => ⟨S1024x1, .i32⟩
  | 8 => ⟨S_, .i32⟩
  | 9 => ⟨S1024, .i32⟩
  | 10 => ⟨S1024, .i32⟩
  | 11 => ⟨S_, .i32⟩
  | 12 => ⟨S_, .i32⟩
  | 13 => ⟨S1024, .i32⟩
  | 14 => ⟨S_, .i32⟩
  | 15 => ⟨S1024, .i32⟩
  | 16 => ⟨S1024, .i32⟩
  | 17 => ⟨S1024, .i32⟩
  | 18 => ⟨S_, .i32⟩
  | 19 => ⟨S1024, .i32⟩
  | 20 => ⟨S1024, .i1⟩
  | 21 => ⟨S1024, .i32⟩
  | 22 => ⟨S1024, .i32⟩
  | 23 => ⟨S_, .i32⟩
  | 24 => ⟨S1024, .i32⟩
  | 25 => ⟨S1024, .i1⟩
  | 26 => ⟨S1024, .i1⟩
  | 27 => ⟨S_, .i32⟩
  | 28 => ⟨S1024, .i32⟩
  | 29 => ⟨S1024, .i32⟩
  | 30 => ⟨S1024, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S1024, .i32⟩
  | 38 => ⟨S1024, .i32⟩
  | 39 => ⟨S_, .i32⟩
  | 40 => ⟨S1024, .i32⟩
  | 41 => ⟨S1024, .i1⟩
  | 42 => ⟨S_, .i32⟩
  | 43 => ⟨S1024, .i32⟩
  | 44 => ⟨S1024, .i1⟩
  | 45 => ⟨S_, .i32⟩
  | 46 => ⟨S_, .i1⟩
  | 47 => ⟨S1024, .i1⟩
  | 48 => ⟨S1024, .i1⟩
  | 49 => ⟨S1024, .i1⟩
  | 50 => ⟨S1024, .i32⟩
  | 51 => ⟨S1024, .i32⟩
  | 52 => ⟨S1024, .i32⟩
  | 53 => ⟨S_, .i32⟩
  | 54 => ⟨S1024, .i32⟩
  | 55 => ⟨S1024, .i1⟩
  | 56 => ⟨S_, .i32⟩
  | 57 => ⟨S1024, .i32⟩
  | 58 => ⟨S1024, .i32⟩
  | 59 => ⟨S1024, .i32⟩
  | 60 => ⟨S1024x1, .i32⟩
  | 61 => ⟨S1, .i32⟩
  | 62 => ⟨S_, .i32⟩
  | 63 => ⟨S1024x1, .i32⟩
  | 64 => ⟨S1024x1, .i1⟩
  | 65 => ⟨S1x1, .i32⟩
  | 66 => ⟨S1024x1, .i32⟩
  | 67 => ⟨S1024x1, .i1⟩
  | 68 => ⟨S1024x1, .i1⟩
  | 69 => ⟨S_, .i1⟩
  | 70 => ⟨S1024, .i1⟩
  | 71 => ⟨S1024x1024, .f32⟩
  | 72 => ⟨S1024x1024, .i1⟩
  | 73 => ⟨S_, .f32⟩
  | 74 => ⟨S1024x1024, .f32⟩
  | 75 => ⟨S1024x1024, .f32⟩
  | 76 => ⟨S1024x1x1, .i1⟩
  | 77 => ⟨S1024, .i1⟩
  | 78 => ⟨S1024, .i1⟩
  | 79 => ⟨S1024, .i32⟩
  | 80 => ⟨S_, .i32⟩
  | 81 => ⟨S_, .i32⟩
  | 82 => ⟨S1024, .i32⟩
  | 83 => ⟨S_, .i32⟩
  | 84 => ⟨S1024, .i32⟩
  | 85 => ⟨S_, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i1⟩
  | 92 => ⟨S_, .i32⟩
  | 93 => ⟨S1024, .i32⟩
  | 94 => ⟨S1024, .i32⟩
  | 95 => ⟨S1024, .i32⟩
  | 96 => ⟨S1024x1, .i32⟩
  | 97 => ⟨S_, .i32⟩
  | 98 => ⟨S1024, .i32⟩
  | 99 => ⟨S1024, .i32⟩
  | 100 => ⟨S_, .i32⟩
  | 101 => ⟨S_, .i32⟩
  | 102 => ⟨S1024, .i32⟩
  | 103 => ⟨S_, .i32⟩
  | 104 => ⟨S1024, .i32⟩
  | 105 => ⟨S1024, .i32⟩
  | 106 => ⟨S1024, .i32⟩
  | 107 => ⟨S_, .i32⟩
  | 108 => ⟨S1024, .i32⟩
  | 109 => ⟨S1024, .i1⟩
  | 110 => ⟨S1024, .i32⟩
  | 111 => ⟨S1024, .i32⟩
  | 112 => ⟨S_, .i32⟩
  | 113 => ⟨S1024, .i32⟩
  | 114 => ⟨S1024, .i1⟩
  | 115 => ⟨S1024, .i1⟩
  | 116 => ⟨S_, .i32⟩
  | 117 => ⟨S1024, .i32⟩
  | 118 => ⟨S1024, .i32⟩
  | 119 => ⟨S1024, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S1024, .i32⟩
  | 127 => ⟨S1024, .i32⟩
  | _ => ⟨S1x32x1024, .f32⟩

abbrev hbmTy0_13 (i : Nat) : BufTy := match i % 128 with
  | 0 => ⟨S_, .i32⟩
  | 1 => ⟨S1024, .i32⟩
  | 2 => ⟨S1024, .i1⟩
  | 3 => ⟨S_, .i32⟩
  | 4 => ⟨S1024, .i32⟩
  | 5 => ⟨S1024, .i1⟩
  | 6 => ⟨S_, .i32⟩
  | 7 => ⟨S_, .i1⟩
  | 8 => ⟨S1024, .i1⟩
  | 9 => ⟨S1024, .i1⟩
  | 10 => ⟨S1024, .i1⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S_, .i32⟩
  | 18 => ⟨S1024, .i32⟩
  | 19 => ⟨S1024, .i32⟩
  | 20 => ⟨S1024, .i32⟩
  | 21 => ⟨S1024x1, .i32⟩
  | 22 => ⟨S1, .i32⟩
  | 23 => ⟨S_, .i32⟩
  | 24 => ⟨S1024x1, .i32⟩
  | 25 => ⟨S1024x1, .i1⟩
  | 26 => ⟨S1x1, .i32⟩
  | 27 => ⟨S1024x1, .i32⟩
  | 28 => ⟨S1024x1, .i1⟩
  | 29 => ⟨S1024x1, .i1⟩
  | 30 => ⟨S_, .i1⟩
  | 31 => ⟨S1024, .i1⟩
  | 32 => ⟨S1024x1024, .f32⟩
  | 33 => ⟨S1024x1024, .i1⟩
  | 34 => ⟨S_, .f32⟩
  | 35 => ⟨S1024x1024, .f32⟩
  | 36 => ⟨S1024x1024, .f32⟩
  | 37 => ⟨S1024x1x1, .i1⟩
  | 38 => ⟨S1024, .i1⟩
  | 39 => ⟨S1024, .i1⟩
  | 40 => ⟨S1024, .i32⟩
  | 41 => ⟨S_, .i32⟩
  | 42 => ⟨S_, .i32⟩
  | 43 => ⟨S1024, .i32⟩
  | 44 => ⟨S_, .i32⟩
  | 45 => ⟨S1024, .i32⟩
  | 46 => ⟨S_, .i32⟩
  | 47 => ⟨S_, .i32⟩
  | 48 => ⟨S1024, .i32⟩
  | 49 => ⟨S1024, .i32⟩
  | 50 => ⟨S_, .i32⟩
  | 51 => ⟨S1024, .i32⟩
  | 52 => ⟨S1024, .i1⟩
  | 53 => ⟨S_, .i32⟩
  | 54 => ⟨S1024, .i32⟩
  | 55 => ⟨S1024, .i32⟩
  | 56 => ⟨S1024, .i32⟩
  | 57 => ⟨S1024x1, .i32⟩
  | 58 => ⟨S_, .i32⟩
  | 59 => ⟨S1024, .i32⟩
  | 60 => ⟨S1024, .i32⟩
  | 61 => ⟨S_, .i32⟩
  | 62 => ⟨S_, .i32⟩
  | 63 => ⟨S1024, .i32⟩
  | 64 => ⟨S_, .i32⟩
  | 65 => ⟨S1024, .i32⟩
  | 66 => ⟨S1024, .i32⟩
  | 67 => ⟨S1024, .i32⟩
  | 68 => ⟨S_, .i32⟩
  | 69 => ⟨S1024, .i32⟩
  | 70 => ⟨S1024, .i1⟩
  | 71 => ⟨S1024, .i32⟩
  | 72 => ⟨S1024, .i32⟩
  | 73 => ⟨S_, .i32⟩
  | 74 => ⟨S1024, .i32⟩
  | 75 => ⟨S1024, .i1⟩
  | 76 => ⟨S1024, .i1⟩
  | 77 => ⟨S_, .i32⟩
  | 78 => ⟨S1024, .i32⟩
  | 79 => ⟨S1024, .i32⟩
  | 80 => ⟨S1024, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S1024, .i32⟩
  | 88 => ⟨S1024, .i32⟩
  | 89 => ⟨S_, .i32⟩
  | 90 => ⟨S1024, .i32⟩
  | 91 => ⟨S1024, .i1⟩
  | 92 => ⟨S_, .i32⟩
  | 93 => ⟨S1024, .i32⟩
  | 94 => ⟨S1024, .i1⟩
  | 95 => ⟨S_, .i32⟩
  | 96 => ⟨S_, .i1⟩
  | 97 => ⟨S1024, .i1⟩
  | 98 => ⟨S1024, .i1⟩
  | 99 => ⟨S1024, .i1⟩
  | 100 => ⟨S1024, .i32⟩
  | 101 => ⟨S1024, .i32⟩
  | 102 => ⟨S1024, .i32⟩
  | 103 => ⟨S_, .i32⟩
  | 104 => ⟨S1024, .i32⟩
  | 105 => ⟨S1024, .i1⟩
  | 106 => ⟨S_, .i32⟩
  | 107 => ⟨S1024, .i32⟩
  | 108 => ⟨S1024, .i32⟩
  | 109 => ⟨S1024, .i32⟩
  | 110 => ⟨S1024x1, .i32⟩
  | 111 => ⟨S1, .i32⟩
  | 112 => ⟨S_, .i32⟩
  | 113 => ⟨S1024x1, .i32⟩
  | 114 => ⟨S1024x1, .i1⟩
  | 115 => ⟨S1x1, .i32⟩
  | 116 => ⟨S1024x1, .i32⟩
  | 117 => ⟨S1024x1, .i1⟩
  | 118 => ⟨S1024x1, .i1⟩
  | 119 => ⟨S_, .i1⟩
  | 120 => ⟨S1024, .i1⟩
  | 121 => ⟨S1024x1024, .f32⟩
  | 122 => ⟨S1024x1024, .i1⟩
  | 123 => ⟨S_, .f32⟩
  | 124 => ⟨S1024x1024, .f32⟩
  | 125 => ⟨S1024x1024, .f32⟩
  | 126 => ⟨S1024x1x1, .i1⟩
  | 127 => ⟨S1024, .i1⟩
  | _ => ⟨S1x32x1024, .f32⟩

abbrev hbmTy0_14 (i : Nat) : BufTy := match i % 128 with
  | 0 => ⟨S1024, .i1⟩
  | 1 => ⟨S1024, .i32⟩
  | 2 => ⟨S_, .i32⟩
  | 3 => ⟨S_, .i32⟩
  | 4 => ⟨S1024, .i32⟩
  | 5 => ⟨S_, .i32⟩
  | 6 => ⟨S1024, .i32⟩
  | 7 => ⟨S_, .i32⟩
  | 8 => ⟨S_, .i32⟩
  | 9 => ⟨S1024, .i32⟩
  | 10 => ⟨S1024, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i32⟩
  | 17 => ⟨S1024, .i32⟩
  | 18 => ⟨S1024x1, .i32⟩
  | 19 => ⟨S_, .i32⟩
  | 20 => ⟨S1024, .i32⟩
  | 21 => ⟨S1024, .i32⟩
  | 22 => ⟨S_, .i32⟩
  | 23 => ⟨S_, .i32⟩
  | 24 => ⟨S1024, .i32⟩
  | 25 => ⟨S_, .i32⟩
  | 26 => ⟨S1024, .i32⟩
  | 27 => ⟨S1024, .i32⟩
  | 28 => ⟨S1024, .i32⟩
  | 29 => ⟨S_, .i32⟩
  | 30 => ⟨S1024, .i32⟩
  | 31 => ⟨S1024, .i1⟩
  | 32 => ⟨S1024, .i32⟩
  | 33 => ⟨S1024, .i32⟩
  | 34 => ⟨S_, .i32⟩
  | 35 => ⟨S1024, .i32⟩
  | 36 => ⟨S1024, .i1⟩
  | 37 => ⟨S1024, .i1⟩
  | 38 => ⟨S_, .i32⟩
  | 39 => ⟨S1024, .i32⟩
  | 40 => ⟨S1024, .i32⟩
  | 41 => ⟨S1024, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S1024, .i32⟩
  | 49 => ⟨S1024, .i32⟩
  | 50 => ⟨S_, .i32⟩
  | 51 => ⟨S1024, .i32⟩
  | 52 => ⟨S1024, .i1⟩
  | 53 => ⟨S_, .i32⟩
  | 54 => ⟨S1024, .i32⟩
  | 55 => ⟨S1024, .i1⟩
  | 56 => ⟨S_, .i32⟩
  | 57 => ⟨S_, .i1⟩
  | 58 => ⟨S1024, .i1⟩
  | 59 => ⟨S1024, .i1⟩
  | 60 => ⟨S1024, .i1⟩
  | 61 => ⟨S1024, .i32⟩
  | 62 => ⟨S1024, .i32⟩
  | 63 => ⟨S1024, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i32⟩
  | 70 => ⟨S1024, .i32⟩
  | 71 => ⟨S1024x1, .i32⟩
  | 72 => ⟨S1, .i32⟩
  | 73 => ⟨S_, .i32⟩
  | 74 => ⟨S1024x1, .i32⟩
  | 75 => ⟨S1024x1, .i1⟩
  | 76 => ⟨S1x1, .i32⟩
  | 77 => ⟨S1024x1, .i32⟩
  | 78 => ⟨S1024x1, .i1⟩
  | 79 => ⟨S1024x1, .i1⟩
  | 80 => ⟨S_, .i1⟩
  | 81 => ⟨S1024, .i1⟩
  | 82 => ⟨S1024x1024, .f32⟩
  | 83 => ⟨S1024x1024, .i1⟩
  | 84 => ⟨S_, .f32⟩
  | 85 => ⟨S1024x1024, .f32⟩
  | 86 => ⟨S1024x1024, .f32⟩
  | 87 => ⟨S1024x1x1, .i1⟩
  | 88 => ⟨S1024, .i1⟩
  | 89 => ⟨S1024, .i1⟩
  | 90 => ⟨S1024, .i32⟩
  | 91 => ⟨S_, .i32⟩
  | 92 => ⟨S_, .i32⟩
  | 93 => ⟨S1024, .i32⟩
  | 94 => ⟨S_, .i32⟩
  | 95 => ⟨S1024, .i32⟩
  | 96 => ⟨S_, .i32⟩
  | 97 => ⟨S_, .i32⟩
  | 98 => ⟨S1024, .i32⟩
  | 99 => ⟨S1024, .i32⟩
  | 100 => ⟨S_, .i32⟩
  | 101 => ⟨S1024, .i32⟩
  | 102 => ⟨S1024, .i1⟩
  | 103 => ⟨S_, .i32⟩
  | 104 => ⟨S1024, .i32⟩
  | 105 => ⟨S1024, .i32⟩
  | 106 => ⟨S1024, .i32⟩
  | 107 => ⟨S1024x1, .i32⟩
  | 108 => ⟨S_, .i32⟩
  | 109 => ⟨S1024, .i32⟩
  | 110 => ⟨S1024, .i32⟩
  | 111 => ⟨S_, .i32⟩
  | 112 => ⟨S_, .i32⟩
  | 113 => ⟨S1024, .i32⟩
  | 114 => ⟨S_, .i32⟩
  | 115 => ⟨S1024, .i32⟩
  | 116 => ⟨S1024, .i32⟩
  | 117 => ⟨S1024, .i32⟩
  | 118 => ⟨S_, .i32⟩
  | 119 => ⟨S1024, .i32⟩
  | 120 => ⟨S1024, .i1⟩
  | 121 => ⟨S1024, .i32⟩
  | 122 => ⟨S1024, .i32⟩
  | 123 => ⟨S_, .i32⟩
  | 124 => ⟨S1024, .i32⟩
  | 125 => ⟨S1024, .i1⟩
  | 126 => ⟨S1024, .i1⟩
  | 127 => ⟨S_, .i32⟩
  | _ => ⟨S1x32x1024, .f32⟩

abbrev hbmTy0_15 (i : Nat) : BufTy := match i % 128 with
  | 0 => ⟨S1024, .i32⟩
  | 1 => ⟨S1024, .i32⟩
  | 2 => ⟨S1024, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S1024, .i32⟩
  | 10 => ⟨S1024, .i32⟩
  | 11 => ⟨S_, .i32⟩
  | 12 => ⟨S1024, .i32⟩
  | 13 => ⟨S1024, .i1⟩
  | 14 => ⟨S_, .i32⟩
  | 15 => ⟨S1024, .i32⟩
  | 16 => ⟨S1024, .i1⟩
  | 17 => ⟨S_, .i32⟩
  | 18 => ⟨S_, .i1⟩
  | 19 => ⟨S1024, .i1⟩
  | 20 => ⟨S1024, .i1⟩
  | 21 => ⟨S1024, .i1⟩
  | 22 => ⟨S1024, .i32⟩
  | 23 => ⟨S1024, .i32⟩
  | 24 => ⟨S1024, .i32⟩
  | 25 => ⟨S_, .i32⟩
  | 26 => ⟨S1024, .i32⟩
  | 27 => ⟨S1024, .i1⟩
  | 28 => ⟨S_, .i32⟩
  | 29 => ⟨S1024, .i32⟩
  | 30 => ⟨S1024, .i32⟩
  | 31 => ⟨S1024, .i32⟩
  | 32 => ⟨S1024x1, .i32⟩
  | 33 => ⟨S1, .i32⟩
  | 34 => ⟨S_, .i32⟩
  | 35 => ⟨S1024x1, .i32⟩
  | 36 => ⟨S1024x1, .i1⟩
  | 37 => ⟨S1x1, .i32⟩
  | 38 => ⟨S1024x1, .i32⟩
  | 39 => ⟨S1024x1, .i1⟩
  | 40 => ⟨S1024x1, .i1⟩
  | 41 => ⟨S_, .i1⟩
  | 42 => ⟨S1024, .i1⟩
  | 43 => ⟨S1024x1024, .f32⟩
  | 44 => ⟨S1024x1024, .i1⟩
  | 45 => ⟨S_, .f32⟩
  | 46 => ⟨S1024x1024, .f32⟩
  | 47 => ⟨S1024x1024, .f32⟩
  | 48 => ⟨S1024x1x1, .i1⟩
  | 49 => ⟨S1024, .i1⟩
  | 50 => ⟨S1024, .i1⟩
  | 51 => ⟨S1024, .i32⟩
  | 52 => ⟨S_, .i32⟩
  | 53 => ⟨S_, .i32⟩
  | 54 => ⟨S1024, .i32⟩
  | 55 => ⟨S_, .i32⟩
  | 56 => ⟨S1024, .i32⟩
  | 57 => ⟨S_, .i32⟩
  | 58 => ⟨S_, .i32⟩
  | 59 => ⟨S1024, .i32⟩
  | 60 => ⟨S1024, .i32⟩
  | 61 => ⟨S_, .i32⟩
  | 62 => ⟨S1024, .i32⟩
  | 63 => ⟨S1024, .i1⟩
  | 64 => ⟨S_, .i32⟩
  | 65 => ⟨S1024, .i32⟩
  | 66 => ⟨S1024, .i32⟩
  | 67 => ⟨S1024, .i32⟩
  | 68 => ⟨S1024x1, .i32⟩
  | 69 => ⟨S_, .i32⟩
  | 70 => ⟨S1024, .i32⟩
  | 71 => ⟨S1024, .i32⟩
  | 72 => ⟨S_, .i32⟩
  | 73 => ⟨S_, .i32⟩
  | 74 => ⟨S1024, .i32⟩
  | 75 => ⟨S_, .i32⟩
  | 76 => ⟨S1024, .i32⟩
  | 77 => ⟨S1024, .i32⟩
  | 78 => ⟨S1024, .i32⟩
  | 79 => ⟨S_, .i32⟩
  | 80 => ⟨S1024, .i32⟩
  | 81 => ⟨S1024, .i1⟩
  | 82 => ⟨S1024, .i32⟩
  | 83 => ⟨S1024, .i32⟩
  | 84 => ⟨S_, .i32⟩
  | 85 => ⟨S1024, .i32⟩
  | 86 => ⟨S1024, .i1⟩
  | 87 => ⟨S1024, .i1⟩
  | 88 => ⟨S_, .i32⟩
  | 89 => ⟨S1024, .i32⟩
  | 90 => ⟨S1024, .i32⟩
  | 91 => ⟨S1024, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S1024, .i32⟩
  | 99 => ⟨S1024, .i32⟩
  | 100 => ⟨S_, .i32⟩
  | 101 => ⟨S1024, .i32⟩
  | 102 => ⟨S1024, .i1⟩
  | 103 => ⟨S_, .i32⟩
  | 104 => ⟨S1024, .i32⟩
  | 105 => ⟨S1024, .i1⟩
  | 106 => ⟨S_, .i32⟩
  | 107 => ⟨S_, .i1⟩
  | 108 => ⟨S1024, .i1⟩
  | 109 => ⟨S1024, .i1⟩
  | 110 => ⟨S1024, .i1⟩
  | 111 => ⟨S1024, .i32⟩
  | 112 => ⟨S1024, .i32⟩
  | 113 => ⟨S1024, .i32⟩
  | 114 => ⟨S_, .i32⟩
  | 115 => ⟨S1024, .i32⟩
  | 116 => ⟨S1024, .i1⟩
  | 117 => ⟨S_, .i32⟩
  | 118 => ⟨S1024, .i32⟩
  | 119 => ⟨S1024, .i32⟩
  | 120 => ⟨S1024, .i32⟩
  | 121 => ⟨S1024x1, .i32⟩
  | 122 => ⟨S1, .i32⟩
  | 123 => ⟨S_, .i32⟩
  | 124 => ⟨S1024x1, .i32⟩
  | 125 => ⟨S1024x1, .i1⟩
  | 126 => ⟨S1x1, .i32⟩
  | 127 => ⟨S1024x1, .i32⟩
  | _ => ⟨S1x32x1024, .f32⟩

abbrev hbmTy0_16 (i : Nat) : BufTy := match i % 128 with
  | 0 => ⟨S1024x1, .i1⟩
  | 1 => ⟨S1024x1, .i1⟩
  | 2 => ⟨S_, .i1⟩
  | 3 => ⟨S1024, .i1⟩
  | 4 => ⟨S1024x1024, .f32⟩
  | 5 => ⟨S1024x1024, .i1⟩
  | 6 => ⟨S_, .f32⟩
  | 7 => ⟨S1024x1024, .f32⟩
  | 8 => ⟨S1024x1024, .f32⟩
  | 9 => ⟨S1024x1x1, .i1⟩
  | 10 => ⟨S1024, .i1⟩
  | 11 => ⟨S1024, .i1⟩
  | 12 => ⟨S1024, .i32⟩
  | 13 => ⟨S_, .i32⟩
  | 14 => ⟨S_, .i32⟩
  | 15 => ⟨S1024, .i32⟩
  | 16 => ⟨S_, .i32⟩
  | 17 => ⟨S1024, .i32⟩
  | 18 => ⟨S_, .i32⟩
  | 19 => ⟨S_, .i32⟩
  | 20 => ⟨S1024, .i32⟩
  | 21 => ⟨S1024, .i32⟩
  | 22 => ⟨S_, .i32⟩
  | 23 => ⟨S1024, .i32⟩
  | 24 => ⟨S1024, .i1⟩
  | 25 => ⟨S_, .i32⟩
  | 26 => ⟨S1024, .i32⟩
  | 27 => ⟨S1024, .i32⟩
  | 28 => ⟨S1024, .i32⟩
  | 29 => ⟨S1024x1, .i32⟩
  | 30 => ⟨S_, .i32⟩
  | 31 => ⟨S1024, .i32⟩
  | 32 => ⟨S1024, .i32⟩
  | 33 => ⟨S_, .i32⟩
  | 34 => ⟨S_, .i32⟩
  | 35 => ⟨S1024, .i32⟩
  | 36 => ⟨S_, .i32⟩
  | 37 => ⟨S1024, .i32⟩
  | 38 => ⟨S1024, .i32⟩
  | 39 => ⟨S1024, .i32⟩
  | 40 => ⟨S_, .i32⟩
  | 41 => ⟨S1024, .i32⟩
  | 42 => ⟨S1024, .i1⟩
  | 43 => ⟨S1024, .i32⟩
  | 44 => ⟨S1024, .i32⟩
  | 45 => ⟨S_, .i32⟩
  | 46 => ⟨S1024, .i32⟩
  | 47 => ⟨S1024, .i1⟩
  | 48 => ⟨S1024, .i1⟩
  | 49 => ⟨S_, .i32⟩
  | 50 => ⟨S1024, .i32⟩
  | 51 => ⟨S1024, .i32⟩
  | 52 => ⟨S1024, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S1024, .i32⟩
  | 60 => ⟨S1024, .i32⟩
  | 61 => ⟨S_, .i32⟩
  | 62 => ⟨S1024, .i32⟩
  | 63 => ⟨S1024, .i1⟩
  | 64 => ⟨S_, .i32⟩
  | 65 => ⟨S1024, .i32⟩
  | 66 => ⟨S1024, .i1⟩
  | 67 => ⟨S_, .i32⟩
  | 68 => ⟨S_, .i1⟩
  | 69 => ⟨S1024, .i1⟩
  | 70 => ⟨S1024, .i1⟩
  | 71 => ⟨S1024, .i1⟩
  | 72 => ⟨S1024, .i32⟩
  | 73 => ⟨S1024, .i32⟩
  | 74 => ⟨S1024, .i32⟩
  | 75 => ⟨S_, .i32⟩
  | 76 => ⟨S1024, .i32⟩
  | 77 => ⟨S1024, .i1⟩
  | 78 => ⟨S_, .i32⟩
  | 79 => ⟨S1024, .i32⟩
  | 80 => ⟨S1024, .i32⟩
  | 81 => ⟨S1024, .i32⟩
  | 82 => ⟨S1024x1, .i32⟩
  | 83 => ⟨S1, .i32⟩
  | 84 => ⟨S_, .i32⟩
  | 85 => ⟨S1024x1, .i32⟩
  | 86 => ⟨S1024x1, .i1⟩
  | 87 => ⟨S1x1, .i32⟩
  | 88 => ⟨S1024x1, .i32⟩
  | 89 => ⟨S1024x1, .i1⟩
  | 90 => ⟨S1024x1, .i1⟩
  | 91 => ⟨S_, .i1⟩
  | 92 => ⟨S1024, .i1⟩
  | 93 => ⟨S1024x1024, .f32⟩
  | 94 => ⟨S1024x1024, .i1⟩
  | 95 => ⟨S_, .f32⟩
  | 96 => ⟨S1024x1024, .f32⟩
  | 97 => ⟨S1024x1024, .f32⟩
  | 98 => ⟨S1024x1x1, .i1⟩
  | 99 => ⟨S1024, .i1⟩
  | 100 => ⟨S1024, .i1⟩
  | 101 => ⟨S1024, .i32⟩
  | 102 => ⟨S_, .i32⟩
  | 103 => ⟨S_, .i32⟩
  | 104 => ⟨S1024, .i32⟩
  | 105 => ⟨S_, .i32⟩
  | 106 => ⟨S1024, .i32⟩
  | 107 => ⟨S_, .i32⟩
  | 108 => ⟨S_, .i32⟩
  | 109 => ⟨S1024, .i32⟩
  | 110 => ⟨S1024, .i32⟩
  | 111 => ⟨S_, .i32⟩
  | 112 => ⟨S1024, .i32⟩
  | 113 => ⟨S1024, .i1⟩
  | 114 => ⟨S_, .i32⟩
  | 115 => ⟨S1024, .i32⟩
  | 116 => ⟨S1024, .i32⟩
  | 117 => ⟨S1024, .i32⟩
  | 118 => ⟨S1024x1, .i32⟩
  | 119 => ⟨S_, .i32⟩
  | 120 => ⟨S1024, .i32⟩
  | 121 => ⟨S1024, .i32⟩
  | 122 => ⟨S_, .i32⟩
  | 123 => ⟨S_, .i32⟩
  | 124 => ⟨S1024, .i32⟩
  | 125 => ⟨S_, .i32⟩
  | 126 => ⟨S1024, .i32⟩
  | 127 => ⟨S1024, .i32⟩
  | _ => ⟨S1x32x1024, .f32⟩

abbrev hbmTy0_17 (i : Nat) : BufTy := match i % 128 with
  | 0 => ⟨S1024, .i32⟩
  | 1 => ⟨S_, .i32⟩
  | 2 => ⟨S1024, .i32⟩
  | 3 => ⟨S1024, .i1⟩
  | 4 => ⟨S1024, .i32⟩
  | 5 => ⟨S1024, .i32⟩
  | 6 => ⟨S_, .i32⟩
  | 7 => ⟨S1024, .i32⟩
  | 8 => ⟨S1024, .i1⟩
  | 9 => ⟨S1024, .i1⟩
  | 10 => ⟨S_, .i32⟩
  | 11 => ⟨S1024, .i32⟩
  | 12 => ⟨S1024, .i32⟩
  | 13 => ⟨S1024, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S1024, .i32⟩
  | 21 => ⟨S1024, .i32⟩
  | 22 => ⟨S_, .i32⟩
  | 23 => ⟨S1024, .i32⟩
  | 24 => ⟨S1024, .i1⟩
  | 25 => ⟨S_, .i32⟩
  | 26 => ⟨S1024, .i32⟩
  | 27 => ⟨S1024, .i1⟩
  | 28 => ⟨S_, .i32⟩
  | 29 => ⟨S_, .i1⟩
  | 30 => ⟨S1024, .i1⟩
  | 31 => ⟨S1024, .i1⟩
  | 32 => ⟨S1024, .i1⟩
  | 33 => ⟨S1024, .i32⟩
  | 34 => ⟨S1024, .i32⟩
  | 35 => ⟨S1024, .i32⟩
  | 36 => ⟨S_, .i32⟩
  | 37 => ⟨S1024, .i32⟩
  | 38 => ⟨S1024, .i1⟩
  | 39 => ⟨S_, .i32⟩
  | 40 => ⟨S1024, .i32⟩
  | 41 => ⟨S1024, .i32⟩
  | 42 => ⟨S1024, .i32⟩
  | 43 => ⟨S1024x1, .i32⟩
  | 44 => ⟨S1, .i32⟩
  | 45 => ⟨S_, .i32⟩
  | 46 => ⟨S1024x1, .i32⟩
  | 47 => ⟨S1024x1, .i1⟩
  | 48 => ⟨S1x1, .i32⟩
  | 49 => ⟨S1024x1, .i32⟩
  | 50 => ⟨S1024x1, .i1⟩
  | 51 => ⟨S1024x1, .i1⟩
  | 52 => ⟨S_, .i1⟩
  | 53 => ⟨S1024, .i1⟩
  | 54 => ⟨S1024x1024, .f32⟩
  | 55 => ⟨S1024x1024, .i1⟩
  | 56 => ⟨S_, .f32⟩
  | 57 => ⟨S1024x1024, .f32⟩
  | 58 => ⟨S1024x1024, .f32⟩
  | 59 => ⟨S1024x1x1, .i1⟩
  | 60 => ⟨S1024, .i1⟩
  | 61 => ⟨S1024, .i1⟩
  | 62 => ⟨S1024, .i32⟩
  | 63 => ⟨S_, .i32⟩
  | 64 => ⟨S_, .i32⟩
  | 65 => ⟨S1024, .i32⟩
  | 66 => ⟨S_, .i32⟩
  | 67 => ⟨S1024, .i32⟩
  | 68 => ⟨S_, .i32⟩
  | 69 => ⟨S_, .i32⟩
  | 70 => ⟨S1024, .i32⟩
  | 71 => ⟨S1024, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i32⟩
  | 78 => ⟨S1024, .i32⟩
  | 79 => ⟨S1024x1, .i32⟩
  | 80 => ⟨S_, .i32⟩
  | 81 => ⟨S1024, .i32⟩
  | 82 => ⟨S1024, .i32⟩
  | 83 => ⟨S_, .i32⟩
  | 84 => ⟨S_, .i32⟩
  | 85 => ⟨S1024, .i32⟩
  | 86 => ⟨S_, .i32⟩
  | 87 => ⟨S1024, .i32⟩
  | 88 => ⟨S1024, .i32⟩
  | 89 => ⟨S1024, .i32⟩
  | 90 => ⟨S_, .i32⟩
  | 91 => ⟨S1024, .i32⟩
  | 92 => ⟨S1024, .i1⟩
  | 93 => ⟨S1024, .i32⟩
  | 94 => ⟨S1024, .i32⟩
  | 95 => ⟨S_, .i32⟩
  | 96 => ⟨S1024, .i32⟩
  | 97 => ⟨S1024, .i1⟩
  | 98 => ⟨S1024, .i1⟩
  | 99 => ⟨S_, .i32⟩
  | 100 => ⟨S1024, .i32⟩
  | 101 => ⟨S1024, .i32⟩
  | 102 => ⟨S1024, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S1024, .i32⟩
  | 110 => ⟨S1024, .i32⟩
  | 111 => ⟨S_, .i32⟩
  | 112 => ⟨S1024, .i32⟩
  | 113 => ⟨S1024, .i1⟩
  | 114 => ⟨S_, .i32⟩
  | 115 => ⟨S1024, .i32⟩
  | 116 => ⟨S1024, .i1⟩
  | 117 => ⟨S_, .i32⟩
  | 118 => ⟨S_, .i1⟩
  | 119 => ⟨S1024, .i1⟩
  | 120 => ⟨S1024, .i1⟩
  | 121 => ⟨S1024, .i1⟩
  | 122 => ⟨S1024, .i32⟩
  | 123 => ⟨S1024, .i32⟩
  | 124 => ⟨S1024, .i32⟩
  | 125 => ⟨S_, .i32⟩
  | 126 => ⟨S1024, .i32⟩
  | 127 => ⟨S1024, .i1⟩
  | _ => ⟨S1x32x1024, .f32⟩

abbrev hbmTy0_18 (i : Nat) : BufTy := match i % 128 with
  | 0 => ⟨S_, .i32⟩
  | 1 => ⟨S1024, .i32⟩
  | 2 => ⟨S1024, .i32⟩
  | 3 => ⟨S1024, .i32⟩
  | 4 => ⟨S1024x1, .i32⟩
  | 5 => ⟨S1, .i32⟩
  | 6 => ⟨S_, .i32⟩
  | 7 => ⟨S1024x1, .i32⟩
  | 8 => ⟨S1024x1, .i1⟩
  | 9 => ⟨S1x1, .i32⟩
  | 10 => ⟨S1024x1, .i32⟩
  | 11 => ⟨S1024x1, .i1⟩
  | 12 => ⟨S1024x1, .i1⟩
  | 13 => ⟨S_, .i1⟩
  | 14 => ⟨S1024, .i1⟩
  | 15 => ⟨S1024x1024, .f32⟩
  | 16 => ⟨S1024x1024, .i1⟩
  | 17 => ⟨S_, .f32⟩
  | 18 => ⟨S1024x1024, .f32⟩
  | 19 => ⟨S1024x1024, .f32⟩
  | 20 => ⟨S1024x1x1, .i1⟩
  | 21 => ⟨S1024, .i1⟩
  | 22 => ⟨S1024, .i1⟩
  | 23 => ⟨S1024, .i32⟩
  | 24 => ⟨S_, .i32⟩
  | 25 => ⟨S_, .i32⟩
  | 26 => ⟨S1024, .i32⟩
  | 27 => ⟨S_, .i32⟩
  | 28 => ⟨S1024, .i32⟩
  | 29 => ⟨S_, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i1⟩
  | 36 => ⟨S_, .i32⟩
  | 37 => ⟨S1024, .i32⟩
  | 38 => ⟨S1024, .i32⟩
  | 39 => ⟨S1024, .i32⟩
  | 40 => ⟨S1024x1, .i32⟩
  | 41 => ⟨S_, .i32⟩
  | 42 => ⟨S1024, .i32⟩
  | 43 => ⟨S1024, .i32⟩
  | 44 => ⟨S_, .i32⟩
  | 45 => ⟨S_, .i32⟩
  | 46 => ⟨S1024, .i32⟩
  | 47 => ⟨S_, .i32⟩
  | 48 => ⟨S1024, .i32⟩
  | 49 => ⟨S1024, .i32⟩
  | 50 => ⟨S1024, .i32⟩
  | 51 => ⟨S_, .i32⟩
  | 52 => ⟨S1024, .i32⟩
  | 53 => ⟨S1024, .i1⟩
  | 54 => ⟨S1024, .i32⟩
  | 55 => ⟨S1024, .i32⟩
  | 56 => ⟨S_, .i32⟩
  | 57 => ⟨S1024, .i32⟩
  | 58 => ⟨S1024, .i1⟩
  | 59 => ⟨S1024, .i1⟩
  | 60 => ⟨S_, .i32⟩
  | 61 => ⟨S1024, .i32⟩
  | 62 => ⟨S1024, .i32⟩
  | 63 => ⟨S1024, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S1024, .i32⟩
  | 71 => ⟨S1024, .i32⟩
  | 72 => ⟨S_, .i32⟩
  | 73 => ⟨S1024, .i32⟩
  | 74 => ⟨S1024, .i1⟩
  | 75 => ⟨S_, .i32⟩
  | 76 => ⟨S1024, .i32⟩
  | 77 => ⟨S1024, .i1⟩
  | 78 => ⟨S_, .i32⟩
  | 79 => ⟨S_, .i1⟩
  | 80 => ⟨S1024, .i1⟩
  | 81 => ⟨S1024, .i1⟩
  | 82 => ⟨S1024, .i1⟩
  | 83 => ⟨S1024, .i32⟩
  | 84 => ⟨S1024, .i32⟩
  | 85 => ⟨S1024, .i32⟩
  | 86 => ⟨S_, .i32⟩
  | 87 => ⟨S1024, .i32⟩
  | 88 => ⟨S1024, .i1⟩
  | 89 => ⟨S_, .i32⟩
  | 90 => ⟨S1024, .i32⟩
  | 91 => ⟨S1024, .i32⟩
  | 92 => ⟨S1024, .i32⟩
  | 93 => ⟨S1024x1, .i32⟩
  | 94 => ⟨S1, .i32⟩
  | 95 => ⟨S_, .i32⟩
  | 96 => ⟨S1024x1, .i32⟩
  | 97 => ⟨S1024x1, .i1⟩
  | 98 => ⟨S1x1, .i32⟩
  | 99 => ⟨S1024x1, .i32⟩
  | 100 => ⟨S1024x1, .i1⟩
  | 101 => ⟨S1024x1, .i1⟩
  | 102 => ⟨S_, .i1⟩
  | 103 => ⟨S1024, .i1⟩
  | 104 => ⟨S1024x1024, .f32⟩
  | 105 => ⟨S1024x1024, .i1⟩
  | 106 => ⟨S_, .f32⟩
  | 107 => ⟨S1024x1024, .f32⟩
  | 108 => ⟨S1024x1024, .f32⟩
  | 109 => ⟨S1024x1x1, .i1⟩
  | 110 => ⟨S1024, .i1⟩
  | 111 => ⟨S1024, .i1⟩
  | 112 => ⟨S1024, .i32⟩
  | 113 => ⟨S_, .i32⟩
  | 114 => ⟨S_, .i32⟩
  | 115 => ⟨S1024, .i32⟩
  | 116 => ⟨S_, .i32⟩
  | 117 => ⟨S1024, .i32⟩
  | 118 => ⟨S_, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i1⟩
  | 125 => ⟨S_, .i32⟩
  | 126 => ⟨S1024, .i32⟩
  | 127 => ⟨S1024, .i32⟩
  | _ => ⟨S1x32x1024, .f32⟩

abbrev hbmTy0_19 (i : Nat) : BufTy := match i % 128 with
  | 0 => ⟨S1024, .i32⟩
  | 1 => ⟨S1024x1, .i32⟩
  | 2 => ⟨S_, .i32⟩
  | 3 => ⟨S1024, .i32⟩
  | 4 => ⟨S1024, .i32⟩
  | 5 => ⟨S_, .i32⟩
  | 6 => ⟨S_, .i32⟩
  | 7 => ⟨S1024, .i32⟩
  | 8 => ⟨S_, .i32⟩
  | 9 => ⟨S1024, .i32⟩
  | 10 => ⟨S1024, .i32⟩
  | 11 => ⟨S1024, .i32⟩
  | 12 => ⟨S_, .i32⟩
  | 13 => ⟨S1024, .i32⟩
  | 14 => ⟨S1024, .i1⟩
  | 15 => ⟨S1024, .i32⟩
  | 16 => ⟨S1024, .i32⟩
  | 17 => ⟨S_, .i32⟩
  | 18 => ⟨S1024, .i32⟩
  | 19 => ⟨S1024, .i1⟩
  | 20 => ⟨S1024, .i1⟩
  | 21 => ⟨S_, .i32⟩
  | 22 => ⟨S1024, .i32⟩
  | 23 => ⟨S1024, .i32⟩
  | 24 => ⟨S1024, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S1024, .i32⟩
  | 32 => ⟨S1024, .i32⟩
  | 33 => ⟨S_, .i32⟩
  | 34 => ⟨S1024, .i32⟩
  | 35 => ⟨S1024, .i1⟩
  | 36 => ⟨S_, .i32⟩
  | 37 => ⟨S1024, .i32⟩
  | 38 => ⟨S1024, .i1⟩
  | 39 => ⟨S_, .i32⟩
  | 40 => ⟨S_, .i1⟩
  | 41 => ⟨S1024, .i1⟩
  | 42 => ⟨S1024, .i1⟩
  | 43 => ⟨S1024, .i1⟩
  | 44 => ⟨S1024, .i32⟩
  | 45 => ⟨S1024, .i32⟩
  | 46 => ⟨S1024, .i32⟩
  | 47 => ⟨S_, .i32⟩
  | 48 => ⟨S1024, .i32⟩
  | 49 => ⟨S1024, .i1⟩
  | 50 => ⟨S_, .i32⟩
  | 51 => ⟨S1024, .i32⟩
  | 52 => ⟨S1024, .i32⟩
  | 53 => ⟨S1024, .i32⟩
  | 54 => ⟨S1024x1, .i32⟩
  | 55 => ⟨S1, .i32⟩
  | 56 => ⟨S_, .i32⟩
  | 57 => ⟨S1024x1, .i32⟩
  | 58 => ⟨S1024x1, .i1⟩
  | 59 => ⟨S1x1, .i32⟩
  | 60 => ⟨S1024x1, .i32⟩
  | 61 => ⟨S1024x1, .i1⟩
  | 62 => ⟨S1024x1, .i1⟩
  | 63 => ⟨S_, .i1⟩
  | 64 => ⟨S1024, .i1⟩
  | 65 => ⟨S1024x1024, .f32⟩
  | 66 => ⟨S1024x1024, .i1⟩
  | 67 => ⟨S_, .f32⟩
  | 68 => ⟨S1024x1024, .f32⟩
  | 69 => ⟨S1024x1024, .f32⟩
  | 70 => ⟨S1024x1x1, .i1⟩
  | 71 => ⟨S1024, .i1⟩
  | 72 => ⟨S1024, .i1⟩
  | 73 => ⟨S1024, .i32⟩
  | 74 => ⟨S_, .i32⟩
  | 75 => ⟨S_, .i32⟩
  | 76 => ⟨S1024, .i32⟩
  | 77 => ⟨S_, .i32⟩
  | 78 => ⟨S1024, .i32⟩
  | 79 => ⟨S_, .i32⟩
  | 80 => ⟨S_, .i32⟩
  | 81 => ⟨S1024, .i32⟩
  | 82 => ⟨S1024, .i32⟩
  | 83 => ⟨S_, .i32⟩
  | 84 => ⟨S1024, .i32⟩
  | 85 => ⟨S1024, .i1⟩
  | 86 => ⟨S_, .i32⟩
  | 87 => ⟨S1024, .i32⟩
  | 88 => ⟨S1024, .i32⟩
  | 89 => ⟨S1024, .i32⟩
  | 90 => ⟨S1024x1, .i32⟩
  | 91 => ⟨S_, .i32⟩
  | 92 => ⟨S1024, .i32⟩
  | 93 => ⟨S1024, .i32⟩
  | 94 => ⟨S_, .i32⟩
  | 95 => ⟨S_, .i32⟩
  | 96 => ⟨S1024, .i32⟩
  | 97 => ⟨S_, .i32⟩
  | 98 => ⟨S1024, .i32⟩
  | 99 => ⟨S1024, .i32⟩
  | 100 => ⟨S1024, .i32⟩
  | 101 => ⟨S_, .i32⟩
  | 102 => ⟨S1024, .i32⟩
  | 103 => ⟨S1024, .i1⟩
  | 104 => ⟨S1024, .i32⟩
  | 105 => ⟨S1024, .i32⟩
  | 106 => ⟨S_, .i32⟩
  | 107 => ⟨S1024, .i32⟩
  | 108 => ⟨S1024, .i1⟩
  | 109 => ⟨S1024, .i1⟩
  | 110 => ⟨S_, .i32⟩
  | 111 => ⟨S1024, .i32⟩
  | 112 => ⟨S1024, .i32⟩
  | 113 => ⟨S1024, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S1024, .i32⟩
  | 121 => ⟨S1024, .i32⟩
  | 122 => ⟨S_, .i32⟩
  | 123 => ⟨S1024, .i32⟩
  | 124 => ⟨S1024, .i1⟩
  | 125 => ⟨S_, .i32⟩
  | 126 => ⟨S1024, .i32⟩
  | 127 => ⟨S1024, .i1⟩
  | _ => ⟨S1x32x1024, .f32⟩

abbrev hbmTy0_20 (i : Nat) : BufTy := match i % 128 with
  | 0 => ⟨S_, .i32⟩
  | 1 => ⟨S_, .i1⟩
  | 2 => ⟨S1024, .i1⟩
  | 3 => ⟨S1024, .i1⟩
  | 4 => ⟨S1024, .i1⟩
  | 5 => ⟨S1024, .i32⟩
  | 6 => ⟨S1024, .i32⟩
  | 7 => ⟨S1024, .i32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S1, .i32⟩
  | 17 => ⟨S_, .i32⟩
  | 18 => ⟨S1024x1, .i32⟩
  | 19 => ⟨S1024x1, .i1⟩
  | 20 => ⟨S1x1, .i32⟩
  | 21 => ⟨S1024x1, .i32⟩
  | 22 => ⟨S1024x1, .i1⟩
  | 23 => ⟨S1024x1, .i1⟩
  | 24 => ⟨S_, .i1⟩
  | 25 => ⟨S1024, .i1⟩
  | 26 => ⟨S1024x1024, .f32⟩
  | 27 => ⟨S1024x1024, .i1⟩
  | 28 => ⟨S_, .f32⟩
  | 29 => ⟨S1024x1024, .f32⟩
  | 30 => ⟨S1024x1024, .f32⟩
  | 31 => ⟨S1024x1x1, .i1⟩
  | 32 => ⟨S1024, .i1⟩
  | 33 => ⟨S1024, .i1⟩
  | 34 => ⟨S1024, .i32⟩
  | 35 => ⟨S_, .i32⟩
  | 36 => ⟨S_, .i32⟩
  | 37 => ⟨S1024, .i32⟩
  | 38 => ⟨S_, .i32⟩
  | 39 => ⟨S1024, .i32⟩
  | 40 => ⟨S_, .i32⟩
  | 41 => ⟨S_, .i32⟩
  | 42 => ⟨S1024, .i32⟩
  | 43 => ⟨S1024, .i32⟩
  | 44 => ⟨S_, .i32⟩
  | 45 => ⟨S1024, .i32⟩
  | 46 => ⟨S1024, .i1⟩
  | 47 => ⟨S_, .i32⟩
  | 48 => ⟨S1024, .i32⟩
  | 49 => ⟨S1024, .i32⟩
  | 50 => ⟨S1024, .i32⟩
  | 51 => ⟨S1024x1, .i32⟩
  | 52 => ⟨S_, .i32⟩
  | 53 => ⟨S1024, .i32⟩
  | 54 => ⟨S1024, .i32⟩
  | 55 => ⟨S_, .i32⟩
  | 56 => ⟨S_, .i32⟩
  | 57 => ⟨S1024, .i32⟩
  | 58 => ⟨S_, .i32⟩
  | 59 => ⟨S1024, .i32⟩
  | 60 => ⟨S1024, .i32⟩
  | 61 => ⟨S1024, .i32⟩
  | 62 => ⟨S_, .i32⟩
  | 63 => ⟨S1024, .i32⟩
  | 64 => ⟨S1024, .i1⟩
  | 65 => ⟨S1024, .i32⟩
  | 66 => ⟨S1024, .i32⟩
  | 67 => ⟨S_, .i32⟩
  | 68 => ⟨S1024, .i32⟩
  | 69 => ⟨S1024, .i1⟩
  | 70 => ⟨S1024, .i1⟩
  | 71 => ⟨S_, .i32⟩
  | 72 => ⟨S1024, .i32⟩
  | 73 => ⟨S1024, .i32⟩
  | 74 => ⟨S1024, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S1024, .i32⟩
  | 82 => ⟨S1024, .i32⟩
  | 83 => ⟨S_, .i32⟩
  | 84 => ⟨S1024, .i32⟩
  | 85 => ⟨S1024, .i1⟩
  | 86 => ⟨S_, .i32⟩
  | 87 => ⟨S1024, .i32⟩
  | 88 => ⟨S1024, .i1⟩
  | 89 => ⟨S_, .i32⟩
  | 90 => ⟨S_, .i1⟩
  | 91 => ⟨S1024, .i1⟩
  | 92 => ⟨S1024, .i1⟩
  | 93 => ⟨S1024, .i1⟩
  | 94 => ⟨S1024, .i32⟩
  | 95 => ⟨S1024, .i32⟩
  | 96 => ⟨S1024, .i32⟩
  | 97 => ⟨S_, .i32⟩
  | 98 => ⟨S1024, .i32⟩
  | 99 => ⟨S1024, .i1⟩
  | 100 => ⟨S_, .i32⟩
  | 101 => ⟨S1024, .i32⟩
  | 102 => ⟨S1024, .i32⟩
  | 103 => ⟨S1024, .i32⟩
  | 104 => ⟨S1024x1, .i32⟩
  | 105 => ⟨S1, .i32⟩
  | 106 => ⟨S_, .i32⟩
  | 107 => ⟨S1024x1, .i32⟩
  | 108 => ⟨S1024x1, .i1⟩
  | 109 => ⟨S1x1, .i32⟩
  | 110 => ⟨S1024x1, .i32⟩
  | 111 => ⟨S1024x1, .i1⟩
  | 112 => ⟨S1024x1, .i1⟩
  | 113 => ⟨S_, .i1⟩
  | 114 => ⟨S1024, .i1⟩
  | 115 => ⟨S1024x1024, .f32⟩
  | 116 => ⟨S1024x1024, .i1⟩
  | 117 => ⟨S_, .f32⟩
  | 118 => ⟨S1024x1024, .f32⟩
  | 119 => ⟨S1024x1024, .f32⟩
  | 120 => ⟨S1024x1x1, .i1⟩
  | 121 => ⟨S1024, .i1⟩
  | 122 => ⟨S1024, .i1⟩
  | 123 => ⟨S1024, .i32⟩
  | 124 => ⟨S_, .i32⟩
  | 125 => ⟨S_, .i32⟩
  | 126 => ⟨S1024, .i32⟩
  | 127 => ⟨S_, .i32⟩
  | _ => ⟨S1x32x1024, .f32⟩

abbrev hbmTy0_21 (i : Nat) : BufTy := match i % 128 with
  | 0 => ⟨S1024, .i32⟩
  | 1 => ⟨S_, .i32⟩
  | 2 => ⟨S_, .i32⟩
  | 3 => ⟨S1024, .i32⟩
  | 4 => ⟨S1024, .i32⟩
  | 5 => ⟨S_, .i32⟩
  | 6 => ⟨S1024, .i32⟩
  | 7 => ⟨S1024, .i1⟩
  | 8 => ⟨S_, .i32⟩
  | 9 => ⟨S1024, .i32⟩
  | 10 => ⟨S1024, .i32⟩
  | 11 => ⟨S1024, .i32⟩
  | 12 => ⟨S1024x1, .i32⟩
  | 13 => ⟨S_, .i32⟩
  | 14 => ⟨S1024, .i32⟩
  | 15 => ⟨S1024, .i32⟩
  | 16 => ⟨S_, .i32⟩
  | 17 => ⟨S_, .i32⟩
  | 18 => ⟨S1024, .i32⟩
  | 19 => ⟨S_, .i32⟩
  | 20 => ⟨S1024, .i32⟩
  | 21 => ⟨S1024, .i32⟩
  | 22 => ⟨S1024, .i32⟩
  | 23 => ⟨S_, .i32⟩
  | 24 => ⟨S1024, .i32⟩
  | 25 => ⟨S1024, .i1⟩
  | 26 => ⟨S1024, .i32⟩
  | 27 => ⟨S1024, .i32⟩
  | 28 => ⟨S_, .i32⟩
  | 29 => ⟨S1024, .i32⟩
  | 30 => ⟨S1024, .i1⟩
  | 31 => ⟨S1024, .i1⟩
  | 32 => ⟨S_, .i32⟩
  | 33 => ⟨S1024, .i32⟩
  | 34 => ⟨S1024, .i32⟩
  | 35 => ⟨S1024, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S1024, .i32⟩
  | 43 => ⟨S1024, .i32⟩
  | 44 => ⟨S_, .i32⟩
  | 45 => ⟨S1024, .i32⟩
  | 46 => ⟨S1024, .i1⟩
  | 47 => ⟨S_, .i32⟩
  | 48 => ⟨S1024, .i32⟩
  | 49 => ⟨S1024, .i1⟩
  | 50 => ⟨S_, .i32⟩
  | 51 => ⟨S_, .i1⟩
  | 52 => ⟨S1024, .i1⟩
  | 53 => ⟨S1024, .i1⟩
  | 54 => ⟨S1024, .i1⟩
  | 55 => ⟨S1024, .i32⟩
  | 56 => ⟨S1024, .i32⟩
  | 57 => ⟨S1024, .i32⟩
  | 58 => ⟨S_, .i32⟩
  | 59 => ⟨S1024, .i32⟩
  | 60 => ⟨S1024, .i1⟩
  | 61 => ⟨S_, .i32⟩
  | 62 => ⟨S1024, .i32⟩
  | 63 => ⟨S1024, .i32⟩
  | 64 => ⟨S1024, .i32⟩
  | 65 => ⟨S1024x1, .i32⟩
  | 66 => ⟨S1, .i32⟩
  | 67 => ⟨S_, .i32⟩
  | 68 => ⟨S1024x1, .i32⟩
  | 69 => ⟨S1024x1, .i1⟩
  | 70 => ⟨S1x1, .i32⟩
  | 71 => ⟨S1024x1, .i32⟩
  | 72 => ⟨S1024x1, .i1⟩
  | 73 => ⟨S1024x1, .i1⟩
  | 74 => ⟨S_, .i1⟩
  | 75 => ⟨S1024, .i1⟩
  | 76 => ⟨S1024x1024, .f32⟩
  | 77 => ⟨S1024x1024, .i1⟩
  | 78 => ⟨S_, .f32⟩
  | 79 => ⟨S1024x1024, .f32⟩
  | 80 => ⟨S1024x1024, .f32⟩
  | 81 => ⟨S1024x1x1, .i1⟩
  | 82 => ⟨S1024, .i1⟩
  | 83 => ⟨S1024, .i1⟩
  | 84 => ⟨S1024, .i32⟩
  | 85 => ⟨S_, .i32⟩
  | 86 => ⟨S_, .i32⟩
  | 87 => ⟨S1024, .i32⟩
  | 88 => ⟨S_, .i32⟩
  | 89 => ⟨S1024, .i32⟩
  | 90 => ⟨S_, .i32⟩
  | 91 => ⟨S_, .i32⟩
  | 92 => ⟨S1024, .i32⟩
  | 93 => ⟨S1024, .i32⟩
  | 94 => ⟨S_, .i32⟩
  | 95 => ⟨S1024, .i32⟩
  | 96 => ⟨S1024, .i1⟩
  | 97 => ⟨S_, .i32⟩
  | 98 => ⟨S1024, .i32⟩
  | 99 => ⟨S1024, .i32⟩
  | 100 => ⟨S1024, .i32⟩
  | 101 => ⟨S1024x1, .i32⟩
  | 102 => ⟨S_, .i32⟩
  | 103 => ⟨S1024, .i32⟩
  | 104 => ⟨S1024, .i32⟩
  | 105 => ⟨S_, .i32⟩
  | 106 => ⟨S_, .i32⟩
  | 107 => ⟨S1024, .i32⟩
  | 108 => ⟨S_, .i32⟩
  | 109 => ⟨S1024, .i32⟩
  | 110 => ⟨S1024, .i32⟩
  | 111 => ⟨S1024, .i32⟩
  | 112 => ⟨S_, .i32⟩
  | 113 => ⟨S1024, .i32⟩
  | 114 => ⟨S1024, .i1⟩
  | 115 => ⟨S1024, .i32⟩
  | 116 => ⟨S1024, .i32⟩
  | 117 => ⟨S_, .i32⟩
  | 118 => ⟨S1024, .i32⟩
  | 119 => ⟨S1024, .i1⟩
  | 120 => ⟨S1024, .i1⟩
  | 121 => ⟨S_, .i32⟩
  | 122 => ⟨S1024, .i32⟩
  | 123 => ⟨S1024, .i32⟩
  | 124 => ⟨S1024, .i32⟩
  | 125 => ⟨S_, .i32⟩
  | 126 => ⟨S_, .i32⟩
  | 127 => ⟨S_, .i32⟩
  | _ => ⟨S1x32x1024, .f32⟩

abbrev hbmTy0_22 (i : Nat) : BufTy := match i % 128 with
  | 0 => ⟨S_, .i1⟩
  | 1 => ⟨S_, .i32⟩
  | 2 => ⟨S_, .i32⟩
  | 3 => ⟨S1024, .i32⟩
  | 4 => ⟨S1024, .i32⟩
  | 5 => ⟨S_, .i32⟩
  | 6 => ⟨S1024, .i32⟩
  | 7 => ⟨S1024, .i1⟩
  | 8 => ⟨S_, .i32⟩
  | 9 => ⟨S1024, .i32⟩
  | 10 => ⟨S1024, .i1⟩
  | 11 => ⟨S_, .i32⟩
  | 12 => ⟨S_, .i1⟩
  | 13 => ⟨S1024, .i1⟩
  | 14 => ⟨S1024, .i1⟩
  | 15 => ⟨S1024, .i1⟩
  | 16 => ⟨S1024, .i32⟩
  | 17 => ⟨S1024, .i32⟩
  | 18 => ⟨S1024, .i32⟩
  | 19 => ⟨S_, .i32⟩
  | 20 => ⟨S1024, .i32⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1, .i32⟩
  | 28 => ⟨S_, .i32⟩
  | 29 => ⟨S1024x1, .i32⟩
  | 30 => ⟨S1024x1, .i1⟩
  | 31 => ⟨S1x1, .i32⟩
  | 32 => ⟨S1024x1, .i32⟩
  | 33 => ⟨S1024x1, .i1⟩
  | 34 => ⟨S1024x1, .i1⟩
  | 35 => ⟨S_, .i1⟩
  | 36 => ⟨S1024, .i1⟩
  | 37 => ⟨S1024x1024, .f32⟩
  | 38 => ⟨S1024x1024, .i1⟩
  | 39 => ⟨S_, .f32⟩
  | 40 => ⟨S1024x1024, .f32⟩
  | 41 => ⟨S1024x1024, .f32⟩
  | 42 => ⟨S16384x1024, .f32⟩
  | 43 => ⟨S16384x1024, .f32⟩
  | 44 => ⟨S32768x1024, .f32⟩
  | 45 => ⟨S32768x1023, .f32⟩
  | 46 => ⟨S1x32768x1023, .f32⟩
  | _ => ⟨S1x32x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | _ => ⟨S1x32x1024, .f32⟩

abbrev bufTy : (tb : Table) → Fin (tcTables nBuf tb) → BufTy
  | .hbm, ⟨i, _⟩ => hbmTy i
  | _, _ => ⟨S1x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_call0_c : Ref sig .tc := ⟨.hbm, 14, rfl⟩
abbrev main_call0_call0_v0 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_c_1 : Ref sig .tc := ⟨.hbm, 19, rfl⟩
abbrev main_call1_v0 : Ref sig .tc := ⟨.hbm, 20, rfl⟩
abbrev main_call1_v1 : Ref sig .tc := ⟨.hbm, 21, rfl⟩
abbrev main_v13 : Ref sig .tc := ⟨.hbm, 22, rfl⟩
abbrev main_c_2 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_call2_call0_c : Ref sig .tc := ⟨.hbm, 34, rfl⟩
abbrev main_call2_call0_v0 : Ref sig .tc := ⟨.hbm, 35, rfl⟩
abbrev main_v22 : Ref sig .tc := ⟨.hbm, 36, rfl⟩
abbrev main_c_5 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_v6 : Ref sig .tc := ⟨.hbm, 44, rfl⟩
abbrev main_call3_v7 : Ref sig .tc := ⟨.hbm, 45, rfl⟩
abbrev main_call3_c : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_c_0 : Ref sig .tc := ⟨.hbm, 50, rfl⟩
abbrev main_call3_v11 : Ref sig .tc := ⟨.hbm, 51, rfl⟩
abbrev main_call3_v12 : Ref sig .tc := ⟨.hbm, 52, rfl⟩
abbrev main_v23 : Ref sig .tc := ⟨.hbm, 53, rfl⟩
abbrev main_c_6 : Ref sig .tc := ⟨.hbm, 54, rfl⟩
abbrev main_call4_v0 : Ref sig .tc := ⟨.hbm, 55, rfl⟩
abbrev main_call4_c : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_c_1 : Ref sig .tc := ⟨.hbm, 62, rfl⟩
abbrev main_call4_v5 : Ref sig .tc := ⟨.hbm, 63, rfl⟩
abbrev main_call4_v6 : Ref sig .tc := ⟨.hbm, 64, rfl⟩
abbrev main_call4_c_2 : Ref sig .tc := ⟨.hbm, 65, rfl⟩
abbrev main_call4_v7 : Ref sig .tc := ⟨.hbm, 66, rfl⟩
abbrev main_call4_v8 : Ref sig .tc := ⟨.hbm, 67, rfl⟩
abbrev main_call4_c_3 : Ref sig .tc := ⟨.hbm, 68, rfl⟩
abbrev main_call4_v9 : Ref sig .tc := ⟨.hbm, 69, rfl⟩
abbrev main_call4_v10 : Ref sig .tc := ⟨.hbm, 70, rfl⟩
abbrev main_call4_v11 : Ref sig .tc := ⟨.hbm, 71, rfl⟩
abbrev main_call4_v12 : Ref sig .tc := ⟨.hbm, 72, rfl⟩
abbrev main_call4_v13 : Ref sig .tc := ⟨.hbm, 73, rfl⟩
abbrev main_call4_v14 : Ref sig .tc := ⟨.hbm, 74, rfl⟩
abbrev main_v24 : Ref sig .tc := ⟨.hbm, 75, rfl⟩
abbrev main_call5_c : Ref sig .tc := ⟨.hbm, 76, rfl⟩
abbrev main_call5_v0 : Ref sig .tc := ⟨.hbm, 77, rfl⟩
abbrev main_call5_v1 : Ref sig .tc := ⟨.hbm, 78, rfl⟩
abbrev main_call5_c_0 : Ref sig .tc := ⟨.hbm, 79, rfl⟩
abbrev main_call5_v2 : Ref sig .tc := ⟨.hbm, 80, rfl⟩
abbrev main_call5_v3 : Ref sig .tc := ⟨.hbm, 81, rfl⟩
abbrev main_call5_v4 : Ref sig .tc := ⟨.hbm, 82, rfl⟩
abbrev main_call5_v5 : Ref sig .tc := ⟨.hbm, 83, rfl⟩
abbrev main_call5_c_1 : Ref sig .tc := ⟨.hbm, 84, rfl⟩
abbrev main_call5_c_2 : Ref sig .tc := ⟨.hbm, 85, rfl⟩
abbrev main_call5_v6 : Ref sig .tc := ⟨.hbm, 86, rfl⟩
abbrev main_call5_v7 : Ref sig .tc := ⟨.hbm, 87, rfl⟩
abbrev main_call5_v8 : Ref sig .tc := ⟨.hbm, 88, rfl⟩
abbrev main_call5_v9 : Ref sig .tc := ⟨.hbm, 89, rfl⟩
abbrev main_call5_v10 : Ref sig .tc := ⟨.hbm, 90, rfl⟩
abbrev main_call5_v11 : Ref sig .tc := ⟨.hbm, 91, rfl⟩
abbrev main_call5_c_3 : Ref sig .tc := ⟨.hbm, 92, rfl⟩
abbrev main_call5_v12 : Ref sig .tc := ⟨.hbm, 93, rfl⟩
abbrev main_call5_v13 : Ref sig .tc := ⟨.hbm, 94, rfl⟩
abbrev main_call5_v14 : Ref sig .tc := ⟨.hbm, 95, rfl⟩
abbrev main_call5_cst : Ref sig .tc := ⟨.hbm, 96, rfl⟩
abbrev main_call5_v15 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_call6_v0 : Ref sig .tc := ⟨.hbm, 102, rfl⟩
abbrev main_call6_call0_c : Ref sig .tc := ⟨.hbm, 103, rfl⟩
abbrev main_call6_call0_v0 : Ref sig .tc := ⟨.hbm, 104, rfl⟩
abbrev main_v29 : Ref sig .tc := ⟨.hbm, 105, rfl⟩
abbrev main_c_7 : Ref sig .tc := ⟨.hbm, 106, rfl⟩
abbrev main_v30 : Ref sig .tc := ⟨.hbm, 107, rfl⟩
abbrev main_c_8 : Ref sig .tc := ⟨.hbm, 108, rfl⟩
abbrev main_call7_v0 : Ref sig .tc := ⟨.hbm, 109, rfl⟩
abbrev main_call7_v1 : Ref sig .tc := ⟨.hbm, 110, rfl⟩
abbrev main_v31 : Ref sig .tc := ⟨.hbm, 111, rfl⟩
abbrev main_c_9 : Ref sig .tc := ⟨.hbm, 112, rfl⟩
abbrev main_v32 : Ref sig .tc := ⟨.hbm, 113, rfl⟩
abbrev main_v33 : Ref sig .tc := ⟨.hbm, 114, rfl⟩
abbrev main_c_10 : Ref sig .tc := ⟨.hbm, 115, rfl⟩
abbrev main_v34 : Ref sig .tc := ⟨.hbm, 116, rfl⟩
abbrev main_v35 : Ref sig .tc := ⟨.hbm, 117, rfl⟩
abbrev main_v36 : Ref sig .tc := ⟨.hbm, 118, rfl⟩
abbrev main_v37 : Ref sig .tc := ⟨.hbm, 119, rfl⟩
abbrev main_c_11 : Ref sig .tc := ⟨.hbm, 120, rfl⟩
abbrev main_v38 : Ref sig .tc := ⟨.hbm, 121, rfl⟩
abbrev main_v39 : Ref sig .tc := ⟨.hbm, 122, rfl⟩
abbrev main_call8_call0_c : Ref sig .tc := ⟨.hbm, 123, rfl⟩
abbrev main_call8_call0_v0 : Ref sig .tc := ⟨.hbm, 124, rfl⟩
abbrev main_v40 : Ref sig .tc := ⟨.hbm, 125, rfl⟩
abbrev main_c_12 : Ref sig .tc := ⟨.hbm, 126, rfl⟩
abbrev main_call9_v0 : Ref sig .tc := ⟨.hbm, 127, rfl⟩
abbrev main_call9_v1 : Ref sig .tc := ⟨.hbm, 128, rfl⟩
abbrev main_call9_v2 : Ref sig .tc := ⟨.hbm, 129, rfl⟩
abbrev main_call9_v3 : Ref sig .tc := ⟨.hbm, 130, rfl⟩
abbrev main_call9_v4 : Ref sig .tc := ⟨.hbm, 131, rfl⟩
abbrev main_call9_v5 : Ref sig .tc := ⟨.hbm, 132, rfl⟩
abbrev main_call9_v6 : Ref sig .tc := ⟨.hbm, 133, rfl⟩
abbrev main_call9_v7 : Ref sig .tc := ⟨.hbm, 134, rfl⟩
abbrev main_call9_c : Ref sig .tc := ⟨.hbm, 135, rfl⟩
abbrev main_call9_v8 : Ref sig .tc := ⟨.hbm, 136, rfl⟩
abbrev main_call9_v9 : Ref sig .tc := ⟨.hbm, 137, rfl⟩
abbrev main_call9_v10 : Ref sig .tc := ⟨.hbm, 138, rfl⟩
abbrev main_call9_c_0 : Ref sig .tc := ⟨.hbm, 139, rfl⟩
abbrev main_call9_v11 : Ref sig .tc := ⟨.hbm, 140, rfl⟩
abbrev main_call9_v12 : Ref sig .tc := ⟨.hbm, 141, rfl⟩
abbrev main_v41 : Ref sig .tc := ⟨.hbm, 142, rfl⟩
abbrev main_c_13 : Ref sig .tc := ⟨.hbm, 143, rfl⟩
abbrev main_call10_v0 : Ref sig .tc := ⟨.hbm, 144, rfl⟩
abbrev main_call10_c : Ref sig .tc := ⟨.hbm, 145, rfl⟩
abbrev main_call10_v1 : Ref sig .tc := ⟨.hbm, 146, rfl⟩
abbrev main_call10_c_0 : Ref sig .tc := ⟨.hbm, 147, rfl⟩
abbrev main_call10_v2 : Ref sig .tc := ⟨.hbm, 148, rfl⟩
abbrev main_call10_v3 : Ref sig .tc := ⟨.hbm, 149, rfl⟩
abbrev main_call10_v4 : Ref sig .tc := ⟨.hbm, 150, rfl⟩
abbrev main_call10_c_1 : Ref sig .tc := ⟨.hbm, 151, rfl⟩
abbrev main_call10_v5 : Ref sig .tc := ⟨.hbm, 152, rfl⟩
abbrev main_call10_v6 : Ref sig .tc := ⟨.hbm, 153, rfl⟩
abbrev main_call10_c_2 : Ref sig .tc := ⟨.hbm, 154, rfl⟩
abbrev main_call10_v7 : Ref sig .tc := ⟨.hbm, 155, rfl⟩
abbrev main_call10_v8 : Ref sig .tc := ⟨.hbm, 156, rfl⟩
abbrev main_call10_c_3 : Ref sig .tc := ⟨.hbm, 157, rfl⟩
abbrev main_call10_v9 : Ref sig .tc := ⟨.hbm, 158, rfl⟩
abbrev main_call10_v10 : Ref sig .tc := ⟨.hbm, 159, rfl⟩
abbrev main_call10_v11 : Ref sig .tc := ⟨.hbm, 160, rfl⟩
abbrev main_call10_v12 : Ref sig .tc := ⟨.hbm, 161, rfl⟩
abbrev main_call10_v13 : Ref sig .tc := ⟨.hbm, 162, rfl⟩
abbrev main_call10_v14 : Ref sig .tc := ⟨.hbm, 163, rfl⟩
abbrev main_v42 : Ref sig .tc := ⟨.hbm, 164, rfl⟩
abbrev main_call11_c : Ref sig .tc := ⟨.hbm, 165, rfl⟩
abbrev main_call11_v0 : Ref sig .tc := ⟨.hbm, 166, rfl⟩
abbrev main_call11_v1 : Ref sig .tc := ⟨.hbm, 167, rfl⟩
abbrev main_call11_c_0 : Ref sig .tc := ⟨.hbm, 168, rfl⟩
abbrev main_call11_v2 : Ref sig .tc := ⟨.hbm, 169, rfl⟩
abbrev main_call11_v3 : Ref sig .tc := ⟨.hbm, 170, rfl⟩
abbrev main_call11_v4 : Ref sig .tc := ⟨.hbm, 171, rfl⟩
abbrev main_call11_v5 : Ref sig .tc := ⟨.hbm, 172, rfl⟩
abbrev main_call11_c_1 : Ref sig .tc := ⟨.hbm, 173, rfl⟩
abbrev main_call11_c_2 : Ref sig .tc := ⟨.hbm, 174, rfl⟩
abbrev main_call11_v6 : Ref sig .tc := ⟨.hbm, 175, rfl⟩
abbrev main_call11_v7 : Ref sig .tc := ⟨.hbm, 176, rfl⟩
abbrev main_call11_v8 : Ref sig .tc := ⟨.hbm, 177, rfl⟩
abbrev main_call11_v9 : Ref sig .tc := ⟨.hbm, 178, rfl⟩
abbrev main_call11_v10 : Ref sig .tc := ⟨.hbm, 179, rfl⟩
abbrev main_call11_v11 : Ref sig .tc := ⟨.hbm, 180, rfl⟩
abbrev main_call11_c_3 : Ref sig .tc := ⟨.hbm, 181, rfl⟩
abbrev main_call11_v12 : Ref sig .tc := ⟨.hbm, 182, rfl⟩
abbrev main_call11_v13 : Ref sig .tc := ⟨.hbm, 183, rfl⟩
abbrev main_call11_v14 : Ref sig .tc := ⟨.hbm, 184, rfl⟩
abbrev main_call11_cst : Ref sig .tc := ⟨.hbm, 185, rfl⟩
abbrev main_call11_v15 : Ref sig .tc := ⟨.hbm, 186, rfl⟩
abbrev main_v43 : Ref sig .tc := ⟨.hbm, 187, rfl⟩
abbrev main_v44 : Ref sig .tc := ⟨.hbm, 188, rfl⟩
abbrev main_v45 : Ref sig .tc := ⟨.hbm, 189, rfl⟩
abbrev main_v46 : Ref sig .tc := ⟨.hbm, 190, rfl⟩
abbrev main_call12_v0 : Ref sig .tc := ⟨.hbm, 191, rfl⟩
abbrev main_call12_call0_c : Ref sig .tc := ⟨.hbm, 192, rfl⟩
abbrev main_call12_call0_v0 : Ref sig .tc := ⟨.hbm, 193, rfl⟩
abbrev main_v47 : Ref sig .tc := ⟨.hbm, 194, rfl⟩
abbrev main_c_14 : Ref sig .tc := ⟨.hbm, 195, rfl⟩
abbrev main_v48 : Ref sig .tc := ⟨.hbm, 196, rfl⟩
abbrev main_c_15 : Ref sig .tc := ⟨.hbm, 197, rfl⟩
abbrev main_call13_v0 : Ref sig .tc := ⟨.hbm, 198, rfl⟩
abbrev main_call13_v1 : Ref sig .tc := ⟨.hbm, 199, rfl⟩
abbrev main_v49 : Ref sig .tc := ⟨.hbm, 200, rfl⟩
abbrev main_c_16 : Ref sig .tc := ⟨.hbm, 201, rfl⟩
abbrev main_v50 : Ref sig .tc := ⟨.hbm, 202, rfl⟩
abbrev main_v51 : Ref sig .tc := ⟨.hbm, 203, rfl⟩
abbrev main_c_17 : Ref sig .tc := ⟨.hbm, 204, rfl⟩
abbrev main_v52 : Ref sig .tc := ⟨.hbm, 205, rfl⟩
abbrev main_v53 : Ref sig .tc := ⟨.hbm, 206, rfl⟩
abbrev main_v54 : Ref sig .tc := ⟨.hbm, 207, rfl⟩
abbrev main_v55 : Ref sig .tc := ⟨.hbm, 208, rfl⟩
abbrev main_c_18 : Ref sig .tc := ⟨.hbm, 209, rfl⟩
abbrev main_v56 : Ref sig .tc := ⟨.hbm, 210, rfl⟩
abbrev main_v57 : Ref sig .tc := ⟨.hbm, 211, rfl⟩
abbrev main_call14_call0_c : Ref sig .tc := ⟨.hbm, 212, rfl⟩
abbrev main_call14_call0_v0 : Ref sig .tc := ⟨.hbm, 213, rfl⟩
abbrev main_v58 : Ref sig .tc := ⟨.hbm, 214, rfl⟩
abbrev main_c_19 : Ref sig .tc := ⟨.hbm, 215, rfl⟩
abbrev main_call15_v0 : Ref sig .tc := ⟨.hbm, 216, rfl⟩
abbrev main_call15_v1 : Ref sig .tc := ⟨.hbm, 217, rfl⟩
abbrev main_call15_v2 : Ref sig .tc := ⟨.hbm, 218, rfl⟩
abbrev main_call15_v3 : Ref sig .tc := ⟨.hbm, 219, rfl⟩
abbrev main_call15_v4 : Ref sig .tc := ⟨.hbm, 220, rfl⟩
abbrev main_call15_v5 : Ref sig .tc := ⟨.hbm, 221, rfl⟩
abbrev main_call15_v6 : Ref sig .tc := ⟨.hbm, 222, rfl⟩
abbrev main_call15_v7 : Ref sig .tc := ⟨.hbm, 223, rfl⟩
abbrev main_call15_c : Ref sig .tc := ⟨.hbm, 224, rfl⟩
abbrev main_call15_v8 : Ref sig .tc := ⟨.hbm, 225, rfl⟩
abbrev main_call15_v9 : Ref sig .tc := ⟨.hbm, 226, rfl⟩
abbrev main_call15_v10 : Ref sig .tc := ⟨.hbm, 227, rfl⟩
abbrev main_call15_c_0 : Ref sig .tc := ⟨.hbm, 228, rfl⟩
abbrev main_call15_v11 : Ref sig .tc := ⟨.hbm, 229, rfl⟩
abbrev main_call15_v12 : Ref sig .tc := ⟨.hbm, 230, rfl⟩
abbrev main_v59 : Ref sig .tc := ⟨.hbm, 231, rfl⟩
abbrev main_c_20 : Ref sig .tc := ⟨.hbm, 232, rfl⟩
abbrev main_call16_v0 : Ref sig .tc := ⟨.hbm, 233, rfl⟩
abbrev main_call16_c : Ref sig .tc := ⟨.hbm, 234, rfl⟩
abbrev main_call16_v1 : Ref sig .tc := ⟨.hbm, 235, rfl⟩
abbrev main_call16_c_0 : Ref sig .tc := ⟨.hbm, 236, rfl⟩
abbrev main_call16_v2 : Ref sig .tc := ⟨.hbm, 237, rfl⟩
abbrev main_call16_v3 : Ref sig .tc := ⟨.hbm, 238, rfl⟩
abbrev main_call16_v4 : Ref sig .tc := ⟨.hbm, 239, rfl⟩
abbrev main_call16_c_1 : Ref sig .tc := ⟨.hbm, 240, rfl⟩
abbrev main_call16_v5 : Ref sig .tc := ⟨.hbm, 241, rfl⟩
abbrev main_call16_v6 : Ref sig .tc := ⟨.hbm, 242, rfl⟩
abbrev main_call16_c_2 : Ref sig .tc := ⟨.hbm, 243, rfl⟩
abbrev main_call16_v7 : Ref sig .tc := ⟨.hbm, 244, rfl⟩
abbrev main_call16_v8 : Ref sig .tc := ⟨.hbm, 245, rfl⟩
abbrev main_call16_c_3 : Ref sig .tc := ⟨.hbm, 246, rfl⟩
abbrev main_call16_v9 : Ref sig .tc := ⟨.hbm, 247, rfl⟩
abbrev main_call16_v10 : Ref sig .tc := ⟨.hbm, 248, rfl⟩
abbrev main_call16_v11 : Ref sig .tc := ⟨.hbm, 249, rfl⟩
abbrev main_call16_v12 : Ref sig .tc := ⟨.hbm, 250, rfl⟩
abbrev main_call16_v13 : Ref sig .tc := ⟨.hbm, 251, rfl⟩
abbrev main_call16_v14 : Ref sig .tc := ⟨.hbm, 252, rfl⟩
abbrev main_v60 : Ref sig .tc := ⟨.hbm, 253, rfl⟩
abbrev main_call17_c : Ref sig .tc := ⟨.hbm, 254, rfl⟩
abbrev main_call17_v0 : Ref sig .tc := ⟨.hbm, 255, rfl⟩
abbrev main_call17_v1 : Ref sig .tc := ⟨.hbm, 256, rfl⟩
abbrev main_call17_c_0 : Ref sig .tc := ⟨.hbm, 257, rfl⟩
abbrev main_call17_v2 : Ref sig .tc := ⟨.hbm, 258, rfl⟩
abbrev main_call17_v3 : Ref sig .tc := ⟨.hbm, 259, rfl⟩
abbrev main_call17_v4 : Ref sig .tc := ⟨.hbm, 260, rfl⟩
abbrev main_call17_v5 : Ref sig .tc := ⟨.hbm, 261, rfl⟩
abbrev main_call17_c_1 : Ref sig .tc := ⟨.hbm, 262, rfl⟩
abbrev main_call17_c_2 : Ref sig .tc := ⟨.hbm, 263, rfl⟩
abbrev main_call17_v6 : Ref sig .tc := ⟨.hbm, 264, rfl⟩
abbrev main_call17_v7 : Ref sig .tc := ⟨.hbm, 265, rfl⟩
abbrev main_call17_v8 : Ref sig .tc := ⟨.hbm, 266, rfl⟩
abbrev main_call17_v9 : Ref sig .tc := ⟨.hbm, 267, rfl⟩
abbrev main_call17_v10 : Ref sig .tc := ⟨.hbm, 268, rfl⟩
abbrev main_call17_v11 : Ref sig .tc := ⟨.hbm, 269, rfl⟩
abbrev main_call17_c_3 : Ref sig .tc := ⟨.hbm, 270, rfl⟩
abbrev main_call17_v12 : Ref sig .tc := ⟨.hbm, 271, rfl⟩
abbrev main_call17_v13 : Ref sig .tc := ⟨.hbm, 272, rfl⟩
abbrev main_call17_v14 : Ref sig .tc := ⟨.hbm, 273, rfl⟩
abbrev main_call17_cst : Ref sig .tc := ⟨.hbm, 274, rfl⟩
abbrev main_call17_v15 : Ref sig .tc := ⟨.hbm, 275, rfl⟩
abbrev main_v61 : Ref sig .tc := ⟨.hbm, 276, rfl⟩
abbrev main_v62 : Ref sig .tc := ⟨.hbm, 277, rfl⟩
abbrev main_v63 : Ref sig .tc := ⟨.hbm, 278, rfl⟩
abbrev main_v64 : Ref sig .tc := ⟨.hbm, 279, rfl⟩
abbrev main_call18_v0 : Ref sig .tc := ⟨.hbm, 280, rfl⟩
abbrev main_call18_call0_c : Ref sig .tc := ⟨.hbm, 281, rfl⟩
abbrev main_call18_call0_v0 : Ref sig .tc := ⟨.hbm, 282, rfl⟩
abbrev main_v65 : Ref sig .tc := ⟨.hbm, 283, rfl⟩
abbrev main_c_21 : Ref sig .tc := ⟨.hbm, 284, rfl⟩
abbrev main_v66 : Ref sig .tc := ⟨.hbm, 285, rfl⟩
abbrev main_c_22 : Ref sig .tc := ⟨.hbm, 286, rfl⟩
abbrev main_call19_v0 : Ref sig .tc := ⟨.hbm, 287, rfl⟩
abbrev main_call19_v1 : Ref sig .tc := ⟨.hbm, 288, rfl⟩
abbrev main_v67 : Ref sig .tc := ⟨.hbm, 289, rfl⟩
abbrev main_c_23 : Ref sig .tc := ⟨.hbm, 290, rfl⟩
abbrev main_v68 : Ref sig .tc := ⟨.hbm, 291, rfl⟩
abbrev main_v69 : Ref sig .tc := ⟨.hbm, 292, rfl⟩
abbrev main_c_24 : Ref sig .tc := ⟨.hbm, 293, rfl⟩
abbrev main_v70 : Ref sig .tc := ⟨.hbm, 294, rfl⟩
abbrev main_v71 : Ref sig .tc := ⟨.hbm, 295, rfl⟩
abbrev main_v72 : Ref sig .tc := ⟨.hbm, 296, rfl⟩
abbrev main_v73 : Ref sig .tc := ⟨.hbm, 297, rfl⟩
abbrev main_c_25 : Ref sig .tc := ⟨.hbm, 298, rfl⟩
abbrev main_v74 : Ref sig .tc := ⟨.hbm, 299, rfl⟩
abbrev main_v75 : Ref sig .tc := ⟨.hbm, 300, rfl⟩
abbrev main_call20_call0_c : Ref sig .tc := ⟨.hbm, 301, rfl⟩
abbrev main_call20_call0_v0 : Ref sig .tc := ⟨.hbm, 302, rfl⟩
abbrev main_v76 : Ref sig .tc := ⟨.hbm, 303, rfl⟩
abbrev main_c_26 : Ref sig .tc := ⟨.hbm, 304, rfl⟩
abbrev main_call21_v0 : Ref sig .tc := ⟨.hbm, 305, rfl⟩
abbrev main_call21_v1 : Ref sig .tc := ⟨.hbm, 306, rfl⟩
abbrev main_call21_v2 : Ref sig .tc := ⟨.hbm, 307, rfl⟩
abbrev main_call21_v3 : Ref sig .tc := ⟨.hbm, 308, rfl⟩
abbrev main_call21_v4 : Ref sig .tc := ⟨.hbm, 309, rfl⟩
abbrev main_call21_v5 : Ref sig .tc := ⟨.hbm, 310, rfl⟩
abbrev main_call21_v6 : Ref sig .tc := ⟨.hbm, 311, rfl⟩
abbrev main_call21_v7 : Ref sig .tc := ⟨.hbm, 312, rfl⟩
abbrev main_call21_c : Ref sig .tc := ⟨.hbm, 313, rfl⟩
abbrev main_call21_v8 : Ref sig .tc := ⟨.hbm, 314, rfl⟩
abbrev main_call21_v9 : Ref sig .tc := ⟨.hbm, 315, rfl⟩
abbrev main_call21_v10 : Ref sig .tc := ⟨.hbm, 316, rfl⟩
abbrev main_call21_c_0 : Ref sig .tc := ⟨.hbm, 317, rfl⟩
abbrev main_call21_v11 : Ref sig .tc := ⟨.hbm, 318, rfl⟩
abbrev main_call21_v12 : Ref sig .tc := ⟨.hbm, 319, rfl⟩
abbrev main_v77 : Ref sig .tc := ⟨.hbm, 320, rfl⟩
abbrev main_c_27 : Ref sig .tc := ⟨.hbm, 321, rfl⟩
abbrev main_call22_v0 : Ref sig .tc := ⟨.hbm, 322, rfl⟩
abbrev main_call22_c : Ref sig .tc := ⟨.hbm, 323, rfl⟩
abbrev main_call22_v1 : Ref sig .tc := ⟨.hbm, 324, rfl⟩
abbrev main_call22_c_0 : Ref sig .tc := ⟨.hbm, 325, rfl⟩
abbrev main_call22_v2 : Ref sig .tc := ⟨.hbm, 326, rfl⟩
abbrev main_call22_v3 : Ref sig .tc := ⟨.hbm, 327, rfl⟩
abbrev main_call22_v4 : Ref sig .tc := ⟨.hbm, 328, rfl⟩
abbrev main_call22_c_1 : Ref sig .tc := ⟨.hbm, 329, rfl⟩
abbrev main_call22_v5 : Ref sig .tc := ⟨.hbm, 330, rfl⟩
abbrev main_call22_v6 : Ref sig .tc := ⟨.hbm, 331, rfl⟩
abbrev main_call22_c_2 : Ref sig .tc := ⟨.hbm, 332, rfl⟩
abbrev main_call22_v7 : Ref sig .tc := ⟨.hbm, 333, rfl⟩
abbrev main_call22_v8 : Ref sig .tc := ⟨.hbm, 334, rfl⟩
abbrev main_call22_c_3 : Ref sig .tc := ⟨.hbm, 335, rfl⟩
abbrev main_call22_v9 : Ref sig .tc := ⟨.hbm, 336, rfl⟩
abbrev main_call22_v10 : Ref sig .tc := ⟨.hbm, 337, rfl⟩
abbrev main_call22_v11 : Ref sig .tc := ⟨.hbm, 338, rfl⟩
abbrev main_call22_v12 : Ref sig .tc := ⟨.hbm, 339, rfl⟩
abbrev main_call22_v13 : Ref sig .tc := ⟨.hbm, 340, rfl⟩
abbrev main_call22_v14 : Ref sig .tc := ⟨.hbm, 341, rfl⟩
abbrev main_v78 : Ref sig .tc := ⟨.hbm, 342, rfl⟩
abbrev main_call23_c : Ref sig .tc := ⟨.hbm, 343, rfl⟩
abbrev main_call23_v0 : Ref sig .tc := ⟨.hbm, 344, rfl⟩
abbrev main_call23_v1 : Ref sig .tc := ⟨.hbm, 345, rfl⟩
abbrev main_call23_c_0 : Ref sig .tc := ⟨.hbm, 346, rfl⟩
abbrev main_call23_v2 : Ref sig .tc := ⟨.hbm, 347, rfl⟩
abbrev main_call23_v3 : Ref sig .tc := ⟨.hbm, 348, rfl⟩
abbrev main_call23_v4 : Ref sig .tc := ⟨.hbm, 349, rfl⟩
abbrev main_call23_v5 : Ref sig .tc := ⟨.hbm, 350, rfl⟩
abbrev main_call23_c_1 : Ref sig .tc := ⟨.hbm, 351, rfl⟩
abbrev main_call23_c_2 : Ref sig .tc := ⟨.hbm, 352, rfl⟩
abbrev main_call23_v6 : Ref sig .tc := ⟨.hbm, 353, rfl⟩
abbrev main_call23_v7 : Ref sig .tc := ⟨.hbm, 354, rfl⟩
abbrev main_call23_v8 : Ref sig .tc := ⟨.hbm, 355, rfl⟩
abbrev main_call23_v9 : Ref sig .tc := ⟨.hbm, 356, rfl⟩
abbrev main_call23_v10 : Ref sig .tc := ⟨.hbm, 357, rfl⟩
abbrev main_call23_v11 : Ref sig .tc := ⟨.hbm, 358, rfl⟩
abbrev main_call23_c_3 : Ref sig .tc := ⟨.hbm, 359, rfl⟩
abbrev main_call23_v12 : Ref sig .tc := ⟨.hbm, 360, rfl⟩
abbrev main_call23_v13 : Ref sig .tc := ⟨.hbm, 361, rfl⟩
abbrev main_call23_v14 : Ref sig .tc := ⟨.hbm, 362, rfl⟩
abbrev main_call23_cst : Ref sig .tc := ⟨.hbm, 363, rfl⟩
abbrev main_call23_v15 : Ref sig .tc := ⟨.hbm, 364, rfl⟩
abbrev main_v79 : Ref sig .tc := ⟨.hbm, 365, rfl⟩
abbrev main_v80 : Ref sig .tc := ⟨.hbm, 366, rfl⟩
abbrev main_v81 : Ref sig .tc := ⟨.hbm, 367, rfl⟩
abbrev main_v82 : Ref sig .tc := ⟨.hbm, 368, rfl⟩
abbrev main_call24_v0 : Ref sig .tc := ⟨.hbm, 369, rfl⟩
abbrev main_call24_call0_c : Ref sig .tc := ⟨.hbm, 370, rfl⟩
abbrev main_call24_call0_v0 : Ref sig .tc := ⟨.hbm, 371, rfl⟩
abbrev main_v83 : Ref sig .tc := ⟨.hbm, 372, rfl⟩
abbrev main_c_28 : Ref sig .tc := ⟨.hbm, 373, rfl⟩
abbrev main_v84 : Ref sig .tc := ⟨.hbm, 374, rfl⟩
abbrev main_c_29 : Ref sig .tc := ⟨.hbm, 375, rfl⟩
abbrev main_call25_v0 : Ref sig .tc := ⟨.hbm, 376, rfl⟩
abbrev main_call25_v1 : Ref sig .tc := ⟨.hbm, 377, rfl⟩
abbrev main_v85 : Ref sig .tc := ⟨.hbm, 378, rfl⟩
abbrev main_c_30 : Ref sig .tc := ⟨.hbm, 379, rfl⟩
abbrev main_v86 : Ref sig .tc := ⟨.hbm, 380, rfl⟩
abbrev main_v87 : Ref sig .tc := ⟨.hbm, 381, rfl⟩
abbrev main_c_31 : Ref sig .tc := ⟨.hbm, 382, rfl⟩
abbrev main_v88 : Ref sig .tc := ⟨.hbm, 383, rfl⟩
abbrev main_v89 : Ref sig .tc := ⟨.hbm, 384, rfl⟩
abbrev main_v90 : Ref sig .tc := ⟨.hbm, 385, rfl⟩
abbrev main_v91 : Ref sig .tc := ⟨.hbm, 386, rfl⟩
abbrev main_c_32 : Ref sig .tc := ⟨.hbm, 387, rfl⟩
abbrev main_v92 : Ref sig .tc := ⟨.hbm, 388, rfl⟩
abbrev main_v93 : Ref sig .tc := ⟨.hbm, 389, rfl⟩
abbrev main_call26_call0_c : Ref sig .tc := ⟨.hbm, 390, rfl⟩
abbrev main_call26_call0_v0 : Ref sig .tc := ⟨.hbm, 391, rfl⟩
abbrev main_v94 : Ref sig .tc := ⟨.hbm, 392, rfl⟩
abbrev main_c_33 : Ref sig .tc := ⟨.hbm, 393, rfl⟩
abbrev main_call27_v0 : Ref sig .tc := ⟨.hbm, 394, rfl⟩
abbrev main_call27_v1 : Ref sig .tc := ⟨.hbm, 395, rfl⟩
abbrev main_call27_v2 : Ref sig .tc := ⟨.hbm, 396, rfl⟩
abbrev main_call27_v3 : Ref sig .tc := ⟨.hbm, 397, rfl⟩
abbrev main_call27_v4 : Ref sig .tc := ⟨.hbm, 398, rfl⟩
abbrev main_call27_v5 : Ref sig .tc := ⟨.hbm, 399, rfl⟩
abbrev main_call27_v6 : Ref sig .tc := ⟨.hbm, 400, rfl⟩
abbrev main_call27_v7 : Ref sig .tc := ⟨.hbm, 401, rfl⟩
abbrev main_call27_c : Ref sig .tc := ⟨.hbm, 402, rfl⟩
abbrev main_call27_v8 : Ref sig .tc := ⟨.hbm, 403, rfl⟩
abbrev main_call27_v9 : Ref sig .tc := ⟨.hbm, 404, rfl⟩
abbrev main_call27_v10 : Ref sig .tc := ⟨.hbm, 405, rfl⟩
abbrev main_call27_c_0 : Ref sig .tc := ⟨.hbm, 406, rfl⟩
abbrev main_call27_v11 : Ref sig .tc := ⟨.hbm, 407, rfl⟩
abbrev main_call27_v12 : Ref sig .tc := ⟨.hbm, 408, rfl⟩
abbrev main_v95 : Ref sig .tc := ⟨.hbm, 409, rfl⟩
abbrev main_c_34 : Ref sig .tc := ⟨.hbm, 410, rfl⟩
abbrev main_call28_v0 : Ref sig .tc := ⟨.hbm, 411, rfl⟩
abbrev main_call28_c : Ref sig .tc := ⟨.hbm, 412, rfl⟩
abbrev main_call28_v1 : Ref sig .tc := ⟨.hbm, 413, rfl⟩
abbrev main_call28_c_0 : Ref sig .tc := ⟨.hbm, 414, rfl⟩
abbrev main_call28_v2 : Ref sig .tc := ⟨.hbm, 415, rfl⟩
abbrev main_call28_v3 : Ref sig .tc := ⟨.hbm, 416, rfl⟩
abbrev main_call28_v4 : Ref sig .tc := ⟨.hbm, 417, rfl⟩
abbrev main_call28_c_1 : Ref sig .tc := ⟨.hbm, 418, rfl⟩
abbrev main_call28_v5 : Ref sig .tc := ⟨.hbm, 419, rfl⟩
abbrev main_call28_v6 : Ref sig .tc := ⟨.hbm, 420, rfl⟩
abbrev main_call28_c_2 : Ref sig .tc := ⟨.hbm, 421, rfl⟩
abbrev main_call28_v7 : Ref sig .tc := ⟨.hbm, 422, rfl⟩
abbrev main_call28_v8 : Ref sig .tc := ⟨.hbm, 423, rfl⟩
abbrev main_call28_c_3 : Ref sig .tc := ⟨.hbm, 424, rfl⟩
abbrev main_call28_v9 : Ref sig .tc := ⟨.hbm, 425, rfl⟩
abbrev main_call28_v10 : Ref sig .tc := ⟨.hbm, 426, rfl⟩
abbrev main_call28_v11 : Ref sig .tc := ⟨.hbm, 427, rfl⟩
abbrev main_call28_v12 : Ref sig .tc := ⟨.hbm, 428, rfl⟩
abbrev main_call28_v13 : Ref sig .tc := ⟨.hbm, 429, rfl⟩
abbrev main_call28_v14 : Ref sig .tc := ⟨.hbm, 430, rfl⟩
abbrev main_v96 : Ref sig .tc := ⟨.hbm, 431, rfl⟩
abbrev main_call29_c : Ref sig .tc := ⟨.hbm, 432, rfl⟩
abbrev main_call29_v0 : Ref sig .tc := ⟨.hbm, 433, rfl⟩
abbrev main_call29_v1 : Ref sig .tc := ⟨.hbm, 434, rfl⟩
abbrev main_call29_c_0 : Ref sig .tc := ⟨.hbm, 435, rfl⟩
abbrev main_call29_v2 : Ref sig .tc := ⟨.hbm, 436, rfl⟩
abbrev main_call29_v3 : Ref sig .tc := ⟨.hbm, 437, rfl⟩
abbrev main_call29_v4 : Ref sig .tc := ⟨.hbm, 438, rfl⟩
abbrev main_call29_v5 : Ref sig .tc := ⟨.hbm, 439, rfl⟩
abbrev main_call29_c_1 : Ref sig .tc := ⟨.hbm, 440, rfl⟩
abbrev main_call29_c_2 : Ref sig .tc := ⟨.hbm, 441, rfl⟩
abbrev main_call29_v6 : Ref sig .tc := ⟨.hbm, 442, rfl⟩
abbrev main_call29_v7 : Ref sig .tc := ⟨.hbm, 443, rfl⟩
abbrev main_call29_v8 : Ref sig .tc := ⟨.hbm, 444, rfl⟩
abbrev main_call29_v9 : Ref sig .tc := ⟨.hbm, 445, rfl⟩
abbrev main_call29_v10 : Ref sig .tc := ⟨.hbm, 446, rfl⟩
abbrev main_call29_v11 : Ref sig .tc := ⟨.hbm, 447, rfl⟩
abbrev main_call29_c_3 : Ref sig .tc := ⟨.hbm, 448, rfl⟩
abbrev main_call29_v12 : Ref sig .tc := ⟨.hbm, 449, rfl⟩
abbrev main_call29_v13 : Ref sig .tc := ⟨.hbm, 450, rfl⟩
abbrev main_call29_v14 : Ref sig .tc := ⟨.hbm, 451, rfl⟩
abbrev main_call29_cst : Ref sig .tc := ⟨.hbm, 452, rfl⟩
abbrev main_call29_v15 : Ref sig .tc := ⟨.hbm, 453, rfl⟩
abbrev main_v97 : Ref sig .tc := ⟨.hbm, 454, rfl⟩
abbrev main_v98 : Ref sig .tc := ⟨.hbm, 455, rfl⟩
abbrev main_v99 : Ref sig .tc := ⟨.hbm, 456, rfl⟩
abbrev main_v100 : Ref sig .tc := ⟨.hbm, 457, rfl⟩
abbrev main_call30_v0 : Ref sig .tc := ⟨.hbm, 458, rfl⟩
abbrev main_call30_call0_c : Ref sig .tc := ⟨.hbm, 459, rfl⟩
abbrev main_call30_call0_v0 : Ref sig .tc := ⟨.hbm, 460, rfl⟩
abbrev main_v101 : Ref sig .tc := ⟨.hbm, 461, rfl⟩
abbrev main_c_35 : Ref sig .tc := ⟨.hbm, 462, rfl⟩
abbrev main_v102 : Ref sig .tc := ⟨.hbm, 463, rfl⟩
abbrev main_c_36 : Ref sig .tc := ⟨.hbm, 464, rfl⟩
abbrev main_call31_v0 : Ref sig .tc := ⟨.hbm, 465, rfl⟩
abbrev main_call31_v1 : Ref sig .tc := ⟨.hbm, 466, rfl⟩
abbrev main_v103 : Ref sig .tc := ⟨.hbm, 467, rfl⟩
abbrev main_c_37 : Ref sig .tc := ⟨.hbm, 468, rfl⟩
abbrev main_v104 : Ref sig .tc := ⟨.hbm, 469, rfl⟩
abbrev main_v105 : Ref sig .tc := ⟨.hbm, 470, rfl⟩
abbrev main_c_38 : Ref sig .tc := ⟨.hbm, 471, rfl⟩
abbrev main_v106 : Ref sig .tc := ⟨.hbm, 472, rfl⟩
abbrev main_v107 : Ref sig .tc := ⟨.hbm, 473, rfl⟩
abbrev main_v108 : Ref sig .tc := ⟨.hbm, 474, rfl⟩
abbrev main_v109 : Ref sig .tc := ⟨.hbm, 475, rfl⟩
abbrev main_c_39 : Ref sig .tc := ⟨.hbm, 476, rfl⟩
abbrev main_v110 : Ref sig .tc := ⟨.hbm, 477, rfl⟩
abbrev main_v111 : Ref sig .tc := ⟨.hbm, 478, rfl⟩
abbrev main_call32_call0_c : Ref sig .tc := ⟨.hbm, 479, rfl⟩
abbrev main_call32_call0_v0 : Ref sig .tc := ⟨.hbm, 480, rfl⟩
abbrev main_v112 : Ref sig .tc := ⟨.hbm, 481, rfl⟩
abbrev main_c_40 : Ref sig .tc := ⟨.hbm, 482, rfl⟩
abbrev main_call33_v0 : Ref sig .tc := ⟨.hbm, 483, rfl⟩
abbrev main_call33_v1 : Ref sig .tc := ⟨.hbm, 484, rfl⟩
abbrev main_call33_v2 : Ref sig .tc := ⟨.hbm, 485, rfl⟩
abbrev main_call33_v3 : Ref sig .tc := ⟨.hbm, 486, rfl⟩
abbrev main_call33_v4 : Ref sig .tc := ⟨.hbm, 487, rfl⟩
abbrev main_call33_v5 : Ref sig .tc := ⟨.hbm, 488, rfl⟩
abbrev main_call33_v6 : Ref sig .tc := ⟨.hbm, 489, rfl⟩
abbrev main_call33_v7 : Ref sig .tc := ⟨.hbm, 490, rfl⟩
abbrev main_call33_c : Ref sig .tc := ⟨.hbm, 491, rfl⟩
abbrev main_call33_v8 : Ref sig .tc := ⟨.hbm, 492, rfl⟩
abbrev main_call33_v9 : Ref sig .tc := ⟨.hbm, 493, rfl⟩
abbrev main_call33_v10 : Ref sig .tc := ⟨.hbm, 494, rfl⟩
abbrev main_call33_c_0 : Ref sig .tc := ⟨.hbm, 495, rfl⟩
abbrev main_call33_v11 : Ref sig .tc := ⟨.hbm, 496, rfl⟩
abbrev main_call33_v12 : Ref sig .tc := ⟨.hbm, 497, rfl⟩
abbrev main_v113 : Ref sig .tc := ⟨.hbm, 498, rfl⟩
abbrev main_c_41 : Ref sig .tc := ⟨.hbm, 499, rfl⟩
abbrev main_call34_v0 : Ref sig .tc := ⟨.hbm, 500, rfl⟩
abbrev main_call34_c : Ref sig .tc := ⟨.hbm, 501, rfl⟩
abbrev main_call34_v1 : Ref sig .tc := ⟨.hbm, 502, rfl⟩
abbrev main_call34_c_0 : Ref sig .tc := ⟨.hbm, 503, rfl⟩
abbrev main_call34_v2 : Ref sig .tc := ⟨.hbm, 504, rfl⟩
abbrev main_call34_v3 : Ref sig .tc := ⟨.hbm, 505, rfl⟩
abbrev main_call34_v4 : Ref sig .tc := ⟨.hbm, 506, rfl⟩
abbrev main_call34_c_1 : Ref sig .tc := ⟨.hbm, 507, rfl⟩
abbrev main_call34_v5 : Ref sig .tc := ⟨.hbm, 508, rfl⟩
abbrev main_call34_v6 : Ref sig .tc := ⟨.hbm, 509, rfl⟩
abbrev main_call34_c_2 : Ref sig .tc := ⟨.hbm, 510, rfl⟩
abbrev main_call34_v7 : Ref sig .tc := ⟨.hbm, 511, rfl⟩
abbrev main_call34_v8 : Ref sig .tc := ⟨.hbm, 512, rfl⟩
abbrev main_call34_c_3 : Ref sig .tc := ⟨.hbm, 513, rfl⟩
abbrev main_call34_v9 : Ref sig .tc := ⟨.hbm, 514, rfl⟩
abbrev main_call34_v10 : Ref sig .tc := ⟨.hbm, 515, rfl⟩
abbrev main_call34_v11 : Ref sig .tc := ⟨.hbm, 516, rfl⟩
abbrev main_call34_v12 : Ref sig .tc := ⟨.hbm, 517, rfl⟩
abbrev main_call34_v13 : Ref sig .tc := ⟨.hbm, 518, rfl⟩
abbrev main_call34_v14 : Ref sig .tc := ⟨.hbm, 519, rfl⟩
abbrev main_v114 : Ref sig .tc := ⟨.hbm, 520, rfl⟩
abbrev main_call35_c : Ref sig .tc := ⟨.hbm, 521, rfl⟩
abbrev main_call35_v0 : Ref sig .tc := ⟨.hbm, 522, rfl⟩
abbrev main_call35_v1 : Ref sig .tc := ⟨.hbm, 523, rfl⟩
abbrev main_call35_c_0 : Ref sig .tc := ⟨.hbm, 524, rfl⟩
abbrev main_call35_v2 : Ref sig .tc := ⟨.hbm, 525, rfl⟩
abbrev main_call35_v3 : Ref sig .tc := ⟨.hbm, 526, rfl⟩
abbrev main_call35_v4 : Ref sig .tc := ⟨.hbm, 527, rfl⟩
abbrev main_call35_v5 : Ref sig .tc := ⟨.hbm, 528, rfl⟩
abbrev main_call35_c_1 : Ref sig .tc := ⟨.hbm, 529, rfl⟩
abbrev main_call35_c_2 : Ref sig .tc := ⟨.hbm, 530, rfl⟩
abbrev main_call35_v6 : Ref sig .tc := ⟨.hbm, 531, rfl⟩
abbrev main_call35_v7 : Ref sig .tc := ⟨.hbm, 532, rfl⟩
abbrev main_call35_v8 : Ref sig .tc := ⟨.hbm, 533, rfl⟩
abbrev main_call35_v9 : Ref sig .tc := ⟨.hbm, 534, rfl⟩
abbrev main_call35_v10 : Ref sig .tc := ⟨.hbm, 535, rfl⟩
abbrev main_call35_v11 : Ref sig .tc := ⟨.hbm, 536, rfl⟩
abbrev main_call35_c_3 : Ref sig .tc := ⟨.hbm, 537, rfl⟩
abbrev main_call35_v12 : Ref sig .tc := ⟨.hbm, 538, rfl⟩
abbrev main_call35_v13 : Ref sig .tc := ⟨.hbm, 539, rfl⟩
abbrev main_call35_v14 : Ref sig .tc := ⟨.hbm, 540, rfl⟩
abbrev main_call35_cst : Ref sig .tc := ⟨.hbm, 541, rfl⟩
abbrev main_call35_v15 : Ref sig .tc := ⟨.hbm, 542, rfl⟩
abbrev main_v115 : Ref sig .tc := ⟨.hbm, 543, rfl⟩
abbrev main_v116 : Ref sig .tc := ⟨.hbm, 544, rfl⟩
abbrev main_v117 : Ref sig .tc := ⟨.hbm, 545, rfl⟩
abbrev main_v118 : Ref sig .tc := ⟨.hbm, 546, rfl⟩
abbrev main_call36_v0 : Ref sig .tc := ⟨.hbm, 547, rfl⟩
abbrev main_call36_call0_c : Ref sig .tc := ⟨.hbm, 548, rfl⟩
abbrev main_call36_call0_v0 : Ref sig .tc := ⟨.hbm, 549, rfl⟩
abbrev main_v119 : Ref sig .tc := ⟨.hbm, 550, rfl⟩
abbrev main_c_42 : Ref sig .tc := ⟨.hbm, 551, rfl⟩
abbrev main_v120 : Ref sig .tc := ⟨.hbm, 552, rfl⟩
abbrev main_c_43 : Ref sig .tc := ⟨.hbm, 553, rfl⟩
abbrev main_call37_v0 : Ref sig .tc := ⟨.hbm, 554, rfl⟩
abbrev main_call37_v1 : Ref sig .tc := ⟨.hbm, 555, rfl⟩
abbrev main_v121 : Ref sig .tc := ⟨.hbm, 556, rfl⟩
abbrev main_c_44 : Ref sig .tc := ⟨.hbm, 557, rfl⟩
abbrev main_v122 : Ref sig .tc := ⟨.hbm, 558, rfl⟩
abbrev main_v123 : Ref sig .tc := ⟨.hbm, 559, rfl⟩
abbrev main_c_45 : Ref sig .tc := ⟨.hbm, 560, rfl⟩
abbrev main_v124 : Ref sig .tc := ⟨.hbm, 561, rfl⟩
abbrev main_v125 : Ref sig .tc := ⟨.hbm, 562, rfl⟩
abbrev main_v126 : Ref sig .tc := ⟨.hbm, 563, rfl⟩
abbrev main_v127 : Ref sig .tc := ⟨.hbm, 564, rfl⟩
abbrev main_c_46 : Ref sig .tc := ⟨.hbm, 565, rfl⟩
abbrev main_v128 : Ref sig .tc := ⟨.hbm, 566, rfl⟩
abbrev main_v129 : Ref sig .tc := ⟨.hbm, 567, rfl⟩
abbrev main_call38_call0_c : Ref sig .tc := ⟨.hbm, 568, rfl⟩
abbrev main_call38_call0_v0 : Ref sig .tc := ⟨.hbm, 569, rfl⟩
abbrev main_v130 : Ref sig .tc := ⟨.hbm, 570, rfl⟩
abbrev main_c_47 : Ref sig .tc := ⟨.hbm, 571, rfl⟩
abbrev main_call39_v0 : Ref sig .tc := ⟨.hbm, 572, rfl⟩
abbrev main_call39_v1 : Ref sig .tc := ⟨.hbm, 573, rfl⟩
abbrev main_call39_v2 : Ref sig .tc := ⟨.hbm, 574, rfl⟩
abbrev main_call39_v3 : Ref sig .tc := ⟨.hbm, 575, rfl⟩
abbrev main_call39_v4 : Ref sig .tc := ⟨.hbm, 576, rfl⟩
abbrev main_call39_v5 : Ref sig .tc := ⟨.hbm, 577, rfl⟩
abbrev main_call39_v6 : Ref sig .tc := ⟨.hbm, 578, rfl⟩
abbrev main_call39_v7 : Ref sig .tc := ⟨.hbm, 579, rfl⟩
abbrev main_call39_c : Ref sig .tc := ⟨.hbm, 580, rfl⟩
abbrev main_call39_v8 : Ref sig .tc := ⟨.hbm, 581, rfl⟩
abbrev main_call39_v9 : Ref sig .tc := ⟨.hbm, 582, rfl⟩
abbrev main_call39_v10 : Ref sig .tc := ⟨.hbm, 583, rfl⟩
abbrev main_call39_c_0 : Ref sig .tc := ⟨.hbm, 584, rfl⟩
abbrev main_call39_v11 : Ref sig .tc := ⟨.hbm, 585, rfl⟩
abbrev main_call39_v12 : Ref sig .tc := ⟨.hbm, 586, rfl⟩
abbrev main_v131 : Ref sig .tc := ⟨.hbm, 587, rfl⟩
abbrev main_c_48 : Ref sig .tc := ⟨.hbm, 588, rfl⟩
abbrev main_call40_v0 : Ref sig .tc := ⟨.hbm, 589, rfl⟩
abbrev main_call40_c : Ref sig .tc := ⟨.hbm, 590, rfl⟩
abbrev main_call40_v1 : Ref sig .tc := ⟨.hbm, 591, rfl⟩
abbrev main_call40_c_0 : Ref sig .tc := ⟨.hbm, 592, rfl⟩
abbrev main_call40_v2 : Ref sig .tc := ⟨.hbm, 593, rfl⟩
abbrev main_call40_v3 : Ref sig .tc := ⟨.hbm, 594, rfl⟩
abbrev main_call40_v4 : Ref sig .tc := ⟨.hbm, 595, rfl⟩
abbrev main_call40_c_1 : Ref sig .tc := ⟨.hbm, 596, rfl⟩
abbrev main_call40_v5 : Ref sig .tc := ⟨.hbm, 597, rfl⟩
abbrev main_call40_v6 : Ref sig .tc := ⟨.hbm, 598, rfl⟩
abbrev main_call40_c_2 : Ref sig .tc := ⟨.hbm, 599, rfl⟩
abbrev main_call40_v7 : Ref sig .tc := ⟨.hbm, 600, rfl⟩
abbrev main_call40_v8 : Ref sig .tc := ⟨.hbm, 601, rfl⟩
abbrev main_call40_c_3 : Ref sig .tc := ⟨.hbm, 602, rfl⟩
abbrev main_call40_v9 : Ref sig .tc := ⟨.hbm, 603, rfl⟩
abbrev main_call40_v10 : Ref sig .tc := ⟨.hbm, 604, rfl⟩
abbrev main_call40_v11 : Ref sig .tc := ⟨.hbm, 605, rfl⟩
abbrev main_call40_v12 : Ref sig .tc := ⟨.hbm, 606, rfl⟩
abbrev main_call40_v13 : Ref sig .tc := ⟨.hbm, 607, rfl⟩
abbrev main_call40_v14 : Ref sig .tc := ⟨.hbm, 608, rfl⟩
abbrev main_v132 : Ref sig .tc := ⟨.hbm, 609, rfl⟩
abbrev main_call41_c : Ref sig .tc := ⟨.hbm, 610, rfl⟩
abbrev main_call41_v0 : Ref sig .tc := ⟨.hbm, 611, rfl⟩
abbrev main_call41_v1 : Ref sig .tc := ⟨.hbm, 612, rfl⟩
abbrev main_call41_c_0 : Ref sig .tc := ⟨.hbm, 613, rfl⟩
abbrev main_call41_v2 : Ref sig .tc := ⟨.hbm, 614, rfl⟩
abbrev main_call41_v3 : Ref sig .tc := ⟨.hbm, 615, rfl⟩
abbrev main_call41_v4 : Ref sig .tc := ⟨.hbm, 616, rfl⟩
abbrev main_call41_v5 : Ref sig .tc := ⟨.hbm, 617, rfl⟩
abbrev main_call41_c_1 : Ref sig .tc := ⟨.hbm, 618, rfl⟩
abbrev main_call41_c_2 : Ref sig .tc := ⟨.hbm, 619, rfl⟩
abbrev main_call41_v6 : Ref sig .tc := ⟨.hbm, 620, rfl⟩
abbrev main_call41_v7 : Ref sig .tc := ⟨.hbm, 621, rfl⟩
abbrev main_call41_v8 : Ref sig .tc := ⟨.hbm, 622, rfl⟩
abbrev main_call41_v9 : Ref sig .tc := ⟨.hbm, 623, rfl⟩
abbrev main_call41_v10 : Ref sig .tc := ⟨.hbm, 624, rfl⟩
abbrev main_call41_v11 : Ref sig .tc := ⟨.hbm, 625, rfl⟩
abbrev main_call41_c_3 : Ref sig .tc := ⟨.hbm, 626, rfl⟩
abbrev main_call41_v12 : Ref sig .tc := ⟨.hbm, 627, rfl⟩
abbrev main_call41_v13 : Ref sig .tc := ⟨.hbm, 628, rfl⟩
abbrev main_call41_v14 : Ref sig .tc := ⟨.hbm, 629, rfl⟩
abbrev main_call41_cst : Ref sig .tc := ⟨.hbm, 630, rfl⟩
abbrev main_call41_v15 : Ref sig .tc := ⟨.hbm, 631, rfl⟩
abbrev main_v133 : Ref sig .tc := ⟨.hbm, 632, rfl⟩
abbrev main_v134 : Ref sig .tc := ⟨.hbm, 633, rfl⟩
abbrev main_v135 : Ref sig .tc := ⟨.hbm, 634, rfl⟩
abbrev main_v136 : Ref sig .tc := ⟨.hbm, 635, rfl⟩
abbrev main_call42_v0 : Ref sig .tc := ⟨.hbm, 636, rfl⟩
abbrev main_call42_call0_c : Ref sig .tc := ⟨.hbm, 637, rfl⟩
abbrev main_call42_call0_v0 : Ref sig .tc := ⟨.hbm, 638, rfl⟩
abbrev main_v137 : Ref sig .tc := ⟨.hbm, 639, rfl⟩
abbrev main_c_49 : Ref sig .tc := ⟨.hbm, 640, rfl⟩
abbrev main_v138 : Ref sig .tc := ⟨.hbm, 641, rfl⟩
abbrev main_c_50 : Ref sig .tc := ⟨.hbm, 642, rfl⟩
abbrev main_call43_v0 : Ref sig .tc := ⟨.hbm, 643, rfl⟩
abbrev main_call43_v1 : Ref sig .tc := ⟨.hbm, 644, rfl⟩
abbrev main_v139 : Ref sig .tc := ⟨.hbm, 645, rfl⟩
abbrev main_c_51 : Ref sig .tc := ⟨.hbm, 646, rfl⟩
abbrev main_v140 : Ref sig .tc := ⟨.hbm, 647, rfl⟩
abbrev main_v141 : Ref sig .tc := ⟨.hbm, 648, rfl⟩
abbrev main_c_52 : Ref sig .tc := ⟨.hbm, 649, rfl⟩
abbrev main_v142 : Ref sig .tc := ⟨.hbm, 650, rfl⟩
abbrev main_v143 : Ref sig .tc := ⟨.hbm, 651, rfl⟩
abbrev main_v144 : Ref sig .tc := ⟨.hbm, 652, rfl⟩
abbrev main_v145 : Ref sig .tc := ⟨.hbm, 653, rfl⟩
abbrev main_c_53 : Ref sig .tc := ⟨.hbm, 654, rfl⟩
abbrev main_v146 : Ref sig .tc := ⟨.hbm, 655, rfl⟩
abbrev main_v147 : Ref sig .tc := ⟨.hbm, 656, rfl⟩
abbrev main_call44_call0_c : Ref sig .tc := ⟨.hbm, 657, rfl⟩
abbrev main_call44_call0_v0 : Ref sig .tc := ⟨.hbm, 658, rfl⟩
abbrev main_v148 : Ref sig .tc := ⟨.hbm, 659, rfl⟩
abbrev main_c_54 : Ref sig .tc := ⟨.hbm, 660, rfl⟩
abbrev main_call45_v0 : Ref sig .tc := ⟨.hbm, 661, rfl⟩
abbrev main_call45_v1 : Ref sig .tc := ⟨.hbm, 662, rfl⟩
abbrev main_call45_v2 : Ref sig .tc := ⟨.hbm, 663, rfl⟩
abbrev main_call45_v3 : Ref sig .tc := ⟨.hbm, 664, rfl⟩
abbrev main_call45_v4 : Ref sig .tc := ⟨.hbm, 665, rfl⟩
abbrev main_call45_v5 : Ref sig .tc := ⟨.hbm, 666, rfl⟩
abbrev main_call45_v6 : Ref sig .tc := ⟨.hbm, 667, rfl⟩
abbrev main_call45_v7 : Ref sig .tc := ⟨.hbm, 668, rfl⟩
abbrev main_call45_c : Ref sig .tc := ⟨.hbm, 669, rfl⟩
abbrev main_call45_v8 : Ref sig .tc := ⟨.hbm, 670, rfl⟩
abbrev main_call45_v9 : Ref sig .tc := ⟨.hbm, 671, rfl⟩
abbrev main_call45_v10 : Ref sig .tc := ⟨.hbm, 672, rfl⟩
abbrev main_call45_c_0 : Ref sig .tc := ⟨.hbm, 673, rfl⟩
abbrev main_call45_v11 : Ref sig .tc := ⟨.hbm, 674, rfl⟩
abbrev main_call45_v12 : Ref sig .tc := ⟨.hbm, 675, rfl⟩
abbrev main_v149 : Ref sig .tc := ⟨.hbm, 676, rfl⟩
abbrev main_c_55 : Ref sig .tc := ⟨.hbm, 677, rfl⟩
abbrev main_call46_v0 : Ref sig .tc := ⟨.hbm, 678, rfl⟩
abbrev main_call46_c : Ref sig .tc := ⟨.hbm, 679, rfl⟩
abbrev main_call46_v1 : Ref sig .tc := ⟨.hbm, 680, rfl⟩
abbrev main_call46_c_0 : Ref sig .tc := ⟨.hbm, 681, rfl⟩
abbrev main_call46_v2 : Ref sig .tc := ⟨.hbm, 682, rfl⟩
abbrev main_call46_v3 : Ref sig .tc := ⟨.hbm, 683, rfl⟩
abbrev main_call46_v4 : Ref sig .tc := ⟨.hbm, 684, rfl⟩
abbrev main_call46_c_1 : Ref sig .tc := ⟨.hbm, 685, rfl⟩
abbrev main_call46_v5 : Ref sig .tc := ⟨.hbm, 686, rfl⟩
abbrev main_call46_v6 : Ref sig .tc := ⟨.hbm, 687, rfl⟩
abbrev main_call46_c_2 : Ref sig .tc := ⟨.hbm, 688, rfl⟩
abbrev main_call46_v7 : Ref sig .tc := ⟨.hbm, 689, rfl⟩
abbrev main_call46_v8 : Ref sig .tc := ⟨.hbm, 690, rfl⟩
abbrev main_call46_c_3 : Ref sig .tc := ⟨.hbm, 691, rfl⟩
abbrev main_call46_v9 : Ref sig .tc := ⟨.hbm, 692, rfl⟩
abbrev main_call46_v10 : Ref sig .tc := ⟨.hbm, 693, rfl⟩
abbrev main_call46_v11 : Ref sig .tc := ⟨.hbm, 694, rfl⟩
abbrev main_call46_v12 : Ref sig .tc := ⟨.hbm, 695, rfl⟩
abbrev main_call46_v13 : Ref sig .tc := ⟨.hbm, 696, rfl⟩
abbrev main_call46_v14 : Ref sig .tc := ⟨.hbm, 697, rfl⟩
abbrev main_v150 : Ref sig .tc := ⟨.hbm, 698, rfl⟩
abbrev main_call47_c : Ref sig .tc := ⟨.hbm, 699, rfl⟩
abbrev main_call47_v0 : Ref sig .tc := ⟨.hbm, 700, rfl⟩
abbrev main_call47_v1 : Ref sig .tc := ⟨.hbm, 701, rfl⟩
abbrev main_call47_c_0 : Ref sig .tc := ⟨.hbm, 702, rfl⟩
abbrev main_call47_v2 : Ref sig .tc := ⟨.hbm, 703, rfl⟩
abbrev main_call47_v3 : Ref sig .tc := ⟨.hbm, 704, rfl⟩
abbrev main_call47_v4 : Ref sig .tc := ⟨.hbm, 705, rfl⟩
abbrev main_call47_v5 : Ref sig .tc := ⟨.hbm, 706, rfl⟩
abbrev main_call47_c_1 : Ref sig .tc := ⟨.hbm, 707, rfl⟩
abbrev main_call47_c_2 : Ref sig .tc := ⟨.hbm, 708, rfl⟩
abbrev main_call47_v6 : Ref sig .tc := ⟨.hbm, 709, rfl⟩
abbrev main_call47_v7 : Ref sig .tc := ⟨.hbm, 710, rfl⟩
abbrev main_call47_v8 : Ref sig .tc := ⟨.hbm, 711, rfl⟩
abbrev main_call47_v9 : Ref sig .tc := ⟨.hbm, 712, rfl⟩
abbrev main_call47_v10 : Ref sig .tc := ⟨.hbm, 713, rfl⟩
abbrev main_call47_v11 : Ref sig .tc := ⟨.hbm, 714, rfl⟩
abbrev main_call47_c_3 : Ref sig .tc := ⟨.hbm, 715, rfl⟩
abbrev main_call47_v12 : Ref sig .tc := ⟨.hbm, 716, rfl⟩
abbrev main_call47_v13 : Ref sig .tc := ⟨.hbm, 717, rfl⟩
abbrev main_call47_v14 : Ref sig .tc := ⟨.hbm, 718, rfl⟩
abbrev main_call47_cst : Ref sig .tc := ⟨.hbm, 719, rfl⟩
abbrev main_call47_v15 : Ref sig .tc := ⟨.hbm, 720, rfl⟩
abbrev main_v151 : Ref sig .tc := ⟨.hbm, 721, rfl⟩
abbrev main_v152 : Ref sig .tc := ⟨.hbm, 722, rfl⟩
abbrev main_v153 : Ref sig .tc := ⟨.hbm, 723, rfl⟩
abbrev main_v154 : Ref sig .tc := ⟨.hbm, 724, rfl⟩
abbrev main_call48_v0 : Ref sig .tc := ⟨.hbm, 725, rfl⟩
abbrev main_call48_call0_c : Ref sig .tc := ⟨.hbm, 726, rfl⟩
abbrev main_call48_call0_v0 : Ref sig .tc := ⟨.hbm, 727, rfl⟩
abbrev main_v155 : Ref sig .tc := ⟨.hbm, 728, rfl⟩
abbrev main_c_56 : Ref sig .tc := ⟨.hbm, 729, rfl⟩
abbrev main_v156 : Ref sig .tc := ⟨.hbm, 730, rfl⟩
abbrev main_c_57 : Ref sig .tc := ⟨.hbm, 731, rfl⟩
abbrev main_call49_v0 : Ref sig .tc := ⟨.hbm, 732, rfl⟩
abbrev main_call49_v1 : Ref sig .tc := ⟨.hbm, 733, rfl⟩
abbrev main_v157 : Ref sig .tc := ⟨.hbm, 734, rfl⟩
abbrev main_c_58 : Ref sig .tc := ⟨.hbm, 735, rfl⟩
abbrev main_v158 : Ref sig .tc := ⟨.hbm, 736, rfl⟩
abbrev main_v159 : Ref sig .tc := ⟨.hbm, 737, rfl⟩
abbrev main_c_59 : Ref sig .tc := ⟨.hbm, 738, rfl⟩
abbrev main_v160 : Ref sig .tc := ⟨.hbm, 739, rfl⟩
abbrev main_v161 : Ref sig .tc := ⟨.hbm, 740, rfl⟩
abbrev main_v162 : Ref sig .tc := ⟨.hbm, 741, rfl⟩
abbrev main_v163 : Ref sig .tc := ⟨.hbm, 742, rfl⟩
abbrev main_c_60 : Ref sig .tc := ⟨.hbm, 743, rfl⟩
abbrev main_v164 : Ref sig .tc := ⟨.hbm, 744, rfl⟩
abbrev main_v165 : Ref sig .tc := ⟨.hbm, 745, rfl⟩
abbrev main_call50_call0_c : Ref sig .tc := ⟨.hbm, 746, rfl⟩
abbrev main_call50_call0_v0 : Ref sig .tc := ⟨.hbm, 747, rfl⟩
abbrev main_v166 : Ref sig .tc := ⟨.hbm, 748, rfl⟩
abbrev main_c_61 : Ref sig .tc := ⟨.hbm, 749, rfl⟩
abbrev main_call51_v0 : Ref sig .tc := ⟨.hbm, 750, rfl⟩
abbrev main_call51_v1 : Ref sig .tc := ⟨.hbm, 751, rfl⟩
abbrev main_call51_v2 : Ref sig .tc := ⟨.hbm, 752, rfl⟩
abbrev main_call51_v3 : Ref sig .tc := ⟨.hbm, 753, rfl⟩
abbrev main_call51_v4 : Ref sig .tc := ⟨.hbm, 754, rfl⟩
abbrev main_call51_v5 : Ref sig .tc := ⟨.hbm, 755, rfl⟩
abbrev main_call51_v6 : Ref sig .tc := ⟨.hbm, 756, rfl⟩
abbrev main_call51_v7 : Ref sig .tc := ⟨.hbm, 757, rfl⟩
abbrev main_call51_c : Ref sig .tc := ⟨.hbm, 758, rfl⟩
abbrev main_call51_v8 : Ref sig .tc := ⟨.hbm, 759, rfl⟩
abbrev main_call51_v9 : Ref sig .tc := ⟨.hbm, 760, rfl⟩
abbrev main_call51_v10 : Ref sig .tc := ⟨.hbm, 761, rfl⟩
abbrev main_call51_c_0 : Ref sig .tc := ⟨.hbm, 762, rfl⟩
abbrev main_call51_v11 : Ref sig .tc := ⟨.hbm, 763, rfl⟩
abbrev main_call51_v12 : Ref sig .tc := ⟨.hbm, 764, rfl⟩
abbrev main_v167 : Ref sig .tc := ⟨.hbm, 765, rfl⟩
abbrev main_c_62 : Ref sig .tc := ⟨.hbm, 766, rfl⟩
abbrev main_call52_v0 : Ref sig .tc := ⟨.hbm, 767, rfl⟩
abbrev main_call52_c : Ref sig .tc := ⟨.hbm, 768, rfl⟩
abbrev main_call52_v1 : Ref sig .tc := ⟨.hbm, 769, rfl⟩
abbrev main_call52_c_0 : Ref sig .tc := ⟨.hbm, 770, rfl⟩
abbrev main_call52_v2 : Ref sig .tc := ⟨.hbm, 771, rfl⟩
abbrev main_call52_v3 : Ref sig .tc := ⟨.hbm, 772, rfl⟩
abbrev main_call52_v4 : Ref sig .tc := ⟨.hbm, 773, rfl⟩
abbrev main_call52_c_1 : Ref sig .tc := ⟨.hbm, 774, rfl⟩
abbrev main_call52_v5 : Ref sig .tc := ⟨.hbm, 775, rfl⟩
abbrev main_call52_v6 : Ref sig .tc := ⟨.hbm, 776, rfl⟩
abbrev main_call52_c_2 : Ref sig .tc := ⟨.hbm, 777, rfl⟩
abbrev main_call52_v7 : Ref sig .tc := ⟨.hbm, 778, rfl⟩
abbrev main_call52_v8 : Ref sig .tc := ⟨.hbm, 779, rfl⟩
abbrev main_call52_c_3 : Ref sig .tc := ⟨.hbm, 780, rfl⟩
abbrev main_call52_v9 : Ref sig .tc := ⟨.hbm, 781, rfl⟩
abbrev main_call52_v10 : Ref sig .tc := ⟨.hbm, 782, rfl⟩
abbrev main_call52_v11 : Ref sig .tc := ⟨.hbm, 783, rfl⟩
abbrev main_call52_v12 : Ref sig .tc := ⟨.hbm, 784, rfl⟩
abbrev main_call52_v13 : Ref sig .tc := ⟨.hbm, 785, rfl⟩
abbrev main_call52_v14 : Ref sig .tc := ⟨.hbm, 786, rfl⟩
abbrev main_v168 : Ref sig .tc := ⟨.hbm, 787, rfl⟩
abbrev main_call53_c : Ref sig .tc := ⟨.hbm, 788, rfl⟩
abbrev main_call53_v0 : Ref sig .tc := ⟨.hbm, 789, rfl⟩
abbrev main_call53_v1 : Ref sig .tc := ⟨.hbm, 790, rfl⟩
abbrev main_call53_c_0 : Ref sig .tc := ⟨.hbm, 791, rfl⟩
abbrev main_call53_v2 : Ref sig .tc := ⟨.hbm, 792, rfl⟩
abbrev main_call53_v3 : Ref sig .tc := ⟨.hbm, 793, rfl⟩
abbrev main_call53_v4 : Ref sig .tc := ⟨.hbm, 794, rfl⟩
abbrev main_call53_v5 : Ref sig .tc := ⟨.hbm, 795, rfl⟩
abbrev main_call53_c_1 : Ref sig .tc := ⟨.hbm, 796, rfl⟩
abbrev main_call53_c_2 : Ref sig .tc := ⟨.hbm, 797, rfl⟩
abbrev main_call53_v6 : Ref sig .tc := ⟨.hbm, 798, rfl⟩
abbrev main_call53_v7 : Ref sig .tc := ⟨.hbm, 799, rfl⟩
abbrev main_call53_v8 : Ref sig .tc := ⟨.hbm, 800, rfl⟩
abbrev main_call53_v9 : Ref sig .tc := ⟨.hbm, 801, rfl⟩
abbrev main_call53_v10 : Ref sig .tc := ⟨.hbm, 802, rfl⟩
abbrev main_call53_v11 : Ref sig .tc := ⟨.hbm, 803, rfl⟩
abbrev main_call53_c_3 : Ref sig .tc := ⟨.hbm, 804, rfl⟩
abbrev main_call53_v12 : Ref sig .tc := ⟨.hbm, 805, rfl⟩
abbrev main_call53_v13 : Ref sig .tc := ⟨.hbm, 806, rfl⟩
abbrev main_call53_v14 : Ref sig .tc := ⟨.hbm, 807, rfl⟩
abbrev main_call53_cst : Ref sig .tc := ⟨.hbm, 808, rfl⟩
abbrev main_call53_v15 : Ref sig .tc := ⟨.hbm, 809, rfl⟩
abbrev main_v169 : Ref sig .tc := ⟨.hbm, 810, rfl⟩
abbrev main_v170 : Ref sig .tc := ⟨.hbm, 811, rfl⟩
abbrev main_v171 : Ref sig .tc := ⟨.hbm, 812, rfl⟩
abbrev main_v172 : Ref sig .tc := ⟨.hbm, 813, rfl⟩
abbrev main_call54_v0 : Ref sig .tc := ⟨.hbm, 814, rfl⟩
abbrev main_call54_call0_c : Ref sig .tc := ⟨.hbm, 815, rfl⟩
abbrev main_call54_call0_v0 : Ref sig .tc := ⟨.hbm, 816, rfl⟩
abbrev main_v173 : Ref sig .tc := ⟨.hbm, 817, rfl⟩
abbrev main_c_63 : Ref sig .tc := ⟨.hbm, 818, rfl⟩
abbrev main_v174 : Ref sig .tc := ⟨.hbm, 819, rfl⟩
abbrev main_c_64 : Ref sig .tc := ⟨.hbm, 820, rfl⟩
abbrev main_call55_v0 : Ref sig .tc := ⟨.hbm, 821, rfl⟩
abbrev main_call55_v1 : Ref sig .tc := ⟨.hbm, 822, rfl⟩
abbrev main_v175 : Ref sig .tc := ⟨.hbm, 823, rfl⟩
abbrev main_c_65 : Ref sig .tc := ⟨.hbm, 824, rfl⟩
abbrev main_v176 : Ref sig .tc := ⟨.hbm, 825, rfl⟩
abbrev main_v177 : Ref sig .tc := ⟨.hbm, 826, rfl⟩
abbrev main_c_66 : Ref sig .tc := ⟨.hbm, 827, rfl⟩
abbrev main_v178 : Ref sig .tc := ⟨.hbm, 828, rfl⟩
abbrev main_v179 : Ref sig .tc := ⟨.hbm, 829, rfl⟩
abbrev main_v180 : Ref sig .tc := ⟨.hbm, 830, rfl⟩
abbrev main_v181 : Ref sig .tc := ⟨.hbm, 831, rfl⟩
abbrev main_c_67 : Ref sig .tc := ⟨.hbm, 832, rfl⟩
abbrev main_v182 : Ref sig .tc := ⟨.hbm, 833, rfl⟩
abbrev main_v183 : Ref sig .tc := ⟨.hbm, 834, rfl⟩
abbrev main_call56_call0_c : Ref sig .tc := ⟨.hbm, 835, rfl⟩
abbrev main_call56_call0_v0 : Ref sig .tc := ⟨.hbm, 836, rfl⟩
abbrev main_v184 : Ref sig .tc := ⟨.hbm, 837, rfl⟩
abbrev main_c_68 : Ref sig .tc := ⟨.hbm, 838, rfl⟩
abbrev main_call57_v0 : Ref sig .tc := ⟨.hbm, 839, rfl⟩
abbrev main_call57_v1 : Ref sig .tc := ⟨.hbm, 840, rfl⟩
abbrev main_call57_v2 : Ref sig .tc := ⟨.hbm, 841, rfl⟩
abbrev main_call57_v3 : Ref sig .tc := ⟨.hbm, 842, rfl⟩
abbrev main_call57_v4 : Ref sig .tc := ⟨.hbm, 843, rfl⟩
abbrev main_call57_v5 : Ref sig .tc := ⟨.hbm, 844, rfl⟩
abbrev main_call57_v6 : Ref sig .tc := ⟨.hbm, 845, rfl⟩
abbrev main_call57_v7 : Ref sig .tc := ⟨.hbm, 846, rfl⟩
abbrev main_call57_c : Ref sig .tc := ⟨.hbm, 847, rfl⟩
abbrev main_call57_v8 : Ref sig .tc := ⟨.hbm, 848, rfl⟩
abbrev main_call57_v9 : Ref sig .tc := ⟨.hbm, 849, rfl⟩
abbrev main_call57_v10 : Ref sig .tc := ⟨.hbm, 850, rfl⟩
abbrev main_call57_c_0 : Ref sig .tc := ⟨.hbm, 851, rfl⟩
abbrev main_call57_v11 : Ref sig .tc := ⟨.hbm, 852, rfl⟩
abbrev main_call57_v12 : Ref sig .tc := ⟨.hbm, 853, rfl⟩
abbrev main_v185 : Ref sig .tc := ⟨.hbm, 854, rfl⟩
abbrev main_c_69 : Ref sig .tc := ⟨.hbm, 855, rfl⟩
abbrev main_call58_v0 : Ref sig .tc := ⟨.hbm, 856, rfl⟩
abbrev main_call58_c : Ref sig .tc := ⟨.hbm, 857, rfl⟩
abbrev main_call58_v1 : Ref sig .tc := ⟨.hbm, 858, rfl⟩
abbrev main_call58_c_0 : Ref sig .tc := ⟨.hbm, 859, rfl⟩
abbrev main_call58_v2 : Ref sig .tc := ⟨.hbm, 860, rfl⟩
abbrev main_call58_v3 : Ref sig .tc := ⟨.hbm, 861, rfl⟩
abbrev main_call58_v4 : Ref sig .tc := ⟨.hbm, 862, rfl⟩
abbrev main_call58_c_1 : Ref sig .tc := ⟨.hbm, 863, rfl⟩
abbrev main_call58_v5 : Ref sig .tc := ⟨.hbm, 864, rfl⟩
abbrev main_call58_v6 : Ref sig .tc := ⟨.hbm, 865, rfl⟩
abbrev main_call58_c_2 : Ref sig .tc := ⟨.hbm, 866, rfl⟩
abbrev main_call58_v7 : Ref sig .tc := ⟨.hbm, 867, rfl⟩
abbrev main_call58_v8 : Ref sig .tc := ⟨.hbm, 868, rfl⟩
abbrev main_call58_c_3 : Ref sig .tc := ⟨.hbm, 869, rfl⟩
abbrev main_call58_v9 : Ref sig .tc := ⟨.hbm, 870, rfl⟩
abbrev main_call58_v10 : Ref sig .tc := ⟨.hbm, 871, rfl⟩
abbrev main_call58_v11 : Ref sig .tc := ⟨.hbm, 872, rfl⟩
abbrev main_call58_v12 : Ref sig .tc := ⟨.hbm, 873, rfl⟩
abbrev main_call58_v13 : Ref sig .tc := ⟨.hbm, 874, rfl⟩
abbrev main_call58_v14 : Ref sig .tc := ⟨.hbm, 875, rfl⟩
abbrev main_v186 : Ref sig .tc := ⟨.hbm, 876, rfl⟩
abbrev main_call59_c : Ref sig .tc := ⟨.hbm, 877, rfl⟩
abbrev main_call59_v0 : Ref sig .tc := ⟨.hbm, 878, rfl⟩
abbrev main_call59_v1 : Ref sig .tc := ⟨.hbm, 879, rfl⟩
abbrev main_call59_c_0 : Ref sig .tc := ⟨.hbm, 880, rfl⟩
abbrev main_call59_v2 : Ref sig .tc := ⟨.hbm, 881, rfl⟩
abbrev main_call59_v3 : Ref sig .tc := ⟨.hbm, 882, rfl⟩
abbrev main_call59_v4 : Ref sig .tc := ⟨.hbm, 883, rfl⟩
abbrev main_call59_v5 : Ref sig .tc := ⟨.hbm, 884, rfl⟩
abbrev main_call59_c_1 : Ref sig .tc := ⟨.hbm, 885, rfl⟩
abbrev main_call59_c_2 : Ref sig .tc := ⟨.hbm, 886, rfl⟩
abbrev main_call59_v6 : Ref sig .tc := ⟨.hbm, 887, rfl⟩
abbrev main_call59_v7 : Ref sig .tc := ⟨.hbm, 888, rfl⟩
abbrev main_call59_v8 : Ref sig .tc := ⟨.hbm, 889, rfl⟩
abbrev main_call59_v9 : Ref sig .tc := ⟨.hbm, 890, rfl⟩
abbrev main_call59_v10 : Ref sig .tc := ⟨.hbm, 891, rfl⟩
abbrev main_call59_v11 : Ref sig .tc := ⟨.hbm, 892, rfl⟩
abbrev main_call59_c_3 : Ref sig .tc := ⟨.hbm, 893, rfl⟩
abbrev main_call59_v12 : Ref sig .tc := ⟨.hbm, 894, rfl⟩
abbrev main_call59_v13 : Ref sig .tc := ⟨.hbm, 895, rfl⟩
abbrev main_call59_v14 : Ref sig .tc := ⟨.hbm, 896, rfl⟩
abbrev main_call59_cst : Ref sig .tc := ⟨.hbm, 897, rfl⟩
abbrev main_call59_v15 : Ref sig .tc := ⟨.hbm, 898, rfl⟩
abbrev main_v187 : Ref sig .tc := ⟨.hbm, 899, rfl⟩
abbrev main_v188 : Ref sig .tc := ⟨.hbm, 900, rfl⟩
abbrev main_v189 : Ref sig .tc := ⟨.hbm, 901, rfl⟩
abbrev main_v190 : Ref sig .tc := ⟨.hbm, 902, rfl⟩
abbrev main_call60_v0 : Ref sig .tc := ⟨.hbm, 903, rfl⟩
abbrev main_call60_call0_c : Ref sig .tc := ⟨.hbm, 904, rfl⟩
abbrev main_call60_call0_v0 : Ref sig .tc := ⟨.hbm, 905, rfl⟩
abbrev main_v191 : Ref sig .tc := ⟨.hbm, 906, rfl⟩
abbrev main_c_70 : Ref sig .tc := ⟨.hbm, 907, rfl⟩
abbrev main_v192 : Ref sig .tc := ⟨.hbm, 908, rfl⟩
abbrev main_c_71 : Ref sig .tc := ⟨.hbm, 909, rfl⟩
abbrev main_call61_v0 : Ref sig .tc := ⟨.hbm, 910, rfl⟩
abbrev main_call61_v1 : Ref sig .tc := ⟨.hbm, 911, rfl⟩
abbrev main_v193 : Ref sig .tc := ⟨.hbm, 912, rfl⟩
abbrev main_c_72 : Ref sig .tc := ⟨.hbm, 913, rfl⟩
abbrev main_v194 : Ref sig .tc := ⟨.hbm, 914, rfl⟩
abbrev main_v195 : Ref sig .tc := ⟨.hbm, 915, rfl⟩
abbrev main_c_73 : Ref sig .tc := ⟨.hbm, 916, rfl⟩
abbrev main_v196 : Ref sig .tc := ⟨.hbm, 917, rfl⟩
abbrev main_v197 : Ref sig .tc := ⟨.hbm, 918, rfl⟩
abbrev main_v198 : Ref sig .tc := ⟨.hbm, 919, rfl⟩
abbrev main_v199 : Ref sig .tc := ⟨.hbm, 920, rfl⟩
abbrev main_c_74 : Ref sig .tc := ⟨.hbm, 921, rfl⟩
abbrev main_v200 : Ref sig .tc := ⟨.hbm, 922, rfl⟩
abbrev main_v201 : Ref sig .tc := ⟨.hbm, 923, rfl⟩
abbrev main_call62_call0_c : Ref sig .tc := ⟨.hbm, 924, rfl⟩
abbrev main_call62_call0_v0 : Ref sig .tc := ⟨.hbm, 925, rfl⟩
abbrev main_v202 : Ref sig .tc := ⟨.hbm, 926, rfl⟩
abbrev main_c_75 : Ref sig .tc := ⟨.hbm, 927, rfl⟩
abbrev main_call63_v0 : Ref sig .tc := ⟨.hbm, 928, rfl⟩
abbrev main_call63_v1 : Ref sig .tc := ⟨.hbm, 929, rfl⟩
abbrev main_call63_v2 : Ref sig .tc := ⟨.hbm, 930, rfl⟩
abbrev main_call63_v3 : Ref sig .tc := ⟨.hbm, 931, rfl⟩
abbrev main_call63_v4 : Ref sig .tc := ⟨.hbm, 932, rfl⟩
abbrev main_call63_v5 : Ref sig .tc := ⟨.hbm, 933, rfl⟩
abbrev main_call63_v6 : Ref sig .tc := ⟨.hbm, 934, rfl⟩
abbrev main_call63_v7 : Ref sig .tc := ⟨.hbm, 935, rfl⟩
abbrev main_call63_c : Ref sig .tc := ⟨.hbm, 936, rfl⟩
abbrev main_call63_v8 : Ref sig .tc := ⟨.hbm, 937, rfl⟩
abbrev main_call63_v9 : Ref sig .tc := ⟨.hbm, 938, rfl⟩
abbrev main_call63_v10 : Ref sig .tc := ⟨.hbm, 939, rfl⟩
abbrev main_call63_c_0 : Ref sig .tc := ⟨.hbm, 940, rfl⟩
abbrev main_call63_v11 : Ref sig .tc := ⟨.hbm, 941, rfl⟩
abbrev main_call63_v12 : Ref sig .tc := ⟨.hbm, 942, rfl⟩
abbrev main_v203 : Ref sig .tc := ⟨.hbm, 943, rfl⟩
abbrev main_c_76 : Ref sig .tc := ⟨.hbm, 944, rfl⟩
abbrev main_call64_v0 : Ref sig .tc := ⟨.hbm, 945, rfl⟩
abbrev main_call64_c : Ref sig .tc := ⟨.hbm, 946, rfl⟩
abbrev main_call64_v1 : Ref sig .tc := ⟨.hbm, 947, rfl⟩
abbrev main_call64_c_0 : Ref sig .tc := ⟨.hbm, 948, rfl⟩
abbrev main_call64_v2 : Ref sig .tc := ⟨.hbm, 949, rfl⟩
abbrev main_call64_v3 : Ref sig .tc := ⟨.hbm, 950, rfl⟩
abbrev main_call64_v4 : Ref sig .tc := ⟨.hbm, 951, rfl⟩
abbrev main_call64_c_1 : Ref sig .tc := ⟨.hbm, 952, rfl⟩
abbrev main_call64_v5 : Ref sig .tc := ⟨.hbm, 953, rfl⟩
abbrev main_call64_v6 : Ref sig .tc := ⟨.hbm, 954, rfl⟩
abbrev main_call64_c_2 : Ref sig .tc := ⟨.hbm, 955, rfl⟩
abbrev main_call64_v7 : Ref sig .tc := ⟨.hbm, 956, rfl⟩
abbrev main_call64_v8 : Ref sig .tc := ⟨.hbm, 957, rfl⟩
abbrev main_call64_c_3 : Ref sig .tc := ⟨.hbm, 958, rfl⟩
abbrev main_call64_v9 : Ref sig .tc := ⟨.hbm, 959, rfl⟩
abbrev main_call64_v10 : Ref sig .tc := ⟨.hbm, 960, rfl⟩
abbrev main_call64_v11 : Ref sig .tc := ⟨.hbm, 961, rfl⟩
abbrev main_call64_v12 : Ref sig .tc := ⟨.hbm, 962, rfl⟩
abbrev main_call64_v13 : Ref sig .tc := ⟨.hbm, 963, rfl⟩
abbrev main_call64_v14 : Ref sig .tc := ⟨.hbm, 964, rfl⟩
abbrev main_v204 : Ref sig .tc := ⟨.hbm, 965, rfl⟩
abbrev main_call65_c : Ref sig .tc := ⟨.hbm, 966, rfl⟩
abbrev main_call65_v0 : Ref sig .tc := ⟨.hbm, 967, rfl⟩
abbrev main_call65_v1 : Ref sig .tc := ⟨.hbm, 968, rfl⟩
abbrev main_call65_c_0 : Ref sig .tc := ⟨.hbm, 969, rfl⟩
abbrev main_call65_v2 : Ref sig .tc := ⟨.hbm, 970, rfl⟩
abbrev main_call65_v3 : Ref sig .tc := ⟨.hbm, 971, rfl⟩
abbrev main_call65_v4 : Ref sig .tc := ⟨.hbm, 972, rfl⟩
abbrev main_call65_v5 : Ref sig .tc := ⟨.hbm, 973, rfl⟩
abbrev main_call65_c_1 : Ref sig .tc := ⟨.hbm, 974, rfl⟩
abbrev main_call65_c_2 : Ref sig .tc := ⟨.hbm, 975, rfl⟩
abbrev main_call65_v6 : Ref sig .tc := ⟨.hbm, 976, rfl⟩
abbrev main_call65_v7 : Ref sig .tc := ⟨.hbm, 977, rfl⟩
abbrev main_call65_v8 : Ref sig .tc := ⟨.hbm, 978, rfl⟩
abbrev main_call65_v9 : Ref sig .tc := ⟨.hbm, 979, rfl⟩
abbrev main_call65_v10 : Ref sig .tc := ⟨.hbm, 980, rfl⟩
abbrev main_call65_v11 : Ref sig .tc := ⟨.hbm, 981, rfl⟩
abbrev main_call65_c_3 : Ref sig .tc := ⟨.hbm, 982, rfl⟩
abbrev main_call65_v12 : Ref sig .tc := ⟨.hbm, 983, rfl⟩
abbrev main_call65_v13 : Ref sig .tc := ⟨.hbm, 984, rfl⟩
abbrev main_call65_v14 : Ref sig .tc := ⟨.hbm, 985, rfl⟩
abbrev main_call65_cst : Ref sig .tc := ⟨.hbm, 986, rfl⟩
abbrev main_call65_v15 : Ref sig .tc := ⟨.hbm, 987, rfl⟩
abbrev main_v205 : Ref sig .tc := ⟨.hbm, 988, rfl⟩
abbrev main_v206 : Ref sig .tc := ⟨.hbm, 989, rfl⟩
abbrev main_v207 : Ref sig .tc := ⟨.hbm, 990, rfl⟩
abbrev main_v208 : Ref sig .tc := ⟨.hbm, 991, rfl⟩
abbrev main_call66_v0 : Ref sig .tc := ⟨.hbm, 992, rfl⟩
abbrev main_call66_call0_c : Ref sig .tc := ⟨.hbm, 993, rfl⟩
abbrev main_call66_call0_v0 : Ref sig .tc := ⟨.hbm, 994, rfl⟩
abbrev main_v209 : Ref sig .tc := ⟨.hbm, 995, rfl⟩
abbrev main_c_77 : Ref sig .tc := ⟨.hbm, 996, rfl⟩
abbrev main_v210 : Ref sig .tc := ⟨.hbm, 997, rfl⟩
abbrev main_c_78 : Ref sig .tc := ⟨.hbm, 998, rfl⟩
abbrev main_call67_v0 : Ref sig .tc := ⟨.hbm, 999, rfl⟩
abbrev main_call67_v1 : Ref sig .tc := ⟨.hbm, 1000, rfl⟩
abbrev main_v211 : Ref sig .tc := ⟨.hbm, 1001, rfl⟩
abbrev main_c_79 : Ref sig .tc := ⟨.hbm, 1002, rfl⟩
abbrev main_v212 : Ref sig .tc := ⟨.hbm, 1003, rfl⟩
abbrev main_v213 : Ref sig .tc := ⟨.hbm, 1004, rfl⟩
abbrev main_c_80 : Ref sig .tc := ⟨.hbm, 1005, rfl⟩
abbrev main_v214 : Ref sig .tc := ⟨.hbm, 1006, rfl⟩
abbrev main_v215 : Ref sig .tc := ⟨.hbm, 1007, rfl⟩
abbrev main_v216 : Ref sig .tc := ⟨.hbm, 1008, rfl⟩
abbrev main_v217 : Ref sig .tc := ⟨.hbm, 1009, rfl⟩
abbrev main_c_81 : Ref sig .tc := ⟨.hbm, 1010, rfl⟩
abbrev main_v218 : Ref sig .tc := ⟨.hbm, 1011, rfl⟩
abbrev main_v219 : Ref sig .tc := ⟨.hbm, 1012, rfl⟩
abbrev main_call68_call0_c : Ref sig .tc := ⟨.hbm, 1013, rfl⟩
abbrev main_call68_call0_v0 : Ref sig .tc := ⟨.hbm, 1014, rfl⟩
abbrev main_v220 : Ref sig .tc := ⟨.hbm, 1015, rfl⟩
abbrev main_c_82 : Ref sig .tc := ⟨.hbm, 1016, rfl⟩
abbrev main_call69_v0 : Ref sig .tc := ⟨.hbm, 1017, rfl⟩
abbrev main_call69_v1 : Ref sig .tc := ⟨.hbm, 1018, rfl⟩
abbrev main_call69_v2 : Ref sig .tc := ⟨.hbm, 1019, rfl⟩
abbrev main_call69_v3 : Ref sig .tc := ⟨.hbm, 1020, rfl⟩
abbrev main_call69_v4 : Ref sig .tc := ⟨.hbm, 1021, rfl⟩
abbrev main_call69_v5 : Ref sig .tc := ⟨.hbm, 1022, rfl⟩
abbrev main_call69_v6 : Ref sig .tc := ⟨.hbm, 1023, rfl⟩
abbrev main_call69_v7 : Ref sig .tc := ⟨.hbm, 1024, rfl⟩
abbrev main_call69_c : Ref sig .tc := ⟨.hbm, 1025, rfl⟩
abbrev main_call69_v8 : Ref sig .tc := ⟨.hbm, 1026, rfl⟩
abbrev main_call69_v9 : Ref sig .tc := ⟨.hbm, 1027, rfl⟩
abbrev main_call69_v10 : Ref sig .tc := ⟨.hbm, 1028, rfl⟩
abbrev main_call69_c_0 : Ref sig .tc := ⟨.hbm, 1029, rfl⟩
abbrev main_call69_v11 : Ref sig .tc := ⟨.hbm, 1030, rfl⟩
abbrev main_call69_v12 : Ref sig .tc := ⟨.hbm, 1031, rfl⟩
abbrev main_v221 : Ref sig .tc := ⟨.hbm, 1032, rfl⟩
abbrev main_c_83 : Ref sig .tc := ⟨.hbm, 1033, rfl⟩
abbrev main_call70_v0 : Ref sig .tc := ⟨.hbm, 1034, rfl⟩
abbrev main_call70_c : Ref sig .tc := ⟨.hbm, 1035, rfl⟩
abbrev main_call70_v1 : Ref sig .tc := ⟨.hbm, 1036, rfl⟩
abbrev main_call70_c_0 : Ref sig .tc := ⟨.hbm, 1037, rfl⟩
abbrev main_call70_v2 : Ref sig .tc := ⟨.hbm, 1038, rfl⟩
abbrev main_call70_v3 : Ref sig .tc := ⟨.hbm, 1039, rfl⟩
abbrev main_call70_v4 : Ref sig .tc := ⟨.hbm, 1040, rfl⟩
abbrev main_call70_c_1 : Ref sig .tc := ⟨.hbm, 1041, rfl⟩
abbrev main_call70_v5 : Ref sig .tc := ⟨.hbm, 1042, rfl⟩
abbrev main_call70_v6 : Ref sig .tc := ⟨.hbm, 1043, rfl⟩
abbrev main_call70_c_2 : Ref sig .tc := ⟨.hbm, 1044, rfl⟩
abbrev main_call70_v7 : Ref sig .tc := ⟨.hbm, 1045, rfl⟩
abbrev main_call70_v8 : Ref sig .tc := ⟨.hbm, 1046, rfl⟩
abbrev main_call70_c_3 : Ref sig .tc := ⟨.hbm, 1047, rfl⟩
abbrev main_call70_v9 : Ref sig .tc := ⟨.hbm, 1048, rfl⟩
abbrev main_call70_v10 : Ref sig .tc := ⟨.hbm, 1049, rfl⟩
abbrev main_call70_v11 : Ref sig .tc := ⟨.hbm, 1050, rfl⟩
abbrev main_call70_v12 : Ref sig .tc := ⟨.hbm, 1051, rfl⟩
abbrev main_call70_v13 : Ref sig .tc := ⟨.hbm, 1052, rfl⟩
abbrev main_call70_v14 : Ref sig .tc := ⟨.hbm, 1053, rfl⟩
abbrev main_v222 : Ref sig .tc := ⟨.hbm, 1054, rfl⟩
abbrev main_call71_c : Ref sig .tc := ⟨.hbm, 1055, rfl⟩
abbrev main_call71_v0 : Ref sig .tc := ⟨.hbm, 1056, rfl⟩
abbrev main_call71_v1 : Ref sig .tc := ⟨.hbm, 1057, rfl⟩
abbrev main_call71_c_0 : Ref sig .tc := ⟨.hbm, 1058, rfl⟩
abbrev main_call71_v2 : Ref sig .tc := ⟨.hbm, 1059, rfl⟩
abbrev main_call71_v3 : Ref sig .tc := ⟨.hbm, 1060, rfl⟩
abbrev main_call71_v4 : Ref sig .tc := ⟨.hbm, 1061, rfl⟩
abbrev main_call71_v5 : Ref sig .tc := ⟨.hbm, 1062, rfl⟩
abbrev main_call71_c_1 : Ref sig .tc := ⟨.hbm, 1063, rfl⟩
abbrev main_call71_c_2 : Ref sig .tc := ⟨.hbm, 1064, rfl⟩
abbrev main_call71_v6 : Ref sig .tc := ⟨.hbm, 1065, rfl⟩
abbrev main_call71_v7 : Ref sig .tc := ⟨.hbm, 1066, rfl⟩
abbrev main_call71_v8 : Ref sig .tc := ⟨.hbm, 1067, rfl⟩
abbrev main_call71_v9 : Ref sig .tc := ⟨.hbm, 1068, rfl⟩
abbrev main_call71_v10 : Ref sig .tc := ⟨.hbm, 1069, rfl⟩
abbrev main_call71_v11 : Ref sig .tc := ⟨.hbm, 1070, rfl⟩
abbrev main_call71_c_3 : Ref sig .tc := ⟨.hbm, 1071, rfl⟩
abbrev main_call71_v12 : Ref sig .tc := ⟨.hbm, 1072, rfl⟩
abbrev main_call71_v13 : Ref sig .tc := ⟨.hbm, 1073, rfl⟩
abbrev main_call71_v14 : Ref sig .tc := ⟨.hbm, 1074, rfl⟩
abbrev main_call71_cst : Ref sig .tc := ⟨.hbm, 1075, rfl⟩
abbrev main_call71_v15 : Ref sig .tc := ⟨.hbm, 1076, rfl⟩
abbrev main_v223 : Ref sig .tc := ⟨.hbm, 1077, rfl⟩
abbrev main_v224 : Ref sig .tc := ⟨.hbm, 1078, rfl⟩
abbrev main_v225 : Ref sig .tc := ⟨.hbm, 1079, rfl⟩
abbrev main_v226 : Ref sig .tc := ⟨.hbm, 1080, rfl⟩
abbrev main_call72_v0 : Ref sig .tc := ⟨.hbm, 1081, rfl⟩
abbrev main_call72_call0_c : Ref sig .tc := ⟨.hbm, 1082, rfl⟩
abbrev main_call72_call0_v0 : Ref sig .tc := ⟨.hbm, 1083, rfl⟩
abbrev main_v227 : Ref sig .tc := ⟨.hbm, 1084, rfl⟩
abbrev main_c_84 : Ref sig .tc := ⟨.hbm, 1085, rfl⟩
abbrev main_v228 : Ref sig .tc := ⟨.hbm, 1086, rfl⟩
abbrev main_c_85 : Ref sig .tc := ⟨.hbm, 1087, rfl⟩
abbrev main_call73_v0 : Ref sig .tc := ⟨.hbm, 1088, rfl⟩
abbrev main_call73_v1 : Ref sig .tc := ⟨.hbm, 1089, rfl⟩
abbrev main_v229 : Ref sig .tc := ⟨.hbm, 1090, rfl⟩
abbrev main_c_86 : Ref sig .tc := ⟨.hbm, 1091, rfl⟩
abbrev main_v230 : Ref sig .tc := ⟨.hbm, 1092, rfl⟩
abbrev main_v231 : Ref sig .tc := ⟨.hbm, 1093, rfl⟩
abbrev main_c_87 : Ref sig .tc := ⟨.hbm, 1094, rfl⟩
abbrev main_v232 : Ref sig .tc := ⟨.hbm, 1095, rfl⟩
abbrev main_v233 : Ref sig .tc := ⟨.hbm, 1096, rfl⟩
abbrev main_v234 : Ref sig .tc := ⟨.hbm, 1097, rfl⟩
abbrev main_v235 : Ref sig .tc := ⟨.hbm, 1098, rfl⟩
abbrev main_c_88 : Ref sig .tc := ⟨.hbm, 1099, rfl⟩
abbrev main_v236 : Ref sig .tc := ⟨.hbm, 1100, rfl⟩
abbrev main_v237 : Ref sig .tc := ⟨.hbm, 1101, rfl⟩
abbrev main_call74_call0_c : Ref sig .tc := ⟨.hbm, 1102, rfl⟩
abbrev main_call74_call0_v0 : Ref sig .tc := ⟨.hbm, 1103, rfl⟩
abbrev main_v238 : Ref sig .tc := ⟨.hbm, 1104, rfl⟩
abbrev main_c_89 : Ref sig .tc := ⟨.hbm, 1105, rfl⟩
abbrev main_call75_v0 : Ref sig .tc := ⟨.hbm, 1106, rfl⟩
abbrev main_call75_v1 : Ref sig .tc := ⟨.hbm, 1107, rfl⟩
abbrev main_call75_v2 : Ref sig .tc := ⟨.hbm, 1108, rfl⟩
abbrev main_call75_v3 : Ref sig .tc := ⟨.hbm, 1109, rfl⟩
abbrev main_call75_v4 : Ref sig .tc := ⟨.hbm, 1110, rfl⟩
abbrev main_call75_v5 : Ref sig .tc := ⟨.hbm, 1111, rfl⟩
abbrev main_call75_v6 : Ref sig .tc := ⟨.hbm, 1112, rfl⟩
abbrev main_call75_v7 : Ref sig .tc := ⟨.hbm, 1113, rfl⟩
abbrev main_call75_c : Ref sig .tc := ⟨.hbm, 1114, rfl⟩
abbrev main_call75_v8 : Ref sig .tc := ⟨.hbm, 1115, rfl⟩
abbrev main_call75_v9 : Ref sig .tc := ⟨.hbm, 1116, rfl⟩
abbrev main_call75_v10 : Ref sig .tc := ⟨.hbm, 1117, rfl⟩
abbrev main_call75_c_0 : Ref sig .tc := ⟨.hbm, 1118, rfl⟩
abbrev main_call75_v11 : Ref sig .tc := ⟨.hbm, 1119, rfl⟩
abbrev main_call75_v12 : Ref sig .tc := ⟨.hbm, 1120, rfl⟩
abbrev main_v239 : Ref sig .tc := ⟨.hbm, 1121, rfl⟩
abbrev main_c_90 : Ref sig .tc := ⟨.hbm, 1122, rfl⟩
abbrev main_call76_v0 : Ref sig .tc := ⟨.hbm, 1123, rfl⟩
abbrev main_call76_c : Ref sig .tc := ⟨.hbm, 1124, rfl⟩
abbrev main_call76_v1 : Ref sig .tc := ⟨.hbm, 1125, rfl⟩
abbrev main_call76_c_0 : Ref sig .tc := ⟨.hbm, 1126, rfl⟩
abbrev main_call76_v2 : Ref sig .tc := ⟨.hbm, 1127, rfl⟩
abbrev main_call76_v3 : Ref sig .tc := ⟨.hbm, 1128, rfl⟩
abbrev main_call76_v4 : Ref sig .tc := ⟨.hbm, 1129, rfl⟩
abbrev main_call76_c_1 : Ref sig .tc := ⟨.hbm, 1130, rfl⟩
abbrev main_call76_v5 : Ref sig .tc := ⟨.hbm, 1131, rfl⟩
abbrev main_call76_v6 : Ref sig .tc := ⟨.hbm, 1132, rfl⟩
abbrev main_call76_c_2 : Ref sig .tc := ⟨.hbm, 1133, rfl⟩
abbrev main_call76_v7 : Ref sig .tc := ⟨.hbm, 1134, rfl⟩
abbrev main_call76_v8 : Ref sig .tc := ⟨.hbm, 1135, rfl⟩
abbrev main_call76_c_3 : Ref sig .tc := ⟨.hbm, 1136, rfl⟩
abbrev main_call76_v9 : Ref sig .tc := ⟨.hbm, 1137, rfl⟩
abbrev main_call76_v10 : Ref sig .tc := ⟨.hbm, 1138, rfl⟩
abbrev main_call76_v11 : Ref sig .tc := ⟨.hbm, 1139, rfl⟩
abbrev main_call76_v12 : Ref sig .tc := ⟨.hbm, 1140, rfl⟩
abbrev main_call76_v13 : Ref sig .tc := ⟨.hbm, 1141, rfl⟩
abbrev main_call76_v14 : Ref sig .tc := ⟨.hbm, 1142, rfl⟩
abbrev main_v240 : Ref sig .tc := ⟨.hbm, 1143, rfl⟩
abbrev main_call77_c : Ref sig .tc := ⟨.hbm, 1144, rfl⟩
abbrev main_call77_v0 : Ref sig .tc := ⟨.hbm, 1145, rfl⟩
abbrev main_call77_v1 : Ref sig .tc := ⟨.hbm, 1146, rfl⟩
abbrev main_call77_c_0 : Ref sig .tc := ⟨.hbm, 1147, rfl⟩
abbrev main_call77_v2 : Ref sig .tc := ⟨.hbm, 1148, rfl⟩
abbrev main_call77_v3 : Ref sig .tc := ⟨.hbm, 1149, rfl⟩
abbrev main_call77_v4 : Ref sig .tc := ⟨.hbm, 1150, rfl⟩
abbrev main_call77_v5 : Ref sig .tc := ⟨.hbm, 1151, rfl⟩
abbrev main_call77_c_1 : Ref sig .tc := ⟨.hbm, 1152, rfl⟩
abbrev main_call77_c_2 : Ref sig .tc := ⟨.hbm, 1153, rfl⟩
abbrev main_call77_v6 : Ref sig .tc := ⟨.hbm, 1154, rfl⟩
abbrev main_call77_v7 : Ref sig .tc := ⟨.hbm, 1155, rfl⟩
abbrev main_call77_v8 : Ref sig .tc := ⟨.hbm, 1156, rfl⟩
abbrev main_call77_v9 : Ref sig .tc := ⟨.hbm, 1157, rfl⟩
abbrev main_call77_v10 : Ref sig .tc := ⟨.hbm, 1158, rfl⟩
abbrev main_call77_v11 : Ref sig .tc := ⟨.hbm, 1159, rfl⟩
abbrev main_call77_c_3 : Ref sig .tc := ⟨.hbm, 1160, rfl⟩
abbrev main_call77_v12 : Ref sig .tc := ⟨.hbm, 1161, rfl⟩
abbrev main_call77_v13 : Ref sig .tc := ⟨.hbm, 1162, rfl⟩
abbrev main_call77_v14 : Ref sig .tc := ⟨.hbm, 1163, rfl⟩
abbrev main_call77_cst : Ref sig .tc := ⟨.hbm, 1164, rfl⟩
abbrev main_call77_v15 : Ref sig .tc := ⟨.hbm, 1165, rfl⟩
abbrev main_v241 : Ref sig .tc := ⟨.hbm, 1166, rfl⟩
abbrev main_v242 : Ref sig .tc := ⟨.hbm, 1167, rfl⟩
abbrev main_v243 : Ref sig .tc := ⟨.hbm, 1168, rfl⟩
abbrev main_v244 : Ref sig .tc := ⟨.hbm, 1169, rfl⟩
abbrev main_call78_v0 : Ref sig .tc := ⟨.hbm, 1170, rfl⟩
abbrev main_call78_call0_c : Ref sig .tc := ⟨.hbm, 1171, rfl⟩
abbrev main_call78_call0_v0 : Ref sig .tc := ⟨.hbm, 1172, rfl⟩
abbrev main_v245 : Ref sig .tc := ⟨.hbm, 1173, rfl⟩
abbrev main_c_91 : Ref sig .tc := ⟨.hbm, 1174, rfl⟩
abbrev main_v246 : Ref sig .tc := ⟨.hbm, 1175, rfl⟩
abbrev main_c_92 : Ref sig .tc := ⟨.hbm, 1176, rfl⟩
abbrev main_call79_v0 : Ref sig .tc := ⟨.hbm, 1177, rfl⟩
abbrev main_call79_v1 : Ref sig .tc := ⟨.hbm, 1178, rfl⟩
abbrev main_v247 : Ref sig .tc := ⟨.hbm, 1179, rfl⟩
abbrev main_c_93 : Ref sig .tc := ⟨.hbm, 1180, rfl⟩
abbrev main_v248 : Ref sig .tc := ⟨.hbm, 1181, rfl⟩
abbrev main_v249 : Ref sig .tc := ⟨.hbm, 1182, rfl⟩
abbrev main_c_94 : Ref sig .tc := ⟨.hbm, 1183, rfl⟩
abbrev main_v250 : Ref sig .tc := ⟨.hbm, 1184, rfl⟩
abbrev main_v251 : Ref sig .tc := ⟨.hbm, 1185, rfl⟩
abbrev main_v252 : Ref sig .tc := ⟨.hbm, 1186, rfl⟩
abbrev main_v253 : Ref sig .tc := ⟨.hbm, 1187, rfl⟩
abbrev main_c_95 : Ref sig .tc := ⟨.hbm, 1188, rfl⟩
abbrev main_v254 : Ref sig .tc := ⟨.hbm, 1189, rfl⟩
abbrev main_v255 : Ref sig .tc := ⟨.hbm, 1190, rfl⟩
abbrev main_call80_call0_c : Ref sig .tc := ⟨.hbm, 1191, rfl⟩
abbrev main_call80_call0_v0 : Ref sig .tc := ⟨.hbm, 1192, rfl⟩
abbrev main_v256 : Ref sig .tc := ⟨.hbm, 1193, rfl⟩
abbrev main_c_96 : Ref sig .tc := ⟨.hbm, 1194, rfl⟩
abbrev main_call81_v0 : Ref sig .tc := ⟨.hbm, 1195, rfl⟩
abbrev main_call81_v1 : Ref sig .tc := ⟨.hbm, 1196, rfl⟩
abbrev main_call81_v2 : Ref sig .tc := ⟨.hbm, 1197, rfl⟩
abbrev main_call81_v3 : Ref sig .tc := ⟨.hbm, 1198, rfl⟩
abbrev main_call81_v4 : Ref sig .tc := ⟨.hbm, 1199, rfl⟩
abbrev main_call81_v5 : Ref sig .tc := ⟨.hbm, 1200, rfl⟩
abbrev main_call81_v6 : Ref sig .tc := ⟨.hbm, 1201, rfl⟩
abbrev main_call81_v7 : Ref sig .tc := ⟨.hbm, 1202, rfl⟩
abbrev main_call81_c : Ref sig .tc := ⟨.hbm, 1203, rfl⟩
abbrev main_call81_v8 : Ref sig .tc := ⟨.hbm, 1204, rfl⟩
abbrev main_call81_v9 : Ref sig .tc := ⟨.hbm, 1205, rfl⟩
abbrev main_call81_v10 : Ref sig .tc := ⟨.hbm, 1206, rfl⟩
abbrev main_call81_c_0 : Ref sig .tc := ⟨.hbm, 1207, rfl⟩
abbrev main_call81_v11 : Ref sig .tc := ⟨.hbm, 1208, rfl⟩
abbrev main_call81_v12 : Ref sig .tc := ⟨.hbm, 1209, rfl⟩
abbrev main_v257 : Ref sig .tc := ⟨.hbm, 1210, rfl⟩
abbrev main_c_97 : Ref sig .tc := ⟨.hbm, 1211, rfl⟩
abbrev main_call82_v0 : Ref sig .tc := ⟨.hbm, 1212, rfl⟩
abbrev main_call82_c : Ref sig .tc := ⟨.hbm, 1213, rfl⟩
abbrev main_call82_v1 : Ref sig .tc := ⟨.hbm, 1214, rfl⟩
abbrev main_call82_c_0 : Ref sig .tc := ⟨.hbm, 1215, rfl⟩
abbrev main_call82_v2 : Ref sig .tc := ⟨.hbm, 1216, rfl⟩
abbrev main_call82_v3 : Ref sig .tc := ⟨.hbm, 1217, rfl⟩
abbrev main_call82_v4 : Ref sig .tc := ⟨.hbm, 1218, rfl⟩
abbrev main_call82_c_1 : Ref sig .tc := ⟨.hbm, 1219, rfl⟩
abbrev main_call82_v5 : Ref sig .tc := ⟨.hbm, 1220, rfl⟩
abbrev main_call82_v6 : Ref sig .tc := ⟨.hbm, 1221, rfl⟩
abbrev main_call82_c_2 : Ref sig .tc := ⟨.hbm, 1222, rfl⟩
abbrev main_call82_v7 : Ref sig .tc := ⟨.hbm, 1223, rfl⟩
abbrev main_call82_v8 : Ref sig .tc := ⟨.hbm, 1224, rfl⟩
abbrev main_call82_c_3 : Ref sig .tc := ⟨.hbm, 1225, rfl⟩
abbrev main_call82_v9 : Ref sig .tc := ⟨.hbm, 1226, rfl⟩
abbrev main_call82_v10 : Ref sig .tc := ⟨.hbm, 1227, rfl⟩
abbrev main_call82_v11 : Ref sig .tc := ⟨.hbm, 1228, rfl⟩
abbrev main_call82_v12 : Ref sig .tc := ⟨.hbm, 1229, rfl⟩
abbrev main_call82_v13 : Ref sig .tc := ⟨.hbm, 1230, rfl⟩
abbrev main_call82_v14 : Ref sig .tc := ⟨.hbm, 1231, rfl⟩
abbrev main_v258 : Ref sig .tc := ⟨.hbm, 1232, rfl⟩
abbrev main_call83_c : Ref sig .tc := ⟨.hbm, 1233, rfl⟩
abbrev main_call83_v0 : Ref sig .tc := ⟨.hbm, 1234, rfl⟩
abbrev main_call83_v1 : Ref sig .tc := ⟨.hbm, 1235, rfl⟩
abbrev main_call83_c_0 : Ref sig .tc := ⟨.hbm, 1236, rfl⟩
abbrev main_call83_v2 : Ref sig .tc := ⟨.hbm, 1237, rfl⟩
abbrev main_call83_v3 : Ref sig .tc := ⟨.hbm, 1238, rfl⟩
abbrev main_call83_v4 : Ref sig .tc := ⟨.hbm, 1239, rfl⟩
abbrev main_call83_v5 : Ref sig .tc := ⟨.hbm, 1240, rfl⟩
abbrev main_call83_c_1 : Ref sig .tc := ⟨.hbm, 1241, rfl⟩
abbrev main_call83_c_2 : Ref sig .tc := ⟨.hbm, 1242, rfl⟩
abbrev main_call83_v6 : Ref sig .tc := ⟨.hbm, 1243, rfl⟩
abbrev main_call83_v7 : Ref sig .tc := ⟨.hbm, 1244, rfl⟩
abbrev main_call83_v8 : Ref sig .tc := ⟨.hbm, 1245, rfl⟩
abbrev main_call83_v9 : Ref sig .tc := ⟨.hbm, 1246, rfl⟩
abbrev main_call83_v10 : Ref sig .tc := ⟨.hbm, 1247, rfl⟩
abbrev main_call83_v11 : Ref sig .tc := ⟨.hbm, 1248, rfl⟩
abbrev main_call83_c_3 : Ref sig .tc := ⟨.hbm, 1249, rfl⟩
abbrev main_call83_v12 : Ref sig .tc := ⟨.hbm, 1250, rfl⟩
abbrev main_call83_v13 : Ref sig .tc := ⟨.hbm, 1251, rfl⟩
abbrev main_call83_v14 : Ref sig .tc := ⟨.hbm, 1252, rfl⟩
abbrev main_call83_cst : Ref sig .tc := ⟨.hbm, 1253, rfl⟩
abbrev main_call83_v15 : Ref sig .tc := ⟨.hbm, 1254, rfl⟩
abbrev main_v259 : Ref sig .tc := ⟨.hbm, 1255, rfl⟩
abbrev main_v260 : Ref sig .tc := ⟨.hbm, 1256, rfl⟩
abbrev main_v261 : Ref sig .tc := ⟨.hbm, 1257, rfl⟩
abbrev main_v262 : Ref sig .tc := ⟨.hbm, 1258, rfl⟩
abbrev main_call84_v0 : Ref sig .tc := ⟨.hbm, 1259, rfl⟩
abbrev main_call84_call0_c : Ref sig .tc := ⟨.hbm, 1260, rfl⟩
abbrev main_call84_call0_v0 : Ref sig .tc := ⟨.hbm, 1261, rfl⟩
abbrev main_v263 : Ref sig .tc := ⟨.hbm, 1262, rfl⟩
abbrev main_c_98 : Ref sig .tc := ⟨.hbm, 1263, rfl⟩
abbrev main_v264 : Ref sig .tc := ⟨.hbm, 1264, rfl⟩
abbrev main_c_99 : Ref sig .tc := ⟨.hbm, 1265, rfl⟩
abbrev main_call85_v0 : Ref sig .tc := ⟨.hbm, 1266, rfl⟩
abbrev main_call85_v1 : Ref sig .tc := ⟨.hbm, 1267, rfl⟩
abbrev main_v265 : Ref sig .tc := ⟨.hbm, 1268, rfl⟩
abbrev main_c_100 : Ref sig .tc := ⟨.hbm, 1269, rfl⟩
abbrev main_v266 : Ref sig .tc := ⟨.hbm, 1270, rfl⟩
abbrev main_v267 : Ref sig .tc := ⟨.hbm, 1271, rfl⟩
abbrev main_c_101 : Ref sig .tc := ⟨.hbm, 1272, rfl⟩
abbrev main_v268 : Ref sig .tc := ⟨.hbm, 1273, rfl⟩
abbrev main_v269 : Ref sig .tc := ⟨.hbm, 1274, rfl⟩
abbrev main_v270 : Ref sig .tc := ⟨.hbm, 1275, rfl⟩
abbrev main_v271 : Ref sig .tc := ⟨.hbm, 1276, rfl⟩
abbrev main_c_102 : Ref sig .tc := ⟨.hbm, 1277, rfl⟩
abbrev main_v272 : Ref sig .tc := ⟨.hbm, 1278, rfl⟩
abbrev main_v273 : Ref sig .tc := ⟨.hbm, 1279, rfl⟩
abbrev main_call86_call0_c : Ref sig .tc := ⟨.hbm, 1280, rfl⟩
abbrev main_call86_call0_v0 : Ref sig .tc := ⟨.hbm, 1281, rfl⟩
abbrev main_v274 : Ref sig .tc := ⟨.hbm, 1282, rfl⟩
abbrev main_c_103 : Ref sig .tc := ⟨.hbm, 1283, rfl⟩
abbrev main_call87_v0 : Ref sig .tc := ⟨.hbm, 1284, rfl⟩
abbrev main_call87_v1 : Ref sig .tc := ⟨.hbm, 1285, rfl⟩
abbrev main_call87_v2 : Ref sig .tc := ⟨.hbm, 1286, rfl⟩
abbrev main_call87_v3 : Ref sig .tc := ⟨.hbm, 1287, rfl⟩
abbrev main_call87_v4 : Ref sig .tc := ⟨.hbm, 1288, rfl⟩
abbrev main_call87_v5 : Ref sig .tc := ⟨.hbm, 1289, rfl⟩
abbrev main_call87_v6 : Ref sig .tc := ⟨.hbm, 1290, rfl⟩
abbrev main_call87_v7 : Ref sig .tc := ⟨.hbm, 1291, rfl⟩
abbrev main_call87_c : Ref sig .tc := ⟨.hbm, 1292, rfl⟩
abbrev main_call87_v8 : Ref sig .tc := ⟨.hbm, 1293, rfl⟩
abbrev main_call87_v9 : Ref sig .tc := ⟨.hbm, 1294, rfl⟩
abbrev main_call87_v10 : Ref sig .tc := ⟨.hbm, 1295, rfl⟩
abbrev main_call87_c_0 : Ref sig .tc := ⟨.hbm, 1296, rfl⟩
abbrev main_call87_v11 : Ref sig .tc := ⟨.hbm, 1297, rfl⟩
abbrev main_call87_v12 : Ref sig .tc := ⟨.hbm, 1298, rfl⟩
abbrev main_v275 : Ref sig .tc := ⟨.hbm, 1299, rfl⟩
abbrev main_c_104 : Ref sig .tc := ⟨.hbm, 1300, rfl⟩
abbrev main_call88_v0 : Ref sig .tc := ⟨.hbm, 1301, rfl⟩
abbrev main_call88_c : Ref sig .tc := ⟨.hbm, 1302, rfl⟩
abbrev main_call88_v1 : Ref sig .tc := ⟨.hbm, 1303, rfl⟩
abbrev main_call88_c_0 : Ref sig .tc := ⟨.hbm, 1304, rfl⟩
abbrev main_call88_v2 : Ref sig .tc := ⟨.hbm, 1305, rfl⟩
abbrev main_call88_v3 : Ref sig .tc := ⟨.hbm, 1306, rfl⟩
abbrev main_call88_v4 : Ref sig .tc := ⟨.hbm, 1307, rfl⟩
abbrev main_call88_c_1 : Ref sig .tc := ⟨.hbm, 1308, rfl⟩
abbrev main_call88_v5 : Ref sig .tc := ⟨.hbm, 1309, rfl⟩
abbrev main_call88_v6 : Ref sig .tc := ⟨.hbm, 1310, rfl⟩
abbrev main_call88_c_2 : Ref sig .tc := ⟨.hbm, 1311, rfl⟩
abbrev main_call88_v7 : Ref sig .tc := ⟨.hbm, 1312, rfl⟩
abbrev main_call88_v8 : Ref sig .tc := ⟨.hbm, 1313, rfl⟩
abbrev main_call88_c_3 : Ref sig .tc := ⟨.hbm, 1314, rfl⟩
abbrev main_call88_v9 : Ref sig .tc := ⟨.hbm, 1315, rfl⟩
abbrev main_call88_v10 : Ref sig .tc := ⟨.hbm, 1316, rfl⟩
abbrev main_call88_v11 : Ref sig .tc := ⟨.hbm, 1317, rfl⟩
abbrev main_call88_v12 : Ref sig .tc := ⟨.hbm, 1318, rfl⟩
abbrev main_call88_v13 : Ref sig .tc := ⟨.hbm, 1319, rfl⟩
abbrev main_call88_v14 : Ref sig .tc := ⟨.hbm, 1320, rfl⟩
abbrev main_v276 : Ref sig .tc := ⟨.hbm, 1321, rfl⟩
abbrev main_call89_c : Ref sig .tc := ⟨.hbm, 1322, rfl⟩
abbrev main_call89_v0 : Ref sig .tc := ⟨.hbm, 1323, rfl⟩
abbrev main_call89_v1 : Ref sig .tc := ⟨.hbm, 1324, rfl⟩
abbrev main_call89_c_0 : Ref sig .tc := ⟨.hbm, 1325, rfl⟩
abbrev main_call89_v2 : Ref sig .tc := ⟨.hbm, 1326, rfl⟩
abbrev main_call89_v3 : Ref sig .tc := ⟨.hbm, 1327, rfl⟩
abbrev main_call89_v4 : Ref sig .tc := ⟨.hbm, 1328, rfl⟩
abbrev main_call89_v5 : Ref sig .tc := ⟨.hbm, 1329, rfl⟩
abbrev main_call89_c_1 : Ref sig .tc := ⟨.hbm, 1330, rfl⟩
abbrev main_call89_c_2 : Ref sig .tc := ⟨.hbm, 1331, rfl⟩
abbrev main_call89_v6 : Ref sig .tc := ⟨.hbm, 1332, rfl⟩
abbrev main_call89_v7 : Ref sig .tc := ⟨.hbm, 1333, rfl⟩
abbrev main_call89_v8 : Ref sig .tc := ⟨.hbm, 1334, rfl⟩
abbrev main_call89_v9 : Ref sig .tc := ⟨.hbm, 1335, rfl⟩
abbrev main_call89_v10 : Ref sig .tc := ⟨.hbm, 1336, rfl⟩
abbrev main_call89_v11 : Ref sig .tc := ⟨.hbm, 1337, rfl⟩
abbrev main_call89_c_3 : Ref sig .tc := ⟨.hbm, 1338, rfl⟩
abbrev main_call89_v12 : Ref sig .tc := ⟨.hbm, 1339, rfl⟩
abbrev main_call89_v13 : Ref sig .tc := ⟨.hbm, 1340, rfl⟩
abbrev main_call89_v14 : Ref sig .tc := ⟨.hbm, 1341, rfl⟩
abbrev main_call89_cst : Ref sig .tc := ⟨.hbm, 1342, rfl⟩
abbrev main_call89_v15 : Ref sig .tc := ⟨.hbm, 1343, rfl⟩
abbrev main_v277 : Ref sig .tc := ⟨.hbm, 1344, rfl⟩
abbrev main_v278 : Ref sig .tc := ⟨.hbm, 1345, rfl⟩
abbrev main_v279 : Ref sig .tc := ⟨.hbm, 1346, rfl⟩
abbrev main_v280 : Ref sig .tc := ⟨.hbm, 1347, rfl⟩
abbrev main_call90_v0 : Ref sig .tc := ⟨.hbm, 1348, rfl⟩
abbrev main_call90_call0_c : Ref sig .tc := ⟨.hbm, 1349, rfl⟩
abbrev main_call90_call0_v0 : Ref sig .tc := ⟨.hbm, 1350, rfl⟩
abbrev main_v281 : Ref sig .tc := ⟨.hbm, 1351, rfl⟩
abbrev main_c_105 : Ref sig .tc := ⟨.hbm, 1352, rfl⟩
abbrev main_v282 : Ref sig .tc := ⟨.hbm, 1353, rfl⟩
abbrev main_c_106 : Ref sig .tc := ⟨.hbm, 1354, rfl⟩
abbrev main_call91_v0 : Ref sig .tc := ⟨.hbm, 1355, rfl⟩
abbrev main_call91_v1 : Ref sig .tc := ⟨.hbm, 1356, rfl⟩
abbrev main_v283 : Ref sig .tc := ⟨.hbm, 1357, rfl⟩
abbrev main_c_107 : Ref sig .tc := ⟨.hbm, 1358, rfl⟩
abbrev main_v284 : Ref sig .tc := ⟨.hbm, 1359, rfl⟩
abbrev main_v285 : Ref sig .tc := ⟨.hbm, 1360, rfl⟩
abbrev main_c_108 : Ref sig .tc := ⟨.hbm, 1361, rfl⟩
abbrev main_v286 : Ref sig .tc := ⟨.hbm, 1362, rfl⟩
abbrev main_v287 : Ref sig .tc := ⟨.hbm, 1363, rfl⟩
abbrev main_v288 : Ref sig .tc := ⟨.hbm, 1364, rfl⟩
abbrev main_v289 : Ref sig .tc := ⟨.hbm, 1365, rfl⟩
abbrev main_c_109 : Ref sig .tc := ⟨.hbm, 1366, rfl⟩
abbrev main_v290 : Ref sig .tc := ⟨.hbm, 1367, rfl⟩
abbrev main_v291 : Ref sig .tc := ⟨.hbm, 1368, rfl⟩
abbrev main_call92_call0_c : Ref sig .tc := ⟨.hbm, 1369, rfl⟩
abbrev main_call92_call0_v0 : Ref sig .tc := ⟨.hbm, 1370, rfl⟩
abbrev main_v292 : Ref sig .tc := ⟨.hbm, 1371, rfl⟩
abbrev main_c_110 : Ref sig .tc := ⟨.hbm, 1372, rfl⟩
abbrev main_call93_v0 : Ref sig .tc := ⟨.hbm, 1373, rfl⟩
abbrev main_call93_v1 : Ref sig .tc := ⟨.hbm, 1374, rfl⟩
abbrev main_call93_v2 : Ref sig .tc := ⟨.hbm, 1375, rfl⟩
abbrev main_call93_v3 : Ref sig .tc := ⟨.hbm, 1376, rfl⟩
abbrev main_call93_v4 : Ref sig .tc := ⟨.hbm, 1377, rfl⟩
abbrev main_call93_v5 : Ref sig .tc := ⟨.hbm, 1378, rfl⟩
abbrev main_call93_v6 : Ref sig .tc := ⟨.hbm, 1379, rfl⟩
abbrev main_call93_v7 : Ref sig .tc := ⟨.hbm, 1380, rfl⟩
abbrev main_call93_c : Ref sig .tc := ⟨.hbm, 1381, rfl⟩
abbrev main_call93_v8 : Ref sig .tc := ⟨.hbm, 1382, rfl⟩
abbrev main_call93_v9 : Ref sig .tc := ⟨.hbm, 1383, rfl⟩
abbrev main_call93_v10 : Ref sig .tc := ⟨.hbm, 1384, rfl⟩
abbrev main_call93_c_0 : Ref sig .tc := ⟨.hbm, 1385, rfl⟩
abbrev main_call93_v11 : Ref sig .tc := ⟨.hbm, 1386, rfl⟩
abbrev main_call93_v12 : Ref sig .tc := ⟨.hbm, 1387, rfl⟩
abbrev main_v293 : Ref sig .tc := ⟨.hbm, 1388, rfl⟩
abbrev main_c_111 : Ref sig .tc := ⟨.hbm, 1389, rfl⟩
abbrev main_call94_v0 : Ref sig .tc := ⟨.hbm, 1390, rfl⟩
abbrev main_call94_c : Ref sig .tc := ⟨.hbm, 1391, rfl⟩
abbrev main_call94_v1 : Ref sig .tc := ⟨.hbm, 1392, rfl⟩
abbrev main_call94_c_0 : Ref sig .tc := ⟨.hbm, 1393, rfl⟩
abbrev main_call94_v2 : Ref sig .tc := ⟨.hbm, 1394, rfl⟩
abbrev main_call94_v3 : Ref sig .tc := ⟨.hbm, 1395, rfl⟩
abbrev main_call94_v4 : Ref sig .tc := ⟨.hbm, 1396, rfl⟩
abbrev main_call94_c_1 : Ref sig .tc := ⟨.hbm, 1397, rfl⟩
abbrev main_call94_v5 : Ref sig .tc := ⟨.hbm, 1398, rfl⟩
abbrev main_call94_v6 : Ref sig .tc := ⟨.hbm, 1399, rfl⟩
abbrev main_call94_c_2 : Ref sig .tc := ⟨.hbm, 1400, rfl⟩
abbrev main_call94_v7 : Ref sig .tc := ⟨.hbm, 1401, rfl⟩
abbrev main_call94_v8 : Ref sig .tc := ⟨.hbm, 1402, rfl⟩
abbrev main_call94_c_3 : Ref sig .tc := ⟨.hbm, 1403, rfl⟩
abbrev main_call94_v9 : Ref sig .tc := ⟨.hbm, 1404, rfl⟩
abbrev main_call94_v10 : Ref sig .tc := ⟨.hbm, 1405, rfl⟩
abbrev main_call94_v11 : Ref sig .tc := ⟨.hbm, 1406, rfl⟩
abbrev main_call94_v12 : Ref sig .tc := ⟨.hbm, 1407, rfl⟩
abbrev main_call94_v13 : Ref sig .tc := ⟨.hbm, 1408, rfl⟩
abbrev main_call94_v14 : Ref sig .tc := ⟨.hbm, 1409, rfl⟩
abbrev main_v294 : Ref sig .tc := ⟨.hbm, 1410, rfl⟩
abbrev main_call95_c : Ref sig .tc := ⟨.hbm, 1411, rfl⟩
abbrev main_call95_v0 : Ref sig .tc := ⟨.hbm, 1412, rfl⟩
abbrev main_call95_v1 : Ref sig .tc := ⟨.hbm, 1413, rfl⟩
abbrev main_call95_c_0 : Ref sig .tc := ⟨.hbm, 1414, rfl⟩
abbrev main_call95_v2 : Ref sig .tc := ⟨.hbm, 1415, rfl⟩
abbrev main_call95_v3 : Ref sig .tc := ⟨.hbm, 1416, rfl⟩
abbrev main_call95_v4 : Ref sig .tc := ⟨.hbm, 1417, rfl⟩
abbrev main_call95_v5 : Ref sig .tc := ⟨.hbm, 1418, rfl⟩
abbrev main_call95_c_1 : Ref sig .tc := ⟨.hbm, 1419, rfl⟩
abbrev main_call95_c_2 : Ref sig .tc := ⟨.hbm, 1420, rfl⟩
abbrev main_call95_v6 : Ref sig .tc := ⟨.hbm, 1421, rfl⟩
abbrev main_call95_v7 : Ref sig .tc := ⟨.hbm, 1422, rfl⟩
abbrev main_call95_v8 : Ref sig .tc := ⟨.hbm, 1423, rfl⟩
abbrev main_call95_v9 : Ref sig .tc := ⟨.hbm, 1424, rfl⟩
abbrev main_call95_v10 : Ref sig .tc := ⟨.hbm, 1425, rfl⟩
abbrev main_call95_v11 : Ref sig .tc := ⟨.hbm, 1426, rfl⟩
abbrev main_call95_c_3 : Ref sig .tc := ⟨.hbm, 1427, rfl⟩
abbrev main_call95_v12 : Ref sig .tc := ⟨.hbm, 1428, rfl⟩
abbrev main_call95_v13 : Ref sig .tc := ⟨.hbm, 1429, rfl⟩
abbrev main_call95_v14 : Ref sig .tc := ⟨.hbm, 1430, rfl⟩
abbrev main_call95_cst : Ref sig .tc := ⟨.hbm, 1431, rfl⟩
abbrev main_call95_v15 : Ref sig .tc := ⟨.hbm, 1432, rfl⟩
abbrev main_v295 : Ref sig .tc := ⟨.hbm, 1433, rfl⟩
abbrev main_v296 : Ref sig .tc := ⟨.hbm, 1434, rfl⟩
abbrev main_v297 : Ref sig .tc := ⟨.hbm, 1435, rfl⟩
abbrev main_v298 : Ref sig .tc := ⟨.hbm, 1436, rfl⟩
abbrev main_call96_v0 : Ref sig .tc := ⟨.hbm, 1437, rfl⟩
abbrev main_call96_call0_c : Ref sig .tc := ⟨.hbm, 1438, rfl⟩
abbrev main_call96_call0_v0 : Ref sig .tc := ⟨.hbm, 1439, rfl⟩
abbrev main_v299 : Ref sig .tc := ⟨.hbm, 1440, rfl⟩
abbrev main_c_112 : Ref sig .tc := ⟨.hbm, 1441, rfl⟩
abbrev main_v300 : Ref sig .tc := ⟨.hbm, 1442, rfl⟩
abbrev main_c_113 : Ref sig .tc := ⟨.hbm, 1443, rfl⟩
abbrev main_call97_v0 : Ref sig .tc := ⟨.hbm, 1444, rfl⟩
abbrev main_call97_v1 : Ref sig .tc := ⟨.hbm, 1445, rfl⟩
abbrev main_v301 : Ref sig .tc := ⟨.hbm, 1446, rfl⟩
abbrev main_c_114 : Ref sig .tc := ⟨.hbm, 1447, rfl⟩
abbrev main_v302 : Ref sig .tc := ⟨.hbm, 1448, rfl⟩
abbrev main_v303 : Ref sig .tc := ⟨.hbm, 1449, rfl⟩
abbrev main_c_115 : Ref sig .tc := ⟨.hbm, 1450, rfl⟩
abbrev main_v304 : Ref sig .tc := ⟨.hbm, 1451, rfl⟩
abbrev main_v305 : Ref sig .tc := ⟨.hbm, 1452, rfl⟩
abbrev main_v306 : Ref sig .tc := ⟨.hbm, 1453, rfl⟩
abbrev main_v307 : Ref sig .tc := ⟨.hbm, 1454, rfl⟩
abbrev main_c_116 : Ref sig .tc := ⟨.hbm, 1455, rfl⟩
abbrev main_v308 : Ref sig .tc := ⟨.hbm, 1456, rfl⟩
abbrev main_v309 : Ref sig .tc := ⟨.hbm, 1457, rfl⟩
abbrev main_call98_call0_c : Ref sig .tc := ⟨.hbm, 1458, rfl⟩
abbrev main_call98_call0_v0 : Ref sig .tc := ⟨.hbm, 1459, rfl⟩
abbrev main_v310 : Ref sig .tc := ⟨.hbm, 1460, rfl⟩
abbrev main_c_117 : Ref sig .tc := ⟨.hbm, 1461, rfl⟩
abbrev main_call99_v0 : Ref sig .tc := ⟨.hbm, 1462, rfl⟩
abbrev main_call99_v1 : Ref sig .tc := ⟨.hbm, 1463, rfl⟩
abbrev main_call99_v2 : Ref sig .tc := ⟨.hbm, 1464, rfl⟩
abbrev main_call99_v3 : Ref sig .tc := ⟨.hbm, 1465, rfl⟩
abbrev main_call99_v4 : Ref sig .tc := ⟨.hbm, 1466, rfl⟩
abbrev main_call99_v5 : Ref sig .tc := ⟨.hbm, 1467, rfl⟩
abbrev main_call99_v6 : Ref sig .tc := ⟨.hbm, 1468, rfl⟩
abbrev main_call99_v7 : Ref sig .tc := ⟨.hbm, 1469, rfl⟩
abbrev main_call99_c : Ref sig .tc := ⟨.hbm, 1470, rfl⟩
abbrev main_call99_v8 : Ref sig .tc := ⟨.hbm, 1471, rfl⟩
abbrev main_call99_v9 : Ref sig .tc := ⟨.hbm, 1472, rfl⟩
abbrev main_call99_v10 : Ref sig .tc := ⟨.hbm, 1473, rfl⟩
abbrev main_call99_c_0 : Ref sig .tc := ⟨.hbm, 1474, rfl⟩
abbrev main_call99_v11 : Ref sig .tc := ⟨.hbm, 1475, rfl⟩
abbrev main_call99_v12 : Ref sig .tc := ⟨.hbm, 1476, rfl⟩
abbrev main_v311 : Ref sig .tc := ⟨.hbm, 1477, rfl⟩
abbrev main_c_118 : Ref sig .tc := ⟨.hbm, 1478, rfl⟩
abbrev main_call100_v0 : Ref sig .tc := ⟨.hbm, 1479, rfl⟩
abbrev main_call100_c : Ref sig .tc := ⟨.hbm, 1480, rfl⟩
abbrev main_call100_v1 : Ref sig .tc := ⟨.hbm, 1481, rfl⟩
abbrev main_call100_c_0 : Ref sig .tc := ⟨.hbm, 1482, rfl⟩
abbrev main_call100_v2 : Ref sig .tc := ⟨.hbm, 1483, rfl⟩
abbrev main_call100_v3 : Ref sig .tc := ⟨.hbm, 1484, rfl⟩
abbrev main_call100_v4 : Ref sig .tc := ⟨.hbm, 1485, rfl⟩
abbrev main_call100_c_1 : Ref sig .tc := ⟨.hbm, 1486, rfl⟩
abbrev main_call100_v5 : Ref sig .tc := ⟨.hbm, 1487, rfl⟩
abbrev main_call100_v6 : Ref sig .tc := ⟨.hbm, 1488, rfl⟩
abbrev main_call100_c_2 : Ref sig .tc := ⟨.hbm, 1489, rfl⟩
abbrev main_call100_v7 : Ref sig .tc := ⟨.hbm, 1490, rfl⟩
abbrev main_call100_v8 : Ref sig .tc := ⟨.hbm, 1491, rfl⟩
abbrev main_call100_c_3 : Ref sig .tc := ⟨.hbm, 1492, rfl⟩
abbrev main_call100_v9 : Ref sig .tc := ⟨.hbm, 1493, rfl⟩
abbrev main_call100_v10 : Ref sig .tc := ⟨.hbm, 1494, rfl⟩
abbrev main_call100_v11 : Ref sig .tc := ⟨.hbm, 1495, rfl⟩
abbrev main_call100_v12 : Ref sig .tc := ⟨.hbm, 1496, rfl⟩
abbrev main_call100_v13 : Ref sig .tc := ⟨.hbm, 1497, rfl⟩
abbrev main_call100_v14 : Ref sig .tc := ⟨.hbm, 1498, rfl⟩
abbrev main_v312 : Ref sig .tc := ⟨.hbm, 1499, rfl⟩
abbrev main_call101_c : Ref sig .tc := ⟨.hbm, 1500, rfl⟩
abbrev main_call101_v0 : Ref sig .tc := ⟨.hbm, 1501, rfl⟩
abbrev main_call101_v1 : Ref sig .tc := ⟨.hbm, 1502, rfl⟩
abbrev main_call101_c_0 : Ref sig .tc := ⟨.hbm, 1503, rfl⟩
abbrev main_call101_v2 : Ref sig .tc := ⟨.hbm, 1504, rfl⟩
abbrev main_call101_v3 : Ref sig .tc := ⟨.hbm, 1505, rfl⟩
abbrev main_call101_v4 : Ref sig .tc := ⟨.hbm, 1506, rfl⟩
abbrev main_call101_v5 : Ref sig .tc := ⟨.hbm, 1507, rfl⟩
abbrev main_call101_c_1 : Ref sig .tc := ⟨.hbm, 1508, rfl⟩
abbrev main_call101_c_2 : Ref sig .tc := ⟨.hbm, 1509, rfl⟩
abbrev main_call101_v6 : Ref sig .tc := ⟨.hbm, 1510, rfl⟩
abbrev main_call101_v7 : Ref sig .tc := ⟨.hbm, 1511, rfl⟩
abbrev main_call101_v8 : Ref sig .tc := ⟨.hbm, 1512, rfl⟩
abbrev main_call101_v9 : Ref sig .tc := ⟨.hbm, 1513, rfl⟩
abbrev main_call101_v10 : Ref sig .tc := ⟨.hbm, 1514, rfl⟩
abbrev main_call101_v11 : Ref sig .tc := ⟨.hbm, 1515, rfl⟩
abbrev main_call101_c_3 : Ref sig .tc := ⟨.hbm, 1516, rfl⟩
abbrev main_call101_v12 : Ref sig .tc := ⟨.hbm, 1517, rfl⟩
abbrev main_call101_v13 : Ref sig .tc := ⟨.hbm, 1518, rfl⟩
abbrev main_call101_v14 : Ref sig .tc := ⟨.hbm, 1519, rfl⟩
abbrev main_call101_cst : Ref sig .tc := ⟨.hbm, 1520, rfl⟩
abbrev main_call101_v15 : Ref sig .tc := ⟨.hbm, 1521, rfl⟩
abbrev main_v313 : Ref sig .tc := ⟨.hbm, 1522, rfl⟩
abbrev main_v314 : Ref sig .tc := ⟨.hbm, 1523, rfl⟩
abbrev main_v315 : Ref sig .tc := ⟨.hbm, 1524, rfl⟩
abbrev main_v316 : Ref sig .tc := ⟨.hbm, 1525, rfl⟩
abbrev main_call102_v0 : Ref sig .tc := ⟨.hbm, 1526, rfl⟩
abbrev main_call102_call0_c : Ref sig .tc := ⟨.hbm, 1527, rfl⟩
abbrev main_call102_call0_v0 : Ref sig .tc := ⟨.hbm, 1528, rfl⟩
abbrev main_v317 : Ref sig .tc := ⟨.hbm, 1529, rfl⟩
abbrev main_c_119 : Ref sig .tc := ⟨.hbm, 1530, rfl⟩
abbrev main_v318 : Ref sig .tc := ⟨.hbm, 1531, rfl⟩
abbrev main_c_120 : Ref sig .tc := ⟨.hbm, 1532, rfl⟩
abbrev main_call103_v0 : Ref sig .tc := ⟨.hbm, 1533, rfl⟩
abbrev main_call103_v1 : Ref sig .tc := ⟨.hbm, 1534, rfl⟩
abbrev main_v319 : Ref sig .tc := ⟨.hbm, 1535, rfl⟩
abbrev main_c_121 : Ref sig .tc := ⟨.hbm, 1536, rfl⟩
abbrev main_v320 : Ref sig .tc := ⟨.hbm, 1537, rfl⟩
abbrev main_v321 : Ref sig .tc := ⟨.hbm, 1538, rfl⟩
abbrev main_c_122 : Ref sig .tc := ⟨.hbm, 1539, rfl⟩
abbrev main_v322 : Ref sig .tc := ⟨.hbm, 1540, rfl⟩
abbrev main_v323 : Ref sig .tc := ⟨.hbm, 1541, rfl⟩
abbrev main_v324 : Ref sig .tc := ⟨.hbm, 1542, rfl⟩
abbrev main_v325 : Ref sig .tc := ⟨.hbm, 1543, rfl⟩
abbrev main_c_123 : Ref sig .tc := ⟨.hbm, 1544, rfl⟩
abbrev main_v326 : Ref sig .tc := ⟨.hbm, 1545, rfl⟩
abbrev main_v327 : Ref sig .tc := ⟨.hbm, 1546, rfl⟩
abbrev main_call104_call0_c : Ref sig .tc := ⟨.hbm, 1547, rfl⟩
abbrev main_call104_call0_v0 : Ref sig .tc := ⟨.hbm, 1548, rfl⟩
abbrev main_v328 : Ref sig .tc := ⟨.hbm, 1549, rfl⟩
abbrev main_c_124 : Ref sig .tc := ⟨.hbm, 1550, rfl⟩
abbrev main_call105_v0 : Ref sig .tc := ⟨.hbm, 1551, rfl⟩
abbrev main_call105_v1 : Ref sig .tc := ⟨.hbm, 1552, rfl⟩
abbrev main_call105_v2 : Ref sig .tc := ⟨.hbm, 1553, rfl⟩
abbrev main_call105_v3 : Ref sig .tc := ⟨.hbm, 1554, rfl⟩
abbrev main_call105_v4 : Ref sig .tc := ⟨.hbm, 1555, rfl⟩
abbrev main_call105_v5 : Ref sig .tc := ⟨.hbm, 1556, rfl⟩
abbrev main_call105_v6 : Ref sig .tc := ⟨.hbm, 1557, rfl⟩
abbrev main_call105_v7 : Ref sig .tc := ⟨.hbm, 1558, rfl⟩
abbrev main_call105_c : Ref sig .tc := ⟨.hbm, 1559, rfl⟩
abbrev main_call105_v8 : Ref sig .tc := ⟨.hbm, 1560, rfl⟩
abbrev main_call105_v9 : Ref sig .tc := ⟨.hbm, 1561, rfl⟩
abbrev main_call105_v10 : Ref sig .tc := ⟨.hbm, 1562, rfl⟩
abbrev main_call105_c_0 : Ref sig .tc := ⟨.hbm, 1563, rfl⟩
abbrev main_call105_v11 : Ref sig .tc := ⟨.hbm, 1564, rfl⟩
abbrev main_call105_v12 : Ref sig .tc := ⟨.hbm, 1565, rfl⟩
abbrev main_v329 : Ref sig .tc := ⟨.hbm, 1566, rfl⟩
abbrev main_c_125 : Ref sig .tc := ⟨.hbm, 1567, rfl⟩
abbrev main_call106_v0 : Ref sig .tc := ⟨.hbm, 1568, rfl⟩
abbrev main_call106_c : Ref sig .tc := ⟨.hbm, 1569, rfl⟩
abbrev main_call106_v1 : Ref sig .tc := ⟨.hbm, 1570, rfl⟩
abbrev main_call106_c_0 : Ref sig .tc := ⟨.hbm, 1571, rfl⟩
abbrev main_call106_v2 : Ref sig .tc := ⟨.hbm, 1572, rfl⟩
abbrev main_call106_v3 : Ref sig .tc := ⟨.hbm, 1573, rfl⟩
abbrev main_call106_v4 : Ref sig .tc := ⟨.hbm, 1574, rfl⟩
abbrev main_call106_c_1 : Ref sig .tc := ⟨.hbm, 1575, rfl⟩
abbrev main_call106_v5 : Ref sig .tc := ⟨.hbm, 1576, rfl⟩
abbrev main_call106_v6 : Ref sig .tc := ⟨.hbm, 1577, rfl⟩
abbrev main_call106_c_2 : Ref sig .tc := ⟨.hbm, 1578, rfl⟩
abbrev main_call106_v7 : Ref sig .tc := ⟨.hbm, 1579, rfl⟩
abbrev main_call106_v8 : Ref sig .tc := ⟨.hbm, 1580, rfl⟩
abbrev main_call106_c_3 : Ref sig .tc := ⟨.hbm, 1581, rfl⟩
abbrev main_call106_v9 : Ref sig .tc := ⟨.hbm, 1582, rfl⟩
abbrev main_call106_v10 : Ref sig .tc := ⟨.hbm, 1583, rfl⟩
abbrev main_call106_v11 : Ref sig .tc := ⟨.hbm, 1584, rfl⟩
abbrev main_call106_v12 : Ref sig .tc := ⟨.hbm, 1585, rfl⟩
abbrev main_call106_v13 : Ref sig .tc := ⟨.hbm, 1586, rfl⟩
abbrev main_call106_v14 : Ref sig .tc := ⟨.hbm, 1587, rfl⟩
abbrev main_v330 : Ref sig .tc := ⟨.hbm, 1588, rfl⟩
abbrev main_call107_c : Ref sig .tc := ⟨.hbm, 1589, rfl⟩
abbrev main_call107_v0 : Ref sig .tc := ⟨.hbm, 1590, rfl⟩
abbrev main_call107_v1 : Ref sig .tc := ⟨.hbm, 1591, rfl⟩
abbrev main_call107_c_0 : Ref sig .tc := ⟨.hbm, 1592, rfl⟩
abbrev main_call107_v2 : Ref sig .tc := ⟨.hbm, 1593, rfl⟩
abbrev main_call107_v3 : Ref sig .tc := ⟨.hbm, 1594, rfl⟩
abbrev main_call107_v4 : Ref sig .tc := ⟨.hbm, 1595, rfl⟩
abbrev main_call107_v5 : Ref sig .tc := ⟨.hbm, 1596, rfl⟩
abbrev main_call107_c_1 : Ref sig .tc := ⟨.hbm, 1597, rfl⟩
abbrev main_call107_c_2 : Ref sig .tc := ⟨.hbm, 1598, rfl⟩
abbrev main_call107_v6 : Ref sig .tc := ⟨.hbm, 1599, rfl⟩
abbrev main_call107_v7 : Ref sig .tc := ⟨.hbm, 1600, rfl⟩
abbrev main_call107_v8 : Ref sig .tc := ⟨.hbm, 1601, rfl⟩
abbrev main_call107_v9 : Ref sig .tc := ⟨.hbm, 1602, rfl⟩
abbrev main_call107_v10 : Ref sig .tc := ⟨.hbm, 1603, rfl⟩
abbrev main_call107_v11 : Ref sig .tc := ⟨.hbm, 1604, rfl⟩
abbrev main_call107_c_3 : Ref sig .tc := ⟨.hbm, 1605, rfl⟩
abbrev main_call107_v12 : Ref sig .tc := ⟨.hbm, 1606, rfl⟩
abbrev main_call107_v13 : Ref sig .tc := ⟨.hbm, 1607, rfl⟩
abbrev main_call107_v14 : Ref sig .tc := ⟨.hbm, 1608, rfl⟩
abbrev main_call107_cst : Ref sig .tc := ⟨.hbm, 1609, rfl⟩
abbrev main_call107_v15 : Ref sig .tc := ⟨.hbm, 1610, rfl⟩
abbrev main_v331 : Ref sig .tc := ⟨.hbm, 1611, rfl⟩
abbrev main_v332 : Ref sig .tc := ⟨.hbm, 1612, rfl⟩
abbrev main_v333 : Ref sig .tc := ⟨.hbm, 1613, rfl⟩
abbrev main_v334 : Ref sig .tc := ⟨.hbm, 1614, rfl⟩
abbrev main_call108_v0 : Ref sig .tc := ⟨.hbm, 1615, rfl⟩
abbrev main_call108_call0_c : Ref sig .tc := ⟨.hbm, 1616, rfl⟩
abbrev main_call108_call0_v0 : Ref sig .tc := ⟨.hbm, 1617, rfl⟩
abbrev main_v335 : Ref sig .tc := ⟨.hbm, 1618, rfl⟩
abbrev main_c_126 : Ref sig .tc := ⟨.hbm, 1619, rfl⟩
abbrev main_v336 : Ref sig .tc := ⟨.hbm, 1620, rfl⟩
abbrev main_c_127 : Ref sig .tc := ⟨.hbm, 1621, rfl⟩
abbrev main_call109_v0 : Ref sig .tc := ⟨.hbm, 1622, rfl⟩
abbrev main_call109_v1 : Ref sig .tc := ⟨.hbm, 1623, rfl⟩
abbrev main_v337 : Ref sig .tc := ⟨.hbm, 1624, rfl⟩
abbrev main_c_128 : Ref sig .tc := ⟨.hbm, 1625, rfl⟩
abbrev main_v338 : Ref sig .tc := ⟨.hbm, 1626, rfl⟩
abbrev main_v339 : Ref sig .tc := ⟨.hbm, 1627, rfl⟩
abbrev main_c_129 : Ref sig .tc := ⟨.hbm, 1628, rfl⟩
abbrev main_v340 : Ref sig .tc := ⟨.hbm, 1629, rfl⟩
abbrev main_v341 : Ref sig .tc := ⟨.hbm, 1630, rfl⟩
abbrev main_v342 : Ref sig .tc := ⟨.hbm, 1631, rfl⟩
abbrev main_v343 : Ref sig .tc := ⟨.hbm, 1632, rfl⟩
abbrev main_c_130 : Ref sig .tc := ⟨.hbm, 1633, rfl⟩
abbrev main_v344 : Ref sig .tc := ⟨.hbm, 1634, rfl⟩
abbrev main_v345 : Ref sig .tc := ⟨.hbm, 1635, rfl⟩
abbrev main_call110_call0_c : Ref sig .tc := ⟨.hbm, 1636, rfl⟩
abbrev main_call110_call0_v0 : Ref sig .tc := ⟨.hbm, 1637, rfl⟩
abbrev main_v346 : Ref sig .tc := ⟨.hbm, 1638, rfl⟩
abbrev main_c_131 : Ref sig .tc := ⟨.hbm, 1639, rfl⟩
abbrev main_call111_v0 : Ref sig .tc := ⟨.hbm, 1640, rfl⟩
abbrev main_call111_v1 : Ref sig .tc := ⟨.hbm, 1641, rfl⟩
abbrev main_call111_v2 : Ref sig .tc := ⟨.hbm, 1642, rfl⟩
abbrev main_call111_v3 : Ref sig .tc := ⟨.hbm, 1643, rfl⟩
abbrev main_call111_v4 : Ref sig .tc := ⟨.hbm, 1644, rfl⟩
abbrev main_call111_v5 : Ref sig .tc := ⟨.hbm, 1645, rfl⟩
abbrev main_call111_v6 : Ref sig .tc := ⟨.hbm, 1646, rfl⟩
abbrev main_call111_v7 : Ref sig .tc := ⟨.hbm, 1647, rfl⟩
abbrev main_call111_c : Ref sig .tc := ⟨.hbm, 1648, rfl⟩
abbrev main_call111_v8 : Ref sig .tc := ⟨.hbm, 1649, rfl⟩
abbrev main_call111_v9 : Ref sig .tc := ⟨.hbm, 1650, rfl⟩
abbrev main_call111_v10 : Ref sig .tc := ⟨.hbm, 1651, rfl⟩
abbrev main_call111_c_0 : Ref sig .tc := ⟨.hbm, 1652, rfl⟩
abbrev main_call111_v11 : Ref sig .tc := ⟨.hbm, 1653, rfl⟩
abbrev main_call111_v12 : Ref sig .tc := ⟨.hbm, 1654, rfl⟩
abbrev main_v347 : Ref sig .tc := ⟨.hbm, 1655, rfl⟩
abbrev main_c_132 : Ref sig .tc := ⟨.hbm, 1656, rfl⟩
abbrev main_call112_v0 : Ref sig .tc := ⟨.hbm, 1657, rfl⟩
abbrev main_call112_c : Ref sig .tc := ⟨.hbm, 1658, rfl⟩
abbrev main_call112_v1 : Ref sig .tc := ⟨.hbm, 1659, rfl⟩
abbrev main_call112_c_0 : Ref sig .tc := ⟨.hbm, 1660, rfl⟩
abbrev main_call112_v2 : Ref sig .tc := ⟨.hbm, 1661, rfl⟩
abbrev main_call112_v3 : Ref sig .tc := ⟨.hbm, 1662, rfl⟩
abbrev main_call112_v4 : Ref sig .tc := ⟨.hbm, 1663, rfl⟩
abbrev main_call112_c_1 : Ref sig .tc := ⟨.hbm, 1664, rfl⟩
abbrev main_call112_v5 : Ref sig .tc := ⟨.hbm, 1665, rfl⟩
abbrev main_call112_v6 : Ref sig .tc := ⟨.hbm, 1666, rfl⟩
abbrev main_call112_c_2 : Ref sig .tc := ⟨.hbm, 1667, rfl⟩
abbrev main_call112_v7 : Ref sig .tc := ⟨.hbm, 1668, rfl⟩
abbrev main_call112_v8 : Ref sig .tc := ⟨.hbm, 1669, rfl⟩
abbrev main_call112_c_3 : Ref sig .tc := ⟨.hbm, 1670, rfl⟩
abbrev main_call112_v9 : Ref sig .tc := ⟨.hbm, 1671, rfl⟩
abbrev main_call112_v10 : Ref sig .tc := ⟨.hbm, 1672, rfl⟩
abbrev main_call112_v11 : Ref sig .tc := ⟨.hbm, 1673, rfl⟩
abbrev main_call112_v12 : Ref sig .tc := ⟨.hbm, 1674, rfl⟩
abbrev main_call112_v13 : Ref sig .tc := ⟨.hbm, 1675, rfl⟩
abbrev main_call112_v14 : Ref sig .tc := ⟨.hbm, 1676, rfl⟩
abbrev main_v348 : Ref sig .tc := ⟨.hbm, 1677, rfl⟩
abbrev main_call113_c : Ref sig .tc := ⟨.hbm, 1678, rfl⟩
abbrev main_call113_v0 : Ref sig .tc := ⟨.hbm, 1679, rfl⟩
abbrev main_call113_v1 : Ref sig .tc := ⟨.hbm, 1680, rfl⟩
abbrev main_call113_c_0 : Ref sig .tc := ⟨.hbm, 1681, rfl⟩
abbrev main_call113_v2 : Ref sig .tc := ⟨.hbm, 1682, rfl⟩
abbrev main_call113_v3 : Ref sig .tc := ⟨.hbm, 1683, rfl⟩
abbrev main_call113_v4 : Ref sig .tc := ⟨.hbm, 1684, rfl⟩
abbrev main_call113_v5 : Ref sig .tc := ⟨.hbm, 1685, rfl⟩
abbrev main_call113_c_1 : Ref sig .tc := ⟨.hbm, 1686, rfl⟩
abbrev main_call113_c_2 : Ref sig .tc := ⟨.hbm, 1687, rfl⟩
abbrev main_call113_v6 : Ref sig .tc := ⟨.hbm, 1688, rfl⟩
abbrev main_call113_v7 : Ref sig .tc := ⟨.hbm, 1689, rfl⟩
abbrev main_call113_v8 : Ref sig .tc := ⟨.hbm, 1690, rfl⟩
abbrev main_call113_v9 : Ref sig .tc := ⟨.hbm, 1691, rfl⟩
abbrev main_call113_v10 : Ref sig .tc := ⟨.hbm, 1692, rfl⟩
abbrev main_call113_v11 : Ref sig .tc := ⟨.hbm, 1693, rfl⟩
abbrev main_call113_c_3 : Ref sig .tc := ⟨.hbm, 1694, rfl⟩
abbrev main_call113_v12 : Ref sig .tc := ⟨.hbm, 1695, rfl⟩
abbrev main_call113_v13 : Ref sig .tc := ⟨.hbm, 1696, rfl⟩
abbrev main_call113_v14 : Ref sig .tc := ⟨.hbm, 1697, rfl⟩
abbrev main_call113_cst : Ref sig .tc := ⟨.hbm, 1698, rfl⟩
abbrev main_call113_v15 : Ref sig .tc := ⟨.hbm, 1699, rfl⟩
abbrev main_v349 : Ref sig .tc := ⟨.hbm, 1700, rfl⟩
abbrev main_v350 : Ref sig .tc := ⟨.hbm, 1701, rfl⟩
abbrev main_v351 : Ref sig .tc := ⟨.hbm, 1702, rfl⟩
abbrev main_v352 : Ref sig .tc := ⟨.hbm, 1703, rfl⟩
abbrev main_call114_v0 : Ref sig .tc := ⟨.hbm, 1704, rfl⟩
abbrev main_call114_call0_c : Ref sig .tc := ⟨.hbm, 1705, rfl⟩
abbrev main_call114_call0_v0 : Ref sig .tc := ⟨.hbm, 1706, rfl⟩
abbrev main_v353 : Ref sig .tc := ⟨.hbm, 1707, rfl⟩
abbrev main_c_133 : Ref sig .tc := ⟨.hbm, 1708, rfl⟩
abbrev main_v354 : Ref sig .tc := ⟨.hbm, 1709, rfl⟩
abbrev main_c_134 : Ref sig .tc := ⟨.hbm, 1710, rfl⟩
abbrev main_call115_v0 : Ref sig .tc := ⟨.hbm, 1711, rfl⟩
abbrev main_call115_v1 : Ref sig .tc := ⟨.hbm, 1712, rfl⟩
abbrev main_v355 : Ref sig .tc := ⟨.hbm, 1713, rfl⟩
abbrev main_c_135 : Ref sig .tc := ⟨.hbm, 1714, rfl⟩
abbrev main_v356 : Ref sig .tc := ⟨.hbm, 1715, rfl⟩
abbrev main_v357 : Ref sig .tc := ⟨.hbm, 1716, rfl⟩
abbrev main_c_136 : Ref sig .tc := ⟨.hbm, 1717, rfl⟩
abbrev main_v358 : Ref sig .tc := ⟨.hbm, 1718, rfl⟩
abbrev main_v359 : Ref sig .tc := ⟨.hbm, 1719, rfl⟩
abbrev main_v360 : Ref sig .tc := ⟨.hbm, 1720, rfl⟩
abbrev main_v361 : Ref sig .tc := ⟨.hbm, 1721, rfl⟩
abbrev main_c_137 : Ref sig .tc := ⟨.hbm, 1722, rfl⟩
abbrev main_v362 : Ref sig .tc := ⟨.hbm, 1723, rfl⟩
abbrev main_v363 : Ref sig .tc := ⟨.hbm, 1724, rfl⟩
abbrev main_call116_call0_c : Ref sig .tc := ⟨.hbm, 1725, rfl⟩
abbrev main_call116_call0_v0 : Ref sig .tc := ⟨.hbm, 1726, rfl⟩
abbrev main_v364 : Ref sig .tc := ⟨.hbm, 1727, rfl⟩
abbrev main_c_138 : Ref sig .tc := ⟨.hbm, 1728, rfl⟩
abbrev main_call117_v0 : Ref sig .tc := ⟨.hbm, 1729, rfl⟩
abbrev main_call117_v1 : Ref sig .tc := ⟨.hbm, 1730, rfl⟩
abbrev main_call117_v2 : Ref sig .tc := ⟨.hbm, 1731, rfl⟩
abbrev main_call117_v3 : Ref sig .tc := ⟨.hbm, 1732, rfl⟩
abbrev main_call117_v4 : Ref sig .tc := ⟨.hbm, 1733, rfl⟩
abbrev main_call117_v5 : Ref sig .tc := ⟨.hbm, 1734, rfl⟩
abbrev main_call117_v6 : Ref sig .tc := ⟨.hbm, 1735, rfl⟩
abbrev main_call117_v7 : Ref sig .tc := ⟨.hbm, 1736, rfl⟩
abbrev main_call117_c : Ref sig .tc := ⟨.hbm, 1737, rfl⟩
abbrev main_call117_v8 : Ref sig .tc := ⟨.hbm, 1738, rfl⟩
abbrev main_call117_v9 : Ref sig .tc := ⟨.hbm, 1739, rfl⟩
abbrev main_call117_v10 : Ref sig .tc := ⟨.hbm, 1740, rfl⟩
abbrev main_call117_c_0 : Ref sig .tc := ⟨.hbm, 1741, rfl⟩
abbrev main_call117_v11 : Ref sig .tc := ⟨.hbm, 1742, rfl⟩
abbrev main_call117_v12 : Ref sig .tc := ⟨.hbm, 1743, rfl⟩
abbrev main_v365 : Ref sig .tc := ⟨.hbm, 1744, rfl⟩
abbrev main_c_139 : Ref sig .tc := ⟨.hbm, 1745, rfl⟩
abbrev main_call118_v0 : Ref sig .tc := ⟨.hbm, 1746, rfl⟩
abbrev main_call118_c : Ref sig .tc := ⟨.hbm, 1747, rfl⟩
abbrev main_call118_v1 : Ref sig .tc := ⟨.hbm, 1748, rfl⟩
abbrev main_call118_c_0 : Ref sig .tc := ⟨.hbm, 1749, rfl⟩
abbrev main_call118_v2 : Ref sig .tc := ⟨.hbm, 1750, rfl⟩
abbrev main_call118_v3 : Ref sig .tc := ⟨.hbm, 1751, rfl⟩
abbrev main_call118_v4 : Ref sig .tc := ⟨.hbm, 1752, rfl⟩
abbrev main_call118_c_1 : Ref sig .tc := ⟨.hbm, 1753, rfl⟩
abbrev main_call118_v5 : Ref sig .tc := ⟨.hbm, 1754, rfl⟩
abbrev main_call118_v6 : Ref sig .tc := ⟨.hbm, 1755, rfl⟩
abbrev main_call118_c_2 : Ref sig .tc := ⟨.hbm, 1756, rfl⟩
abbrev main_call118_v7 : Ref sig .tc := ⟨.hbm, 1757, rfl⟩
abbrev main_call118_v8 : Ref sig .tc := ⟨.hbm, 1758, rfl⟩
abbrev main_call118_c_3 : Ref sig .tc := ⟨.hbm, 1759, rfl⟩
abbrev main_call118_v9 : Ref sig .tc := ⟨.hbm, 1760, rfl⟩
abbrev main_call118_v10 : Ref sig .tc := ⟨.hbm, 1761, rfl⟩
abbrev main_call118_v11 : Ref sig .tc := ⟨.hbm, 1762, rfl⟩
abbrev main_call118_v12 : Ref sig .tc := ⟨.hbm, 1763, rfl⟩
abbrev main_call118_v13 : Ref sig .tc := ⟨.hbm, 1764, rfl⟩
abbrev main_call118_v14 : Ref sig .tc := ⟨.hbm, 1765, rfl⟩
abbrev main_v366 : Ref sig .tc := ⟨.hbm, 1766, rfl⟩
abbrev main_call119_c : Ref sig .tc := ⟨.hbm, 1767, rfl⟩
abbrev main_call119_v0 : Ref sig .tc := ⟨.hbm, 1768, rfl⟩
abbrev main_call119_v1 : Ref sig .tc := ⟨.hbm, 1769, rfl⟩
abbrev main_call119_c_0 : Ref sig .tc := ⟨.hbm, 1770, rfl⟩
abbrev main_call119_v2 : Ref sig .tc := ⟨.hbm, 1771, rfl⟩
abbrev main_call119_v3 : Ref sig .tc := ⟨.hbm, 1772, rfl⟩
abbrev main_call119_v4 : Ref sig .tc := ⟨.hbm, 1773, rfl⟩
abbrev main_call119_v5 : Ref sig .tc := ⟨.hbm, 1774, rfl⟩
abbrev main_call119_c_1 : Ref sig .tc := ⟨.hbm, 1775, rfl⟩
abbrev main_call119_c_2 : Ref sig .tc := ⟨.hbm, 1776, rfl⟩
abbrev main_call119_v6 : Ref sig .tc := ⟨.hbm, 1777, rfl⟩
abbrev main_call119_v7 : Ref sig .tc := ⟨.hbm, 1778, rfl⟩
abbrev main_call119_v8 : Ref sig .tc := ⟨.hbm, 1779, rfl⟩
abbrev main_call119_v9 : Ref sig .tc := ⟨.hbm, 1780, rfl⟩
abbrev main_call119_v10 : Ref sig .tc := ⟨.hbm, 1781, rfl⟩
abbrev main_call119_v11 : Ref sig .tc := ⟨.hbm, 1782, rfl⟩
abbrev main_call119_c_3 : Ref sig .tc := ⟨.hbm, 1783, rfl⟩
abbrev main_call119_v12 : Ref sig .tc := ⟨.hbm, 1784, rfl⟩
abbrev main_call119_v13 : Ref sig .tc := ⟨.hbm, 1785, rfl⟩
abbrev main_call119_v14 : Ref sig .tc := ⟨.hbm, 1786, rfl⟩
abbrev main_call119_cst : Ref sig .tc := ⟨.hbm, 1787, rfl⟩
abbrev main_call119_v15 : Ref sig .tc := ⟨.hbm, 1788, rfl⟩
abbrev main_v367 : Ref sig .tc := ⟨.hbm, 1789, rfl⟩
abbrev main_v368 : Ref sig .tc := ⟨.hbm, 1790, rfl⟩
abbrev main_v369 : Ref sig .tc := ⟨.hbm, 1791, rfl⟩
abbrev main_v370 : Ref sig .tc := ⟨.hbm, 1792, rfl⟩
abbrev main_call120_v0 : Ref sig .tc := ⟨.hbm, 1793, rfl⟩
abbrev main_call120_call0_c : Ref sig .tc := ⟨.hbm, 1794, rfl⟩
abbrev main_call120_call0_v0 : Ref sig .tc := ⟨.hbm, 1795, rfl⟩
abbrev main_v371 : Ref sig .tc := ⟨.hbm, 1796, rfl⟩
abbrev main_c_140 : Ref sig .tc := ⟨.hbm, 1797, rfl⟩
abbrev main_v372 : Ref sig .tc := ⟨.hbm, 1798, rfl⟩
abbrev main_c_141 : Ref sig .tc := ⟨.hbm, 1799, rfl⟩
abbrev main_call121_v0 : Ref sig .tc := ⟨.hbm, 1800, rfl⟩
abbrev main_call121_v1 : Ref sig .tc := ⟨.hbm, 1801, rfl⟩
abbrev main_v373 : Ref sig .tc := ⟨.hbm, 1802, rfl⟩
abbrev main_c_142 : Ref sig .tc := ⟨.hbm, 1803, rfl⟩
abbrev main_v374 : Ref sig .tc := ⟨.hbm, 1804, rfl⟩
abbrev main_v375 : Ref sig .tc := ⟨.hbm, 1805, rfl⟩
abbrev main_c_143 : Ref sig .tc := ⟨.hbm, 1806, rfl⟩
abbrev main_v376 : Ref sig .tc := ⟨.hbm, 1807, rfl⟩
abbrev main_v377 : Ref sig .tc := ⟨.hbm, 1808, rfl⟩
abbrev main_v378 : Ref sig .tc := ⟨.hbm, 1809, rfl⟩
abbrev main_v379 : Ref sig .tc := ⟨.hbm, 1810, rfl⟩
abbrev main_c_144 : Ref sig .tc := ⟨.hbm, 1811, rfl⟩
abbrev main_v380 : Ref sig .tc := ⟨.hbm, 1812, rfl⟩
abbrev main_v381 : Ref sig .tc := ⟨.hbm, 1813, rfl⟩
abbrev main_call122_call0_c : Ref sig .tc := ⟨.hbm, 1814, rfl⟩
abbrev main_call122_call0_v0 : Ref sig .tc := ⟨.hbm, 1815, rfl⟩
abbrev main_v382 : Ref sig .tc := ⟨.hbm, 1816, rfl⟩
abbrev main_c_145 : Ref sig .tc := ⟨.hbm, 1817, rfl⟩
abbrev main_call123_v0 : Ref sig .tc := ⟨.hbm, 1818, rfl⟩
abbrev main_call123_v1 : Ref sig .tc := ⟨.hbm, 1819, rfl⟩
abbrev main_call123_v2 : Ref sig .tc := ⟨.hbm, 1820, rfl⟩
abbrev main_call123_v3 : Ref sig .tc := ⟨.hbm, 1821, rfl⟩
abbrev main_call123_v4 : Ref sig .tc := ⟨.hbm, 1822, rfl⟩
abbrev main_call123_v5 : Ref sig .tc := ⟨.hbm, 1823, rfl⟩
abbrev main_call123_v6 : Ref sig .tc := ⟨.hbm, 1824, rfl⟩
abbrev main_call123_v7 : Ref sig .tc := ⟨.hbm, 1825, rfl⟩
abbrev main_call123_c : Ref sig .tc := ⟨.hbm, 1826, rfl⟩
abbrev main_call123_v8 : Ref sig .tc := ⟨.hbm, 1827, rfl⟩
abbrev main_call123_v9 : Ref sig .tc := ⟨.hbm, 1828, rfl⟩
abbrev main_call123_v10 : Ref sig .tc := ⟨.hbm, 1829, rfl⟩
abbrev main_call123_c_0 : Ref sig .tc := ⟨.hbm, 1830, rfl⟩
abbrev main_call123_v11 : Ref sig .tc := ⟨.hbm, 1831, rfl⟩
abbrev main_call123_v12 : Ref sig .tc := ⟨.hbm, 1832, rfl⟩
abbrev main_v383 : Ref sig .tc := ⟨.hbm, 1833, rfl⟩
abbrev main_c_146 : Ref sig .tc := ⟨.hbm, 1834, rfl⟩
abbrev main_call124_v0 : Ref sig .tc := ⟨.hbm, 1835, rfl⟩
abbrev main_call124_c : Ref sig .tc := ⟨.hbm, 1836, rfl⟩
abbrev main_call124_v1 : Ref sig .tc := ⟨.hbm, 1837, rfl⟩
abbrev main_call124_c_0 : Ref sig .tc := ⟨.hbm, 1838, rfl⟩
abbrev main_call124_v2 : Ref sig .tc := ⟨.hbm, 1839, rfl⟩
abbrev main_call124_v3 : Ref sig .tc := ⟨.hbm, 1840, rfl⟩
abbrev main_call124_v4 : Ref sig .tc := ⟨.hbm, 1841, rfl⟩
abbrev main_call124_c_1 : Ref sig .tc := ⟨.hbm, 1842, rfl⟩
abbrev main_call124_v5 : Ref sig .tc := ⟨.hbm, 1843, rfl⟩
abbrev main_call124_v6 : Ref sig .tc := ⟨.hbm, 1844, rfl⟩
abbrev main_call124_c_2 : Ref sig .tc := ⟨.hbm, 1845, rfl⟩
abbrev main_call124_v7 : Ref sig .tc := ⟨.hbm, 1846, rfl⟩
abbrev main_call124_v8 : Ref sig .tc := ⟨.hbm, 1847, rfl⟩
abbrev main_call124_c_3 : Ref sig .tc := ⟨.hbm, 1848, rfl⟩
abbrev main_call124_v9 : Ref sig .tc := ⟨.hbm, 1849, rfl⟩
abbrev main_call124_v10 : Ref sig .tc := ⟨.hbm, 1850, rfl⟩
abbrev main_call124_v11 : Ref sig .tc := ⟨.hbm, 1851, rfl⟩
abbrev main_call124_v12 : Ref sig .tc := ⟨.hbm, 1852, rfl⟩
abbrev main_call124_v13 : Ref sig .tc := ⟨.hbm, 1853, rfl⟩
abbrev main_call124_v14 : Ref sig .tc := ⟨.hbm, 1854, rfl⟩
abbrev main_v384 : Ref sig .tc := ⟨.hbm, 1855, rfl⟩
abbrev main_call125_c : Ref sig .tc := ⟨.hbm, 1856, rfl⟩
abbrev main_call125_v0 : Ref sig .tc := ⟨.hbm, 1857, rfl⟩
abbrev main_call125_v1 : Ref sig .tc := ⟨.hbm, 1858, rfl⟩
abbrev main_call125_c_0 : Ref sig .tc := ⟨.hbm, 1859, rfl⟩
abbrev main_call125_v2 : Ref sig .tc := ⟨.hbm, 1860, rfl⟩
abbrev main_call125_v3 : Ref sig .tc := ⟨.hbm, 1861, rfl⟩
abbrev main_call125_v4 : Ref sig .tc := ⟨.hbm, 1862, rfl⟩
abbrev main_call125_v5 : Ref sig .tc := ⟨.hbm, 1863, rfl⟩
abbrev main_call125_c_1 : Ref sig .tc := ⟨.hbm, 1864, rfl⟩
abbrev main_call125_c_2 : Ref sig .tc := ⟨.hbm, 1865, rfl⟩
abbrev main_call125_v6 : Ref sig .tc := ⟨.hbm, 1866, rfl⟩
abbrev main_call125_v7 : Ref sig .tc := ⟨.hbm, 1867, rfl⟩
abbrev main_call125_v8 : Ref sig .tc := ⟨.hbm, 1868, rfl⟩
abbrev main_call125_v9 : Ref sig .tc := ⟨.hbm, 1869, rfl⟩
abbrev main_call125_v10 : Ref sig .tc := ⟨.hbm, 1870, rfl⟩
abbrev main_call125_v11 : Ref sig .tc := ⟨.hbm, 1871, rfl⟩
abbrev main_call125_c_3 : Ref sig .tc := ⟨.hbm, 1872, rfl⟩
abbrev main_call125_v12 : Ref sig .tc := ⟨.hbm, 1873, rfl⟩
abbrev main_call125_v13 : Ref sig .tc := ⟨.hbm, 1874, rfl⟩
abbrev main_call125_v14 : Ref sig .tc := ⟨.hbm, 1875, rfl⟩
abbrev main_call125_cst : Ref sig .tc := ⟨.hbm, 1876, rfl⟩
abbrev main_call125_v15 : Ref sig .tc := ⟨.hbm, 1877, rfl⟩
abbrev main_v385 : Ref sig .tc := ⟨.hbm, 1878, rfl⟩
abbrev main_v386 : Ref sig .tc := ⟨.hbm, 1879, rfl⟩
abbrev main_v387 : Ref sig .tc := ⟨.hbm, 1880, rfl⟩
abbrev main_v388 : Ref sig .tc := ⟨.hbm, 1881, rfl⟩
abbrev main_call126_v0 : Ref sig .tc := ⟨.hbm, 1882, rfl⟩
abbrev main_call126_call0_c : Ref sig .tc := ⟨.hbm, 1883, rfl⟩
abbrev main_call126_call0_v0 : Ref sig .tc := ⟨.hbm, 1884, rfl⟩
abbrev main_v389 : Ref sig .tc := ⟨.hbm, 1885, rfl⟩
abbrev main_c_147 : Ref sig .tc := ⟨.hbm, 1886, rfl⟩
abbrev main_v390 : Ref sig .tc := ⟨.hbm, 1887, rfl⟩
abbrev main_c_148 : Ref sig .tc := ⟨.hbm, 1888, rfl⟩
abbrev main_call127_v0 : Ref sig .tc := ⟨.hbm, 1889, rfl⟩
abbrev main_call127_v1 : Ref sig .tc := ⟨.hbm, 1890, rfl⟩
abbrev main_v391 : Ref sig .tc := ⟨.hbm, 1891, rfl⟩
abbrev main_c_149 : Ref sig .tc := ⟨.hbm, 1892, rfl⟩
abbrev main_v392 : Ref sig .tc := ⟨.hbm, 1893, rfl⟩
abbrev main_v393 : Ref sig .tc := ⟨.hbm, 1894, rfl⟩
abbrev main_c_150 : Ref sig .tc := ⟨.hbm, 1895, rfl⟩
abbrev main_v394 : Ref sig .tc := ⟨.hbm, 1896, rfl⟩
abbrev main_v395 : Ref sig .tc := ⟨.hbm, 1897, rfl⟩
abbrev main_v396 : Ref sig .tc := ⟨.hbm, 1898, rfl⟩
abbrev main_v397 : Ref sig .tc := ⟨.hbm, 1899, rfl⟩
abbrev main_c_151 : Ref sig .tc := ⟨.hbm, 1900, rfl⟩
abbrev main_v398 : Ref sig .tc := ⟨.hbm, 1901, rfl⟩
abbrev main_v399 : Ref sig .tc := ⟨.hbm, 1902, rfl⟩
abbrev main_call128_call0_c : Ref sig .tc := ⟨.hbm, 1903, rfl⟩
abbrev main_call128_call0_v0 : Ref sig .tc := ⟨.hbm, 1904, rfl⟩
abbrev main_v400 : Ref sig .tc := ⟨.hbm, 1905, rfl⟩
abbrev main_c_152 : Ref sig .tc := ⟨.hbm, 1906, rfl⟩
abbrev main_call129_v0 : Ref sig .tc := ⟨.hbm, 1907, rfl⟩
abbrev main_call129_v1 : Ref sig .tc := ⟨.hbm, 1908, rfl⟩
abbrev main_call129_v2 : Ref sig .tc := ⟨.hbm, 1909, rfl⟩
abbrev main_call129_v3 : Ref sig .tc := ⟨.hbm, 1910, rfl⟩
abbrev main_call129_v4 : Ref sig .tc := ⟨.hbm, 1911, rfl⟩
abbrev main_call129_v5 : Ref sig .tc := ⟨.hbm, 1912, rfl⟩
abbrev main_call129_v6 : Ref sig .tc := ⟨.hbm, 1913, rfl⟩
abbrev main_call129_v7 : Ref sig .tc := ⟨.hbm, 1914, rfl⟩
abbrev main_call129_c : Ref sig .tc := ⟨.hbm, 1915, rfl⟩
abbrev main_call129_v8 : Ref sig .tc := ⟨.hbm, 1916, rfl⟩
abbrev main_call129_v9 : Ref sig .tc := ⟨.hbm, 1917, rfl⟩
abbrev main_call129_v10 : Ref sig .tc := ⟨.hbm, 1918, rfl⟩
abbrev main_call129_c_0 : Ref sig .tc := ⟨.hbm, 1919, rfl⟩
abbrev main_call129_v11 : Ref sig .tc := ⟨.hbm, 1920, rfl⟩
abbrev main_call129_v12 : Ref sig .tc := ⟨.hbm, 1921, rfl⟩
abbrev main_v401 : Ref sig .tc := ⟨.hbm, 1922, rfl⟩
abbrev main_c_153 : Ref sig .tc := ⟨.hbm, 1923, rfl⟩
abbrev main_call130_v0 : Ref sig .tc := ⟨.hbm, 1924, rfl⟩
abbrev main_call130_c : Ref sig .tc := ⟨.hbm, 1925, rfl⟩
abbrev main_call130_v1 : Ref sig .tc := ⟨.hbm, 1926, rfl⟩
abbrev main_call130_c_0 : Ref sig .tc := ⟨.hbm, 1927, rfl⟩
abbrev main_call130_v2 : Ref sig .tc := ⟨.hbm, 1928, rfl⟩
abbrev main_call130_v3 : Ref sig .tc := ⟨.hbm, 1929, rfl⟩
abbrev main_call130_v4 : Ref sig .tc := ⟨.hbm, 1930, rfl⟩
abbrev main_call130_c_1 : Ref sig .tc := ⟨.hbm, 1931, rfl⟩
abbrev main_call130_v5 : Ref sig .tc := ⟨.hbm, 1932, rfl⟩
abbrev main_call130_v6 : Ref sig .tc := ⟨.hbm, 1933, rfl⟩
abbrev main_call130_c_2 : Ref sig .tc := ⟨.hbm, 1934, rfl⟩
abbrev main_call130_v7 : Ref sig .tc := ⟨.hbm, 1935, rfl⟩
abbrev main_call130_v8 : Ref sig .tc := ⟨.hbm, 1936, rfl⟩
abbrev main_call130_c_3 : Ref sig .tc := ⟨.hbm, 1937, rfl⟩
abbrev main_call130_v9 : Ref sig .tc := ⟨.hbm, 1938, rfl⟩
abbrev main_call130_v10 : Ref sig .tc := ⟨.hbm, 1939, rfl⟩
abbrev main_call130_v11 : Ref sig .tc := ⟨.hbm, 1940, rfl⟩
abbrev main_call130_v12 : Ref sig .tc := ⟨.hbm, 1941, rfl⟩
abbrev main_call130_v13 : Ref sig .tc := ⟨.hbm, 1942, rfl⟩
abbrev main_call130_v14 : Ref sig .tc := ⟨.hbm, 1943, rfl⟩
abbrev main_v402 : Ref sig .tc := ⟨.hbm, 1944, rfl⟩
abbrev main_call131_c : Ref sig .tc := ⟨.hbm, 1945, rfl⟩
abbrev main_call131_v0 : Ref sig .tc := ⟨.hbm, 1946, rfl⟩
abbrev main_call131_v1 : Ref sig .tc := ⟨.hbm, 1947, rfl⟩
abbrev main_call131_c_0 : Ref sig .tc := ⟨.hbm, 1948, rfl⟩
abbrev main_call131_v2 : Ref sig .tc := ⟨.hbm, 1949, rfl⟩
abbrev main_call131_v3 : Ref sig .tc := ⟨.hbm, 1950, rfl⟩
abbrev main_call131_v4 : Ref sig .tc := ⟨.hbm, 1951, rfl⟩
abbrev main_call131_v5 : Ref sig .tc := ⟨.hbm, 1952, rfl⟩
abbrev main_call131_c_1 : Ref sig .tc := ⟨.hbm, 1953, rfl⟩
abbrev main_call131_c_2 : Ref sig .tc := ⟨.hbm, 1954, rfl⟩
abbrev main_call131_v6 : Ref sig .tc := ⟨.hbm, 1955, rfl⟩
abbrev main_call131_v7 : Ref sig .tc := ⟨.hbm, 1956, rfl⟩
abbrev main_call131_v8 : Ref sig .tc := ⟨.hbm, 1957, rfl⟩
abbrev main_call131_v9 : Ref sig .tc := ⟨.hbm, 1958, rfl⟩
abbrev main_call131_v10 : Ref sig .tc := ⟨.hbm, 1959, rfl⟩
abbrev main_call131_v11 : Ref sig .tc := ⟨.hbm, 1960, rfl⟩
abbrev main_call131_c_3 : Ref sig .tc := ⟨.hbm, 1961, rfl⟩
abbrev main_call131_v12 : Ref sig .tc := ⟨.hbm, 1962, rfl⟩
abbrev main_call131_v13 : Ref sig .tc := ⟨.hbm, 1963, rfl⟩
abbrev main_call131_v14 : Ref sig .tc := ⟨.hbm, 1964, rfl⟩
abbrev main_call131_cst : Ref sig .tc := ⟨.hbm, 1965, rfl⟩
abbrev main_call131_v15 : Ref sig .tc := ⟨.hbm, 1966, rfl⟩
abbrev main_v403 : Ref sig .tc := ⟨.hbm, 1967, rfl⟩
abbrev main_v404 : Ref sig .tc := ⟨.hbm, 1968, rfl⟩
abbrev main_v405 : Ref sig .tc := ⟨.hbm, 1969, rfl⟩
abbrev main_v406 : Ref sig .tc := ⟨.hbm, 1970, rfl⟩
abbrev main_call132_v0 : Ref sig .tc := ⟨.hbm, 1971, rfl⟩
abbrev main_call132_call0_c : Ref sig .tc := ⟨.hbm, 1972, rfl⟩
abbrev main_call132_call0_v0 : Ref sig .tc := ⟨.hbm, 1973, rfl⟩
abbrev main_v407 : Ref sig .tc := ⟨.hbm, 1974, rfl⟩
abbrev main_c_154 : Ref sig .tc := ⟨.hbm, 1975, rfl⟩
abbrev main_v408 : Ref sig .tc := ⟨.hbm, 1976, rfl⟩
abbrev main_c_155 : Ref sig .tc := ⟨.hbm, 1977, rfl⟩
abbrev main_call133_v0 : Ref sig .tc := ⟨.hbm, 1978, rfl⟩
abbrev main_call133_v1 : Ref sig .tc := ⟨.hbm, 1979, rfl⟩
abbrev main_v409 : Ref sig .tc := ⟨.hbm, 1980, rfl⟩
abbrev main_c_156 : Ref sig .tc := ⟨.hbm, 1981, rfl⟩
abbrev main_v410 : Ref sig .tc := ⟨.hbm, 1982, rfl⟩
abbrev main_v411 : Ref sig .tc := ⟨.hbm, 1983, rfl⟩
abbrev main_c_157 : Ref sig .tc := ⟨.hbm, 1984, rfl⟩
abbrev main_v412 : Ref sig .tc := ⟨.hbm, 1985, rfl⟩
abbrev main_v413 : Ref sig .tc := ⟨.hbm, 1986, rfl⟩
abbrev main_v414 : Ref sig .tc := ⟨.hbm, 1987, rfl⟩
abbrev main_v415 : Ref sig .tc := ⟨.hbm, 1988, rfl⟩
abbrev main_c_158 : Ref sig .tc := ⟨.hbm, 1989, rfl⟩
abbrev main_v416 : Ref sig .tc := ⟨.hbm, 1990, rfl⟩
abbrev main_v417 : Ref sig .tc := ⟨.hbm, 1991, rfl⟩
abbrev main_call134_call0_c : Ref sig .tc := ⟨.hbm, 1992, rfl⟩
abbrev main_call134_call0_v0 : Ref sig .tc := ⟨.hbm, 1993, rfl⟩
abbrev main_v418 : Ref sig .tc := ⟨.hbm, 1994, rfl⟩
abbrev main_c_159 : Ref sig .tc := ⟨.hbm, 1995, rfl⟩
abbrev main_call135_v0 : Ref sig .tc := ⟨.hbm, 1996, rfl⟩
abbrev main_call135_v1 : Ref sig .tc := ⟨.hbm, 1997, rfl⟩
abbrev main_call135_v2 : Ref sig .tc := ⟨.hbm, 1998, rfl⟩
abbrev main_call135_v3 : Ref sig .tc := ⟨.hbm, 1999, rfl⟩
abbrev main_call135_v4 : Ref sig .tc := ⟨.hbm, 2000, rfl⟩
abbrev main_call135_v5 : Ref sig .tc := ⟨.hbm, 2001, rfl⟩
abbrev main_call135_v6 : Ref sig .tc := ⟨.hbm, 2002, rfl⟩
abbrev main_call135_v7 : Ref sig .tc := ⟨.hbm, 2003, rfl⟩
abbrev main_call135_c : Ref sig .tc := ⟨.hbm, 2004, rfl⟩
abbrev main_call135_v8 : Ref sig .tc := ⟨.hbm, 2005, rfl⟩
abbrev main_call135_v9 : Ref sig .tc := ⟨.hbm, 2006, rfl⟩
abbrev main_call135_v10 : Ref sig .tc := ⟨.hbm, 2007, rfl⟩
abbrev main_call135_c_0 : Ref sig .tc := ⟨.hbm, 2008, rfl⟩
abbrev main_call135_v11 : Ref sig .tc := ⟨.hbm, 2009, rfl⟩
abbrev main_call135_v12 : Ref sig .tc := ⟨.hbm, 2010, rfl⟩
abbrev main_v419 : Ref sig .tc := ⟨.hbm, 2011, rfl⟩
abbrev main_c_160 : Ref sig .tc := ⟨.hbm, 2012, rfl⟩
abbrev main_call136_v0 : Ref sig .tc := ⟨.hbm, 2013, rfl⟩
abbrev main_call136_c : Ref sig .tc := ⟨.hbm, 2014, rfl⟩
abbrev main_call136_v1 : Ref sig .tc := ⟨.hbm, 2015, rfl⟩
abbrev main_call136_c_0 : Ref sig .tc := ⟨.hbm, 2016, rfl⟩
abbrev main_call136_v2 : Ref sig .tc := ⟨.hbm, 2017, rfl⟩
abbrev main_call136_v3 : Ref sig .tc := ⟨.hbm, 2018, rfl⟩
abbrev main_call136_v4 : Ref sig .tc := ⟨.hbm, 2019, rfl⟩
abbrev main_call136_c_1 : Ref sig .tc := ⟨.hbm, 2020, rfl⟩
abbrev main_call136_v5 : Ref sig .tc := ⟨.hbm, 2021, rfl⟩
abbrev main_call136_v6 : Ref sig .tc := ⟨.hbm, 2022, rfl⟩
abbrev main_call136_c_2 : Ref sig .tc := ⟨.hbm, 2023, rfl⟩
abbrev main_call136_v7 : Ref sig .tc := ⟨.hbm, 2024, rfl⟩
abbrev main_call136_v8 : Ref sig .tc := ⟨.hbm, 2025, rfl⟩
abbrev main_call136_c_3 : Ref sig .tc := ⟨.hbm, 2026, rfl⟩
abbrev main_call136_v9 : Ref sig .tc := ⟨.hbm, 2027, rfl⟩
abbrev main_call136_v10 : Ref sig .tc := ⟨.hbm, 2028, rfl⟩
abbrev main_call136_v11 : Ref sig .tc := ⟨.hbm, 2029, rfl⟩
abbrev main_call136_v12 : Ref sig .tc := ⟨.hbm, 2030, rfl⟩
abbrev main_call136_v13 : Ref sig .tc := ⟨.hbm, 2031, rfl⟩
abbrev main_call136_v14 : Ref sig .tc := ⟨.hbm, 2032, rfl⟩
abbrev main_v420 : Ref sig .tc := ⟨.hbm, 2033, rfl⟩
abbrev main_call137_c : Ref sig .tc := ⟨.hbm, 2034, rfl⟩
abbrev main_call137_v0 : Ref sig .tc := ⟨.hbm, 2035, rfl⟩
abbrev main_call137_v1 : Ref sig .tc := ⟨.hbm, 2036, rfl⟩
abbrev main_call137_c_0 : Ref sig .tc := ⟨.hbm, 2037, rfl⟩
abbrev main_call137_v2 : Ref sig .tc := ⟨.hbm, 2038, rfl⟩
abbrev main_call137_v3 : Ref sig .tc := ⟨.hbm, 2039, rfl⟩
abbrev main_call137_v4 : Ref sig .tc := ⟨.hbm, 2040, rfl⟩
abbrev main_call137_v5 : Ref sig .tc := ⟨.hbm, 2041, rfl⟩
abbrev main_call137_c_1 : Ref sig .tc := ⟨.hbm, 2042, rfl⟩
abbrev main_call137_c_2 : Ref sig .tc := ⟨.hbm, 2043, rfl⟩
abbrev main_call137_v6 : Ref sig .tc := ⟨.hbm, 2044, rfl⟩
abbrev main_call137_v7 : Ref sig .tc := ⟨.hbm, 2045, rfl⟩
abbrev main_call137_v8 : Ref sig .tc := ⟨.hbm, 2046, rfl⟩
abbrev main_call137_v9 : Ref sig .tc := ⟨.hbm, 2047, rfl⟩
abbrev main_call137_v10 : Ref sig .tc := ⟨.hbm, 2048, rfl⟩
abbrev main_call137_v11 : Ref sig .tc := ⟨.hbm, 2049, rfl⟩
abbrev main_call137_c_3 : Ref sig .tc := ⟨.hbm, 2050, rfl⟩
abbrev main_call137_v12 : Ref sig .tc := ⟨.hbm, 2051, rfl⟩
abbrev main_call137_v13 : Ref sig .tc := ⟨.hbm, 2052, rfl⟩
abbrev main_call137_v14 : Ref sig .tc := ⟨.hbm, 2053, rfl⟩
abbrev main_call137_cst : Ref sig .tc := ⟨.hbm, 2054, rfl⟩
abbrev main_call137_v15 : Ref sig .tc := ⟨.hbm, 2055, rfl⟩
abbrev main_v421 : Ref sig .tc := ⟨.hbm, 2056, rfl⟩
abbrev main_v422 : Ref sig .tc := ⟨.hbm, 2057, rfl⟩
abbrev main_v423 : Ref sig .tc := ⟨.hbm, 2058, rfl⟩
abbrev main_v424 : Ref sig .tc := ⟨.hbm, 2059, rfl⟩
abbrev main_call138_v0 : Ref sig .tc := ⟨.hbm, 2060, rfl⟩
abbrev main_call138_call0_c : Ref sig .tc := ⟨.hbm, 2061, rfl⟩
abbrev main_call138_call0_v0 : Ref sig .tc := ⟨.hbm, 2062, rfl⟩
abbrev main_v425 : Ref sig .tc := ⟨.hbm, 2063, rfl⟩
abbrev main_c_161 : Ref sig .tc := ⟨.hbm, 2064, rfl⟩
abbrev main_v426 : Ref sig .tc := ⟨.hbm, 2065, rfl⟩
abbrev main_c_162 : Ref sig .tc := ⟨.hbm, 2066, rfl⟩
abbrev main_call139_v0 : Ref sig .tc := ⟨.hbm, 2067, rfl⟩
abbrev main_call139_v1 : Ref sig .tc := ⟨.hbm, 2068, rfl⟩
abbrev main_v427 : Ref sig .tc := ⟨.hbm, 2069, rfl⟩
abbrev main_c_163 : Ref sig .tc := ⟨.hbm, 2070, rfl⟩
abbrev main_v428 : Ref sig .tc := ⟨.hbm, 2071, rfl⟩
abbrev main_v429 : Ref sig .tc := ⟨.hbm, 2072, rfl⟩
abbrev main_c_164 : Ref sig .tc := ⟨.hbm, 2073, rfl⟩
abbrev main_v430 : Ref sig .tc := ⟨.hbm, 2074, rfl⟩
abbrev main_v431 : Ref sig .tc := ⟨.hbm, 2075, rfl⟩
abbrev main_v432 : Ref sig .tc := ⟨.hbm, 2076, rfl⟩
abbrev main_v433 : Ref sig .tc := ⟨.hbm, 2077, rfl⟩
abbrev main_c_165 : Ref sig .tc := ⟨.hbm, 2078, rfl⟩
abbrev main_v434 : Ref sig .tc := ⟨.hbm, 2079, rfl⟩
abbrev main_v435 : Ref sig .tc := ⟨.hbm, 2080, rfl⟩
abbrev main_call140_call0_c : Ref sig .tc := ⟨.hbm, 2081, rfl⟩
abbrev main_call140_call0_v0 : Ref sig .tc := ⟨.hbm, 2082, rfl⟩
abbrev main_v436 : Ref sig .tc := ⟨.hbm, 2083, rfl⟩
abbrev main_c_166 : Ref sig .tc := ⟨.hbm, 2084, rfl⟩
abbrev main_call141_v0 : Ref sig .tc := ⟨.hbm, 2085, rfl⟩
abbrev main_call141_v1 : Ref sig .tc := ⟨.hbm, 2086, rfl⟩
abbrev main_call141_v2 : Ref sig .tc := ⟨.hbm, 2087, rfl⟩
abbrev main_call141_v3 : Ref sig .tc := ⟨.hbm, 2088, rfl⟩
abbrev main_call141_v4 : Ref sig .tc := ⟨.hbm, 2089, rfl⟩
abbrev main_call141_v5 : Ref sig .tc := ⟨.hbm, 2090, rfl⟩
abbrev main_call141_v6 : Ref sig .tc := ⟨.hbm, 2091, rfl⟩
abbrev main_call141_v7 : Ref sig .tc := ⟨.hbm, 2092, rfl⟩
abbrev main_call141_c : Ref sig .tc := ⟨.hbm, 2093, rfl⟩
abbrev main_call141_v8 : Ref sig .tc := ⟨.hbm, 2094, rfl⟩
abbrev main_call141_v9 : Ref sig .tc := ⟨.hbm, 2095, rfl⟩
abbrev main_call141_v10 : Ref sig .tc := ⟨.hbm, 2096, rfl⟩
abbrev main_call141_c_0 : Ref sig .tc := ⟨.hbm, 2097, rfl⟩
abbrev main_call141_v11 : Ref sig .tc := ⟨.hbm, 2098, rfl⟩
abbrev main_call141_v12 : Ref sig .tc := ⟨.hbm, 2099, rfl⟩
abbrev main_v437 : Ref sig .tc := ⟨.hbm, 2100, rfl⟩
abbrev main_c_167 : Ref sig .tc := ⟨.hbm, 2101, rfl⟩
abbrev main_call142_v0 : Ref sig .tc := ⟨.hbm, 2102, rfl⟩
abbrev main_call142_c : Ref sig .tc := ⟨.hbm, 2103, rfl⟩
abbrev main_call142_v1 : Ref sig .tc := ⟨.hbm, 2104, rfl⟩
abbrev main_call142_c_0 : Ref sig .tc := ⟨.hbm, 2105, rfl⟩
abbrev main_call142_v2 : Ref sig .tc := ⟨.hbm, 2106, rfl⟩
abbrev main_call142_v3 : Ref sig .tc := ⟨.hbm, 2107, rfl⟩
abbrev main_call142_v4 : Ref sig .tc := ⟨.hbm, 2108, rfl⟩
abbrev main_call142_c_1 : Ref sig .tc := ⟨.hbm, 2109, rfl⟩
abbrev main_call142_v5 : Ref sig .tc := ⟨.hbm, 2110, rfl⟩
abbrev main_call142_v6 : Ref sig .tc := ⟨.hbm, 2111, rfl⟩
abbrev main_call142_c_2 : Ref sig .tc := ⟨.hbm, 2112, rfl⟩
abbrev main_call142_v7 : Ref sig .tc := ⟨.hbm, 2113, rfl⟩
abbrev main_call142_v8 : Ref sig .tc := ⟨.hbm, 2114, rfl⟩
abbrev main_call142_c_3 : Ref sig .tc := ⟨.hbm, 2115, rfl⟩
abbrev main_call142_v9 : Ref sig .tc := ⟨.hbm, 2116, rfl⟩
abbrev main_call142_v10 : Ref sig .tc := ⟨.hbm, 2117, rfl⟩
abbrev main_call142_v11 : Ref sig .tc := ⟨.hbm, 2118, rfl⟩
abbrev main_call142_v12 : Ref sig .tc := ⟨.hbm, 2119, rfl⟩
abbrev main_call142_v13 : Ref sig .tc := ⟨.hbm, 2120, rfl⟩
abbrev main_call142_v14 : Ref sig .tc := ⟨.hbm, 2121, rfl⟩
abbrev main_v438 : Ref sig .tc := ⟨.hbm, 2122, rfl⟩
abbrev main_call143_c : Ref sig .tc := ⟨.hbm, 2123, rfl⟩
abbrev main_call143_v0 : Ref sig .tc := ⟨.hbm, 2124, rfl⟩
abbrev main_call143_v1 : Ref sig .tc := ⟨.hbm, 2125, rfl⟩
abbrev main_call143_c_0 : Ref sig .tc := ⟨.hbm, 2126, rfl⟩
abbrev main_call143_v2 : Ref sig .tc := ⟨.hbm, 2127, rfl⟩
abbrev main_call143_v3 : Ref sig .tc := ⟨.hbm, 2128, rfl⟩
abbrev main_call143_v4 : Ref sig .tc := ⟨.hbm, 2129, rfl⟩
abbrev main_call143_v5 : Ref sig .tc := ⟨.hbm, 2130, rfl⟩
abbrev main_call143_c_1 : Ref sig .tc := ⟨.hbm, 2131, rfl⟩
abbrev main_call143_c_2 : Ref sig .tc := ⟨.hbm, 2132, rfl⟩
abbrev main_call143_v6 : Ref sig .tc := ⟨.hbm, 2133, rfl⟩
abbrev main_call143_v7 : Ref sig .tc := ⟨.hbm, 2134, rfl⟩
abbrev main_call143_v8 : Ref sig .tc := ⟨.hbm, 2135, rfl⟩
abbrev main_call143_v9 : Ref sig .tc := ⟨.hbm, 2136, rfl⟩
abbrev main_call143_v10 : Ref sig .tc := ⟨.hbm, 2137, rfl⟩
abbrev main_call143_v11 : Ref sig .tc := ⟨.hbm, 2138, rfl⟩
abbrev main_call143_c_3 : Ref sig .tc := ⟨.hbm, 2139, rfl⟩
abbrev main_call143_v12 : Ref sig .tc := ⟨.hbm, 2140, rfl⟩
abbrev main_call143_v13 : Ref sig .tc := ⟨.hbm, 2141, rfl⟩
abbrev main_call143_v14 : Ref sig .tc := ⟨.hbm, 2142, rfl⟩
abbrev main_call143_cst : Ref sig .tc := ⟨.hbm, 2143, rfl⟩
abbrev main_call143_v15 : Ref sig .tc := ⟨.hbm, 2144, rfl⟩
abbrev main_v439 : Ref sig .tc := ⟨.hbm, 2145, rfl⟩
abbrev main_v440 : Ref sig .tc := ⟨.hbm, 2146, rfl⟩
abbrev main_v441 : Ref sig .tc := ⟨.hbm, 2147, rfl⟩
abbrev main_v442 : Ref sig .tc := ⟨.hbm, 2148, rfl⟩
abbrev main_call144_v0 : Ref sig .tc := ⟨.hbm, 2149, rfl⟩
abbrev main_call144_call0_c : Ref sig .tc := ⟨.hbm, 2150, rfl⟩
abbrev main_call144_call0_v0 : Ref sig .tc := ⟨.hbm, 2151, rfl⟩
abbrev main_v443 : Ref sig .tc := ⟨.hbm, 2152, rfl⟩
abbrev main_c_168 : Ref sig .tc := ⟨.hbm, 2153, rfl⟩
abbrev main_v444 : Ref sig .tc := ⟨.hbm, 2154, rfl⟩
abbrev main_c_169 : Ref sig .tc := ⟨.hbm, 2155, rfl⟩
abbrev main_call145_v0 : Ref sig .tc := ⟨.hbm, 2156, rfl⟩
abbrev main_call145_v1 : Ref sig .tc := ⟨.hbm, 2157, rfl⟩
abbrev main_v445 : Ref sig .tc := ⟨.hbm, 2158, rfl⟩
abbrev main_c_170 : Ref sig .tc := ⟨.hbm, 2159, rfl⟩
abbrev main_v446 : Ref sig .tc := ⟨.hbm, 2160, rfl⟩
abbrev main_v447 : Ref sig .tc := ⟨.hbm, 2161, rfl⟩
abbrev main_c_171 : Ref sig .tc := ⟨.hbm, 2162, rfl⟩
abbrev main_v448 : Ref sig .tc := ⟨.hbm, 2163, rfl⟩
abbrev main_v449 : Ref sig .tc := ⟨.hbm, 2164, rfl⟩
abbrev main_v450 : Ref sig .tc := ⟨.hbm, 2165, rfl⟩
abbrev main_v451 : Ref sig .tc := ⟨.hbm, 2166, rfl⟩
abbrev main_c_172 : Ref sig .tc := ⟨.hbm, 2167, rfl⟩
abbrev main_v452 : Ref sig .tc := ⟨.hbm, 2168, rfl⟩
abbrev main_v453 : Ref sig .tc := ⟨.hbm, 2169, rfl⟩
abbrev main_call146_call0_c : Ref sig .tc := ⟨.hbm, 2170, rfl⟩
abbrev main_call146_call0_v0 : Ref sig .tc := ⟨.hbm, 2171, rfl⟩
abbrev main_v454 : Ref sig .tc := ⟨.hbm, 2172, rfl⟩
abbrev main_c_173 : Ref sig .tc := ⟨.hbm, 2173, rfl⟩
abbrev main_call147_v0 : Ref sig .tc := ⟨.hbm, 2174, rfl⟩
abbrev main_call147_v1 : Ref sig .tc := ⟨.hbm, 2175, rfl⟩
abbrev main_call147_v2 : Ref sig .tc := ⟨.hbm, 2176, rfl⟩
abbrev main_call147_v3 : Ref sig .tc := ⟨.hbm, 2177, rfl⟩
abbrev main_call147_v4 : Ref sig .tc := ⟨.hbm, 2178, rfl⟩
abbrev main_call147_v5 : Ref sig .tc := ⟨.hbm, 2179, rfl⟩
abbrev main_call147_v6 : Ref sig .tc := ⟨.hbm, 2180, rfl⟩
abbrev main_call147_v7 : Ref sig .tc := ⟨.hbm, 2181, rfl⟩
abbrev main_call147_c : Ref sig .tc := ⟨.hbm, 2182, rfl⟩
abbrev main_call147_v8 : Ref sig .tc := ⟨.hbm, 2183, rfl⟩
abbrev main_call147_v9 : Ref sig .tc := ⟨.hbm, 2184, rfl⟩
abbrev main_call147_v10 : Ref sig .tc := ⟨.hbm, 2185, rfl⟩
abbrev main_call147_c_0 : Ref sig .tc := ⟨.hbm, 2186, rfl⟩
abbrev main_call147_v11 : Ref sig .tc := ⟨.hbm, 2187, rfl⟩
abbrev main_call147_v12 : Ref sig .tc := ⟨.hbm, 2188, rfl⟩
abbrev main_v455 : Ref sig .tc := ⟨.hbm, 2189, rfl⟩
abbrev main_c_174 : Ref sig .tc := ⟨.hbm, 2190, rfl⟩
abbrev main_call148_v0 : Ref sig .tc := ⟨.hbm, 2191, rfl⟩
abbrev main_call148_c : Ref sig .tc := ⟨.hbm, 2192, rfl⟩
abbrev main_call148_v1 : Ref sig .tc := ⟨.hbm, 2193, rfl⟩
abbrev main_call148_c_0 : Ref sig .tc := ⟨.hbm, 2194, rfl⟩
abbrev main_call148_v2 : Ref sig .tc := ⟨.hbm, 2195, rfl⟩
abbrev main_call148_v3 : Ref sig .tc := ⟨.hbm, 2196, rfl⟩
abbrev main_call148_v4 : Ref sig .tc := ⟨.hbm, 2197, rfl⟩
abbrev main_call148_c_1 : Ref sig .tc := ⟨.hbm, 2198, rfl⟩
abbrev main_call148_v5 : Ref sig .tc := ⟨.hbm, 2199, rfl⟩
abbrev main_call148_v6 : Ref sig .tc := ⟨.hbm, 2200, rfl⟩
abbrev main_call148_c_2 : Ref sig .tc := ⟨.hbm, 2201, rfl⟩
abbrev main_call148_v7 : Ref sig .tc := ⟨.hbm, 2202, rfl⟩
abbrev main_call148_v8 : Ref sig .tc := ⟨.hbm, 2203, rfl⟩
abbrev main_call148_c_3 : Ref sig .tc := ⟨.hbm, 2204, rfl⟩
abbrev main_call148_v9 : Ref sig .tc := ⟨.hbm, 2205, rfl⟩
abbrev main_call148_v10 : Ref sig .tc := ⟨.hbm, 2206, rfl⟩
abbrev main_call148_v11 : Ref sig .tc := ⟨.hbm, 2207, rfl⟩
abbrev main_call148_v12 : Ref sig .tc := ⟨.hbm, 2208, rfl⟩
abbrev main_call148_v13 : Ref sig .tc := ⟨.hbm, 2209, rfl⟩
abbrev main_call148_v14 : Ref sig .tc := ⟨.hbm, 2210, rfl⟩
abbrev main_v456 : Ref sig .tc := ⟨.hbm, 2211, rfl⟩
abbrev main_call149_c : Ref sig .tc := ⟨.hbm, 2212, rfl⟩
abbrev main_call149_v0 : Ref sig .tc := ⟨.hbm, 2213, rfl⟩
abbrev main_call149_v1 : Ref sig .tc := ⟨.hbm, 2214, rfl⟩
abbrev main_call149_c_0 : Ref sig .tc := ⟨.hbm, 2215, rfl⟩
abbrev main_call149_v2 : Ref sig .tc := ⟨.hbm, 2216, rfl⟩
abbrev main_call149_v3 : Ref sig .tc := ⟨.hbm, 2217, rfl⟩
abbrev main_call149_v4 : Ref sig .tc := ⟨.hbm, 2218, rfl⟩
abbrev main_call149_v5 : Ref sig .tc := ⟨.hbm, 2219, rfl⟩
abbrev main_call149_c_1 : Ref sig .tc := ⟨.hbm, 2220, rfl⟩
abbrev main_call149_c_2 : Ref sig .tc := ⟨.hbm, 2221, rfl⟩
abbrev main_call149_v6 : Ref sig .tc := ⟨.hbm, 2222, rfl⟩
abbrev main_call149_v7 : Ref sig .tc := ⟨.hbm, 2223, rfl⟩
abbrev main_call149_v8 : Ref sig .tc := ⟨.hbm, 2224, rfl⟩
abbrev main_call149_v9 : Ref sig .tc := ⟨.hbm, 2225, rfl⟩
abbrev main_call149_v10 : Ref sig .tc := ⟨.hbm, 2226, rfl⟩
abbrev main_call149_v11 : Ref sig .tc := ⟨.hbm, 2227, rfl⟩
abbrev main_call149_c_3 : Ref sig .tc := ⟨.hbm, 2228, rfl⟩
abbrev main_call149_v12 : Ref sig .tc := ⟨.hbm, 2229, rfl⟩
abbrev main_call149_v13 : Ref sig .tc := ⟨.hbm, 2230, rfl⟩
abbrev main_call149_v14 : Ref sig .tc := ⟨.hbm, 2231, rfl⟩
abbrev main_call149_cst : Ref sig .tc := ⟨.hbm, 2232, rfl⟩
abbrev main_call149_v15 : Ref sig .tc := ⟨.hbm, 2233, rfl⟩
abbrev main_v457 : Ref sig .tc := ⟨.hbm, 2234, rfl⟩
abbrev main_v458 : Ref sig .tc := ⟨.hbm, 2235, rfl⟩
abbrev main_v459 : Ref sig .tc := ⟨.hbm, 2236, rfl⟩
abbrev main_v460 : Ref sig .tc := ⟨.hbm, 2237, rfl⟩
abbrev main_call150_v0 : Ref sig .tc := ⟨.hbm, 2238, rfl⟩
abbrev main_call150_call0_c : Ref sig .tc := ⟨.hbm, 2239, rfl⟩
abbrev main_call150_call0_v0 : Ref sig .tc := ⟨.hbm, 2240, rfl⟩
abbrev main_v461 : Ref sig .tc := ⟨.hbm, 2241, rfl⟩
abbrev main_c_175 : Ref sig .tc := ⟨.hbm, 2242, rfl⟩
abbrev main_v462 : Ref sig .tc := ⟨.hbm, 2243, rfl⟩
abbrev main_c_176 : Ref sig .tc := ⟨.hbm, 2244, rfl⟩
abbrev main_call151_v0 : Ref sig .tc := ⟨.hbm, 2245, rfl⟩
abbrev main_call151_v1 : Ref sig .tc := ⟨.hbm, 2246, rfl⟩
abbrev main_v463 : Ref sig .tc := ⟨.hbm, 2247, rfl⟩
abbrev main_c_177 : Ref sig .tc := ⟨.hbm, 2248, rfl⟩
abbrev main_v464 : Ref sig .tc := ⟨.hbm, 2249, rfl⟩
abbrev main_v465 : Ref sig .tc := ⟨.hbm, 2250, rfl⟩
abbrev main_c_178 : Ref sig .tc := ⟨.hbm, 2251, rfl⟩
abbrev main_v466 : Ref sig .tc := ⟨.hbm, 2252, rfl⟩
abbrev main_v467 : Ref sig .tc := ⟨.hbm, 2253, rfl⟩
abbrev main_v468 : Ref sig .tc := ⟨.hbm, 2254, rfl⟩
abbrev main_v469 : Ref sig .tc := ⟨.hbm, 2255, rfl⟩
abbrev main_c_179 : Ref sig .tc := ⟨.hbm, 2256, rfl⟩
abbrev main_v470 : Ref sig .tc := ⟨.hbm, 2257, rfl⟩
abbrev main_v471 : Ref sig .tc := ⟨.hbm, 2258, rfl⟩
abbrev main_call152_call0_c : Ref sig .tc := ⟨.hbm, 2259, rfl⟩
abbrev main_call152_call0_v0 : Ref sig .tc := ⟨.hbm, 2260, rfl⟩
abbrev main_v472 : Ref sig .tc := ⟨.hbm, 2261, rfl⟩
abbrev main_c_180 : Ref sig .tc := ⟨.hbm, 2262, rfl⟩
abbrev main_call153_v0 : Ref sig .tc := ⟨.hbm, 2263, rfl⟩
abbrev main_call153_v1 : Ref sig .tc := ⟨.hbm, 2264, rfl⟩
abbrev main_call153_v2 : Ref sig .tc := ⟨.hbm, 2265, rfl⟩
abbrev main_call153_v3 : Ref sig .tc := ⟨.hbm, 2266, rfl⟩
abbrev main_call153_v4 : Ref sig .tc := ⟨.hbm, 2267, rfl⟩
abbrev main_call153_v5 : Ref sig .tc := ⟨.hbm, 2268, rfl⟩
abbrev main_call153_v6 : Ref sig .tc := ⟨.hbm, 2269, rfl⟩
abbrev main_call153_v7 : Ref sig .tc := ⟨.hbm, 2270, rfl⟩
abbrev main_call153_c : Ref sig .tc := ⟨.hbm, 2271, rfl⟩
abbrev main_call153_v8 : Ref sig .tc := ⟨.hbm, 2272, rfl⟩
abbrev main_call153_v9 : Ref sig .tc := ⟨.hbm, 2273, rfl⟩
abbrev main_call153_v10 : Ref sig .tc := ⟨.hbm, 2274, rfl⟩
abbrev main_call153_c_0 : Ref sig .tc := ⟨.hbm, 2275, rfl⟩
abbrev main_call153_v11 : Ref sig .tc := ⟨.hbm, 2276, rfl⟩
abbrev main_call153_v12 : Ref sig .tc := ⟨.hbm, 2277, rfl⟩
abbrev main_v473 : Ref sig .tc := ⟨.hbm, 2278, rfl⟩
abbrev main_c_181 : Ref sig .tc := ⟨.hbm, 2279, rfl⟩
abbrev main_call154_v0 : Ref sig .tc := ⟨.hbm, 2280, rfl⟩
abbrev main_call154_c : Ref sig .tc := ⟨.hbm, 2281, rfl⟩
abbrev main_call154_v1 : Ref sig .tc := ⟨.hbm, 2282, rfl⟩
abbrev main_call154_c_0 : Ref sig .tc := ⟨.hbm, 2283, rfl⟩
abbrev main_call154_v2 : Ref sig .tc := ⟨.hbm, 2284, rfl⟩
abbrev main_call154_v3 : Ref sig .tc := ⟨.hbm, 2285, rfl⟩
abbrev main_call154_v4 : Ref sig .tc := ⟨.hbm, 2286, rfl⟩
abbrev main_call154_c_1 : Ref sig .tc := ⟨.hbm, 2287, rfl⟩
abbrev main_call154_v5 : Ref sig .tc := ⟨.hbm, 2288, rfl⟩
abbrev main_call154_v6 : Ref sig .tc := ⟨.hbm, 2289, rfl⟩
abbrev main_call154_c_2 : Ref sig .tc := ⟨.hbm, 2290, rfl⟩
abbrev main_call154_v7 : Ref sig .tc := ⟨.hbm, 2291, rfl⟩
abbrev main_call154_v8 : Ref sig .tc := ⟨.hbm, 2292, rfl⟩
abbrev main_call154_c_3 : Ref sig .tc := ⟨.hbm, 2293, rfl⟩
abbrev main_call154_v9 : Ref sig .tc := ⟨.hbm, 2294, rfl⟩
abbrev main_call154_v10 : Ref sig .tc := ⟨.hbm, 2295, rfl⟩
abbrev main_call154_v11 : Ref sig .tc := ⟨.hbm, 2296, rfl⟩
abbrev main_call154_v12 : Ref sig .tc := ⟨.hbm, 2297, rfl⟩
abbrev main_call154_v13 : Ref sig .tc := ⟨.hbm, 2298, rfl⟩
abbrev main_call154_v14 : Ref sig .tc := ⟨.hbm, 2299, rfl⟩
abbrev main_v474 : Ref sig .tc := ⟨.hbm, 2300, rfl⟩
abbrev main_call155_c : Ref sig .tc := ⟨.hbm, 2301, rfl⟩
abbrev main_call155_v0 : Ref sig .tc := ⟨.hbm, 2302, rfl⟩
abbrev main_call155_v1 : Ref sig .tc := ⟨.hbm, 2303, rfl⟩
abbrev main_call155_c_0 : Ref sig .tc := ⟨.hbm, 2304, rfl⟩
abbrev main_call155_v2 : Ref sig .tc := ⟨.hbm, 2305, rfl⟩
abbrev main_call155_v3 : Ref sig .tc := ⟨.hbm, 2306, rfl⟩
abbrev main_call155_v4 : Ref sig .tc := ⟨.hbm, 2307, rfl⟩
abbrev main_call155_v5 : Ref sig .tc := ⟨.hbm, 2308, rfl⟩
abbrev main_call155_c_1 : Ref sig .tc := ⟨.hbm, 2309, rfl⟩
abbrev main_call155_c_2 : Ref sig .tc := ⟨.hbm, 2310, rfl⟩
abbrev main_call155_v6 : Ref sig .tc := ⟨.hbm, 2311, rfl⟩
abbrev main_call155_v7 : Ref sig .tc := ⟨.hbm, 2312, rfl⟩
abbrev main_call155_v8 : Ref sig .tc := ⟨.hbm, 2313, rfl⟩
abbrev main_call155_v9 : Ref sig .tc := ⟨.hbm, 2314, rfl⟩
abbrev main_call155_v10 : Ref sig .tc := ⟨.hbm, 2315, rfl⟩
abbrev main_call155_v11 : Ref sig .tc := ⟨.hbm, 2316, rfl⟩
abbrev main_call155_c_3 : Ref sig .tc := ⟨.hbm, 2317, rfl⟩
abbrev main_call155_v12 : Ref sig .tc := ⟨.hbm, 2318, rfl⟩
abbrev main_call155_v13 : Ref sig .tc := ⟨.hbm, 2319, rfl⟩
abbrev main_call155_v14 : Ref sig .tc := ⟨.hbm, 2320, rfl⟩
abbrev main_call155_cst : Ref sig .tc := ⟨.hbm, 2321, rfl⟩
abbrev main_call155_v15 : Ref sig .tc := ⟨.hbm, 2322, rfl⟩
abbrev main_v475 : Ref sig .tc := ⟨.hbm, 2323, rfl⟩
abbrev main_v476 : Ref sig .tc := ⟨.hbm, 2324, rfl⟩
abbrev main_v477 : Ref sig .tc := ⟨.hbm, 2325, rfl⟩
abbrev main_v478 : Ref sig .tc := ⟨.hbm, 2326, rfl⟩
abbrev main_call156_v0 : Ref sig .tc := ⟨.hbm, 2327, rfl⟩
abbrev main_call156_call0_c : Ref sig .tc := ⟨.hbm, 2328, rfl⟩
abbrev main_call156_call0_v0 : Ref sig .tc := ⟨.hbm, 2329, rfl⟩
abbrev main_v479 : Ref sig .tc := ⟨.hbm, 2330, rfl⟩
abbrev main_c_182 : Ref sig .tc := ⟨.hbm, 2331, rfl⟩
abbrev main_v480 : Ref sig .tc := ⟨.hbm, 2332, rfl⟩
abbrev main_c_183 : Ref sig .tc := ⟨.hbm, 2333, rfl⟩
abbrev main_call157_v0 : Ref sig .tc := ⟨.hbm, 2334, rfl⟩
abbrev main_call157_v1 : Ref sig .tc := ⟨.hbm, 2335, rfl⟩
abbrev main_v481 : Ref sig .tc := ⟨.hbm, 2336, rfl⟩
abbrev main_c_184 : Ref sig .tc := ⟨.hbm, 2337, rfl⟩
abbrev main_v482 : Ref sig .tc := ⟨.hbm, 2338, rfl⟩
abbrev main_v483 : Ref sig .tc := ⟨.hbm, 2339, rfl⟩
abbrev main_c_185 : Ref sig .tc := ⟨.hbm, 2340, rfl⟩
abbrev main_v484 : Ref sig .tc := ⟨.hbm, 2341, rfl⟩
abbrev main_v485 : Ref sig .tc := ⟨.hbm, 2342, rfl⟩
abbrev main_v486 : Ref sig .tc := ⟨.hbm, 2343, rfl⟩
abbrev main_v487 : Ref sig .tc := ⟨.hbm, 2344, rfl⟩
abbrev main_c_186 : Ref sig .tc := ⟨.hbm, 2345, rfl⟩
abbrev main_v488 : Ref sig .tc := ⟨.hbm, 2346, rfl⟩
abbrev main_v489 : Ref sig .tc := ⟨.hbm, 2347, rfl⟩
abbrev main_call158_call0_c : Ref sig .tc := ⟨.hbm, 2348, rfl⟩
abbrev main_call158_call0_v0 : Ref sig .tc := ⟨.hbm, 2349, rfl⟩
abbrev main_v490 : Ref sig .tc := ⟨.hbm, 2350, rfl⟩
abbrev main_c_187 : Ref sig .tc := ⟨.hbm, 2351, rfl⟩
abbrev main_call159_v0 : Ref sig .tc := ⟨.hbm, 2352, rfl⟩
abbrev main_call159_v1 : Ref sig .tc := ⟨.hbm, 2353, rfl⟩
abbrev main_call159_v2 : Ref sig .tc := ⟨.hbm, 2354, rfl⟩
abbrev main_call159_v3 : Ref sig .tc := ⟨.hbm, 2355, rfl⟩
abbrev main_call159_v4 : Ref sig .tc := ⟨.hbm, 2356, rfl⟩
abbrev main_call159_v5 : Ref sig .tc := ⟨.hbm, 2357, rfl⟩
abbrev main_call159_v6 : Ref sig .tc := ⟨.hbm, 2358, rfl⟩
abbrev main_call159_v7 : Ref sig .tc := ⟨.hbm, 2359, rfl⟩
abbrev main_call159_c : Ref sig .tc := ⟨.hbm, 2360, rfl⟩
abbrev main_call159_v8 : Ref sig .tc := ⟨.hbm, 2361, rfl⟩
abbrev main_call159_v9 : Ref sig .tc := ⟨.hbm, 2362, rfl⟩
abbrev main_call159_v10 : Ref sig .tc := ⟨.hbm, 2363, rfl⟩
abbrev main_call159_c_0 : Ref sig .tc := ⟨.hbm, 2364, rfl⟩
abbrev main_call159_v11 : Ref sig .tc := ⟨.hbm, 2365, rfl⟩
abbrev main_call159_v12 : Ref sig .tc := ⟨.hbm, 2366, rfl⟩
abbrev main_v491 : Ref sig .tc := ⟨.hbm, 2367, rfl⟩
abbrev main_c_188 : Ref sig .tc := ⟨.hbm, 2368, rfl⟩
abbrev main_call160_v0 : Ref sig .tc := ⟨.hbm, 2369, rfl⟩
abbrev main_call160_c : Ref sig .tc := ⟨.hbm, 2370, rfl⟩
abbrev main_call160_v1 : Ref sig .tc := ⟨.hbm, 2371, rfl⟩
abbrev main_call160_c_0 : Ref sig .tc := ⟨.hbm, 2372, rfl⟩
abbrev main_call160_v2 : Ref sig .tc := ⟨.hbm, 2373, rfl⟩
abbrev main_call160_v3 : Ref sig .tc := ⟨.hbm, 2374, rfl⟩
abbrev main_call160_v4 : Ref sig .tc := ⟨.hbm, 2375, rfl⟩
abbrev main_call160_c_1 : Ref sig .tc := ⟨.hbm, 2376, rfl⟩
abbrev main_call160_v5 : Ref sig .tc := ⟨.hbm, 2377, rfl⟩
abbrev main_call160_v6 : Ref sig .tc := ⟨.hbm, 2378, rfl⟩
abbrev main_call160_c_2 : Ref sig .tc := ⟨.hbm, 2379, rfl⟩
abbrev main_call160_v7 : Ref sig .tc := ⟨.hbm, 2380, rfl⟩
abbrev main_call160_v8 : Ref sig .tc := ⟨.hbm, 2381, rfl⟩
abbrev main_call160_c_3 : Ref sig .tc := ⟨.hbm, 2382, rfl⟩
abbrev main_call160_v9 : Ref sig .tc := ⟨.hbm, 2383, rfl⟩
abbrev main_call160_v10 : Ref sig .tc := ⟨.hbm, 2384, rfl⟩
abbrev main_call160_v11 : Ref sig .tc := ⟨.hbm, 2385, rfl⟩
abbrev main_call160_v12 : Ref sig .tc := ⟨.hbm, 2386, rfl⟩
abbrev main_call160_v13 : Ref sig .tc := ⟨.hbm, 2387, rfl⟩
abbrev main_call160_v14 : Ref sig .tc := ⟨.hbm, 2388, rfl⟩
abbrev main_v492 : Ref sig .tc := ⟨.hbm, 2389, rfl⟩
abbrev main_call161_c : Ref sig .tc := ⟨.hbm, 2390, rfl⟩
abbrev main_call161_v0 : Ref sig .tc := ⟨.hbm, 2391, rfl⟩
abbrev main_call161_v1 : Ref sig .tc := ⟨.hbm, 2392, rfl⟩
abbrev main_call161_c_0 : Ref sig .tc := ⟨.hbm, 2393, rfl⟩
abbrev main_call161_v2 : Ref sig .tc := ⟨.hbm, 2394, rfl⟩
abbrev main_call161_v3 : Ref sig .tc := ⟨.hbm, 2395, rfl⟩
abbrev main_call161_v4 : Ref sig .tc := ⟨.hbm, 2396, rfl⟩
abbrev main_call161_v5 : Ref sig .tc := ⟨.hbm, 2397, rfl⟩
abbrev main_call161_c_1 : Ref sig .tc := ⟨.hbm, 2398, rfl⟩
abbrev main_call161_c_2 : Ref sig .tc := ⟨.hbm, 2399, rfl⟩
abbrev main_call161_v6 : Ref sig .tc := ⟨.hbm, 2400, rfl⟩
abbrev main_call161_v7 : Ref sig .tc := ⟨.hbm, 2401, rfl⟩
abbrev main_call161_v8 : Ref sig .tc := ⟨.hbm, 2402, rfl⟩
abbrev main_call161_v9 : Ref sig .tc := ⟨.hbm, 2403, rfl⟩
abbrev main_call161_v10 : Ref sig .tc := ⟨.hbm, 2404, rfl⟩
abbrev main_call161_v11 : Ref sig .tc := ⟨.hbm, 2405, rfl⟩
abbrev main_call161_c_3 : Ref sig .tc := ⟨.hbm, 2406, rfl⟩
abbrev main_call161_v12 : Ref sig .tc := ⟨.hbm, 2407, rfl⟩
abbrev main_call161_v13 : Ref sig .tc := ⟨.hbm, 2408, rfl⟩
abbrev main_call161_v14 : Ref sig .tc := ⟨.hbm, 2409, rfl⟩
abbrev main_call161_cst : Ref sig .tc := ⟨.hbm, 2410, rfl⟩
abbrev main_call161_v15 : Ref sig .tc := ⟨.hbm, 2411, rfl⟩
abbrev main_v493 : Ref sig .tc := ⟨.hbm, 2412, rfl⟩
abbrev main_v494 : Ref sig .tc := ⟨.hbm, 2413, rfl⟩
abbrev main_v495 : Ref sig .tc := ⟨.hbm, 2414, rfl⟩
abbrev main_v496 : Ref sig .tc := ⟨.hbm, 2415, rfl⟩
abbrev main_call162_v0 : Ref sig .tc := ⟨.hbm, 2416, rfl⟩
abbrev main_call162_call0_c : Ref sig .tc := ⟨.hbm, 2417, rfl⟩
abbrev main_call162_call0_v0 : Ref sig .tc := ⟨.hbm, 2418, rfl⟩
abbrev main_v497 : Ref sig .tc := ⟨.hbm, 2419, rfl⟩
abbrev main_c_189 : Ref sig .tc := ⟨.hbm, 2420, rfl⟩
abbrev main_v498 : Ref sig .tc := ⟨.hbm, 2421, rfl⟩
abbrev main_c_190 : Ref sig .tc := ⟨.hbm, 2422, rfl⟩
abbrev main_call163_v0 : Ref sig .tc := ⟨.hbm, 2423, rfl⟩
abbrev main_call163_v1 : Ref sig .tc := ⟨.hbm, 2424, rfl⟩
abbrev main_v499 : Ref sig .tc := ⟨.hbm, 2425, rfl⟩
abbrev main_c_191 : Ref sig .tc := ⟨.hbm, 2426, rfl⟩
abbrev main_v500 : Ref sig .tc := ⟨.hbm, 2427, rfl⟩
abbrev main_v501 : Ref sig .tc := ⟨.hbm, 2428, rfl⟩
abbrev main_c_192 : Ref sig .tc := ⟨.hbm, 2429, rfl⟩
abbrev main_v502 : Ref sig .tc := ⟨.hbm, 2430, rfl⟩
abbrev main_v503 : Ref sig .tc := ⟨.hbm, 2431, rfl⟩
abbrev main_v504 : Ref sig .tc := ⟨.hbm, 2432, rfl⟩
abbrev main_v505 : Ref sig .tc := ⟨.hbm, 2433, rfl⟩
abbrev main_c_193 : Ref sig .tc := ⟨.hbm, 2434, rfl⟩
abbrev main_v506 : Ref sig .tc := ⟨.hbm, 2435, rfl⟩
abbrev main_v507 : Ref sig .tc := ⟨.hbm, 2436, rfl⟩
abbrev main_call164_call0_c : Ref sig .tc := ⟨.hbm, 2437, rfl⟩
abbrev main_call164_call0_v0 : Ref sig .tc := ⟨.hbm, 2438, rfl⟩
abbrev main_v508 : Ref sig .tc := ⟨.hbm, 2439, rfl⟩
abbrev main_c_194 : Ref sig .tc := ⟨.hbm, 2440, rfl⟩
abbrev main_call165_v0 : Ref sig .tc := ⟨.hbm, 2441, rfl⟩
abbrev main_call165_v1 : Ref sig .tc := ⟨.hbm, 2442, rfl⟩
abbrev main_call165_v2 : Ref sig .tc := ⟨.hbm, 2443, rfl⟩
abbrev main_call165_v3 : Ref sig .tc := ⟨.hbm, 2444, rfl⟩
abbrev main_call165_v4 : Ref sig .tc := ⟨.hbm, 2445, rfl⟩
abbrev main_call165_v5 : Ref sig .tc := ⟨.hbm, 2446, rfl⟩
abbrev main_call165_v6 : Ref sig .tc := ⟨.hbm, 2447, rfl⟩
abbrev main_call165_v7 : Ref sig .tc := ⟨.hbm, 2448, rfl⟩
abbrev main_call165_c : Ref sig .tc := ⟨.hbm, 2449, rfl⟩
abbrev main_call165_v8 : Ref sig .tc := ⟨.hbm, 2450, rfl⟩
abbrev main_call165_v9 : Ref sig .tc := ⟨.hbm, 2451, rfl⟩
abbrev main_call165_v10 : Ref sig .tc := ⟨.hbm, 2452, rfl⟩
abbrev main_call165_c_0 : Ref sig .tc := ⟨.hbm, 2453, rfl⟩
abbrev main_call165_v11 : Ref sig .tc := ⟨.hbm, 2454, rfl⟩
abbrev main_call165_v12 : Ref sig .tc := ⟨.hbm, 2455, rfl⟩
abbrev main_v509 : Ref sig .tc := ⟨.hbm, 2456, rfl⟩
abbrev main_c_195 : Ref sig .tc := ⟨.hbm, 2457, rfl⟩
abbrev main_call166_v0 : Ref sig .tc := ⟨.hbm, 2458, rfl⟩
abbrev main_call166_c : Ref sig .tc := ⟨.hbm, 2459, rfl⟩
abbrev main_call166_v1 : Ref sig .tc := ⟨.hbm, 2460, rfl⟩
abbrev main_call166_c_0 : Ref sig .tc := ⟨.hbm, 2461, rfl⟩
abbrev main_call166_v2 : Ref sig .tc := ⟨.hbm, 2462, rfl⟩
abbrev main_call166_v3 : Ref sig .tc := ⟨.hbm, 2463, rfl⟩
abbrev main_call166_v4 : Ref sig .tc := ⟨.hbm, 2464, rfl⟩
abbrev main_call166_c_1 : Ref sig .tc := ⟨.hbm, 2465, rfl⟩
abbrev main_call166_v5 : Ref sig .tc := ⟨.hbm, 2466, rfl⟩
abbrev main_call166_v6 : Ref sig .tc := ⟨.hbm, 2467, rfl⟩
abbrev main_call166_c_2 : Ref sig .tc := ⟨.hbm, 2468, rfl⟩
abbrev main_call166_v7 : Ref sig .tc := ⟨.hbm, 2469, rfl⟩
abbrev main_call166_v8 : Ref sig .tc := ⟨.hbm, 2470, rfl⟩
abbrev main_call166_c_3 : Ref sig .tc := ⟨.hbm, 2471, rfl⟩
abbrev main_call166_v9 : Ref sig .tc := ⟨.hbm, 2472, rfl⟩
abbrev main_call166_v10 : Ref sig .tc := ⟨.hbm, 2473, rfl⟩
abbrev main_call166_v11 : Ref sig .tc := ⟨.hbm, 2474, rfl⟩
abbrev main_call166_v12 : Ref sig .tc := ⟨.hbm, 2475, rfl⟩
abbrev main_call166_v13 : Ref sig .tc := ⟨.hbm, 2476, rfl⟩
abbrev main_call166_v14 : Ref sig .tc := ⟨.hbm, 2477, rfl⟩
abbrev main_v510 : Ref sig .tc := ⟨.hbm, 2478, rfl⟩
abbrev main_call167_c : Ref sig .tc := ⟨.hbm, 2479, rfl⟩
abbrev main_call167_v0 : Ref sig .tc := ⟨.hbm, 2480, rfl⟩
abbrev main_call167_v1 : Ref sig .tc := ⟨.hbm, 2481, rfl⟩
abbrev main_call167_c_0 : Ref sig .tc := ⟨.hbm, 2482, rfl⟩
abbrev main_call167_v2 : Ref sig .tc := ⟨.hbm, 2483, rfl⟩
abbrev main_call167_v3 : Ref sig .tc := ⟨.hbm, 2484, rfl⟩
abbrev main_call167_v4 : Ref sig .tc := ⟨.hbm, 2485, rfl⟩
abbrev main_call167_v5 : Ref sig .tc := ⟨.hbm, 2486, rfl⟩
abbrev main_call167_c_1 : Ref sig .tc := ⟨.hbm, 2487, rfl⟩
abbrev main_call167_c_2 : Ref sig .tc := ⟨.hbm, 2488, rfl⟩
abbrev main_call167_v6 : Ref sig .tc := ⟨.hbm, 2489, rfl⟩
abbrev main_call167_v7 : Ref sig .tc := ⟨.hbm, 2490, rfl⟩
abbrev main_call167_v8 : Ref sig .tc := ⟨.hbm, 2491, rfl⟩
abbrev main_call167_v9 : Ref sig .tc := ⟨.hbm, 2492, rfl⟩
abbrev main_call167_v10 : Ref sig .tc := ⟨.hbm, 2493, rfl⟩
abbrev main_call167_v11 : Ref sig .tc := ⟨.hbm, 2494, rfl⟩
abbrev main_call167_c_3 : Ref sig .tc := ⟨.hbm, 2495, rfl⟩
abbrev main_call167_v12 : Ref sig .tc := ⟨.hbm, 2496, rfl⟩
abbrev main_call167_v13 : Ref sig .tc := ⟨.hbm, 2497, rfl⟩
abbrev main_call167_v14 : Ref sig .tc := ⟨.hbm, 2498, rfl⟩
abbrev main_call167_cst : Ref sig .tc := ⟨.hbm, 2499, rfl⟩
abbrev main_call167_v15 : Ref sig .tc := ⟨.hbm, 2500, rfl⟩
abbrev main_v511 : Ref sig .tc := ⟨.hbm, 2501, rfl⟩
abbrev main_v512 : Ref sig .tc := ⟨.hbm, 2502, rfl⟩
abbrev main_v513 : Ref sig .tc := ⟨.hbm, 2503, rfl⟩
abbrev main_v514 : Ref sig .tc := ⟨.hbm, 2504, rfl⟩
abbrev main_call168_v0 : Ref sig .tc := ⟨.hbm, 2505, rfl⟩
abbrev main_call168_call0_c : Ref sig .tc := ⟨.hbm, 2506, rfl⟩
abbrev main_call168_call0_v0 : Ref sig .tc := ⟨.hbm, 2507, rfl⟩
abbrev main_v515 : Ref sig .tc := ⟨.hbm, 2508, rfl⟩
abbrev main_c_196 : Ref sig .tc := ⟨.hbm, 2509, rfl⟩
abbrev main_v516 : Ref sig .tc := ⟨.hbm, 2510, rfl⟩
abbrev main_c_197 : Ref sig .tc := ⟨.hbm, 2511, rfl⟩
abbrev main_call169_v0 : Ref sig .tc := ⟨.hbm, 2512, rfl⟩
abbrev main_call169_v1 : Ref sig .tc := ⟨.hbm, 2513, rfl⟩
abbrev main_v517 : Ref sig .tc := ⟨.hbm, 2514, rfl⟩
abbrev main_c_198 : Ref sig .tc := ⟨.hbm, 2515, rfl⟩
abbrev main_v518 : Ref sig .tc := ⟨.hbm, 2516, rfl⟩
abbrev main_v519 : Ref sig .tc := ⟨.hbm, 2517, rfl⟩
abbrev main_c_199 : Ref sig .tc := ⟨.hbm, 2518, rfl⟩
abbrev main_v520 : Ref sig .tc := ⟨.hbm, 2519, rfl⟩
abbrev main_v521 : Ref sig .tc := ⟨.hbm, 2520, rfl⟩
abbrev main_v522 : Ref sig .tc := ⟨.hbm, 2521, rfl⟩
abbrev main_v523 : Ref sig .tc := ⟨.hbm, 2522, rfl⟩
abbrev main_c_200 : Ref sig .tc := ⟨.hbm, 2523, rfl⟩
abbrev main_v524 : Ref sig .tc := ⟨.hbm, 2524, rfl⟩
abbrev main_v525 : Ref sig .tc := ⟨.hbm, 2525, rfl⟩
abbrev main_call170_call0_c : Ref sig .tc := ⟨.hbm, 2526, rfl⟩
abbrev main_call170_call0_v0 : Ref sig .tc := ⟨.hbm, 2527, rfl⟩
abbrev main_v526 : Ref sig .tc := ⟨.hbm, 2528, rfl⟩
abbrev main_c_201 : Ref sig .tc := ⟨.hbm, 2529, rfl⟩
abbrev main_call171_v0 : Ref sig .tc := ⟨.hbm, 2530, rfl⟩
abbrev main_call171_v1 : Ref sig .tc := ⟨.hbm, 2531, rfl⟩
abbrev main_call171_v2 : Ref sig .tc := ⟨.hbm, 2532, rfl⟩
abbrev main_call171_v3 : Ref sig .tc := ⟨.hbm, 2533, rfl⟩
abbrev main_call171_v4 : Ref sig .tc := ⟨.hbm, 2534, rfl⟩
abbrev main_call171_v5 : Ref sig .tc := ⟨.hbm, 2535, rfl⟩
abbrev main_call171_v6 : Ref sig .tc := ⟨.hbm, 2536, rfl⟩
abbrev main_call171_v7 : Ref sig .tc := ⟨.hbm, 2537, rfl⟩
abbrev main_call171_c : Ref sig .tc := ⟨.hbm, 2538, rfl⟩
abbrev main_call171_v8 : Ref sig .tc := ⟨.hbm, 2539, rfl⟩
abbrev main_call171_v9 : Ref sig .tc := ⟨.hbm, 2540, rfl⟩
abbrev main_call171_v10 : Ref sig .tc := ⟨.hbm, 2541, rfl⟩
abbrev main_call171_c_0 : Ref sig .tc := ⟨.hbm, 2542, rfl⟩
abbrev main_call171_v11 : Ref sig .tc := ⟨.hbm, 2543, rfl⟩
abbrev main_call171_v12 : Ref sig .tc := ⟨.hbm, 2544, rfl⟩
abbrev main_v527 : Ref sig .tc := ⟨.hbm, 2545, rfl⟩
abbrev main_c_202 : Ref sig .tc := ⟨.hbm, 2546, rfl⟩
abbrev main_call172_v0 : Ref sig .tc := ⟨.hbm, 2547, rfl⟩
abbrev main_call172_c : Ref sig .tc := ⟨.hbm, 2548, rfl⟩
abbrev main_call172_v1 : Ref sig .tc := ⟨.hbm, 2549, rfl⟩
abbrev main_call172_c_0 : Ref sig .tc := ⟨.hbm, 2550, rfl⟩
abbrev main_call172_v2 : Ref sig .tc := ⟨.hbm, 2551, rfl⟩
abbrev main_call172_v3 : Ref sig .tc := ⟨.hbm, 2552, rfl⟩
abbrev main_call172_v4 : Ref sig .tc := ⟨.hbm, 2553, rfl⟩
abbrev main_call172_c_1 : Ref sig .tc := ⟨.hbm, 2554, rfl⟩
abbrev main_call172_v5 : Ref sig .tc := ⟨.hbm, 2555, rfl⟩
abbrev main_call172_v6 : Ref sig .tc := ⟨.hbm, 2556, rfl⟩
abbrev main_call172_c_2 : Ref sig .tc := ⟨.hbm, 2557, rfl⟩
abbrev main_call172_v7 : Ref sig .tc := ⟨.hbm, 2558, rfl⟩
abbrev main_call172_v8 : Ref sig .tc := ⟨.hbm, 2559, rfl⟩
abbrev main_call172_c_3 : Ref sig .tc := ⟨.hbm, 2560, rfl⟩
abbrev main_call172_v9 : Ref sig .tc := ⟨.hbm, 2561, rfl⟩
abbrev main_call172_v10 : Ref sig .tc := ⟨.hbm, 2562, rfl⟩
abbrev main_call172_v11 : Ref sig .tc := ⟨.hbm, 2563, rfl⟩
abbrev main_call172_v12 : Ref sig .tc := ⟨.hbm, 2564, rfl⟩
abbrev main_call172_v13 : Ref sig .tc := ⟨.hbm, 2565, rfl⟩
abbrev main_call172_v14 : Ref sig .tc := ⟨.hbm, 2566, rfl⟩
abbrev main_v528 : Ref sig .tc := ⟨.hbm, 2567, rfl⟩
abbrev main_call173_c : Ref sig .tc := ⟨.hbm, 2568, rfl⟩
abbrev main_call173_v0 : Ref sig .tc := ⟨.hbm, 2569, rfl⟩
abbrev main_call173_v1 : Ref sig .tc := ⟨.hbm, 2570, rfl⟩
abbrev main_call173_c_0 : Ref sig .tc := ⟨.hbm, 2571, rfl⟩
abbrev main_call173_v2 : Ref sig .tc := ⟨.hbm, 2572, rfl⟩
abbrev main_call173_v3 : Ref sig .tc := ⟨.hbm, 2573, rfl⟩
abbrev main_call173_v4 : Ref sig .tc := ⟨.hbm, 2574, rfl⟩
abbrev main_call173_v5 : Ref sig .tc := ⟨.hbm, 2575, rfl⟩
abbrev main_call173_c_1 : Ref sig .tc := ⟨.hbm, 2576, rfl⟩
abbrev main_call173_c_2 : Ref sig .tc := ⟨.hbm, 2577, rfl⟩
abbrev main_call173_v6 : Ref sig .tc := ⟨.hbm, 2578, rfl⟩
abbrev main_call173_v7 : Ref sig .tc := ⟨.hbm, 2579, rfl⟩
abbrev main_call173_v8 : Ref sig .tc := ⟨.hbm, 2580, rfl⟩
abbrev main_call173_v9 : Ref sig .tc := ⟨.hbm, 2581, rfl⟩
abbrev main_call173_v10 : Ref sig .tc := ⟨.hbm, 2582, rfl⟩
abbrev main_call173_v11 : Ref sig .tc := ⟨.hbm, 2583, rfl⟩
abbrev main_call173_c_3 : Ref sig .tc := ⟨.hbm, 2584, rfl⟩
abbrev main_call173_v12 : Ref sig .tc := ⟨.hbm, 2585, rfl⟩
abbrev main_call173_v13 : Ref sig .tc := ⟨.hbm, 2586, rfl⟩
abbrev main_call173_v14 : Ref sig .tc := ⟨.hbm, 2587, rfl⟩
abbrev main_call173_cst : Ref sig .tc := ⟨.hbm, 2588, rfl⟩
abbrev main_call173_v15 : Ref sig .tc := ⟨.hbm, 2589, rfl⟩
abbrev main_v529 : Ref sig .tc := ⟨.hbm, 2590, rfl⟩
abbrev main_v530 : Ref sig .tc := ⟨.hbm, 2591, rfl⟩
abbrev main_v531 : Ref sig .tc := ⟨.hbm, 2592, rfl⟩
abbrev main_v532 : Ref sig .tc := ⟨.hbm, 2593, rfl⟩
abbrev main_call174_v0 : Ref sig .tc := ⟨.hbm, 2594, rfl⟩
abbrev main_call174_call0_c : Ref sig .tc := ⟨.hbm, 2595, rfl⟩
abbrev main_call174_call0_v0 : Ref sig .tc := ⟨.hbm, 2596, rfl⟩
abbrev main_v533 : Ref sig .tc := ⟨.hbm, 2597, rfl⟩
abbrev main_c_203 : Ref sig .tc := ⟨.hbm, 2598, rfl⟩
abbrev main_v534 : Ref sig .tc := ⟨.hbm, 2599, rfl⟩
abbrev main_c_204 : Ref sig .tc := ⟨.hbm, 2600, rfl⟩
abbrev main_call175_v0 : Ref sig .tc := ⟨.hbm, 2601, rfl⟩
abbrev main_call175_v1 : Ref sig .tc := ⟨.hbm, 2602, rfl⟩
abbrev main_v535 : Ref sig .tc := ⟨.hbm, 2603, rfl⟩
abbrev main_c_205 : Ref sig .tc := ⟨.hbm, 2604, rfl⟩
abbrev main_v536 : Ref sig .tc := ⟨.hbm, 2605, rfl⟩
abbrev main_v537 : Ref sig .tc := ⟨.hbm, 2606, rfl⟩
abbrev main_c_206 : Ref sig .tc := ⟨.hbm, 2607, rfl⟩
abbrev main_v538 : Ref sig .tc := ⟨.hbm, 2608, rfl⟩
abbrev main_v539 : Ref sig .tc := ⟨.hbm, 2609, rfl⟩
abbrev main_v540 : Ref sig .tc := ⟨.hbm, 2610, rfl⟩
abbrev main_v541 : Ref sig .tc := ⟨.hbm, 2611, rfl⟩
abbrev main_c_207 : Ref sig .tc := ⟨.hbm, 2612, rfl⟩
abbrev main_v542 : Ref sig .tc := ⟨.hbm, 2613, rfl⟩
abbrev main_v543 : Ref sig .tc := ⟨.hbm, 2614, rfl⟩
abbrev main_call176_call0_c : Ref sig .tc := ⟨.hbm, 2615, rfl⟩
abbrev main_call176_call0_v0 : Ref sig .tc := ⟨.hbm, 2616, rfl⟩
abbrev main_v544 : Ref sig .tc := ⟨.hbm, 2617, rfl⟩
abbrev main_c_208 : Ref sig .tc := ⟨.hbm, 2618, rfl⟩
abbrev main_call177_v0 : Ref sig .tc := ⟨.hbm, 2619, rfl⟩
abbrev main_call177_v1 : Ref sig .tc := ⟨.hbm, 2620, rfl⟩
abbrev main_call177_v2 : Ref sig .tc := ⟨.hbm, 2621, rfl⟩
abbrev main_call177_v3 : Ref sig .tc := ⟨.hbm, 2622, rfl⟩
abbrev main_call177_v4 : Ref sig .tc := ⟨.hbm, 2623, rfl⟩
abbrev main_call177_v5 : Ref sig .tc := ⟨.hbm, 2624, rfl⟩
abbrev main_call177_v6 : Ref sig .tc := ⟨.hbm, 2625, rfl⟩
abbrev main_call177_v7 : Ref sig .tc := ⟨.hbm, 2626, rfl⟩
abbrev main_call177_c : Ref sig .tc := ⟨.hbm, 2627, rfl⟩
abbrev main_call177_v8 : Ref sig .tc := ⟨.hbm, 2628, rfl⟩
abbrev main_call177_v9 : Ref sig .tc := ⟨.hbm, 2629, rfl⟩
abbrev main_call177_v10 : Ref sig .tc := ⟨.hbm, 2630, rfl⟩
abbrev main_call177_c_0 : Ref sig .tc := ⟨.hbm, 2631, rfl⟩
abbrev main_call177_v11 : Ref sig .tc := ⟨.hbm, 2632, rfl⟩
abbrev main_call177_v12 : Ref sig .tc := ⟨.hbm, 2633, rfl⟩
abbrev main_v545 : Ref sig .tc := ⟨.hbm, 2634, rfl⟩
abbrev main_c_209 : Ref sig .tc := ⟨.hbm, 2635, rfl⟩
abbrev main_call178_v0 : Ref sig .tc := ⟨.hbm, 2636, rfl⟩
abbrev main_call178_c : Ref sig .tc := ⟨.hbm, 2637, rfl⟩
abbrev main_call178_v1 : Ref sig .tc := ⟨.hbm, 2638, rfl⟩
abbrev main_call178_c_0 : Ref sig .tc := ⟨.hbm, 2639, rfl⟩
abbrev main_call178_v2 : Ref sig .tc := ⟨.hbm, 2640, rfl⟩
abbrev main_call178_v3 : Ref sig .tc := ⟨.hbm, 2641, rfl⟩
abbrev main_call178_v4 : Ref sig .tc := ⟨.hbm, 2642, rfl⟩
abbrev main_call178_c_1 : Ref sig .tc := ⟨.hbm, 2643, rfl⟩
abbrev main_call178_v5 : Ref sig .tc := ⟨.hbm, 2644, rfl⟩
abbrev main_call178_v6 : Ref sig .tc := ⟨.hbm, 2645, rfl⟩
abbrev main_call178_c_2 : Ref sig .tc := ⟨.hbm, 2646, rfl⟩
abbrev main_call178_v7 : Ref sig .tc := ⟨.hbm, 2647, rfl⟩
abbrev main_call178_v8 : Ref sig .tc := ⟨.hbm, 2648, rfl⟩
abbrev main_call178_c_3 : Ref sig .tc := ⟨.hbm, 2649, rfl⟩
abbrev main_call178_v9 : Ref sig .tc := ⟨.hbm, 2650, rfl⟩
abbrev main_call178_v10 : Ref sig .tc := ⟨.hbm, 2651, rfl⟩
abbrev main_call178_v11 : Ref sig .tc := ⟨.hbm, 2652, rfl⟩
abbrev main_call178_v12 : Ref sig .tc := ⟨.hbm, 2653, rfl⟩
abbrev main_call178_v13 : Ref sig .tc := ⟨.hbm, 2654, rfl⟩
abbrev main_call178_v14 : Ref sig .tc := ⟨.hbm, 2655, rfl⟩
abbrev main_v546 : Ref sig .tc := ⟨.hbm, 2656, rfl⟩
abbrev main_call179_c : Ref sig .tc := ⟨.hbm, 2657, rfl⟩
abbrev main_call179_v0 : Ref sig .tc := ⟨.hbm, 2658, rfl⟩
abbrev main_call179_v1 : Ref sig .tc := ⟨.hbm, 2659, rfl⟩
abbrev main_call179_c_0 : Ref sig .tc := ⟨.hbm, 2660, rfl⟩
abbrev main_call179_v2 : Ref sig .tc := ⟨.hbm, 2661, rfl⟩
abbrev main_call179_v3 : Ref sig .tc := ⟨.hbm, 2662, rfl⟩
abbrev main_call179_v4 : Ref sig .tc := ⟨.hbm, 2663, rfl⟩
abbrev main_call179_v5 : Ref sig .tc := ⟨.hbm, 2664, rfl⟩
abbrev main_call179_c_1 : Ref sig .tc := ⟨.hbm, 2665, rfl⟩
abbrev main_call179_c_2 : Ref sig .tc := ⟨.hbm, 2666, rfl⟩
abbrev main_call179_v6 : Ref sig .tc := ⟨.hbm, 2667, rfl⟩
abbrev main_call179_v7 : Ref sig .tc := ⟨.hbm, 2668, rfl⟩
abbrev main_call179_v8 : Ref sig .tc := ⟨.hbm, 2669, rfl⟩
abbrev main_call179_v9 : Ref sig .tc := ⟨.hbm, 2670, rfl⟩
abbrev main_call179_v10 : Ref sig .tc := ⟨.hbm, 2671, rfl⟩
abbrev main_call179_v11 : Ref sig .tc := ⟨.hbm, 2672, rfl⟩
abbrev main_call179_c_3 : Ref sig .tc := ⟨.hbm, 2673, rfl⟩
abbrev main_call179_v12 : Ref sig .tc := ⟨.hbm, 2674, rfl⟩
abbrev main_call179_v13 : Ref sig .tc := ⟨.hbm, 2675, rfl⟩
abbrev main_call179_v14 : Ref sig .tc := ⟨.hbm, 2676, rfl⟩
abbrev main_call179_cst : Ref sig .tc := ⟨.hbm, 2677, rfl⟩
abbrev main_call179_v15 : Ref sig .tc := ⟨.hbm, 2678, rfl⟩
abbrev main_v547 : Ref sig .tc := ⟨.hbm, 2679, rfl⟩
abbrev main_v548 : Ref sig .tc := ⟨.hbm, 2680, rfl⟩
abbrev main_v549 : Ref sig .tc := ⟨.hbm, 2681, rfl⟩
abbrev main_v550 : Ref sig .tc := ⟨.hbm, 2682, rfl⟩
abbrev main_call180_v0 : Ref sig .tc := ⟨.hbm, 2683, rfl⟩
abbrev main_call180_call0_c : Ref sig .tc := ⟨.hbm, 2684, rfl⟩
abbrev main_call180_call0_v0 : Ref sig .tc := ⟨.hbm, 2685, rfl⟩
abbrev main_v551 : Ref sig .tc := ⟨.hbm, 2686, rfl⟩
abbrev main_c_210 : Ref sig .tc := ⟨.hbm, 2687, rfl⟩
abbrev main_v552 : Ref sig .tc := ⟨.hbm, 2688, rfl⟩
abbrev main_c_211 : Ref sig .tc := ⟨.hbm, 2689, rfl⟩
abbrev main_call181_v0 : Ref sig .tc := ⟨.hbm, 2690, rfl⟩
abbrev main_call181_v1 : Ref sig .tc := ⟨.hbm, 2691, rfl⟩
abbrev main_v553 : Ref sig .tc := ⟨.hbm, 2692, rfl⟩
abbrev main_c_212 : Ref sig .tc := ⟨.hbm, 2693, rfl⟩
abbrev main_v554 : Ref sig .tc := ⟨.hbm, 2694, rfl⟩
abbrev main_v555 : Ref sig .tc := ⟨.hbm, 2695, rfl⟩
abbrev main_c_213 : Ref sig .tc := ⟨.hbm, 2696, rfl⟩
abbrev main_v556 : Ref sig .tc := ⟨.hbm, 2697, rfl⟩
abbrev main_v557 : Ref sig .tc := ⟨.hbm, 2698, rfl⟩
abbrev main_v558 : Ref sig .tc := ⟨.hbm, 2699, rfl⟩
abbrev main_v559 : Ref sig .tc := ⟨.hbm, 2700, rfl⟩
abbrev main_c_214 : Ref sig .tc := ⟨.hbm, 2701, rfl⟩
abbrev main_v560 : Ref sig .tc := ⟨.hbm, 2702, rfl⟩
abbrev main_v561 : Ref sig .tc := ⟨.hbm, 2703, rfl⟩
abbrev main_call182_call0_c : Ref sig .tc := ⟨.hbm, 2704, rfl⟩
abbrev main_call182_call0_v0 : Ref sig .tc := ⟨.hbm, 2705, rfl⟩
abbrev main_v562 : Ref sig .tc := ⟨.hbm, 2706, rfl⟩
abbrev main_c_215 : Ref sig .tc := ⟨.hbm, 2707, rfl⟩
abbrev main_call183_v0 : Ref sig .tc := ⟨.hbm, 2708, rfl⟩
abbrev main_call183_v1 : Ref sig .tc := ⟨.hbm, 2709, rfl⟩
abbrev main_call183_v2 : Ref sig .tc := ⟨.hbm, 2710, rfl⟩
abbrev main_call183_v3 : Ref sig .tc := ⟨.hbm, 2711, rfl⟩
abbrev main_call183_v4 : Ref sig .tc := ⟨.hbm, 2712, rfl⟩
abbrev main_call183_v5 : Ref sig .tc := ⟨.hbm, 2713, rfl⟩
abbrev main_call183_v6 : Ref sig .tc := ⟨.hbm, 2714, rfl⟩
abbrev main_call183_v7 : Ref sig .tc := ⟨.hbm, 2715, rfl⟩
abbrev main_call183_c : Ref sig .tc := ⟨.hbm, 2716, rfl⟩
abbrev main_call183_v8 : Ref sig .tc := ⟨.hbm, 2717, rfl⟩
abbrev main_call183_v9 : Ref sig .tc := ⟨.hbm, 2718, rfl⟩
abbrev main_call183_v10 : Ref sig .tc := ⟨.hbm, 2719, rfl⟩
abbrev main_call183_c_0 : Ref sig .tc := ⟨.hbm, 2720, rfl⟩
abbrev main_call183_v11 : Ref sig .tc := ⟨.hbm, 2721, rfl⟩
abbrev main_call183_v12 : Ref sig .tc := ⟨.hbm, 2722, rfl⟩
abbrev main_v563 : Ref sig .tc := ⟨.hbm, 2723, rfl⟩
abbrev main_c_216 : Ref sig .tc := ⟨.hbm, 2724, rfl⟩
abbrev main_call184_v0 : Ref sig .tc := ⟨.hbm, 2725, rfl⟩
abbrev main_call184_c : Ref sig .tc := ⟨.hbm, 2726, rfl⟩
abbrev main_call184_v1 : Ref sig .tc := ⟨.hbm, 2727, rfl⟩
abbrev main_call184_c_0 : Ref sig .tc := ⟨.hbm, 2728, rfl⟩
abbrev main_call184_v2 : Ref sig .tc := ⟨.hbm, 2729, rfl⟩
abbrev main_call184_v3 : Ref sig .tc := ⟨.hbm, 2730, rfl⟩
abbrev main_call184_v4 : Ref sig .tc := ⟨.hbm, 2731, rfl⟩
abbrev main_call184_c_1 : Ref sig .tc := ⟨.hbm, 2732, rfl⟩
abbrev main_call184_v5 : Ref sig .tc := ⟨.hbm, 2733, rfl⟩
abbrev main_call184_v6 : Ref sig .tc := ⟨.hbm, 2734, rfl⟩
abbrev main_call184_c_2 : Ref sig .tc := ⟨.hbm, 2735, rfl⟩
abbrev main_call184_v7 : Ref sig .tc := ⟨.hbm, 2736, rfl⟩
abbrev main_call184_v8 : Ref sig .tc := ⟨.hbm, 2737, rfl⟩
abbrev main_call184_c_3 : Ref sig .tc := ⟨.hbm, 2738, rfl⟩
abbrev main_call184_v9 : Ref sig .tc := ⟨.hbm, 2739, rfl⟩
abbrev main_call184_v10 : Ref sig .tc := ⟨.hbm, 2740, rfl⟩
abbrev main_call184_v11 : Ref sig .tc := ⟨.hbm, 2741, rfl⟩
abbrev main_call184_v12 : Ref sig .tc := ⟨.hbm, 2742, rfl⟩
abbrev main_call184_v13 : Ref sig .tc := ⟨.hbm, 2743, rfl⟩
abbrev main_call184_v14 : Ref sig .tc := ⟨.hbm, 2744, rfl⟩
abbrev main_v564 : Ref sig .tc := ⟨.hbm, 2745, rfl⟩
abbrev main_call185_c : Ref sig .tc := ⟨.hbm, 2746, rfl⟩
abbrev main_call185_v0 : Ref sig .tc := ⟨.hbm, 2747, rfl⟩
abbrev main_call185_v1 : Ref sig .tc := ⟨.hbm, 2748, rfl⟩
abbrev main_call185_c_0 : Ref sig .tc := ⟨.hbm, 2749, rfl⟩
abbrev main_call185_v2 : Ref sig .tc := ⟨.hbm, 2750, rfl⟩
abbrev main_call185_v3 : Ref sig .tc := ⟨.hbm, 2751, rfl⟩
abbrev main_call185_v4 : Ref sig .tc := ⟨.hbm, 2752, rfl⟩
abbrev main_call185_v5 : Ref sig .tc := ⟨.hbm, 2753, rfl⟩
abbrev main_call185_c_1 : Ref sig .tc := ⟨.hbm, 2754, rfl⟩
abbrev main_call185_c_2 : Ref sig .tc := ⟨.hbm, 2755, rfl⟩
abbrev main_call185_v6 : Ref sig .tc := ⟨.hbm, 2756, rfl⟩
abbrev main_call185_v7 : Ref sig .tc := ⟨.hbm, 2757, rfl⟩
abbrev main_call185_v8 : Ref sig .tc := ⟨.hbm, 2758, rfl⟩
abbrev main_call185_v9 : Ref sig .tc := ⟨.hbm, 2759, rfl⟩
abbrev main_call185_v10 : Ref sig .tc := ⟨.hbm, 2760, rfl⟩
abbrev main_call185_v11 : Ref sig .tc := ⟨.hbm, 2761, rfl⟩
abbrev main_call185_c_3 : Ref sig .tc := ⟨.hbm, 2762, rfl⟩
abbrev main_call185_v12 : Ref sig .tc := ⟨.hbm, 2763, rfl⟩
abbrev main_call185_v13 : Ref sig .tc := ⟨.hbm, 2764, rfl⟩
abbrev main_call185_v14 : Ref sig .tc := ⟨.hbm, 2765, rfl⟩
abbrev main_call185_cst : Ref sig .tc := ⟨.hbm, 2766, rfl⟩
abbrev main_call185_v15 : Ref sig .tc := ⟨.hbm, 2767, rfl⟩
abbrev main_v565 : Ref sig .tc := ⟨.hbm, 2768, rfl⟩
abbrev main_v566 : Ref sig .tc := ⟨.hbm, 2769, rfl⟩
abbrev main_v567 : Ref sig .tc := ⟨.hbm, 2770, rfl⟩
abbrev main_v568 : Ref sig .tc := ⟨.hbm, 2771, rfl⟩
abbrev main_call186_v0 : Ref sig .tc := ⟨.hbm, 2772, rfl⟩
abbrev main_call186_call0_c : Ref sig .tc := ⟨.hbm, 2773, rfl⟩
abbrev main_call186_call0_v0 : Ref sig .tc := ⟨.hbm, 2774, rfl⟩
abbrev main_v569 : Ref sig .tc := ⟨.hbm, 2775, rfl⟩
abbrev main_c_217 : Ref sig .tc := ⟨.hbm, 2776, rfl⟩
abbrev main_v570 : Ref sig .tc := ⟨.hbm, 2777, rfl⟩
abbrev main_c_218 : Ref sig .tc := ⟨.hbm, 2778, rfl⟩
abbrev main_call187_v0 : Ref sig .tc := ⟨.hbm, 2779, rfl⟩
abbrev main_call187_v1 : Ref sig .tc := ⟨.hbm, 2780, rfl⟩
abbrev main_v571 : Ref sig .tc := ⟨.hbm, 2781, rfl⟩
abbrev main_c_219 : Ref sig .tc := ⟨.hbm, 2782, rfl⟩
abbrev main_v572 : Ref sig .tc := ⟨.hbm, 2783, rfl⟩
abbrev main_v573 : Ref sig .tc := ⟨.hbm, 2784, rfl⟩
abbrev main_c_220 : Ref sig .tc := ⟨.hbm, 2785, rfl⟩
abbrev main_v574 : Ref sig .tc := ⟨.hbm, 2786, rfl⟩
abbrev main_v575 : Ref sig .tc := ⟨.hbm, 2787, rfl⟩
abbrev main_v576 : Ref sig .tc := ⟨.hbm, 2788, rfl⟩
abbrev main_v577 : Ref sig .tc := ⟨.hbm, 2789, rfl⟩
abbrev main_c_221 : Ref sig .tc := ⟨.hbm, 2790, rfl⟩
abbrev main_v578 : Ref sig .tc := ⟨.hbm, 2791, rfl⟩
abbrev main_v579 : Ref sig .tc := ⟨.hbm, 2792, rfl⟩
abbrev main_call188_call0_c : Ref sig .tc := ⟨.hbm, 2793, rfl⟩
abbrev main_call188_call0_v0 : Ref sig .tc := ⟨.hbm, 2794, rfl⟩
abbrev main_v580 : Ref sig .tc := ⟨.hbm, 2795, rfl⟩
abbrev main_c_222 : Ref sig .tc := ⟨.hbm, 2796, rfl⟩
abbrev main_call189_v0 : Ref sig .tc := ⟨.hbm, 2797, rfl⟩
abbrev main_call189_v1 : Ref sig .tc := ⟨.hbm, 2798, rfl⟩
abbrev main_call189_v2 : Ref sig .tc := ⟨.hbm, 2799, rfl⟩
abbrev main_call189_v3 : Ref sig .tc := ⟨.hbm, 2800, rfl⟩
abbrev main_call189_v4 : Ref sig .tc := ⟨.hbm, 2801, rfl⟩
abbrev main_call189_v5 : Ref sig .tc := ⟨.hbm, 2802, rfl⟩
abbrev main_call189_v6 : Ref sig .tc := ⟨.hbm, 2803, rfl⟩
abbrev main_call189_v7 : Ref sig .tc := ⟨.hbm, 2804, rfl⟩
abbrev main_call189_c : Ref sig .tc := ⟨.hbm, 2805, rfl⟩
abbrev main_call189_v8 : Ref sig .tc := ⟨.hbm, 2806, rfl⟩
abbrev main_call189_v9 : Ref sig .tc := ⟨.hbm, 2807, rfl⟩
abbrev main_call189_v10 : Ref sig .tc := ⟨.hbm, 2808, rfl⟩
abbrev main_call189_c_0 : Ref sig .tc := ⟨.hbm, 2809, rfl⟩
abbrev main_call189_v11 : Ref sig .tc := ⟨.hbm, 2810, rfl⟩
abbrev main_call189_v12 : Ref sig .tc := ⟨.hbm, 2811, rfl⟩
abbrev main_v581 : Ref sig .tc := ⟨.hbm, 2812, rfl⟩
abbrev main_c_223 : Ref sig .tc := ⟨.hbm, 2813, rfl⟩
abbrev main_call190_v0 : Ref sig .tc := ⟨.hbm, 2814, rfl⟩
abbrev main_call190_c : Ref sig .tc := ⟨.hbm, 2815, rfl⟩
abbrev main_call190_v1 : Ref sig .tc := ⟨.hbm, 2816, rfl⟩
abbrev main_call190_c_0 : Ref sig .tc := ⟨.hbm, 2817, rfl⟩
abbrev main_call190_v2 : Ref sig .tc := ⟨.hbm, 2818, rfl⟩
abbrev main_call190_v3 : Ref sig .tc := ⟨.hbm, 2819, rfl⟩
abbrev main_call190_v4 : Ref sig .tc := ⟨.hbm, 2820, rfl⟩
abbrev main_call190_c_1 : Ref sig .tc := ⟨.hbm, 2821, rfl⟩
abbrev main_call190_v5 : Ref sig .tc := ⟨.hbm, 2822, rfl⟩
abbrev main_call190_v6 : Ref sig .tc := ⟨.hbm, 2823, rfl⟩
abbrev main_call190_c_2 : Ref sig .tc := ⟨.hbm, 2824, rfl⟩
abbrev main_call190_v7 : Ref sig .tc := ⟨.hbm, 2825, rfl⟩
abbrev main_call190_v8 : Ref sig .tc := ⟨.hbm, 2826, rfl⟩
abbrev main_call190_c_3 : Ref sig .tc := ⟨.hbm, 2827, rfl⟩
abbrev main_call190_v9 : Ref sig .tc := ⟨.hbm, 2828, rfl⟩
abbrev main_call190_v10 : Ref sig .tc := ⟨.hbm, 2829, rfl⟩
abbrev main_call190_v11 : Ref sig .tc := ⟨.hbm, 2830, rfl⟩
abbrev main_call190_v12 : Ref sig .tc := ⟨.hbm, 2831, rfl⟩
abbrev main_call190_v13 : Ref sig .tc := ⟨.hbm, 2832, rfl⟩
abbrev main_call190_v14 : Ref sig .tc := ⟨.hbm, 2833, rfl⟩
abbrev main_v582 : Ref sig .tc := ⟨.hbm, 2834, rfl⟩
abbrev main_call191_c : Ref sig .tc := ⟨.hbm, 2835, rfl⟩
abbrev main_call191_v0 : Ref sig .tc := ⟨.hbm, 2836, rfl⟩
abbrev main_call191_v1 : Ref sig .tc := ⟨.hbm, 2837, rfl⟩
abbrev main_call191_c_0 : Ref sig .tc := ⟨.hbm, 2838, rfl⟩
abbrev main_call191_v2 : Ref sig .tc := ⟨.hbm, 2839, rfl⟩
abbrev main_call191_v3 : Ref sig .tc := ⟨.hbm, 2840, rfl⟩
abbrev main_call191_v4 : Ref sig .tc := ⟨.hbm, 2841, rfl⟩
abbrev main_call191_v5 : Ref sig .tc := ⟨.hbm, 2842, rfl⟩
abbrev main_call191_c_1 : Ref sig .tc := ⟨.hbm, 2843, rfl⟩
abbrev main_call191_c_2 : Ref sig .tc := ⟨.hbm, 2844, rfl⟩
abbrev main_call191_v6 : Ref sig .tc := ⟨.hbm, 2845, rfl⟩
abbrev main_call191_v7 : Ref sig .tc := ⟨.hbm, 2846, rfl⟩
abbrev main_call191_v8 : Ref sig .tc := ⟨.hbm, 2847, rfl⟩
abbrev main_call191_v9 : Ref sig .tc := ⟨.hbm, 2848, rfl⟩
abbrev main_call191_v10 : Ref sig .tc := ⟨.hbm, 2849, rfl⟩
abbrev main_call191_v11 : Ref sig .tc := ⟨.hbm, 2850, rfl⟩
abbrev main_call191_c_3 : Ref sig .tc := ⟨.hbm, 2851, rfl⟩
abbrev main_call191_v12 : Ref sig .tc := ⟨.hbm, 2852, rfl⟩
abbrev main_call191_v13 : Ref sig .tc := ⟨.hbm, 2853, rfl⟩
abbrev main_call191_v14 : Ref sig .tc := ⟨.hbm, 2854, rfl⟩
abbrev main_call191_cst : Ref sig .tc := ⟨.hbm, 2855, rfl⟩
abbrev main_call191_v15 : Ref sig .tc := ⟨.hbm, 2856, rfl⟩
abbrev main_v583 : Ref sig .tc := ⟨.hbm, 2857, rfl⟩
abbrev main_v584 : Ref sig .tc := ⟨.hbm, 2858, rfl⟩
abbrev main_v585 : Ref sig .tc := ⟨.hbm, 2859, rfl⟩
abbrev main_v586 : Ref sig .tc := ⟨.hbm, 2860, rfl⟩
abbrev main_v587 : Ref sig .tc := ⟨.hbm, 2861, rfl⟩
abbrev main_v588 : Ref sig .tc := ⟨.hbm, 2862, rfl⟩

abbrev nD : Nat := 1
abbrev τ : Topo := Topo.v7x

variable {F : FTy → Type} [FloatOps F]

class Facts₀ : Prop where
  transposes_S1x32x1024_S1024x32x1_2_1_0 : S1x32x1024.Transposes [2, 1, 0] S1024x32x1
  bcast_S_S1024x1024 : S_.BroadcastsInDim S1024x1024 (![] : Fin 0 → Fin S1024x1024.rank)
  slices_S1024x32x1_S1024x1x1_0_0_0 : S1024x32x1.Slices ![0, 0, 0] S1024x1x1
  shapeCasts_S1024x1x1_S1024 : S1024x1x1.ShapeCasts S1024
  natLt_1_32 : 1 < 32
  bcast_S_S_ : S_.BroadcastsInDim S_ (![] : Fin 0 → Fin S_.rank)
  reduceWindows_S1024_S1024_w1024s1p1023_0 : S1024.ReduceWindows (![1024] : Fin 1 → Nat) ![1] ![1023] ![0] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x1024_0 : S1024.BroadcastsInDim S1024x1024 (![0] : Fin 1 → Fin S1024x1024.rank)
  slices_S1024x32x1_S1024x1x1_0_1_0 : S1024x32x1.Slices ![0, 1, 0] S1024x1x1
  slices_S1024x32x1_S1024x1x1_0_2_0 : S1024x32x1.Slices ![0, 2, 0] S1024x1x1
  slices_S1024x32x1_S1024x1x1_0_3_0 : S1024x32x1.Slices ![0, 3, 0] S1024x1x1
  slices_S1024x32x1_S1024x1x1_0_4_0 : S1024x32x1.Slices ![0, 4, 0] S1024x1x1
  slices_S1024x32x1_S1024x1x1_0_5_0 : S1024x32x1.Slices ![0, 5, 0] S1024x1x1
  slices_S1024x32x1_S1024x1x1_0_6_0 : S1024x32x1.Slices ![0, 6, 0] S1024x1x1
  slices_S1024x32x1_S1024x1x1_0_7_0 : S1024x32x1.Slices ![0, 7, 0] S1024x1x1
  slices_S1024x32x1_S1024x1x1_0_8_0 : S1024x32x1.Slices ![0, 8, 0] S1024x1x1
  slices_S1024x32x1_S1024x1x1_0_9_0 : S1024x32x1.Slices ![0, 9, 0] S1024x1x1
  slices_S1024x32x1_S1024x1x1_0_10_0 : S1024x32x1.Slices ![0, 10, 0] S1024x1x1
  slices_S1024x32x1_S1024x1x1_0_11_0 : S1024x32x1.Slices ![0, 11, 0] S1024x1x1
  slices_S1024x32x1_S1024x1x1_0_12_0 : S1024x32x1.Slices ![0, 12, 0] S1024x1x1
  slices_S1024x32x1_S1024x1x1_0_13_0 : S1024x32x1.Slices ![0, 13, 0] S1024x1x1
  slices_S1024x32x1_S1024x1x1_0_14_0 : S1024x32x1.Slices ![0, 14, 0] S1024x1x1
  slices_S1024x32x1_S1024x1x1_0_15_0 : S1024x32x1.Slices ![0, 15, 0] S1024x1x1
  slices_S1024x32x1_S1024x1x1_0_16_0 : S1024x32x1.Slices ![0, 16, 0] S1024x1x1
  slices_S1024x32x1_S1024x1x1_0_17_0 : S1024x32x1.Slices ![0, 17, 0] S1024x1x1
  slices_S1024x32x1_S1024x1x1_0_18_0 : S1024x32x1.Slices ![0, 18, 0] S1024x1x1
  slices_S1024x32x1_S1024x1x1_0_19_0 : S1024x32x1.Slices ![0, 19, 0] S1024x1x1
  slices_S1024x32x1_S1024x1x1_0_20_0 : S1024x32x1.Slices ![0, 20, 0] S1024x1x1
  slices_S1024x32x1_S1024x1x1_0_21_0 : S1024x32x1.Slices ![0, 21, 0] S1024x1x1
  slices_S1024x32x1_S1024x1x1_0_22_0 : S1024x32x1.Slices ![0, 22, 0] S1024x1x1
  slices_S1024x32x1_S1024x1x1_0_23_0 : S1024x32x1.Slices ![0, 23, 0] S1024x1x1
  slices_S1024x32x1_S1024x1x1_0_24_0 : S1024x32x1.Slices ![0, 24, 0] S1024x1x1
  slices_S1024x32x1_S1024x1x1_0_25_0 : S1024x32x1.Slices ![0, 25, 0] S1024x1x1
  slices_S1024x32x1_S1024x1x1_0_26_0 : S1024x32x1.Slices ![0, 26, 0] S1024x1x1
  slices_S1024x32x1_S1024x1x1_0_27_0 : S1024x32x1.Slices ![0, 27, 0] S1024x1x1
  slices_S1024x32x1_S1024x1x1_0_28_0 : S1024x32x1.Slices ![0, 28, 0] S1024x1x1
  slices_S1024x32x1_S1024x1x1_0_29_0 : S1024x32x1.Slices ![0, 29, 0] S1024x1x1
  slices_S1024x32x1_S1024x1x1_0_30_0 : S1024x32x1.Slices ![0, 30, 0] S1024x1x1
  slices_S1024x32x1_S1024x1x1_0_31_0 : S1024x32x1.Slices ![0, 31, 0] S1024x1x1
  concatenates_S1024x1024_S1024x1024_S1024x1024_S1024x1024_S1024x1024_S1024x1024_S1024x1024_S1024x1024_S1024x1024_S1024x1024_S1024x1024_S1024x1024_S1024x1024_S1024x1024_S1024x1024_S1024x1024_S16384x1024_d0 : Shape.Concatenates [S1024x1024, S1024x1024, S1024x1024, S1024x1024, S1024x1024, S1024x1024, S1024x1024, S1024x1024, S1024x1024, S1024x1024, S1024x1024, S1024x1024, S1024x1024, S1024x1024, S1024x1024, S1024x1024] S16384x1024 0
  concatenates_S16384x1024_S16384x1024_S32768x1024_d0 : Shape.Concatenates [S16384x1024, S16384x1024] S32768x1024 0
  slices_S32768x1024_S32768x1023_0_1 : S32768x1024.Slices ![0, 1] S32768x1023
  shapeCasts_S32768x1023_S1x32768x1023 : S32768x1023.ShapeCasts S1x32768x1023
  scatter_S1024_S1024x1_S1024_n_0_0_1_wf : ScatterDims.WF S1024 S1024x1 S1024 [] [0] [0] 1
  gather_S1024x1024_S1024x1_S1024x1024_1_0_n_n_0_1_11024_wf : GatherDims.WF S1024x1024 S1024x1 S1024x1024 [1] [0] [] [0] [] 1 ![1, 1024]

variable [Facts₀]

def scatter_S1024_S1024x1_S1024_n_0_0_1 : ScatterDims S1024 S1024x1 S1024 where
  updateWindowDims := []
  insertedWindowDims := [0]
  scatterDimsToOperandDims := [0]
  indexVectorDim := 1
  wf := scatter_S1024_S1024x1_S1024_n_0_0_1_wf
def gather_S1024x1024_S1024x1_S1024x1024_1_0_n_n_0_1_11024 : GatherDims S1024x1024 S1024x1 S1024x1024 where
  offsetDims := [1]
  collapsedSliceDims := [0]
  operandBatchingDims := []
  startIndicesBatchingDims := []
  startIndexMap := [0]
  indexVectorDim := 1
  sliceSizes := ![1, 1024]
  wf := gather_S1024x1024_S1024x1_S1024x1024_1_0_n_n_0_1_11024_wf

class Facts : Prop extends Facts₀ where

variable [Facts]
-- ==== Proof.Spec.lean ====
/-
  The array both programs end at, as one function of the result index.

  The result has shape [1, 32768, 1023]: 32 time steps, each a block of 1024 rows, each row 1023 columns wide.  When no
  entry of the input is NaN — and an extended real never is — every unit is observed at every time step, so unit `n`
  is compacted to row `n` of its step's block, and the block is the 1024 × 1024 identity matrix with its first column
  dropped.  Row `q` of the result is row `q % 1024` of step `q / 1024`, hence entry `(0, q, c)` is one exactly
  when `q % 1024 = c + 1`, and zero otherwise.  The function does not depend on the input.
-/
import Idealize.ShloMosaic.PureOps.Ideal

noncomputable section

namespace Cert.Spec

open Idealize.ShloMosaic

/-- Entry `(0, q, c)` is one when row `q % 1024` of the identity meets column `c + 1`, zero otherwise. -/
def G : FVec Ideal ⟨3, ![1, 32768, 1023]⟩ .f32 :=
  fun i => if (i 1).val % 1024 = (i 2).val + 1 then (1 : EReal) else 0

end Cert.Spec

end
-- ==== Proof.KernPieces.lean ====
/-
  What each control case of the kernel body leaves behind, for any float model: the first grid point stores the
  whole table computed from the input block and then writes the output block computed from one row of that table;
  every later point writes the output block computed from one row of the table carried over from the point before.
  Each statement reads the stores the body's run found back as values.
-/
import proofs.«136319_g61624190763689_cont_9to1_m_335_26_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.HandValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The one row of the carried table that grid point `i` loads: row `i 0`, all 1023 columns. -/
abbrev rowRect (i : grid0.Coords) : Rect S32x1023 :=
  Rect.unit (s := S32x1023) (k0_off1 i) S1x1023.size (k0_off1_inb i)

/-- At the first grid point the carried table ends as the table payload of the input block. -/
theorem table_first (c : Dev nD) (i : grid0.Coords) (arg1 : Memref sig .tc .vmem S1x32x1024 .f32) (harg1 : arg1.IsWhole) (arg2 : Memref sig .tc .vmem S1x1024x1023 .f32) (harg2 : arg2.IsWhole) (arg3 : Memref sig .tc .vmem S32x1023 .f32) (harg3 : arg3.IsWhole) (hc0 : cond0_0 i) (x0 : Vec F S1x32x1024 .f32) :
    sout0_A_0 c i arg1 harg1 arg2 harg2 arg3 harg3 hc0 x0 = k0_pay1 x0 := by
  unfold sout0_A_0
  rw [View.read_writes_eq_canon _ _ _ (scover0_A_0 c i arg1 harg1 arg2 harg2 arg3 harg3 hc0 x0)]
  unfold kernelRun0_A
  dsimp only
  sl_unfold_words
  rw [View.canon_unit_zero hz2]
  simp only [View.readAt_eq_ld, harg1.read_unread, View.ld_unit_zero (S := S1x32x1024) hz3]

/-- At the first grid point the output block is the block payload of the row just stored into the table. -/
theorem block_first (c : Dev nD) (i : grid0.Coords) (arg1 : Memref sig .tc .vmem S1x32x1024 .f32) (harg1 : arg1.IsWhole) (arg2 : Memref sig .tc .vmem S1x1024x1023 .f32) (harg2 : arg2.IsWhole) (arg3 : Memref sig .tc .vmem S32x1023 .f32) (harg3 : arg3.IsWhole) (hc0 : cond0_0 i) (x0 : Vec F S1x32x1024 .f32) :
    out0_A_1 c i arg1 harg1 arg2 harg2 arg3 harg3 hc0 x0 = k0_pay2 (View.ld (k0_pay1 x0) (rowRect i)) := by
  unfold out0_A_1
  rw [View.read_writes_eq_canon _ _ _ (cover0_A_1 c i arg1 harg1 arg2 harg2 arg3 harg3 hc0 x0)]
  unfold kernelRun0_A
  dsimp only
  sl_unfold_words
  rw [View.canon_unit_zero hz3]
  simp only [View.readAt_eq_ld]
  rw [View.read_writes_eq_canon _ _ _ (fun y => ⟨_, List.mem_singleton_self _, View.mem_set_unit_zero hz2 inb_S32x1023_S32x1023_0_0 y⟩),
    View.canon_unit_zero hz2]
  simp only [harg1.read_unread, View.ld_unit_zero (S := S1x32x1024) hz3]
  rfl

/-- At a later grid point the output block is the block payload of a row of the table carried in. -/
theorem block_later (c : Dev nD) (i : grid0.Coords) (arg1 : Memref sig .tc .vmem S1x32x1024 .f32) (harg1 : arg1.IsWhole) (arg2 : Memref sig .tc .vmem S1x1024x1023 .f32) (harg2 : arg2.IsWhole) (arg3 : Memref sig .tc .vmem S32x1023 .f32) (harg3 : arg3.IsWhole) (hc0 : ¬cond0_0 i) (x0 : Vec F S1x32x1024 .f32) (xs0 : Vec F S32x1023 .f32) :
    out0_B_1 c i arg1 harg1 arg2 harg2 arg3 harg3 hc0 x0 xs0 = k0_pay2 (View.ld xs0 (rowRect i)) := by
  unfold out0_B_1
  rw [View.read_writes_eq_canon _ _ _ (cover0_B_1 c i arg1 harg1 arg2 harg2 arg3 harg3 hc0 x0 xs0)]
  unfold kernelRun0_B
  dsimp only
  try sl_unfold_words
  rw [View.canon_unit_zero hz3]
  simp only [View.readAt_eq_ld, harg3.read_unread]
  rfl

end Cert.KernelIdeal.HandValue

end
-- ==== Proof.KernLits.lean ====
/-
  The two float words the kernel's arithmetic needs as extended reals: the word of 1.0 is one, and one lies
  strictly above the word of 0.0 (which the library already reads as zero).
-/
import Idealize.ShloMosaic.PureOps.Ideal.Laws

noncomputable section

namespace Cert.KernelIdeal.HandValue

open Idealize.ShloMosaic

/-- The single-precision word of 1.0 denotes the extended real one. -/
theorem lit_one : Ideal.ofBits .f32 0x3F800000#32 = (1 : EReal) := by
  simp [Ideal.ofBits, Ideal.ieee, -EReal.coe_mul]
  norm_num

/-- The word of 0.0 lies strictly below the word of 1.0. -/
theorem lit_zero_lt_one : (Ideal.ofBits .f32 0x00000000#32 : EReal) < Ideal.ofBits .f32 0x3F800000#32 := by
  rw [lit_one, Ideal.ofBits_zero_f32]; exact zero_lt_one

end Cert.KernelIdeal.HandValue

end
-- ==== Proof.KernArith.lean ====
/-
  Pure arithmetic behind the kernel's table: small machine integers read signed are themselves, their signed
  comparison is the comparison of the numbers, the number of k below 1024 with k ≤ n is n + 1, and the casts
  between naturals, integers, reals and extended reals that join these facts; and a select on a comparison of
  extended reals written as an if-then-else on the comparison itself.
-/
import Idealize.ShloMosaic.PureOps.Ideal.Laws
import Mathlib.Order.Interval.Finset.Fin

noncomputable section

namespace Cert.KernelIdeal.HandValue

open Idealize.ShloMosaic

/-- A 32-bit word holding a number below 1024 reads, signed, as that number. -/
theorem toInt_ofNat_small : ∀ r : Fin 1024, (BitVec.ofNat 32 r.val).toInt = (r.val : ℤ) := by decide +kernel

/-- Signed less-or-equal of two such words is less-or-equal of the numbers. -/
theorem sle_ofNat_small (i j : Fin 1024) :
    IntOp.cmpi .sle (BitVec.ofNat 32 i.val) (BitVec.ofNat 32 j.val) = if i.val ≤ j.val then 1#1 else 0#1 := by
  show BitVec.ofBool (decide ((BitVec.ofNat 32 i.val).toInt ≤ (BitVec.ofNat 32 j.val).toInt)) = _
  rw [toInt_ofNat_small, toInt_ofNat_small]
  by_cases h : i.val ≤ j.val
  · rw [if_pos h, decide_eq_true (Int.ofNat_le.mpr h)]; rfl
  · rw [if_neg h, decide_eq_false (fun h' => h (Int.ofNat_le.mp h'))]; rfl

/-- Summing one over the k ≤ n and zero over the others, k below 1024, gives n + 1. -/
theorem count_le {N : ℕ} (n : Fin N) :
    (∑ k : Fin N, if k.val ≤ n.val then (1 : EReal) else 0) = (((n.val + 1 : ℕ) : ℝ) : EReal) := by
  rw [Finset.sum_ite, Finset.sum_const_zero, add_zero, Finset.sum_const, nsmul_one]
  have hc : (Finset.univ.filter fun k : Fin N => k.val ≤ n.val).card = n.val + 1 := by
    rw [show (Finset.univ.filter fun k : Fin N => k.val ≤ n.val) = Finset.Iic n from
      Finset.ext fun k => by
        rw [Finset.mem_filter, Finset.mem_Iic]
        exact ⟨fun h => h.2, fun h => ⟨Finset.mem_univ k, h⟩⟩]
    exact Fin.card_Iic n
  rw [hc]
  exact EReal.coe_natCast.symm

/-- n + 1 less one is n, among the extended reals. -/
theorem succ_sub_one (n : ℕ) : (((n + 1 : ℕ) : ℝ) : EReal) - 1 = ((n : ℝ) : EReal) := by
  rw [← EReal.coe_one, ← EReal.coe_sub]
  congr 1
  push_cast
  ring

/-- The extended real c + 1 equals the extended real of the integer r exactly when r = c + 1. -/
theorem coe_succ_eq_coe_int_iff (c r : ℕ) :
    ((((c + 1 : ℕ) : ℝ) : EReal) = ((((r : ℤ)) : ℝ) : EReal)) ↔ r = c + 1 := by
  rw [EReal.coe_eq_coe_iff, Int.cast_natCast, Nat.cast_inj]
  exact eq_comm

/-- Selecting on "equal" between extended reals. -/
theorem select_oeq (a b x y : EReal) : Scalar.select (Ideal.cmp .oeq a b) x y = if a = b then x else y := by
  by_cases h : a = b
  · rw [if_pos h]
    show Scalar.select (BitVec.ofBool (decide (a = b))) x y = x
    rw [decide_eq_true h]; exact if_pos rfl
  · rw [if_neg h]
    show Scalar.select (BitVec.ofBool (decide (a = b))) x y = y
    rw [decide_eq_false h]; exact if_neg (by decide)

/-- Selecting on "greater than" between extended reals. -/
theorem select_ogt (a b x y : EReal) : Scalar.select (Ideal.cmp .ogt a b) x y = if b < a then x else y := by
  by_cases h : b < a
  · rw [if_pos h]
    show Scalar.select (BitVec.ofBool (decide (b < a))) x y = x
    rw [decide_eq_true h]; exact if_pos rfl
  · rw [if_neg h]
    show Scalar.select (BitVec.ofBool (decide (b < a))) x y = y
    rw [decide_eq_false h]; exact if_neg (by decide)

/-- No extended real differs from itself, so selecting on "differs from itself" takes the second value. -/
theorem select_one_self (a x y : EReal) : Scalar.select (Ideal.cmp .one a a) x y = y := by
  show Scalar.select (BitVec.ofBool (decide (a ≠ a))) x y = y
  rw [decide_eq_false (fun h => h rfl)]; exact if_neg (by decide)

end Cert.KernelIdeal.HandValue

end
-- ==== Proof.KernTable.lean ====
/-
  The carried table's payload over the extended reals. No extended real differs from itself, so the observation
  mask is one everywhere; its product with the upper-triangular matrix of ones counts, in column n, the k ≤ n,
  which is n + 1; less one that is n; and since the mask is positive the table keeps, in column c, the count of
  column c + 1 less one: c + 1. The entry depends on neither the input block nor the row.
-/
import proofs.«136319_g61624190763689_cont_9to1_m_335_26_alg».proof.Proof.Gen.KernelIdeal.Skeleton
import proofs.«136319_g61624190763689_cont_9to1_m_335_26_alg».proof.Proof.KernLits
import proofs.«136319_g61624190763689_cont_9to1_m_335_26_alg».proof.Proof.KernArith
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.HandValue

open Cert.KernelIdeal Cert.KernelIdeal.Gen

open Idealize.ShloMosaic.ValueIdx

/-- The contraction pattern of the kernel's one matrix product: rows of the left factor against columns of the right. -/
abbrev DD : DotDims S32x1024 S1024x1024 S32x1024 := dot_S32x1024_S1024x1024_S32x1024_1_0_0_1_n_n

/-- The observation mask of the input block: zero where an entry differs from itself, one elsewhere. -/
def mask (x : Vec Ideal S1x32x1024 .f32) : FVec Ideal S32x1024 .f32 :=
  have xm : FVec Ideal S32x1024 .f32 := shapeCast S32x1024 x shapeCasts_S1x32x1024_S32x1024
  select (cmpf .one xm xm)
    (broadcast S32x1024 (Scalar.ofBits (F := Ideal) .f32 0x00000000#32)) (broadcast S32x1024 (Scalar.ofBits (F := Ideal) .f32 0x3F800000#32))

/-- Over the extended reals nothing differs from itself: the mask is one everywhere. -/
theorem mask_apply (x : Vec Ideal S1x32x1024 .f32) (j : S32x1024.Idx) : mask x j = 1 := by
  show Scalar.select (Ideal.cmp .one ((shapeCast S32x1024 x shapeCasts_S1x32x1024_S32x1024 : FVec Ideal S32x1024 .f32) j) ((shapeCast S32x1024 x shapeCasts_S1x32x1024_S32x1024 : FVec Ideal S32x1024 .f32) j))
    (Ideal.ofBits .f32 0x00000000#32) (Ideal.ofBits .f32 0x3F800000#32) = 1
  rw [select_one_self, lit_one]

/-- The upper-triangular matrix of ones: entry (i, j) is one when i ≤ j. -/
def tri : FVec Ideal S1024x1024 .f32 :=
  select (cmpi .sle (iota .tc S1024x1024 32 [0] iota_S1024x1024_d0_w32) (iota .tc S1024x1024 32 [1] iota_S1024x1024_d1_w32))
    (broadcast S1024x1024 (Scalar.ofBits (F := Ideal) .f32 0x3F800000#32)) (broadcast S1024x1024 (Scalar.ofBits (F := Ideal) .f32 0x00000000#32))

theorem tri_apply (i j : Fin 1024) : tri (ix2 i j) = if i.val ≤ j.val then (1 : EReal) else 0 := by
  show Scalar.select (IntOp.cmpi .sle (iota .tc S1024x1024 32 [0] iota_S1024x1024_d0_w32 (ix2 i j)) (iota .tc S1024x1024 32 [1] iota_S1024x1024_d1_w32 (ix2 i j)))
    (Ideal.ofBits .f32 0x3F800000#32) (Ideal.ofBits .f32 0x00000000#32) = _
  rw [iota_single_apply, iota_single_apply]
  show Scalar.select (IntOp.cmpi .sle (BitVec.ofNat 32 i.val) (BitVec.ofNat 32 j.val)) _ _ = _
  rw [sle_ofNat_small]
  by_cases h : i.val ≤ j.val
  · rw [if_pos h, if_pos h, lit_one]; exact if_pos rfl
  · rw [if_neg h, if_neg h, Ideal.ofBits_zero_f32]; exact if_neg (by decide)

theorem tri_at (q : S1024x1024.Idx) : tri q = if (q 0).val ≤ (q 1).val then (1 : EReal) else 0 := by
  obtain ⟨i, j, rfl⟩ : ∃ (i j : Fin 1024), q = ix2 i j := ⟨q 0, q 1, eq_ix2 q⟩
  exact tri_apply i j

/-- The right factor is read at (contraction position, output column). -/
theorem rhs_row (j : S32x1024.Idx) (k : DD.contr.Idx) :
    (DD.rhsIdx j k 0).val = (contrEquiv1 DD 1024 rfl rfl k).val :=
  (DD.rhsIdx_val_of_single rfl j k).trans rfl

theorem rhs_col (j : S32x1024.Idx) (k : DD.contr.Idx) : (DD.rhsIdx j k 1).val = (j 1).val := by
  first
    | rfl
    | (simp [DotDims.rhsIdx, DD, dot_S32x1024_S1024x1024_S32x1024_1_0_0_1_n_n]; done)
    | (simp [DotDims.rhsIdx, DD, dot_S32x1024_S1024x1024_S32x1024_1_0_0_1_n_n]; rfl)

/-- The product of the all-ones mask with the triangle, into zero: entry (s, n) counts the k ≤ n, which is n + 1. -/
theorem prefix_count (x : Vec Ideal S1x32x1024 .f32) (s : Fin 32) (n : Fin 1024) :
    matmul DD none (mask x) tri (constant S32x1024 .f32 0x00000000#32) (ix2 s n) = (((n.val + 1 : ℕ) : ℝ) : EReal) := by
  refine (Ideal.matmul_constant_zero_apply DD none (mask x) tri (ix2 s n)).trans ?_
  have hterm : ∀ k : DD.contr.Idx, mask x (DD.lhsIdx (ix2 s n) k) * tri (DD.rhsIdx (ix2 s n) k)
      = (fun i : Fin 1024 => if i.val ≤ n.val then (1 : EReal) else 0) (contrEquiv1 DD 1024 rfl rfl k) := fun k => by
    rw [mask_apply, one_mul, tri_at, rhs_row, rhs_col]
  refine (Finset.sum_congr rfl (fun k _ => hterm k)).trans ?_
  exact (Equiv.sum_comp (contrEquiv1 DD 1024 rfl rfl) (fun i : Fin 1024 => if i.val ≤ n.val then (1 : EReal) else 0)).trans
    (count_le n)

/-- The table payload at an entry: column c holds c + 1, whatever the input block and whatever the row. -/
theorem table_apply (x : Vec Ideal S1x32x1024 .f32) (s : Fin 32) (c : Fin 1023) :
    k0_pay1 (F := Ideal) x (ix2 s c) = (((c.val + 1 : ℕ) : ℝ) : EReal) := by
  unfold k0_pay1
  dsimp only
  refine (congrFun (shapeCast_self _ shapeCasts_S32x1023_S32x1023) (ix2 s c)).trans ?_
  have hc : c.val + 1 < 1024 := by have := c.isLt; omega
  have hk : ∀ a : Fin S32x1024.rank, ((ix2 s (⟨c.val + 1, hc⟩ : Fin 1024) : S32x1024.Idx) a).val
      = (![0, 1] : Fin 2 → Nat) a + ((ix2 s c : S32x1023.Idx) (a.cast slices_S32x1024_o0_1_S32x1023.1.symm)).val :=
    fun a => match a with
      | ⟨0, _⟩ => by show s.val = 0 + s.val; omega
      | ⟨1, _⟩ => by show c.val + 1 = 1 + c.val; omega
  have hm : extractStridedSlice S32x1023 ![0, 1] (mask x) slices_S32x1024_o0_1_S32x1023 (ix2 s c) = 1 :=
    (extractStridedSlice_apply ![0, 1] (mask x) slices_S32x1024_o0_1_S32x1023 (ix2 s c) (ix2 s ⟨c.val + 1, hc⟩) hk).trans
      (mask_apply x _)
  have hd : extractStridedSlice S32x1023 ![0, 1]
      (subf (matmul DD none (mask x) tri (constant S32x1024 .f32 0x00000000#32))
        (broadcast S32x1024 (Scalar.ofBits (F := Ideal) .f32 0x3F800000#32)))
      slices_S32x1024_o0_1_S32x1023 (ix2 s c) = (((c.val + 1 : ℕ) : ℝ) : EReal) := by
    refine (extractStridedSlice_apply ![0, 1] _ slices_S32x1024_o0_1_S32x1023 (ix2 s c) (ix2 s ⟨c.val + 1, hc⟩) hk).trans ?_
    show matmul DD none (mask x) tri (constant S32x1024 .f32 0x00000000#32) (ix2 s ⟨c.val + 1, hc⟩)
      - Ideal.ofBits .f32 0x3F800000#32 = _
    rw [prefix_count, lit_one, succ_sub_one]
  show Scalar.select (Ideal.cmp .ogt (extractStridedSlice S32x1023 ![0, 1] (mask x) slices_S32x1024_o0_1_S32x1023 (ix2 s c)) (Ideal.ofBits .f32 0x00000000#32))
      (extractStridedSlice S32x1023 ![0, 1]
        (subf (matmul DD none (mask x) tri (constant S32x1024 .f32 0x00000000#32))
          (broadcast S32x1024 (Scalar.ofBits (F := Ideal) .f32 0x3F800000#32)))
        slices_S32x1024_o0_1_S32x1023 (ix2 s c))
      (Ideal.ofBits .f32 0xC0000000#32) = _
  rw [hm, hd, select_ogt, Ideal.ofBits_zero_f32, if_pos zero_lt_one]

end Cert.KernelIdeal.HandValue

end
-- ==== Proof.KernBlock.lean ====
/-
  The output block's payload over the extended reals: entry (0, r, c) is one when the loaded table row's entry in
  column c equals the row number r, and zero otherwise. The row numbers come from a column of machine integers
  converted to floats, which over the extended reals is the number itself.
-/
import proofs.«136319_g61624190763689_cont_9to1_m_335_26_alg».proof.Proof.Gen.KernelIdeal.Skeleton
import proofs.«136319_g61624190763689_cont_9to1_m_335_26_alg».proof.Proof.KernLits
import proofs.«136319_g61624190763689_cont_9to1_m_335_26_alg».proof.Proof.KernArith
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)

namespace Cert.KernelIdeal.HandValue

open Cert.KernelIdeal Cert.KernelIdeal.Gen

open Idealize.ShloMosaic.ValueIdx

/-- The column of row numbers as floats: entry (r, 0) is r. -/
theorem rows_apply (r : Fin 1024) (z : Fin 1) :
    (sitofp (F := Ideal) .f32 (iota .tc S1024x1 32 [0] iota_S1024x1_d0_w32) : FVec Ideal S1024x1 .f32) (ix2 r z)
      = (((r.val : ℤ) : ℝ) : EReal) := by
  show FloatOps.sitofp (F := Ideal) .f32 (iota .tc S1024x1 32 [0] iota_S1024x1_d0_w32 (ix2 r z)) = _
  rw [iota_single_apply]
  show ((((BitVec.ofNat 32 r.val).toInt : ℤ) : ℝ) : EReal) = _
  rw [toInt_ofNat_small]

/-- The block payload at an entry: one where the table row's entry in that column equals the row number. -/
theorem block_apply (v : Vec Ideal S1x1023 .f32) (z : Fin 1) (r : Fin 1024) (c : Fin 1023) :
    k0_pay2 (F := Ideal) v (ix3 z r c)
      = if v (ix2 (0 : Fin 1) c) = (((r.val : ℤ) : ℝ) : EReal) then (1 : EReal) else 0 := by
  unfold k0_pay2
  dsimp only
  refine (shapeCast_apply _ _ (ix3 z r c) (ix2 r c) ?_).trans ?_
  · rw [Shape.rowMajor_val_two, Shape.rowMajor_val_three]
    show r.val * 1023 + c.val = (z.val * 1024 + r.val) * 1023 + c.val
    have := z.isLt; omega
  have e1 : broadcastTo S1024x1023 v broadcasts_S1x1023_S1024x1023 (ix2 r c) = v (ix2 (0 : Fin 1) c) :=
    broadcastTo_apply v broadcasts_S1x1023_S1024x1023 (ix2 r c) (ix2 (0 : Fin 1) c)
      (fun a => match a with | ⟨0, _⟩ => rfl | ⟨1, _⟩ => rfl)
  have e2 : broadcastTo S1024x1023 (sitofp (F := Ideal) .f32 (iota .tc S1024x1 32 [0] iota_S1024x1_d0_w32) : FVec Ideal S1024x1 .f32) broadcasts_S1024x1_S1024x1023 (ix2 r c)
      = (((r.val : ℤ) : ℝ) : EReal) :=
    (broadcastTo_apply _ broadcasts_S1024x1_S1024x1023 (ix2 r c) (ix2 r (0 : Fin 1))
      (fun a => match a with | ⟨0, _⟩ => rfl | ⟨1, _⟩ => rfl)).trans (rows_apply r 0)
  show Scalar.select (Ideal.cmp .oeq (broadcastTo S1024x1023 v broadcasts_S1x1023_S1024x1023 (ix2 r c))
      (broadcastTo S1024x1023 (sitofp (F := Ideal) .f32 (iota .tc S1024x1 32 [0] iota_S1024x1_d0_w32) : FVec Ideal S1024x1 .f32) broadcasts_S1024x1_S1024x1023 (ix2 r c)))
      (Ideal.ofBits .f32 0x3F800000#32) (Ideal.ofBits .f32 0x00000000#32) = _
  rw [e1, e2, select_oeq, lit_one, Ideal.ofBits_zero_f32]

end Cert.KernelIdeal.HandValue

end
-- ==== Proof.KernInvariant.lean ====
/-
  What the output buffer and the carried buffer hold after every grid point, over the extended reals. The table
  payload is the array whose column c holds c + 1; the block payload of any row of that array is the array whose
  entry (0, r, c) is one exactly when r = c + 1. The first point stores the table and writes the block from a row
  of it; a later point finds the table, leaves it, and writes the same block. By induction on the point, both
  buffers hold these two arrays after every point.
-/
import proofs.«136319_g61624190763689_cont_9to1_m_335_26_alg».proof.Proof.Gen.KernelIdeal.Frame
import proofs.«136319_g61624190763689_cont_9to1_m_335_26_alg».proof.Proof.KernPieces
import proofs.«136319_g61624190763689_cont_9to1_m_335_26_alg».proof.Proof.KernTable
import proofs.«136319_g61624190763689_cont_9to1_m_335_26_alg».proof.Proof.KernBlock
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.HandValue

open Cert.KernelIdeal Cert.KernelIdeal.Gen

open Idealize.ShloMosaic.ValueIdx

/-- The carried table as one array: column c holds c + 1, in every row. -/
def Tbl : Vec Ideal S32x1023 .f32 := fun j => ((((j 1).val + 1 : ℕ) : ℝ) : EReal)

/-- An output block as one array: entry (0, r, c) is one when r = c + 1, zero otherwise. -/
def Blk : Vec Ideal S1x1024x1023 .f32 := fun y => if (y 1).val = (y 2).val + 1 then (1 : EReal) else 0

/-- The table payload is the table, whatever the input block. -/
theorem pay1_eq (x : Vec Ideal S1x32x1024 .f32) : k0_pay1 (F := Ideal) x = Tbl := by
  funext j
  obtain ⟨s, c, rfl⟩ : ∃ (s : Fin 32) (c : Fin 1023), j = ix2 s c := ⟨j 0, j 1, eq_ix2 j⟩
  exact table_apply x s c

/-- The block payload of any row whose column c holds c + 1 is the block. -/
theorem pay2_of_row (v : Vec Ideal S1x1023 .f32)
    (hv : ∀ c : Fin 1023, v (ix2 (0 : Fin 1) c) = (((c.val + 1 : ℕ) : ℝ) : EReal)) :
    k0_pay2 (F := Ideal) v = Blk := by
  funext y
  obtain ⟨z, r, c, rfl⟩ : ∃ (z : Fin 1) (r : Fin 1024) (c : Fin 1023), y = ix3 z r c := ⟨y 0, y 1, y 2, eq_ix3 y⟩
  rw [block_apply, hv]
  exact if_congr (coe_succ_eq_coe_int_iff c.val r.val) rfl rfl

/-- Any row of the table, read through a grid point's row rectangle, holds c + 1 in column c. -/
theorem row_of_Tbl (i : grid0.Coords) (c : Fin 1023) :
    (View.ld Tbl (rowRect i) : Vec Ideal S1x1023 .f32) (ix2 (0 : Fin 1) c) = (((c.val + 1 : ℕ) : ℝ) : EReal) := by
  have hcol : (((rowRect i).idx (ix2 (0 : Fin 1) c)) 1).val = c.val := by
    show k0_off1 i 1 + 1 * c.val = c.val
    rw [k0_off1_eq]
    show 0 + 1 * c.val = c.val
    omega
  show (((((((rowRect i).idx (ix2 (0 : Fin 1) c)) 1).val + 1 : ℕ) : ℝ) : EReal)) = _
  rw [hcol]

/-- The first grid point leaves the block in the output buffer and the table in the carried buffer. -/
theorem first_point (c : Dev nD) (i : grid0.Coords) (arg1 : Memref sig .tc .vmem S1x32x1024 .f32) (harg1 : arg1.IsWhole) (arg2 : Memref sig .tc .vmem S1x1024x1023 .f32) (harg2 : arg2.IsWhole) (arg3 : Memref sig .tc .vmem S32x1023 .f32) (harg3 : arg3.IsWhole) (hc0 : cond0_0 i) (x0 : Vec Ideal S1x32x1024 .f32) :
    (out0_A_1 c i arg1 harg1 arg2 harg2 arg3 harg3 hc0 x0, sout0_A_0 c i arg1 harg1 arg2 harg2 arg3 harg3 hc0 x0)
      = (Blk, Tbl) := by
  rw [block_first, table_first, pay1_eq, pay2_of_row _ (row_of_Tbl i)]

/-- A later grid point that finds the table in the carried buffer leaves the block and the table again. -/
theorem later_point (c : Dev nD) (i : grid0.Coords) (arg1 : Memref sig .tc .vmem S1x32x1024 .f32) (harg1 : arg1.IsWhole) (arg2 : Memref sig .tc .vmem S1x1024x1023 .f32) (harg2 : arg2.IsWhole) (arg3 : Memref sig .tc .vmem S32x1023 .f32) (harg3 : arg3.IsWhole) (hc0 : ¬cond0_0 i) (x0 : Vec Ideal S1x32x1024 .f32) (xs0 : Vec Ideal S32x1023 .f32) (hxs : xs0 = Tbl) :
    (out0_B_1 c i arg1 harg1 arg2 harg2 arg3 harg3 hc0 x0 xs0, sout0_B_0 c i arg1 harg1 arg2 harg2 arg3 harg3 hc0 x0 xs0)
      = (Blk, Tbl) := by
  subst hxs
  rw [block_later, pay2_of_row _ (row_of_Tbl i)]
  rfl

variable (m : (ℓ : Loc nD τ sig) → Buf (Elt Ideal) ℓ)

/-- After every grid point the output buffer holds the block and the carried buffer the table: by induction on the point. -/
theorem outsAt_eq (c : Dev nD) : ∀ (n : ℕ) (h : n < cfg0.N), outsAt0 (F := Ideal) m c n h = (Blk, Tbl)
  | 0, h =>
    (outsAt0_A m c ⟨0, h⟩ rfl).trans
      (first_point c (grid0.coords ⟨0, h⟩) (ms0_0 ⟨0, h⟩) (hs0_0 ⟨0, h⟩) (ms0_1 ⟨0, h⟩) (hs0_1 ⟨0, h⟩) scM0_0
        (Memref.isWhole_whole _) ((hcond0_0 ⟨0, h⟩).mpr rfl) (iblk m c 0 ⟨0, h⟩))
  | n + 1, h => by
    have hN : cfg0.N = 32 := N_0
    have hB : ¬(⟨n + 1, h⟩ : Fin cfg0.N).val % 32 = 0 := by dsimp only; omega
    rw [outsAt0_B m c ⟨n + 1, h⟩ hB]
    exact later_point c (grid0.coords ⟨n + 1, h⟩) (ms0_0 ⟨n + 1, h⟩) (hs0_0 ⟨n + 1, h⟩) (ms0_1 ⟨n + 1, h⟩)
      (hs0_1 ⟨n + 1, h⟩) scM0_0 (Memref.isWhole_whole _) (fun hh => hB ((hcond0_0 ⟨n + 1, h⟩).mp hh))
      (iblk m c 0 ⟨n + 1, h⟩) (outsAt0 m c n (Nat.lt_of_succ_lt h)).2
      (congrArg Prod.snd (outsAt_eq c n (Nat.lt_of_succ_lt h)))

end Cert.KernelIdeal.HandValue

end
-- ==== Proof.KernRun.lean ====
/-
  The kernel's run over the extended reals. Every grid point leaves in the output buffer the block whose entry
  (0, r, c) is one exactly when r = c + 1, and point t writes it back as block t of the region's output array;
  the blocks cover that array, so it ends as the array whose entry (t, r, c) is one exactly when r = c + 1.
  The host then reshapes it row-major to one batch of 32768 rows: row q is row q % 1024 of block q / 1024,
  which is the common specification. The argument buffer is never written.
-/
import proofs.«136319_g61624190763689_cont_9to1_m_335_26_alg».proof.Proof.Gen.KernelIdeal.Frame
import proofs.«136319_g61624190763689_cont_9to1_m_335_26_alg».proof.Proof.KernInvariant
import proofs.«136319_g61624190763689_cont_9to1_m_335_26_alg».proof.Proof.Spec
import Idealize.ShloMosaic.Lib.ValueIdx
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.HandValue

open Cert.KernelIdeal Cert.KernelIdeal.Gen

open Idealize.ShloMosaic.ValueIdx

variable (m : (ℓ : Loc nD τ sig) → Buf (Elt Ideal) ℓ) (ρ : Dev nD → PrngReg)

/-- The array the grid writes, block by block: entry (t, r, c) is one when r = c + 1, zero otherwise. -/
def Out : S32x1024x1023.Idx → EReal := fun k => if (k 1).val = (k 2).val + 1 then (1 : EReal) else 0

/-- Grid point t writes block t along the first axis; the other two axes are whole. -/
theorem idx_facts : ∀ t : Fin cfg0.N, win0_1.index t (0 : Fin 3) = t.val ∧ win0_1.index t (1 : Fin 3) = 0
    ∧ win0_1.index t (2 : Fin 3) = 0 :=
  (by decide +kernel : ∀ t : Fin grid0.N, _)

/-- What point t writes back is block t of that array. -/
theorem flushed_eq (c : Dev nD) (t : Fin cfg0.N) :
    (dats m 0 c).flushed 1 t = ((cfg0.win 1).blk t).view.read (Elt Ideal) Out := by
  show (cfg0.win 1).cut (grid0.coords t) ((dats m 0 c).after 1 t) = _
  rw [after0_1, outsAt_eq]
  obtain ⟨e0, e1, e2⟩ := idx_facts t
  funext y
  show Blk y = Out (((cfg0.win 1).blk t).view.emb y)
  have h1 : ((((cfg0.win 1).blk t).view.emb y) 1).val = (y 1).val := by
    show win0_1.index t (1 : Fin 3) * 1024 + 1 * (y 1).val = (y 1).val
    rw [e1]; omega
  have h2 : ((((cfg0.win 1).blk t).view.emb y) 2).val = (y 2).val := by
    show win0_1.index t (2 : Fin 3) * 1023 + 1 * (y 2).val = (y 2).val
    rw [e2]; omega
  show (if (y 1).val = (y 2).val + 1 then (1 : EReal) else 0)
    = if ((((cfg0.win 1).blk t).view.emb y) 1).val = ((((cfg0.win 1).blk t).view.emb y) 2).val + 1 then 1 else 0
  rw [h1, h2]

/-- An index lies in point t's block exactly when each coordinate lies in the block's range on its axis. -/
theorem mem_blk (t : Fin cfg0.N) (i : S32x1024x1023.Idx) :
    i ∈ ((cfg0.win 1).blk t).view.set ↔ ∀ a : Fin 3, win0_1.index t a * S1x1024x1023.size a ≤ (i a).val
      ∧ (i a).val < win0_1.index t a * S1x1024x1023.size a + S1x1024x1023.size a := by
  show i ∈ ((View.whole main_call0_v0).slice (win0_1.rect t)).set ↔ _
  rw [View.set_slice_whole, Rect.mem_set_unit]
  exact Iff.rfl

/-- Every index is in some point's block: the point is the index's first coordinate. -/
theorem cover (i : S32x1024x1023.Idx) :
    ∃ t : Fin cfg0.N, (cfg0.win 1).flush t = true ∧ i ∈ ((cfg0.win 1).blk t).view.set := by
  have hN : cfg0.N = 32 := N_0
  have h0 : (i 0).val < 32 := (i 0).isLt
  have h1 : (i 1).val < 1024 := (i 1).isLt
  have h2 : (i 2).val < 1023 := (i 2).isLt
  obtain ⟨e0, e1, e2⟩ := idx_facts ⟨(i 0).val, by rw [hN]; exact h0⟩
  refine ⟨⟨(i 0).val, by rw [hN]; exact h0⟩, flush0_1 _, ?_⟩
  rw [mem_blk]
  intro a
  match a with
  | ⟨0, _⟩ =>
    show win0_1.index ⟨(i 0).val, _⟩ (0 : Fin 3) * 1 ≤ (i 0).val ∧ (i 0).val < win0_1.index ⟨(i 0).val, _⟩ (0 : Fin 3) * 1 + 1
    rw [e0]; show (i 0).val * 1 ≤ (i 0).val ∧ (i 0).val < (i 0).val * 1 + 1; omega
  | ⟨1, _⟩ =>
    show win0_1.index ⟨(i 0).val, _⟩ (1 : Fin 3) * 1024 ≤ (i 1).val ∧ (i 1).val < win0_1.index ⟨(i 0).val, _⟩ (1 : Fin 3) * 1024 + 1024
    rw [e1]; omega
  | ⟨2, _⟩ =>
    show win0_1.index ⟨(i 0).val, _⟩ (2 : Fin 3) * 1023 ≤ (i 2).val ∧ (i 2).val < win0_1.index ⟨(i 0).val, _⟩ (2 : Fin 3) * 1023 + 1023
    rw [e2]; omega

/-- So after the last point the region's output array is that array. -/
theorem final_out (c : Dev nD) : (dats m 0 c).arrAt 1 cfg0.N = Out :=
  (dats m 0 c).arrAt_eq_of_cover 1 Out (fun t _ => flushed_eq m c t) cover

/-- The host's row-major reshape of that array to one batch of 32768 rows is the common specification:
    row q of the result is row q % 1024 of block q / 1024. -/
theorem tail_eq (c : Dev nD) : Pipeline.afterTail₀ cfgs (dats m) 0 (V0 m) [hostOps1] c main_v0 = Cert.Spec.G := by
  unfold Pipeline.afterTail₀
  show StableHlo.after hostOps1 _ (Proc.devRef .tc main_v0) = _
  after_results
  have hW : (Pipeline.withArrays (cfgs 0).spec c (V0 m c) (fun w => (dats m 0 c).arrAt w (cfgs 0).N)
      (Proc.devRef .tc main_call0_v0) : S32x1024x1023.Idx → EReal) = Out :=
    (Pipeline.withArrays_arr spec0 launch0.win.arr_inj c _ _ 1).trans (final_out m c)
  funext i
  obtain ⟨z, q, cc, rfl⟩ : ∃ (z : Fin 1) (q : Fin 32768) (cc : Fin 1023), i = ix3 z q cc := ⟨i 0, i 1, i 2, eq_ix3 i⟩
  have hq : q.val < 32768 := q.isLt
  refine (congrFun (congrArg (fun X : S32x1024x1023.Idx → EReal =>
      shapeCast S1x32768x1023 X shapeCasts_S32x1024x1023_S1x32768x1023) hW) (ix3 z q cc)).trans ?_
  refine (shapeCast_apply Out shapeCasts_S32x1024x1023_S1x32768x1023 (ix3 z q cc)
    (ix3 (⟨q.val / 1024, by omega⟩ : Fin 32) (⟨q.val % 1024, by omega⟩ : Fin 1024) cc) ?_).trans ?_
  · rw [Shape.rowMajor_val_three, Shape.rowMajor_val_three]
    show ((q.val / 1024) * 1024 + q.val % 1024) * 1023 + cc.val = (z.val * 32768 + q.val) * 1023 + cc.val
    have := z.isLt; omega
  · rfl

/-- The result buffer is no array of the grid's windows, so the run's post states it through the host's last line. -/
theorem result_mem : main_v0 ∈ Pipeline.restRefs sig (cfgs 0).spec :=
  Pipeline.mem_restRefs_of main_v0 rfl (fun w => by fin_cases w <;> decide)

/-- The kernel's run over the extended reals: it terminates with the result buffer at the common specification
    and the argument buffer unchanged. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = Cert.Spec.G
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run defs _ _).mono (fun r h c =>
      ⟨((h c).2 main_v0 result_mem).trans (tail_eq m c),
        ((h c).1 0).trans (((dats m 0 c).arrAt_in 0 rfl _).trans ((A_eq m c 0).trans (V_main_arg0 m c)))⟩)
    (run_main m ρ)

end Cert.KernelIdeal.HandValue

end
-- ==== Proof.RefFns.lean ====
/-
  The reference program's value, as plain functions of arrays.

  Each function the program outlines (a running sum, a clamp from below, a floored division, a remainder, a row
  lookup) is written once as the composition of its elementwise and shape operations, in the order the program
  applies them.  One time step of the reference then reads: from the mask of observed units, count the observed
  units up to each position, histogram those counts, sum the histogram to get for each output row the index of the
  unit that lands there, and look those rows up in the identity matrix.  The whole reference stacks the 32 time
  steps, drops the first column and adds a leading unit axis.
-/
import proofs.«136319_g61624190763689_cont_9to1_m_335_26_alg».proof.Proof.Gen.ReferenceIdeal

noncomputable section

namespace Cert.ReferenceIdeal.RefFns

open Idealize.ShloMosaic
open Cert.ReferenceIdeal

variable {F : FTy → Type} [FloatOps F] [Facts]
open Facts₀ Facts

/-- Inclusive running sum along a vector of 1024 integers: position `j` holds the sum of entries `0 … j`. -/
def cumsum0F (a : IVec S1024 32) : IVec S1024 32 :=
  Host.reduceWindow IntOp.addi ![1024] ![1] ![1023] ![0] a (broadcastInDim S_ ![] bcast_S_S_ (constantI S_ 32 0#32))
    reduceWindows_S1024_S1024_w1024s1p1023_0 h_S_

/-- Running count of the set bits of a mask. -/
def cumsumF (m : IVec S1024 1) : IVec S1024 32 :=
  cumsum0F (extui 32 m natLt_1_32)

/-- Clamp from below: the larger of each entry and the scalar bound. -/
def clipF (a : IVec S1024 32) (lo : IVec S_ 32) : IVec S1024 32 :=
  maxsi (broadcastInDim S1024 ![] bcast_S_S1024 (id lo)) a

/-- Running sum of integers (the same sum as `cumsum0F`). -/
def cumsum1F (a : IVec S1024 32) : IVec S1024 32 :=
  cumsum0F a

/-- Entrywise choice between two vectors by a mask. -/
def whereF (c : IVec S1024 1) (a b : IVec S1024 32) : IVec S1024 32 :=
  select c a b

/-- Floored division of each entry by a scalar: the truncated quotient, lowered by one where the signs differ and
    the division is inexact. -/
def floorDivF (a : IVec S1024 32) (d : IVec S_ 32) : IVec S1024 32 :=
  whereF
    (andi (cmpi .ne (signi a) (broadcastInDim S1024 ![] bcast_S_S1024 (signi d)))
      (cmpi .ne (Host.remsi a (broadcastInDim S1024 ![] bcast_S_S1024 d)) (broadcastInDim S1024 ![] bcast_S_S1024 (constantI S_ 32 0#32))))
    (subi (Host.divsi a (broadcastInDim S1024 ![] bcast_S_S1024 d)) (broadcastInDim S1024 ![] bcast_S_S1024 (constantI S_ 32 1#32)))
    (Host.divsi a (broadcastInDim S1024 ![] bcast_S_S1024 d))

/-- Choice between two scalars by a one-bit scalar. -/
def where2F (c : IVec S_ 1) (a b : IVec S_ 32) : IVec S_ 32 :=
  select c a b

/-- The divisor the remainder really uses: one in place of zero. -/
def remDivisor (d : IVec S_ 32) : IVec S_ 32 :=
  where2F (cmpi .eq (id d) (constantI S_ 32 0#32)) (constantI S_ 32 1#32) (id d)

/-- The truncated remainder of each entry by the (zero-guarded) divisor. -/
def remTrunc (a : IVec S1024 32) (d : IVec S_ 32) : IVec S1024 32 :=
  Host.remsi a (broadcastInDim S1024 ![] bcast_S_S1024 (remDivisor d))

/-- Floored remainder of each entry by a scalar: the truncated remainder, moved by one divisor where it is nonzero
    and its sign differs from the divisor's. -/
def remainderF (a : IVec S1024 32) (d : IVec S_ 32) : IVec S1024 32 :=
  select
    (andi
      (cmpi .ne (cmpi .slt (remTrunc a d) (broadcastInDim S1024 ![] bcast_S_S1024 (constantI S_ 32 0#32)))
        (broadcastInDim S1024 ![] bcast_S_S1024 (cmpi .slt (remDivisor d) (constantI S_ 32 0#32))))
      (cmpi .ne (remTrunc a d) (broadcastInDim S1024 ![] bcast_S_S1024 (constantI S_ 32 0#32))))
    (addi (remTrunc a d) (broadcastInDim S1024 ![] bcast_S_S1024 (remDivisor d)))
    (remTrunc a d)

/-- Row indices made non-negative: a negative index counts from the end. -/
def takeIdx (i : IVec S1024 32) : IVec S1024 32 :=
  whereF (cmpi .slt i (broadcastInDim S1024 ![] bcast_S_S1024 (constantI S_ 32 0#32))) (addi i (broadcastInDim S1024 ![] bcast_S_S1024 (constantI S_ 32 1024#32))) i

/-- The same indices as a column. -/
def takeIdxCol (i : IVec S1024 32) : IVec S1024x1 32 :=
  broadcastInDim S1024x1 ![0] bcast_S1024_S1024x1_0 (takeIdx i)

/-- Which looked-up rows are in range `0 … 1023`. -/
def takeInBounds (i : IVec S1024 32) : IVec S1024 1 :=
  Host.reduce IntOp.andi
    (andi (cmpi .sge (takeIdxCol i) (broadcastInDim S1024x1 ![] bcast_S_S1024x1 (constantI S_ 32 0#32)))
      (cmpi .sle (takeIdxCol i)
        (broadcastInDim S1024x1 ![0, 1] bcast_S1x1_S1024x1_0_1
          (broadcastInDim S1x1 ![1] bcast_S1_S1x1_1 (constantI S1 32 1023#32)))))
    (constantI S_ 1 1#1) reducesTo_S1024x1_S1024_d1 h_S_

/-- Row lookup: row `r` of the result is row `i r` of the matrix when that index is in range, and a fill value
    otherwise. -/
def takeF (e : FVec F S1024x1024 .f32) (i : IVec S1024 32) : FVec F S1024x1024 .f32 :=
  select (broadcastInDim S1024x1024 ![0] bcast_S1024_S1024x1024_0 (takeInBounds i))
    (Host.gather gather_S1024x1024_S1024x1_S1024x1024_1_0_n_n_0_1_11024 e (takeIdxCol i))
    (broadcastInDim S1024x1024 ![] bcast_S_S1024x1024 (constant S_ .f32 0x7FC00000#32))

/-- For each position, how many observed units there are up to and including it, clamped at zero. -/
def nzPos (mask : IVec S1024 1) : IVec S1024 32 :=
  clipF (cumsumF mask) (constantI S_ 32 0#32)

/-- Those counts, made non-negative as indices and laid out as a column. -/
def nzIdx (mask : IVec S1024 1) : IVec S1024x1 32 :=
  broadcastInDim S1024x1 ![0] bcast_S1024_S1024x1_0
    (select (cmpi .slt (nzPos mask) (broadcastInDim S1024 ![] bcast_S_S1024 (constantI S_ 32 0#32))) (addi (nzPos mask) (broadcastInDim S1024 ![] bcast_S_S1024 (constantI S_ 32 1024#32))) (nzPos mask))

/-- Histogram of the counts: entry `v` is the number of positions whose count is `v`. -/
def nzHist (mask : IVec S1024 1) : IVec S1024 32 :=
  Host.scatter scatter_S1024_S1024x1_S1024_n_0_0_1 IntOp.addi (broadcastInDim S1024 ![] bcast_S_S1024 (constantI S_ 32 0#32)) (nzIdx mask) (broadcastInDim S1024 ![] bcast_S_S1024 (constantI S_ 32 1#32))

/-- For each output row, the index of the observed unit that is compacted to it. -/
def nzRows (mask : IVec S1024 1) : IVec S1024 32 :=
  remainderF (floorDivF (cumsum1F (nzHist mask)) (constantI S_ 32 1#32)) (constantI S_ 32 1024#32)

/-- One time step from its mask on: the rows of the matrix at the compacted indices. -/
def nzTake (eye : FVec F S1024x1024 .f32) (mask : IVec S1024 1) : FVec F S1024x1024 .f32 :=
  takeF eye (nzRows mask)

/-- The mask of observed units at time step `k`: column `k` of the not-a-number mask, negated. -/
def colMask (v1 : IVec S1024x32x1 1) (k : Nat) (h : S1024x32x1.Slices ![0, k, 0] S1024x1x1) : IVec S1024 1 :=
  noti (shapeCast S1024 (extractStridedSlice S1024x1x1 ![0, k, 0] v1 h) shapeCasts_S1024x1x1_S1024)

/-- The 1024 × 1024 identity matrix: one where the row index equals the column index. -/
def eyeMat : FVec F S1024x1024 .f32 :=
  uitofp .f32
    (cmpi .eq (addi (iotaInDim S1024x1024 32 0) (broadcastInDim S1024x1024 ![] bcast_S_S1024x1024 (constantI S_ 32 0#32)))
      (iotaInDim S1024x1024 32 1))

/-- Where the input differs from itself (is not a number), with the unit axis first. -/
def nanMask (x : FVec F S1x32x1024 .f32) : IVec S1024x32x1 1 :=
  transpose S1024x32x1 [2, 1, 0] (cmpf .une x x) transposes_S1x32x1024_S1024x32x1_2_1_0

/-- The 32 blocks stacked along the rows (two stacks of sixteen, then the two halves), the first column dropped,
    and a leading axis of length one added. -/
def tailF (b : Fin 32 → FVec F S1024x1024 .f32) : FVec F S1x32768x1023 .f32 :=
  shapeCast S1x32768x1023
    (extractStridedSlice S32768x1023 ![0, 1]
      (concatenate S32768x1024 0
        [⟨S16384x1024, concatenate S16384x1024 0 [⟨S1024x1024, b 0⟩, ⟨S1024x1024, b 1⟩, ⟨S1024x1024, b 2⟩, ⟨S1024x1024, b 3⟩, ⟨S1024x1024, b 4⟩, ⟨S1024x1024, b 5⟩, ⟨S1024x1024, b 6⟩, ⟨S1024x1024, b 7⟩, ⟨S1024x1024, b 8⟩, ⟨S1024x1024, b 9⟩, ⟨S1024x1024, b 10⟩, ⟨S1024x1024, b 11⟩, ⟨S1024x1024, b 12⟩, ⟨S1024x1024, b 13⟩, ⟨S1024x1024, b 14⟩, ⟨S1024x1024, b 15⟩] concatenates_S1024x1024_S1024x1024_S1024x1024_S1024x1024_S1024x1024_S1024x1024_S1024x1024_S1024x1024_S1024x1024_S1024x1024_S1024x1024_S1024x1024_S1024x1024_S1024x1024_S1024x1024_S1024x1024_S16384x1024_d0⟩,
         ⟨S16384x1024, concatenate S16384x1024 0 [⟨S1024x1024, b 16⟩, ⟨S1024x1024, b 17⟩, ⟨S1024x1024, b 18⟩, ⟨S1024x1024, b 19⟩, ⟨S1024x1024, b 20⟩, ⟨S1024x1024, b 21⟩, ⟨S1024x1024, b 22⟩, ⟨S1024x1024, b 23⟩, ⟨S1024x1024, b 24⟩, ⟨S1024x1024, b 25⟩, ⟨S1024x1024, b 26⟩, ⟨S1024x1024, b 27⟩, ⟨S1024x1024, b 28⟩, ⟨S1024x1024, b 29⟩, ⟨S1024x1024, b 30⟩, ⟨S1024x1024, b 31⟩] concatenates_S1024x1024_S1024x1024_S1024x1024_S1024x1024_S1024x1024_S1024x1024_S1024x1024_S1024x1024_S1024x1024_S1024x1024_S1024x1024_S1024x1024_S1024x1024_S1024x1024_S1024x1024_S1024x1024_S16384x1024_d0⟩]
        concatenates_S16384x1024_S16384x1024_S32768x1024_d0)
      slices_S32768x1024_S32768x1023_0_1)
    shapeCasts_S32768x1023_S1x32768x1023

/-- The block of each time step: its rows of the identity matrix. -/
def blocks (x : FVec F S1x32x1024 .f32) : Fin 32 → FVec F S1024x1024 .f32 :=
  ![nzTake eyeMat (colMask (nanMask x) 0 slices_S1024x32x1_S1024x1x1_0_0_0),
    nzTake eyeMat (colMask (nanMask x) 1 slices_S1024x32x1_S1024x1x1_0_1_0),
    nzTake eyeMat (colMask (nanMask x) 2 slices_S1024x32x1_S1024x1x1_0_2_0),
    nzTake eyeMat (colMask (nanMask x) 3 slices_S1024x32x1_S1024x1x1_0_3_0),
    nzTake eyeMat (colMask (nanMask x) 4 slices_S1024x32x1_S1024x1x1_0_4_0),
    nzTake eyeMat (colMask (nanMask x) 5 slices_S1024x32x1_S1024x1x1_0_5_0),
    nzTake eyeMat (colMask (nanMask x) 6 slices_S1024x32x1_S1024x1x1_0_6_0),
    nzTake eyeMat (colMask (nanMask x) 7 slices_S1024x32x1_S1024x1x1_0_7_0),
    nzTake eyeMat (colMask (nanMask x) 8 slices_S1024x32x1_S1024x1x1_0_8_0),
    nzTake eyeMat (colMask (nanMask x) 9 slices_S1024x32x1_S1024x1x1_0_9_0),
    nzTake eyeMat (colMask (nanMask x) 10 slices_S1024x32x1_S1024x1x1_0_10_0),
    nzTake eyeMat (colMask (nanMask x) 11 slices_S1024x32x1_S1024x1x1_0_11_0),
    nzTake eyeMat (colMask (nanMask x) 12 slices_S1024x32x1_S1024x1x1_0_12_0),
    nzTake eyeMat (colMask (nanMask x) 13 slices_S1024x32x1_S1024x1x1_0_13_0),
    nzTake eyeMat (colMask (nanMask x) 14 slices_S1024x32x1_S1024x1x1_0_14_0),
    nzTake eyeMat (colMask (nanMask x) 15 slices_S1024x32x1_S1024x1x1_0_15_0),
    nzTake eyeMat (colMask (nanMask x) 16 slices_S1024x32x1_S1024x1x1_0_16_0),
    nzTake eyeMat (colMask (nanMask x) 17 slices_S1024x32x1_S1024x1x1_0_17_0),
    nzTake eyeMat (colMask (nanMask x) 18 slices_S1024x32x1_S1024x1x1_0_18_0),
    nzTake eyeMat (colMask (nanMask x) 19 slices_S1024x32x1_S1024x1x1_0_19_0),
    nzTake eyeMat (colMask (nanMask x) 20 slices_S1024x32x1_S1024x1x1_0_20_0),
    nzTake eyeMat (colMask (nanMask x) 21 slices_S1024x32x1_S1024x1x1_0_21_0),
    nzTake eyeMat (colMask (nanMask x) 22 slices_S1024x32x1_S1024x1x1_0_22_0),
    nzTake eyeMat (colMask (nanMask x) 23 slices_S1024x32x1_S1024x1x1_0_23_0),
    nzTake eyeMat (colMask (nanMask x) 24 slices_S1024x32x1_S1024x1x1_0_24_0),
    nzTake eyeMat (colMask (nanMask x) 25 slices_S1024x32x1_S1024x1x1_0_25_0),
    nzTake eyeMat (colMask (nanMask x) 26 slices_S1024x32x1_S1024x1x1_0_26_0),
    nzTake eyeMat (colMask (nanMask x) 27 slices_S1024x32x1_S1024x1x1_0_27_0),
    nzTake eyeMat (colMask (nanMask x) 28 slices_S1024x32x1_S1024x1x1_0_28_0),
    nzTake eyeMat (colMask (nanMask x) 29 slices_S1024x32x1_S1024x1x1_0_29_0),
    nzTake eyeMat (colMask (nanMask x) 30 slices_S1024x32x1_S1024x1x1_0_30_0),
    nzTake eyeMat (colMask (nanMask x) 31 slices_S1024x32x1_S1024x1x1_0_31_0)]

/-- The reference's result as a function of its input. -/
def refTerm (x : FVec F S1x32x1024 .f32) : FVec F S1x32768x1023 .f32 :=
  tailF (blocks x)

end Cert.ReferenceIdeal.RefFns

end
-- ==== Proof.RefLib.lean ====
/-
  Three small facts about straight lines of host operations, used to put the reference's run together from pieces:
  running two lines one after the other is running their concatenation; a property of every operation of two lines
  holds of their concatenation; and an operation that writes one listed reference writes inside the listed set.
-/
import Idealize.ShloMosaic.Lib.StableHlo.Run

noncomputable section

namespace Cert.ReferenceIdeal.HandRun

open Idealize.ShloMosaic Idealize.ShloMosaic.StableHlo

variable {τ : Topo} {sig : RefSig} {Val : EltTy → Type}

/-- The buffers after two lines run in order are those after the second line, started from those after the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- What holds of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- A single written reference that is in the list lies in the set the list spans. -/
theorem wsub {W : List (Ref sig .tc)} (y : Ref sig .tc) (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, hy, rfl⟩))

end Cert.ReferenceIdeal.HandRun

end
-- ==== Proof.RefStep.lean ====
/-
  The invariant of the reference's run, and its step.

  After the first `n` iterations the identity matrix, the not-a-number mask and the input are where the prelude left
  them, and the result buffer of each iteration `j < n` holds block `j`: the rows of the identity matrix at the
  compacted indices of time step `j`'s mask.  An iteration that writes none of those buffers, and whose own result is
  its block, carries the invariant from `n` to `n + 1`.
-/
import proofs.«136319_g61624190763689_cont_9to1_m_335_26_alg».proof.Proof.RefFns
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- The result buffer of each iteration, with the type of the matrix it holds. -/
noncomputable def resT : Fin 32 → StableHlo.TRef sig ⟨S1024x1024, .f32⟩ :=
  ![.of main_v25, .of main_v43, .of main_v61, .of main_v79, .of main_v97, .of main_v115, .of main_v133, .of main_v151, .of main_v169, .of main_v187, .of main_v205, .of main_v223, .of main_v241, .of main_v259, .of main_v277, .of main_v295, .of main_v313, .of main_v331, .of main_v349, .of main_v367, .of main_v385, .of main_v403, .of main_v421, .of main_v439, .of main_v457, .of main_v475, .of main_v493, .of main_v511, .of main_v529, .of main_v547, .of main_v565, .of main_v583]

/-- What iteration `j`'s result buffer holds, as a matrix. -/
noncomputable def rd (V : Valuation τ sig (Elt F)) (j : Fin 32) : FVec F S1024x1024 .f32 :=
  (resT j).ofBuf (V (Proc.devRef .tc (resT j).ref))

/-- The invariant after `n` iterations, for input `x`. -/
def Good (n : Nat) (x : FVec F S1x32x1024 .f32) (V : Valuation τ sig (Elt F)) : Prop :=
  V (Proc.devRef .tc main_v7) = RefFns.eyeMat ∧ V (Proc.devRef .tc main_v1) = RefFns.nanMask x ∧
    V (Proc.devRef .tc main_arg0) = x ∧ ∀ j : Fin 32, j.val < n → rd V j = RefFns.blocks x j

/-- One iteration carries the invariant on: it keeps the buffers it does not write, and its own result is the next
    block. -/
theorem good_step (n : Nat) (hn : n < 32) (ops : List (HloOp τ sig (Elt F))) (W : List (Ref sig .tc))
    (h : S1024x32x1.Slices ![0, n, 0] S1024x1x1)
    (hkeep : ∀ (V : Valuation τ sig (Elt F)) (r : Ref sig .tc), r ∉ W → after ops V (Proc.devRef .tc r) = V (Proc.devRef .tc r))
    (hres : ∀ V : Valuation τ sig (Elt F), rd (after ops V) ⟨n, hn⟩
      = RefFns.nzTake (V (Proc.devRef .tc main_v7)) (RefFns.colMask (V (Proc.devRef .tc main_v1)) n h))
    (hblk : ∀ x : FVec F S1x32x1024 .f32, RefFns.blocks x ⟨n, hn⟩ = RefFns.nzTake RefFns.eyeMat (RefFns.colMask (RefFns.nanMask x) n h))
    (h7 : main_v7 ∉ W) (h1 : main_v1 ∉ W) (h0 : main_arg0 ∉ W) (hj : ∀ j : Fin 32, j.val < n → (resT j).ref ∉ W)
    {x : FVec F S1x32x1024 .f32} {V : Valuation τ sig (Elt F)} (hg : Good n x V) : Good (n + 1) x (after ops V) := by
  obtain ⟨g7, g1, g0, gres⟩ := hg
  refine ⟨(hkeep V _ h7).trans g7, (hkeep V _ h1).trans g1, (hkeep V _ h0).trans g0, fun j hjn => ?_⟩
  rcases Nat.lt_succ_iff_lt_or_eq.mp hjn with hlt | heq
  · exact (congrArg (resT j).ofBuf (hkeep V _ (hj j hlt))).trans (gres j hlt)
  · obtain rfl : j = ⟨n, hn⟩ := Fin.ext heq
    rw [hres V, g7, g1, hblk x]

end Cert.ReferenceIdeal.HandRun

end
-- ==== Proof.RefOpsPre.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 0 of @main). -/
noncomputable def pre : List (HloOp τ sig (Elt F)) :=
  [ StableHlo.binary main_arg0 main_arg0 main_v0 (cmpf .une : (⟨S1x32x1024, .f32⟩ : BufTy).Contents (Elt F) → (⟨S1x32x1024, .f32⟩ : BufTy).Contents (Elt F) → (⟨S1x32x1024, .i1⟩ : BufTy).Contents (Elt F)),
    StableHlo.unary main_v0 main_v1 ((transpose S1024x32x1 [2, 1, 0] · transposes_S1x32x1024_S1024x32x1_2_1_0) : (⟨S1x32x1024, .i1⟩ : BufTy).Contents (Elt F) → (⟨S1024x32x1, .i1⟩ : BufTy).Contents (Elt F)),
    StableHlo.nullary main_v2 (iotaInDim S1024x1024 32 0),
    StableHlo.nullary main_v3 (iotaInDim S1024x1024 32 1),
    StableHlo.nullary main_c (constantI S_ 32 0#32),
    StableHlo.unary main_c main_v4 (broadcastInDim S1024x1024 ![] bcast_S_S1024x1024 : (⟨S_, .i32⟩ : BufTy).Contents (Elt F) → (⟨S1024x1024, .i32⟩ : BufTy).Contents (Elt F)),
    StableHlo.binary main_v2 main_v4 main_v5 (addi : (⟨S1024x1024, .i32⟩ : BufTy).Contents (Elt F) → (⟨S1024x1024, .i32⟩ : BufTy).Contents (Elt F) → (⟨S1024x1024, .i32⟩ : BufTy).Contents (Elt F)),
    StableHlo.binary main_v5 main_v3 main_v6 (cmpi .eq : (⟨S1024x1024, .i32⟩ : BufTy).Contents (Elt F) → (⟨S1024x1024, .i32⟩ : BufTy).Contents (Elt F) → (⟨S1024x1024, .i1⟩ : BufTy).Contents (Elt F)),
    StableHlo.unary main_v6 main_v7 (uitofp .f32 : (⟨S1024x1024, .i1⟩ : BufTy).Contents (Elt F) → (⟨S1024x1024, .f32⟩ : BufTy).Contents (Elt F)) ]

theorem pre_sub : (pre (F := F)).Forall fun op => op.bufs ⊆ tcRefs τ sig :=
  ⟨binary_bufs_sub .., unary_bufs_sub .., nullary_bufs_sub .., nullary_bufs_sub .., nullary_bufs_sub .., unary_bufs_sub .., binary_bufs_sub .., binary_bufs_sub .., unary_bufs_sub ..⟩

theorem pre_fresh : (pre (F := F)).Forall fun op => op.fresh = ∅ :=
  ⟨rfl, rfl, rfl, rfl, rfl, rfl, rfl, rfl, rfl⟩

/-- The references this stretch writes, in order. -/
noncomputable def pre_W : List (Ref sig .tc) :=
  [main_v0, main_v1, main_v2, main_v3, main_c, main_v4, main_v5, main_v6, main_v7]

end Cert.ReferenceIdeal.HandRun

end
-- ==== Proof.RefOpsTl.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 13 of @main). -/
noncomputable def tl : List (HloOp τ sig (Elt F)) :=
  [ StableHlo.nary ![main_v25, main_v43, main_v61, main_v79, main_v97, main_v115, main_v133, main_v151, main_v169, main_v187, main_v205, main_v223, main_v241, main_v259, main_v277, main_v295] main_v584 (fun u => concatenate S16384x1024 0 [⟨S1024x1024, u 0⟩, ⟨S1024x1024, u 1⟩, ⟨S1024x1024, u 2⟩, ⟨S1024x1024, u 3⟩, ⟨S1024x1024, u 4⟩, ⟨S1024x1024, u 5⟩, ⟨S1024x1024, u 6⟩, ⟨S1024x1024, u 7⟩, ⟨S1024x1024, u 8⟩, ⟨S1024x1024, u 9⟩, ⟨S1024x1024, u 10⟩, ⟨S1024x1024, u 11⟩, ⟨S1024x1024, u 12⟩, ⟨S1024x1024, u 13⟩, ⟨S1024x1024, u 14⟩, ⟨S1024x1024, u 15⟩] concatenates_S1024x1024_S1024x1024_S1024x1024_S1024x1024_S1024x1024_S1024x1024_S1024x1024_S1024x1024_S1024x1024_S1024x1024_S1024x1024_S1024x1024_S1024x1024_S1024x1024_S1024x1024_S1024x1024_S16384x1024_d0),
    StableHlo.nary ![main_v313, main_v331, main_v349, main_v367, main_v385, main_v403, main_v421, main_v439, main_v457, main_v475, main_v493, main_v511, main_v529, main_v547, main_v565, main_v583] main_v585 (fun u => concatenate S16384x1024 0 [⟨S1024x1024, u 0⟩, ⟨S1024x1024, u 1⟩, ⟨S1024x1024, u 2⟩, ⟨S1024x1024, u 3⟩, ⟨S1024x1024, u 4⟩, ⟨S1024x1024, u 5⟩, ⟨S1024x1024, u 6⟩, ⟨S1024x1024, u 7⟩, ⟨S1024x1024, u 8⟩, ⟨S1024x1024, u 9⟩, ⟨S1024x1024, u 10⟩, ⟨S1024x1024, u 11⟩, ⟨S1024x1024, u 12⟩, ⟨S1024x1024, u 13⟩, ⟨S1024x1024, u 14⟩, ⟨S1024x1024, u 15⟩] concatenates_S1024x1024_S1024x1024_S1024x1024_S1024x1024_S1024x1024_S1024x1024_S1024x1024_S1024x1024_S1024x1024_S1024x1024_S1024x1024_S1024x1024_S1024x1024_S1024x1024_S1024x1024_S1024x1024_S16384x1024_d0),
    StableHlo.binary main_v584 main_v585 main_v586 ((fun a b => concatenate S32768x1024 0 [⟨S16384x1024, a⟩, ⟨S16384x1024, b⟩] concatenates_S16384x1024_S16384x1024_S32768x1024_d0) : (⟨S16384x1024, .f32⟩ : BufTy).Contents (Elt F) → (⟨S16384x1024, .f32⟩ : BufTy).Contents (Elt F) → (⟨S32768x1024, .f32⟩ : BufTy).Contents (Elt F)),
    StableHlo.unary main_v586 main_v587 ((extractStridedSlice S32768x1023 ![0, 1] · slices_S32768x1024_S32768x1023_0_1) : (⟨S32768x1024, .f32⟩ : BufTy).Contents (Elt F) → (⟨S32768x1023, .f32⟩ : BufTy).Contents (Elt F)),
    StableHlo.reshape main_v587 main_v588 rfl shapeCasts_S32768x1023_S1x32768x1023 ]

theorem tl_sub : (tl (F := F)).Forall fun op => op.bufs ⊆ tcRefs τ sig :=
  ⟨nary_bufs_sub .., nary_bufs_sub .., binary_bufs_sub .., unary_bufs_sub .., reshape_bufs_sub ..⟩

theorem tl_fresh : (tl (F := F)).Forall fun op => op.fresh = ∅ :=
  ⟨rfl, rfl, rfl, rfl, rfl⟩

/-- The references this stretch writes, in order. -/
noncomputable def tl_W : List (Ref sig .tc) :=
  [main_v584, main_v585, main_v586, main_v587, main_v588]

end Cert.ReferenceIdeal.HandRun

end
-- ==== Proof.RefOpsIt00.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 0 of @main). -/
noncomputable def it00A : List (HloOp τ sig (Elt F)) :=
  [ StableHlo.unary main_v1 main_v8 ((extractStridedSlice S1024x1x1 ![0, 0, 0] · slices_S1024x32x1_S1024x1x1_0_0_0) : (⟨S1024x32x1, .i1⟩ : BufTy).Contents (Elt F) → (⟨S1024x1x1, .i1⟩ : BufTy).Contents (Elt F)),
    StableHlo.reshape main_v8 main_v9 rfl shapeCasts_S1024x1x1_S1024,
    StableHlo.unary main_v9 main_v10 (noti : (⟨S1024, .i1⟩ : BufTy).Contents (Elt F) → (⟨S1024, .i1⟩ : BufTy).Contents (Elt F)) ]

theorem it00A_sub : (it00A (F := F)).Forall fun op => op.bufs ⊆ tcRefs τ sig :=
  ⟨unary_bufs_sub .., reshape_bufs_sub .., unary_bufs_sub ..⟩

theorem it00A_fresh : (it00A (F := F)).Forall fun op => op.fresh = ∅ :=
  ⟨rfl, rfl, rfl⟩

/-- A piece of this stretch (window 0 of @main). -/
noncomputable def it00B : List (HloOp τ sig (Elt F)) :=
  [ StableHlo.TRef.unary (.of main_v10 : StableHlo.TRef sig ⟨S1024, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![1024] ![1] ![1023] ![0] x v reduceWindows_S1024_S1024_w1024s1p1023_0 h_S_) ]

theorem it00B_sub : (it00B (F := F)).Forall fun op => op.bufs ⊆ tcRefs τ sig :=
  ⟨unary_bufs_sub .., nullary_bufs_sub .., unary_bufs_sub .., binary_bufs_sub ..⟩

theorem it00B_fresh : (it00B (F := F)).Forall fun op => op.fresh = ∅ :=
  ⟨rfl, rfl, rfl, rfl⟩

/-- A piece of this stretch (window 0 of @main). -/
noncomputable def it00C : List (HloOp τ sig (Elt F)) :=
  [ StableHlo.nullary main_c_0 (constantI S_ 32 0#32),
    StableHlo.unary main_c_0 main_v12 (broadcastInDim S1024 ![] bcast_S_S1024 : (⟨S_, .i32⟩ : BufTy).Contents (Elt F) → (⟨S1024, .i32⟩ : BufTy).Contents (Elt F)),
    StableHlo.nullary main_c_1 (constantI S_ 32 0#32),
    StableHlo.TRef.unary (.of main_c_1 : StableHlo.TRef sig ⟨S_, .i32⟩) main_call1.v0 id,
    StableHlo.TRef.unary main_call1.v0 main_call1.v1 (broadcastInDim S1024 ![] bcast_S_S1024),
    StableHlo.TRef.binary main_call1.v1 (.of main_v11 : StableHlo.TRef sig ⟨S1024, .i32⟩) main_call1.v2 maxsi,
    StableHlo.nullary main_c_2 (constantI S_ 32 0#32),
    StableHlo.unary main_c_2 main_v14 (broadcastInDim S1024 ![] bcast_S_S1024 : (⟨S_, .i32⟩ : BufTy).Contents (Elt F) → (⟨S1024, .i32⟩ : BufTy).Contents (Elt F)),
    StableHlo.binary main_v13 main_v14 main_v15 (cmpi .slt : (⟨S1024, .i32⟩ : BufTy).Contents (Elt F) → (⟨S1024, .i32⟩ : BufTy).Contents (Elt F) → (⟨S1024, .i1⟩ : BufTy).Contents (Elt F)),
    StableHlo.nullary main_c_3 (constantI S_ 32 1024#32),
    StableHlo.unary main_c_3 main_v16 (broadcastInDim S1024 ![] bcast_S_S1024 : (⟨S_, .i32⟩ : BufTy).Contents (Elt F) → (⟨S1024, .i32⟩ : BufTy).Contents (Elt F)),
    StableHlo.binary main_v13 main_v16 main_v17 (addi : (⟨S1024, .i32⟩ : BufTy).Contents (Elt F) → (⟨S1024, .i32⟩ : BufTy).Contents (Elt F) → (⟨S1024, .i32⟩ : BufTy).Contents (Elt F)),
    StableHlo.ternary main_v15 main_v17 main_v13 main_v18 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v18 main_v19 (broadcastInDim S1024x1 ![0] bcast_S1024_S1024x1_0 : (⟨S1024, .i32⟩ : BufTy).Contents (Elt F) → (⟨S1024x1, .i32⟩ : BufTy).Contents (Elt F)),
    StableHlo.nullary main_c_4 (constantI S_ 32 1#32),
    StableHlo.unary main_c_4 main_v20 (broadcastInDim S1024 ![] bcast_S_S1024 : (⟨S_, .i32⟩ : BufTy).Contents (Elt F) → (⟨S1024, .i32⟩ : BufTy).Contents (Elt F)),
    StableHlo.ternary main_v12 main_v19 main_v20 main_v21 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it00C_sub : (it00C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it00C_fresh : (it00C (F := F)).Forall fun op => op.fresh = ∅ :=
  ⟨rfl, rfl, rfl, rfl, rfl, rfl, rfl, rfl, rfl, rfl, rfl, rfl, rfl, rfl, rfl, rfl, rfl⟩

/-- A piece of this stretch (window 0 of @main). -/
noncomputable def it00D : List (HloOp τ sig (Elt F)) :=
  [ StableHlo.TRef.nullary main_call2.call0.c (constantI S_ 32 0#32),
    StableHlo.TRef.unary main_call2.call0.c main_call2.call0.v0 (broadcastInDim S_ ![] bcast_S_S_),
    StableHlo.TRef.binary (.of main_v21 : StableHlo.TRef sig ⟨S1024, .i32⟩) main_call2.call0.v0 main_call2.call0.v1 (fun x v => Host.reduceWindow IntOp.addi ![1024] ![1] ![1023] ![0] x v reduceWindows_S1024_S1024_w1024s1p1023_0 h_S_) ]

theorem it00D_sub : (it00D (F := F)).Forall fun op => op.bufs ⊆ tcRefs τ sig :=
  ⟨nullary_bufs_sub .., unary_bufs_sub .., binary_bufs_sub ..⟩

theorem it00D_fresh : (it00D (F := F)).Forall fun op => op.fresh = ∅ :=
  ⟨rfl, rfl, rfl⟩

/-- A piece of this stretch (window 0 of @main). -/
noncomputable def it00E : List (HloOp τ sig (Elt F)) :=
  [ StableHlo.nullary main_c_5 (constantI S_ 32 1#32),
    StableHlo.TRef.unary (.of main_c_5 : StableHlo.TRef sig ⟨S_, .i32⟩) main_call3.v0 (broadcastInDim S1024 ![] bcast_S_S1024),
    StableHlo.TRef.binary (.of main_v22 : StableHlo.TRef sig ⟨S1024, .i32⟩) main_call3.v0 main_call3.v1 Host.divsi,
    StableHlo.TRef.unary (.of main_v22 : StableHlo.TRef sig ⟨S1024, .i32⟩) main_call3.v2 signi,
    StableHlo.TRef.unary (.of main_c_5 : StableHlo.TRef sig ⟨S_, .i32⟩) main_call3.v3 signi,
    StableHlo.TRef.unary main_call3.v3 main_call3.v4 (broadcastInDim S1024 ![] bcast_S_S1024),
    StableHlo.TRef.binary main_call3.v2 main_call3.v4 main_call3.v5 (cmpi .ne),
    StableHlo.TRef.unary (.of main_c_5 : StableHlo.TRef sig ⟨S_, .i32⟩) main_call3.v6 (broadcastInDim S1024 ![] bcast_S_S1024),
    StableHlo.TRef.binary (.of main_v22 : StableHlo.TRef sig ⟨S1024, .i32⟩) main_call3.v6 main_call3.v7 Host.remsi,
    StableHlo.TRef.nullary main_call3.c (constantI S_ 32 0#32),
    StableHlo.TRef.unary main_call3.c main_call3.v8 (broadcastInDim S1024 ![] bcast_S_S1024),
    StableHlo.TRef.binary main_call3.v7 main_call3.v8 main_call3.v9 (cmpi .ne),
    StableHlo.TRef.binary main_call3.v5 main_call3.v9 main_call3.v10 andi,
    StableHlo.TRef.nullary main_call3.c_0 (constantI S_ 32 1#32),
    StableHlo.TRef.unary main_call3.c_0 main_call3.v11 (broadcastInDim S1024 ![] bcast_S_S1024),
    StableHlo.TRef.binary main_call3.v1 main_call3.v11 main_call3.v12 subi,
    StableHlo.TRef.ternary main_call3.v10 main_call3.v12 main_call3.v1 main_call3.call0.v0 select ]

theorem it00E_sub : (it00E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it00E_fresh : (it00E (F := F)).Forall fun op => op.fresh = ∅ :=
  ⟨rfl, rfl, rfl, rfl, rfl, rfl, rfl, rfl, rfl, rfl, rfl, rfl, rfl, rfl, rfl, rfl, rfl⟩

/-- A piece of this stretch (window 0 of @main). -/
noncomputable def it00G : List (HloOp τ sig (Elt F)) :=
  [ StableHlo.nullary main_c_6 (constantI S_ 32 1024#32),
    StableHlo.TRef.unary (.of main_c_6 : StableHlo.TRef sig ⟨S_, .i32⟩) main_call4.v0 id,
    StableHlo.TRef.nullary main_call4.c (constantI S_ 32 0#32),
    StableHlo.TRef.binary main_call4.v0 main_call4.c main_call4.v1 (cmpi .eq),
    StableHlo.TRef.nullary main_call4.c_0 (constantI S_ 32 1#32),
    StableHlo.TRef.ternary main_call4.v1 main_call4.c_0 main_call4.v0 main_call4.call0.v0 select,
    StableHlo.TRef.unary main_call4.call0.v0 main_call4.v3 (broadcastInDim S1024 ![] bcast_S_S1024),
    StableHlo.TRef.binary (.of main_v23 : StableHlo.TRef sig ⟨S1024, .i32⟩) main_call4.v3 main_call4.v4 Host.remsi,
    StableHlo.TRef.nullary main_call4.c_1 (constantI S_ 32 0#32),
    StableHlo.TRef.unary main_call4.c_1 main_call4.v5 (broadcastInDim S1024 ![] bcast_S_S1024),
    StableHlo.TRef.binary main_call4.v4 main_call4.v5 main_call4.v6 (cmpi .ne),
    StableHlo.TRef.nullary main_call4.c_2 (constantI S_ 32 0#32),
    StableHlo.TRef.unary main_call4.c_2 main_call4.v7 (broadcastInDim S1024 ![] bcast_S_S1024),
    StableHlo.TRef.binary main_call4.v4 main_call4.v7 main_call4.v8 (cmpi .slt),
    StableHlo.TRef.nullary main_call4.c_3 (constantI S_ 32 0#32),
    StableHlo.TRef.binary main_call4.call0.v0 main_call4.c_3 main_call4.v9 (cmpi .slt),
    StableHlo.TRef.unary main_call4.v9 main_call4.v10 (broadcastInDim S1024 ![] bcast_S_S1024),
    StableHlo.TRef.binary main_call4.v8 main_call4.v10 main_call4.v11 (cmpi .ne),
    StableHlo.TRef.binary main_call4.v11 main_call4.v6 main_call4.v12 andi,
    StableHlo.TRef.unary main_call4.call0.v0 main_call4.v13 (broadcastInDim S1024 ![] bcast_S_S1024),
    StableHlo.TRef.binary main_call4.v4 main_call4.v13 main_call4.v14 addi,
    StableHlo.TRef.ternary main_call4.v12 main_call4.v14 main_call4.v4 main_call4.v15 select ]

theorem it00G_sub : (it00G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it00G_fresh : (it00G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 0 of @main). -/
noncomputable def it00H : List (HloOp τ sig (Elt F)) :=
  [ StableHlo.TRef.nullary main_call5.c (constantI S_ 32 0#32),
    StableHlo.TRef.unary main_call5.c main_call5.v0 (broadcastInDim S1024 ![] bcast_S_S1024),
    StableHlo.TRef.binary (.of main_v24 : StableHlo.TRef sig ⟨S1024, .i32⟩) main_call5.v0 main_call5.v1 (cmpi .slt),
    StableHlo.TRef.nullary main_call5.c_0 (constantI S_ 32 1024#32),
    StableHlo.TRef.unary main_call5.c_0 main_call5.v2 (broadcastInDim S1024 ![] bcast_S_S1024),
    StableHlo.TRef.binary (.of main_v24 : StableHlo.TRef sig ⟨S1024, .i32⟩) main_call5.v2 main_call5.v3 addi,
    StableHlo.TRef.ternary main_call5.v1 main_call5.v3 (.of main_v24 : StableHlo.TRef sig ⟨S1024, .i32⟩) main_call5.call0.v0 select,
    StableHlo.TRef.unary main_call5.call0.v0 main_call5.v5 (broadcastInDim S1024x1 ![0] bcast_S1024_S1024x1_0),
    StableHlo.TRef.nullary main_call5.c_1 (constantI S1 32 1023#32),
    StableHlo.TRef.nullary main_call5.c_2 (constantI S_ 32 0#32),
    StableHlo.TRef.unary main_call5.c_2 main_call5.v6 (broadcastInDim S1024x1 ![] bcast_S_S1024x1),
    StableHlo.TRef.binary main_call5.v5 main_call5.v6 main_call5.v7 (cmpi .sge),
    StableHlo.TRef.unary main_call5.c_1 main_call5.v8 (broadcastInDim S1x1 ![1] bcast_S1_S1x1_1),
    StableHlo.TRef.unary main_call5.v8 main_call5.v9 (broadcastInDim S1024x1 ![0, 1] bcast_S1x1_S1024x1_0_1),
    StableHlo.TRef.binary main_call5.v5 main_call5.v9 main_call5.v10 (cmpi .sle),
    StableHlo.TRef.binary main_call5.v7 main_call5.v10 main_call5.v11 andi,
    StableHlo.TRef.nullary main_call5.c_3 (constantI S_ 1 1#1),
    StableHlo.TRef.binary main_call5.v11 main_call5.c_3 main_call5.v12 (fun x v => Host.reduce IntOp.andi x v reducesTo_S1024x1_S1024_d1 h_S_),
    StableHlo.TRef.binary (.of main_v7 : StableHlo.TRef sig ⟨S1024x1024, .f32⟩) main_call5.v5 main_call5.v13 (fun x i => Host.gather gather_S1024x1024_S1024x1_S1024x1024_1_0_n_n_0_1_11024 x i),
    StableHlo.TRef.unary main_call5.v12 main_call5.v14 (broadcastInDim S1024x1024 ![0] bcast_S1024_S1024x1024_0),
    StableHlo.TRef.nullary main_call5.cst (constant S_ .f32 0x7FC00000#32),
    StableHlo.TRef.unary main_call5.cst main_call5.v15 (broadcastInDim S1024x1024 ![] bcast_S_S1024x1024),
    StableHlo.TRef.ternary main_call5.v14 main_call5.v13 main_call5.v15 main_call5.v16 select ]

theorem it00H_sub : (it00H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it00H_fresh : (it00H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it00_W : List (Ref sig .tc) :=
  [main_v8, main_v9, main_v10, (main_call0.v0.ref), (main_call0.call0.c.ref), (main_call0.call0.v0.ref), (main_call0.call0.v1.ref), main_c_0, main_v12, main_c_1, (main_call1.v0.ref), (main_call1.v1.ref), (main_call1.v2.ref), main_c_2, main_v14, main_v15, main_c_3, main_v16, main_v17, main_v18, main_v19, main_c_4, main_v20, main_v21, (main_call2.call0.c.ref), (main_call2.call0.v0.ref), (main_call2.call0.v1.ref), main_c_5, (main_call3.v0.ref), (main_call3.v1.ref), (main_call3.v2.ref), (main_call3.v3.ref), (main_call3.v4.ref), (main_call3.v5.ref), (main_call3.v6.ref), (main_call3.v7.ref), (main_call3.c.ref), (main_call3.v8.ref), (main_call3.v9.ref), (main_call3.v10.ref), (main_call3.c_0.ref), (main_call3.v11.ref), (main_call3.v12.ref), (main_call3.call0.v0.ref), main_c_6, (main_call4.v0.ref), (main_call4.c.ref), (main_call4.v1.ref), (main_call4.c_0.ref), (main_call4.call0.v0.ref), (main_call4.v3.ref), (main_call4.v4.ref), (main_call4.c_1.ref), (main_call4.v5.ref), (main_call4.v6.ref), (main_call4.c_2.ref), (main_call4.v7.ref), (main_call4.v8.ref), (main_call4.c_3.ref), (main_call4.v9.ref), (main_call4.v10.ref), (main_call4.v11.ref), (main_call4.v12.ref), (main_call4.v13.ref), (main_call4.v14.ref), (main_call4.v15.ref), (main_call5.c.ref), (main_call5.v0.ref), (main_call5.v1.ref), (main_call5.c_0.ref), (main_call5.v2.ref), (main_call5.v3.ref), (main_call5.call0.v0.ref), (main_call5.v5.ref), (main_call5.c_1.ref), (main_call5.c_2.ref), (main_call5.v6.ref), (main_call5.v7.ref), (main_call5.v8.ref), (main_call5.v9.ref), (main_call5.v10.ref), (main_call5.v11.ref), (main_call5.c_3.ref), (main_call5.v12.ref), (main_call5.v13.ref), (main_call5.v14.ref), (main_call5.cst.ref), (main_call5.v15.ref), (main_call5.v16.ref)]

/-- The iteration up to the row lookup. -/
noncomputable def it00hd : List (HloOp τ sig (Elt F)) := it00A ++ (it00B ++ (it00C ++ (it00D ++ (it00E ++ it00G))))

/-- The iteration. -/
noncomputable def it00 : List (HloOp τ sig (Elt F)) := it00hd ++ it00H
theorem it00_sub : (it00 (F := F)).Forall fun op => op.bufs ⊆ tcRefs τ sig :=
  forall_append (forall_append it00A_sub (forall_append it00B_sub (forall_append it00C_sub (forall_append it00D_sub (forall_append it00E_sub it00G_sub))))) it00H_sub
theorem it00_fresh : (it00 (F := F)).Forall fun op => op.fresh = ∅ :=
  forall_append (forall_append it00A_fresh (forall_append it00B_fresh (forall_append it00C_fresh (forall_append it00D_fresh (forall_append it00E_fresh it00G_fresh))))) it00H_fresh

/-- The iteration as the concatenation of its pieces. -/
theorem it00_atoms : it00 (F := F) = it00A ++ (it00B ++ (it00C ++ (it00D ++ (it00E ++ (it00G ++ it00H))))) := by
  simp only [it00, it00hd, List.append_assoc]

end Cert.ReferenceIdeal.HandRun

end
-- ==== Proof.RefIt00.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt00

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it00A_val (V : Valuation τ sig (Elt F)) :
    after (it00A (F := F)) V (Proc.devRef (τ := τ) .tc main_v10) = RefFns.colMask (V (Proc.devRef (τ := τ) .tc main_v1)) 0 slices_S1024x32x1_S1024x1x1_0_0_0 := by
  simp only [it00A, List.cons_append, List.nil_append]
  after_results_simp
  try simp only [cast_eq]
  rfl

set_option maxRecDepth 65536 in
set_option maxHeartbeats 1000000 in
theorem it00B_val (V : Valuation τ sig (Elt F)) :
    after (it00B (F := F)) V (Proc.devRef (τ := τ) .tc main_v11) = RefFns.cumsumF (V (Proc.devRef (τ := τ) .tc main_v10)) := by
  simp only [it00B, List.cons_append, List.nil_append]
  after_results_simp
  try simp only [cast_eq]
  rfl

set_option maxRecDepth 65536 in
set_option maxHeartbeats 1000000 in
theorem it00C_val (V : Valuation τ sig (Elt F)) :
    after (it00C (F := F)) V (Proc.devRef (τ := τ) .tc main_v21) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v11)) (constantI S_ 32 0#32)) (broadcastInDim S1024 ![] bcast_S_S1024 (constantI S_ 32 0#32))) (addi (RefFns.clipF (V (Proc.devRef (τ := τ) .tc main_v11)) (constantI S_ 32 0#32)) (broadcastInDim S1024 ![] bcast_S_S1024 (constantI S_ 32 1024#32))) (RefFns.clipF (V (Proc.devRef (τ := τ) .tc main_v11)) (constantI S_ 32 0#32)))) (broadcastInDim S1024 ![] bcast_S_S1024 (constantI S_ 32 1#32)) := by
  simp only [it00C, List.cons_append, List.nil_append]
  after_results_simp
  try simp only [cast_eq]
  rfl

set_option maxRecDepth 65536 in
set_option maxHeartbeats 1000000 in
theorem it00D_val (V : Valuation τ sig (Elt F)) :
    after (it00D (F := F)) V (Proc.devRef (τ := τ) .tc main_v22) = RefFns.cumsum1F (V (Proc.devRef (τ := τ) .tc main_v21)) := by
  simp only [it00D, List.cons_append, List.nil_append]
  after_results_simp
  try simp only [cast_eq]
  rfl

set_option maxRecDepth 65536 in
set_option maxHeartbeats 1000000 in
theorem it00E_val (V : Valuation τ sig (Elt F)) :
    after (it00E (F := F)) V (Proc.devRef (τ := τ) .tc main_v23) = RefFns.floorDivF (V (Proc.devRef (τ := τ) .tc main_v22)) (constantI S_ 32 1#32) := by
  simp only [it00E, List.cons_append, List.nil_append]
  after_results_simp
  try simp only [cast_eq]
  rfl

set_option maxRecDepth 65536 in
set_option maxHeartbeats 1000000 in
theorem it00G_val (V : Valuation τ sig (Elt F)) :
    after (it00G (F := F)) V (Proc.devRef (τ := τ) .tc main_v24) = RefFns.remainderF (V (Proc.devRef (τ := τ) .tc main_v23)) (constantI S_ 32 1024#32) := by
  simp only [it00G, List.cons_append, List.nil_append]
  after_results_simp
  try simp only [cast_eq]
  rfl

set_option maxRecDepth 65536 in
set_option maxHeartbeats 1000000 in
theorem it00H_val (V : Valuation τ sig (Elt F)) :
    after (it00H (F := F)) V (Proc.devRef (τ := τ) .tc main_v25) = RefFns.takeF (V (Proc.devRef (τ := τ) .tc main_v7)) (V (Proc.devRef (τ := τ) .tc main_v24)) := by
  simp only [it00H, List.cons_append, List.nil_append]
  after_results_simp
  try simp only [cast_eq]
  rfl

theorem it00A_writes : (it00A (F := F)).Forall fun op => op.writes ⊆ (it00_W.map (Proc.devRef (τ := τ) .tc)).toFinset :=
  ⟨wsub main_v8 (by decide), wsub main_v9 (by decide), wsub main_v10 (by decide)⟩

theorem it00B_writes : (it00B (F := F)).Forall fun op => op.writes ⊆ (it00_W.map (Proc.devRef (τ := τ) .tc)).toFinset :=
  ⟨wsub (main_call0.v0.ref) (by decide), wsub (main_call0.call0.c.ref) (by decide), wsub (main_call0.call0.v0.ref) (by decide), wsub (main_call0.call0.v1.ref) (by decide)⟩

theorem it00C_writes : (it00C (F := F)).Forall fun op => op.writes ⊆ (it00_W.map (Proc.devRef (τ := τ) .tc)).toFinset :=
  ⟨wsub main_c_0 (by decide), wsub main_v12 (by decide), wsub main_c_1 (by decide), wsub (main_call1.v0.ref) (by decide), wsub (main_call1.v1.ref) (by decide), wsub (main_call1.v2.ref) (by decide), wsub main_c_2 (by decide), wsub main_v14 (by decide), wsub main_v15 (by decide), wsub main_c_3 (by decide), wsub main_v16 (by decide), wsub main_v17 (by decide), wsub main_v18 (by decide), wsub main_v19 (by decide), wsub main_c_4 (by decide), wsub main_v20 (by decide), wsub main_v21 (by decide)⟩

theorem it00D_writes : (it00D (F := F)).Forall fun op => op.writes ⊆ (it00_W.map (Proc.devRef (τ := τ) .tc)).toFinset :=
  ⟨wsub (main_call2.call0.c.ref) (by decide), wsub (main_call2.call0.v0.ref) (by decide), wsub (main_call2.call0.v1.ref) (by decide)⟩

theorem it00E_writes : (it00E (F := F)).Forall fun op => op.writes ⊆ (it00_W.map (Proc.devRef (τ := τ) .tc)).toFinset :=
  ⟨wsub main_c_5 (by decide), wsub (main_call3.v0.ref) (by decide), wsub (main_call3.v1.ref) (by decide), wsub (main_call3.v2.ref) (by decide), wsub (main_call3.v3.ref) (by decide), wsub (main_call3.v4.ref) (by decide), wsub (main_call3.v5.ref) (by decide), wsub (main_call3.v6.ref) (by decide), wsub (main_call3.v7.ref) (by decide), wsub (main_call3.c.ref) (by decide), wsub (main_call3.v8.ref) (by decide), wsub (main_call3.v9.ref) (by decide), wsub (main_call3.v10.ref) (by decide), wsub (main_call3.c_0.ref) (by decide), wsub (main_call3.v11.ref) (by decide), wsub (main_call3.v12.ref) (by decide), wsub (main_call3.call0.v0.ref) (by decide)⟩

theorem it00G_writes : (it00G (F := F)).Forall fun op => op.writes ⊆ (it00_W.map (Proc.devRef (τ := τ) .tc)).toFinset :=
  ⟨wsub main_c_6 (by decide), wsub (main_call4.v0.ref) (by decide), wsub (main_call4.c.ref) (by decide), wsub (main_call4.v1.ref) (by decide), wsub (main_call4.c_0.ref) (by decide), wsub (main_call4.call0.v0.ref) (by decide), wsub (main_call4.v3.ref) (by decide), wsub (main_call4.v4.ref) (by decide), wsub (main_call4.c_1.ref) (by decide), wsub (main_call4.v5.ref) (by decide), wsub (main_call4.v6.ref) (by decide), wsub (main_call4.c_2.ref) (by decide), wsub (main_call4.v7.ref) (by decide), wsub (main_call4.v8.ref) (by decide), wsub (main_call4.c_3.ref) (by decide), wsub (main_call4.v9.ref) (by decide), wsub (main_call4.v10.ref) (by decide), wsub (main_call4.v11.ref) (by decide), wsub (main_call4.v12.ref) (by decide), wsub (main_call4.v13.ref) (by decide), wsub (main_call4.v14.ref) (by decide), wsub (main_call4.v15.ref) (by decide)⟩

theorem it00H_writes : (it00H (F := F)).Forall fun op => op.writes ⊆ (it00_W.map (Proc.devRef (τ := τ) .tc)).toFinset :=
  ⟨wsub (main_call5.c.ref) (by decide), wsub (main_call5.v0.ref) (by decide), wsub (main_call5.v1.ref) (by decide), wsub (main_call5.c_0.ref) (by decide), wsub (main_call5.v2.ref) (by decide), wsub (main_call5.v3.ref) (by decide), wsub (main_call5.call0.v0.ref) (by decide), wsub (main_call5.v5.ref) (by decide), wsub (main_call5.c_1.ref) (by decide), wsub (main_call5.c_2.ref) (by decide), wsub (main_call5.v6.ref) (by decide), wsub (main_call5.v7.ref) (by decide), wsub (main_call5.v8.ref) (by decide), wsub (main_call5.v9.ref) (by decide), wsub (main_call5.v10.ref) (by decide), wsub (main_call5.v11.ref) (by decide), wsub (main_call5.c_3.ref) (by decide), wsub (main_call5.v12.ref) (by decide), wsub (main_call5.v13.ref) (by decide), wsub (main_call5.v14.ref) (by decide), wsub (main_call5.cst.ref) (by decide), wsub (main_call5.v15.ref) (by decide), wsub (main_call5.v16.ref) (by decide)⟩

theorem it00hd_writes : (it00hd (F := F)).Forall fun op => op.writes ⊆ (it00_W.map (Proc.devRef (τ := τ) .tc)).toFinset :=
  forall_append it00A_writes (forall_append it00B_writes (forall_append it00C_writes (forall_append it00D_writes (forall_append it00E_writes it00G_writes))))

theorem it00_writes : (it00 (F := F)).Forall fun op => op.writes ⊆ (it00_W.map (Proc.devRef (τ := τ) .tc)).toFinset :=
  forall_append it00hd_writes (it00H_writes)

/-- The iteration leaves every buffer it does not write as it was. -/
theorem it00_keep (V : Valuation τ sig (Elt F)) (r : Ref sig .tc) (hr : r ∉ it00_W) :
    after (it00 (F := F)) V (Proc.devRef (τ := τ) .tc r) = V (Proc.devRef (τ := τ) .tc r) :=
  after_of_writes_sub it00 V it00_writes hr

theorem it00hd_keep (V : Valuation τ sig (Elt F)) (r : Ref sig .tc) (hr : r ∉ it00_W) :
    after (it00hd (F := F)) V (Proc.devRef (τ := τ) .tc r) = V (Proc.devRef (τ := τ) .tc r) :=
  after_of_writes_sub it00hd V it00hd_writes hr

/-- The iteration's result: the rows of the matrix it is handed at the compacted indices of its mask. -/
theorem it00_res (V : Valuation τ sig (Elt F)) :
    after (it00 (F := F)) V (Proc.devRef (τ := τ) .tc main_v25) = RefFns.nzTake (V (Proc.devRef (τ := τ) .tc main_v7)) (RefFns.colMask (V (Proc.devRef (τ := τ) .tc main_v1)) 0 slices_S1024x32x1_S1024x1x1_0_0_0) := by
  rw [it00, after_append, it00H_val, it00hd_keep V main_v7 (by decide), it00hd]
  simp only [after_append]
  rw [it00G_val, it00E_val, it00D_val, it00C_val, it00B_val, it00A_val]
  rfl

set_option maxRecDepth 65536 in
set_option maxHeartbeats 4000000 in
/-- The invariant of the run survives the iteration, with its block added. -/
theorem it00_step {x : FVec F S1x32x1024 .f32} {V : Valuation τ sig (Elt F)} (hg : Good 0 x V) : Good 1 x (after (it00 (F := F)) V) :=
  good_step 0 (by decide) it00 it00_W slices_S1024x32x1_S1024x1x1_0_0_0 it00_keep it00_res (fun _ => rfl) (by decide +kernel) (by decide +kernel) (by decide +kernel) (by decide +kernel) hg

end Cert.ReferenceIdeal.HandRun

end
-- ==== Proof.RefOpsIt01.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 0 of @main). -/
noncomputable def it01A : List (HloOp τ sig (Elt F)) :=
  [ StableHlo.unary main_v1 main_v26 ((extractStridedSlice S1024x1x1 ![0, 1, 0] · slices_S1024x32x1_S1024x1x1_0_1_0) : (⟨S1024x32x1, .i1⟩ : BufTy).Contents (Elt F) → (⟨S1024x1x1, .i1⟩ : BufTy).Contents (Elt F)),
    StableHlo.reshape main_v26 main_v27 rfl shapeCasts_S1024x1x1_S1024,
    StableHlo.unary main_v27 main_v28 (noti : (⟨S1024, .i1⟩ : BufTy).Contents (Elt F) → (⟨S1024, .i1⟩ : BufTy).Contents (Elt F)) ]

theorem it01A_sub : (it01A (F := F)).Forall fun op => op.bufs ⊆ tcRefs τ sig :=
  ⟨unary_bufs_sub .., reshape_bufs_sub .., unary_bufs_sub ..⟩

theorem it01A_fresh : (it01A (F := F)).Forall fun op => op.fresh = ∅ :=
  ⟨rfl, rfl, rfl⟩

/-- A piece of this stretch (window 0 of @main). -/
noncomputable def it01B : List (HloOp τ sig (Elt F)) :=
  [ StableHlo.TRef.unary (.of main_v28 : StableHlo.TRef sig ⟨S1024, .i1⟩) main_call6.v0 (extui 32 · natLt_1_32),
    StableHlo.TRef.nullary main_call6.call0.c (constantI S_ 32 0#32),
    StableHlo.TRef.unary main_call6.call0.c main_call6.call0.v0 (broadcastInDim S_ ![] bcast_S_S_),
    StableHlo.TRef.binary main_call6.v0 main_call6.call0.v0 main_call6.call0.v1 (fun x v => Host.reduceWindow IntOp.addi ![1024] ![1] ![1023] ![0] x v reduceWindows_S1024_S1024_w1024s1p1023_0 h_S_) ]

theorem it01B_sub : (it01B (F := F)).Forall fun op => op.bufs ⊆ tcRefs τ sig :=
  ⟨unary_bufs_sub .., nullary_bufs_sub .., unary_bufs_sub .., binary_bufs_sub ..⟩

theorem it01B_fresh : (it01B (F := F)).Forall fun op => op.fresh = ∅ :=
  ⟨rfl, rfl, rfl, rfl⟩

/-- A piece of this stretch (window 0 of @main). -/
noncomputable def it01C : List (HloOp τ sig (Elt F)) :=
  [ StableHlo.nullary main_c_7 (constantI S_ 32 0#32),
    StableHlo.unary main_c_7 main_v30 (broadcastInDim S1024 ![] bcast_S_S1024 : (⟨S_, .i32⟩ : BufTy).Contents (Elt F) → (⟨S1024, .i32⟩ : BufTy).Contents (Elt F)),
    StableHlo.nullary main_c_8 (constantI S_ 32 0#32),
    StableHlo.TRef.unary (.of main_c_8 : StableHlo.TRef sig ⟨S_, .i32⟩) main_call7.v0 id,
    StableHlo.TRef.unary main_call7.v0 main_call7.v1 (broadcastInDim S1024 ![] bcast_S_S1024),
    StableHlo.TRef.binary main_call7.v1 (.of main_v29 : StableHlo.TRef sig ⟨S1024, .i32⟩) main_call7.v2 maxsi,
    StableHlo.nullary main_c_9 (constantI S_ 32 0#32),
    StableHlo.unary main_c_9 main_v32 (broadcastInDim S1024 ![] bcast_S_S1024 : (⟨S_, .i32⟩ : BufTy).Contents (Elt F) → (⟨S1024, .i32⟩ : BufTy).Contents (Elt F)),
    StableHlo.binary main_v31 main_v32 main_v33 (cmpi .slt : (⟨S1024, .i32⟩ : BufTy).Contents (Elt F) → (⟨S1024, .i32⟩ : BufTy).Contents (Elt F) → (⟨S1024, .i1⟩ : BufTy).Contents (Elt F)),
    StableHlo.nullary main_c_10 (constantI S_ 32 1024#32),
    StableHlo.unary main_c_10 main_v34 (broadcastInDim S1024 ![] bcast_S_S1024 : (⟨S_, .i32⟩ : BufTy).Contents (Elt F) → (⟨S1024, .i32⟩ : BufTy).Contents (Elt F)),
    StableHlo.binary main_v31 main_v34 main_v35 (addi : (⟨S1024, .i32⟩ : BufTy).Contents (Elt F) → (⟨S1024, .i32⟩ : BufTy).Contents (Elt F) → (⟨S1024, .i32⟩ : BufTy).Contents (Elt F)),
    StableHlo.ternary main_v33 main_v35 main_v31 main_v36 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v36 main_v37 (broadcastInDim S1024x1 ![0] bcast_S1024_S1024x1_0 : (⟨S1024, .i32⟩ : BufTy).Contents (Elt F) → (⟨S1024x1, .i32⟩ : BufTy).Contents (Elt F)),
    StableHlo.nullary main_c_11 (constantI S_ 32 1#32),
    StableHlo.unary main_c_11 main_v38 (broadcastInDim S1024 ![] bcast_S_S1024 : (⟨S_, .i32⟩ : BufTy).Contents (Elt F) → (⟨S1024, .i32⟩ : BufTy).Contents (Elt F)),
    StableHlo.ternary main_v30 main_v37 main_v38 main_v39 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it01C_sub : (it01C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it01C_fresh : (it01C (F := F)).Forall fun op => op.fresh = ∅ :=
  ⟨rfl, rfl, rfl, rfl, rfl, rfl, rfl, rfl, rfl, rfl, rfl, rfl, rfl, rfl, rfl, rfl, rfl⟩

/-- A piece of this stretch (window 0 of @main). -/
noncomputable def it01D : List (HloOp τ sig (Elt F)) :=
  [ StableHlo.TRef.nullary main_call8.call0.c (constantI S_ 32 0#32),
    StableHlo.TRef.unary main_call8.call0.c main_call8.call0.v0 (broadcastInDim S_ ![] bcast_S_S_),
    StableHlo.TRef.binary (.of main_v39 : StableHlo.TRef sig ⟨S1024, .i32⟩) main_call8.call0.v0 main_call8.call0.v1 (fun x v => Host.reduceWindow IntOp.addi ![1024] ![1] ![1023] ![0] x v reduceWindows_S1024_S1024_w1024s1p1023_0 h_S_) ]

theorem it01D_sub : (it01D (F := F)).Forall fun op => op.bufs ⊆ tcRefs τ sig :=
  ⟨nullary_bufs_sub .., unary_bufs_sub .., binary_bufs_sub ..⟩

theorem it01D_fresh : (it01D (F := F)).Forall fun op => op.fresh = ∅ :=
  ⟨rfl, rfl, rfl⟩

/-- A piece of this stretch (window 0 of @main). -/
noncomputable def it01E : List (HloOp τ sig (Elt F)) :=
  [ StableHlo.nullary main_c_12 (constantI S_ 32 1#32),
    StableHlo.TRef.unary (.of main_c_12 : StableHlo.TRef sig ⟨S_, .i32⟩) main_call9.v0 (broadcastInDim S1024 ![] bcast_S_S1024),
    StableHlo.TRef.binary (.of main_v40 : StableHlo.TRef sig ⟨S1024, .i32⟩) main_call9.v0 main_call9.v1 Host.divsi,
    StableHlo.TRef.unary (.of main_v40 : StableHlo.TRef sig ⟨S1024, .i32⟩) main_call9.v2 signi,
    StableHlo.TRef.unary (.of main_c_12 : StableHlo.TRef sig ⟨S_, .i32⟩) main_call9.v3 signi,
    StableHlo.TRef.unary main_call9.v3 main_call9.v4 (broadcastInDim S1024 ![] bcast_S_S1024),
    StableHlo.TRef.binary main_call9.v2 main_call9.v4 main_call9.v5 (cmpi .ne),
    StableHlo.TRef.unary (.of main_c_12 : StableHlo.TRef sig ⟨S_, .i32⟩) main_call9.v6 (broadcastInDim S1024 ![] bcast_S_S1024),
    StableHlo.TRef.binary (.of main_v40 : StableHlo.TRef sig ⟨S1024, .i32⟩) main_call9.v6 main_call9.v7 Host.remsi,
    StableHlo.TRef.nullary main_call9.c (constantI S_ 32 0#32),
    StableHlo.TRef.unary main_call9.c main_call9.v8 (broadcastInDim S1024 ![] bcast_S_S1024),
    StableHlo.TRef.binary main_call9.v7 main_call9.v8 main_call9.v9 (cmpi .ne),
    StableHlo.TRef.binary main_call9.v5 main_call9.v9 main_call9.v10 andi,
    StableHlo.TRef.nullary main_call9.c_0 (constantI S_ 32 1#32),
    StableHlo.TRef.unary main_call9.c_0 main_call9.v11 (broadcastInDim S1024 ![] bcast_S_S1024),
    StableHlo.TRef.binary main_call9.v1 main_call9.v11 main_call9.v12 subi,
    StableHlo.TRef.ternary main_call9.v10 main_call9.v12 main_call9.v1 main_call9.call0.v0 select ]

theorem it01E_sub : (it01E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it01E_fresh : (it01E (F := F)).Forall fun op => op.fresh = ∅ :=
  ⟨rfl, rfl, rfl, rfl, rfl, rfl, rfl, rfl, rfl, rfl, rfl, rfl, rfl, rfl, rfl, rfl, rfl⟩

/-- A piece of this stretch (window 0 of @main). -/
noncomputable def it01G : List (HloOp τ sig (Elt F)) :=
  [ StableHlo.nullary main_c_13 (constantI S_ 32 1024#32),
    StableHlo.TRef.unary (.of main_c_13 : StableHlo.TRef sig ⟨S_, .i32⟩) main_call10.v0 id,
    StableHlo.TRef.nullary main_call10.c (constantI S_ 32 0#32),
    StableHlo.TRef.binary main_call10.v0 main_call10.c main_call10.v1 (cmpi .eq),
    StableHlo.TRef.nullary main_call10.c_0 (constantI S_ 32 1#32),
    StableHlo.TRef.ternary main_call10.v1 main_call10.c_0 main_call10.v0 main_call10.call0.v0 select,
    StableHlo.TRef.unary main_call10.call0.v0 main_call10.v3 (broadcastInDim S1024 ![] bcast_S_S1024),
    StableHlo.TRef.binary (.of main_v41 : StableHlo.TRef sig ⟨S1024, .i32⟩) main_call10.v3 main_call10.v4 Host.remsi,
    StableHlo.TRef.nullary main_call10.c_1 (constantI S_ 32 0#32),
    StableHlo.TRef.unary main_call10.c_1 main_call10.v5 (broadcastInDim S1024 ![] bcast_S_S1024),
    StableHlo.TRef.binary main_call10.v4 main_call10.v5 main_call10.v6 (cmpi .ne),
    StableHlo.TRef.nullary main_call10.c_2 (constantI S_ 32 0#32),
    StableHlo.TRef.unary main_call10.c_2 main_call10.v7 (broadcastInDim S1024 ![] bcast_S_S1024),
    StableHlo.TRef.binary main_call10.v4 main_call10.v7 main_call10.v8 (cmpi .slt),
    StableHlo.TRef.nullary main_call10.c_3 (constantI S_ 32 0#32),
    StableHlo.TRef.binary main_call10.call0.v0 main_call10.c_3 main_call10.v9 (cmpi .slt),
    StableHlo.TRef.unary main_call10.v9 main_call10.v10 (broadcastInDim S1024 ![] bcast_S_S1024),
    StableHlo.TRef.binary main_call10.v8 main_call10.v10 main_call10.v11 (cmpi .ne),
    StableHlo.TRef.binary main_call10.v11 main_call10.v6 main_call10.v12 andi,
    StableHlo.TRef.unary main_call10.call0.v0 main_call10.v13 (broadcastInDim S1024 ![] bcast_S_S1024),
    StableHlo.TRef.binary main_call10.v4 main_call10.v13 main_call10.v14 addi,
    StableHlo.TRef.ternary main_call10.v12 main_call10.v14 main_call10.v4 main_call10.v15 select ]

theorem it01G_sub : (it01G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it01G_fresh : (it01G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 0 of @main). -/
noncomputable def it01H : List (HloOp τ sig (Elt F)) :=
  [ StableHlo.TRef.nullary main_call11.c (constantI S_ 32 0#32),
    StableHlo.TRef.unary main_call11.c main_call11.v0 (broadcastInDim S1024 ![] bcast_S_S1024),
    StableHlo.TRef.binary (.of main_v42 : StableHlo.TRef sig ⟨S1024, .i32⟩) main_call11.v0 main_call11.v1 (cmpi .slt),
    StableHlo.TRef.nullary main_call11.c_0 (constantI S_ 32 1024#32),
    StableHlo.TRef.unary main_call11.c_0 main_call11.v2 (broadcastInDim S1024 ![] bcast_S_S1024),
    StableHlo.TRef.binary (.of main_v42 : StableHlo.TRef sig ⟨S1024, .i32⟩) main_call11.v2 main_call11.v3 addi,
    StableHlo.TRef.ternary main_call11.v1 main_call11.v3 (.of main_v42 : StableHlo.TRef sig ⟨S1024, .i32⟩) main_call11.call0.v0 select,
    StableHlo.TRef.unary main_call11.call0.v0 main_call11.v5 (broadcastInDim S1024x1 ![0] bcast_S1024_S1024x1_0),
    StableHlo.TRef.nullary main_call11.c_1 (constantI S1 32 1023#32),
    StableHlo.TRef.nullary main_call11.c_2 (constantI S_ 32 0#32),
    StableHlo.TRef.unary main_call11.c_2 main_call11.v6 (broadcastInDim S1024x1 ![] bcast_S_S1024x1),
    StableHlo.TRef.binary main_call11.v5 main_call11.v6 main_call11.v7 (cmpi .sge),
    StableHlo.TRef.unary main_call11.c_1 main_call11.v8 (broadcastInDim S1x1 ![1] bcast_S1_S1x1_1),
    StableHlo.TRef.unary main_call11.v8 main_call11.v9 (broadcastInDim S1024x1 ![0, 1] bcast_S1x1_S1024x1_0_1),
    StableHlo.TRef.binary main_call11.v5 main_call11.v9 main_call11.v10 (cmpi .sle),
    StableHlo.TRef.binary main_call11.v7 main_call11.v10 main_call11.v11 andi,
    StableHlo.TRef.nullary main_call11.c_3 (constantI S_ 1 1#1),
    StableHlo.TRef.binary main_call11.v11 main_call11.c_3 main_call11.v12 (fun x v => Host.reduce IntOp.andi x v reducesTo_S1024x1_S1024_d1 h_S_),
    StableHlo.TRef.binary (.of main_v7 : StableHlo.TRef sig ⟨S1024x1024, .f32⟩) main_call11.v5 main_call11.v13 (fun x i => Host.gather gather_S1024x1024_S1024x1_S1024x1024_1_0_n_n_0_1_11024 x i),
    StableHlo.TRef.unary main_call11.v12 main_call11.v14 (broadcastInDim S1024x1024 ![0] bcast_S1024_S1024x1024_0),
    StableHlo.TRef.nullary main_call11.cst (constant S_ .f32 0x7FC00000#32),
    StableHlo.TRef.unary main_call11.cst main_call11.v15 (broadcastInDim S1024x1024 ![] bcast_S_S1024x1024),
    StableHlo.TRef.ternary main_call11.v14 main_call11.v13 main_call11.v15 main_call11.v16 select ]

theorem it01H_sub : (it01H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it01H_fresh : (it01H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it01_W : List (Ref sig .tc) :=
  [main_v26, main_v27, main_v28, (main_call6.v0.ref), (main_call6.call0.c.ref), (main_call6.call0.v0.ref), (main_call6.call0.v1.ref), main_c_7, main_v30, main_c_8, (main_call7.v0.ref), (main_call7.v1.ref), (main_call7.v2.ref), main_c_9, main_v32, main_v33, main_c_10, main_v34, main_v35, main_v36, main_v37, main_c_11, main_v38, main_v39, (main_call8.call0.c.ref), (main_call8.call0.v0.ref), (main_call8.call0.v1.ref), main_c_12, (main_call9.v0.ref), (main_call9.v1.ref), (main_call9.v2.ref), (main_call9.v3.ref), (main_call9.v4.ref), (main_call9.v5.ref), (main_call9.v6.ref), (main_call9.v7.ref), (main_call9.c.ref), (main_call9.v8.ref), (main_call9.v9.ref), (main_call9.v10.ref), (main_call9.c_0.ref), (main_call9.v11.ref), (main_call9.v12.ref), (main_call9.call0.v0.ref), main_c_13, (main_call10.v0.ref), (main_call10.c.ref), (main_call10.v1.ref), (main_call10.c_0.ref), (main_call10.call0.v0.ref), (main_call10.v3.ref), (main_call10.v4.ref), (main_call10.c_1.ref), (main_call10.v5.ref), (main_call10.v6.ref), (main_call10.c_2.ref), (main_call10.v7.ref), (main_call10.v8.ref), (main_call10.c_3.ref), (main_call10.v9.ref), (main_call10.v10.ref), (main_call10.v11.ref), (main_call10.v12.ref), (main_call10.v13.ref), (main_call10.v14.ref), (main_call10.v15.ref), (main_call11.c.ref), (main_call11.v0.ref), (main_call11.v1.ref), (main_call11.c_0.ref), (main_call11.v2.ref), (main_call11.v3.ref), (main_call11.call0.v0.ref), (main_call11.v5.ref), (main_call11.c_1.ref), (main_call11.c_2.ref), (main_call11.v6.ref), (main_call11.v7.ref), (main_call11.v8.ref), (main_call11.v9.ref), (main_call11.v10.ref), (main_call11.v11.ref), (main_call11.c_3.ref), (main_call11.v12.ref), (main_call11.v13.ref), (main_call11.v14.ref), (main_call11.cst.ref), (main_call11.v15.ref), (main_call11.v16.ref)]

/-- The iteration up to the row lookup. -/
noncomputable def it01hd : List (HloOp τ sig (Elt F)) := it01A ++ (it01B ++ (it01C ++ (it01D ++ (it01E ++ it01G))))

/-- The iteration. -/
noncomputable def it01 : List (HloOp τ sig (Elt F)) := it01hd ++ it01H
theorem it01_sub : (it01 (F := F)).Forall fun op => op.bufs ⊆ tcRefs τ sig :=
  forall_append (forall_append it01A_sub (forall_append it01B_sub (forall_append it01C_sub (forall_append it01D_sub (forall_append it01E_sub it01G_sub))))) it01H_sub
theorem it01_fresh : (it01 (F := F)).Forall fun op => op.fresh = ∅ :=
  forall_append (forall_append it01A_fresh (forall_append it01B_fresh (forall_append it01C_fresh (forall_append it01D_fresh (forall_append it01E_fresh it01G_fresh))))) it01H_fresh

/-- The iteration as the concatenation of its pieces. -/
theorem it01_atoms : it01 (F := F) = it01A ++ (it01B ++ (it01C ++ (it01D ++ (it01E ++ (it01G ++ it01H))))) := by
  simp only [it01, it01hd, List.append_assoc]

end Cert.ReferenceIdeal.HandRun

end
-- ==== Proof.RefIt01.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt01

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it01A_val (V : Valuation τ sig (Elt F)) :
    after (it01A (F := F)) V (Proc.devRef (τ := τ) .tc main_v28) = RefFns.colMask (V (Proc.devRef (τ := τ) .tc main_v1)) 1 slices_S1024x32x1_S1024x1x1_0_1_0 := by
  simp only [it01A, List.cons_append, List.nil_append]
  after_results_simp
  try simp only [cast_eq]
  rfl

set_option maxRecDepth 65536 in
set_option maxHeartbeats 1000000 in
theorem it01B_val (V : Valuation τ sig (Elt F)) :
    after (it01B (F := F)) V (Proc.devRef (τ := τ) .tc main_v29) = RefFns.cumsumF (V (Proc.devRef (τ := τ) .tc main_v28)) := by
  simp only [it01B, List.cons_append, List.nil_append]
  after_results_simp
  try simp only [cast_eq]
  rfl

set_option maxRecDepth 65536 in
set_option maxHeartbeats 1000000 in
theorem it01C_val (V : Valuation τ sig (Elt F)) :
    after (it01C (F := F)) V (Proc.devRef (τ := τ) .tc main_v39) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v29)) (constantI S_ 32 0#32)) (broadcastInDim S1024 ![] bcast_S_S1024 (constantI S_ 32 0#32))) (addi (RefFns.clipF (V (Proc.devRef (τ := τ) .tc main_v29)) (constantI S_ 32 0#32)) (broadcastInDim S1024 ![] bcast_S_S1024 (constantI S_ 32 1024#32))) (RefFns.clipF (V (Proc.devRef (τ := τ) .tc main_v29)) (constantI S_ 32 0#32)))) (broadcastInDim S1024 ![] bcast_S_S1024 (constantI S_ 32 1#32)) := by
  simp only [it01C, List.cons_append, List.nil_append]
  after_results_simp
  try simp only [cast_eq]
  rfl

set_option maxRecDepth 65536 in
set_option maxHeartbeats 1000000 in
theorem it01D_val (V : Valuation τ sig (Elt F)) :
    after (it01D (F := F)) V (Proc.devRef (τ := τ) .tc main_v40) = RefFns.cumsum1F (V (Proc.devRef (τ := τ) .tc main_v39)) := by
  simp only [it01D, List.cons_append, List.nil_append]
  after_results_simp
  try simp only [cast_eq]
  rfl

set_option maxRecDepth 65536 in
set_option maxHeartbeats 1000000 in
theorem it01E_val (V : Valuation τ sig (Elt F)) :
    after (it01E (F := F)) V (Proc.devRef (τ := τ) .tc main_v41) = RefFns.floorDivF (V (Proc.devRef (τ := τ) .tc main_v40)) (constantI S_ 32 1#32) := by
  simp only [it01E, List.cons_append, List.nil_append]
  after_results_simp
  try simp only [cast_eq]
  rfl

set_option maxRecDepth 65536 in
set_option maxHeartbeats 1000000 in
theorem it01G_val (V : Valuation τ sig (Elt F)) :
    after (it01G (F := F)) V (Proc.devRef (τ := τ) .tc main_v42) = RefFns.remainderF (V (Proc.devRef (τ := τ) .tc main_v41)) (constantI S_ 32 1024#32) := by
  simp only [it01G, List.cons_append, List.nil_append]
  after_results_simp
  try simp only [cast_eq]
  rfl

set_option maxRecDepth 65536 in
set_option maxHeartbeats 1000000 in
theorem it01H_val (V : Valuation τ sig (Elt F)) :
    after (it01H (F := F)) V (Proc.devRef (τ := τ) .tc main_v43) = RefFns.takeF (V (Proc.devRef (τ := τ) .tc main_v7)) (V (Proc.devRef (τ := τ) .tc main_v42)) := by
  simp only [it01H, List.cons_append, List.nil_append]
  after_results_simp
  try simp only [cast_eq]
  rfl

theorem it01A_writes : (it01A (F := F)).Forall fun op => op.writes ⊆ (it01_W.map (Proc.devRef (τ := τ) .tc)).toFinset :=
  ⟨wsub main_v26 (by decide), wsub main_v27 (by decide), wsub main_v28 (by decide)⟩

theorem it01B_writes : (it01B (F := F)).Forall fun op => op.writes ⊆ (it01_W.map (Proc.devRef (τ := τ) .tc)).toFinset :=
  ⟨wsub (main_call6.v0.ref) (by decide), wsub (main_call6.call0.c.ref) (by decide), wsub (main_call6.call0.v0.ref) (by decide), wsub (main_call6.call0.v1.ref) (by decide)⟩

theorem it01C_writes : (it01C (F := F)).Forall fun op => op.writes ⊆ (it01_W.map (Proc.devRef (τ := τ) .tc)).toFinset :=
  ⟨wsub main_c_7 (by decide), wsub main_v30 (by decide), wsub main_c_8 (by decide), wsub (main_call7.v0.ref) (by decide), wsub (main_call7.v1.ref) (by decide), wsub (main_call7.v2.ref) (by decide), wsub main_c_9 (by decide), wsub main_v32 (by decide), wsub main_v33 (by decide), wsub main_c_10 (by decide), wsub main_v34 (by decide), wsub main_v35 (by decide), wsub main_v36 (by decide), wsub main_v37 (by decide), wsub main_c_11 (by decide), wsub main_v38 (by decide), wsub main_v39 (by decide)⟩

theorem it01D_writes : (it01D (F := F)).Forall fun op => op.writes ⊆ (it01_W.map (Proc.devRef (τ := τ) .tc)).toFinset :=
  ⟨wsub (main_call8.call0.c.ref) (by decide), wsub (main_call8.call0.v0.ref) (by decide), wsub (main_call8.call0.v1.ref) (by decide)⟩

theorem it01E_writes : (it01E (F := F)).Forall fun op => op.writes ⊆ (it01_W.map (Proc.devRef (τ := τ) .tc)).toFinset :=
  ⟨wsub main_c_12 (by decide), wsub (main_call9.v0.ref) (by decide), wsub (main_call9.v1.ref) (by decide), wsub (main_call9.v2.ref) (by decide), wsub (main_call9.v3.ref) (by decide), wsub (main_call9.v4.ref) (by decide), wsub (main_call9.v5.ref) (by decide), wsub (main_call9.v6.ref) (by decide), wsub (main_call9.v7.ref) (by decide), wsub (main_call9.c.ref) (by decide), wsub (main_call9.v8.ref) (by decide), wsub (main_call9.v9.ref) (by decide), wsub (main_call9.v10.ref) (by decide), wsub (main_call9.c_0.ref) (by decide), wsub (main_call9.v11.ref) (by decide), wsub (main_call9.v12.ref) (by decide), wsub (main_call9.call0.v0.ref) (by decide)⟩

theorem it01G_writes : (it01G (F := F)).Forall fun op => op.writes ⊆ (it01_W.map (Proc.devRef (τ := τ) .tc)).toFinset :=
  ⟨wsub main_c_13 (by decide), wsub (main_call10.v0.ref) (by decide), wsub (main_call10.c.ref) (by decide), wsub (main_call10.v1.ref) (by decide), wsub (main_call10.c_0.ref) (by decide), wsub (main_call10.call0.v0.ref) (by decide), wsub (main_call10.v3.ref) (by decide), wsub (main_call10.v4.ref) (by decide), wsub (main_call10.c_1.ref) (by decide), wsub (main_call10.v5.ref) (by decide), wsub (main_call10.v6.ref) (by decide), wsub (main_call10.c_2.ref) (by decide), wsub (main_call10.v7.ref) (by decide), wsub (main_call10.v8.ref) (by decide), wsub (main_call10.c_3.ref) (by decide), wsub (main_call10.v9.ref) (by decide), wsub (main_call10.v10.ref) (by decide), wsub (main_call10.v11.ref) (by decide), wsub (main_call10.v12.ref) (by decide), wsub (main_call10.v13.ref) (by decide), wsub (main_call10.v14.ref) (by decide), wsub (main_call10.v15.ref) (by decide)⟩

theorem it01H_writes : (it01H (F := F)).Forall fun op => op.writes ⊆ (it01_W.map (Proc.devRef (τ := τ) .tc)).toFinset :=
  ⟨wsub (main_call11.c.ref) (by decide), wsub (main_call11.v0.ref) (by decide), wsub (main_call11.v1.ref) (by decide), wsub (main_call11.c_0.ref) (by decide), wsub (main_call11.v2.ref) (by decide), wsub (main_call11.v3.ref) (by decide), wsub (main_call11.call0.v0.ref) (by decide), wsub (main_call11.v5.ref) (by decide), wsub (main_call11.c_1.ref) (by decide), wsub (main_call11.c_2.ref) (by decide), wsub (main_call11.v6.ref) (by decide), wsub (main_call11.v7.ref) (by decide), wsub (main_call11.v8.ref) (by decide), wsub (main_call11.v9.ref) (by decide), wsub (main_call11.v10.ref) (by decide), wsub (main_call11.v11.ref) (by decide), wsub (main_call11.c_3.ref) (by decide), wsub (main_call11.v12.ref) (by decide), wsub (main_call11.v13.ref) (by decide), wsub (main_call11.v14.ref) (by decide), wsub (main_call11.cst.ref) (by decide), wsub (main_call11.v15.ref) (by decide), wsub (main_call11.v16.ref) (by decide)⟩

theorem it01hd_writes : (it01hd (F := F)).Forall fun op => op.writes ⊆ (it01_W.map (Proc.devRef (τ := τ) .tc)).toFinset :=
  forall_append it01A_writes (forall_append it01B_writes (forall_append it01C_writes (forall_append it01D_writes (forall_append it01E_writes it01G_writes))))

theorem it01_writes : (it01 (F := F)).Forall fun op => op.writes ⊆ (it01_W.map (Proc.devRef (τ := τ) .tc)).toFinset :=
  forall_append it01hd_writes (it01H_writes)

/-- The iteration leaves every buffer it does not write as it was. -/
theorem it01_keep (V : Valuation τ sig (Elt F)) (r : Ref sig .tc) (hr : r ∉ it01_W) :
    after (it01 (F := F)) V (Proc.devRef (τ := τ) .tc r) = V (Proc.devRef (τ := τ) .tc r) :=
  after_of_writes_sub it01 V it01_writes hr

theorem it01hd_keep (V : Valuation τ sig (Elt F)) (r : Ref sig .tc) (hr : r ∉ it01_W) :
    after (it01hd (F := F)) V (Proc.devRef (τ := τ) .tc r) = V (Proc.devRef (τ := τ) .tc r) :=
  after_of_writes_sub it01hd V it01hd_writes hr

/-- The iteration's result: the rows of the matrix it is handed at the compacted indices of its mask. -/
theorem it01_res (V : Valuation τ sig (Elt F)) :
    after (it01 (F := F)) V (Proc.devRef (τ := τ) .tc main_v43) = RefFns.nzTake (V (Proc.devRef (τ := τ) .tc main_v7)) (RefFns.colMask (V (Proc.devRef (τ := τ) .tc main_v1)) 1 slices_S1024x32x1_S1024x1x1_0_1_0) := by
  rw [it01, after_append, it01H_val, it01hd_keep V main_v7 (by decide), it01hd]
  simp only [after_append]
  rw [it01G_val, it01E_val, it01D_val, it01C_val, it01B_val, it01A_val]
  rfl

set_option maxRecDepth 65536 in
set_option maxHeartbeats 4000000 in
/-- The invariant of the run survives the iteration, with its block added. -/
theorem it01_step {x : FVec F S1x32x1024 .f32} {V : Valuation τ sig (Elt F)} (hg : Good 1 x V) : Good 2 x (after (it01 (F := F)) V) :=
  good_step 1 (by decide) it01 it01_W slices_S1024x32x1_S1024x1x1_0_1_0 it01_keep it01_res (fun _ => rfl) (by decide +kernel) (by decide +kernel) (by decide +kernel) (by decide +kernel) hg

end Cert.ReferenceIdeal.HandRun

end
-- ==== Proof.RefOpsIt02.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 0 of @main). -/
noncomputable def it02Aa : List (HloOp τ sig (Elt F)) :=
  [ StableHlo.unary main_v1 main_v44 ((extractStridedSlice S1024x1x1 ![0, 2, 0] · slices_S1024x32x1_S1024x1x1_0_2_0) : (⟨S1024x32x1, .i1⟩ : BufTy).Contents (Elt F) → (⟨S1024x1x1, .i1⟩ : BufTy).Contents (Elt F)) ]

theorem it02Aa_sub : (it02Aa (F := F)).Forall fun op => op.bufs ⊆ tcRefs τ sig :=
  unary_bufs_sub ..

theorem it02Aa_fresh : (it02Aa (F := F)).Forall fun op => op.fresh = ∅ :=
  rfl

/-- A piece of this stretch (window 1 of @main). -/
noncomputable def it02Ab : List (HloOp τ sig (Elt F)) :=
  [ StableHlo.reshape main_v44 main_v45 rfl shapeCasts_S1024x1x1_S1024,
    StableHlo.unary main_v45 main_v46 (noti : (⟨S1024, .i1⟩ : BufTy).Contents (Elt F) → (⟨S1024, .i1⟩ : BufTy).Contents (Elt F)) ]

theorem it02Ab_sub : (it02Ab (F := F)).Forall fun op => op.bufs ⊆ tcRefs τ sig :=
  ⟨reshape_bufs_sub .., unary_bufs_sub ..⟩

theorem it02Ab_fresh : (it02Ab (F := F)).Forall fun op => op.fresh = ∅ :=
  ⟨rfl, rfl⟩

/-- A piece of this stretch (window 1 of @main). -/
noncomputable def it02B : List (HloOp τ sig (Elt F)) :=
  [ StableHlo.TRef.unary (.of main_v46 : StableHlo.TRef sig ⟨S1024, .i1⟩) main_call12.v0 (extui 32 · natLt_1_32),
    StableHlo.TRef.nullary main_call12.call0.c (constantI S_ 32 0#32),
    StableHlo.TRef.unary main_call12.call0.c main_call12.call0.v0 (broadcastInDim S_ ![] bcast_S_S_),
    StableHlo.TRef.binary main_call12.v0 main_call12.call0.v0 main_call12.call0.v1 (fun x v => Host.reduceWindow IntOp.addi ![1024] ![1] ![1023] ![0] x v reduceWindows_S1024_S1024_w1024s1p1023_0 h_S_) ]

theorem it02B_sub : (it02B (F := F)).Forall fun op => op.bufs ⊆ tcRefs τ sig :=
  ⟨unary_bufs_sub .., nullary_bufs_sub .., unary_bufs_sub .., binary_bufs_sub ..⟩

theorem it02B_fresh : (it02B (F := F)).Forall fun op => op.fresh = ∅ :=
  ⟨rfl, rfl, rfl, rfl⟩

/-- A piece of this stretch (window 1 of @main). -/
noncomputable def it02C : List (HloOp τ sig (Elt F)) :=
  [ StableHlo.nullary main_c_14 (constantI S_ 32 0#32),
    StableHlo.unary main_c_14 main_v48 (broadcastInDim S1024 ![] bcast_S_S1024 : (⟨S_, .i32⟩ : BufTy).Contents (Elt F) → (⟨S1024, .i32⟩ : BufTy).Contents (Elt F)),
    StableHlo.nullary main_c_15 (constantI S_ 32 0#32),
    StableHlo.TRef.unary (.of main_c_15 : StableHlo.TRef sig ⟨S_, .i32⟩) main_call13.v0 id,
    StableHlo.TRef.unary main_call13.v0 main_call13.v1 (broadcastInDim S1024 ![] bcast_S_S1024),
    StableHlo.TRef.binary main_call13.v1 (.of main_v47 : StableHlo.TRef sig ⟨S1024, .i32⟩) main_call13.v2 maxsi,
    StableHlo.nullary main_c_16 (constantI S_ 32 0#32),
    StableHlo.unary main_c_16 main_v50 (broadcastInDim S1024 ![] bcast_S_S1024 : (⟨S_, .i32⟩ : BufTy).Contents (Elt F) → (⟨S1024, .i32⟩ : BufTy).Contents (Elt F)),
    StableHlo.binary main_v49 main_v50 main_v51 (cmpi .slt : (⟨S1024, .i32⟩ : BufTy).Contents (Elt F) → (⟨S1024, .i32⟩ : BufTy).Contents (Elt F) → (⟨S1024, .i1⟩ : BufTy).Contents (Elt F)),
    StableHlo.nullary main_c_17 (constantI S_ 32 1024#32),
    StableHlo.unary main_c_17 main_v52 (broadcastInDim S1024 ![] bcast_S_S1024 : (⟨S_, .i32⟩ : BufTy).Contents (Elt F) → (⟨S1024, .i32⟩ : BufTy).Contents (Elt F)),
    StableHlo.binary main_v49 main_v52 main_v53 (addi : (⟨S1024, .i32⟩ : BufTy).Contents (Elt F) → (⟨S1024, .i32⟩ : BufTy).Contents (Elt F) → (⟨S1024, .i32⟩ : BufTy).Contents (Elt F)),
    StableHlo.ternary main_v51 main_v53 main_v49 main_v54 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v54 main_v55 (broadcastInDim S1024x1 ![0] bcast_S1024_S1024x1_0 : (⟨S1024, .i32⟩ : BufTy).Contents (Elt F) → (⟨S1024x1, .i32⟩ : BufTy).Contents (Elt F)),
    StableHlo.nullary main_c_18 (constantI S_ 32 1#32),
    StableHlo.unary main_c_18 main_v56 (broadcastInDim S1024 ![] bcast_S_S1024 : (⟨S_, .i32⟩ : BufTy).Contents (Elt F) → (⟨S1024, .i32⟩ : BufTy).Contents (Elt F)),
    StableHlo.ternary main_v48 main_v55 main_v56 main_v57 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it02C_sub : (it02C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it02C_fresh : (it02C (F := F)).Forall fun op => op.fresh = ∅ :=
  ⟨rfl, rfl, rfl, rfl, rfl, rfl, rfl, rfl, rfl, rfl, rfl, rfl, rfl, rfl, rfl, rfl, rfl⟩

/-- A piece of this stretch (window 1 of @main). -/
noncomputable def it02D : List (HloOp τ sig (Elt F)) :=
  [ StableHlo.TRef.nullary main_call14.call0.c (constantI S_ 32 0#32),
    StableHlo.TRef.unary main_call14.call0.c main_call14.call0.v0 (broadcastInDim S_ ![] bcast_S_S_),
    StableHlo.TRef.binary (.of main_v57 : StableHlo.TRef sig ⟨S1024, .i32⟩) main_call14.call0.v0 main_call14.call0.v1 (fun x v => Host.reduceWindow IntOp.addi ![1024] ![1] ![1023] ![0] x v reduceWindows_S1024_S1024_w1024s1p1023_0 h_S_) ]

theorem it02D_sub : (it02D (F := F)).Forall fun op => op.bufs ⊆ tcRefs τ sig :=
  ⟨nullary_bufs_sub .., unary_bufs_sub .., binary_bufs_sub ..⟩

theorem it02D_fresh : (it02D (F := F)).Forall fun op => op.fresh = ∅ :=
  ⟨rfl, rfl, rfl⟩

/-- A piece of this stretch (window 1 of @main). -/
noncomputable def it02E : List (HloOp τ sig (Elt F)) :=
  [ StableHlo.nullary main_c_19 (constantI S_ 32 1#32),
    StableHlo.TRef.unary (.of main_c_19 : StableHlo.TRef sig ⟨S_, .i32⟩) main_call15.v0 (broadcastInDim S1024 ![] bcast_S_S1024),
    StableHlo.TRef.binary (.of main_v58 : StableHlo.TRef sig ⟨S1024, .i32⟩) main_call15.v0 main_call15.v1 Host.divsi,
    StableHlo.TRef.unary (.of main_v58 : StableHlo.TRef sig ⟨S1024, .i32⟩) main_call15.v2 signi,
    StableHlo.TRef.unary (.of main_c_19 : StableHlo.TRef sig ⟨S_, .i32⟩) main_call15.v3 signi,
    StableHlo.TRef.unary main_call15.v3 main_call15.v4 (broadcastInDim S1024 ![] bcast_S_S1024),
    StableHlo.TRef.binary main_call15.v2 main_call15.v4 main_call15.v5 (cmpi .ne),
    StableHlo.TRef.unary (.of main_c_19 : StableHlo.TRef sig ⟨S_, .i32⟩) main_call15.v6 (broadcastInDim S1024 ![] bcast_S_S1024),
    StableHlo.TRef.binary (.of main_v58 : StableHlo.TRef sig ⟨S1024, .i32⟩) main_call15.v6 main_call15.v7 Host.remsi,
    StableHlo.TRef.nullary main_call15.c (constantI S_ 32 0#32),
    StableHlo.TRef.unary main_call15.c main_call15.v8 (broadcastInDim S1024 ![] bcast_S_S1024),
    StableHlo.TRef.binary main_call15.v7 main_call15.v8 main_call15.v9 (cmpi .ne),
    StableHlo.TRef.binary main_call15.v5 main_call15.v9 main_call15.v10 andi,
    StableHlo.TRef.nullary main_call15.c_0 (constantI S_ 32 1#32),
    StableHlo.TRef.unary main_call15.c_0 main_call15.v11 (broadcastInDim S1024 ![] bcast_S_S1024),
    StableHlo.TRef.binary main_call15.v1 main_call15.v11 main_call15.v12 subi,
    StableHlo.TRef.ternary main_call15.v10 main_call15.v12 main_call15.v1 main_call15.call0.v0 select ]

theorem it02E_sub : (it02E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it02E_fresh : (it02E (F := F)).Forall fun op => op.fresh = ∅ :=
  ⟨rfl, rfl, rfl, rfl, rfl, rfl, rfl, rfl, rfl, rfl, rfl, rfl, rfl, rfl, rfl, rfl, rfl⟩

/-- A piece of this stretch (window 1 of @main). -/
noncomputable def it02G : List (HloOp τ sig (Elt F)) :=
  [ StableHlo.nullary main_c_20 (constantI S_ 32 1024#32),
    StableHlo.TRef.unary (.of main_c_20 : StableHlo.TRef sig ⟨S_, .i32⟩) main_call16.v0 id,
    StableHlo.TRef.nullary main_call16.c (constantI S_ 32 0#32),
    StableHlo.TRef.binary main_call16.v0 main_call16.c main_call16.v1 (cmpi .eq),
    StableHlo.TRef.nullary main_call16.c_0 (constantI S_ 32 1#32),
    StableHlo.TRef.ternary main_call16.v1 main_call16.c_0 main_call16.v0 main_call16.call0.v0 select,
    StableHlo.TRef.unary main_call16.call0.v0 main_call16.v3 (broadcastInDim S1024 ![] bcast_S_S1024),
    StableHlo.TRef.binary (.of main_v59 : StableHlo.TRef sig ⟨S1024, .i32⟩) main_call16.v3 main_call16.v4 Host.remsi,
    StableHlo.TRef.nullary main_call16.c_1 (constantI S_ 32 0#32),
    StableHlo.TRef.unary main_call16.c_1 main_call16.v5 (broadcastInDim S1024 ![] bcast_S_S1024),
    StableHlo.TRef.binary main_call16.v4 main_call16.v5 main_call16.v6 (cmpi .ne),
    StableHlo.TRef.nullary main_call16.c_2 (constantI S_ 32 0#32),
    StableHlo.TRef.unary main_call16.c_2 main_call16.v7 (broadcastInDim S1024 ![] bcast_S_S1024),
    StableHlo.TRef.binary main_call16.v4 main_call16.v7 main_call16.v8 (cmpi .slt),
    StableHlo.TRef.nullary main_call16.c_3 (constantI S_ 32 0#32),
    StableHlo.TRef.binary main_call16.call0.v0 main_call16.c_3 main_call16.v9 (cmpi .slt),
    StableHlo.TRef.unary main_call16.v9 main_call16.v10 (broadcastInDim S1024 ![] bcast_S_S1024),
    StableHlo.TRef.binary main_call16.v8 main_call16.v10 main_call16.v11 (cmpi .ne),
    StableHlo.TRef.binary main_call16.v11 main_call16.v6 main_call16.v12 andi,
    StableHlo.TRef.unary main_call16.call0.v0 main_call16.v13 (broadcastInDim S1024 ![] bcast_S_S1024),
    StableHlo.TRef.binary main_call16.v4 main_call16.v13 main_call16.v14 addi,
    StableHlo.TRef.ternary main_call16.v12 main_call16.v14 main_call16.v4 main_call16.v15 select ]

theorem it02G_sub : (it02G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it02G_fresh : (it02G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 1 of @main). -/
noncomputable def it02H : List (HloOp τ sig (Elt F)) :=
  [ StableHlo.TRef.nullary main_call17.c (constantI S_ 32 0#32),
    StableHlo.TRef.unary main_call17.c main_call17.v0 (broadcastInDim S1024 ![] bcast_S_S1024),
    StableHlo.TRef.binary (.of main_v60 : StableHlo.TRef sig ⟨S1024, .i32⟩) main_call17.v0 main_call17.v1 (cmpi .slt),
    StableHlo.TRef.nullary main_call17.c_0 (constantI S_ 32 1024#32),
    StableHlo.TRef.unary main_call17.c_0 main_call17.v2 (broadcastInDim S1024 ![] bcast_S_S1024),
    StableHlo.TRef.binary (.of main_v60 : StableHlo.TRef sig ⟨S1024, .i32⟩) main_call17.v2 main_call17.v3 addi,
    StableHlo.TRef.ternary main_call17.v1 main_call17.v3 (.of main_v60 : StableHlo.TRef sig ⟨S1024, .i32⟩) main_call17.call0.v0 select,
    StableHlo.TRef.unary main_call17.call0.v0 main_call17.v5 (broadcastInDim S1024x1 ![0] bcast_S1024_S1024x1_0),
    StableHlo.TRef.nullary main_call17.c_1 (constantI S1 32 1023#32),
    StableHlo.TRef.nullary main_call17.c_2 (constantI S_ 32 0#32),
    StableHlo.TRef.unary main_call17.c_2 main_call17.v6 (broadcastInDim S1024x1 ![] bcast_S_S1024x1),
    StableHlo.TRef.binary main_call17.v5 main_call17.v6 main_call17.v7 (cmpi .sge),
    StableHlo.TRef.unary main_call17.c_1 main_call17.v8 (broadcastInDim S1x1 ![1] bcast_S1_S1x1_1),
    StableHlo.TRef.unary main_call17.v8 main_call17.v9 (broadcastInDim S1024x1 ![0, 1] bcast_S1x1_S1024x1_0_1),
    StableHlo.TRef.binary main_call17.v5 main_call17.v9 main_call17.v10 (cmpi .sle),
    StableHlo.TRef.binary main_call17.v7 main_call17.v10 main_call17.v11 andi,
    StableHlo.TRef.nullary main_call17.c_3 (constantI S_ 1 1#1),
    StableHlo.TRef.binary main_call17.v11 main_call17.c_3 main_call17.v12 (fun x v => Host.reduce IntOp.andi x v reducesTo_S1024x1_S1024_d1 h_S_),
    StableHlo.TRef.binary (.of main_v7 : StableHlo.TRef sig ⟨S1024x1024, .f32⟩) main_call17.v5 main_call17.v13 (fun x i => Host.gather gather_S1024x1024_S1024x1_S1024x1024_1_0_n_n_0_1_11024 x i),
    StableHlo.TRef.unary main_call17.v12 main_call17.v14 (broadcastInDim S1024x1024 ![0] bcast_S1024_S1024x1024_0),
    StableHlo.TRef.nullary main_call17.cst (constant S_ .f32 0x7FC00000#32),
    StableHlo.TRef.unary main_call17.cst main_call17.v15 (broadcastInDim S1024x1024 ![] bcast_S_S1024x1024),
    StableHlo.TRef.ternary main_call17.v14 main_call17.v13 main_call17.v15 main_call17.v16 select ]

theorem it02H_sub : (it02H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it02H_fresh : (it02H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it02_W : List (Ref sig .tc) :=
  [main_v44, main_v45, main_v46, (main_call12.v0.ref), (main_call12.call0.c.ref), (main_call12.call0.v0.ref), (main_call12.call0.v1.ref), main_c_14, main_v48, main_c_15, (main_call13.v0.ref), (main_call13.v1.ref), (main_call13.v2.ref), main_c_16, main_v50, main_v51, main_c_17, main_v52, main_v53, main_v54, main_v55, main_c_18, main_v56, main_v57, (main_call14.call0.c.ref), (main_call14.call0.v0.ref), (main_call14.call0.v1.ref), main_c_19, (main_call15.v0.ref), (main_call15.v1.ref), (main_call15.v2.ref), (main_call15.v3.ref), (main_call15.v4.ref), (main_call15.v5.ref), (main_call15.v6.ref), (main_call15.v7.ref), (main_call15.c.ref), (main_call15.v8.ref), (main_call15.v9.ref), (main_call15.v10.ref), (main_call15.c_0.ref), (main_call15.v11.ref), (main_call15.v12.ref), (main_call15.call0.v0.ref), main_c_20, (main_call16.v0.ref), (main_call16.c.ref), (main_call16.v1.ref), (main_call16.c_0.ref), (main_call16.call0.v0.ref), (main_call16.v3.ref), (main_call16.v4.ref), (main_call16.c_1.ref), (main_call16.v5.ref), (main_call16.v6.ref), (main_call16.c_2.ref), (main_call16.v7.ref), (main_call16.v8.ref), (main_call16.c_3.ref), (main_call16.v9.ref), (main_call16.v10.ref), (main_call16.v11.ref), (main_call16.v12.ref), (main_call16.v13.ref), (main_call16.v14.ref), (main_call16.v15.ref), (main_call17.c.ref), (main_call17.v0.ref), (main_call17.v1.ref), (main_call17.c_0.ref), (main_call17.v2.ref), (main_call17.v3.ref), (main_call17.call0.v0.ref), (main_call17.v5.ref), (main_call17.c_1.ref), (main_call17.c_2.ref), (main_call17.v6.ref), (main_call17.v7.ref), (main_call17.v8.ref), (main_call17.v9.ref), (main_call17.v10.ref), (main_call17.v11.ref), (main_call17.c_3.ref), (main_call17.v12.ref), (main_call17.v13.ref), (main_call17.v14.ref), (main_call17.cst.ref), (main_call17.v15.ref), (main_call17.v16.ref)]

/-- One stage of the iteration, whole. -/
noncomputable def it02A : List (HloOp τ sig (Elt F)) := it02Aa ++ it02Ab
theorem it02A_sub : (it02A (F := F)).Forall fun op => op.bufs ⊆ tcRefs τ sig :=
  forall_append it02Aa_sub it02Ab_sub
theorem it02A_fresh : (it02A (F := F)).Forall fun op => op.fresh = ∅ :=
  forall_append it02Aa_fresh it02Ab_fresh

/-- The iteration up to the row lookup. -/
noncomputable def it02hd : List (HloOp τ sig (Elt F)) := it02A ++ (it02B ++ (it02C ++ (it02D ++ (it02E ++ it02G))))

/-- The iteration. -/
noncomputable def it02 : List (HloOp τ sig (Elt F)) := it02hd ++ it02H
theorem it02_sub : (it02 (F := F)).Forall fun op => op.bufs ⊆ tcRefs τ sig :=
  forall_append (forall_append it02A_sub (forall_append it02B_sub (forall_append it02C_sub (forall_append it02D_sub (forall_append it02E_sub it02G_sub))))) it02H_sub
theorem it02_fresh : (it02 (F := F)).Forall fun op => op.fresh = ∅ :=
  forall_append (forall_append it02A_fresh (forall_append it02B_fresh (forall_append it02C_fresh (forall_append it02D_fresh (forall_append it02E_fresh it02G_fresh))))) it02H_fresh

/-- The iteration as the concatenation of its pieces. -/
theorem it02_atoms : it02 (F := F) = it02Aa ++ (it02Ab ++ (it02B ++ (it02C ++ (it02D ++ (it02E ++ (it02G ++ it02H)))))) := by
  simp only [it02, it02hd, it02A, List.append_assoc]

end Cert.ReferenceIdeal.HandRun

end
-- ==== Proof.RefIt02.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt02

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it02A_val (V : Valuation τ sig (Elt F)) :
    after (it02A (F := F)) V (Proc.devRef (τ := τ) .tc main_v46) = RefFns.colMask (V (Proc.devRef (τ := τ) .tc main_v1)) 2 slices_S1024x32x1_S1024x1x1_0_2_0 := by
  simp only [it02A, it02Aa, it02Ab, List.cons_append, List.nil_append]
  after_results_simp
  try simp only [cast_eq]
  rfl

set_option maxRecDepth 65536 in
set_option maxHeartbeats 1000000 in
theorem it02B_val (V : Valuation τ sig (Elt F)) :
    after (it02B (F := F)) V (Proc.devRef (τ := τ) .tc main_v47) = RefFns.cumsumF (V (Proc.devRef (τ := τ) .tc main_v46)) := by
  simp only [it02B, List.cons_append, List.nil_append]
  after_results_simp
  try simp only [cast_eq]
  rfl

set_option maxRecDepth 65536 in
set_option maxHeartbeats 1000000 in
theorem it02C_val (V : Valuation τ sig (Elt F)) :
    after (it02C (F := F)) V (Proc.devRef (τ := τ) .tc main_v57) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v47)) (constantI S_ 32 0#32)) (broadcastInDim S1024 ![] bcast_S_S1024 (constantI S_ 32 0#32))) (addi (RefFns.clipF (V (Proc.devRef (τ := τ) .tc main_v47)) (constantI S_ 32 0#32)) (broadcastInDim S1024 ![] bcast_S_S1024 (constantI S_ 32 1024#32))) (RefFns.clipF (V (Proc.devRef (τ := τ) .tc main_v47)) (constantI S_ 32 0#32)))) (broadcastInDim S1024 ![] bcast_S_S1024 (constantI S_ 32 1#32)) := by
  simp only [it02C, List.cons_append, List.nil_append]
  after_results_simp
  try simp only [cast_eq]
  rfl

set_option maxRecDepth 65536 in
set_option maxHeartbeats 1000000 in
theorem it02D_val (V : Valuation τ sig (Elt F)) :
    after (it02D (F := F)) V (Proc.devRef (τ := τ) .tc main_v58) = RefFns.cumsum1F (V (Proc.devRef (τ := τ) .tc main_v57)) := by
  simp only [it02D, List.cons_append, List.nil_append]
  after_results_simp
  try simp only [cast_eq]
  rfl

set_option maxRecDepth 65536 in
set_option maxHeartbeats 1000000 in
theorem it02E_val (V : Valuation τ sig (Elt F)) :
    after (it02E (F := F)) V (Proc.devRef (τ := τ) .tc main_v59) = RefFns.floorDivF (V (Proc.devRef (τ := τ) .tc main_v58)) (constantI S_ 32 1#32) := by
  simp only [it02E, List.cons_append, List.nil_append]
  after_results_simp
  try simp only [cast_eq]
  rfl

set_option maxRecDepth 65536 in
set_option maxHeartbeats 1000000 in
theorem it02G_val (V : Valuation τ sig (Elt F)) :
    after (it02G (F := F)) V (Proc.devRef (τ := τ) .tc main_v60) = RefFns.remainderF (V (Proc.devRef (τ := τ) .tc main_v59)) (constantI S_ 32 1024#32) := by
  simp only [it02G, List.cons_append, List.nil_append]
  after_results_simp
  try simp only [cast_eq]
  rfl

set_option maxRecDepth 65536 in
set_option maxHeartbeats 1000000 in
theorem it02H_val (V : Valuation τ sig (Elt F)) :
    after (it02H (F := F)) V (Proc.devRef (τ := τ) .tc main_v61) = RefFns.takeF (V (Proc.devRef (τ := τ) .tc main_v7)) (V (Proc.devRef (τ := τ) .tc main_v60)) := by
  simp only [it02H, List.cons_append, List.nil_append]
  after_results_simp
  try simp only [cast_eq]
  rfl

theorem it02Aa_writes : (it02Aa (F := F)).Forall fun op => op.writes ⊆ (it02_W.map (Proc.devRef (τ := τ) .tc)).toFinset :=
  wsub main_v44 (by decide)

theorem it02Ab_writes : (it02Ab (F := F)).Forall fun op => op.writes ⊆ (it02_W.map (Proc.devRef (τ := τ) .tc)).toFinset :=
  ⟨wsub main_v45 (by decide), wsub main_v46 (by decide)⟩

theorem it02B_writes : (it02B (F := F)).Forall fun op => op.writes ⊆ (it02_W.map (Proc.devRef (τ := τ) .tc)).toFinset :=
  ⟨wsub (main_call12.v0.ref) (by decide), wsub (main_call12.call0.c.ref) (by decide), wsub (main_call12.call0.v0.ref) (by decide), wsub (main_call12.call0.v1.ref) (by decide)⟩

theorem it02C_writes : (it02C (F := F)).Forall fun op => op.writes ⊆ (it02_W.map (Proc.devRef (τ := τ) .tc)).toFinset :=
  ⟨wsub main_c_14 (by decide), wsub main_v48 (by decide), wsub main_c_15 (by decide), wsub (main_call13.v0.ref) (by decide), wsub (main_call13.v1.ref) (by decide), wsub (main_call13.v2.ref) (by decide), wsub main_c_16 (by decide), wsub main_v50 (by decide), wsub main_v51 (by decide), wsub main_c_17 (by decide), wsub main_v52 (by decide), wsub main_v53 (by decide), wsub main_v54 (by decide), wsub main_v55 (by decide), wsub main_c_18 (by decide), wsub main_v56 (by decide), wsub main_v57 (by decide)⟩

theorem it02D_writes : (it02D (F := F)).Forall fun op => op.writes ⊆ (it02_W.map (Proc.devRef (τ := τ) .tc)).toFinset :=
  ⟨wsub (main_call14.call0.c.ref) (by decide), wsub (main_call14.call0.v0.ref) (by decide), wsub (main_call14.call0.v1.ref) (by decide)⟩

theorem it02E_writes : (it02E (F := F)).Forall fun op => op.writes ⊆ (it02_W.map (Proc.devRef (τ := τ) .tc)).toFinset :=
  ⟨wsub main_c_19 (by decide), wsub (main_call15.v0.ref) (by decide), wsub (main_call15.v1.ref) (by decide), wsub (main_call15.v2.ref) (by decide), wsub (main_call15.v3.ref) (by decide), wsub (main_call15.v4.ref) (by decide), wsub (main_call15.v5.ref) (by decide), wsub (main_call15.v6.ref) (by decide), wsub (main_call15.v7.ref) (by decide), wsub (main_call15.c.ref) (by decide), wsub (main_call15.v8.ref) (by decide), wsub (main_call15.v9.ref) (by decide), wsub (main_call15.v10.ref) (by decide), wsub (main_call15.c_0.ref) (by decide), wsub (main_call15.v11.ref) (by decide), wsub (main_call15.v12.ref) (by decide), wsub (main_call15.call0.v0.ref) (by decide)⟩

theorem it02G_writes : (it02G (F := F)).Forall fun op => op.writes ⊆ (it02_W.map (Proc.devRef (τ := τ) .tc)).toFinset :=
  ⟨wsub main_c_20 (by decide), wsub (main_call16.v0.ref) (by decide), wsub (main_call16.c.ref) (by decide), wsub (main_call16.v1.ref) (by decide), wsub (main_call16.c_0.ref) (by decide), wsub (main_call16.call0.v0.ref) (by decide), wsub (main_call16.v3.ref) (by decide), wsub (main_call16.v4.ref) (by decide), wsub (main_call16.c_1.ref) (by decide), wsub (main_call16.v5.ref) (by decide), wsub (main_call16.v6.ref) (by decide), wsub (main_call16.c_2.ref) (by decide), wsub (main_call16.v7.ref) (by decide), wsub (main_call16.v8.ref) (by decide), wsub (main_call16.c_3.ref) (by decide), wsub (main_call16.v9.ref) (by decide), wsub (main_call16.v10.ref) (by decide), wsub (main_call16.v11.ref) (by decide), wsub (main_call16.v12.ref) (by decide), wsub (main_call16.v13.ref) (by decide), wsub (main_call16.v14.ref) (by decide), wsub (main_call16.v15.ref) (by decide)⟩

theorem it02H_writes : (it02H (F := F)).Forall fun op => op.writes ⊆ (it02_W.map (Proc.devRef (τ := τ) .tc)).toFinset :=
  ⟨wsub (main_call17.c.ref) (by decide), wsub (main_call17.v0.ref) (by decide), wsub (main_call17.v1.ref) (by decide), wsub (main_call17.c_0.ref) (by decide), wsub (main_call17.v2.ref) (by decide), wsub (main_call17.v3.ref) (by decide), wsub (main_call17.call0.v0.ref) (by decide), wsub (main_call17.v5.ref) (by decide), wsub (main_call17.c_1.ref) (by decide), wsub (main_call17.c_2.ref) (by decide), wsub (main_call17.v6.ref) (by decide), wsub (main_call17.v7.ref) (by decide), wsub (main_call17.v8.ref) (by decide), wsub (main_call17.v9.ref) (by decide), wsub (main_call17.v10.ref) (by decide), wsub (main_call17.v11.ref) (by decide), wsub (main_call17.c_3.ref) (by decide), wsub (main_call17.v12.ref) (by decide), wsub (main_call17.v13.ref) (by decide), wsub (main_call17.v14.ref) (by decide), wsub (main_call17.cst.ref) (by decide), wsub (main_call17.v15.ref) (by decide), wsub (main_call17.v16.ref) (by decide)⟩

theorem it02hd_writes : (it02hd (F := F)).Forall fun op => op.writes ⊆ (it02_W.map (Proc.devRef (τ := τ) .tc)).toFinset :=
  forall_append (forall_append it02Aa_writes it02Ab_writes) (forall_append it02B_writes (forall_append it02C_writes (forall_append it02D_writes (forall_append it02E_writes it02G_writes))))

theorem it02_writes : (it02 (F := F)).Forall fun op => op.writes ⊆ (it02_W.map (Proc.devRef (τ := τ) .tc)).toFinset :=
  forall_append it02hd_writes (it02H_writes)

/-- The iteration leaves every buffer it does not write as it was. -/
theorem it02_keep (V : Valuation τ sig (Elt F)) (r : Ref sig .tc) (hr : r ∉ it02_W) :
    after (it02 (F := F)) V (Proc.devRef (τ := τ) .tc r) = V (Proc.devRef (τ := τ) .tc r) :=
  after_of_writes_sub it02 V it02_writes hr

theorem it02hd_keep (V : Valuation τ sig (Elt F)) (r : Ref sig .tc) (hr : r ∉ it02_W) :
    after (it02hd (F := F)) V (Proc.devRef (τ := τ) .tc r) = V (Proc.devRef (τ := τ) .tc r) :=
  after_of_writes_sub it02hd V it02hd_writes hr

/-- The iteration's result: the rows of the matrix it is handed at the compacted indices of its mask. -/
theorem it02_res (V : Valuation τ sig (Elt F)) :
    after (it02 (F := F)) V (Proc.devRef (τ := τ) .tc main_v61) = RefFns.nzTake (V (Proc.devRef (τ := τ) .tc main_v7)) (RefFns.colMask (V (Proc.devRef (τ := τ) .tc main_v1)) 2 slices_S1024x32x1_S1024x1x1_0_2_0) := by
  rw [it02, after_append, it02H_val, it02hd_keep V main_v7 (by decide), it02hd]
  simp only [after_append]
  rw [it02G_val, it02E_val, it02D_val, it02C_val, it02B_val, it02A_val]
  rfl

set_option maxRecDepth 65536 in
set_option maxHeartbeats 4000000 in
/-- The invariant of the run survives the iteration, with its block added. -/
theorem it02_step {x : FVec F S1x32x1024 .f32} {V : Valuation τ sig (Elt F)} (hg : Good 2 x V) : Good 3 x (after (it02 (F := F)) V) :=
  good_step 2 (by decide) it02 it02_W slices_S1024x32x1_S1024x1x1_0_2_0 it02_keep it02_res (fun _ => rfl) (by decide +kernel) (by decide +kernel) (by decide +kernel) (by decide +kernel) hg

end Cert.ReferenceIdeal.HandRun

end
-- ==== Proof.RefOpsIt03.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 1 of @main). -/
noncomputable def it03A : List (HloOp τ sig (Elt F)) :=
  [ StableHlo.unary main_v1 main_v62 ((extractStridedSlice S1024x1x1 ![0, 3, 0] · slices_S1024x32x1_S1024x1x1_0_3_0) : (⟨S1024x32x1, .i1⟩ : BufTy).Contents (Elt F) → (⟨S1024x1x1, .i1⟩ : BufTy).Contents (Elt F)),
    StableHlo.reshape main_v62 main_v63 rfl shapeCasts_S1024x1x1_S1024,
    StableHlo.unary main_v63 main_v64 (noti : (⟨S1024, .i1⟩ : BufTy).Contents (Elt F) → (⟨S1024, .i1⟩ : BufTy).Contents (Elt F)) ]

theorem it03A_sub : (it03A (F := F)).Forall fun op => op.bufs ⊆ tcRefs τ sig :=
  ⟨unary_bufs_sub .., reshape_bufs_sub .., unary_bufs_sub ..⟩

theorem it03A_fresh : (it03A (F := F)).Forall fun op => op.fresh = ∅ :=
  ⟨rfl, rfl, rfl⟩

/-- A piece of this stretch (window 1 of @main). -/
noncomputable def it03B : List (HloOp τ sig (Elt F)) :=
  [ StableHlo.TRef.unary (.of main_v64 : StableHlo.TRef sig ⟨S1024, .i1⟩) main_call18.v0 (extui 32 · natLt_1_32),
    StableHlo.TRef.nullary main_call18.call0.c (constantI S_ 32 0#32),
    StableHlo.TRef.unary main_call18.call0.c main_call18.call0.v0 (broadcastInDim S_ ![] bcast_S_S_),
    StableHlo.TRef.binary main_call18.v0 main_call18.call0.v0 main_call18.call0.v1 (fun x v => Host.reduceWindow IntOp.addi ![1024] ![1] ![1023] ![0] x v reduceWindows_S1024_S1024_w1024s1p1023_0 h_S_) ]

theorem it03B_sub : (it03B (F := F)).Forall fun op => op.bufs ⊆ tcRefs τ sig :=
  ⟨unary_bufs_sub .., nullary_bufs_sub .., unary_bufs_sub .., binary_bufs_sub ..⟩

theorem it03B_fresh : (it03B (F := F)).Forall fun op => op.fresh = ∅ :=
  ⟨rfl, rfl, rfl, rfl⟩

/-- A piece of this stretch (window 1 of @main). -/
noncomputable def it03C : List (HloOp τ sig (Elt F)) :=
  [ StableHlo.nullary main_c_21 (constantI S_ 32 0#32),
    StableHlo.unary main_c_21 main_v66 (broadcastInDim S1024 ![] bcast_S_S1024 : (⟨S_, .i32⟩ : BufTy).Contents (Elt F) → (⟨S1024, .i32⟩ : BufTy).Contents (Elt F)),
    StableHlo.nullary main_c_22 (constantI S_ 32 0#32),
    StableHlo.TRef.unary (.of main_c_22 : StableHlo.TRef sig ⟨S_, .i32⟩) main_call19.v0 id,
    StableHlo.TRef.unary main_call19.v0 main_call19.v1 (broadcastInDim S1024 ![] bcast_S_S1024),
    StableHlo.TRef.binary main_call19.v1 (.of main_v65 : StableHlo.TRef sig ⟨S1024, .i32⟩) main_call19.v2 maxsi,
    StableHlo.nullary main_c_23 (constantI S_ 32 0#32),
    StableHlo.unary main_c_23 main_v68 (broadcastInDim S1024 ![] bcast_S_S1024 : (⟨S_, .i32⟩ : BufTy).Contents (Elt F) → (⟨S1024, .i32⟩ : BufTy).Contents (Elt F)),
    StableHlo.binary main_v67 main_v68 main_v69 (cmpi .slt : (⟨S1024, .i32⟩ : BufTy).Contents (Elt F) → (⟨S1024, .i32⟩ : BufTy).Contents (Elt F) → (⟨S1024, .i1⟩ : BufTy).Contents (Elt F)),
    StableHlo.nullary main_c_24 (constantI S_ 32 1024#32),
    StableHlo.unary main_c_24 main_v70 (broadcastInDim S1024 ![] bcast_S_S1024 : (⟨S_, .i32⟩ : BufTy).Contents (Elt F) → (⟨S1024, .i32⟩ : BufTy).Contents (Elt F)),
    StableHlo.binary main_v67 main_v70 main_v71 (addi : (⟨S1024, .i32⟩ : BufTy).Contents (Elt F) → (⟨S1024, .i32⟩ : BufTy).Contents (Elt F) → (⟨S1024, .i32⟩ : BufTy).Contents (Elt F)),
    StableHlo.ternary main_v69 main_v71 main_v67 main_v72 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v72 main_v73 (broadcastInDim S1024x1 ![0] bcast_S1024_S1024x1_0 : (⟨S1024, .i32⟩ : BufTy).Contents (Elt F) → (⟨S1024x1, .i32⟩ : BufTy).Contents (Elt F)),
    StableHlo.nullary main_c_25 (constantI S_ 32 1#32),
    StableHlo.unary main_c_25 main_v74 (broadcastInDim S1024 ![] bcast_S_S1024 : (⟨S_, .i32⟩ : BufTy).Contents (Elt F) → (⟨S1024, .i32⟩ : BufTy).Contents (Elt F)),
    StableHlo.ternary main_v66 main_v73 main_v74 main_v75 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it03C_sub : (it03C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it03C_fresh : (it03C (F := F)).Forall fun op => op.fresh = ∅ :=
  ⟨rfl, rfl, rfl, rfl, rfl, rfl, rfl, rfl, rfl, rfl, rfl, rfl, rfl, rfl, rfl, rfl, rfl⟩

/-- A piece of this stretch (window 1 of @main). -/
noncomputable def it03D : List (HloOp τ sig (Elt F)) :=
  [ StableHlo.TRef.nullary main_call20.call0.c (constantI S_ 32 0#32),
    StableHlo.TRef.unary main_call20.call0.c main_call20.call0.v0 (broadcastInDim S_ ![] bcast_S_S_),
    StableHlo.TRef.binary (.of main_v75 : StableHlo.TRef sig ⟨S1024, .i32⟩) main_call20.call0.v0 main_call20.call0.v1 (fun x v => Host.reduceWindow IntOp.addi ![1024] ![1] ![1023] ![0] x v reduceWindows_S1024_S1024_w1024s1p1023_0 h_S_) ]

theorem it03D_sub : (it03D (F := F)).Forall fun op => op.bufs ⊆ tcRefs τ sig :=
  ⟨nullary_bufs_sub .., unary_bufs_sub .., binary_bufs_sub ..⟩

theorem it03D_fresh : (it03D (F := F)).Forall fun op => op.fresh = ∅ :=
  ⟨rfl, rfl, rfl⟩

/-- A piece of this stretch (window 1 of @main). -/
noncomputable def it03E : List (HloOp τ sig (Elt F)) :=
  [ StableHlo.nullary main_c_26 (constantI S_ 32 1#32),
    StableHlo.TRef.unary (.of main_c_26 : StableHlo.TRef sig ⟨S_, .i32⟩) main_call21.v0 (broadcastInDim S1024 ![] bcast_S_S1024),
    StableHlo.TRef.binary (.of main_v76 : StableHlo.TRef sig ⟨S1024, .i32⟩) main_call21.v0 main_call21.v1 Host.divsi,
    StableHlo.TRef.unary (.of main_v76 : StableHlo.TRef sig ⟨S1024, .i32⟩) main_call21.v2 signi,
    StableHlo.TRef.unary (.of main_c_26 : StableHlo.TRef sig ⟨S_, .i32⟩) main_call21.v3 signi,
    StableHlo.TRef.unary main_call21.v3 main_call21.v4 (broadcastInDim S1024 ![] bcast_S_S1024),
    StableHlo.TRef.binary main_call21.v2 main_call21.v4 main_call21.v5 (cmpi .ne),
    StableHlo.TRef.unary (.of main_c_26 : StableHlo.TRef sig ⟨S_, .i32⟩) main_call21.v6 (broadcastInDim S1024 ![] bcast_S_S1024),
    StableHlo.TRef.binary (.of main_v76 : StableHlo.TRef sig ⟨S1024, .i32⟩) main_call21.v6 main_call21.v7 Host.remsi,
    StableHlo.TRef.nullary main_call21.c (constantI S_ 32 0#32),
    StableHlo.TRef.unary main_call21.c main_call21.v8 (broadcastInDim S1024 ![] bcast_S_S1024),
    StableHlo.TRef.binary main_call21.v7 main_call21.v8 main_call21.v9 (cmpi .ne),
    StableHlo.TRef.binary main_call21.v5 main_call21.v9 main_call21.v10 andi,
    StableHlo.TRef.nullary main_call21.c_0 (constantI S_ 32 1#32),
    StableHlo.TRef.unary main_call21.c_0 main_call21.v11 (broadcastInDim S1024 ![] bcast_S_S1024),
    StableHlo.TRef.binary main_call21.v1 main_call21.v11 main_call21.v12 subi,
    StableHlo.TRef.ternary main_call21.v10 main_call21.v12 main_call21.v1 main_call21.call0.v0 select ]

theorem it03E_sub : (it03E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it03E_fresh : (it03E (F := F)).Forall fun op => op.fresh = ∅ :=
  ⟨rfl, rfl, rfl, rfl, rfl, rfl, rfl, rfl, rfl, rfl, rfl, rfl, rfl, rfl, rfl, rfl, rfl⟩

/-- A piece of this stretch (window 1 of @main). -/
noncomputable def it03G : List (HloOp τ sig (Elt F)) :=
  [ StableHlo.nullary main_c_27 (constantI S_ 32 1024#32),
    StableHlo.TRef.unary (.of main_c_27 : StableHlo.TRef sig ⟨S_, .i32⟩) main_call22.v0 id,
    StableHlo.TRef.nullary main_call22.c (constantI S_ 32 0#32),
    StableHlo.TRef.binary main_call22.v0 main_call22.c main_call22.v1 (cmpi .eq),
    StableHlo.TRef.nullary main_call22.c_0 (constantI S_ 32 1#32),
    StableHlo.TRef.ternary main_call22.v1 main_call22.c_0 main_call22.v0 main_call22.call0.v0 select,
    StableHlo.TRef.unary main_call22.call0.v0 main_call22.v3 (broadcastInDim S1024 ![] bcast_S_S1024),
    StableHlo.TRef.binary (.of main_v77 : StableHlo.TRef sig ⟨S1024, .i32⟩) main_call22.v3 main_call22.v4 Host.remsi,
    StableHlo.TRef.nullary main_call22.c_1 (constantI S_ 32 0#32),
    StableHlo.TRef.unary main_call22.c_1 main_call22.v5 (broadcastInDim S1024 ![] bcast_S_S1024),
    StableHlo.TRef.binary main_call22.v4 main_call22.v5 main_call22.v6 (cmpi .ne),
    StableHlo.TRef.nullary main_call22.c_2 (constantI S_ 32 0#32),
    StableHlo.TRef.unary main_call22.c_2 main_call22.v7 (broadcastInDim S1024 ![] bcast_S_S1024),
    StableHlo.TRef.binary main_call22.v4 main_call22.v7 main_call22.v8 (cmpi .slt),
    StableHlo.TRef.nullary main_call22.c_3 (constantI S_ 32 0#32),
    StableHlo.TRef.binary main_call22.call0.v0 main_call22.c_3 main_call22.v9 (cmpi .slt),
    StableHlo.TRef.unary main_call22.v9 main_call22.v10 (broadcastInDim S1024 ![] bcast_S_S1024),
    StableHlo.TRef.binary main_call22.v8 main_call22.v10 main_call22.v11 (cmpi .ne),
    StableHlo.TRef.binary main_call22.v11 main_call22.v6 main_call22.v12 andi,
    StableHlo.TRef.unary main_call22.call0.v0 main_call22.v13 (broadcastInDim S1024 ![] bcast_S_S1024),
    StableHlo.TRef.binary main_call22.v4 main_call22.v13 main_call22.v14 addi,
    StableHlo.TRef.ternary main_call22.v12 main_call22.v14 main_call22.v4 main_call22.v15 select ]

theorem it03G_sub : (it03G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it03G_fresh : (it03G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 1 of @main). -/
noncomputable def it03H : List (HloOp τ sig (Elt F)) :=
  [ StableHlo.TRef.nullary main_call23.c (constantI S_ 32 0#32),
    StableHlo.TRef.unary main_call23.c main_call23.v0 (broadcastInDim S1024 ![] bcast_S_S1024),
    StableHlo.TRef.binary (.of main_v78 : StableHlo.TRef sig ⟨S1024, .i32⟩) main_call23.v0 main_call23.v1 (cmpi .slt),
    StableHlo.TRef.nullary main_call23.c_0 (constantI S_ 32 1024#32),
    StableHlo.TRef.unary main_call23.c_0 main_call23.v2 (broadcastInDim S1024 ![] bcast_S_S1024),
    StableHlo.TRef.binary (.of main_v78 : StableHlo.TRef sig ⟨S1024, .i32⟩) main_call23.v2 main_call23.v3 addi,
    StableHlo.TRef.ternary main_call23.v1 main_call23.v3 (.of main_v78 : StableHlo.TRef sig ⟨S1024, .i32⟩) main_call23.call0.v0 select,
    StableHlo.TRef.unary main_call23.call0.v0 main_call23.v5 (broadcastInDim S1024x1 ![0] bcast_S1024_S1024x1_0),
    StableHlo.TRef.nullary main_call23.c_1 (constantI S1 32 1023#32),
    StableHlo.TRef.nullary main_call23.c_2 (constantI S_ 32 0#32),
    StableHlo.TRef.unary main_call23.c_2 main_call23.v6 (broadcastInDim S1024x1 ![] bcast_S_S1024x1),
    StableHlo.TRef.binary main_call23.v5 main_call23.v6 main_call23.v7 (cmpi .sge),
    StableHlo.TRef.unary main_call23.c_1 main_call23.v8 (broadcastInDim S1x1 ![1] bcast_S1_S1x1_1),
    StableHlo.TRef.unary main_call23.v8 main_call23.v9 (broadcastInDim S1024x1 ![0, 1] bcast_S1x1_S1024x1_0_1),
    StableHlo.TRef.binary main_call23.v5 main_call23.v9 main_call23.v10 (cmpi .sle),
    StableHlo.TRef.binary main_call23.v7 main_call23.v10 main_call23.v11 andi,
    StableHlo.TRef.nullary main_call23.c_3 (constantI S_ 1 1#1),
    StableHlo.TRef.binary main_call23.v11 main_call23.c_3 main_call23.v12 (fun x v => Host.reduce IntOp.andi x v reducesTo_S1024x1_S1024_d1 h_S_),
    StableHlo.TRef.binary (.of main_v7 : StableHlo.TRef sig ⟨S1024x1024, .f32⟩) main_call23.v5 main_call23.v13 (fun x i => Host.gather gather_S1024x1024_S1024x1_S1024x1024_1_0_n_n_0_1_11024 x i),
    StableHlo.TRef.unary main_call23.v12 main_call23.v14 (broadcastInDim S1024x1024 ![0] bcast_S1024_S1024x1024_0),
    StableHlo.TRef.nullary main_call23.cst (constant S_ .f32 0x7FC00000#32),
    StableHlo.TRef.unary main_call23.cst main_call23.v15 (broadcastInDim S1024x1024 ![] bcast_S_S1024x1024),
    StableHlo.TRef.ternary main_call23.v14 main_call23.v13 main_call23.v15 main_call23.v16 select ]

theorem it03H_sub : (it03H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it03H_fresh : (it03H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it03_W : List (Ref sig .tc) :=
  [main_v62, main_v63, main_v64, (main_call18.v0.ref), (main_call18.call0.c.ref), (main_call18.call0.v0.ref), (main_call18.call0.v1.ref), main_c_21, main_v66, main_c_22, (main_call19.v0.ref), (main_call19.v1.ref), (main_call19.v2.ref), main_c_23, main_v68, main_v69, main_c_24, main_v70, main_v71, main_v72, main_v73, main_c_25, main_v74, main_v75, (main_call20.call0.c.ref), (main_call20.call0.v0.ref), (main_call20.call0.v1.ref), main_c_26, (main_call21.v0.ref), (main_call21.v1.ref), (main_call21.v2.ref), (main_call21.v3.ref), (main_call21.v4.ref), (main_call21.v5.ref), (main_call21.v6.ref), (main_call21.v7.ref), (main_call21.c.ref), (main_call21.v8.ref), (main_call21.v9.ref), (main_call21.v10.ref), (main_call21.c_0.ref), (main_call21.v11.ref), (main_call21.v12.ref), (main_call21.call0.v0.ref), main_c_27, (main_call22.v0.ref), (main_call22.c.ref), (main_call22.v1.ref), (main_call22.c_0.ref), (main_call22.call0.v0.ref), (main_call22.v3.ref), (main_call22.v4.ref), (main_call22.c_1.ref), (main_call22.v5.ref), (main_call22.v6.ref), (main_call22.c_2.ref), (main_call22.v7.ref), (main_call22.v8.ref), (main_call22.c_3.ref), (main_call22.v9.ref), (main_call22.v10.ref), (main_call22.v11.ref), (main_call22.v12.ref), (main_call22.v13.ref), (main_call22.v14.ref), (main_call22.v15.ref), (main_call23.c.ref), (main_call23.v0.ref), (main_call23.v1.ref), (main_call23.c_0.ref), (main_call23.v2.ref), (main_call23.v3.ref), (main_call23.call0.v0.ref), (main_call23.v5.ref), (main_call23.c_1.ref), (main_call23.c_2.ref), (main_call23.v6.ref), (main_call23.v7.ref), (main_call23.v8.ref), (main_call23.v9.ref), (main_call23.v10.ref), (main_call23.v11.ref), (main_call23.c_3.ref), (main_call23.v12.ref), (main_call23.v13.ref), (main_call23.v14.ref), (main_call23.cst.ref), (main_call23.v15.ref), (main_call23.v16.ref)]

/-- The iteration up to the row lookup. -/
noncomputable def it03hd : List (HloOp τ sig (Elt F)) := it03A ++ (it03B ++ (it03C ++ (it03D ++ (it03E ++ it03G))))

/-- The iteration. -/
noncomputable def it03 : List (HloOp τ sig (Elt F)) := it03hd ++ it03H
theorem it03_sub : (it03 (F := F)).Forall fun op => op.bufs ⊆ tcRefs τ sig :=
  forall_append (forall_append it03A_sub (forall_append it03B_sub (forall_append it03C_sub (forall_append it03D_sub (forall_append it03E_sub it03G_sub))))) it03H_sub
theorem it03_fresh : (it03 (F := F)).Forall fun op => op.fresh = ∅ :=
  forall_append (forall_append it03A_fresh (forall_append it03B_fresh (forall_append it03C_fresh (forall_append it03D_fresh (forall_append it03E_fresh it03G_fresh))))) it03H_fresh

/-- The iteration as the concatenation of its pieces. -/
theorem it03_atoms : it03 (F := F) = it03A ++ (it03B ++ (it03C ++ (it03D ++ (it03E ++ (it03G ++ it03H))))) := by
  simp only [it03, it03hd, List.append_assoc]

end Cert.ReferenceIdeal.HandRun

end
-- ==== Proof.RefIt03.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt03

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it03A_val (V : Valuation τ sig (Elt F)) :
    after (it03A (F := F)) V (Proc.devRef (τ := τ) .tc main_v64) = RefFns.colMask (V (Proc.devRef (τ := τ) .tc main_v1)) 3 slices_S1024x32x1_S1024x1x1_0_3_0 := by
  simp only [it03A, List.cons_append, List.nil_append]
  after_results_simp
  try simp only [cast_eq]
  rfl

set_option maxRecDepth 65536 in
set_option maxHeartbeats 1000000 in
theorem it03B_val (V : Valuation τ sig (Elt F)) :
    after (it03B (F := F)) V (Proc.devRef (τ := τ) .tc main_v65) = RefFns.cumsumF (V (Proc.devRef (τ := τ) .tc main_v64)) := by
  simp only [it03B, List.cons_append, List.nil_append]
  after_results_simp
  try simp only [cast_eq]
  rfl

set_option maxRecDepth 65536 in
set_option maxHeartbeats 1000000 in
theorem it03C_val (V : Valuation τ sig (Elt F)) :
    after (it03C (F := F)) V (Proc.devRef (τ := τ) .tc main_v75) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v65)) (constantI S_ 32 0#32)) (broadcastInDim S1024 ![] bcast_S_S1024 (constantI S_ 32 0#32))) (addi (RefFns.clipF (V (Proc.devRef (τ := τ) .tc main_v65)) (constantI S_ 32 0#32)) (broadcastInDim S1024 ![] bcast_S_S1024 (constantI S_ 32 1024#32))) (RefFns.clipF (V (Proc.devRef (τ := τ) .tc main_v65)) (constantI S_ 32 0#32)))) (broadcastInDim S1024 ![] bcast_S_S1024 (constantI S_ 32 1#32)) := by
  simp only [it03C, List.cons_append, List.nil_append]
  after_results_simp
  try simp only [cast_eq]
  rfl

set_option maxRecDepth 65536 in
set_option maxHeartbeats 1000000 in
theorem it03D_val (V : Valuation τ sig (Elt F)) :
    after (it03D (F := F)) V (Proc.devRef (τ := τ) .tc main_v76) = RefFns.cumsum1F (V (Proc.devRef (τ := τ) .tc main_v75)) := by
  simp only [it03D, List.cons_append, List.nil_append]
  after_results_simp
  try simp only [cast_eq]
  rfl

set_option maxRecDepth 65536 in
set_option maxHeartbeats 1000000 in
theorem it03E_val (V : Valuation τ sig (Elt F)) :
    after (it03E (F := F)) V (Proc.devRef (τ := τ) .tc main_v77) = RefFns.floorDivF (V (Proc.devRef (τ := τ) .tc main_v76)) (constantI S_ 32 1#32) := by
  simp only [it03E, List.cons_append, List.nil_append]
  after_results_simp
  try simp only [cast_eq]
  rfl

set_option maxRecDepth 65536 in
set_option maxHeartbeats 1000000 in
theorem it03G_val (V : Valuation τ sig (Elt F)) :
    after (it03G (F := F)) V (Proc.devRef (τ := τ) .tc main_v78) = RefFns.remainderF (V (Proc.devRef (τ := τ) .tc main_v77)) (constantI S_ 32 1024#32) := by
  simp only [it03G, List.cons_append, List.nil_append]
  after_results_simp
  try simp only [cast_eq]
  rfl

set_option maxRecDepth 65536 in
set_option maxHeartbeats 1000000 in
theorem it03H_val (V : Valuation τ sig (Elt F)) :
    after (it03H (F := F)) V (Proc.devRef (τ := τ) .tc main_v79) = RefFns.takeF (V (Proc.devRef (τ := τ) .tc main_v7)) (V (Proc.devRef (τ := τ) .tc main_v78)) := by
  simp only [it03H, List.cons_append, List.nil_append]
  after_results_simp
  try simp only [cast_eq]
  rfl

theorem it03A_writes : (it03A (F := F)).Forall fun op => op.writes ⊆ (it03_W.map (Proc.devRef (τ := τ) .tc)).toFinset :=
  ⟨wsub main_v62 (by decide), wsub main_v63 (by decide), wsub main_v64 (by decide)⟩

theorem it03B_writes : (it03B (F := F)).Forall fun op => op.writes ⊆ (it03_W.map (Proc.devRef (τ := τ) .tc)).toFinset :=
  ⟨wsub (main_call18.v0.ref) (by decide), wsub (main_call18.call0.c.ref) (by decide), wsub (main_call18.call0.v0.ref) (by decide), wsub (main_call18.call0.v1.ref) (by decide)⟩

theorem it03C_writes : (it03C (F := F)).Forall fun op => op.writes ⊆ (it03_W.map (Proc.devRef (τ := τ) .tc)).toFinset :=
  ⟨wsub main_c_21 (by decide), wsub main_v66 (by decide), wsub main_c_22 (by decide), wsub (main_call19.v0.ref) (by decide), wsub (main_call19.v1.ref) (by decide), wsub (main_call19.v2.ref) (by decide), wsub main_c_23 (by decide), wsub main_v68 (by decide), wsub main_v69 (by decide), wsub main_c_24 (by decide), wsub main_v70 (by decide), wsub main_v71 (by decide), wsub main_v72 (by decide), wsub main_v73 (by decide), wsub main_c_25 (by decide), wsub main_v74 (by decide), wsub main_v75 (by decide)⟩

theorem it03D_writes : (it03D (F := F)).Forall fun op => op.writes ⊆ (it03_W.map (Proc.devRef (τ := τ) .tc)).toFinset :=
  ⟨wsub (main_call20.call0.c.ref) (by decide), wsub (main_call20.call0.v0.ref) (by decide), wsub (main_call20.call0.v1.ref) (by decide)⟩

theorem it03E_writes : (it03E (F := F)).Forall fun op => op.writes ⊆ (it03_W.map (Proc.devRef (τ := τ) .tc)).toFinset :=
  ⟨wsub main_c_26 (by decide), wsub (main_call21.v0.ref) (by decide), wsub (main_call21.v1.ref) (by decide), wsub (main_call21.v2.ref) (by decide), wsub (main_call21.v3.ref) (by decide), wsub (main_call21.v4.ref) (by decide), wsub (main_call21.v5.ref) (by decide), wsub (main_call21.v6.ref) (by decide), wsub (main_call21.v7.ref) (by decide), wsub (main_call21.c.ref) (by decide), wsub (main_call21.v8.ref) (by decide), wsub (main_call21.v9.ref) (by decide), wsub (main_call21.v10.ref) (by decide), wsub (main_call21.c_0.ref) (by decide), wsub (main_call21.v11.ref) (by decide), wsub (main_call21.v12.ref) (by decide), wsub (main_call21.call0.v0.ref) (by decide)⟩

theorem it03G_writes : (it03G (F := F)).Forall fun op => op.writes ⊆ (it03_W.map (Proc.devRef (τ := τ) .tc)).toFinset :=
  ⟨wsub main_c_27 (by decide), wsub (main_call22.v0.ref) (by decide), wsub (main_call22.c.ref) (by decide), wsub (main_call22.v1.ref) (by decide), wsub (main_call22.c_0.ref) (by decide), wsub (main_call22.call0.v0.ref) (by decide), wsub (main_call22.v3.ref) (by decide), wsub (main_call22.v4.ref) (by decide), wsub (main_call22.c_1.ref) (by decide), wsub (main_call22.v5.ref) (by decide), wsub (main_call22.v6.ref) (by decide), wsub (main_call22.c_2.ref) (by decide), wsub (main_call22.v7.ref) (by decide), wsub (main_call22.v8.ref) (by decide), wsub (main_call22.c_3.ref) (by decide), wsub (main_call22.v9.ref) (by decide), wsub (main_call22.v10.ref) (by decide), wsub (main_call22.v11.ref) (by decide), wsub (main_call22.v12.ref) (by decide), wsub (main_call22.v13.ref) (by decide), wsub (main_call22.v14.ref) (by decide), wsub (main_call22.v15.ref) (by decide)⟩

theorem it03H_writes : (it03H (F := F)).Forall fun op => op.writes ⊆ (it03_W.map (Proc.devRef (τ := τ) .tc)).toFinset :=
  ⟨wsub (main_call23.c.ref) (by decide), wsub (main_call23.v0.ref) (by decide), wsub (main_call23.v1.ref) (by decide), wsub (main_call23.c_0.ref) (by decide), wsub (main_call23.v2.ref) (by decide), wsub (main_call23.v3.ref) (by decide), wsub (main_call23.call0.v0.ref) (by decide), wsub (main_call23.v5.ref) (by decide), wsub (main_call23.c_1.ref) (by decide), wsub (main_call23.c_2.ref) (by decide), wsub (main_call23.v6.ref) (by decide), wsub (main_call23.v7.ref) (by decide), wsub (main_call23.v8.ref) (by decide), wsub (main_call23.v9.ref) (by decide), wsub (main_call23.v10.ref) (by decide), wsub (main_call23.v11.ref) (by decide), wsub (main_call23.c_3.ref) (by decide), wsub (main_call23.v12.ref) (by decide), wsub (main_call23.v13.ref) (by decide), wsub (main_call23.v14.ref) (by decide), wsub (main_call23.cst.ref) (by decide), wsub (main_call23.v15.ref) (by decide), wsub (main_call23.v16.ref) (by decide)⟩

theorem it03hd_writes : (it03hd (F := F)).Forall fun op => op.writes ⊆ (it03_W.map (Proc.devRef (τ := τ) .tc)).toFinset :=
  forall_append it03A_writes (forall_append it03B_writes (forall_append it03C_writes (forall_append it03D_writes (forall_append it03E_writes it03G_writes))))

theorem it03_writes : (it03 (F := F)).Forall fun op => op.writes ⊆ (it03_W.map (Proc.devRef (τ := τ) .tc)).toFinset :=
  forall_append it03hd_writes (it03H_writes)

/-- The iteration leaves every buffer it does not write as it was. -/
theorem it03_keep (V : Valuation τ sig (Elt F)) (r : Ref sig .tc) (hr : r ∉ it03_W) :
    after (it03 (F := F)) V (Proc.devRef (τ := τ) .tc r) = V (Proc.devRef (τ := τ) .tc r) :=
  after_of_writes_sub it03 V it03_writes hr

theorem it03hd_keep (V : Valuation τ sig (Elt F)) (r : Ref sig .tc) (hr : r ∉ it03_W) :
    after (it03hd (F := F)) V (Proc.devRef (τ := τ) .tc r) = V (Proc.devRef (τ := τ) .tc r) :=
  after_of_writes_sub it03hd V it03hd_writes hr

/-- The iteration's result: the rows of the matrix it is handed at the compacted indices of its mask. -/
theorem it03_res (V : Valuation τ sig (Elt F)) :
    after (it03 (F := F)) V (Proc.devRef (τ := τ) .tc main_v79) = RefFns.nzTake (V (Proc.devRef (τ := τ) .tc main_v7)) (RefFns.colMask (V (Proc.devRef (τ := τ) .tc main_v1)) 3 slices_S1024x32x1_S1024x1x1_0_3_0) := by
  rw [it03, after_append, it03H_val, it03hd_keep V main_v7 (by decide), it03hd]
  simp only [after_append]
  rw [it03G_val, it03E_val, it03D_val, it03C_val, it03B_val, it03A_val]
  rfl

set_option maxRecDepth 65536 in
set_option maxHeartbeats 4000000 in
/-- The invariant of the run survives the iteration, with its block added. -/
theorem it03_step {x : FVec F S1x32x1024 .f32} {V : Valuation τ sig (Elt F)} (hg : Good 3 x V) : Good 4 x (after (it03 (F := F)) V) :=
  good_step 3 (by decide) it03 it03_W slices_S1024x32x1_S1024x1x1_0_3_0 it03_keep it03_res (fun _ => rfl) (by decide +kernel) (by decide +kernel) (by decide +kernel) (by decide +kernel) hg

end Cert.ReferenceIdeal.HandRun

end
-- ==== Proof.RefOpsIt04.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 1 of @main). -/
noncomputable def it04A : List (HloOp τ sig (Elt F)) :=
  [ StableHlo.unary main_v1 main_v80 ((extractStridedSlice S1024x1x1 ![0, 4, 0] · slices_S1024x32x1_S1024x1x1_0_4_0) : (⟨S1024x32x1, .i1⟩ : BufTy).Contents (Elt F) → (⟨S1024x1x1, .i1⟩ : BufTy).Contents (Elt F)),
    StableHlo.reshape main_v80 main_v81 rfl shapeCasts_S1024x1x1_S1024,
    StableHlo.unary main_v81 main_v82 (noti : (⟨S1024, .i1⟩ : BufTy).Contents (Elt F) → (⟨S1024, .i1⟩ : BufTy).Contents (Elt F)) ]

theorem it04A_sub : (it04A (F := F)).Forall fun op => op.bufs ⊆ tcRefs τ sig :=
  ⟨unary_bufs_sub .., reshape_bufs_sub .., unary_bufs_sub ..⟩

theorem it04A_fresh : (it04A (F := F)).Forall fun op => op.fresh = ∅ :=
  ⟨rfl, rfl, rfl⟩

/-- A piece of this stretch (window 1 of @main). -/
noncomputable def it04B : List (HloOp τ sig (Elt F)) :=
  [ StableHlo.TRef.unary (.of main_v82 : StableHlo.TRef sig ⟨S1024, .i1⟩) main_call24.v0 (extui 32 · natLt_1_32),
    StableHlo.TRef.nullary main_call24.call0.c (constantI S_ 32 0#32),
    StableHlo.TRef.unary main_call24.call0.c main_call24.call0.v0 (broadcastInDim S_ ![] bcast_S_S_),
    StableHlo.TRef.binary main_call24.v0 main_call24.call0.v0 main_call24.call0.v1 (fun x v => Host.reduceWindow IntOp.addi ![1024] ![1] ![1023] ![0] x v reduceWindows_S1024_S1024_w1024s1p1023_0 h_S_) ]

theorem it04B_sub : (it04B (F := F)).Forall fun op => op.bufs ⊆ tcRefs τ sig :=
  ⟨unary_bufs_sub .., nullary_bufs_sub .., unary_bufs_sub .., binary_bufs_sub ..⟩

theorem it04B_fresh : (it04B (F := F)).Forall fun op => op.fresh = ∅ :=
  ⟨rfl, rfl, rfl, rfl⟩

/-- A piece of this stretch (window 1 of @main). -/
noncomputable def it04Ca : List (HloOp τ sig (Elt F)) :=
  [ StableHlo.nullary main_c_28 (constantI S_ 32 0#32),
    StableHlo.unary main_c_28 main_v84 (broadcastInDim S1024 ![] bcast_S_S1024 : (⟨S_, .i32⟩ : BufTy).Contents (Elt F) → (⟨S1024, .i32⟩ : BufTy).Contents (Elt F)),
    StableHlo.nullary main_c_29 (constantI S_ 32 0#32),
    StableHlo.TRef.unary (.of main_c_29 : StableHlo.TRef sig ⟨S_, .i32⟩) main_call25.v0 id,
    StableHlo.TRef.unary main_call25.v0 main_call25.v1 (broadcastInDim S1024 ![] bcast_S_S1024),
    StableHlo.TRef.binary main_call25.v1 (.of main_v83 : StableHlo.TRef sig ⟨S1024, .i32⟩) main_call25.v2 maxsi,
    StableHlo.nullary main_c_30 (constantI S_ 32 0#32),
    StableHlo.unary main_c_30 main_v86 (broadcastInDim S1024 ![] bcast_S_S1024 : (⟨S_, .i32⟩ : BufTy).Contents (Elt F) → (⟨S1024, .i32⟩ : BufTy).Contents (Elt F)),
    StableHlo.binary main_v85 main_v86 main_v87 (cmpi .slt : (⟨S1024, .i32⟩ : BufTy).Contents (Elt F) → (⟨S1024, .i32⟩ : BufTy).Contents (Elt F) → (⟨S1024, .i1⟩ : BufTy).Contents (Elt F)) ]

theorem it04Ca_sub : (it04Ca (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub ..⟩

theorem it04Ca_fresh : (it04Ca (F := F)).Forall fun op => op.fresh = ∅ :=
  ⟨rfl, rfl, rfl, rfl, rfl, rfl, rfl, rfl, rfl⟩

/-- A piece of this stretch (window 2 of @main). -/
noncomputable def it04Cb : List (HloOp τ sig (Elt F)) :=
  [ StableHlo.nullary main_c_31 (constantI S_ 32 1024#32),
    StableHlo.unary main_c_31 main_v88 (broadcastInDim S1024 ![] bcast_S_S1024 : (⟨S_, .i32⟩ : BufTy).Contents (Elt F) → (⟨S1024, .i32⟩ : BufTy).Contents (Elt F)),
    StableHlo.binary main_v85 main_v88 main_v89 (addi : (⟨S1024, .i32⟩ : BufTy).Contents (Elt F) → (⟨S1024, .i32⟩ : BufTy).Contents (Elt F) → (⟨S1024, .i32⟩ : BufTy).Contents (Elt F)),
    StableHlo.ternary main_v87 main_v89 main_v85 main_v90 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v90 main_v91 (broadcastInDim S1024x1 ![0] bcast_S1024_S1024x1_0 : (⟨S1024, .i32⟩ : BufTy).Contents (Elt F) → (⟨S1024x1, .i32⟩ : BufTy).Contents (Elt F)),
    StableHlo.nullary main_c_32 (constantI S_ 32 1#32),
    StableHlo.unary main_c_32 main_v92 (broadcastInDim S1024 ![] bcast_S_S1024 : (⟨S_, .i32⟩ : BufTy).Contents (Elt F) → (⟨S1024, .i32⟩ : BufTy).Contents (Elt F)),
    StableHlo.ternary main_v84 main_v91 main_v92 main_v93 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it04Cb_sub : (it04Cb (F := F)).Forall fun op => op.bufs ⊆ tcRefs τ sig :=
  ⟨nullary_bufs_sub .., unary_bufs_sub .., binary_bufs_sub .., ternary_bufs_sub .., unary_bufs_sub .., nullary_bufs_sub .., unary_bufs_sub .., ternary_bufs_sub ..⟩

theorem it04Cb_fresh : (it04Cb (F := F)).Forall fun op => op.fresh = ∅ :=
  ⟨rfl, rfl, rfl, rfl, rfl, rfl, rfl, rfl⟩

/-- A piece of this stretch (window 2 of @main). -/
noncomputable def it04D : List (HloOp τ sig (Elt F)) :=
  [ StableHlo.TRef.nullary main_call26.call0.c (constantI S_ 32 0#32),
    StableHlo.TRef.unary main_call26.call0.c main_call26.call0.v0 (broadcastInDim S_ ![] bcast_S_S_),
    StableHlo.TRef.binary (.of main_v93 : StableHlo.TRef sig ⟨S1024, .i32⟩) main_call26.call0.v0 main_call26.call0.v1 (fun x v => Host.reduceWindow IntOp.addi ![1024] ![1] ![1023] ![0] x v reduceWindows_S1024_S1024_w1024s1p1023_0 h_S_) ]

theorem it04D_sub : (it04D (F := F)).Forall fun op => op.bufs ⊆ tcRefs τ sig :=
  ⟨nullary_bufs_sub .., unary_bufs_sub .., binary_bufs_sub ..⟩

theorem it04D_fresh : (it04D (F := F)).Forall fun op => op.fresh = ∅ :=
  ⟨rfl, rfl, rfl⟩

/-- A piece of this stretch (window 2 of @main). -/
noncomputable def it04E : List (HloOp τ sig (Elt F)) :=
  [ StableHlo.nullary main_c_33 (constantI S_ 32 1#32),
    StableHlo.TRef.unary (.of main_c_33 : StableHlo.TRef sig ⟨S_, .i32⟩) main_call27.v0 (broadcastInDim S1024 ![] bcast_S_S1024),
    StableHlo.TRef.binary (.of main_v94 : StableHlo.TRef sig ⟨S1024, .i32⟩) main_call27.v0 main_call27.v1 Host.divsi,
    StableHlo.TRef.unary (.of main_v94 : StableHlo.TRef sig ⟨S1024, .i32⟩) main_call27.v2 signi,
    StableHlo.TRef.unary (.of main_c_33 : StableHlo.TRef sig ⟨S_, .i32⟩) main_call27.v3 signi,
    StableHlo.TRef.unary main_call27.v3 main_call27.v4 (broadcastInDim S1024 ![] bcast_S_S1024),
    StableHlo.TRef.binary main_call27.v2 main_call27.v4 main_call27.v5 (cmpi .ne),
    StableHlo.TRef.unary (.of main_c_33 : StableHlo.TRef sig ⟨S_, .i32⟩) main_call27.v6 (broadcastInDim S1024 ![] bcast_S_S1024),
    StableHlo.TRef.binary (.of main_v94 : StableHlo.TRef sig ⟨S1024, .i32⟩) main_call27.v6 main_call27.v7 Host.remsi,
    StableHlo.TRef.nullary main_call27.c (constantI S_ 32 0#32),
    StableHlo.TRef.unary main_call27.c main_call27.v8 (broadcastInDim S1024 ![] bcast_S_S1024),
    StableHlo.TRef.binary main_call27.v7 main_call27.v8 main_call27.v9 (cmpi .ne),
    StableHlo.TRef.binary main_call27.v5 main_call27.v9 main_call27.v10 andi,
    StableHlo.TRef.nullary main_call27.c_0 (constantI S_ 32 1#32),
    StableHlo.TRef.unary main_call27.c_0 main_call27.v11 (broadcastInDim S1024 ![] bcast_S_S1024),
    StableHlo.TRef.binary main_call27.v1 main_call27.v11 main_call27.v12 subi,
    StableHlo.TRef.ternary main_call27.v10 main_call27.v12 main_call27.v1 main_call27.call0.v0 select ]

theorem it04E_sub : (it04E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it04E_fresh : (it04E (F := F)).Forall fun op => op.fresh = ∅ :=
  ⟨rfl, rfl, rfl, rfl, rfl, rfl, rfl, rfl, rfl, rfl, rfl, rfl, rfl, rfl, rfl, rfl, rfl⟩

/-- A piece of this stretch (window 2 of @main). -/
noncomputable def it04G : List (HloOp τ sig (Elt F)) :=
  [ StableHlo.nullary main_c_34 (constantI S_ 32 1024#32),
    StableHlo.TRef.unary (.of main_c_34 : StableHlo.TRef sig ⟨S_, .i32⟩) main_call28.v0 id,
    StableHlo.TRef.nullary main_call28.c (constantI S_ 32 0#32),
    StableHlo.TRef.binary main_call28.v0 main_call28.c main_call28.v1 (cmpi .eq),
    StableHlo.TRef.nullary main_call28.c_0 (constantI S_ 32 1#32),
    StableHlo.TRef.ternary main_call28.v1 main_call28.c_0 main_call28.v0 main_call28.call0.v0 select,
    StableHlo.TRef.unary main_call28.call0.v0 main_call28.v3 (broadcastInDim S1024 ![] bcast_S_S1024),
    StableHlo.TRef.binary (.of main_v95 : StableHlo.TRef sig ⟨S1024, .i32⟩) main_call28.v3 main_call28.v4 Host.remsi,
    StableHlo.TRef.nullary main_call28.c_1 (constantI S_ 32 0#32),
    StableHlo.TRef.unary main_call28.c_1 main_call28.v5 (broadcastInDim S1024 ![] bcast_S_S1024),
    StableHlo.TRef.binary main_call28.v4 main_call28.v5 main_call28.v6 (cmpi .ne),
    StableHlo.TRef.nullary main_call28.c_2 (constantI S_ 32 0#32),
    StableHlo.TRef.unary main_call28.c_2 main_call28.v7 (broadcastInDim S1024 ![] bcast_S_S1024),
    StableHlo.TRef.binary main_call28.v4 main_call28.v7 main_call28.v8 (cmpi .slt),
    StableHlo.TRef.nullary main_call28.c_3 (constantI S_ 32 0#32),
    StableHlo.TRef.binary main_call28.call0.v0 main_call28.c_3 main_call28.v9 (cmpi .slt),
    StableHlo.TRef.unary main_call28.v9 main_call28.v10 (broadcastInDim S1024 ![] bcast_S_S1024),
    StableHlo.TRef.binary main_call28.v8 main_call28.v10 main_call28.v11 (cmpi .ne),
    StableHlo.TRef.binary main_call28.v11 main_call28.v6 main_call28.v12 andi,
    StableHlo.TRef.unary main_call28.call0.v0 main_call28.v13 (broadcastInDim S1024 ![] bcast_S_S1024),
    StableHlo.TRef.binary main_call28.v4 main_call28.v13 main_call28.v14 addi,
    StableHlo.TRef.ternary main_call28.v12 main_call28.v14 main_call28.v4 main_call28.v15 select ]

theorem it04G_sub : (it04G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it04G_fresh : (it04G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 2 of @main). -/
noncomputable def it04H : List (HloOp τ sig (Elt F)) :=
  [ StableHlo.TRef.nullary main_call29.c (constantI S_ 32 0#32),
    StableHlo.TRef.unary main_call29.c main_call29.v0 (broadcastInDim S1024 ![] bcast_S_S1024),
    StableHlo.TRef.binary (.of main_v96 : StableHlo.TRef sig ⟨S1024, .i32⟩) main_call29.v0 main_call29.v1 (cmpi .slt),
    StableHlo.TRef.nullary main_call29.c_0 (constantI S_ 32 1024#32),
    StableHlo.TRef.unary main_call29.c_0 main_call29.v2 (broadcastInDim S1024 ![] bcast_S_S1024),
    StableHlo.TRef.binary (.of main_v96 : StableHlo.TRef sig ⟨S1024, .i32⟩) main_call29.v2 main_call29.v3 addi,
    StableHlo.TRef.ternary main_call29.v1 main_call29.v3 (.of main_v96 : StableHlo.TRef sig ⟨S1024, .i32⟩) main_call29.call0.v0 select,
    StableHlo.TRef.unary main_call29.call0.v0 main_call29.v5 (broadcastInDim S1024x1 ![0] bcast_S1024_S1024x1_0),
    StableHlo.TRef.nullary main_call29.c_1 (constantI S1 32 1023#32),
    StableHlo.TRef.nullary main_call29.c_2 (constantI S_ 32 0#32),
    StableHlo.TRef.unary main_call29.c_2 main_call29.v6 (broadcastInDim S1024x1 ![] bcast_S_S1024x1),
    StableHlo.TRef.binary main_call29.v5 main_call29.v6 main_call29.v7 (cmpi .sge),
    StableHlo.TRef.unary main_call29.c_1 main_call29.v8 (broadcastInDim S1x1 ![1] bcast_S1_S1x1_1),
    StableHlo.TRef.unary main_call29.v8 main_call29.v9 (broadcastInDim S1024x1 ![0, 1] bcast_S1x1_S1024x1_0_1),
    StableHlo.TRef.binary main_call29.v5 main_call29.v9 main_call29.v10 (cmpi .sle),
    StableHlo.TRef.binary main_call29.v7 main_call29.v10 main_call29.v11 andi,
    StableHlo.TRef.nullary main_call29.c_3 (constantI S_ 1 1#1),
    StableHlo.TRef.binary main_call29.v11 main_call29.c_3 main_call29.v12 (fun x v => Host.reduce IntOp.andi x v reducesTo_S1024x1_S1024_d1 h_S_),
    StableHlo.TRef.binary (.of main_v7 : StableHlo.TRef sig ⟨S1024x1024, .f32⟩) main_call29.v5 main_call29.v13 (fun x i => Host.gather gather_S1024x1024_S1024x1_S1024x1024_1_0_n_n_0_1_11024 x i),
    StableHlo.TRef.unary main_call29.v12 main_call29.v14 (broadcastInDim S1024x1024 ![0] bcast_S1024_S1024x1024_0),
    StableHlo.TRef.nullary main_call29.cst (constant S_ .f32 0x7FC00000#32),
    StableHlo.TRef.unary main_call29.cst main_call29.v15 (broadcastInDim S1024x1024 ![] bcast_S_S1024x1024),
    StableHlo.TRef.ternary main_call29.v14 main_call29.v13 main_call29.v15 main_call29.v16 select ]

theorem it04H_sub : (it04H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it04H_fresh : (it04H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it04_W : List (Ref sig .tc) :=
  [main_v80, main_v81, main_v82, (main_call24.v0.ref), (main_call24.call0.c.ref), (main_call24.call0.v0.ref), (main_call24.call0.v1.ref), main_c_28, main_v84, main_c_29, (main_call25.v0.ref), (main_call25.v1.ref), (main_call25.v2.ref), main_c_30, main_v86, main_v87, main_c_31, main_v88, main_v89, main_v90, main_v91, main_c_32, main_v92, main_v93, (main_call26.call0.c.ref), (main_call26.call0.v0.ref), (main_call26.call0.v1.ref), main_c_33, (main_call27.v0.ref), (main_call27.v1.ref), (main_call27.v2.ref), (main_call27.v3.ref), (main_call27.v4.ref), (main_call27.v5.ref), (main_call27.v6.ref), (main_call27.v7.ref), (main_call27.c.ref), (main_call27.v8.ref), (main_call27.v9.ref), (main_call27.v10.ref), (main_call27.c_0.ref), (main_call27.v11.ref), (main_call27.v12.ref), (main_call27.call0.v0.ref), main_c_34, (main_call28.v0.ref), (main_call28.c.ref), (main_call28.v1.ref), (main_call28.c_0.ref), (main_call28.call0.v0.ref), (main_call28.v3.ref), (main_call28.v4.ref), (main_call28.c_1.ref), (main_call28.v5.ref), (main_call28.v6.ref), (main_call28.c_2.ref), (main_call28.v7.ref), (main_call28.v8.ref), (main_call28.c_3.ref), (main_call28.v9.ref), (main_call28.v10.ref), (main_call28.v11.ref), (main_call28.v12.ref), (main_call28.v13.ref), (main_call28.v14.ref), (main_call28.v15.ref), (main_call29.c.ref), (main_call29.v0.ref), (main_call29.v1.ref), (main_call29.c_0.ref), (main_call29.v2.ref), (main_call29.v3.ref), (main_call29.call0.v0.ref), (main_call29.v5.ref), (main_call29.c_1.ref), (main_call29.c_2.ref), (main_call29.v6.ref), (main_call29.v7.ref), (main_call29.v8.ref), (main_call29.v9.ref), (main_call29.v10.ref), (main_call29.v11.ref), (main_call29.c_3.ref), (main_call29.v12.ref), (main_call29.v13.ref), (main_call29.v14.ref), (main_call29.cst.ref), (main_call29.v15.ref), (main_call29.v16.ref)]

/-- One stage of the iteration, whole. -/
noncomputable def it04C : List (HloOp τ sig (Elt F)) := it04Ca ++ it04Cb
theorem it04C_sub : (it04C (F := F)).Forall fun op => op.bufs ⊆ tcRefs τ sig :=
  forall_append it04Ca_sub it04Cb_sub
theorem it04C_fresh : (it04C (F := F)).Forall fun op => op.fresh = ∅ :=
  forall_append it04Ca_fresh it04Cb_fresh

/-- The iteration up to the row lookup. -/
noncomputable def it04hd : List (HloOp τ sig (Elt F)) := it04A ++ (it04B ++ (it04C ++ (it04D ++ (it04E ++ it04G))))

/-- The iteration. -/
noncomputable def it04 : List (HloOp τ sig (Elt F)) := it04hd ++ it04H
theorem it04_sub : (it04 (F := F)).Forall fun op => op.bufs ⊆ tcRefs τ sig :=
  forall_append (forall_append it04A_sub (forall_append it04B_sub (forall_append it04C_sub (forall_append it04D_sub (forall_append it04E_sub it04G_sub))))) it04H_sub
theorem it04_fresh : (it04 (F := F)).Forall fun op => op.fresh = ∅ :=
  forall_append (forall_append it04A_fresh (forall_append it04B_fresh (forall_append it04C_fresh (forall_append it04D_fresh (forall_append it04E_fresh it04G_fresh))))) it04H_fresh

/-- The iteration as the concatenation of its pieces. -/
theorem it04_atoms : it04 (F := F) = it04A ++ (it04B ++ (it04Ca ++ (it04Cb ++ (it04D ++ (it04E ++ (it04G ++ it04H)))))) := by
  simp only [it04, it04hd, it04C, List.append_assoc]

end Cert.ReferenceIdeal.HandRun

end
-- ==== Proof.RefIt04.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt04

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it04A_val (V : Valuation τ sig (Elt F)) :
    after (it04A (F := F)) V (Proc.devRef (τ := τ) .tc main_v82) = RefFns.colMask (V (Proc.devRef (τ := τ) .tc main_v1)) 4 slices_S1024x32x1_S1024x1x1_0_4_0 := by
  simp only [it04A, List.cons_append, List.nil_append]
  after_results_simp
  try simp only [cast_eq]
  rfl

set_option maxRecDepth 65536 in
set_option maxHeartbeats 1000000 in
theorem it04B_val (V : Valuation τ sig (Elt F)) :
    after (it04B (F := F)) V (Proc.devRef (τ := τ) .tc main_v83) = RefFns.cumsumF (V (Proc.devRef (τ := τ) .tc main_v82)) := by
  simp only [it04B, List.cons_append, List.nil_append]
  after_results_simp
  try simp only [cast_eq]
  rfl

set_option maxRecDepth 65536 in
set_option maxHeartbeats 1000000 in
theorem it04C_val (V : Valuation τ sig (Elt F)) :
    after (it04C (F := F)) V (Proc.devRef (τ := τ) .tc main_v93) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v83)) (constantI S_ 32 0#32)) (broadcastInDim S1024 ![] bcast_S_S1024 (constantI S_ 32 0#32))) (addi (RefFns.clipF (V (Proc.devRef (τ := τ) .tc main_v83)) (constantI S_ 32 0#32)) (broadcastInDim S1024 ![] bcast_S_S1024 (constantI S_ 32 1024#32))) (RefFns.clipF (V (Proc.devRef (τ := τ) .tc main_v83)) (constantI S_ 32 0#32)))) (broadcastInDim S1024 ![] bcast_S_S1024 (constantI S_ 32 1#32)) := by
  simp only [it04C, it04Ca, it04Cb, List.cons_append, List.nil_append]
  after_results_simp
  try simp only [cast_eq]
  rfl

set_option maxRecDepth 65536 in
set_option maxHeartbeats 1000000 in
theorem it04D_val (V : Valuation τ sig (Elt F)) :
    after (it04D (F := F)) V (Proc.devRef (τ := τ) .tc main_v94) = RefFns.cumsum1F (V (Proc.devRef (τ := τ) .tc main_v93)) := by
  simp only [it04D, List.cons_append, List.nil_append]
  after_results_simp
  try simp only [cast_eq]
  rfl

set_option maxRecDepth 65536 in
set_option maxHeartbeats 1000000 in
theorem it04E_val (V : Valuation τ sig (Elt F)) :
    after (it04E (F := F)) V (Proc.devRef (τ := τ) .tc main_v95) = RefFns.floorDivF (V (Proc.devRef (τ := τ) .tc main_v94)) (constantI S_ 32 1#32) := by
  simp only [it04E, List.cons_append, List.nil_append]
  after_results_simp
  try simp only [cast_eq]
  rfl

set_option maxRecDepth 65536 in
set_option maxHeartbeats 1000000 in
theorem it04G_val (V : Valuation τ sig (Elt F)) :
    after (it04G (F := F)) V (Proc.devRef (τ := τ) .tc main_v96) = RefFns.remainderF (V (Proc.devRef (τ := τ) .tc main_v95)) (constantI S_ 32 1024#32) := by
  simp only [it04G, List.cons_append, List.nil_append]
  after_results_simp
  try simp only [cast_eq]
  rfl

set_option maxRecDepth 65536 in
set_option maxHeartbeats 1000000 in
theorem it04H_val (V : Valuation τ sig (Elt F)) :
    after (it04H (F := F)) V (Proc.devRef (τ := τ) .tc main_v97) = RefFns.takeF (V (Proc.devRef (τ := τ) .tc main_v7)) (V (Proc.devRef (τ := τ) .tc main_v96)) := by
  simp only [it04H, List.cons_append, List.nil_append]
  after_results_simp
  try simp only [cast_eq]
  rfl

theorem it04A_writes : (it04A (F := F)).Forall fun op => op.writes ⊆ (it04_W.map (Proc.devRef (τ := τ) .tc)).toFinset :=
  ⟨wsub main_v80 (by decide), wsub main_v81 (by decide), wsub main_v82 (by decide)⟩

theorem it04B_writes : (it04B (F := F)).Forall fun op => op.writes ⊆ (it04_W.map (Proc.devRef (τ := τ) .tc)).toFinset :=
  ⟨wsub (main_call24.v0.ref) (by decide), wsub (main_call24.call0.c.ref) (by decide), wsub (main_call24.call0.v0.ref) (by decide), wsub (main_call24.call0.v1.ref) (by decide)⟩

theorem it04Ca_writes : (it04Ca (F := F)).Forall fun op => op.writes ⊆ (it04_W.map (Proc.devRef (τ := τ) .tc)).toFinset :=
  ⟨wsub main_c_28 (by decide), wsub main_v84 (by decide), wsub main_c_29 (by decide), wsub (main_call25.v0.ref) (by decide), wsub (main_call25.v1.ref) (by decide), wsub (main_call25.v2.ref) (by decide), wsub main_c_30 (by decide), wsub main_v86 (by decide), wsub main_v87 (by decide)⟩

theorem it04Cb_writes : (it04Cb (F := F)).Forall fun op => op.writes ⊆ (it04_W.map (Proc.devRef (τ := τ) .tc)).toFinset :=
  ⟨wsub main_c_31 (by decide), wsub main_v88 (by decide), wsub main_v89 (by decide), wsub main_v90 (by decide), wsub main_v91 (by decide), wsub main_c_32 (by decide), wsub main_v92 (by decide), wsub main_v93 (by decide)⟩

theorem it04D_writes : (it04D (F := F)).Forall fun op => op.writes ⊆ (it04_W.map (Proc.devRef (τ := τ) .tc)).toFinset :=
  ⟨wsub (main_call26.call0.c.ref) (by decide), wsub (main_call26.call0.v0.ref) (by decide), wsub (main_call26.call0.v1.ref) (by decide)⟩

theorem it04E_writes : (it04E (F := F)).Forall fun op => op.writes ⊆ (it04_W.map (Proc.devRef (τ := τ) .tc)).toFinset :=
  ⟨wsub main_c_33 (by decide), wsub (main_call27.v0.ref) (by decide), wsub (main_call27.v1.ref) (by decide), wsub (main_call27.v2.ref) (by decide), wsub (main_call27.v3.ref) (by decide), wsub (main_call27.v4.ref) (by decide), wsub (main_call27.v5.ref) (by decide), wsub (main_call27.v6.ref) (by decide), wsub (main_call27.v7.ref) (by decide), wsub (main_call27.c.ref) (by decide), wsub (main_call27.v8.ref) (by decide), wsub (main_call27.v9.ref) (by decide), wsub (main_call27.v10.ref) (by decide), wsub (main_call27.c_0.ref) (by decide), wsub (main_call27.v11.ref) (by decide), wsub (main_call27.v12.ref) (by decide), wsub (main_call27.call0.v0.ref) (by decide)⟩

theorem it04G_writes : (it04G (F := F)).Forall fun op => op.writes ⊆ (it04_W.map (Proc.devRef (τ := τ) .tc)).toFinset :=
  ⟨wsub main_c_34 (by decide), wsub (main_call28.v0.ref) (by decide), wsub (main_call28.c.ref) (by decide), wsub (main_call28.v1.ref) (by decide), wsub (main_call28.c_0.ref) (by decide), wsub (main_call28.call0.v0.ref) (by decide), wsub (main_call28.v3.ref) (by decide), wsub (main_call28.v4.ref) (by decide), wsub (main_call28.c_1.ref) (by decide), wsub (main_call28.v5.ref) (by decide), wsub (main_call28.v6.ref) (by decide), wsub (main_call28.c_2.ref) (by decide), wsub (main_call28.v7.ref) (by decide), wsub (main_call28.v8.ref) (by decide), wsub (main_call28.c_3.ref) (by decide), wsub (main_call28.v9.ref) (by decide), wsub (main_call28.v10.ref) (by decide), wsub (main_call28.v11.ref) (by decide), wsub (main_call28.v12.ref) (by decide), wsub (main_call28.v13.ref) (by decide), wsub (main_call28.v14.ref) (by decide), wsub (main_call28.v15.ref) (by decide)⟩

theorem it04H_writes : (it04H (F := F)).Forall fun op => op.writes ⊆ (it04_W.map (Proc.devRef (τ := τ) .tc)).toFinset :=
  ⟨wsub (main_call29.c.ref) (by decide), wsub (main_call29.v0.ref) (by decide), wsub (main_call29.v1.ref) (by decide), wsub (main_call29.c_0.ref) (by decide), wsub (main_call29.v2.ref) (by decide), wsub (main_call29.v3.ref) (by decide), wsub (main_call29.call0.v0.ref) (by decide), wsub (main_call29.v5.ref) (by decide), wsub (main_call29.c_1.ref) (by decide), wsub (main_call29.c_2.ref) (by decide), wsub (main_call29.v6.ref) (by decide), wsub (main_call29.v7.ref) (by decide), wsub (main_call29.v8.ref) (by decide), wsub (main_call29.v9.ref) (by decide), wsub (main_call29.v10.ref) (by decide), wsub (main_call29.v11.ref) (by decide), wsub (main_call29.c_3.ref) (by decide), wsub (main_call29.v12.ref) (by decide), wsub (main_call29.v13.ref) (by decide), wsub (main_call29.v14.ref) (by decide), wsub (main_call29.cst.ref) (by decide), wsub (main_call29.v15.ref) (by decide), wsub (main_call29.v16.ref) (by decide)⟩

theorem it04hd_writes : (it04hd (F := F)).Forall fun op => op.writes ⊆ (it04_W.map (Proc.devRef (τ := τ) .tc)).toFinset :=
  forall_append it04A_writes (forall_append it04B_writes (forall_append (forall_append it04Ca_writes it04Cb_writes) (forall_append it04D_writes (forall_append it04E_writes it04G_writes))))

theorem it04_writes : (it04 (F := F)).Forall fun op => op.writes ⊆ (it04_W.map (Proc.devRef (τ := τ) .tc)).toFinset :=
  forall_append it04hd_writes (it04H_writes)

/-- The iteration leaves every buffer it does not write as it was. -/
theorem it04_keep (V : Valuation τ sig (Elt F)) (r : Ref sig .tc) (hr : r ∉ it04_W) :
    after (it04 (F := F)) V (Proc.devRef (τ := τ) .tc r) = V (Proc.devRef (τ := τ) .tc r) :=
  after_of_writes_sub it04 V it04_writes hr

theorem it04hd_keep (V : Valuation τ sig (Elt F)) (r : Ref sig .tc) (hr : r ∉ it04_W) :
    after (it04hd (F := F)) V (Proc.devRef (τ := τ) .tc r) = V (Proc.devRef (τ := τ) .tc r) :=
  after_of_writes_sub it04hd V it04hd_writes hr

/-- The iteration's result: the rows of the matrix it is handed at the compacted indices of its mask. -/
theorem it04_res (V : Valuation τ sig (Elt F)) :
    after (it04 (F := F)) V (Proc.devRef (τ := τ) .tc main_v97) = RefFns.nzTake (V (Proc.devRef (τ := τ) .tc main_v7)) (RefFns.colMask (V (Proc.devRef (τ := τ) .tc main_v1)) 4 slices_S1024x32x1_S1024x1x1_0_4_0) := by
  rw [it04, after_append, it04H_val, it04hd_keep V main_v7 (by decide), it04hd]
  simp only [after_append]
  rw [it04G_val, it04E_val, it04D_val, it04C_val, it04B_val, it04A_val]
  rfl

set_option maxRecDepth 65536 in
set_option maxHeartbeats 4000000 in
/-- The invariant of the run survives the iteration, with its block added. -/
theorem it04_step {x : FVec F S1x32x1024 .f32} {V : Valuation τ sig (Elt F)} (hg : Good 4 x V) : Good 5 x (after (it04 (F := F)) V) :=
  good_step 4 (by decide) it04 it04_W slices_S1024x32x1_S1024x1x1_0_4_0 it04_keep it04_res (fun _ => rfl) (by decide +kernel) (by decide +kernel) (by decide +kernel) (by decide +kernel) hg

end Cert.ReferenceIdeal.HandRun

end
-- ==== Proof.RefOpsIt05.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 2 of @main). -/
noncomputable def it05A : List (HloOp τ sig (Elt F)) :=
  [ StableHlo.unary main_v1 main_v98 ((extractStridedSlice S1024x1x1 ![0, 5, 0] · slices_S1024x32x1_S1024x1x1_0_5_0) : (⟨S1024x32x1, .i1⟩ : BufTy).Contents (Elt F) → (⟨S1024x1x1, .i1⟩ : BufTy).Contents (Elt F)),
    StableHlo.reshape main_v98 main_v99 rfl shapeCasts_S1024x1x1_S1024,
    StableHlo.unary main_v99 main_v100 (noti : (⟨S1024, .i1⟩ : BufTy).Contents (Elt F) → (⟨S1024, .i1⟩ : BufTy).Contents (Elt F)) ]

theorem it05A_sub : (it05A (F := F)).Forall fun op => op.bufs ⊆ tcRefs τ sig :=
  ⟨unary_bufs_sub .., reshape_bufs_sub .., unary_bufs_sub ..⟩

theorem it05A_fresh : (it05A (F := F)).Forall fun op => op.fresh = ∅ :=
  ⟨rfl, rfl, rfl⟩

/-- A piece of this stretch (window 2 of @main). -/
noncomputable def it05B : List (HloOp τ sig (Elt F)) :=
  [ StableHlo.TRef.unary (.of main_v100 : StableHlo.TRef sig ⟨S1024, .i1⟩) main_call30.v0 (extui 32 · natLt_1_32),
    StableHlo.TRef.nullary main_call30.call0.c (constantI S_ 32 0#32),
    StableHlo.TRef.unary main_call30.call0.c main_call30.call0.v0 (broadcastInDim S_ ![] bcast_S_S_),
    StableHlo.TRef.binary main_call30.v0 main_call30.call0.v0 main_call30.call0.v1 (fun x v => Host.reduceWindow IntOp.addi ![1024] ![1] ![1023] ![0] x v reduceWindows_S1024_S1024_w1024s1p1023_0 h_S_) ]

theorem it05B_sub : (it05B (F := F)).Forall fun op => op.bufs ⊆ tcRefs τ sig :=
  ⟨unary_bufs_sub .., nullary_bufs_sub .., unary_bufs_sub .., binary_bufs_sub ..⟩

theorem it05B_fresh : (it05B (F := F)).Forall fun op => op.fresh = ∅ :=
  ⟨rfl, rfl, rfl, rfl⟩

/-- A piece of this stretch (window 2 of @main). -/
noncomputable def it05C : List (HloOp τ sig (Elt F)) :=
  [ StableHlo.nullary main_c_35 (constantI S_ 32 0#32),
    StableHlo.unary main_c_35 main_v102 (broadcastInDim S1024 ![] bcast_S_S1024 : (⟨S_, .i32⟩ : BufTy).Contents (Elt F) → (⟨S1024, .i32⟩ : BufTy).Contents (Elt F)),
    StableHlo.nullary main_c_36 (constantI S_ 32 0#32),
    StableHlo.TRef.unary (.of main_c_36 : StableHlo.TRef sig ⟨S_, .i32⟩) main_call31.v0 id,
    StableHlo.TRef.unary main_call31.v0 main_call31.v1 (broadcastInDim S1024 ![] bcast_S_S1024),
    StableHlo.TRef.binary main_call31.v1 (.of main_v101 : StableHlo.TRef sig ⟨S1024, .i32⟩) main_call31.v2 maxsi,
    StableHlo.nullary main_c_37 (constantI S_ 32 0#32),
    StableHlo.unary main_c_37 main_v104 (broadcastInDim S1024 ![] bcast_S_S1024 : (⟨S_, .i32⟩ : BufTy).Contents (Elt F) → (⟨S1024, .i32⟩ : BufTy).Contents (Elt F)),
    StableHlo.binary main_v103 main_v104 main_v105 (cmpi .slt : (⟨S1024, .i32⟩ : BufTy).Contents (Elt F) → (⟨S1024, .i32⟩ : BufTy).Contents (Elt F) → (⟨S1024, .i1⟩ : BufTy).Contents (Elt F)),
    StableHlo.nullary main_c_38 (constantI S_ 32 1024#32),
    StableHlo.unary main_c_38 main_v106 (broadcastInDim S1024 ![] bcast_S_S1024 : (⟨S_, .i32⟩ : BufTy).Contents (Elt F) → (⟨S1024, .i32⟩ : BufTy).Contents (Elt F)),
    StableHlo.binary main_v103 main_v106 main_v107 (addi : (⟨S1024, .i32⟩ : BufTy).Contents (Elt F) → (⟨S1024, .i32⟩ : BufTy).Contents (Elt F) → (⟨S1024, .i32⟩ : BufTy).Contents (Elt F)),
    StableHlo.ternary main_v105 main_v107 main_v103 main_v108 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v108 main_v109 (broadcastInDim S1024x1 ![0] bcast_S1024_S1024x1_0 : (⟨S1024, .i32⟩ : BufTy).Contents (Elt F) → (⟨S1024x1, .i32⟩ : BufTy).Contents (Elt F)),
    StableHlo.nullary main_c_39 (constantI S_ 32 1#32),
    StableHlo.unary main_c_39 main_v110 (broadcastInDim S1024 ![] bcast_S_S1024 : (⟨S_, .i32⟩ : BufTy).Contents (Elt F) → (⟨S1024, .i32⟩ : BufTy).Contents (Elt F)),
    StableHlo.ternary main_v102 main_v109 main_v110 main_v111 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it05C_sub : (it05C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it05C_fresh : (it05C (F := F)).Forall fun op => op.fresh = ∅ :=
  ⟨rfl, rfl, rfl, rfl, rfl, rfl, rfl, rfl, rfl, rfl, rfl, rfl, rfl, rfl, rfl, rfl, rfl⟩

/-- A piece of this stretch (window 2 of @main). -/
noncomputable def it05D : List (HloOp τ sig (Elt F)) :=
  [ StableHlo.TRef.nullary main_call32.call0.c (constantI S_ 32 0#32),
    StableHlo.TRef.unary main_call32.call0.c main_call32.call0.v0 (broadcastInDim S_ ![] bcast_S_S_),
    StableHlo.TRef.binary (.of main_v111 : StableHlo.TRef sig ⟨S1024, .i32⟩) main_call32.call0.v0 main_call32.call0.v1 (fun x v => Host.reduceWindow IntOp.addi ![1024] ![1] ![1023] ![0] x v reduceWindows_S1024_S1024_w1024s1p1023_0 h_S_) ]

theorem it05D_sub : (it05D (F := F)).Forall fun op => op.bufs ⊆ tcRefs τ sig :=
  ⟨nullary_bufs_sub .., unary_bufs_sub .., binary_bufs_sub ..⟩

theorem it05D_fresh : (it05D (F := F)).Forall fun op => op.fresh = ∅ :=
  ⟨rfl, rfl, rfl⟩

/-- A piece of this stretch (window 2 of @main). -/
noncomputable def it05E : List (HloOp τ sig (Elt F)) :=
  [ StableHlo.nullary main_c_40 (constantI S_ 32 1#32),
    StableHlo.TRef.unary (.of main_c_40 : StableHlo.TRef sig ⟨S_, .i32⟩) main_call33.v0 (broadcastInDim S1024 ![] bcast_S_S1024),
    StableHlo.TRef.binary (.of main_v112 : StableHlo.TRef sig ⟨S1024, .i32⟩) main_call33.v0 main_call33.v1 Host.divsi,
    StableHlo.TRef.unary (.of main_v112 : StableHlo.TRef sig ⟨S1024, .i32⟩) main_call33.v2 signi,
    StableHlo.TRef.unary (.of main_c_40 : StableHlo.TRef sig ⟨S_, .i32⟩) main_call33.v3 signi,
    StableHlo.TRef.unary main_call33.v3 main_call33.v4 (broadcastInDim S1024 ![] bcast_S_S1024),
    StableHlo.TRef.binary main_call33.v2 main_call33.v4 main_call33.v5 (cmpi .ne),
    StableHlo.TRef.unary (.of main_c_40 : StableHlo.TRef sig ⟨S_, .i32⟩) main_call33.v6 (broadcastInDim S1024 ![] bcast_S_S1024),
    StableHlo.TRef.binary (.of main_v112 : StableHlo.TRef sig ⟨S1024, .i32⟩) main_call33.v6 main_call33.v7 Host.remsi,
    StableHlo.TRef.nullary main_call33.c (constantI S_ 32 0#32),
    StableHlo.TRef.unary main_call33.c main_call33.v8 (broadcastInDim S1024 ![] bcast_S_S1024),
    StableHlo.TRef.binary main_call33.v7 main_call33.v8 main_call33.v9 (cmpi .ne),
    StableHlo.TRef.binary main_call33.v5 main_call33.v9 main_call33.v10 andi,
    StableHlo.TRef.nullary main_call33.c_0 (constantI S_ 32 1#32),
    StableHlo.TRef.unary main_call33.c_0 main_call33.v11 (broadcastInDim S1024 ![] bcast_S_S1024),
    StableHlo.TRef.binary main_call33.v1 main_call33.v11 main_call33.v12 subi,
    StableHlo.TRef.ternary main_call33.v10 main_call33.v12 main_call33.v1 main_call33.call0.v0 select ]

theorem it05E_sub : (it05E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it05E_fresh : (it05E (F := F)).Forall fun op => op.fresh = ∅ :=
  ⟨rfl, rfl, rfl, rfl, rfl, rfl, rfl, rfl, rfl, rfl, rfl, rfl, rfl, rfl, rfl, rfl, rfl⟩

/-- A piece of this stretch (window 2 of @main). -/
noncomputable def it05G : List (HloOp τ sig (Elt F)) :=
  [ StableHlo.nullary main_c_41 (constantI S_ 32 1024#32),
    StableHlo.TRef.unary (.of main_c_41 : StableHlo.TRef sig ⟨S_, .i32⟩) main_call34.v0 id,
    StableHlo.TRef.nullary main_call34.c (constantI S_ 32 0#32),
    StableHlo.TRef.binary main_call34.v0 main_call34.c main_call34.v1 (cmpi .eq),
    StableHlo.TRef.nullary main_call34.c_0 (constantI S_ 32 1#32),
    StableHlo.TRef.ternary main_call34.v1 main_call34.c_0 main_call34.v0 main_call34.call0.v0 select,
    StableHlo.TRef.unary main_call34.call0.v0 main_call34.v3 (broadcastInDim S1024 ![] bcast_S_S1024),
    StableHlo.TRef.binary (.of main_v113 : StableHlo.TRef sig ⟨S1024, .i32⟩) main_call34.v3 main_call34.v4 Host.remsi,
    StableHlo.TRef.nullary main_call34.c_1 (constantI S_ 32 0#32),
    StableHlo.TRef.unary main_call34.c_1 main_call34.v5 (broadcastInDim S1024 ![] bcast_S_S1024),
    StableHlo.TRef.binary main_call34.v4 main_call34.v5 main_call34.v6 (cmpi .ne),
    StableHlo.TRef.nullary main_call34.c_2 (constantI S_ 32 0#32),
    StableHlo.TRef.unary main_call34.c_2 main_call34.v7 (broadcastInDim S1024 ![] bcast_S_S1024),
    StableHlo.TRef.binary main_call34.v4 main_call34.v7 main_call34.v8 (cmpi .slt),
    StableHlo.TRef.nullary main_call34.c_3 (constantI S_ 32 0#32),
    StableHlo.TRef.binary main_call34.call0.v0 main_call34.c_3 main_call34.v9 (cmpi .slt),
    StableHlo.TRef.unary main_call34.v9 main_call34.v10 (broadcastInDim S1024 ![] bcast_S_S1024),
    StableHlo.TRef.binary main_call34.v8 main_call34.v10 main_call34.v11 (cmpi .ne),
    StableHlo.TRef.binary main_call34.v11 main_call34.v6 main_call34.v12 andi,
    StableHlo.TRef.unary main_call34.call0.v0 main_call34.v13 (broadcastInDim S1024 ![] bcast_S_S1024),
    StableHlo.TRef.binary main_call34.v4 main_call34.v13 main_call34.v14 addi,
    StableHlo.TRef.ternary main_call34.v12 main_call34.v14 main_call34.v4 main_call34.v15 select ]

theorem it05G_sub : (it05G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it05G_fresh : (it05G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 2 of @main). -/
noncomputable def it05H : List (HloOp τ sig (Elt F)) :=
  [ StableHlo.TRef.nullary main_call35.c (constantI S_ 32 0#32),
    StableHlo.TRef.unary main_call35.c main_call35.v0 (broadcastInDim S1024 ![] bcast_S_S1024),
    StableHlo.TRef.binary (.of main_v114 : StableHlo.TRef sig ⟨S1024, .i32⟩) main_call35.v0 main_call35.v1 (cmpi .slt),
    StableHlo.TRef.nullary main_call35.c_0 (constantI S_ 32 1024#32),
    StableHlo.TRef.unary main_call35.c_0 main_call35.v2 (broadcastInDim S1024 ![] bcast_S_S1024),
    StableHlo.TRef.binary (.of main_v114 : StableHlo.TRef sig ⟨S1024, .i32⟩) main_call35.v2 main_call35.v3 addi,
    StableHlo.TRef.ternary main_call35.v1 main_call35.v3 (.of main_v114 : StableHlo.TRef sig ⟨S1024, .i32⟩) main_call35.call0.v0 select,
    StableHlo.TRef.unary main_call35.call0.v0 main_call35.v5 (broadcastInDim S1024x1 ![0] bcast_S1024_S1024x1_0),
    StableHlo.TRef.nullary main_call35.c_1 (constantI S1 32 1023#32),
    StableHlo.TRef.nullary main_call35.c_2 (constantI S_ 32 0#32),
    StableHlo.TRef.unary main_call35.c_2 main_call35.v6 (broadcastInDim S1024x1 ![] bcast_S_S1024x1),
    StableHlo.TRef.binary main_call35.v5 main_call35.v6 main_call35.v7 (cmpi .sge),
    StableHlo.TRef.unary main_call35.c_1 main_call35.v8 (broadcastInDim S1x1 ![1] bcast_S1_S1x1_1),
    StableHlo.TRef.unary main_call35.v8 main_call35.v9 (broadcastInDim S1024x1 ![0, 1] bcast_S1x1_S1024x1_0_1),
    StableHlo.TRef.binary main_call35.v5 main_call35.v9 main_call35.v10 (cmpi .sle),
    StableHlo.TRef.binary main_call35.v7 main_call35.v10 main_call35.v11 andi,
    StableHlo.TRef.nullary main_call35.c_3 (constantI S_ 1 1#1),
    StableHlo.TRef.binary main_call35.v11 main_call35.c_3 main_call35.v12 (fun x v => Host.reduce IntOp.andi x v reducesTo_S1024x1_S1024_d1 h_S_),
    StableHlo.TRef.binary (.of main_v7 : StableHlo.TRef sig ⟨S1024x1024, .f32⟩) main_call35.v5 main_call35.v13 (fun x i => Host.gather gather_S1024x1024_S1024x1_S1024x1024_1_0_n_n_0_1_11024 x i),
    StableHlo.TRef.unary main_call35.v12 main_call35.v14 (broadcastInDim S1024x1024 ![0] bcast_S1024_S1024x1024_0),
    StableHlo.TRef.nullary main_call35.cst (constant S_ .f32 0x7FC00000#32),
    StableHlo.TRef.unary main_call35.cst main_call35.v15 (broadcastInDim S1024x1024 ![] bcast_S_S1024x1024),
    StableHlo.TRef.ternary main_call35.v14 main_call35.v13 main_call35.v15 main_call35.v16 select ]

theorem it05H_sub : (it05H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it05H_fresh : (it05H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it05_W : List (Ref sig .tc) :=
  [main_v98, main_v99, main_v100, (main_call30.v0.ref), (main_call30.call0.c.ref), (main_call30.call0.v0.ref), (main_call30.call0.v1.ref), main_c_35, main_v102, main_c_36, (main_call31.v0.ref), (main_call31.v1.ref), (main_call31.v2.ref), main_c_37, main_v104, main_v105, main_c_38, main_v106, main_v107, main_v108, main_v109, main_c_39, main_v110, main_v111, (main_call32.call0.c.ref), (main_call32.call0.v0.ref), (main_call32.call0.v1.ref), main_c_40, (main_call33.v0.ref), (main_call33.v1.ref), (main_call33.v2.ref), (main_call33.v3.ref), (main_call33.v4.ref), (main_call33.v5.ref), (main_call33.v6.ref), (main_call33.v7.ref), (main_call33.c.ref), (main_call33.v8.ref), (main_call33.v9.ref), (main_call33.v10.ref), (main_call33.c_0.ref), (main_call33.v11.ref), (main_call33.v12.ref), (main_call33.call0.v0.ref), main_c_41, (main_call34.v0.ref), (main_call34.c.ref), (main_call34.v1.ref), (main_call34.c_0.ref), (main_call34.call0.v0.ref), (main_call34.v3.ref), (main_call34.v4.ref), (main_call34.c_1.ref), (main_call34.v5.ref), (main_call34.v6.ref), (main_call34.c_2.ref), (main_call34.v7.ref), (main_call34.v8.ref), (main_call34.c_3.ref), (main_call34.v9.ref), (main_call34.v10.ref), (main_call34.v11.ref), (main_call34.v12.ref), (main_call34.v13.ref), (main_call34.v14.ref), (main_call34.v15.ref), (main_call35.c.ref), (main_call35.v0.ref), (main_call35.v1.ref), (main_call35.c_0.ref), (main_call35.v2.ref), (main_call35.v3.ref), (main_call35.call0.v0.ref), (main_call35.v5.ref), (main_call35.c_1.ref), (main_call35.c_2.ref), (main_call35.v6.ref), (main_call35.v7.ref), (main_call35.v8.ref), (main_call35.v9.ref), (main_call35.v10.ref), (main_call35.v11.ref), (main_call35.c_3.ref), (main_call35.v12.ref), (main_call35.v13.ref), (main_call35.v14.ref), (main_call35.cst.ref), (main_call35.v15.ref), (main_call35.v16.ref)]

/-- The iteration up to the row lookup. -/
noncomputable def it05hd : List (HloOp τ sig (Elt F)) := it05A ++ (it05B ++ (it05C ++ (it05D ++ (it05E ++ it05G))))

/-- The iteration. -/
noncomputable def it05 : List (HloOp τ sig (Elt F)) := it05hd ++ it05H
theorem it05_sub : (it05 (F := F)).Forall fun op => op.bufs ⊆ tcRefs τ sig :=
  forall_append (forall_append it05A_sub (forall_append it05B_sub (forall_append it05C_sub (forall_append it05D_sub (forall_append it05E_sub it05G_sub))))) it05H_sub
theorem it05_fresh : (it05 (F := F)).Forall fun op => op.fresh = ∅ :=
  forall_append (forall_append it05A_fresh (forall_append it05B_fresh (forall_append it05C_fresh (forall_append it05D_fresh (forall_append it05E_fresh it05G_fresh))))) it05H_fresh

/-- The iteration as the concatenation of its pieces. -/
theorem it05_atoms : it05 (F := F) = it05A ++ (it05B ++ (it05C ++ (it05D ++ (it05E ++ (it05G ++ it05H))))) := by
  simp only [it05, it05hd, List.append_assoc]

end Cert.ReferenceIdeal.HandRun

end
-- ==== Proof.RefIt05.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt05

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it05A_val (V : Valuation τ sig (Elt F)) :
    after (it05A (F := F)) V (Proc.devRef (τ := τ) .tc main_v100) = RefFns.colMask (V (Proc.devRef (τ := τ) .tc main_v1)) 5 slices_S1024x32x1_S1024x1x1_0_5_0 := by
  simp only [it05A, List.cons_append, List.nil_append]
  after_results_simp
  try simp only [cast_eq]
  rfl

set_option maxRecDepth 65536 in
set_option maxHeartbeats 1000000 in
theorem it05B_val (V : Valuation τ sig (Elt F)) :
    after (it05B (F := F)) V (Proc.devRef (τ := τ) .tc main_v101) = RefFns.cumsumF (V (Proc.devRef (τ := τ) .tc main_v100)) := by
  simp only [it05B, List.cons_append, List.nil_append]
  after_results_simp
  try simp only [cast_eq]
  rfl

set_option maxRecDepth 65536 in
set_option maxHeartbeats 1000000 in
theorem it05C_val (V : Valuation τ sig (Elt F)) :
    after (it05C (F := F)) V (Proc.devRef (τ := τ) .tc main_v111) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v101)) (constantI S_ 32 0#32)) (broadcastInDim S1024 ![] bcast_S_S1024 (constantI S_ 32 0#32))) (addi (RefFns.clipF (V (Proc.devRef (τ := τ) .tc main_v101)) (constantI S_ 32 0#32)) (broadcastInDim S1024 ![] bcast_S_S1024 (constantI S_ 32 1024#32))) (RefFns.clipF (V (Proc.devRef (τ := τ) .tc main_v101)) (constantI S_ 32 0#32)))) (broadcastInDim S1024 ![] bcast_S_S1024 (constantI S_ 32 1#32)) := by
  simp only [it05C, List.cons_append, List.nil_append]
  after_results_simp
  try simp only [cast_eq]
  rfl

set_option maxRecDepth 65536 in
set_option maxHeartbeats 1000000 in
theorem it05D_val (V : Valuation τ sig (Elt F)) :
    after (it05D (F := F)) V (Proc.devRef (τ := τ) .tc main_v112) = RefFns.cumsum1F (V (Proc.devRef (τ := τ) .tc main_v111)) := by
  simp only [it05D, List.cons_append, List.nil_append]
  after_results_simp
  try simp only [cast_eq]
  rfl

set_option maxRecDepth 65536 in
set_option maxHeartbeats 1000000 in
theorem it05E_val (V : Valuation τ sig (Elt F)) :
    after (it05E (F := F)) V (Proc.devRef (τ := τ) .tc main_v113) = RefFns.floorDivF (V (Proc.devRef (τ := τ) .tc main_v112)) (constantI S_ 32 1#32) := by
  simp only [it05E, List.cons_append, List.nil_append]
  after_results_simp
  try simp only [cast_eq]
  rfl

set_option maxRecDepth 65536 in
set_option maxHeartbeats 1000000 in
theorem it05G_val (V : Valuation τ sig (Elt F)) :
    after (it05G (F := F)) V (Proc.devRef (τ := τ) .tc main_v114) = RefFns.remainderF (V (Proc.devRef (τ := τ) .tc main_v113)) (constantI S_ 32 1024#32) := by
  simp only [it05G, List.cons_append, List.nil_append]
  after_results_simp
  try simp only [cast_eq]
  rfl

set_option maxRecDepth 65536 in
set_option maxHeartbeats 1000000 in
theorem it05H_val (V : Valuation τ sig (Elt F)) :
    after (it05H (F := F)) V (Proc.devRef (τ := τ) .tc main_v115) = RefFns.takeF (V (Proc.devRef (τ := τ) .tc main_v7)) (V (Proc.devRef (τ := τ) .tc main_v114)) := by
  simp only [it05H, List.cons_append, List.nil_append]
  after_results_simp
  try simp only [cast_eq]
  rfl

theorem it05A_writes : (it05A (F := F)).Forall fun op => op.writes ⊆ (it05_W.map (Proc.devRef (τ := τ) .tc)).toFinset :=
  ⟨wsub main_v98 (by decide), wsub main_v99 (by decide), wsub main_v100 (by decide)⟩

theorem it05B_writes : (it05B (F := F)).Forall fun op => op.writes ⊆ (it05_W.map (Proc.devRef (τ := τ) .tc)).toFinset :=
  ⟨wsub (main_call30.v0.ref) (by decide), wsub (main_call30.call0.c.ref) (by decide), wsub (main_call30.call0.v0.ref) (by decide), wsub (main_call30.call0.v1.ref) (by decide)⟩

theorem it05C_writes : (it05C (F := F)).Forall fun op => op.writes ⊆ (it05_W.map (Proc.devRef (τ := τ) .tc)).toFinset :=
  ⟨wsub main_c_35 (by decide), wsub main_v102 (by decide), wsub main_c_36 (by decide), wsub (main_call31.v0.ref) (by decide), wsub (main_call31.v1.ref) (by decide), wsub (main_call31.v2.ref) (by decide), wsub main_c_37 (by decide), wsub main_v104 (by decide), wsub main_v105 (by decide), wsub main_c_38 (by decide), wsub main_v106 (by decide), wsub main_v107 (by decide), wsub main_v108 (by decide), wsub main_v109 (by decide), wsub main_c_39 (by decide), wsub main_v110 (by decide), wsub main_v111 (by decide)⟩

theorem it05D_writes : (it05D (F := F)).Forall fun op => op.writes ⊆ (it05_W.map (Proc.devRef (τ := τ) .tc)).toFinset :=
  ⟨wsub (main_call32.call0.c.ref) (by decide), wsub (main_call32.call0.v0.ref) (by decide), wsub (main_call32.call0.v1.ref) (by decide)⟩

theorem it05E_writes : (it05E (F := F)).Forall fun op => op.writes ⊆ (it05_W.map (Proc.devRef (τ := τ) .tc)).toFinset :=
  ⟨wsub main_c_40 (by decide), wsub (main_call33.v0.ref) (by decide), wsub (main_call33.v1.ref) (by decide), wsub (main_call33.v2.ref) (by decide), wsub (main_call33.v3.ref) (by decide), wsub (main_call33.v4.ref) (by decide), wsub (main_call33.v5.ref) (by decide), wsub (main_call33.v6.ref) (by decide), wsub (main_call33.v7.ref) (by decide), wsub (main_call33.c.ref) (by decide), wsub (main_call33.v8.ref) (by decide), wsub (main_call33.v9.ref) (by decide), wsub (main_call33.v10.ref) (by decide), wsub (main_call33.c_0.ref) (by decide), wsub (main_call33.v11.ref) (by decide), wsub (main_call33.v12.ref) (by decide), wsub (main_call33.call0.v0.ref) (by decide)⟩

theorem it05G_writes : (it05G (F := F)).Forall fun op => op.writes ⊆ (it05_W.map (Proc.devRef (τ := τ) .tc)).toFinset :=
  ⟨wsub main_c_41 (by decide), wsub (main_call34.v0.ref) (by decide), wsub (main_call34.c.ref) (by decide), wsub (main_call34.v1.ref) (by decide), wsub (main_call34.c_0.ref) (by decide), wsub (main_call34.call0.v0.ref) (by decide), wsub (main_call34.v3.ref) (by decide), wsub (main_call34.v4.ref) (by decide), wsub (main_call34.c_1.ref) (by decide), wsub (main_call34.v5.ref) (by decide), wsub (main_call34.v6.ref) (by decide), wsub (main_call34.c_2.ref) (by decide), wsub (main_call34.v7.ref) (by decide), wsub (main_call34.v8.ref) (by decide), wsub (main_call34.c_3.ref) (by decide), wsub (main_call34.v9.ref) (by decide), wsub (main_call34.v10.ref) (by decide), wsub (main_call34.v11.ref) (by decide), wsub (main_call34.v12.ref) (by decide), wsub (main_call34.v13.ref) (by decide), wsub (main_call34.v14.ref) (by decide), wsub (main_call34.v15.ref) (by decide)⟩

theorem it05H_writes : (it05H (F := F)).Forall fun op => op.writes ⊆ (it05_W.map (Proc.devRef (τ := τ) .tc)).toFinset :=
  ⟨wsub (main_call35.c.ref) (by decide), wsub (main_call35.v0.ref) (by decide), wsub (main_call35.v1.ref) (by decide), wsub (main_call35.c_0.ref) (by decide), wsub (main_call35.v2.ref) (by decide), wsub (main_call35.v3.ref) (by decide), wsub (main_call35.call0.v0.ref) (by decide), wsub (main_call35.v5.ref) (by decide), wsub (main_call35.c_1.ref) (by decide), wsub (main_call35.c_2.ref) (by decide), wsub (main_call35.v6.ref) (by decide), wsub (main_call35.v7.ref) (by decide), wsub (main_call35.v8.ref) (by decide), wsub (main_call35.v9.ref) (by decide), wsub (main_call35.v10.ref) (by decide), wsub (main_call35.v11.ref) (by decide), wsub (main_call35.c_3.ref) (by decide), wsub (main_call35.v12.ref) (by decide), wsub (main_call35.v13.ref) (by decide), wsub (main_call35.v14.ref) (by decide), wsub (main_call35.cst.ref) (by decide), wsub (main_call35.v15.ref) (by decide), wsub (main_call35.v16.ref) (by decide)⟩

theorem it05hd_writes : (it05hd (F := F)).Forall fun op => op.writes ⊆ (it05_W.map (Proc.devRef (τ := τ) .tc)).toFinset :=
  forall_append it05A_writes (forall_append it05B_writes (forall_append it05C_writes (forall_append it05D_writes (forall_append it05E_writes it05G_writes))))

theorem it05_writes : (it05 (F := F)).Forall fun op => op.writes ⊆ (it05_W.map (Proc.devRef (τ := τ) .tc)).toFinset :=
  forall_append it05hd_writes (it05H_writes)

/-- The iteration leaves every buffer it does not write as it was. -/
theorem it05_keep (V : Valuation τ sig (Elt F)) (r : Ref sig .tc) (hr : r ∉ it05_W) :
    after (it05 (F := F)) V (Proc.devRef (τ := τ) .tc r) = V (Proc.devRef (τ := τ) .tc r) :=
  after_of_writes_sub it05 V it05_writes hr

theorem it05hd_keep (V : Valuation τ sig (Elt F)) (r : Ref sig .tc) (hr : r ∉ it05_W) :
    after (it05hd (F := F)) V (Proc.devRef (τ := τ) .tc r) = V (Proc.devRef (τ := τ) .tc r) :=
  after_of_writes_sub it05hd V it05hd_writes hr

/-- The iteration's result: the rows of the matrix it is handed at the compacted indices of its mask. -/
theorem it05_res (V : Valuation τ sig (Elt F)) :
    after (it05 (F := F)) V (Proc.devRef (τ := τ) .tc main_v115) = RefFns.nzTake (V (Proc.devRef (τ := τ) .tc main_v7)) (RefFns.colMask (V (Proc.devRef (τ := τ) .tc main_v1)) 5 slices_S1024x32x1_S1024x1x1_0_5_0) := by
  rw [it05, after_append, it05H_val, it05hd_keep V main_v7 (by decide), it05hd]
  simp only [after_append]
  rw [it05G_val, it05E_val, it05D_val, it05C_val, it05B_val, it05A_val]
  rfl

set_option maxRecDepth 65536 in
set_option maxHeartbeats 4000000 in
/-- The invariant of the run survives the iteration, with its block added. -/
theorem it05_step {x : FVec F S1x32x1024 .f32} {V : Valuation τ sig (Elt F)} (hg : Good 5 x V) : Good 6 x (after (it05 (F := F)) V) :=
  good_step 5 (by decide) it05 it05_W slices_S1024x32x1_S1024x1x1_0_5_0 it05_keep it05_res (fun _ => rfl) (by decide +kernel) (by decide +kernel) (by decide +kernel) (by decide +kernel) hg

end Cert.ReferenceIdeal.HandRun

end
-- ==== Proof.RefOpsIt06.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 2 of @main). -/
noncomputable def it06A : List (HloOp τ sig (Elt F)) :=
  [ StableHlo.unary main_v1 main_v116 ((extractStridedSlice S1024x1x1 ![0, 6, 0] · slices_S1024x32x1_S1024x1x1_0_6_0) : (⟨S1024x32x1, .i1⟩ : BufTy).Contents (Elt F) → (⟨S1024x1x1, .i1⟩ : BufTy).Contents (Elt F)),
    StableHlo.reshape main_v116 main_v117 rfl shapeCasts_S1024x1x1_S1024,
    StableHlo.unary main_v117 main_v118 (noti : (⟨S1024, .i1⟩ : BufTy).Contents (Elt F) → (⟨S1024, .i1⟩ : BufTy).Contents (Elt F)) ]

theorem it06A_sub : (it06A (F := F)).Forall fun op => op.bufs ⊆ tcRefs τ sig :=
  ⟨unary_bufs_sub .., reshape_bufs_sub .., unary_bufs_sub ..⟩

theorem it06A_fresh : (it06A (F := F)).Forall fun op => op.fresh = ∅ :=
  ⟨rfl, rfl, rfl⟩

/-- A piece of this stretch (window 2 of @main). -/
noncomputable def it06B : List (HloOp τ sig (Elt F)) :=
  [ StableHlo.TRef.unary (.of main_v118 : StableHlo.TRef sig ⟨S1024, .i1⟩) main_call36.v0 (extui 32 · natLt_1_32),
    StableHlo.TRef.nullary main_call36.call0.c (constantI S_ 32 0#32),
    StableHlo.TRef.unary main_call36.call0.c main_call36.call0.v0 (broadcastInDim S_ ![] bcast_S_S_),
    StableHlo.TRef.binary main_call36.v0 main_call36.call0.v0 main_call36.call0.v1 (fun x v => Host.reduceWindow IntOp.addi ![1024] ![1] ![1023] ![0] x v reduceWindows_S1024_S1024_w1024s1p1023_0 h_S_) ]

theorem it06B_sub : (it06B (F := F)).Forall fun op => op.bufs ⊆ tcRefs τ sig :=
  ⟨unary_bufs_sub .., nullary_bufs_sub .., unary_bufs_sub .., binary_bufs_sub ..⟩

theorem it06B_fresh : (it06B (F := F)).Forall fun op => op.fresh = ∅ :=
  ⟨rfl, rfl, rfl, rfl⟩

/-- A piece of this stretch (window 2 of @main). -/
noncomputable def it06C : List (HloOp τ sig (Elt F)) :=
  [ StableHlo.nullary main_c_42 (constantI S_ 32 0#32),
    StableHlo.unary main_c_42 main_v120 (broadcastInDim S1024 ![] bcast_S_S1024 : (⟨S_, .i32⟩ : BufTy).Contents (Elt F) → (⟨S1024, .i32⟩ : BufTy).Contents (Elt F)),
    StableHlo.nullary main_c_43 (constantI S_ 32 0#32),
    StableHlo.TRef.unary (.of main_c_43 : StableHlo.TRef sig ⟨S_, .i32⟩) main_call37.v0 id,
    StableHlo.TRef.unary main_call37.v0 main_call37.v1 (broadcastInDim S1024 ![] bcast_S_S1024),
    StableHlo.TRef.binary main_call37.v1 (.of main_v119 : StableHlo.TRef sig ⟨S1024, .i32⟩) main_call37.v2 maxsi,
    StableHlo.nullary main_c_44 (constantI S_ 32 0#32),
    StableHlo.unary main_c_44 main_v122 (broadcastInDim S1024 ![] bcast_S_S1024 : (⟨S_, .i32⟩ : BufTy).Contents (Elt F) → (⟨S1024, .i32⟩ : BufTy).Contents (Elt F)),
    StableHlo.binary main_v121 main_v122 main_v123 (cmpi .slt : (⟨S1024, .i32⟩ : BufTy).Contents (Elt F) → (⟨S1024, .i32⟩ : BufTy).Contents (Elt F) → (⟨S1024, .i1⟩ : BufTy).Contents (Elt F)),
    StableHlo.nullary main_c_45 (constantI S_ 32 1024#32),
    StableHlo.unary main_c_45 main_v124 (broadcastInDim S1024 ![] bcast_S_S1024 : (⟨S_, .i32⟩ : BufTy).Contents (Elt F) → (⟨S1024, .i32⟩ : BufTy).Contents (Elt F)),
    StableHlo.binary main_v121 main_v124 main_v125 (addi : (⟨S1024, .i32⟩ : BufTy).Contents (Elt F) → (⟨S1024, .i32⟩ : BufTy).Contents (Elt F) → (⟨S1024, .i32⟩ : BufTy).Contents (Elt F)),
    StableHlo.ternary main_v123 main_v125 main_v121 main_v126 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v126 main_v127 (broadcastInDim S1024x1 ![0] bcast_S1024_S1024x1_0 : (⟨S1024, .i32⟩ : BufTy).Contents (Elt F) → (⟨S1024x1, .i32⟩ : BufTy).Contents (Elt F)),
    StableHlo.nullary main_c_46 (constantI S_ 32 1#32),
    StableHlo.unary main_c_46 main_v128 (broadcastInDim S1024 ![] bcast_S_S1024 : (⟨S_, .i32⟩ : BufTy).Contents (Elt F) → (⟨S1024, .i32⟩ : BufTy).Contents (Elt F)),
    StableHlo.ternary main_v120 main_v127 main_v128 main_v129 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it06C_sub : (it06C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it06C_fresh : (it06C (F := F)).Forall fun op => op.fresh = ∅ :=
  ⟨rfl, rfl, rfl, rfl, rfl, rfl, rfl, rfl, rfl, rfl, rfl, rfl, rfl, rfl, rfl, rfl, rfl⟩

/-- A piece of this stretch (window 2 of @main). -/
noncomputable def it06D : List (HloOp τ sig (Elt F)) :=
  [ StableHlo.TRef.nullary main_call38.call0.c (constantI S_ 32 0#32),
    StableHlo.TRef.unary main_call38.call0.c main_call38.call0.v0 (broadcastInDim S_ ![] bcast_S_S_),
    StableHlo.TRef.binary (.of main_v129 : StableHlo.TRef sig ⟨S1024, .i32⟩) main_call38.call0.v0 main_call38.call0.v1 (fun x v => Host.reduceWindow IntOp.addi ![1024] ![1] ![1023] ![0] x v reduceWindows_S1024_S1024_w1024s1p1023_0 h_S_) ]

theorem it06D_sub : (it06D (F := F)).Forall fun op => op.bufs ⊆ tcRefs τ sig :=
  ⟨nullary_bufs_sub .., unary_bufs_sub .., binary_bufs_sub ..⟩

theorem it06D_fresh : (it06D (F := F)).Forall fun op => op.fresh = ∅ :=
  ⟨rfl, rfl, rfl⟩

/-- A piece of this stretch (window 2 of @main). -/
noncomputable def it06Ea : List (HloOp τ sig (Elt F)) :=
  [ StableHlo.nullary main_c_47 (constantI S_ 32 1#32) ]

theorem it06Ea_sub : (it06Ea (F := F)).Forall fun op => op.bufs ⊆ tcRefs τ sig :=
  nullary_bufs_sub ..

theorem it06Ea_fresh : (it06Ea (F := F)).Forall fun op => op.fresh = ∅ :=
  rfl

/-- A piece of this stretch (window 3 of @main). -/
noncomputable def it06Eb : List (HloOp τ sig (Elt F)) :=
  [ StableHlo.TRef.unary (.of main_c_47 : StableHlo.TRef sig ⟨S_, .i32⟩) main_call39.v0 (broadcastInDim S1024 ![] bcast_S_S1024),
    StableHlo.TRef.binary (.of main_v130 : StableHlo.TRef sig ⟨S1024, .i32⟩) main_call39.v0 main_call39.v1 Host.divsi,
    StableHlo.TRef.unary (.of main_v130 : StableHlo.TRef sig ⟨S1024, .i32⟩) main_call39.v2 signi,
    StableHlo.TRef.unary (.of main_c_47 : StableHlo.TRef sig ⟨S_, .i32⟩) main_call39.v3 signi,
    StableHlo.TRef.unary main_call39.v3 main_call39.v4 (broadcastInDim S1024 ![] bcast_S_S1024),
    StableHlo.TRef.binary main_call39.v2 main_call39.v4 main_call39.v5 (cmpi .ne),
    StableHlo.TRef.unary (.of main_c_47 : StableHlo.TRef sig ⟨S_, .i32⟩) main_call39.v6 (broadcastInDim S1024 ![] bcast_S_S1024),
    StableHlo.TRef.binary (.of main_v130 : StableHlo.TRef sig ⟨S1024, .i32⟩) main_call39.v6 main_call39.v7 Host.remsi,
    StableHlo.TRef.nullary main_call39.c (constantI S_ 32 0#32),
    StableHlo.TRef.unary main_call39.c main_call39.v8 (broadcastInDim S1024 ![] bcast_S_S1024),
    StableHlo.TRef.binary main_call39.v7 main_call39.v8 main_call39.v9 (cmpi .ne),
    StableHlo.TRef.binary main_call39.v5 main_call39.v9 main_call39.v10 andi,
    StableHlo.TRef.nullary main_call39.c_0 (constantI S_ 32 1#32),
    StableHlo.TRef.unary main_call39.c_0 main_call39.v11 (broadcastInDim S1024 ![] bcast_S_S1024),
    StableHlo.TRef.binary main_call39.v1 main_call39.v11 main_call39.v12 subi,
    StableHlo.TRef.ternary main_call39.v10 main_call39.v12 main_call39.v1 main_call39.call0.v0 select ]

theorem it06Eb_sub : (it06Eb (F := F)).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it06Eb_fresh : (it06Eb (F := F)).Forall fun op => op.fresh = ∅ :=
  ⟨rfl, rfl, rfl, rfl, rfl, rfl, rfl, rfl, rfl, rfl, rfl, rfl, rfl, rfl, rfl, rfl⟩

/-- A piece of this stretch (window 3 of @main). -/
noncomputable def it06G : List (HloOp τ sig (Elt F)) :=
  [ StableHlo.nullary main_c_48 (constantI S_ 32 1024#32),
    StableHlo.TRef.unary (.of main_c_48 : StableHlo.TRef sig ⟨S_, .i32⟩) main_call40.v0 id,
    StableHlo.TRef.nullary main_call40.c (constantI S_ 32 0#32),
    StableHlo.TRef.binary main_call40.v0 main_call40.c main_call40.v1 (cmpi .eq),
    StableHlo.TRef.nullary main_call40.c_0 (constantI S_ 32 1#32),
    StableHlo.TRef.ternary main_call40.v1 main_call40.c_0 main_call40.v0 main_call40.call0.v0 select,
    StableHlo.TRef.unary main_call40.call0.v0 main_call40.v3 (broadcastInDim S1024 ![] bcast_S_S1024),
    StableHlo.TRef.binary (.of main_v131 : StableHlo.TRef sig ⟨S1024, .i32⟩) main_call40.v3 main_call40.v4 Host.remsi,
    StableHlo.TRef.nullary main_call40.c_1 (constantI S_ 32 0#32),
    StableHlo.TRef.unary main_call40.c_1 main_call40.v5 (broadcastInDim S1024 ![] bcast_S_S1024),
    StableHlo.TRef.binary main_call40.v4 main_call40.v5 main_call40.v6 (cmpi .ne),
    StableHlo.TRef.nullary main_call40.c_2 (constantI S_ 32 0#32),
    StableHlo.TRef.unary main_call40.c_2 main_call40.v7 (broadcastInDim S1024 ![] bcast_S_S1024),
    StableHlo.TRef.binary main_call40.v4 main_call40.v7 main_call40.v8 (cmpi .slt),
    StableHlo.TRef.nullary main_call40.c_3 (constantI S_ 32 0#32),
    StableHlo.TRef.binary main_call40.call0.v0 main_call40.c_3 main_call40.v9 (cmpi .slt),
    StableHlo.TRef.unary main_call40.v9 main_call40.v10 (broadcastInDim S1024 ![] bcast_S_S1024),
    StableHlo.TRef.binary main_call40.v8 main_call40.v10 main_call40.v11 (cmpi .ne),
    StableHlo.TRef.binary main_call40.v11 main_call40.v6 main_call40.v12 andi,
    StableHlo.TRef.unary main_call40.call0.v0 main_call40.v13 (broadcastInDim S1024 ![] bcast_S_S1024),
    StableHlo.TRef.binary main_call40.v4 main_call40.v13 main_call40.v14 addi,
    StableHlo.TRef.ternary main_call40.v12 main_call40.v14 main_call40.v4 main_call40.v15 select ]

theorem it06G_sub : (it06G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it06G_fresh : (it06G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 3 of @main). -/
noncomputable def it06H : List (HloOp τ sig (Elt F)) :=
  [ StableHlo.TRef.nullary main_call41.c (constantI S_ 32 0#32),
    StableHlo.TRef.unary main_call41.c main_call41.v0 (broadcastInDim S1024 ![] bcast_S_S1024),
    StableHlo.TRef.binary (.of main_v132 : StableHlo.TRef sig ⟨S1024, .i32⟩) main_call41.v0 main_call41.v1 (cmpi .slt),
    StableHlo.TRef.nullary main_call41.c_0 (constantI S_ 32 1024#32),
    StableHlo.TRef.unary main_call41.c_0 main_call41.v2 (broadcastInDim S1024 ![] bcast_S_S1024),
    StableHlo.TRef.binary (.of main_v132 : StableHlo.TRef sig ⟨S1024, .i32⟩) main_call41.v2 main_call41.v3 addi,
    StableHlo.TRef.ternary main_call41.v1 main_call41.v3 (.of main_v132 : StableHlo.TRef sig ⟨S1024, .i32⟩) main_call41.call0.v0 select,
    StableHlo.TRef.unary main_call41.call0.v0 main_call41.v5 (broadcastInDim S1024x1 ![0] bcast_S1024_S1024x1_0),
    StableHlo.TRef.nullary main_call41.c_1 (constantI S1 32 1023#32),
    StableHlo.TRef.nullary main_call41.c_2 (constantI S_ 32 0#32),
    StableHlo.TRef.unary main_call41.c_2 main_call41.v6 (broadcastInDim S1024x1 ![] bcast_S_S1024x1),
    StableHlo.TRef.binary main_call41.v5 main_call41.v6 main_call41.v7 (cmpi .sge),
    StableHlo.TRef.unary main_call41.c_1 main_call41.v8 (broadcastInDim S1x1 ![1] bcast_S1_S1x1_1),
    StableHlo.TRef.unary main_call41.v8 main_call41.v9 (broadcastInDim S1024x1 ![0, 1] bcast_S1x1_S1024x1_0_1),
    StableHlo.TRef.binary main_call41.v5 main_call41.v9 main_call41.v10 (cmpi .sle),
    StableHlo.TRef.binary main_call41.v7 main_call41.v10 main_call41.v11 andi,
    StableHlo.TRef.nullary main_call41.c_3 (constantI S_ 1 1#1),
    StableHlo.TRef.binary main_call41.v11 main_call41.c_3 main_call41.v12 (fun x v => Host.reduce IntOp.andi x v reducesTo_S1024x1_S1024_d1 h_S_),
    StableHlo.TRef.binary (.of main_v7 : StableHlo.TRef sig ⟨S1024x1024, .f32⟩) main_call41.v5 main_call41.v13 (fun x i => Host.gather gather_S1024x1024_S1024x1_S1024x1024_1_0_n_n_0_1_11024 x i),
    StableHlo.TRef.unary main_call41.v12 main_call41.v14 (broadcastInDim S1024x1024 ![0] bcast_S1024_S1024x1024_0),
    StableHlo.TRef.nullary main_call41.cst (constant S_ .f32 0x7FC00000#32),
    StableHlo.TRef.unary main_call41.cst main_call41.v15 (broadcastInDim S1024x1024 ![] bcast_S_S1024x1024),
    StableHlo.TRef.ternary main_call41.v14 main_call41.v13 main_call41.v15 main_call41.v16 select ]

theorem it06H_sub : (it06H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it06H_fresh : (it06H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it06_W : List (Ref sig .tc) :=
  [main_v116, main_v117, main_v118, (main_call36.v0.ref), (main_call36.call0.c.ref), (main_call36.call0.v0.ref), (main_call36.call0.v1.ref), main_c_42, main_v120, main_c_43, (main_call37.v0.ref), (main_call37.v1.ref), (main_call37.v2.ref), main_c_44, main_v122, main_v123, main_c_45, main_v124, main_v125, main_v126, main_v127, main_c_46, main_v128, main_v129, (main_call38.call0.c.ref), (main_call38.call0.v0.ref), (main_call38.call0.v1.ref), main_c_47, (main_call39.v0.ref), (main_call39.v1.ref), (main_call39.v2.ref), (main_call39.v3.ref), (main_call39.v4.ref), (main_call39.v5.ref), (main_call39.v6.ref), (main_call39.v7.ref), (main_call39.c.ref), (main_call39.v8.ref), (main_call39.v9.ref), (main_call39.v10.ref), (main_call39.c_0.ref), (main_call39.v11.ref), (main_call39.v12.ref), (main_call39.call0.v0.ref), main_c_48, (main_call40.v0.ref), (main_call40.c.ref), (main_call40.v1.ref), (main_call40.c_0.ref), (main_call40.call0.v0.ref), (main_call40.v3.ref), (main_call40.v4.ref), (main_call40.c_1.ref), (main_call40.v5.ref), (main_call40.v6.ref), (main_call40.c_2.ref), (main_call40.v7.ref), (main_call40.v8.ref), (main_call40.c_3.ref), (main_call40.v9.ref), (main_call40.v10.ref), (main_call40.v11.ref), (main_call40.v12.ref), (main_call40.v13.ref), (main_call40.v14.ref), (main_call40.v15.ref), (main_call41.c.ref), (main_call41.v0.ref), (main_call41.v1.ref), (main_call41.c_0.ref), (main_call41.v2.ref), (main_call41.v3.ref), (main_call41.call0.v0.ref), (main_call41.v5.ref), (main_call41.c_1.ref), (main_call41.c_2.ref), (main_call41.v6.ref), (main_call41.v7.ref), (main_call41.v8.ref), (main_call41.v9.ref), (main_call41.v10.ref), (main_call41.v11.ref), (main_call41.c_3.ref), (main_call41.v12.ref), (main_call41.v13.ref), (main_call41.v14.ref), (main_call41.cst.ref), (main_call41.v15.ref), (main_call41.v16.ref)]

/-- One stage of the iteration, whole. -/
noncomputable def it06E : List (HloOp τ sig (Elt F)) := it06Ea ++ it06Eb
theorem it06E_sub : (it06E (F := F)).Forall fun op => op.bufs ⊆ tcRefs τ sig :=
  forall_append it06Ea_sub it06Eb_sub
theorem it06E_fresh : (it06E (F := F)).Forall fun op => op.fresh = ∅ :=
  forall_append it06Ea_fresh it06Eb_fresh

/-- The iteration up to the row lookup. -/
noncomputable def it06hd : List (HloOp τ sig (Elt F)) := it06A ++ (it06B ++ (it06C ++ (it06D ++ (it06E ++ it06G))))

/-- The iteration. -/
noncomputable def it06 : List (HloOp τ sig (Elt F)) := it06hd ++ it06H
theorem it06_sub : (it06 (F := F)).Forall fun op => op.bufs ⊆ tcRefs τ sig :=
  forall_append (forall_append it06A_sub (forall_append it06B_sub (forall_append it06C_sub (forall_append it06D_sub (forall_append it06E_sub it06G_sub))))) it06H_sub
theorem it06_fresh : (it06 (F := F)).Forall fun op => op.fresh = ∅ :=
  forall_append (forall_append it06A_fresh (forall_append it06B_fresh (forall_append it06C_fresh (forall_append it06D_fresh (forall_append it06E_fresh it06G_fresh))))) it06H_fresh

/-- The iteration as the concatenation of its pieces. -/
theorem it06_atoms : it06 (F := F) = it06A ++ (it06B ++ (it06C ++ (it06D ++ (it06Ea ++ (it06Eb ++ (it06G ++ it06H)))))) := by
  simp only [it06, it06hd, it06E, List.append_assoc]

end Cert.ReferenceIdeal.HandRun

end
-- ==== Proof.RefIt06.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt06

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it06A_val (V : Valuation τ sig (Elt F)) :
    after (it06A (F := F)) V (Proc.devRef (τ := τ) .tc main_v118) = RefFns.colMask (V (Proc.devRef (τ := τ) .tc main_v1)) 6 slices_S1024x32x1_S1024x1x1_0_6_0 := by
  simp only [it06A, List.cons_append, List.nil_append]
  after_results_simp
  try simp only [cast_eq]
  rfl

set_option maxRecDepth 65536 in
set_option maxHeartbeats 1000000 in
theorem it06B_val (V : Valuation τ sig (Elt F)) :
    after (it06B (F := F)) V (Proc.devRef (τ := τ) .tc main_v119) = RefFns.cumsumF (V (Proc.devRef (τ := τ) .tc main_v118)) := by
  simp only [it06B, List.cons_append, List.nil_append]
  after_results_simp
  try simp only [cast_eq]
  rfl

set_option maxRecDepth 65536 in
set_option maxHeartbeats 1000000 in
theorem it06C_val (V : Valuation τ sig (Elt F)) :
    after (it06C (F := F)) V (Proc.devRef (τ := τ) .tc main_v129) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v119)) (constantI S_ 32 0#32)) (broadcastInDim S1024 ![] bcast_S_S1024 (constantI S_ 32 0#32))) (addi (RefFns.clipF (V (Proc.devRef (τ := τ) .tc main_v119)) (constantI S_ 32 0#32)) (broadcastInDim S1024 ![] bcast_S_S1024 (constantI S_ 32 1024#32))) (RefFns.clipF (V (Proc.devRef (τ := τ) .tc main_v119)) (constantI S_ 32 0#32)))) (broadcastInDim S1024 ![] bcast_S_S1024 (constantI S_ 32 1#32)) := by
  simp only [it06C, List.cons_append, List.nil_append]
  after_results_simp
  try simp only [cast_eq]
  rfl

set_option maxRecDepth 65536 in
set_option maxHeartbeats 1000000 in
theorem it06D_val (V : Valuation τ sig (Elt F)) :
    after (it06D (F := F)) V (Proc.devRef (τ := τ) .tc main_v130) = RefFns.cumsum1F (V (Proc.devRef (τ := τ) .tc main_v129)) := by
  simp only [it06D, List.cons_append, List.nil_append]
  after_results_simp
  try simp only [cast_eq]
  rfl

set_option maxRecDepth 65536 in
set_option maxHeartbeats 1000000 in
theorem it06E_val (V : Valuation τ sig (Elt F)) :
    after (it06E (F := F)) V (Proc.devRef (τ := τ) .tc main_v131) = RefFns.floorDivF (V (Proc.devRef (τ := τ) .tc main_v130)) (constantI S_ 32 1#32) := by
  simp only [it06E, it06Ea, it06Eb, List.cons_append, List.nil_append]
  after_results_simp
  try simp only [cast_eq]
  rfl

set_option maxRecDepth 65536 in
set_option maxHeartbeats 1000000 in
theorem it06G_val (V : Valuation τ sig (Elt F)) :
    after (it06G (F := F)) V (Proc.devRef (τ := τ) .tc main_v132) = RefFns.remainderF (V (Proc.devRef (τ := τ) .tc main_v131)) (constantI S_ 32 1024#32) := by
  simp only [it06G, List.cons_append, List.nil_append]
  after_results_simp
  try simp only [cast_eq]
  rfl

set_option maxRecDepth 65536 in
set_option maxHeartbeats 1000000 in
theorem it06H_val (V : Valuation τ sig (Elt F)) :
    after (it06H (F := F)) V (Proc.devRef (τ := τ) .tc main_v133) = RefFns.takeF (V (Proc.devRef (τ := τ) .tc main_v7)) (V (Proc.devRef (τ := τ) .tc main_v132)) := by
  simp only [it06H, List.cons_append, List.nil_append]
  after_results_simp
  try simp only [cast_eq]
  rfl

theorem it06A_writes : (it06A (F := F)).Forall fun op => op.writes ⊆ (it06_W.map (Proc.devRef (τ := τ) .tc)).toFinset :=
  ⟨wsub main_v116 (by decide), wsub main_v117 (by decide), wsub main_v118 (by decide)⟩

theorem it06B_writes : (it06B (F := F)).Forall fun op => op.writes ⊆ (it06_W.map (Proc.devRef (τ := τ) .tc)).toFinset :=
  ⟨wsub (main_call36.v0.ref) (by decide), wsub (main_call36.call0.c.ref) (by decide), wsub (main_call36.call0.v0.ref) (by decide), wsub (main_call36.call0.v1.ref) (by decide)⟩

theorem it06C_writes : (it06C (F := F)).Forall fun op => op.writes ⊆ (it06_W.map (Proc.devRef (τ := τ) .tc)).toFinset :=
  ⟨wsub main_c_42 (by decide), wsub main_v120 (by decide), wsub main_c_43 (by decide), wsub (main_call37.v0.ref) (by decide), wsub (main_call37.v1.ref) (by decide), wsub (main_call37.v2.ref) (by decide), wsub main_c_44 (by decide), wsub main_v122 (by decide), wsub main_v123 (by decide), wsub main_c_45 (by decide), wsub main_v124 (by decide), wsub main_v125 (by decide), wsub main_v126 (by decide), wsub main_v127 (by decide), wsub main_c_46 (by decide), wsub main_v128 (by decide), wsub main_v129 (by decide)⟩

theorem it06D_writes : (it06D (F := F)).Forall fun op => op.writes ⊆ (it06_W.map (Proc.devRef (τ := τ) .tc)).toFinset :=
  ⟨wsub (main_call38.call0.c.ref) (by decide), wsub (main_call38.call0.v0.ref) (by decide), wsub (main_call38.call0.v1.ref) (by decide)⟩

theorem it06Ea_writes : (it06Ea (F := F)).Forall fun op => op.writes ⊆ (it06_W.map (Proc.devRef (τ := τ) .tc)).toFinset :=
  wsub main_c_47 (by decide)

theorem it06Eb_writes : (it06Eb (F := F)).Forall fun op => op.writes ⊆ (it06_W.map (Proc.devRef (τ := τ) .tc)).toFinset :=
  ⟨wsub (main_call39.v0.ref) (by decide), wsub (main_call39.v1.ref) (by decide), wsub (main_call39.v2.ref) (by decide), wsub (main_call39.v3.ref) (by decide), wsub (main_call39.v4.ref) (by decide), wsub (main_call39.v5.ref) (by decide), wsub (main_call39.v6.ref) (by decide), wsub (main_call39.v7.ref) (by decide), wsub (main_call39.c.ref) (by decide), wsub (main_call39.v8.ref) (by decide), wsub (main_call39.v9.ref) (by decide), wsub (main_call39.v10.ref) (by decide), wsub (main_call39.c_0.ref) (by decide), wsub (main_call39.v11.ref) (by decide), wsub (main_call39.v12.ref) (by decide), wsub (main_call39.call0.v0.ref) (by decide)⟩

theorem it06G_writes : (it06G (F := F)).Forall fun op => op.writes ⊆ (it06_W.map (Proc.devRef (τ := τ) .tc)).toFinset :=
  ⟨wsub main_c_48 (by decide), wsub (main_call40.v0.ref) (by decide), wsub (main_call40.c.ref) (by decide), wsub (main_call40.v1.ref) (by decide), wsub (main_call40.c_0.ref) (by decide), wsub (main_call40.call0.v0.ref) (by decide), wsub (main_call40.v3.ref) (by decide), wsub (main_call40.v4.ref) (by decide), wsub (main_call40.c_1.ref) (by decide), wsub (main_call40.v5.ref) (by decide), wsub (main_call40.v6.ref) (by decide), wsub (main_call40.c_2.ref) (by decide), wsub (main_call40.v7.ref) (by decide), wsub (main_call40.v8.ref) (by decide), wsub (main_call40.c_3.ref) (by decide), wsub (main_call40.v9.ref) (by decide), wsub (main_call40.v10.ref) (by decide), wsub (main_call40.v11.ref) (by decide), wsub (main_call40.v12.ref) (by decide), wsub (main_call40.v13.ref) (by decide), wsub (main_call40.v14.ref) (by decide), wsub (main_call40.v15.ref) (by decide)⟩

theorem it06H_writes : (it06H (F := F)).Forall fun op => op.writes ⊆ (it06_W.map (Proc.devRef (τ := τ) .tc)).toFinset :=
  ⟨wsub (main_call41.c.ref) (by decide), wsub (main_call41.v0.ref) (by decide), wsub (main_call41.v1.ref) (by decide), wsub (main_call41.c_0.ref) (by decide), wsub (main_call41.v2.ref) (by decide), wsub (main_call41.v3.ref) (by decide), wsub (main_call41.call0.v0.ref) (by decide), wsub (main_call41.v5.ref) (by decide), wsub (main_call41.c_1.ref) (by decide), wsub (main_call41.c_2.ref) (by decide), wsub (main_call41.v6.ref) (by decide), wsub (main_call41.v7.ref) (by decide), wsub (main_call41.v8.ref) (by decide), wsub (main_call41.v9.ref) (by decide), wsub (main_call41.v10.ref) (by decide), wsub (main_call41.v11.ref) (by decide), wsub (main_call41.c_3.ref) (by decide), wsub (main_call41.v12.ref) (by decide), wsub (main_call41.v13.ref) (by decide), wsub (main_call41.v14.ref) (by decide), wsub (main_call41.cst.ref) (by decide), wsub (main_call41.v15.ref) (by decide), wsub (main_call41.v16.ref) (by decide)⟩

theorem it06hd_writes : (it06hd (F := F)).Forall fun op => op.writes ⊆ (it06_W.map (Proc.devRef (τ := τ) .tc)).toFinset :=
  forall_append it06A_writes (forall_append it06B_writes (forall_append it06C_writes (forall_append it06D_writes (forall_append (forall_append it06Ea_writes it06Eb_writes) it06G_writes))))

theorem it06_writes : (it06 (F := F)).Forall fun op => op.writes ⊆ (it06_W.map (Proc.devRef (τ := τ) .tc)).toFinset :=
  forall_append it06hd_writes (it06H_writes)

/-- The iteration leaves every buffer it does not write as it was. -/
theorem it06_keep (V : Valuation τ sig (Elt F)) (r : Ref sig .tc) (hr : r ∉ it06_W) :
    after (it06 (F := F)) V (Proc.devRef (τ := τ) .tc r) = V (Proc.devRef (τ := τ) .tc r) :=
  after_of_writes_sub it06 V it06_writes hr

theorem it06hd_keep (V : Valuation τ sig (Elt F)) (r : Ref sig .tc) (hr : r ∉ it06_W) :
    after (it06hd (F := F)) V (Proc.devRef (τ := τ) .tc r) = V (Proc.devRef (τ := τ) .tc r) :=
  after_of_writes_sub it06hd V it06hd_writes hr

/-- The iteration's result: the rows of the matrix it is handed at the compacted indices of its mask. -/
theorem it06_res (V : Valuation τ sig (Elt F)) :
    after (it06 (F := F)) V (Proc.devRef (τ := τ) .tc main_v133) = RefFns.nzTake (V (Proc.devRef (τ := τ) .tc main_v7)) (RefFns.colMask (V (Proc.devRef (τ := τ) .tc main_v1)) 6 slices_S1024x32x1_S1024x1x1_0_6_0) := by
  rw [it06, after_append, it06H_val, it06hd_keep V main_v7 (by decide), it06hd]
  simp only [after_append]
  rw [it06G_val, it06E_val, it06D_val, it06C_val, it06B_val, it06A_val]
  rfl

set_option maxRecDepth 65536 in
set_option maxHeartbeats 4000000 in
/-- The invariant of the run survives the iteration, with its block added. -/
theorem it06_step {x : FVec F S1x32x1024 .f32} {V : Valuation τ sig (Elt F)} (hg : Good 6 x V) : Good 7 x (after (it06 (F := F)) V) :=
  good_step 6 (by decide) it06 it06_W slices_S1024x32x1_S1024x1x1_0_6_0 it06_keep it06_res (fun _ => rfl) (by decide +kernel) (by decide +kernel) (by decide +kernel) (by decide +kernel) hg

end Cert.ReferenceIdeal.HandRun

end
-- ==== Proof.RefOpsIt07.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 3 of @main). -/
noncomputable def it07A : List (HloOp τ sig (Elt F)) :=
  [ StableHlo.unary main_v1 main_v134 ((extractStridedSlice S1024x1x1 ![0, 7, 0] · slices_S1024x32x1_S1024x1x1_0_7_0) : (⟨S1024x32x1, .i1⟩ : BufTy).Contents (Elt F) → (⟨S1024x1x1, .i1⟩ : BufTy).Contents (Elt F)),
    StableHlo.reshape main_v134 main_v135 rfl shapeCasts_S1024x1x1_S1024,
    StableHlo.unary main_v135 main_v136 (noti : (⟨S1024, .i1⟩ : BufTy).Contents (Elt F) → (⟨S1024, .i1⟩ : BufTy).Contents (Elt F)) ]

theorem it07A_sub : (it07A (F := F)).Forall fun op => op.bufs ⊆ tcRefs τ sig :=
  ⟨unary_bufs_sub .., reshape_bufs_sub .., unary_bufs_sub ..⟩

theorem it07A_fresh : (it07A (F := F)).Forall fun op => op.fresh = ∅ :=
  ⟨rfl, rfl, rfl⟩

/-- A piece of this stretch (window 3 of @main). -/
noncomputable def it07B : List (HloOp τ sig (Elt F)) :=
  [ StableHlo.TRef.unary (.of main_v136 : StableHlo.TRef sig ⟨S1024, .i1⟩) main_call42.v0 (extui 32 · natLt_1_32),
    StableHlo.TRef.nullary main_call42.call0.c (constantI S_ 32 0#32),
    StableHlo.TRef.unary main_call42.call0.c main_call42.call0.v0 (broadcastInDim S_ ![] bcast_S_S_),
    StableHlo.TRef.binary main_call42.v0 main_call42.call0.v0 main_call42.call0.v1 (fun x v => Host.reduceWindow IntOp.addi ![1024] ![1] ![1023] ![0] x v reduceWindows_S1024_S1024_w1024s1p1023_0 h_S_) ]

theorem it07B_sub : (it07B (F := F)).Forall fun op => op.bufs ⊆ tcRefs τ sig :=
  ⟨unary_bufs_sub .., nullary_bufs_sub .., unary_bufs_sub .., binary_bufs_sub ..⟩

theorem it07B_fresh : (it07B (F := F)).Forall fun op => op.fresh = ∅ :=
  ⟨rfl, rfl, rfl, rfl⟩

/-- A piece of this stretch (window 3 of @main). -/
noncomputable def it07C : List (HloOp τ sig (Elt F)) :=
  [ StableHlo.nullary main_c_49 (constantI S_ 32 0#32),
    StableHlo.unary main_c_49 main_v138 (broadcastInDim S1024 ![] bcast_S_S1024 : (⟨S_, .i32⟩ : BufTy).Contents (Elt F) → (⟨S1024, .i32⟩ : BufTy).Contents (Elt F)),
    StableHlo.nullary main_c_50 (constantI S_ 32 0#32),
    StableHlo.TRef.unary (.of main_c_50 : StableHlo.TRef sig ⟨S_, .i32⟩) main_call43.v0 id,
    StableHlo.TRef.unary main_call43.v0 main_call43.v1 (broadcastInDim S1024 ![] bcast_S_S1024),
    StableHlo.TRef.binary main_call43.v1 (.of main_v137 : StableHlo.TRef sig ⟨S1024, .i32⟩) main_call43.v2 maxsi,
    StableHlo.nullary main_c_51 (constantI S_ 32 0#32),
    StableHlo.unary main_c_51 main_v140 (broadcastInDim S1024 ![] bcast_S_S1024 : (⟨S_, .i32⟩ : BufTy).Contents (Elt F) → (⟨S1024, .i32⟩ : BufTy).Contents (Elt F)),
    StableHlo.binary main_v139 main_v140 main_v141 (cmpi .slt : (⟨S1024, .i32⟩ : BufTy).Contents (Elt F) → (⟨S1024, .i32⟩ : BufTy).Contents (Elt F) → (⟨S1024, .i1⟩ : BufTy).Contents (Elt F)),
    StableHlo.nullary main_c_52 (constantI S_ 32 1024#32),
    StableHlo.unary main_c_52 main_v142 (broadcastInDim S1024 ![] bcast_S_S1024 : (⟨S_, .i32⟩ : BufTy).Contents (Elt F) → (⟨S1024, .i32⟩ : BufTy).Contents (Elt F)),
    StableHlo.binary main_v139 main_v142 main_v143 (addi : (⟨S1024, .i32⟩ : BufTy).Contents (Elt F) → (⟨S1024, .i32⟩ : BufTy).Contents (Elt F) → (⟨S1024, .i32⟩ : BufTy).Contents (Elt F)),
    StableHlo.ternary main_v141 main_v143 main_v139 main_v144 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v144 main_v145 (broadcastInDim S1024x1 ![0] bcast_S1024_S1024x1_0 : (⟨S1024, .i32⟩ : BufTy).Contents (Elt F) → (⟨S1024x1, .i32⟩ : BufTy).Contents (Elt F)),
    StableHlo.nullary main_c_53 (constantI S_ 32 1#32),
    StableHlo.unary main_c_53 main_v146 (broadcastInDim S1024 ![] bcast_S_S1024 : (⟨S_, .i32⟩ : BufTy).Contents (Elt F) → (⟨S1024, .i32⟩ : BufTy).Contents (Elt F)),
    StableHlo.ternary main_v138 main_v145 main_v146 main_v147 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it07C_sub : (it07C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it07C_fresh : (it07C (F := F)).Forall fun op => op.fresh = ∅ :=
  ⟨rfl, rfl, rfl, rfl, rfl, rfl, rfl, rfl, rfl, rfl, rfl, rfl, rfl, rfl, rfl, rfl, rfl⟩

/-- A piece of this stretch (window 3 of @main). -/
noncomputable def it07D : List (HloOp τ sig (Elt F)) :=
  [ StableHlo.TRef.nullary main_call44.call0.c (constantI S_ 32 0#32),
    StableHlo.TRef.unary main_call44.call0.c main_call44.call0.v0 (broadcastInDim S_ ![] bcast_S_S_),
    StableHlo.TRef.binary (.of main_v147 : StableHlo.TRef sig ⟨S1024, .i32⟩) main_call44.call0.v0 main_call44.call0.v1 (fun x v => Host.reduceWindow IntOp.addi ![1024] ![1] ![1023] ![0] x v reduceWindows_S1024_S1024_w1024s1p1023_0 h_S_) ]

theorem it07D_sub : (it07D (F := F)).Forall fun op => op.bufs ⊆ tcRefs τ sig :=
  ⟨nullary_bufs_sub .., unary_bufs_sub .., binary_bufs_sub ..⟩

theorem it07D_fresh : (it07D (F := F)).Forall fun op => op.fresh = ∅ :=
  ⟨rfl, rfl, rfl⟩

/-- A piece of this stretch (window 3 of @main). -/
noncomputable def it07E : List (HloOp τ sig (Elt F)) :=
  [ StableHlo.nullary main_c_54 (constantI S_ 32 1#32),
    StableHlo.TRef.unary (.of main_c_54 : StableHlo.TRef sig ⟨S_, .i32⟩) main_call45.v0 (broadcastInDim S1024 ![] bcast_S_S1024),
    StableHlo.TRef.binary (.of main_v148 : StableHlo.TRef sig ⟨S1024, .i32⟩) main_call45.v0 main_call45.v1 Host.divsi,
    StableHlo.TRef.unary (.of main_v148 : StableHlo.TRef sig ⟨S1024, .i32⟩) main_call45.v2 signi,
    StableHlo.TRef.unary (.of main_c_54 : StableHlo.TRef sig ⟨S_, .i32⟩) main_call45.v3 signi,
    StableHlo.TRef.unary main_call45.v3 main_call45.v4 (broadcastInDim S1024 ![] bcast_S_S1024),
    StableHlo.TRef.binary main_call45.v2 main_call45.v4 main_call45.v5 (cmpi .ne),
    StableHlo.TRef.unary (.of main_c_54 : StableHlo.TRef sig ⟨S_, .i32⟩) main_call45.v6 (broadcastInDim S1024 ![] bcast_S_S1024),
    StableHlo.TRef.binary (.of main_v148 : StableHlo.TRef sig ⟨S1024, .i32⟩) main_call45.v6 main_call45.v7 Host.remsi,
    StableHlo.TRef.nullary main_call45.c (constantI S_ 32 0#32),
    StableHlo.TRef.unary main_call45.c main_call45.v8 (broadcastInDim S1024 ![] bcast_S_S1024),
    StableHlo.TRef.binary main_call45.v7 main_call45.v8 main_call45.v9 (cmpi .ne),
    StableHlo.TRef.binary main_call45.v5 main_call45.v9 main_call45.v10 andi,
    StableHlo.TRef.nullary main_call45.c_0 (constantI S_ 32 1#32),
    StableHlo.TRef.unary main_call45.c_0 main_call45.v11 (broadcastInDim S1024 ![] bcast_S_S1024),
    StableHlo.TRef.binary main_call45.v1 main_call45.v11 main_call45.v12 subi,
    StableHlo.TRef.ternary main_call45.v10 main_call45.v12 main_call45.v1 main_call45.call0.v0 select ]

theorem it07E_sub : (it07E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it07E_fresh : (it07E (F := F)).Forall fun op => op.fresh = ∅ :=
  ⟨rfl, rfl, rfl, rfl, rfl, rfl, rfl, rfl, rfl, rfl, rfl, rfl, rfl, rfl, rfl, rfl, rfl⟩

/-- A piece of this stretch (window 3 of @main). -/
noncomputable def it07G : List (HloOp τ sig (Elt F)) :=
  [ StableHlo.nullary main_c_55 (constantI S_ 32 1024#32),
    StableHlo.TRef.unary (.of main_c_55 : StableHlo.TRef sig ⟨S_, .i32⟩) main_call46.v0 id,
    StableHlo.TRef.nullary main_call46.c (constantI S_ 32 0#32),
    StableHlo.TRef.binary main_call46.v0 main_call46.c main_call46.v1 (cmpi .eq),
    StableHlo.TRef.nullary main_call46.c_0 (constantI S_ 32 1#32),
    StableHlo.TRef.ternary main_call46.v1 main_call46.c_0 main_call46.v0 main_call46.call0.v0 select,
    StableHlo.TRef.unary main_call46.call0.v0 main_call46.v3 (broadcastInDim S1024 ![] bcast_S_S1024),
    StableHlo.TRef.binary (.of main_v149 : StableHlo.TRef sig ⟨S1024, .i32⟩) main_call46.v3 main_call46.v4 Host.remsi,
    StableHlo.TRef.nullary main_call46.c_1 (constantI S_ 32 0#32),
    StableHlo.TRef.unary main_call46.c_1 main_call46.v5 (broadcastInDim S1024 ![] bcast_S_S1024),
    StableHlo.TRef.binary main_call46.v4 main_call46.v5 main_call46.v6 (cmpi .ne),
    StableHlo.TRef.nullary main_call46.c_2 (constantI S_ 32 0#32),
    StableHlo.TRef.unary main_call46.c_2 main_call46.v7 (broadcastInDim S1024 ![] bcast_S_S1024),
    StableHlo.TRef.binary main_call46.v4 main_call46.v7 main_call46.v8 (cmpi .slt),
    StableHlo.TRef.nullary main_call46.c_3 (constantI S_ 32 0#32),
    StableHlo.TRef.binary main_call46.call0.v0 main_call46.c_3 main_call46.v9 (cmpi .slt),
    StableHlo.TRef.unary main_call46.v9 main_call46.v10 (broadcastInDim S1024 ![] bcast_S_S1024),
    StableHlo.TRef.binary main_call46.v8 main_call46.v10 main_call46.v11 (cmpi .ne),
    StableHlo.TRef.binary main_call46.v11 main_call46.v6 main_call46.v12 andi,
    StableHlo.TRef.unary main_call46.call0.v0 main_call46.v13 (broadcastInDim S1024 ![] bcast_S_S1024),
    StableHlo.TRef.binary main_call46.v4 main_call46.v13 main_call46.v14 addi,
    StableHlo.TRef.ternary main_call46.v12 main_call46.v14 main_call46.v4 main_call46.v15 select ]

theorem it07G_sub : (it07G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it07G_fresh : (it07G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 3 of @main). -/
noncomputable def it07H : List (HloOp τ sig (Elt F)) :=
  [ StableHlo.TRef.nullary main_call47.c (constantI S_ 32 0#32),
    StableHlo.TRef.unary main_call47.c main_call47.v0 (broadcastInDim S1024 ![] bcast_S_S1024),
    StableHlo.TRef.binary (.of main_v150 : StableHlo.TRef sig ⟨S1024, .i32⟩) main_call47.v0 main_call47.v1 (cmpi .slt),
    StableHlo.TRef.nullary main_call47.c_0 (constantI S_ 32 1024#32),
    StableHlo.TRef.unary main_call47.c_0 main_call47.v2 (broadcastInDim S1024 ![] bcast_S_S1024),
    StableHlo.TRef.binary (.of main_v150 : StableHlo.TRef sig ⟨S1024, .i32⟩) main_call47.v2 main_call47.v3 addi,
    StableHlo.TRef.ternary main_call47.v1 main_call47.v3 (.of main_v150 : StableHlo.TRef sig ⟨S1024, .i32⟩) main_call47.call0.v0 select,
    StableHlo.TRef.unary main_call47.call0.v0 main_call47.v5 (broadcastInDim S1024x1 ![0] bcast_S1024_S1024x1_0),
    StableHlo.TRef.nullary main_call47.c_1 (constantI S1 32 1023#32),
    StableHlo.TRef.nullary main_call47.c_2 (constantI S_ 32 0#32),
    StableHlo.TRef.unary main_call47.c_2 main_call47.v6 (broadcastInDim S1024x1 ![] bcast_S_S1024x1),
    StableHlo.TRef.binary main_call47.v5 main_call47.v6 main_call47.v7 (cmpi .sge),
    StableHlo.TRef.unary main_call47.c_1 main_call47.v8 (broadcastInDim S1x1 ![1] bcast_S1_S1x1_1),
    StableHlo.TRef.unary main_call47.v8 main_call47.v9 (broadcastInDim S1024x1 ![0, 1] bcast_S1x1_S1024x1_0_1),
    StableHlo.TRef.binary main_call47.v5 main_call47.v9 main_call47.v10 (cmpi .sle),
    StableHlo.TRef.binary main_call47.v7 main_call47.v10 main_call47.v11 andi,
    StableHlo.TRef.nullary main_call47.c_3 (constantI S_ 1 1#1),
    StableHlo.TRef.binary main_call47.v11 main_call47.c_3 main_call47.v12 (fun x v => Host.reduce IntOp.andi x v reducesTo_S1024x1_S1024_d1 h_S_),
    StableHlo.TRef.binary (.of main_v7 : StableHlo.TRef sig ⟨S1024x1024, .f32⟩) main_call47.v5 main_call47.v13 (fun x i => Host.gather gather_S1024x1024_S1024x1_S1024x1024_1_0_n_n_0_1_11024 x i),
    StableHlo.TRef.unary main_call47.v12 main_call47.v14 (broadcastInDim S1024x1024 ![0] bcast_S1024_S1024x1024_0),
    StableHlo.TRef.nullary main_call47.cst (constant S_ .f32 0x7FC00000#32),
    StableHlo.TRef.unary main_call47.cst main_call47.v15 (broadcastInDim S1024x1024 ![] bcast_S_S1024x1024),
    StableHlo.TRef.ternary main_call47.v14 main_call47.v13 main_call47.v15 main_call47.v16 select ]

theorem it07H_sub : (it07H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it07H_fresh : (it07H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it07_W : List (Ref sig .tc) :=
  [main_v134, main_v135, main_v136, (main_call42.v0.ref), (main_call42.call0.c.ref), (main_call42.call0.v0.ref), (main_call42.call0.v1.ref), main_c_49, main_v138, main_c_50, (main_call43.v0.ref), (main_call43.v1.ref), (main_call43.v2.ref), main_c_51, main_v140, main_v141, main_c_52, main_v142, main_v143, main_v144, main_v145, main_c_53, main_v146, main_v147, (main_call44.call0.c.ref), (main_call44.call0.v0.ref), (main_call44.call0.v1.ref), main_c_54, (main_call45.v0.ref), (main_call45.v1.ref), (main_call45.v2.ref), (main_call45.v3.ref), (main_call45.v4.ref), (main_call45.v5.ref), (main_call45.v6.ref), (main_call45.v7.ref), (main_call45.c.ref), (main_call45.v8.ref), (main_call45.v9.ref), (main_call45.v10.ref), (main_call45.c_0.ref), (main_call45.v11.ref), (main_call45.v12.ref), (main_call45.call0.v0.ref), main_c_55, (main_call46.v0.ref), (main_call46.c.ref), (main_call46.v1.ref), (main_call46.c_0.ref), (main_call46.call0.v0.ref), (main_call46.v3.ref), (main_call46.v4.ref), (main_call46.c_1.ref), (main_call46.v5.ref), (main_call46.v6.ref), (main_call46.c_2.ref), (main_call46.v7.ref), (main_call46.v8.ref), (main_call46.c_3.ref), (main_call46.v9.ref), (main_call46.v10.ref), (main_call46.v11.ref), (main_call46.v12.ref), (main_call46.v13.ref), (main_call46.v14.ref), (main_call46.v15.ref), (main_call47.c.ref), (main_call47.v0.ref), (main_call47.v1.ref), (main_call47.c_0.ref), (main_call47.v2.ref), (main_call47.v3.ref), (main_call47.call0.v0.ref), (main_call47.v5.ref), (main_call47.c_1.ref), (main_call47.c_2.ref), (main_call47.v6.ref), (main_call47.v7.ref), (main_call47.v8.ref), (main_call47.v9.ref), (main_call47.v10.ref), (main_call47.v11.ref), (main_call47.c_3.ref), (main_call47.v12.ref), (main_call47.v13.ref), (main_call47.v14.ref), (main_call47.cst.ref), (main_call47.v15.ref), (main_call47.v16.ref)]

/-- The iteration up to the row lookup. -/
noncomputable def it07hd : List (HloOp τ sig (Elt F)) := it07A ++ (it07B ++ (it07C ++ (it07D ++ (it07E ++ it07G))))

/-- The iteration. -/
noncomputable def it07 : List (HloOp τ sig (Elt F)) := it07hd ++ it07H
theorem it07_sub : (it07 (F := F)).Forall fun op => op.bufs ⊆ tcRefs τ sig :=
  forall_append (forall_append it07A_sub (forall_append it07B_sub (forall_append it07C_sub (forall_append it07D_sub (forall_append it07E_sub it07G_sub))))) it07H_sub
theorem it07_fresh : (it07 (F := F)).Forall fun op => op.fresh = ∅ :=
  forall_append (forall_append it07A_fresh (forall_append it07B_fresh (forall_append it07C_fresh (forall_append it07D_fresh (forall_append it07E_fresh it07G_fresh))))) it07H_fresh

/-- The iteration as the concatenation of its pieces. -/
theorem it07_atoms : it07 (F := F) = it07A ++ (it07B ++ (it07C ++ (it07D ++ (it07E ++ (it07G ++ it07H))))) := by
  simp only [it07, it07hd, List.append_assoc]

end Cert.ReferenceIdeal.HandRun

end
-- ==== Proof.RefIt07.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt07

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it07A_val (V : Valuation τ sig (Elt F)) :
    after (it07A (F := F)) V (Proc.devRef (τ := τ) .tc main_v136) = RefFns.colMask (V (Proc.devRef (τ := τ) .tc main_v1)) 7 slices_S1024x32x1_S1024x1x1_0_7_0 := by
  simp only [it07A, List.cons_append, List.nil_append]
  after_results_simp
  try simp only [cast_eq]
  rfl

set_option maxRecDepth 65536 in
set_option maxHeartbeats 1000000 in
theorem it07B_val (V : Valuation τ sig (Elt F)) :
    after (it07B (F := F)) V (Proc.devRef (τ := τ) .tc main_v137) = RefFns.cumsumF (V (Proc.devRef (τ := τ) .tc main_v136)) := by
  simp only [it07B, List.cons_append, List.nil_append]
  after_results_simp
  try simp only [cast_eq]
  rfl

set_option maxRecDepth 65536 in
set_option maxHeartbeats 1000000 in
theorem it07C_val (V : Valuation τ sig (Elt F)) :
    after (it07C (F := F)) V (Proc.devRef (τ := τ) .tc main_v147) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v137)) (constantI S_ 32 0#32)) (broadcastInDim S1024 ![] bcast_S_S1024 (constantI S_ 32 0#32))) (addi (RefFns.clipF (V (Proc.devRef (τ := τ) .tc main_v137)) (constantI S_ 32 0#32)) (broadcastInDim S1024 ![] bcast_S_S1024 (constantI S_ 32 1024#32))) (RefFns.clipF (V (Proc.devRef (τ := τ) .tc main_v137)) (constantI S_ 32 0#32)))) (broadcastInDim S1024 ![] bcast_S_S1024 (constantI S_ 32 1#32)) := by
  simp only [it07C, List.cons_append, List.nil_append]
  after_results_simp
  try simp only [cast_eq]
  rfl

set_option maxRecDepth 65536 in
set_option maxHeartbeats 1000000 in
theorem it07D_val (V : Valuation τ sig (Elt F)) :
    after (it07D (F := F)) V (Proc.devRef (τ := τ) .tc main_v148) = RefFns.cumsum1F (V (Proc.devRef (τ := τ) .tc main_v147)) := by
  simp only [it07D, List.cons_append, List.nil_append]
  after_results_simp
  try simp only [cast_eq]
  rfl

set_option maxRecDepth 65536 in
set_option maxHeartbeats 1000000 in
theorem it07E_val (V : Valuation τ sig (Elt F)) :
    after (it07E (F := F)) V (Proc.devRef (τ := τ) .tc main_v149) = RefFns.floorDivF (V (Proc.devRef (τ := τ) .tc main_v148)) (constantI S_ 32 1#32) := by
  simp only [it07E, List.cons_append, List.nil_append]
  after_results_simp
  try simp only [cast_eq]
  rfl

set_option maxRecDepth 65536 in
set_option maxHeartbeats 1000000 in
theorem it07G_val (V : Valuation τ sig (Elt F)) :
    after (it07G (F := F)) V (Proc.devRef (τ := τ) .tc main_v150) = RefFns.remainderF (V (Proc.devRef (τ := τ) .tc main_v149)) (constantI S_ 32 1024#32) := by
  simp only [it07G, List.cons_append, List.nil_append]
  after_results_simp
  try simp only [cast_eq]
  rfl

set_option maxRecDepth 65536 in
set_option maxHeartbeats 1000000 in
theorem it07H_val (V : Valuation τ sig (Elt F)) :
    after (it07H (F := F)) V (Proc.devRef (τ := τ) .tc main_v151) = RefFns.takeF (V (Proc.devRef (τ := τ) .tc main_v7)) (V (Proc.devRef (τ := τ) .tc main_v150)) := by
  simp only [it07H, List.cons_append, List.nil_append]
  after_results_simp
  try simp only [cast_eq]
  rfl

theorem it07A_writes : (it07A (F := F)).Forall fun op => op.writes ⊆ (it07_W.map (Proc.devRef (τ := τ) .tc)).toFinset :=
  ⟨wsub main_v134 (by decide), wsub main_v135 (by decide), wsub main_v136 (by decide)⟩

theorem it07B_writes : (it07B (F := F)).Forall fun op => op.writes ⊆ (it07_W.map (Proc.devRef (τ := τ) .tc)).toFinset :=
  ⟨wsub (main_call42.v0.ref) (by decide), wsub (main_call42.call0.c.ref) (by decide), wsub (main_call42.call0.v0.ref) (by decide), wsub (main_call42.call0.v1.ref) (by decide)⟩

theorem it07C_writes : (it07C (F := F)).Forall fun op => op.writes ⊆ (it07_W.map (Proc.devRef (τ := τ) .tc)).toFinset :=
  ⟨wsub main_c_49 (by decide), wsub main_v138 (by decide), wsub main_c_50 (by decide), wsub (main_call43.v0.ref) (by decide), wsub (main_call43.v1.ref) (by decide), wsub (main_call43.v2.ref) (by decide), wsub main_c_51 (by decide), wsub main_v140 (by decide), wsub main_v141 (by decide), wsub main_c_52 (by decide), wsub main_v142 (by decide), wsub main_v143 (by decide), wsub main_v144 (by decide), wsub main_v145 (by decide), wsub main_c_53 (by decide), wsub main_v146 (by decide), wsub main_v147 (by decide)⟩

theorem it07D_writes : (it07D (F := F)).Forall fun op => op.writes ⊆ (it07_W.map (Proc.devRef (τ := τ) .tc)).toFinset :=
  ⟨wsub (main_call44.call0.c.ref) (by decide), wsub (main_call44.call0.v0.ref) (by decide), wsub (main_call44.call0.v1.ref) (by decide)⟩

theorem it07E_writes : (it07E (F := F)).Forall fun op => op.writes ⊆ (it07_W.map (Proc.devRef (τ := τ) .tc)).toFinset :=
  ⟨wsub main_c_54 (by decide), wsub (main_call45.v0.ref) (by decide), wsub (main_call45.v1.ref) (by decide), wsub (main_call45.v2.ref) (by decide), wsub (main_call45.v3.ref) (by decide), wsub (main_call45.v4.ref) (by decide), wsub (main_call45.v5.ref) (by decide), wsub (main_call45.v6.ref) (by decide), wsub (main_call45.v7.ref) (by decide), wsub (main_call45.c.ref) (by decide), wsub (main_call45.v8.ref) (by decide), wsub (main_call45.v9.ref) (by decide), wsub (main_call45.v10.ref) (by decide), wsub (main_call45.c_0.ref) (by decide), wsub (main_call45.v11.ref) (by decide), wsub (main_call45.v12.ref) (by decide), wsub (main_call45.call0.v0.ref) (by decide)⟩

theorem it07G_writes : (it07G (F := F)).Forall fun op => op.writes ⊆ (it07_W.map (Proc.devRef (τ := τ) .tc)).toFinset :=
  ⟨wsub main_c_55 (by decide), wsub (main_call46.v0.ref) (by decide), wsub (main_call46.c.ref) (by decide), wsub (main_call46.v1.ref) (by decide), wsub (main_call46.c_0.ref) (by decide), wsub (main_call46.call0.v0.ref) (by decide), wsub (main_call46.v3.ref) (by decide), wsub (main_call46.v4.ref) (by decide), wsub (main_call46.c_1.ref) (by decide), wsub (main_call46.v5.ref) (by decide), wsub (main_call46.v6.ref) (by decide), wsub (main_call46.c_2.ref) (by decide), wsub (main_call46.v7.ref) (by decide), wsub (main_call46.v8.ref) (by decide), wsub (main_call46.c_3.ref) (by decide), wsub (main_call46.v9.ref) (by decide), wsub (main_call46.v10.ref) (by decide), wsub (main_call46.v11.ref) (by decide), wsub (main_call46.v12.ref) (by decide), wsub (main_call46.v13.ref) (by decide), wsub (main_call46.v14.ref) (by decide), wsub (main_call46.v15.ref) (by decide)⟩

theorem it07H_writes : (it07H (F := F)).Forall fun op => op.writes ⊆ (it07_W.map (Proc.devRef (τ := τ) .tc)).toFinset :=
  ⟨wsub (main_call47.c.ref) (by decide), wsub (main_call47.v0.ref) (by decide), wsub (main_call47.v1.ref) (by decide), wsub (main_call47.c_0.ref) (by decide), wsub (main_call47.v2.ref) (by decide), wsub (main_call47.v3.ref) (by decide), wsub (main_call47.call0.v0.ref) (by decide), wsub (main_call47.v5.ref) (by decide), wsub (main_call47.c_1.ref) (by decide), wsub (main_call47.c_2.ref) (by decide), wsub (main_call47.v6.ref) (by decide), wsub (main_call47.v7.ref) (by decide), wsub (main_call47.v8.ref) (by decide), wsub (main_call47.v9.ref) (by decide), wsub (main_call47.v10.ref) (by decide), wsub (main_call47.v11.ref) (by decide), wsub (main_call47.c_3.ref) (by decide), wsub (main_call47.v12.ref) (by decide), wsub (main_call47.v13.ref) (by decide), wsub (main_call47.v14.ref) (by decide), wsub (main_call47.cst.ref) (by decide), wsub (main_call47.v15.ref) (by decide), wsub (main_call47.v16.ref) (by decide)⟩

theorem it07hd_writes : (it07hd (F := F)).Forall fun op => op.writes ⊆ (it07_W.map (Proc.devRef (τ := τ) .tc)).toFinset :=
  forall_append it07A_writes (forall_append it07B_writes (forall_append it07C_writes (forall_append it07D_writes (forall_append it07E_writes it07G_writes))))

theorem it07_writes : (it07 (F := F)).Forall fun op => op.writes ⊆ (it07_W.map (Proc.devRef (τ := τ) .tc)).toFinset :=
  forall_append it07hd_writes (it07H_writes)

/-- The iteration leaves every buffer it does not write as it was. -/
theorem it07_keep (V : Valuation τ sig (Elt F)) (r : Ref sig .tc) (hr : r ∉ it07_W) :
    after (it07 (F := F)) V (Proc.devRef (τ := τ) .tc r) = V (Proc.devRef (τ := τ) .tc r) :=
  after_of_writes_sub it07 V it07_writes hr

theorem it07hd_keep (V : Valuation τ sig (Elt F)) (r : Ref sig .tc) (hr : r ∉ it07_W) :
    after (it07hd (F := F)) V (Proc.devRef (τ := τ) .tc r) = V (Proc.devRef (τ := τ) .tc r) :=
  after_of_writes_sub it07hd V it07hd_writes hr

/-- The iteration's result: the rows of the matrix it is handed at the compacted indices of its mask. -/
theorem it07_res (V : Valuation τ sig (Elt F)) :
    after (it07 (F := F)) V (Proc.devRef (τ := τ) .tc main_v151) = RefFns.nzTake (V (Proc.devRef (τ := τ) .tc main_v7)) (RefFns.colMask (V (Proc.devRef (τ := τ) .tc main_v1)) 7 slices_S1024x32x1_S1024x1x1_0_7_0) := by
  rw [it07, after_append, it07H_val, it07hd_keep V main_v7 (by decide), it07hd]
  simp only [after_append]
  rw [it07G_val, it07E_val, it07D_val, it07C_val, it07B_val, it07A_val]
  rfl

set_option maxRecDepth 65536 in
set_option maxHeartbeats 4000000 in
/-- The invariant of the run survives the iteration, with its block added. -/
theorem it07_step {x : FVec F S1x32x1024 .f32} {V : Valuation τ sig (Elt F)} (hg : Good 7 x V) : Good 8 x (after (it07 (F := F)) V) :=
  good_step 7 (by decide) it07 it07_W slices_S1024x32x1_S1024x1x1_0_7_0 it07_keep it07_res (fun _ => rfl) (by decide +kernel) (by decide +kernel) (by decide +kernel) (by decide +kernel) hg

end Cert.ReferenceIdeal.HandRun

end
-- ==== Proof.RefOpsIt08.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 3 of @main). -/
noncomputable def it08A : List (HloOp τ sig (Elt F)) :=
  [ StableHlo.unary main_v1 main_v152 ((extractStridedSlice S1024x1x1 ![0, 8, 0] · slices_S1024x32x1_S1024x1x1_0_8_0) : (⟨S1024x32x1, .i1⟩ : BufTy).Contents (Elt F) → (⟨S1024x1x1, .i1⟩ : BufTy).Contents (Elt F)),
    StableHlo.reshape main_v152 main_v153 rfl shapeCasts_S1024x1x1_S1024,
    StableHlo.unary main_v153 main_v154 (noti : (⟨S1024, .i1⟩ : BufTy).Contents (Elt F) → (⟨S1024, .i1⟩ : BufTy).Contents (Elt F)) ]

theorem it08A_sub : (it08A (F := F)).Forall fun op => op.bufs ⊆ tcRefs τ sig :=
  ⟨unary_bufs_sub .., reshape_bufs_sub .., unary_bufs_sub ..⟩

theorem it08A_fresh : (it08A (F := F)).Forall fun op => op.fresh = ∅ :=
  ⟨rfl, rfl, rfl⟩

/-- A piece of this stretch (window 3 of @main). -/
noncomputable def it08B : List (HloOp τ sig (Elt F)) :=
  [ StableHlo.TRef.unary (.of main_v154 : StableHlo.TRef sig ⟨S1024, .i1⟩) main_call48.v0 (extui 32 · natLt_1_32),
    StableHlo.TRef.nullary main_call48.call0.c (constantI S_ 32 0#32),
    StableHlo.TRef.unary main_call48.call0.c main_call48.call0.v0 (broadcastInDim S_ ![] bcast_S_S_),
    StableHlo.TRef.binary main_call48.v0 main_call48.call0.v0 main_call48.call0.v1 (fun x v => Host.reduceWindow IntOp.addi ![1024] ![1] ![1023] ![0] x v reduceWindows_S1024_S1024_w1024s1p1023_0 h_S_) ]

theorem it08B_sub : (it08B (F := F)).Forall fun op => op.bufs ⊆ tcRefs τ sig :=
  ⟨unary_bufs_sub .., nullary_bufs_sub .., unary_bufs_sub .., binary_bufs_sub ..⟩

theorem it08B_fresh : (it08B (F := F)).Forall fun op => op.fresh = ∅ :=
  ⟨rfl, rfl, rfl, rfl⟩

/-- A piece of this stretch (window 3 of @main). -/
noncomputable def it08C : List (HloOp τ sig (Elt F)) :=
  [ StableHlo.nullary main_c_56 (constantI S_ 32 0#32),
    StableHlo.unary main_c_56 main_v156 (broadcastInDim S1024 ![] bcast_S_S1024 : (⟨S_, .i32⟩ : BufTy).Contents (Elt F) → (⟨S1024, .i32⟩ : BufTy).Contents (Elt F)),
    StableHlo.nullary main_c_57 (constantI S_ 32 0#32),
    StableHlo.TRef.unary (.of main_c_57 : StableHlo.TRef sig ⟨S_, .i32⟩) main_call49.v0 id,
    StableHlo.TRef.unary main_call49.v0 main_call49.v1 (broadcastInDim S1024 ![] bcast_S_S1024),
    StableHlo.TRef.binary main_call49.v1 (.of main_v155 : StableHlo.TRef sig ⟨S1024, .i32⟩) main_call49.v2 maxsi,
    StableHlo.nullary main_c_58 (constantI S_ 32 0#32),
    StableHlo.unary main_c_58 main_v158 (broadcastInDim S1024 ![] bcast_S_S1024 : (⟨S_, .i32⟩ : BufTy).Contents (Elt F) → (⟨S1024, .i32⟩ : BufTy).Contents (Elt F)),
    StableHlo.binary main_v157 main_v158 main_v159 (cmpi .slt : (⟨S1024, .i32⟩ : BufTy).Contents (Elt F) → (⟨S1024, .i32⟩ : BufTy).Contents (Elt F) → (⟨S1024, .i1⟩ : BufTy).Contents (Elt F)),
    StableHlo.nullary main_c_59 (constantI S_ 32 1024#32),
    StableHlo.unary main_c_59 main_v160 (broadcastInDim S1024 ![] bcast_S_S1024 : (⟨S_, .i32⟩ : BufTy).Contents (Elt F) → (⟨S1024, .i32⟩ : BufTy).Contents (Elt F)),
    StableHlo.binary main_v157 main_v160 main_v161 (addi : (⟨S1024, .i32⟩ : BufTy).Contents (Elt F) → (⟨S1024, .i32⟩ : BufTy).Contents (Elt F) → (⟨S1024, .i32⟩ : BufTy).Contents (Elt F)),
    StableHlo.ternary main_v159 main_v161 main_v157 main_v162 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v162 main_v163 (broadcastInDim S1024x1 ![0] bcast_S1024_S1024x1_0 : (⟨S1024, .i32⟩ : BufTy).Contents (Elt F) → (⟨S1024x1, .i32⟩ : BufTy).Contents (Elt F)),
    StableHlo.nullary main_c_60 (constantI S_ 32 1#32),
    StableHlo.unary main_c_60 main_v164 (broadcastInDim S1024 ![] bcast_S_S1024 : (⟨S_, .i32⟩ : BufTy).Contents (Elt F) → (⟨S1024, .i32⟩ : BufTy).Contents (Elt F)),
    StableHlo.ternary main_v156 main_v163 main_v164 main_v165 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it08C_sub : (it08C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it08C_fresh : (it08C (F := F)).Forall fun op => op.fresh = ∅ :=
  ⟨rfl, rfl, rfl, rfl, rfl, rfl, rfl, rfl, rfl, rfl, rfl, rfl, rfl, rfl, rfl, rfl, rfl⟩

/-- A piece of this stretch (window 3 of @main). -/
noncomputable def it08D : List (HloOp τ sig (Elt F)) :=
  [ StableHlo.TRef.nullary main_call50.call0.c (constantI S_ 32 0#32),
    StableHlo.TRef.unary main_call50.call0.c main_call50.call0.v0 (broadcastInDim S_ ![] bcast_S_S_),
    StableHlo.TRef.binary (.of main_v165 : StableHlo.TRef sig ⟨S1024, .i32⟩) main_call50.call0.v0 main_call50.call0.v1 (fun x v => Host.reduceWindow IntOp.addi ![1024] ![1] ![1023] ![0] x v reduceWindows_S1024_S1024_w1024s1p1023_0 h_S_) ]

theorem it08D_sub : (it08D (F := F)).Forall fun op => op.bufs ⊆ tcRefs τ sig :=
  ⟨nullary_bufs_sub .., unary_bufs_sub .., binary_bufs_sub ..⟩

theorem it08D_fresh : (it08D (F := F)).Forall fun op => op.fresh = ∅ :=
  ⟨rfl, rfl, rfl⟩

/-- A piece of this stretch (window 3 of @main). -/
noncomputable def it08E : List (HloOp τ sig (Elt F)) :=
  [ StableHlo.nullary main_c_61 (constantI S_ 32 1#32),
    StableHlo.TRef.unary (.of main_c_61 : StableHlo.TRef sig ⟨S_, .i32⟩) main_call51.v0 (broadcastInDim S1024 ![] bcast_S_S1024),
    StableHlo.TRef.binary (.of main_v166 : StableHlo.TRef sig ⟨S1024, .i32⟩) main_call51.v0 main_call51.v1 Host.divsi,
    StableHlo.TRef.unary (.of main_v166 : StableHlo.TRef sig ⟨S1024, .i32⟩) main_call51.v2 signi,
    StableHlo.TRef.unary (.of main_c_61 : StableHlo.TRef sig ⟨S_, .i32⟩) main_call51.v3 signi,
    StableHlo.TRef.unary main_call51.v3 main_call51.v4 (broadcastInDim S1024 ![] bcast_S_S1024),
    StableHlo.TRef.binary main_call51.v2 main_call51.v4 main_call51.v5 (cmpi .ne),
    StableHlo.TRef.unary (.of main_c_61 : StableHlo.TRef sig ⟨S_, .i32⟩) main_call51.v6 (broadcastInDim S1024 ![] bcast_S_S1024),
    StableHlo.TRef.binary (.of main_v166 : StableHlo.TRef sig ⟨S1024, .i32⟩) main_call51.v6 main_call51.v7 Host.remsi,
    StableHlo.TRef.nullary main_call51.c (constantI S_ 32 0#32),
    StableHlo.TRef.unary main_call51.c main_call51.v8 (broadcastInDim S1024 ![] bcast_S_S1024),
    StableHlo.TRef.binary main_call51.v7 main_call51.v8 main_call51.v9 (cmpi .ne),
    StableHlo.TRef.binary main_call51.v5 main_call51.v9 main_call51.v10 andi,
    StableHlo.TRef.nullary main_call51.c_0 (constantI S_ 32 1#32),
    StableHlo.TRef.unary main_call51.c_0 main_call51.v11 (broadcastInDim S1024 ![] bcast_S_S1024),
    StableHlo.TRef.binary main_call51.v1 main_call51.v11 main_call51.v12 subi,
    StableHlo.TRef.ternary main_call51.v10 main_call51.v12 main_call51.v1 main_call51.call0.v0 select ]

theorem it08E_sub : (it08E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it08E_fresh : (it08E (F := F)).Forall fun op => op.fresh = ∅ :=
  ⟨rfl, rfl, rfl, rfl, rfl, rfl, rfl, rfl, rfl, rfl, rfl, rfl, rfl, rfl, rfl, rfl, rfl⟩

/-- A piece of this stretch (window 3 of @main). -/
noncomputable def it08G : List (HloOp τ sig (Elt F)) :=
  [ StableHlo.nullary main_c_62 (constantI S_ 32 1024#32),
    StableHlo.TRef.unary (.of main_c_62 : StableHlo.TRef sig ⟨S_, .i32⟩) main_call52.v0 id,
    StableHlo.TRef.nullary main_call52.c (constantI S_ 32 0#32),
    StableHlo.TRef.binary main_call52.v0 main_call52.c main_call52.v1 (cmpi .eq),
    StableHlo.TRef.nullary main_call52.c_0 (constantI S_ 32 1#32),
    StableHlo.TRef.ternary main_call52.v1 main_call52.c_0 main_call52.v0 main_call52.call0.v0 select,
    StableHlo.TRef.unary main_call52.call0.v0 main_call52.v3 (broadcastInDim S1024 ![] bcast_S_S1024),
    StableHlo.TRef.binary (.of main_v167 : StableHlo.TRef sig ⟨S1024, .i32⟩) main_call52.v3 main_call52.v4 Host.remsi,
    StableHlo.TRef.nullary main_call52.c_1 (constantI S_ 32 0#32),
    StableHlo.TRef.unary main_call52.c_1 main_call52.v5 (broadcastInDim S1024 ![] bcast_S_S1024),
    StableHlo.TRef.binary main_call52.v4 main_call52.v5 main_call52.v6 (cmpi .ne),
    StableHlo.TRef.nullary main_call52.c_2 (constantI S_ 32 0#32),
    StableHlo.TRef.unary main_call52.c_2 main_call52.v7 (broadcastInDim S1024 ![] bcast_S_S1024),
    StableHlo.TRef.binary main_call52.v4 main_call52.v7 main_call52.v8 (cmpi .slt),
    StableHlo.TRef.nullary main_call52.c_3 (constantI S_ 32 0#32),
    StableHlo.TRef.binary main_call52.call0.v0 main_call52.c_3 main_call52.v9 (cmpi .slt),
    StableHlo.TRef.unary main_call52.v9 main_call52.v10 (broadcastInDim S1024 ![] bcast_S_S1024),
    StableHlo.TRef.binary main_call52.v8 main_call52.v10 main_call52.v11 (cmpi .ne),
    StableHlo.TRef.binary main_call52.v11 main_call52.v6 main_call52.v12 andi,
    StableHlo.TRef.unary main_call52.call0.v0 main_call52.v13 (broadcastInDim S1024 ![] bcast_S_S1024),
    StableHlo.TRef.binary main_call52.v4 main_call52.v13 main_call52.v14 addi,
    StableHlo.TRef.ternary main_call52.v12 main_call52.v14 main_call52.v4 main_call52.v15 select ]

theorem it08G_sub : (it08G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it08G_fresh : (it08G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 3 of @main). -/
noncomputable def it08H : List (HloOp τ sig (Elt F)) :=
  [ StableHlo.TRef.nullary main_call53.c (constantI S_ 32 0#32),
    StableHlo.TRef.unary main_call53.c main_call53.v0 (broadcastInDim S1024 ![] bcast_S_S1024),
    StableHlo.TRef.binary (.of main_v168 : StableHlo.TRef sig ⟨S1024, .i32⟩) main_call53.v0 main_call53.v1 (cmpi .slt),
    StableHlo.TRef.nullary main_call53.c_0 (constantI S_ 32 1024#32),
    StableHlo.TRef.unary main_call53.c_0 main_call53.v2 (broadcastInDim S1024 ![] bcast_S_S1024),
    StableHlo.TRef.binary (.of main_v168 : StableHlo.TRef sig ⟨S1024, .i32⟩) main_call53.v2 main_call53.v3 addi,
    StableHlo.TRef.ternary main_call53.v1 main_call53.v3 (.of main_v168 : StableHlo.TRef sig ⟨S1024, .i32⟩) main_call53.call0.v0 select,
    StableHlo.TRef.unary main_call53.call0.v0 main_call53.v5 (broadcastInDim S1024x1 ![0] bcast_S1024_S1024x1_0),
    StableHlo.TRef.nullary main_call53.c_1 (constantI S1 32 1023#32),
    StableHlo.TRef.nullary main_call53.c_2 (constantI S_ 32 0#32),
    StableHlo.TRef.unary main_call53.c_2 main_call53.v6 (broadcastInDim S1024x1 ![] bcast_S_S1024x1),
    StableHlo.TRef.binary main_call53.v5 main_call53.v6 main_call53.v7 (cmpi .sge),
    StableHlo.TRef.unary main_call53.c_1 main_call53.v8 (broadcastInDim S1x1 ![1] bcast_S1_S1x1_1),
    StableHlo.TRef.unary main_call53.v8 main_call53.v9 (broadcastInDim S1024x1 ![0, 1] bcast_S1x1_S1024x1_0_1),
    StableHlo.TRef.binary main_call53.v5 main_call53.v9 main_call53.v10 (cmpi .sle),
    StableHlo.TRef.binary main_call53.v7 main_call53.v10 main_call53.v11 andi,
    StableHlo.TRef.nullary main_call53.c_3 (constantI S_ 1 1#1),
    StableHlo.TRef.binary main_call53.v11 main_call53.c_3 main_call53.v12 (fun x v => Host.reduce IntOp.andi x v reducesTo_S1024x1_S1024_d1 h_S_),
    StableHlo.TRef.binary (.of main_v7 : StableHlo.TRef sig ⟨S1024x1024, .f32⟩) main_call53.v5 main_call53.v13 (fun x i => Host.gather gather_S1024x1024_S1024x1_S1024x1024_1_0_n_n_0_1_11024 x i),
    StableHlo.TRef.unary main_call53.v12 main_call53.v14 (broadcastInDim S1024x1024 ![0] bcast_S1024_S1024x1024_0),
    StableHlo.TRef.nullary main_call53.cst (constant S_ .f32 0x7FC00000#32),
    StableHlo.TRef.unary main_call53.cst main_call53.v15 (broadcastInDim S1024x1024 ![] bcast_S_S1024x1024),
    StableHlo.TRef.ternary main_call53.v14 main_call53.v13 main_call53.v15 main_call53.v16 select ]

theorem it08H_sub : (it08H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it08H_fresh : (it08H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it08_W : List (Ref sig .tc) :=
  [main_v152, main_v153, main_v154, (main_call48.v0.ref), (main_call48.call0.c.ref), (main_call48.call0.v0.ref), (main_call48.call0.v1.ref), main_c_56, main_v156, main_c_57, (main_call49.v0.ref), (main_call49.v1.ref), (main_call49.v2.ref), main_c_58, main_v158, main_v159, main_c_59, main_v160, main_v161, main_v162, main_v163, main_c_60, main_v164, main_v165, (main_call50.call0.c.ref), (main_call50.call0.v0.ref), (main_call50.call0.v1.ref), main_c_61, (main_call51.v0.ref), (main_call51.v1.ref), (main_call51.v2.ref), (main_call51.v3.ref), (main_call51.v4.ref), (main_call51.v5.ref), (main_call51.v6.ref), (main_call51.v7.ref), (main_call51.c.ref), (main_call51.v8.ref), (main_call51.v9.ref), (main_call51.v10.ref), (main_call51.c_0.ref), (main_call51.v11.ref), (main_call51.v12.ref), (main_call51.call0.v0.ref), main_c_62, (main_call52.v0.ref), (main_call52.c.ref), (main_call52.v1.ref), (main_call52.c_0.ref), (main_call52.call0.v0.ref), (main_call52.v3.ref), (main_call52.v4.ref), (main_call52.c_1.ref), (main_call52.v5.ref), (main_call52.v6.ref), (main_call52.c_2.ref), (main_call52.v7.ref), (main_call52.v8.ref), (main_call52.c_3.ref), (main_call52.v9.ref), (main_call52.v10.ref), (main_call52.v11.ref), (main_call52.v12.ref), (main_call52.v13.ref), (main_call52.v14.ref), (main_call52.v15.ref), (main_call53.c.ref), (main_call53.v0.ref), (main_call53.v1.ref), (main_call53.c_0.ref), (main_call53.v2.ref), (main_call53.v3.ref), (main_call53.call0.v0.ref), (main_call53.v5.ref), (main_call53.c_1.ref), (main_call53.c_2.ref), (main_call53.v6.ref), (main_call53.v7.ref), (main_call53.v8.ref), (main_call53.v9.ref), (main_call53.v10.ref), (main_call53.v11.ref), (main_call53.c_3.ref), (main_call53.v12.ref), (main_call53.v13.ref), (main_call53.v14.ref), (main_call53.cst.ref), (main_call53.v15.ref), (main_call53.v16.ref)]

/-- The iteration up to the row lookup. -/
noncomputable def it08hd : List (HloOp τ sig (Elt F)) := it08A ++ (it08B ++ (it08C ++ (it08D ++ (it08E ++ it08G))))

/-- The iteration. -/
noncomputable def it08 : List (HloOp τ sig (Elt F)) := it08hd ++ it08H
theorem it08_sub : (it08 (F := F)).Forall fun op => op.bufs ⊆ tcRefs τ sig :=
  forall_append (forall_append it08A_sub (forall_append it08B_sub (forall_append it08C_sub (forall_append it08D_sub (forall_append it08E_sub it08G_sub))))) it08H_sub
theorem it08_fresh : (it08 (F := F)).Forall fun op => op.fresh = ∅ :=
  forall_append (forall_append it08A_fresh (forall_append it08B_fresh (forall_append it08C_fresh (forall_append it08D_fresh (forall_append it08E_fresh it08G_fresh))))) it08H_fresh

/-- The iteration as the concatenation of its pieces. -/
theorem it08_atoms : it08 (F := F) = it08A ++ (it08B ++ (it08C ++ (it08D ++ (it08E ++ (it08G ++ it08H))))) := by
  simp only [it08, it08hd, List.append_assoc]

end Cert.ReferenceIdeal.HandRun

end
-- ==== Proof.RefIt08.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt08

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it08A_val (V : Valuation τ sig (Elt F)) :
    after (it08A (F := F)) V (Proc.devRef (τ := τ) .tc main_v154) = RefFns.colMask (V (Proc.devRef (τ := τ) .tc main_v1)) 8 slices_S1024x32x1_S1024x1x1_0_8_0 := by
  simp only [it08A, List.cons_append, List.nil_append]
  after_results_simp
  try simp only [cast_eq]
  rfl

set_option maxRecDepth 65536 in
set_option maxHeartbeats 1000000 in
theorem it08B_val (V : Valuation τ sig (Elt F)) :
    after (it08B (F := F)) V (Proc.devRef (τ := τ) .tc main_v155) = RefFns.cumsumF (V (Proc.devRef (τ := τ) .tc main_v154)) := by
  simp only [it08B, List.cons_append, List.nil_append]
  after_results_simp
  try simp only [cast_eq]
  rfl

set_option maxRecDepth 65536 in
set_option maxHeartbeats 1000000 in
theorem it08C_val (V : Valuation τ sig (Elt F)) :
    after (it08C (F := F)) V (Proc.devRef (τ := τ) .tc main_v165) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v155)) (constantI S_ 32 0#32)) (broadcastInDim S1024 ![] bcast_S_S1024 (constantI S_ 32 0#32))) (addi (RefFns.clipF (V (Proc.devRef (τ := τ) .tc main_v155)) (constantI S_ 32 0#32)) (broadcastInDim S1024 ![] bcast_S_S1024 (constantI S_ 32 1024#32))) (RefFns.clipF (V (Proc.devRef (τ := τ) .tc main_v155)) (constantI S_ 32 0#32)))) (broadcastInDim S1024 ![] bcast_S_S1024 (constantI S_ 32 1#32)) := by
  simp only [it08C, List.cons_append, List.nil_append]
  after_results_simp
  try simp only [cast_eq]
  rfl

set_option maxRecDepth 65536 in
set_option maxHeartbeats 1000000 in
theorem it08D_val (V : Valuation τ sig (Elt F)) :
    after (it08D (F := F)) V (Proc.devRef (τ := τ) .tc main_v166) = RefFns.cumsum1F (V (Proc.devRef (τ := τ) .tc main_v165)) := by
  simp only [it08D, List.cons_append, List.nil_append]
  after_results_simp
  try simp only [cast_eq]
  rfl

set_option maxRecDepth 65536 in
set_option maxHeartbeats 1000000 in
theorem it08E_val (V : Valuation τ sig (Elt F)) :
    after (it08E (F := F)) V (Proc.devRef (τ := τ) .tc main_v167) = RefFns.floorDivF (V (Proc.devRef (τ := τ) .tc main_v166)) (constantI S_ 32 1#32) := by
  simp only [it08E, List.cons_append, List.nil_append]
  after_results_simp
  try simp only [cast_eq]
  rfl

set_option maxRecDepth 65536 in
set_option maxHeartbeats 1000000 in
theorem it08G_val (V : Valuation τ sig (Elt F)) :
    after (it08G (F := F)) V (Proc.devRef (τ := τ) .tc main_v168) = RefFns.remainderF (V (Proc.devRef (τ := τ) .tc main_v167)) (constantI S_ 32 1024#32) := by
  simp only [it08G, List.cons_append, List.nil_append]
  after_results_simp
  try simp only [cast_eq]
  rfl

set_option maxRecDepth 65536 in
set_option maxHeartbeats 1000000 in
theorem it08H_val (V : Valuation τ sig (Elt F)) :
    after (it08H (F := F)) V (Proc.devRef (τ := τ) .tc main_v169) = RefFns.takeF (V (Proc.devRef (τ := τ) .tc main_v7)) (V (Proc.devRef (τ := τ) .tc main_v168)) := by
  simp only [it08H, List.cons_append, List.nil_append]
  after_results_simp
  try simp only [cast_eq]
  rfl

theorem it08A_writes : (it08A (F := F)).Forall fun op => op.writes ⊆ (it08_W.map (Proc.devRef (τ := τ) .tc)).toFinset :=
  ⟨wsub main_v152 (by decide), wsub main_v153 (by decide), wsub main_v154 (by decide)⟩

theorem it08B_writes : (it08B (F := F)).Forall fun op => op.writes ⊆ (it08_W.map (Proc.devRef (τ := τ) .tc)).toFinset :=
  ⟨wsub (main_call48.v0.ref) (by decide), wsub (main_call48.call0.c.ref) (by decide), wsub (main_call48.call0.v0.ref) (by decide), wsub (main_call48.call0.v1.ref) (by decide)⟩

theorem it08C_writes : (it08C (F := F)).Forall fun op => op.writes ⊆ (it08_W.map (Proc.devRef (τ := τ) .tc)).toFinset :=
  ⟨wsub main_c_56 (by decide), wsub main_v156 (by decide), wsub main_c_57 (by decide), wsub (main_call49.v0.ref) (by decide), wsub (main_call49.v1.ref) (by decide), wsub (main_call49.v2.ref) (by decide), wsub main_c_58 (by decide), wsub main_v158 (by decide), wsub main_v159 (by decide), wsub main_c_59 (by decide), wsub main_v160 (by decide), wsub main_v161 (by decide), wsub main_v162 (by decide), wsub main_v163 (by decide), wsub main_c_60 (by decide), wsub main_v164 (by decide), wsub main_v165 (by decide)⟩

theorem it08D_writes : (it08D (F := F)).Forall fun op => op.writes ⊆ (it08_W.map (Proc.devRef (τ := τ) .tc)).toFinset :=
  ⟨wsub (main_call50.call0.c.ref) (by decide), wsub (main_call50.call0.v0.ref) (by decide), wsub (main_call50.call0.v1.ref) (by decide)⟩

theorem it08E_writes : (it08E (F := F)).Forall fun op => op.writes ⊆ (it08_W.map (Proc.devRef (τ := τ) .tc)).toFinset :=
  ⟨wsub main_c_61 (by decide), wsub (main_call51.v0.ref) (by decide), wsub (main_call51.v1.ref) (by decide), wsub (main_call51.v2.ref) (by decide), wsub (main_call51.v3.ref) (by decide), wsub (main_call51.v4.ref) (by decide), wsub (main_call51.v5.ref) (by decide), wsub (main_call51.v6.ref) (by decide), wsub (main_call51.v7.ref) (by decide), wsub (main_call51.c.ref) (by decide), wsub (main_call51.v8.ref) (by decide), wsub (main_call51.v9.ref) (by decide), wsub (main_call51.v10.ref) (by decide), wsub (main_call51.c_0.ref) (by decide), wsub (main_call51.v11.ref) (by decide), wsub (main_call51.v12.ref) (by decide), wsub (main_call51.call0.v0.ref) (by decide)⟩

theorem it08G_writes : (it08G (F := F)).Forall fun op => op.writes ⊆ (it08_W.map (Proc.devRef (τ := τ) .tc)).toFinset :=
  ⟨wsub main_c_62 (by decide), wsub (main_call52.v0.ref) (by decide), wsub (main_call52.c.ref) (by decide), wsub (main_call52.v1.ref) (by decide), wsub (main_call52.c_0.ref) (by decide), wsub (main_call52.call0.v0.ref) (by decide), wsub (main_call52.v3.ref) (by decide), wsub (main_call52.v4.ref) (by decide), wsub (main_call52.c_1.ref) (by decide), wsub (main_call52.v5.ref) (by decide), wsub (main_call52.v6.ref) (by decide), wsub (main_call52.c_2.ref) (by decide), wsub (main_call52.v7.ref) (by decide), wsub (main_call52.v8.ref) (by decide), wsub (main_call52.c_3.ref) (by decide), wsub (main_call52.v9.ref) (by decide), wsub (main_call52.v10.ref) (by decide), wsub (main_call52.v11.ref) (by decide), wsub (main_call52.v12.ref) (by decide), wsub (main_call52.v13.ref) (by decide), wsub (main_call52.v14.ref) (by decide), wsub (main_call52.v15.ref) (by decide)⟩

theorem it08H_writes : (it08H (F := F)).Forall fun op => op.writes ⊆ (it08_W.map (Proc.devRef (τ := τ) .tc)).toFinset :=
  ⟨wsub (main_call53.c.ref) (by decide), wsub (main_call53.v0.ref) (by decide), wsub (main_call53.v1.ref) (by decide), wsub (main_call53.c_0.ref) (by decide), wsub (main_call53.v2.ref) (by decide), wsub (main_call53.v3.ref) (by decide), wsub (main_call53.call0.v0.ref) (by decide), wsub (main_call53.v5.ref) (by decide), wsub (main_call53.c_1.ref) (by decide), wsub (main_call53.c_2.ref) (by decide), wsub (main_call53.v6.ref) (by decide), wsub (main_call53.v7.ref) (by decide), wsub (main_call53.v8.ref) (by decide), wsub (main_call53.v9.ref) (by decide), wsub (main_call53.v10.ref) (by decide), wsub (main_call53.v11.ref) (by decide), wsub (main_call53.c_3.ref) (by decide), wsub (main_call53.v12.ref) (by decide), wsub (main_call53.v13.ref) (by decide), wsub (main_call53.v14.ref) (by decide), wsub (main_call53.cst.ref) (by decide), wsub (main_call53.v15.ref) (by decide), wsub (main_call53.v16.ref) (by decide)⟩

theorem it08hd_writes : (it08hd (F := F)).Forall fun op => op.writes ⊆ (it08_W.map (Proc.devRef (τ := τ) .tc)).toFinset :=
  forall_append it08A_writes (forall_append it08B_writes (forall_append it08C_writes (forall_append it08D_writes (forall_append it08E_writes it08G_writes))))

theorem it08_writes : (it08 (F := F)).Forall fun op => op.writes ⊆ (it08_W.map (Proc.devRef (τ := τ) .tc)).toFinset :=
  forall_append it08hd_writes (it08H_writes)

/-- The iteration leaves every buffer it does not write as it was. -/
theorem it08_keep (V : Valuation τ sig (Elt F)) (r : Ref sig .tc) (hr : r ∉ it08_W) :
    after (it08 (F := F)) V (Proc.devRef (τ := τ) .tc r) = V (Proc.devRef (τ := τ) .tc r) :=
  after_of_writes_sub it08 V it08_writes hr

theorem it08hd_keep (V : Valuation τ sig (Elt F)) (r : Ref sig .tc) (hr : r ∉ it08_W) :
    after (it08hd (F := F)) V (Proc.devRef (τ := τ) .tc r) = V (Proc.devRef (τ := τ) .tc r) :=
  after_of_writes_sub it08hd V it08hd_writes hr

/-- The iteration's result: the rows of the matrix it is handed at the compacted indices of its mask. -/
theorem it08_res (V : Valuation τ sig (Elt F)) :
    after (it08 (F := F)) V (Proc.devRef (τ := τ) .tc main_v169) = RefFns.nzTake (V (Proc.devRef (τ := τ) .tc main_v7)) (RefFns.colMask (V (Proc.devRef (τ := τ) .tc main_v1)) 8 slices_S1024x32x1_S1024x1x1_0_8_0) := by
  rw [it08, after_append, it08H_val, it08hd_keep V main_v7 (by decide), it08hd]
  simp only [after_append]
  rw [it08G_val, it08E_val, it08D_val, it08C_val, it08B_val, it08A_val]
  rfl

set_option maxRecDepth 65536 in
set_option maxHeartbeats 4000000 in
/-- The invariant of the run survives the iteration, with its block added. -/
theorem it08_step {x : FVec F S1x32x1024 .f32} {V : Valuation τ sig (Elt F)} (hg : Good 8 x V) : Good 9 x (after (it08 (F := F)) V) :=
  good_step 8 (by decide) it08 it08_W slices_S1024x32x1_S1024x1x1_0_8_0 it08_keep it08_res (fun _ => rfl) (by decide +kernel) (by decide +kernel) (by decide +kernel) (by decide +kernel) hg

end Cert.ReferenceIdeal.HandRun

end
-- ==== Proof.RefOpsIt09.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 3 of @main). -/
noncomputable def it09A : List (HloOp τ sig (Elt F)) :=
  [ StableHlo.unary main_v1 main_v170 ((extractStridedSlice S1024x1x1 ![0, 9, 0] · slices_S1024x32x1_S1024x1x1_0_9_0) : (⟨S1024x32x1, .i1⟩ : BufTy).Contents (Elt F) → (⟨S1024x1x1, .i1⟩ : BufTy).Contents (Elt F)),
    StableHlo.reshape main_v170 main_v171 rfl shapeCasts_S1024x1x1_S1024,
    StableHlo.unary main_v171 main_v172 (noti : (⟨S1024, .i1⟩ : BufTy).Contents (Elt F) → (⟨S1024, .i1⟩ : BufTy).Contents (Elt F)) ]

theorem it09A_sub : (it09A (F := F)).Forall fun op => op.bufs ⊆ tcRefs τ sig :=
  ⟨unary_bufs_sub .., reshape_bufs_sub .., unary_bufs_sub ..⟩

theorem it09A_fresh : (it09A (F := F)).Forall fun op => op.fresh = ∅ :=
  ⟨rfl, rfl, rfl⟩

/-- A piece of this stretch (window 3 of @main). -/
noncomputable def it09B : List (HloOp τ sig (Elt F)) :=
  [ StableHlo.TRef.unary (.of main_v172 : StableHlo.TRef sig ⟨S1024, .i1⟩) main_call54.v0 (extui 32 · natLt_1_32),
    StableHlo.TRef.nullary main_call54.call0.c (constantI S_ 32 0#32),
    StableHlo.TRef.unary main_call54.call0.c main_call54.call0.v0 (broadcastInDim S_ ![] bcast_S_S_),
    StableHlo.TRef.binary main_call54.v0 main_call54.call0.v0 main_call54.call0.v1 (fun x v => Host.reduceWindow IntOp.addi ![1024] ![1] ![1023] ![0] x v reduceWindows_S1024_S1024_w1024s1p1023_0 h_S_) ]

theorem it09B_sub : (it09B (F := F)).Forall fun op => op.bufs ⊆ tcRefs τ sig :=
  ⟨unary_bufs_sub .., nullary_bufs_sub .., unary_bufs_sub .., binary_bufs_sub ..⟩

theorem it09B_fresh : (it09B (F := F)).Forall fun op => op.fresh = ∅ :=
  ⟨rfl, rfl, rfl, rfl⟩

/-- A piece of this stretch (window 3 of @main). -/
noncomputable def it09Ca : List (HloOp τ sig (Elt F)) :=
  [ StableHlo.nullary main_c_63 (constantI S_ 32 0#32),
    StableHlo.unary main_c_63 main_v174 (broadcastInDim S1024 ![] bcast_S_S1024 : (⟨S_, .i32⟩ : BufTy).Contents (Elt F) → (⟨S1024, .i32⟩ : BufTy).Contents (Elt F)) ]

theorem it09Ca_sub : (it09Ca (F := F)).Forall fun op => op.bufs ⊆ tcRefs τ sig :=
  ⟨nullary_bufs_sub .., unary_bufs_sub ..⟩

theorem it09Ca_fresh : (it09Ca (F := F)).Forall fun op => op.fresh = ∅ :=
  ⟨rfl, rfl⟩

/-- A piece of this stretch (window 4 of @main). -/
noncomputable def it09Cb : List (HloOp τ sig (Elt F)) :=
  [ StableHlo.nullary main_c_64 (constantI S_ 32 0#32),
    StableHlo.TRef.unary (.of main_c_64 : StableHlo.TRef sig ⟨S_, .i32⟩) main_call55.v0 id,
    StableHlo.TRef.unary main_call55.v0 main_call55.v1 (broadcastInDim S1024 ![] bcast_S_S1024),
    StableHlo.TRef.binary main_call55.v1 (.of main_v173 : StableHlo.TRef sig ⟨S1024, .i32⟩) main_call55.v2 maxsi,
    StableHlo.nullary main_c_65 (constantI S_ 32 0#32),
    StableHlo.unary main_c_65 main_v176 (broadcastInDim S1024 ![] bcast_S_S1024 : (⟨S_, .i32⟩ : BufTy).Contents (Elt F) → (⟨S1024, .i32⟩ : BufTy).Contents (Elt F)),
    StableHlo.binary main_v175 main_v176 main_v177 (cmpi .slt : (⟨S1024, .i32⟩ : BufTy).Contents (Elt F) → (⟨S1024, .i32⟩ : BufTy).Contents (Elt F) → (⟨S1024, .i1⟩ : BufTy).Contents (Elt F)),
    StableHlo.nullary main_c_66 (constantI S_ 32 1024#32),
    StableHlo.unary main_c_66 main_v178 (broadcastInDim S1024 ![] bcast_S_S1024 : (⟨S_, .i32⟩ : BufTy).Contents (Elt F) → (⟨S1024, .i32⟩ : BufTy).Contents (Elt F)),
    StableHlo.binary main_v175 main_v178 main_v179 (addi : (⟨S1024, .i32⟩ : BufTy).Contents (Elt F) → (⟨S1024, .i32⟩ : BufTy).Contents (Elt F) → (⟨S1024, .i32⟩ : BufTy).Contents (Elt F)),
    StableHlo.ternary main_v177 main_v179 main_v175 main_v180 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v180 main_v181 (broadcastInDim S1024x1 ![0] bcast_S1024_S1024x1_0 : (⟨S1024, .i32⟩ : BufTy).Contents (Elt F) → (⟨S1024x1, .i32⟩ : BufTy).Contents (Elt F)),
    StableHlo.nullary main_c_67 (constantI S_ 32 1#32),
    StableHlo.unary main_c_67 main_v182 (broadcastInDim S1024 ![] bcast_S_S1024 : (⟨S_, .i32⟩ : BufTy).Contents (Elt F) → (⟨S1024, .i32⟩ : BufTy).Contents (Elt F)),
    StableHlo.ternary main_v174 main_v181 main_v182 main_v183 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it09Cb_sub : (it09Cb (F := F)).Forall fun op => op.bufs ⊆ tcRefs τ sig :=
  ⟨nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it09Cb_fresh : (it09Cb (F := F)).Forall fun op => op.fresh = ∅ :=
  ⟨rfl, rfl, rfl, rfl, rfl, rfl, rfl, rfl, rfl, rfl, rfl, rfl, rfl, rfl, rfl⟩

/-- A piece of this stretch (window 4 of @main). -/
noncomputable def it09D : List (HloOp τ sig (Elt F)) :=
  [ StableHlo.TRef.nullary main_call56.call0.c (constantI S_ 32 0#32),
    StableHlo.TRef.unary main_call56.call0.c main_call56.call0.v0 (broadcastInDim S_ ![] bcast_S_S_),
    StableHlo.TRef.binary (.of main_v183 : StableHlo.TRef sig ⟨S1024, .i32⟩) main_call56.call0.v0 main_call56.call0.v1 (fun x v => Host.reduceWindow IntOp.addi ![1024] ![1] ![1023] ![0] x v reduceWindows_S1024_S1024_w1024s1p1023_0 h_S_) ]

theorem it09D_sub : (it09D (F := F)).Forall fun op => op.bufs ⊆ tcRefs τ sig :=
  ⟨nullary_bufs_sub .., unary_bufs_sub .., binary_bufs_sub ..⟩

theorem it09D_fresh : (it09D (F := F)).Forall fun op => op.fresh = ∅ :=
  ⟨rfl, rfl, rfl⟩

/-- A piece of this stretch (window 4 of @main). -/
noncomputable def it09E : List (HloOp τ sig (Elt F)) :=
  [ StableHlo.nullary main_c_68 (constantI S_ 32 1#32),
    StableHlo.TRef.unary (.of main_c_68 : StableHlo.TRef sig ⟨S_, .i32⟩) main_call57.v0 (broadcastInDim S1024 ![] bcast_S_S1024),
    StableHlo.TRef.binary (.of main_v184 : StableHlo.TRef sig ⟨S1024, .i32⟩) main_call57.v0 main_call57.v1 Host.divsi,
    StableHlo.TRef.unary (.of main_v184 : StableHlo.TRef sig ⟨S1024, .i32⟩) main_call57.v2 signi,
    StableHlo.TRef.unary (.of main_c_68 : StableHlo.TRef sig ⟨S_, .i32⟩) main_call57.v3 signi,
    StableHlo.TRef.unary main_call57.v3 main_call57.v4 (broadcastInDim S1024 ![] bcast_S_S1024),
    StableHlo.TRef.binary main_call57.v2 main_call57.v4 main_call57.v5 (cmpi .ne),
    StableHlo.TRef.unary (.of main_c_68 : StableHlo.TRef sig ⟨S_, .i32⟩) main_call57.v6 (broadcastInDim S1024 ![] bcast_S_S1024),
    StableHlo.TRef.binary (.of main_v184 : StableHlo.TRef sig ⟨S1024, .i32⟩) main_call57.v6 main_call57.v7 Host.remsi,
    StableHlo.TRef.nullary main_call57.c (constantI S_ 32 0#32),
    StableHlo.TRef.unary main_call57.c main_call57.v8 (broadcastInDim S1024 ![] bcast_S_S1024),
    StableHlo.TRef.binary main_call57.v7 main_call57.v8 main_call57.v9 (cmpi .ne),
    StableHlo.TRef.binary main_call57.v5 main_call57.v9 main_call57.v10 andi,
    StableHlo.TRef.nullary main_call57.c_0 (constantI S_ 32 1#32),
    StableHlo.TRef.unary main_call57.c_0 main_call57.v11 (broadcastInDim S1024 ![] bcast_S_S1024),
    StableHlo.TRef.binary main_call57.v1 main_call57.v11 main_call57.v12 subi,
    StableHlo.TRef.ternary main_call57.v10 main_call57.v12 main_call57.v1 main_call57.call0.v0 select ]

theorem it09E_sub : (it09E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it09E_fresh : (it09E (F := F)).Forall fun op => op.fresh = ∅ :=
  ⟨rfl, rfl, rfl, rfl, rfl, rfl, rfl, rfl, rfl, rfl, rfl, rfl, rfl, rfl, rfl, rfl, rfl⟩

/-- A piece of this stretch (window 4 of @main). -/
noncomputable def it09G : List (HloOp τ sig (Elt F)) :=
  [ StableHlo.nullary main_c_69 (constantI S_ 32 1024#32),
    StableHlo.TRef.unary (.of main_c_69 : StableHlo.TRef sig ⟨S_, .i32⟩) main_call58.v0 id,
    StableHlo.TRef.nullary main_call58.c (constantI S_ 32 0#32),
    StableHlo.TRef.binary main_call58.v0 main_call58.c main_call58.v1 (cmpi .eq),
    StableHlo.TRef.nullary main_call58.c_0 (constantI S_ 32 1#32),
    StableHlo.TRef.ternary main_call58.v1 main_call58.c_0 main_call58.v0 main_call58.call0.v0 select,
    StableHlo.TRef.unary main_call58.call0.v0 main_call58.v3 (broadcastInDim S1024 ![] bcast_S_S1024),
    StableHlo.TRef.binary (.of main_v185 : StableHlo.TRef sig ⟨S1024, .i32⟩) main_call58.v3 main_call58.v4 Host.remsi,
    StableHlo.TRef.nullary main_call58.c_1 (constantI S_ 32 0#32),
    StableHlo.TRef.unary main_call58.c_1 main_call58.v5 (broadcastInDim S1024 ![] bcast_S_S1024),
    StableHlo.TRef.binary main_call58.v4 main_call58.v5 main_call58.v6 (cmpi .ne),
    StableHlo.TRef.nullary main_call58.c_2 (constantI S_ 32 0#32),
    StableHlo.TRef.unary main_call58.c_2 main_call58.v7 (broadcastInDim S1024 ![] bcast_S_S1024),
    StableHlo.TRef.binary main_call58.v4 main_call58.v7 main_call58.v8 (cmpi .slt),
    StableHlo.TRef.nullary main_call58.c_3 (constantI S_ 32 0#32),
    StableHlo.TRef.binary main_call58.call0.v0 main_call58.c_3 main_call58.v9 (cmpi .slt),
    StableHlo.TRef.unary main_call58.v9 main_call58.v10 (broadcastInDim S1024 ![] bcast_S_S1024),
    StableHlo.TRef.binary main_call58.v8 main_call58.v10 main_call58.v11 (cmpi .ne),
    StableHlo.TRef.binary main_call58.v11 main_call58.v6 main_call58.v12 andi,
    StableHlo.TRef.unary main_call58.call0.v0 main_call58.v13 (broadcastInDim S1024 ![] bcast_S_S1024),
    StableHlo.TRef.binary main_call58.v4 main_call58.v13 main_call58.v14 addi,
    StableHlo.TRef.ternary main_call58.v12 main_call58.v14 main_call58.v4 main_call58.v15 select ]

theorem it09G_sub : (it09G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it09G_fresh : (it09G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 4 of @main). -/
noncomputable def it09H : List (HloOp τ sig (Elt F)) :=
  [ StableHlo.TRef.nullary main_call59.c (constantI S_ 32 0#32),
    StableHlo.TRef.unary main_call59.c main_call59.v0 (broadcastInDim S1024 ![] bcast_S_S1024),
    StableHlo.TRef.binary (.of main_v186 : StableHlo.TRef sig ⟨S1024, .i32⟩) main_call59.v0 main_call59.v1 (cmpi .slt),
    StableHlo.TRef.nullary main_call59.c_0 (constantI S_ 32 1024#32),
    StableHlo.TRef.unary main_call59.c_0 main_call59.v2 (broadcastInDim S1024 ![] bcast_S_S1024),
    StableHlo.TRef.binary (.of main_v186 : StableHlo.TRef sig ⟨S1024, .i32⟩) main_call59.v2 main_call59.v3 addi,
    StableHlo.TRef.ternary main_call59.v1 main_call59.v3 (.of main_v186 : StableHlo.TRef sig ⟨S1024, .i32⟩) main_call59.call0.v0 select,
    StableHlo.TRef.unary main_call59.call0.v0 main_call59.v5 (broadcastInDim S1024x1 ![0] bcast_S1024_S1024x1_0),
    StableHlo.TRef.nullary main_call59.c_1 (constantI S1 32 1023#32),
    StableHlo.TRef.nullary main_call59.c_2 (constantI S_ 32 0#32),
    StableHlo.TRef.unary main_call59.c_2 main_call59.v6 (broadcastInDim S1024x1 ![] bcast_S_S1024x1),
    StableHlo.TRef.binary main_call59.v5 main_call59.v6 main_call59.v7 (cmpi .sge),
    StableHlo.TRef.unary main_call59.c_1 main_call59.v8 (broadcastInDim S1x1 ![1] bcast_S1_S1x1_1),
    StableHlo.TRef.unary main_call59.v8 main_call59.v9 (broadcastInDim S1024x1 ![0, 1] bcast_S1x1_S1024x1_0_1),
    StableHlo.TRef.binary main_call59.v5 main_call59.v9 main_call59.v10 (cmpi .sle),
    StableHlo.TRef.binary main_call59.v7 main_call59.v10 main_call59.v11 andi,
    StableHlo.TRef.nullary main_call59.c_3 (constantI S_ 1 1#1),
    StableHlo.TRef.binary main_call59.v11 main_call59.c_3 main_call59.v12 (fun x v => Host.reduce IntOp.andi x v reducesTo_S1024x1_S1024_d1 h_S_),
    StableHlo.TRef.binary (.of main_v7 : StableHlo.TRef sig ⟨S1024x1024, .f32⟩) main_call59.v5 main_call59.v13 (fun x i => Host.gather gather_S1024x1024_S1024x1_S1024x1024_1_0_n_n_0_1_11024 x i),
    StableHlo.TRef.unary main_call59.v12 main_call59.v14 (broadcastInDim S1024x1024 ![0] bcast_S1024_S1024x1024_0),
    StableHlo.TRef.nullary main_call59.cst (constant S_ .f32 0x7FC00000#32),
    StableHlo.TRef.unary main_call59.cst main_call59.v15 (broadcastInDim S1024x1024 ![] bcast_S_S1024x1024),
    StableHlo.TRef.ternary main_call59.v14 main_call59.v13 main_call59.v15 main_call59.v16 select ]

theorem it09H_sub : (it09H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it09H_fresh : (it09H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it09_W : List (Ref sig .tc) :=
  [main_v170, main_v171, main_v172, (main_call54.v0.ref), (main_call54.call0.c.ref), (main_call54.call0.v0.ref), (main_call54.call0.v1.ref), main_c_63, main_v174, main_c_64, (main_call55.v0.ref), (main_call55.v1.ref), (main_call55.v2.ref), main_c_65, main_v176, main_v177, main_c_66, main_v178, main_v179, main_v180, main_v181, main_c_67, main_v182, main_v183, (main_call56.call0.c.ref), (main_call56.call0.v0.ref), (main_call56.call0.v1.ref), main_c_68, (main_call57.v0.ref), (main_call57.v1.ref), (main_call57.v2.ref), (main_call57.v3.ref), (main_call57.v4.ref), (main_call57.v5.ref), (main_call57.v6.ref), (main_call57.v7.ref), (main_call57.c.ref), (main_call57.v8.ref), (main_call57.v9.ref), (main_call57.v10.ref), (main_call57.c_0.ref), (main_call57.v11.ref), (main_call57.v12.ref), (main_call57.call0.v0.ref), main_c_69, (main_call58.v0.ref), (main_call58.c.ref), (main_call58.v1.ref), (main_call58.c_0.ref), (main_call58.call0.v0.ref), (main_call58.v3.ref), (main_call58.v4.ref), (main_call58.c_1.ref), (main_call58.v5.ref), (main_call58.v6.ref), (main_call58.c_2.ref), (main_call58.v7.ref), (main_call58.v8.ref), (main_call58.c_3.ref), (main_call58.v9.ref), (main_call58.v10.ref), (main_call58.v11.ref), (main_call58.v12.ref), (main_call58.v13.ref), (main_call58.v14.ref), (main_call58.v15.ref), (main_call59.c.ref), (main_call59.v0.ref), (main_call59.v1.ref), (main_call59.c_0.ref), (main_call59.v2.ref), (main_call59.v3.ref), (main_call59.call0.v0.ref), (main_call59.v5.ref), (main_call59.c_1.ref), (main_call59.c_2.ref), (main_call59.v6.ref), (main_call59.v7.ref), (main_call59.v8.ref), (main_call59.v9.ref), (main_call59.v10.ref), (main_call59.v11.ref), (main_call59.c_3.ref), (main_call59.v12.ref), (main_call59.v13.ref), (main_call59.v14.ref), (main_call59.cst.ref), (main_call59.v15.ref), (main_call59.v16.ref)]

/-- One stage of the iteration, whole. -/
noncomputable def it09C : List (HloOp τ sig (Elt F)) := it09Ca ++ it09Cb
theorem it09C_sub : (it09C (F := F)).Forall fun op => op.bufs ⊆ tcRefs τ sig :=
  forall_append it09Ca_sub it09Cb_sub
theorem it09C_fresh : (it09C (F := F)).Forall fun op => op.fresh = ∅ :=
  forall_append it09Ca_fresh it09Cb_fresh

/-- The iteration up to the row lookup. -/
noncomputable def it09hd : List (HloOp τ sig (Elt F)) := it09A ++ (it09B ++ (it09C ++ (it09D ++ (it09E ++ it09G))))

/-- The iteration. -/
noncomputable def it09 : List (HloOp τ sig (Elt F)) := it09hd ++ it09H
theorem it09_sub : (it09 (F := F)).Forall fun op => op.bufs ⊆ tcRefs τ sig :=
  forall_append (forall_append it09A_sub (forall_append it09B_sub (forall_append it09C_sub (forall_append it09D_sub (forall_append it09E_sub it09G_sub))))) it09H_sub
theorem it09_fresh : (it09 (F := F)).Forall fun op => op.fresh = ∅ :=
  forall_append (forall_append it09A_fresh (forall_append it09B_fresh (forall_append it09C_fresh (forall_append it09D_fresh (forall_append it09E_fresh it09G_fresh))))) it09H_fresh

/-- The iteration as the concatenation of its pieces. -/
theorem it09_atoms : it09 (F := F) = it09A ++ (it09B ++ (it09Ca ++ (it09Cb ++ (it09D ++ (it09E ++ (it09G ++ it09H)))))) := by
  simp only [it09, it09hd, it09C, List.append_assoc]

end Cert.ReferenceIdeal.HandRun

end
-- ==== Proof.RefIt09.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt09

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it09A_val (V : Valuation τ sig (Elt F)) :
    after (it09A (F := F)) V (Proc.devRef (τ := τ) .tc main_v172) = RefFns.colMask (V (Proc.devRef (τ := τ) .tc main_v1)) 9 slices_S1024x32x1_S1024x1x1_0_9_0 := by
  simp only [it09A, List.cons_append, List.nil_append]
  after_results_simp
  try simp only [cast_eq]
  rfl

set_option maxRecDepth 65536 in
set_option maxHeartbeats 1000000 in
theorem it09B_val (V : Valuation τ sig (Elt F)) :
    after (it09B (F := F)) V (Proc.devRef (τ := τ) .tc main_v173) = RefFns.cumsumF (V (Proc.devRef (τ := τ) .tc main_v172)) := by
  simp only [it09B, List.cons_append, List.nil_append]
  after_results_simp
  try simp only [cast_eq]
  rfl

set_option maxRecDepth 65536 in
set_option maxHeartbeats 1000000 in
theorem it09C_val (V : Valuation τ sig (Elt F)) :
    after (it09C (F := F)) V (Proc.devRef (τ := τ) .tc main_v183) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v173)) (constantI S_ 32 0#32)) (broadcastInDim S1024 ![] bcast_S_S1024 (constantI S_ 32 0#32))) (addi (RefFns.clipF (V (Proc.devRef (τ := τ) .tc main_v173)) (constantI S_ 32 0#32)) (broadcastInDim S1024 ![] bcast_S_S1024 (constantI S_ 32 1024#32))) (RefFns.clipF (V (Proc.devRef (τ := τ) .tc main_v173)) (constantI S_ 32 0#32)))) (broadcastInDim S1024 ![] bcast_S_S1024 (constantI S_ 32 1#32)) := by
  simp only [it09C, it09Ca, it09Cb, List.cons_append, List.nil_append]
  after_results_simp
  try simp only [cast_eq]
  rfl

set_option maxRecDepth 65536 in
set_option maxHeartbeats 1000000 in
theorem it09D_val (V : Valuation τ sig (Elt F)) :
    after (it09D (F := F)) V (Proc.devRef (τ := τ) .tc main_v184) = RefFns.cumsum1F (V (Proc.devRef (τ := τ) .tc main_v183)) := by
  simp only [it09D, List.cons_append, List.nil_append]
  after_results_simp
  try simp only [cast_eq]
  rfl

set_option maxRecDepth 65536 in
set_option maxHeartbeats 1000000 in
theorem it09E_val (V : Valuation τ sig (Elt F)) :
    after (it09E (F := F)) V (Proc.devRef (τ := τ) .tc main_v185) = RefFns.floorDivF (V (Proc.devRef (τ := τ) .tc main_v184)) (constantI S_ 32 1#32) := by
  simp only [it09E, List.cons_append, List.nil_append]
  after_results_simp
  try simp only [cast_eq]
  rfl

set_option maxRecDepth 65536 in
set_option maxHeartbeats 1000000 in
theorem it09G_val (V : Valuation τ sig (Elt F)) :
    after (it09G (F := F)) V (Proc.devRef (τ := τ) .tc main_v186) = RefFns.remainderF (V (Proc.devRef (τ := τ) .tc main_v185)) (constantI S_ 32 1024#32) := by
  simp only [it09G, List.cons_append, List.nil_append]
  after_results_simp
  try simp only [cast_eq]
  rfl

set_option maxRecDepth 65536 in
set_option maxHeartbeats 1000000 in
theorem it09H_val (V : Valuation τ sig (Elt F)) :
    after (it09H (F := F)) V (Proc.devRef (τ := τ) .tc main_v187) = RefFns.takeF (V (Proc.devRef (τ := τ) .tc main_v7)) (V (Proc.devRef (τ := τ) .tc main_v186)) := by
  simp only [it09H, List.cons_append, List.nil_append]
  after_results_simp
  try simp only [cast_eq]
  rfl

theorem it09A_writes : (it09A (F := F)).Forall fun op => op.writes ⊆ (it09_W.map (Proc.devRef (τ := τ) .tc)).toFinset :=
  ⟨wsub main_v170 (by decide), wsub main_v171 (by decide), wsub main_v172 (by decide)⟩

theorem it09B_writes : (it09B (F := F)).Forall fun op => op.writes ⊆ (it09_W.map (Proc.devRef (τ := τ) .tc)).toFinset :=
  ⟨wsub (main_call54.v0.ref) (by decide), wsub (main_call54.call0.c.ref) (by decide), wsub (main_call54.call0.v0.ref) (by decide), wsub (main_call54.call0.v1.ref) (by decide)⟩

theorem it09Ca_writes : (it09Ca (F := F)).Forall fun op => op.writes ⊆ (it09_W.map (Proc.devRef (τ := τ) .tc)).toFinset :=
  ⟨wsub main_c_63 (by decide), wsub main_v174 (by decide)⟩

theorem it09Cb_writes : (it09Cb (F := F)).Forall fun op => op.writes ⊆ (it09_W.map (Proc.devRef (τ := τ) .tc)).toFinset :=
  ⟨wsub main_c_64 (by decide), wsub (main_call55.v0.ref) (by decide), wsub (main_call55.v1.ref) (by decide), wsub (main_call55.v2.ref) (by decide), wsub main_c_65 (by decide), wsub main_v176 (by decide), wsub main_v177 (by decide), wsub main_c_66 (by decide), wsub main_v178 (by decide), wsub main_v179 (by decide), wsub main_v180 (by decide), wsub main_v181 (by decide), wsub main_c_67 (by decide), wsub main_v182 (by decide), wsub main_v183 (by decide)⟩

theorem it09D_writes : (it09D (F := F)).Forall fun op => op.writes ⊆ (it09_W.map (Proc.devRef (τ := τ) .tc)).toFinset :=
  ⟨wsub (main_call56.call0.c.ref) (by decide), wsub (main_call56.call0.v0.ref) (by decide), wsub (main_call56.call0.v1.ref) (by decide)⟩

theorem it09E_writes : (it09E (F := F)).Forall fun op => op.writes ⊆ (it09_W.map (Proc.devRef (τ := τ) .tc)).toFinset :=
  ⟨wsub main_c_68 (by decide), wsub (main_call57.v0.ref) (by decide), wsub (main_call57.v1.ref) (by decide), wsub (main_call57.v2.ref) (by decide), wsub (main_call57.v3.ref) (by decide), wsub (main_call57.v4.ref) (by decide), wsub (main_call57.v5.ref) (by decide), wsub (main_call57.v6.ref) (by decide), wsub (main_call57.v7.ref) (by decide), wsub (main_call57.c.ref) (by decide), wsub (main_call57.v8.ref) (by decide), wsub (main_call57.v9.ref) (by decide), wsub (main_call57.v10.ref) (by decide), wsub (main_call57.c_0.ref) (by decide), wsub (main_call57.v11.ref) (by decide), wsub (main_call57.v12.ref) (by decide), wsub (main_call57.call0.v0.ref) (by decide)⟩

theorem it09G_writes : (it09G (F := F)).Forall fun op => op.writes ⊆ (it09_W.map (Proc.devRef (τ := τ) .tc)).toFinset :=
  ⟨wsub main_c_69 (by decide), wsub (main_call58.v0.ref) (by decide), wsub (main_call58.c.ref) (by decide), wsub (main_call58.v1.ref) (by decide), wsub (main_call58.c_0.ref) (by decide), wsub (main_call58.call0.v0.ref) (by decide), wsub (main_call58.v3.ref) (by decide), wsub (main_call58.v4.ref) (by decide), wsub (main_call58.c_1.ref) (by decide), wsub (main_call58.v5.ref) (by decide), wsub (main_call58.v6.ref) (by decide), wsub (main_call58.c_2.ref) (by decide), wsub (main_call58.v7.ref) (by decide), wsub (main_call58.v8.ref) (by decide), wsub (main_call58.c_3.ref) (by decide), wsub (main_call58.v9.ref) (by decide), wsub (main_call58.v10.ref) (by decide), wsub (main_call58.v11.ref) (by decide), wsub (main_call58.v12.ref) (by decide), wsub (main_call58.v13.ref) (by decide), wsub (main_call58.v14.ref) (by decide), wsub (main_call58.v15.ref) (by decide)⟩

theorem it09H_writes : (it09H (F := F)).Forall fun op => op.writes ⊆ (it09_W.map (Proc.devRef (τ := τ) .tc)).toFinset :=
  ⟨wsub (main_call59.c.ref) (by decide), wsub (main_call59.v0.ref) (by decide), wsub (main_call59.v1.ref) (by decide), wsub (main_call59.c_0.ref) (by decide), wsub (main_call59.v2.ref) (by decide), wsub (main_call59.v3.ref) (by decide), wsub (main_call59.call0.v0.ref) (by decide), wsub (main_call59.v5.ref) (by decide), wsub (main_call59.c_1.ref) (by decide), wsub (main_call59.c_2.ref) (by decide), wsub (main_call59.v6.ref) (by decide), wsub (main_call59.v7.ref) (by decide), wsub (main_call59.v8.ref) (by decide), wsub (main_call59.v9.ref) (by decide), wsub (main_call59.v10.ref) (by decide), wsub (main_call59.v11.ref) (by decide), wsub (main_call59.c_3.ref) (by decide), wsub (main_call59.v12.ref) (by decide), wsub (main_call59.v13.ref) (by decide), wsub (main_call59.v14.ref) (by decide), wsub (main_call59.cst.ref) (by decide), wsub (main_call59.v15.ref) (by decide), wsub (main_call59.v16.ref) (by decide)⟩

theorem it09hd_writes : (it09hd (F := F)).Forall fun op => op.writes ⊆ (it09_W.map (Proc.devRef (τ := τ) .tc)).toFinset :=
  forall_append it09A_writes (forall_append it09B_writes (forall_append (forall_append it09Ca_writes it09Cb_writes) (forall_append it09D_writes (forall_append it09E_writes it09G_writes))))

theorem it09_writes : (it09 (F := F)).Forall fun op => op.writes ⊆ (it09_W.map (Proc.devRef (τ := τ) .tc)).toFinset :=
  forall_append it09hd_writes (it09H_writes)

/-- The iteration leaves every buffer it does not write as it was. -/
theorem it09_keep (V : Valuation τ sig (Elt F)) (r : Ref sig .tc) (hr : r ∉ it09_W) :
    after (it09 (F := F)) V (Proc.devRef (τ := τ) .tc r) = V (Proc.devRef (τ := τ) .tc r) :=
  after_of_writes_sub it09 V it09_writes hr

theorem it09hd_keep (V : Valuation τ sig (Elt F)) (r : Ref sig .tc) (hr : r ∉ it09_W) :
    after (it09hd (F := F)) V (Proc.devRef (τ := τ) .tc r) = V (Proc.devRef (τ := τ) .tc r) :=
  after_of_writes_sub it09hd V it09hd_writes hr

/-- The iteration's result: the rows of the matrix it is handed at the compacted indices of its mask. -/
theorem it09_res (V : Valuation τ sig (Elt F)) :
    after (it09 (F := F)) V (Proc.devRef (τ := τ) .tc main_v187) = RefFns.nzTake (V (Proc.devRef (τ := τ) .tc main_v7)) (RefFns.colMask (V (Proc.devRef (τ := τ) .tc main_v1)) 9 slices_S1024x32x1_S1024x1x1_0_9_0) := by
  rw [it09, after_append, it09H_val, it09hd_keep V main_v7 (by decide), it09hd]
  simp only [after_append]
  rw [it09G_val, it09E_val, it09D_val, it09C_val, it09B_val, it09A_val]
  rfl

set_option maxRecDepth 65536 in
set_option maxHeartbeats 4000000 in
/-- The invariant of the run survives the iteration, with its block added. -/
theorem it09_step {x : FVec F S1x32x1024 .f32} {V : Valuation τ sig (Elt F)} (hg : Good 9 x V) : Good 10 x (after (it09 (F := F)) V) :=
  good_step 9 (by decide) it09 it09_W slices_S1024x32x1_S1024x1x1_0_9_0 it09_keep it09_res (fun _ => rfl) (by decide +kernel) (by decide +kernel) (by decide +kernel) (by decide +kernel) hg

end Cert.ReferenceIdeal.HandRun

end
-- ==== Proof.RefOpsIt10.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 4 of @main). -/
noncomputable def it10A : List (HloOp τ sig (Elt F)) :=
  [ StableHlo.unary main_v1 main_v188 ((extractStridedSlice S1024x1x1 ![0, 10, 0] · slices_S1024x32x1_S1024x1x1_0_10_0) : (⟨S1024x32x1, .i1⟩ : BufTy).Contents (Elt F) → (⟨S1024x1x1, .i1⟩ : BufTy).Contents (Elt F)),
    StableHlo.reshape main_v188 main_v189 rfl shapeCasts_S1024x1x1_S1024,
    StableHlo.unary main_v189 main_v190 (noti : (⟨S1024, .i1⟩ : BufTy).Contents (Elt F) → (⟨S1024, .i1⟩ : BufTy).Contents (Elt F)) ]

theorem it10A_sub : (it10A (F := F)).Forall fun op => op.bufs ⊆ tcRefs τ sig :=
  ⟨unary_bufs_sub .., reshape_bufs_sub .., unary_bufs_sub ..⟩

theorem it10A_fresh : (it10A (F := F)).Forall fun op => op.fresh = ∅ :=
  ⟨rfl, rfl, rfl⟩

/-- A piece of this stretch (window 4 of @main). -/
noncomputable def it10B : List (HloOp τ sig (Elt F)) :=
  [ StableHlo.TRef.unary (.of main_v190 : StableHlo.TRef sig ⟨S1024, .i1⟩) main_call60.v0 (extui 32 · natLt_1_32),
    StableHlo.TRef.nullary main_call60.call0.c (constantI S_ 32 0#32),
    StableHlo.TRef.unary main_call60.call0.c main_call60.call0.v0 (broadcastInDim S_ ![] bcast_S_S_),
    StableHlo.TRef.binary main_call60.v0 main_call60.call0.v0 main_call60.call0.v1 (fun x v => Host.reduceWindow IntOp.addi ![1024] ![1] ![1023] ![0] x v reduceWindows_S1024_S1024_w1024s1p1023_0 h_S_) ]

theorem it10B_sub : (it10B (F := F)).Forall fun op => op.bufs ⊆ tcRefs τ sig :=
  ⟨unary_bufs_sub .., nullary_bufs_sub .., unary_bufs_sub .., binary_bufs_sub ..⟩

theorem it10B_fresh : (it10B (F := F)).Forall fun op => op.fresh = ∅ :=
  ⟨rfl, rfl, rfl, rfl⟩

/-- A piece of this stretch (window 4 of @main). -/
noncomputable def it10C : List (HloOp τ sig (Elt F)) :=
  [ StableHlo.nullary main_c_70 (constantI S_ 32 0#32),
    StableHlo.unary main_c_70 main_v192 (broadcastInDim S1024 ![] bcast_S_S1024 : (⟨S_, .i32⟩ : BufTy).Contents (Elt F) → (⟨S1024, .i32⟩ : BufTy).Contents (Elt F)),
    StableHlo.nullary main_c_71 (constantI S_ 32 0#32),
    StableHlo.TRef.unary (.of main_c_71 : StableHlo.TRef sig ⟨S_, .i32⟩) main_call61.v0 id,
    StableHlo.TRef.unary main_call61.v0 main_call61.v1 (broadcastInDim S1024 ![] bcast_S_S1024),
    StableHlo.TRef.binary main_call61.v1 (.of main_v191 : StableHlo.TRef sig ⟨S1024, .i32⟩) main_call61.v2 maxsi,
    StableHlo.nullary main_c_72 (constantI S_ 32 0#32),
    StableHlo.unary main_c_72 main_v194 (broadcastInDim S1024 ![] bcast_S_S1024 : (⟨S_, .i32⟩ : BufTy).Contents (Elt F) → (⟨S1024, .i32⟩ : BufTy).Contents (Elt F)),
    StableHlo.binary main_v193 main_v194 main_v195 (cmpi .slt : (⟨S1024, .i32⟩ : BufTy).Contents (Elt F) → (⟨S1024, .i32⟩ : BufTy).Contents (Elt F) → (⟨S1024, .i1⟩ : BufTy).Contents (Elt F)),
    StableHlo.nullary main_c_73 (constantI S_ 32 1024#32),
    StableHlo.unary main_c_73 main_v196 (broadcastInDim S1024 ![] bcast_S_S1024 : (⟨S_, .i32⟩ : BufTy).Contents (Elt F) → (⟨S1024, .i32⟩ : BufTy).Contents (Elt F)),
    StableHlo.binary main_v193 main_v196 main_v197 (addi : (⟨S1024, .i32⟩ : BufTy).Contents (Elt F) → (⟨S1024, .i32⟩ : BufTy).Contents (Elt F) → (⟨S1024, .i32⟩ : BufTy).Contents (Elt F)),
    StableHlo.ternary main_v195 main_v197 main_v193 main_v198 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v198 main_v199 (broadcastInDim S1024x1 ![0] bcast_S1024_S1024x1_0 : (⟨S1024, .i32⟩ : BufTy).Contents (Elt F) → (⟨S1024x1, .i32⟩ : BufTy).Contents (Elt F)),
    StableHlo.nullary main_c_74 (constantI S_ 32 1#32),
    StableHlo.unary main_c_74 main_v200 (broadcastInDim S1024 ![] bcast_S_S1024 : (⟨S_, .i32⟩ : BufTy).Contents (Elt F) → (⟨S1024, .i32⟩ : BufTy).Contents (Elt F)),
    StableHlo.ternary main_v192 main_v199 main_v200 main_v201 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it10C_sub : (it10C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it10C_fresh : (it10C (F := F)).Forall fun op => op.fresh = ∅ :=
  ⟨rfl, rfl, rfl, rfl, rfl, rfl, rfl, rfl, rfl, rfl, rfl, rfl, rfl, rfl, rfl, rfl, rfl⟩

/-- A piece of this stretch (window 4 of @main). -/
noncomputable def it10D : List (HloOp τ sig (Elt F)) :=
  [ StableHlo.TRef.nullary main_call62.call0.c (constantI S_ 32 0#32),
    StableHlo.TRef.unary main_call62.call0.c main_call62.call0.v0 (broadcastInDim S_ ![] bcast_S_S_),
    StableHlo.TRef.binary (.of main_v201 : StableHlo.TRef sig ⟨S1024, .i32⟩) main_call62.call0.v0 main_call62.call0.v1 (fun x v => Host.reduceWindow IntOp.addi ![1024] ![1] ![1023] ![0] x v reduceWindows_S1024_S1024_w1024s1p1023_0 h_S_) ]

theorem it10D_sub : (it10D (F := F)).Forall fun op => op.bufs ⊆ tcRefs τ sig :=
  ⟨nullary_bufs_sub .., unary_bufs_sub .., binary_bufs_sub ..⟩

theorem it10D_fresh : (it10D (F := F)).Forall fun op => op.fresh = ∅ :=
  ⟨rfl, rfl, rfl⟩

/-- A piece of this stretch (window 4 of @main). -/
noncomputable def it10E : List (HloOp τ sig (Elt F)) :=
  [ StableHlo.nullary main_c_75 (constantI S_ 32 1#32),
    StableHlo.TRef.unary (.of main_c_75 : StableHlo.TRef sig ⟨S_, .i32⟩) main_call63.v0 (broadcastInDim S1024 ![] bcast_S_S1024),
    StableHlo.TRef.binary (.of main_v202 : StableHlo.TRef sig ⟨S1024, .i32⟩) main_call63.v0 main_call63.v1 Host.divsi,
    StableHlo.TRef.unary (.of main_v202 : StableHlo.TRef sig ⟨S1024, .i32⟩) main_call63.v2 signi,
    StableHlo.TRef.unary (.of main_c_75 : StableHlo.TRef sig ⟨S_, .i32⟩) main_call63.v3 signi,
    StableHlo.TRef.unary main_call63.v3 main_call63.v4 (broadcastInDim S1024 ![] bcast_S_S1024),
    StableHlo.TRef.binary main_call63.v2 main_call63.v4 main_call63.v5 (cmpi .ne),
    StableHlo.TRef.unary (.of main_c_75 : StableHlo.TRef sig ⟨S_, .i32⟩) main_call63.v6 (broadcastInDim S1024 ![] bcast_S_S1024),
    StableHlo.TRef.binary (.of main_v202 : StableHlo.TRef sig ⟨S1024, .i32⟩) main_call63.v6 main_call63.v7 Host.remsi,
    StableHlo.TRef.nullary main_call63.c (constantI S_ 32 0#32),
    StableHlo.TRef.unary main_call63.c main_call63.v8 (broadcastInDim S1024 ![] bcast_S_S1024),
    StableHlo.TRef.binary main_call63.v7 main_call63.v8 main_call63.v9 (cmpi .ne),
    StableHlo.TRef.binary main_call63.v5 main_call63.v9 main_call63.v10 andi,
    StableHlo.TRef.nullary main_call63.c_0 (constantI S_ 32 1#32),
    StableHlo.TRef.unary main_call63.c_0 main_call63.v11 (broadcastInDim S1024 ![] bcast_S_S1024),
    StableHlo.TRef.binary main_call63.v1 main_call63.v11 main_call63.v12 subi,
    StableHlo.TRef.ternary main_call63.v10 main_call63.v12 main_call63.v1 main_call63.call0.v0 select ]

theorem it10E_sub : (it10E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it10E_fresh : (it10E (F := F)).Forall fun op => op.fresh = ∅ :=
  ⟨rfl, rfl, rfl, rfl, rfl, rfl, rfl, rfl, rfl, rfl, rfl, rfl, rfl, rfl, rfl, rfl, rfl⟩

/-- A piece of this stretch (window 4 of @main). -/
noncomputable def it10G : List (HloOp τ sig (Elt F)) :=
  [ StableHlo.nullary main_c_76 (constantI S_ 32 1024#32),
    StableHlo.TRef.unary (.of main_c_76 : StableHlo.TRef sig ⟨S_, .i32⟩) main_call64.v0 id,
    StableHlo.TRef.nullary main_call64.c (constantI S_ 32 0#32),
    StableHlo.TRef.binary main_call64.v0 main_call64.c main_call64.v1 (cmpi .eq),
    StableHlo.TRef.nullary main_call64.c_0 (constantI S_ 32 1#32),
    StableHlo.TRef.ternary main_call64.v1 main_call64.c_0 main_call64.v0 main_call64.call0.v0 select,
    StableHlo.TRef.unary main_call64.call0.v0 main_call64.v3 (broadcastInDim S1024 ![] bcast_S_S1024),
    StableHlo.TRef.binary (.of main_v203 : StableHlo.TRef sig ⟨S1024, .i32⟩) main_call64.v3 main_call64.v4 Host.remsi,
    StableHlo.TRef.nullary main_call64.c_1 (constantI S_ 32 0#32),
    StableHlo.TRef.unary main_call64.c_1 main_call64.v5 (broadcastInDim S1024 ![] bcast_S_S1024),
    StableHlo.TRef.binary main_call64.v4 main_call64.v5 main_call64.v6 (cmpi .ne),
    StableHlo.TRef.nullary main_call64.c_2 (constantI S_ 32 0#32),
    StableHlo.TRef.unary main_call64.c_2 main_call64.v7 (broadcastInDim S1024 ![] bcast_S_S1024),
    StableHlo.TRef.binary main_call64.v4 main_call64.v7 main_call64.v8 (cmpi .slt),
    StableHlo.TRef.nullary main_call64.c_3 (constantI S_ 32 0#32),
    StableHlo.TRef.binary main_call64.call0.v0 main_call64.c_3 main_call64.v9 (cmpi .slt),
    StableHlo.TRef.unary main_call64.v9 main_call64.v10 (broadcastInDim S1024 ![] bcast_S_S1024),
    StableHlo.TRef.binary main_call64.v8 main_call64.v10 main_call64.v11 (cmpi .ne),
    StableHlo.TRef.binary main_call64.v11 main_call64.v6 main_call64.v12 andi,
    StableHlo.TRef.unary main_call64.call0.v0 main_call64.v13 (broadcastInDim S1024 ![] bcast_S_S1024),
    StableHlo.TRef.binary main_call64.v4 main_call64.v13 main_call64.v14 addi,
    StableHlo.TRef.ternary main_call64.v12 main_call64.v14 main_call64.v4 main_call64.v15 select ]

theorem it10G_sub : (it10G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it10G_fresh : (it10G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 4 of @main). -/
noncomputable def it10H : List (HloOp τ sig (Elt F)) :=
  [ StableHlo.TRef.nullary main_call65.c (constantI S_ 32 0#32),
    StableHlo.TRef.unary main_call65.c main_call65.v0 (broadcastInDim S1024 ![] bcast_S_S1024),
    StableHlo.TRef.binary (.of main_v204 : StableHlo.TRef sig ⟨S1024, .i32⟩) main_call65.v0 main_call65.v1 (cmpi .slt),
    StableHlo.TRef.nullary main_call65.c_0 (constantI S_ 32 1024#32),
    StableHlo.TRef.unary main_call65.c_0 main_call65.v2 (broadcastInDim S1024 ![] bcast_S_S1024),
    StableHlo.TRef.binary (.of main_v204 : StableHlo.TRef sig ⟨S1024, .i32⟩) main_call65.v2 main_call65.v3 addi,
    StableHlo.TRef.ternary main_call65.v1 main_call65.v3 (.of main_v204 : StableHlo.TRef sig ⟨S1024, .i32⟩) main_call65.call0.v0 select,
    StableHlo.TRef.unary main_call65.call0.v0 main_call65.v5 (broadcastInDim S1024x1 ![0] bcast_S1024_S1024x1_0),
    StableHlo.TRef.nullary main_call65.c_1 (constantI S1 32 1023#32),
    StableHlo.TRef.nullary main_call65.c_2 (constantI S_ 32 0#32),
    StableHlo.TRef.unary main_call65.c_2 main_call65.v6 (broadcastInDim S1024x1 ![] bcast_S_S1024x1),
    StableHlo.TRef.binary main_call65.v5 main_call65.v6 main_call65.v7 (cmpi .sge),
    StableHlo.TRef.unary main_call65.c_1 main_call65.v8 (broadcastInDim S1x1 ![1] bcast_S1_S1x1_1),
    StableHlo.TRef.unary main_call65.v8 main_call65.v9 (broadcastInDim S1024x1 ![0, 1] bcast_S1x1_S1024x1_0_1),
    StableHlo.TRef.binary main_call65.v5 main_call65.v9 main_call65.v10 (cmpi .sle),
    StableHlo.TRef.binary main_call65.v7 main_call65.v10 main_call65.v11 andi,
    StableHlo.TRef.nullary main_call65.c_3 (constantI S_ 1 1#1),
    StableHlo.TRef.binary main_call65.v11 main_call65.c_3 main_call65.v12 (fun x v => Host.reduce IntOp.andi x v reducesTo_S1024x1_S1024_d1 h_S_),
    StableHlo.TRef.binary (.of main_v7 : StableHlo.TRef sig ⟨S1024x1024, .f32⟩) main_call65.v5 main_call65.v13 (fun x i => Host.gather gather_S1024x1024_S1024x1_S1024x1024_1_0_n_n_0_1_11024 x i),
    StableHlo.TRef.unary main_call65.v12 main_call65.v14 (broadcastInDim S1024x1024 ![0] bcast_S1024_S1024x1024_0),
    StableHlo.TRef.nullary main_call65.cst (constant S_ .f32 0x7FC00000#32),
    StableHlo.TRef.unary main_call65.cst main_call65.v15 (broadcastInDim S1024x1024 ![] bcast_S_S1024x1024),
    StableHlo.TRef.ternary main_call65.v14 main_call65.v13 main_call65.v15 main_call65.v16 select ]

theorem it10H_sub : (it10H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it10H_fresh : (it10H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it10_W : List (Ref sig .tc) :=
  [main_v188, main_v189, main_v190, (main_call60.v0.ref), (main_call60.call0.c.ref), (main_call60.call0.v0.ref), (main_call60.call0.v1.ref), main_c_70, main_v192, main_c_71, (main_call61.v0.ref), (main_call61.v1.ref), (main_call61.v2.ref), main_c_72, main_v194, main_v195, main_c_73, main_v196, main_v197, main_v198, main_v199, main_c_74, main_v200, main_v201, (main_call62.call0.c.ref), (main_call62.call0.v0.ref), (main_call62.call0.v1.ref), main_c_75, (main_call63.v0.ref), (main_call63.v1.ref), (main_call63.v2.ref), (main_call63.v3.ref), (main_call63.v4.ref), (main_call63.v5.ref), (main_call63.v6.ref), (main_call63.v7.ref), (main_call63.c.ref), (main_call63.v8.ref), (main_call63.v9.ref), (main_call63.v10.ref), (main_call63.c_0.ref), (main_call63.v11.ref), (main_call63.v12.ref), (main_call63.call0.v0.ref), main_c_76, (main_call64.v0.ref), (main_call64.c.ref), (main_call64.v1.ref), (main_call64.c_0.ref), (main_call64.call0.v0.ref), (main_call64.v3.ref), (main_call64.v4.ref), (main_call64.c_1.ref), (main_call64.v5.ref), (main_call64.v6.ref), (main_call64.c_2.ref), (main_call64.v7.ref), (main_call64.v8.ref), (main_call64.c_3.ref), (main_call64.v9.ref), (main_call64.v10.ref), (main_call64.v11.ref), (main_call64.v12.ref), (main_call64.v13.ref), (main_call64.v14.ref), (main_call64.v15.ref), (main_call65.c.ref), (main_call65.v0.ref), (main_call65.v1.ref), (main_call65.c_0.ref), (main_call65.v2.ref), (main_call65.v3.ref), (main_call65.call0.v0.ref), (main_call65.v5.ref), (main_call65.c_1.ref), (main_call65.c_2.ref), (main_call65.v6.ref), (main_call65.v7.ref), (main_call65.v8.ref), (main_call65.v9.ref), (main_call65.v10.ref), (main_call65.v11.ref), (main_call65.c_3.ref), (main_call65.v12.ref), (main_call65.v13.ref), (main_call65.v14.ref), (main_call65.cst.ref), (main_call65.v15.ref), (main_call65.v16.ref)]

/-- The iteration up to the row lookup. -/
noncomputable def it10hd : List (HloOp τ sig (Elt F)) := it10A ++ (it10B ++ (it10C ++ (it10D ++ (it10E ++ it10G))))

/-- The iteration. -/
noncomputable def it10 : List (HloOp τ sig (Elt F)) := it10hd ++ it10H
theorem it10_sub : (it10 (F := F)).Forall fun op => op.bufs ⊆ tcRefs τ sig :=
  forall_append (forall_append it10A_sub (forall_append it10B_sub (forall_append it10C_sub (forall_append it10D_sub (forall_append it10E_sub it10G_sub))))) it10H_sub
theorem it10_fresh : (it10 (F := F)).Forall fun op => op.fresh = ∅ :=
  forall_append (forall_append it10A_fresh (forall_append it10B_fresh (forall_append it10C_fresh (forall_append it10D_fresh (forall_append it10E_fresh it10G_fresh))))) it10H_fresh

/-- The iteration as the concatenation of its pieces. -/
theorem it10_atoms : it10 (F := F) = it10A ++ (it10B ++ (it10C ++ (it10D ++ (it10E ++ (it10G ++ it10H))))) := by
  simp only [it10, it10hd, List.append_assoc]

end Cert.ReferenceIdeal.HandRun

end
-- ==== Proof.RefIt10.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt10

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it10A_val (V : Valuation τ sig (Elt F)) :
    after (it10A (F := F)) V (Proc.devRef (τ := τ) .tc main_v190) = RefFns.colMask (V (Proc.devRef (τ := τ) .tc main_v1)) 10 slices_S1024x32x1_S1024x1x1_0_10_0 := by
  simp only [it10A, List.cons_append, List.nil_append]
  after_results_simp
  try simp only [cast_eq]
  rfl

set_option maxRecDepth 65536 in
set_option maxHeartbeats 1000000 in
theorem it10B_val (V : Valuation τ sig (Elt F)) :
    after (it10B (F := F)) V (Proc.devRef (τ := τ) .tc main_v191) = RefFns.cumsumF (V (Proc.devRef (τ := τ) .tc main_v190)) := by
  simp only [it10B, List.cons_append, List.nil_append]
  after_results_simp
  try simp only [cast_eq]
  rfl

set_option maxRecDepth 65536 in
set_option maxHeartbeats 1000000 in
theorem it10C_val (V : Valuation τ sig (Elt F)) :
    after (it10C (F := F)) V (Proc.devRef (τ := τ) .tc main_v201) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v191)) (constantI S_ 32 0#32)) (broadcastInDim S1024 ![] bcast_S_S1024 (constantI S_ 32 0#32))) (addi (RefFns.clipF (V (Proc.devRef (τ := τ) .tc main_v191)) (constantI S_ 32 0#32)) (broadcastInDim S1024 ![] bcast_S_S1024 (constantI S_ 32 1024#32))) (RefFns.clipF (V (Proc.devRef (τ := τ) .tc main_v191)) (constantI S_ 32 0#32)))) (broadcastInDim S1024 ![] bcast_S_S1024 (constantI S_ 32 1#32)) := by
  simp only [it10C, List.cons_append, List.nil_append]
  after_results_simp
  try simp only [cast_eq]
  rfl

set_option maxRecDepth 65536 in
set_option maxHeartbeats 1000000 in
theorem it10D_val (V : Valuation τ sig (Elt F)) :
    after (it10D (F := F)) V (Proc.devRef (τ := τ) .tc main_v202) = RefFns.cumsum1F (V (Proc.devRef (τ := τ) .tc main_v201)) := by
  simp only [it10D, List.cons_append, List.nil_append]
  after_results_simp
  try simp only [cast_eq]
  rfl

set_option maxRecDepth 65536 in
set_option maxHeartbeats 1000000 in
theorem it10E_val (V : Valuation τ sig (Elt F)) :
    after (it10E (F := F)) V (Proc.devRef (τ := τ) .tc main_v203) = RefFns.floorDivF (V (Proc.devRef (τ := τ) .tc main_v202)) (constantI S_ 32 1#32) := by
  simp only [it10E, List.cons_append, List.nil_append]
  after_results_simp
  try simp only [cast_eq]
  rfl

set_option maxRecDepth 65536 in
set_option maxHeartbeats 1000000 in
theorem it10G_val (V : Valuation τ sig (Elt F)) :
    after (it10G (F := F)) V (Proc.devRef (τ := τ) .tc main_v204) = RefFns.remainderF (V (Proc.devRef (τ := τ) .tc main_v203)) (constantI S_ 32 1024#32) := by
  simp only [it10G, List.cons_append, List.nil_append]
  after_results_simp
  try simp only [cast_eq]
  rfl

set_option maxRecDepth 65536 in
set_option maxHeartbeats 1000000 in
theorem it10H_val (V : Valuation τ sig (Elt F)) :
    after (it10H (F := F)) V (Proc.devRef (τ := τ) .tc main_v205) = RefFns.takeF (V (Proc.devRef (τ := τ) .tc main_v7)) (V (Proc.devRef (τ := τ) .tc main_v204)) := by
  simp only [it10H, List.cons_append, List.nil_append]
  after_results_simp
  try simp only [cast_eq]
  rfl

theorem it10A_writes : (it10A (F := F)).Forall fun op => op.writes ⊆ (it10_W.map (Proc.devRef (τ := τ) .tc)).toFinset :=
  ⟨wsub main_v188 (by decide), wsub main_v189 (by decide), wsub main_v190 (by decide)⟩

theorem it10B_writes : (it10B (F := F)).Forall fun op => op.writes ⊆ (it10_W.map (Proc.devRef (τ := τ) .tc)).toFinset :=
  ⟨wsub (main_call60.v0.ref) (by decide), wsub (main_call60.call0.c.ref) (by decide), wsub (main_call60.call0.v0.ref) (by decide), wsub (main_call60.call0.v1.ref) (by decide)⟩

theorem it10C_writes : (it10C (F := F)).Forall fun op => op.writes ⊆ (it10_W.map (Proc.devRef (τ := τ) .tc)).toFinset :=
  ⟨wsub main_c_70 (by decide), wsub main_v192 (by decide), wsub main_c_71 (by decide), wsub (main_call61.v0.ref) (by decide), wsub (main_call61.v1.ref) (by decide), wsub (main_call61.v2.ref) (by decide), wsub main_c_72 (by decide), wsub main_v194 (by decide), wsub main_v195 (by decide), wsub main_c_73 (by decide), wsub main_v196 (by decide), wsub main_v197 (by decide), wsub main_v198 (by decide), wsub main_v199 (by decide), wsub main_c_74 (by decide), wsub main_v200 (by decide), wsub main_v201 (by decide)⟩

theorem it10D_writes : (it10D (F := F)).Forall fun op => op.writes ⊆ (it10_W.map (Proc.devRef (τ := τ) .tc)).toFinset :=
  ⟨wsub (main_call62.call0.c.ref) (by decide), wsub (main_call62.call0.v0.ref) (by decide), wsub (main_call62.call0.v1.ref) (by decide)⟩

theorem it10E_writes : (it10E (F := F)).Forall fun op => op.writes ⊆ (it10_W.map (Proc.devRef (τ := τ) .tc)).toFinset :=
  ⟨wsub main_c_75 (by decide), wsub (main_call63.v0.ref) (by decide), wsub (main_call63.v1.ref) (by decide), wsub (main_call63.v2.ref) (by decide), wsub (main_call63.v3.ref) (by decide), wsub (main_call63.v4.ref) (by decide), wsub (main_call63.v5.ref) (by decide), wsub (main_call63.v6.ref) (by decide), wsub (main_call63.v7.ref) (by decide), wsub (main_call63.c.ref) (by decide), wsub (main_call63.v8.ref) (by decide), wsub (main_call63.v9.ref) (by decide), wsub (main_call63.v10.ref) (by decide), wsub (main_call63.c_0.ref) (by decide), wsub (main_call63.v11.ref) (by decide), wsub (main_call63.v12.ref) (by decide), wsub (main_call63.call0.v0.ref) (by decide)⟩

theorem it10G_writes : (it10G (F := F)).Forall fun op => op.writes ⊆ (it10_W.map (Proc.devRef (τ := τ) .tc)).toFinset :=
  ⟨wsub main_c_76 (by decide), wsub (main_call64.v0.ref) (by decide), wsub (main_call64.c.ref) (by decide), wsub (main_call64.v1.ref) (by decide), wsub (main_call64.c_0.ref) (by decide), wsub (main_call64.call0.v0.ref) (by decide), wsub (main_call64.v3.ref) (by decide), wsub (main_call64.v4.ref) (by decide), wsub (main_call64.c_1.ref) (by decide), wsub (main_call64.v5.ref) (by decide), wsub (main_call64.v6.ref) (by decide), wsub (main_call64.c_2.ref) (by decide), wsub (main_call64.v7.ref) (by decide), wsub (main_call64.v8.ref) (by decide), wsub (main_call64.c_3.ref) (by decide), wsub (main_call64.v9.ref) (by decide), wsub (main_call64.v10.ref) (by decide), wsub (main_call64.v11.ref) (by decide), wsub (main_call64.v12.ref) (by decide), wsub (main_call64.v13.ref) (by decide), wsub (main_call64.v14.ref) (by decide), wsub (main_call64.v15.ref) (by decide)⟩

theorem it10H_writes : (it10H (F := F)).Forall fun op => op.writes ⊆ (it10_W.map (Proc.devRef (τ := τ) .tc)).toFinset :=
  ⟨wsub (main_call65.c.ref) (by decide), wsub (main_call65.v0.ref) (by decide), wsub (main_call65.v1.ref) (by decide), wsub (main_call65.c_0.ref) (by decide), wsub (main_call65.v2.ref) (by decide), wsub (main_call65.v3.ref) (by decide), wsub (main_call65.call0.v0.ref) (by decide), wsub (main_call65.v5.ref) (by decide), wsub (main_call65.c_1.ref) (by decide), wsub (main_call65.c_2.ref) (by decide), wsub (main_call65.v6.ref) (by decide), wsub (main_call65.v7.ref) (by decide), wsub (main_call65.v8.ref) (by decide), wsub (main_call65.v9.ref) (by decide), wsub (main_call65.v10.ref) (by decide), wsub (main_call65.v11.ref) (by decide), wsub (main_call65.c_3.ref) (by decide), wsub (main_call65.v12.ref) (by decide), wsub (main_call65.v13.ref) (by decide), wsub (main_call65.v14.ref) (by decide), wsub (main_call65.cst.ref) (by decide), wsub (main_call65.v15.ref) (by decide), wsub (main_call65.v16.ref) (by decide)⟩

theorem it10hd_writes : (it10hd (F := F)).Forall fun op => op.writes ⊆ (it10_W.map (Proc.devRef (τ := τ) .tc)).toFinset :=
  forall_append it10A_writes (forall_append it10B_writes (forall_append it10C_writes (forall_append it10D_writes (forall_append it10E_writes it10G_writes))))

theorem it10_writes : (it10 (F := F)).Forall fun op => op.writes ⊆ (it10_W.map (Proc.devRef (τ := τ) .tc)).toFinset :=
  forall_append it10hd_writes (it10H_writes)

/-- The iteration leaves every buffer it does not write as it was. -/
theorem it10_keep (V : Valuation τ sig (Elt F)) (r : Ref sig .tc) (hr : r ∉ it10_W) :
    after (it10 (F := F)) V (Proc.devRef (τ := τ) .tc r) = V (Proc.devRef (τ := τ) .tc r) :=
  after_of_writes_sub it10 V it10_writes hr

theorem it10hd_keep (V : Valuation τ sig (Elt F)) (r : Ref sig .tc) (hr : r ∉ it10_W) :
    after (it10hd (F := F)) V (Proc.devRef (τ := τ) .tc r) = V (Proc.devRef (τ := τ) .tc r) :=
  after_of_writes_sub it10hd V it10hd_writes hr

/-- The iteration's result: the rows of the matrix it is handed at the compacted indices of its mask. -/
theorem it10_res (V : Valuation τ sig (Elt F)) :
    after (it10 (F := F)) V (Proc.devRef (τ := τ) .tc main_v205) = RefFns.nzTake (V (Proc.devRef (τ := τ) .tc main_v7)) (RefFns.colMask (V (Proc.devRef (τ := τ) .tc main_v1)) 10 slices_S1024x32x1_S1024x1x1_0_10_0) := by
  rw [it10, after_append, it10H_val, it10hd_keep V main_v7 (by decide), it10hd]
  simp only [after_append]
  rw [it10G_val, it10E_val, it10D_val, it10C_val, it10B_val, it10A_val]
  rfl

set_option maxRecDepth 65536 in
set_option maxHeartbeats 4000000 in
/-- The invariant of the run survives the iteration, with its block added. -/
theorem it10_step {x : FVec F S1x32x1024 .f32} {V : Valuation τ sig (Elt F)} (hg : Good 10 x V) : Good 11 x (after (it10 (F := F)) V) :=
  good_step 10 (by decide) it10 it10_W slices_S1024x32x1_S1024x1x1_0_10_0 it10_keep it10_res (fun _ => rfl) (by decide +kernel) (by decide +kernel) (by decide +kernel) (by decide +kernel) hg

end Cert.ReferenceIdeal.HandRun

end
-- ==== Proof.RefOpsIt11.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 4 of @main). -/
noncomputable def it11A : List (HloOp τ sig (Elt F)) :=
  [ StableHlo.unary main_v1 main_v206 ((extractStridedSlice S1024x1x1 ![0, 11, 0] · slices_S1024x32x1_S1024x1x1_0_11_0) : (⟨S1024x32x1, .i1⟩ : BufTy).Contents (Elt F) → (⟨S1024x1x1, .i1⟩ : BufTy).Contents (Elt F)),
    StableHlo.reshape main_v206 main_v207 rfl shapeCasts_S1024x1x1_S1024,
    StableHlo.unary main_v207 main_v208 (noti : (⟨S1024, .i1⟩ : BufTy).Contents (Elt F) → (⟨S1024, .i1⟩ : BufTy).Contents (Elt F)) ]

theorem it11A_sub : (it11A (F := F)).Forall fun op => op.bufs ⊆ tcRefs τ sig :=
  ⟨unary_bufs_sub .., reshape_bufs_sub .., unary_bufs_sub ..⟩

theorem it11A_fresh : (it11A (F := F)).Forall fun op => op.fresh = ∅ :=
  ⟨rfl, rfl, rfl⟩

/-- A piece of this stretch (window 4 of @main). -/
noncomputable def it11B : List (HloOp τ sig (Elt F)) :=
  [ StableHlo.TRef.unary (.of main_v208 : StableHlo.TRef sig ⟨S1024, .i1⟩) main_call66.v0 (extui 32 · natLt_1_32),
    StableHlo.TRef.nullary main_call66.call0.c (constantI S_ 32 0#32),
    StableHlo.TRef.unary main_call66.call0.c main_call66.call0.v0 (broadcastInDim S_ ![] bcast_S_S_),
    StableHlo.TRef.binary main_call66.v0 main_call66.call0.v0 main_call66.call0.v1 (fun x v => Host.reduceWindow IntOp.addi ![1024] ![1] ![1023] ![0] x v reduceWindows_S1024_S1024_w1024s1p1023_0 h_S_) ]

theorem it11B_sub : (it11B (F := F)).Forall fun op => op.bufs ⊆ tcRefs τ sig :=
  ⟨unary_bufs_sub .., nullary_bufs_sub .., unary_bufs_sub .., binary_bufs_sub ..⟩

theorem it11B_fresh : (it11B (F := F)).Forall fun op => op.fresh = ∅ :=
  ⟨rfl, rfl, rfl, rfl⟩

/-- A piece of this stretch (window 4 of @main). -/
noncomputable def it11Ca : List (HloOp τ sig (Elt F)) :=
  [ StableHlo.nullary main_c_77 (constantI S_ 32 0#32),
    StableHlo.unary main_c_77 main_v210 (broadcastInDim S1024 ![] bcast_S_S1024 : (⟨S_, .i32⟩ : BufTy).Contents (Elt F) → (⟨S1024, .i32⟩ : BufTy).Contents (Elt F)),
    StableHlo.nullary main_c_78 (constantI S_ 32 0#32),
    StableHlo.TRef.unary (.of main_c_78 : StableHlo.TRef sig ⟨S_, .i32⟩) main_call67.v0 id,
    StableHlo.TRef.unary main_call67.v0 main_call67.v1 (broadcastInDim S1024 ![] bcast_S_S1024),
    StableHlo.TRef.binary main_call67.v1 (.of main_v209 : StableHlo.TRef sig ⟨S1024, .i32⟩) main_call67.v2 maxsi,
    StableHlo.nullary main_c_79 (constantI S_ 32 0#32),
    StableHlo.unary main_c_79 main_v212 (broadcastInDim S1024 ![] bcast_S_S1024 : (⟨S_, .i32⟩ : BufTy).Contents (Elt F) → (⟨S1024, .i32⟩ : BufTy).Contents (Elt F)),
    StableHlo.binary main_v211 main_v212 main_v213 (cmpi .slt : (⟨S1024, .i32⟩ : BufTy).Contents (Elt F) → (⟨S1024, .i32⟩ : BufTy).Contents (Elt F) → (⟨S1024, .i1⟩ : BufTy).Contents (Elt F)),
    StableHlo.nullary main_c_80 (constantI S_ 32 1024#32),
    StableHlo.unary main_c_80 main_v214 (broadcastInDim S1024 ![] bcast_S_S1024 : (⟨S_, .i32⟩ : BufTy).Contents (Elt F) → (⟨S1024, .i32⟩ : BufTy).Contents (Elt F)),
    StableHlo.binary main_v211 main_v214 main_v215 (addi : (⟨S1024, .i32⟩ : BufTy).Contents (Elt F) → (⟨S1024, .i32⟩ : BufTy).Contents (Elt F) → (⟨S1024, .i32⟩ : BufTy).Contents (Elt F)),
    StableHlo.ternary main_v213 main_v215 main_v211 main_v216 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v216 main_v217 (broadcastInDim S1024x1 ![0] bcast_S1024_S1024x1_0 : (⟨S1024, .i32⟩ : BufTy).Contents (Elt F) → (⟨S1024x1, .i32⟩ : BufTy).Contents (Elt F)) ]

theorem it11Ca_sub : (it11Ca (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

theorem it11Ca_fresh : (it11Ca (F := F)).Forall fun op => op.fresh = ∅ :=
  ⟨rfl, rfl, rfl, rfl, rfl, rfl, rfl, rfl, rfl, rfl, rfl, rfl, rfl, rfl⟩

/-- A piece of this stretch (window 5 of @main). -/
noncomputable def it11Cb : List (HloOp τ sig (Elt F)) :=
  [ StableHlo.nullary main_c_81 (constantI S_ 32 1#32),
    StableHlo.unary main_c_81 main_v218 (broadcastInDim S1024 ![] bcast_S_S1024 : (⟨S_, .i32⟩ : BufTy).Contents (Elt F) → (⟨S1024, .i32⟩ : BufTy).Contents (Elt F)),
    StableHlo.ternary main_v210 main_v217 main_v218 main_v219 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it11Cb_sub : (it11Cb (F := F)).Forall fun op => op.bufs ⊆ tcRefs τ sig :=
  ⟨nullary_bufs_sub .., unary_bufs_sub .., ternary_bufs_sub ..⟩

theorem it11Cb_fresh : (it11Cb (F := F)).Forall fun op => op.fresh = ∅ :=
  ⟨rfl, rfl, rfl⟩

/-- A piece of this stretch (window 5 of @main). -/
noncomputable def it11D : List (HloOp τ sig (Elt F)) :=
  [ StableHlo.TRef.nullary main_call68.call0.c (constantI S_ 32 0#32),
    StableHlo.TRef.unary main_call68.call0.c main_call68.call0.v0 (broadcastInDim S_ ![] bcast_S_S_),
    StableHlo.TRef.binary (.of main_v219 : StableHlo.TRef sig ⟨S1024, .i32⟩) main_call68.call0.v0 main_call68.call0.v1 (fun x v => Host.reduceWindow IntOp.addi ![1024] ![1] ![1023] ![0] x v reduceWindows_S1024_S1024_w1024s1p1023_0 h_S_) ]

theorem it11D_sub : (it11D (F := F)).Forall fun op => op.bufs ⊆ tcRefs τ sig :=
  ⟨nullary_bufs_sub .., unary_bufs_sub .., binary_bufs_sub ..⟩

theorem it11D_fresh : (it11D (F := F)).Forall fun op => op.fresh = ∅ :=
  ⟨rfl, rfl, rfl⟩

/-- A piece of this stretch (window 5 of @main). -/
noncomputable def it11E : List (HloOp τ sig (Elt F)) :=
  [ StableHlo.nullary main_c_82 (constantI S_ 32 1#32),
    StableHlo.TRef.unary (.of main_c_82 : StableHlo.TRef sig ⟨S_, .i32⟩) main_call69.v0 (broadcastInDim S1024 ![] bcast_S_S1024),
    StableHlo.TRef.binary (.of main_v220 : StableHlo.TRef sig ⟨S1024, .i32⟩) main_call69.v0 main_call69.v1 Host.divsi,
    StableHlo.TRef.unary (.of main_v220 : StableHlo.TRef sig ⟨S1024, .i32⟩) main_call69.v2 signi,
    StableHlo.TRef.unary (.of main_c_82 : StableHlo.TRef sig ⟨S_, .i32⟩) main_call69.v3 signi,
    StableHlo.TRef.unary main_call69.v3 main_call69.v4 (broadcastInDim S1024 ![] bcast_S_S1024),
    StableHlo.TRef.binary main_call69.v2 main_call69.v4 main_call69.v5 (cmpi .ne),
    StableHlo.TRef.unary (.of main_c_82 : StableHlo.TRef sig ⟨S_, .i32⟩) main_call69.v6 (broadcastInDim S1024 ![] bcast_S_S1024),
    StableHlo.TRef.binary (.of main_v220 : StableHlo.TRef sig ⟨S1024, .i32⟩) main_call69.v6 main_call69.v7 Host.remsi,
    StableHlo.TRef.nullary main_call69.c (constantI S_ 32 0#32),
    StableHlo.TRef.unary main_call69.c main_call69.v8 (broadcastInDim S1024 ![] bcast_S_S1024),
    StableHlo.TRef.binary main_call69.v7 main_call69.v8 main_call69.v9 (cmpi .ne),
    StableHlo.TRef.binary main_call69.v5 main_call69.v9 main_call69.v10 andi,
    StableHlo.TRef.nullary main_call69.c_0 (constantI S_ 32 1#32),
    StableHlo.TRef.unary main_call69.c_0 main_call69.v11 (broadcastInDim S1024 ![] bcast_S_S1024),
    StableHlo.TRef.binary main_call69.v1 main_call69.v11 main_call69.v12 subi,
    StableHlo.TRef.ternary main_call69.v10 main_call69.v12 main_call69.v1 main_call69.call0.v0 select ]

theorem it11E_sub : (it11E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it11E_fresh : (it11E (F := F)).Forall fun op => op.fresh = ∅ :=
  ⟨rfl, rfl, rfl, rfl, rfl, rfl, rfl, rfl, rfl, rfl, rfl, rfl, rfl, rfl, rfl, rfl, rfl⟩

/-- A piece of this stretch (window 5 of @main). -/
noncomputable def it11G : List (HloOp τ sig (Elt F)) :=
  [ StableHlo.nullary main_c_83 (constantI S_ 32 1024#32),
    StableHlo.TRef.unary (.of main_c_83 : StableHlo.TRef sig ⟨S_, .i32⟩) main_call70.v0 id,
    StableHlo.TRef.nullary main_call70.c (constantI S_ 32 0#32),
    StableHlo.TRef.binary main_call70.v0 main_call70.c main_call70.v1 (cmpi .eq),
    StableHlo.TRef.nullary main_call70.c_0 (constantI S_ 32 1#32),
    StableHlo.TRef.ternary main_call70.v1 main_call70.c_0 main_call70.v0 main_call70.call0.v0 select,
    StableHlo.TRef.unary main_call70.call0.v0 main_call70.v3 (broadcastInDim S1024 ![] bcast_S_S1024),
    StableHlo.TRef.binary (.of main_v221 : StableHlo.TRef sig ⟨S1024, .i32⟩) main_call70.v3 main_call70.v4 Host.remsi,
    StableHlo.TRef.nullary main_call70.c_1 (constantI S_ 32 0#32),
    StableHlo.TRef.unary main_call70.c_1 main_call70.v5 (broadcastInDim S1024 ![] bcast_S_S1024),
    StableHlo.TRef.binary main_call70.v4 main_call70.v5 main_call70.v6 (cmpi .ne),
    StableHlo.TRef.nullary main_call70.c_2 (constantI S_ 32 0#32),
    StableHlo.TRef.unary main_call70.c_2 main_call70.v7 (broadcastInDim S1024 ![] bcast_S_S1024),
    StableHlo.TRef.binary main_call70.v4 main_call70.v7 main_call70.v8 (cmpi .slt),
    StableHlo.TRef.nullary main_call70.c_3 (constantI S_ 32 0#32),
    StableHlo.TRef.binary main_call70.call0.v0 main_call70.c_3 main_call70.v9 (cmpi .slt),
    StableHlo.TRef.unary main_call70.v9 main_call70.v10 (broadcastInDim S1024 ![] bcast_S_S1024),
    StableHlo.TRef.binary main_call70.v8 main_call70.v10 main_call70.v11 (cmpi .ne),
    StableHlo.TRef.binary main_call70.v11 main_call70.v6 main_call70.v12 andi,
    StableHlo.TRef.unary main_call70.call0.v0 main_call70.v13 (broadcastInDim S1024 ![] bcast_S_S1024),
    StableHlo.TRef.binary main_call70.v4 main_call70.v13 main_call70.v14 addi,
    StableHlo.TRef.ternary main_call70.v12 main_call70.v14 main_call70.v4 main_call70.v15 select ]

theorem it11G_sub : (it11G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it11G_fresh : (it11G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 5 of @main). -/
noncomputable def it11H : List (HloOp τ sig (Elt F)) :=
  [ StableHlo.TRef.nullary main_call71.c (constantI S_ 32 0#32),
    StableHlo.TRef.unary main_call71.c main_call71.v0 (broadcastInDim S1024 ![] bcast_S_S1024),
    StableHlo.TRef.binary (.of main_v222 : StableHlo.TRef sig ⟨S1024, .i32⟩) main_call71.v0 main_call71.v1 (cmpi .slt),
    StableHlo.TRef.nullary main_call71.c_0 (constantI S_ 32 1024#32),
    StableHlo.TRef.unary main_call71.c_0 main_call71.v2 (broadcastInDim S1024 ![] bcast_S_S1024),
    StableHlo.TRef.binary (.of main_v222 : StableHlo.TRef sig ⟨S1024, .i32⟩) main_call71.v2 main_call71.v3 addi,
    StableHlo.TRef.ternary main_call71.v1 main_call71.v3 (.of main_v222 : StableHlo.TRef sig ⟨S1024, .i32⟩) main_call71.call0.v0 select,
    StableHlo.TRef.unary main_call71.call0.v0 main_call71.v5 (broadcastInDim S1024x1 ![0] bcast_S1024_S1024x1_0),
    StableHlo.TRef.nullary main_call71.c_1 (constantI S1 32 1023#32),
    StableHlo.TRef.nullary main_call71.c_2 (constantI S_ 32 0#32),
    StableHlo.TRef.unary main_call71.c_2 main_call71.v6 (broadcastInDim S1024x1 ![] bcast_S_S1024x1),
    StableHlo.TRef.binary main_call71.v5 main_call71.v6 main_call71.v7 (cmpi .sge),
    StableHlo.TRef.unary main_call71.c_1 main_call71.v8 (broadcastInDim S1x1 ![1] bcast_S1_S1x1_1),
    StableHlo.TRef.unary main_call71.v8 main_call71.v9 (broadcastInDim S1024x1 ![0, 1] bcast_S1x1_S1024x1_0_1),
    StableHlo.TRef.binary main_call71.v5 main_call71.v9 main_call71.v10 (cmpi .sle),
    StableHlo.TRef.binary main_call71.v7 main_call71.v10 main_call71.v11 andi,
    StableHlo.TRef.nullary main_call71.c_3 (constantI S_ 1 1#1),
    StableHlo.TRef.binary main_call71.v11 main_call71.c_3 main_call71.v12 (fun x v => Host.reduce IntOp.andi x v reducesTo_S1024x1_S1024_d1 h_S_),
    StableHlo.TRef.binary (.of main_v7 : StableHlo.TRef sig ⟨S1024x1024, .f32⟩) main_call71.v5 main_call71.v13 (fun x i => Host.gather gather_S1024x1024_S1024x1_S1024x1024_1_0_n_n_0_1_11024 x i),
    StableHlo.TRef.unary main_call71.v12 main_call71.v14 (broadcastInDim S1024x1024 ![0] bcast_S1024_S1024x1024_0),
    StableHlo.TRef.nullary main_call71.cst (constant S_ .f32 0x7FC00000#32),
    StableHlo.TRef.unary main_call71.cst main_call71.v15 (broadcastInDim S1024x1024 ![] bcast_S_S1024x1024),
    StableHlo.TRef.ternary main_call71.v14 main_call71.v13 main_call71.v15 main_call71.v16 select ]

theorem it11H_sub : (it11H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it11H_fresh : (it11H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it11_W : List (Ref sig .tc) :=
  [main_v206, main_v207, main_v208, (main_call66.v0.ref), (main_call66.call0.c.ref), (main_call66.call0.v0.ref), (main_call66.call0.v1.ref), main_c_77, main_v210, main_c_78, (main_call67.v0.ref), (main_call67.v1.ref), (main_call67.v2.ref), main_c_79, main_v212, main_v213, main_c_80, main_v214, main_v215, main_v216, main_v217, main_c_81, main_v218, main_v219, (main_call68.call0.c.ref), (main_call68.call0.v0.ref), (main_call68.call0.v1.ref), main_c_82, (main_call69.v0.ref), (main_call69.v1.ref), (main_call69.v2.ref), (main_call69.v3.ref), (main_call69.v4.ref), (main_call69.v5.ref), (main_call69.v6.ref), (main_call69.v7.ref), (main_call69.c.ref), (main_call69.v8.ref), (main_call69.v9.ref), (main_call69.v10.ref), (main_call69.c_0.ref), (main_call69.v11.ref), (main_call69.v12.ref), (main_call69.call0.v0.ref), main_c_83, (main_call70.v0.ref), (main_call70.c.ref), (main_call70.v1.ref), (main_call70.c_0.ref), (main_call70.call0.v0.ref), (main_call70.v3.ref), (main_call70.v4.ref), (main_call70.c_1.ref), (main_call70.v5.ref), (main_call70.v6.ref), (main_call70.c_2.ref), (main_call70.v7.ref), (main_call70.v8.ref), (main_call70.c_3.ref), (main_call70.v9.ref), (main_call70.v10.ref), (main_call70.v11.ref), (main_call70.v12.ref), (main_call70.v13.ref), (main_call70.v14.ref), (main_call70.v15.ref), (main_call71.c.ref), (main_call71.v0.ref), (main_call71.v1.ref), (main_call71.c_0.ref), (main_call71.v2.ref), (main_call71.v3.ref), (main_call71.call0.v0.ref), (main_call71.v5.ref), (main_call71.c_1.ref), (main_call71.c_2.ref), (main_call71.v6.ref), (main_call71.v7.ref), (main_call71.v8.ref), (main_call71.v9.ref), (main_call71.v10.ref), (main_call71.v11.ref), (main_call71.c_3.ref), (main_call71.v12.ref), (main_call71.v13.ref), (main_call71.v14.ref), (main_call71.cst.ref), (main_call71.v15.ref), (main_call71.v16.ref)]

/-- One stage of the iteration, whole. -/
noncomputable def it11C : List (HloOp τ sig (Elt F)) := it11Ca ++ it11Cb
theorem it11C_sub : (it11C (F := F)).Forall fun op => op.bufs ⊆ tcRefs τ sig :=
  forall_append it11Ca_sub it11Cb_sub
theorem it11C_fresh : (it11C (F := F)).Forall fun op => op.fresh = ∅ :=
  forall_append it11Ca_fresh it11Cb_fresh

/-- The iteration up to the row lookup. -/
noncomputable def it11hd : List (HloOp τ sig (Elt F)) := it11A ++ (it11B ++ (it11C ++ (it11D ++ (it11E ++ it11G))))

/-- The iteration. -/
noncomputable def it11 : List (HloOp τ sig (Elt F)) := it11hd ++ it11H
theorem it11_sub : (it11 (F := F)).Forall fun op => op.bufs ⊆ tcRefs τ sig :=
  forall_append (forall_append it11A_sub (forall_append it11B_sub (forall_append it11C_sub (forall_append it11D_sub (forall_append it11E_sub it11G_sub))))) it11H_sub
theorem it11_fresh : (it11 (F := F)).Forall fun op => op.fresh = ∅ :=
  forall_append (forall_append it11A_fresh (forall_append it11B_fresh (forall_append it11C_fresh (forall_append it11D_fresh (forall_append it11E_fresh it11G_fresh))))) it11H_fresh

/-- The iteration as the concatenation of its pieces. -/
theorem it11_atoms : it11 (F := F) = it11A ++ (it11B ++ (it11Ca ++ (it11Cb ++ (it11D ++ (it11E ++ (it11G ++ it11H)))))) := by
  simp only [it11, it11hd, it11C, List.append_assoc]

end Cert.ReferenceIdeal.HandRun

end
-- ==== Proof.RefIt11.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt11

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it11A_val (V : Valuation τ sig (Elt F)) :
    after (it11A (F := F)) V (Proc.devRef (τ := τ) .tc main_v208) = RefFns.colMask (V (Proc.devRef (τ := τ) .tc main_v1)) 11 slices_S1024x32x1_S1024x1x1_0_11_0 := by
  simp only [it11A, List.cons_append, List.nil_append]
  after_results_simp
  try simp only [cast_eq]
  rfl

set_option maxRecDepth 65536 in
set_option maxHeartbeats 1000000 in
theorem it11B_val (V : Valuation τ sig (Elt F)) :
    after (it11B (F := F)) V (Proc.devRef (τ := τ) .tc main_v209) = RefFns.cumsumF (V (Proc.devRef (τ := τ) .tc main_v208)) := by
  simp only [it11B, List.cons_append, List.nil_append]
  after_results_simp
  try simp only [cast_eq]
  rfl

set_option maxRecDepth 65536 in
set_option maxHeartbeats 1000000 in
theorem it11C_val (V : Valuation τ sig (Elt F)) :
    after (it11C (F := F)) V (Proc.devRef (τ := τ) .tc main_v219) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v209)) (constantI S_ 32 0#32)) (broadcastInDim S1024 ![] bcast_S_S1024 (constantI S_ 32 0#32))) (addi (RefFns.clipF (V (Proc.devRef (τ := τ) .tc main_v209)) (constantI S_ 32 0#32)) (broadcastInDim S1024 ![] bcast_S_S1024 (constantI S_ 32 1024#32))) (RefFns.clipF (V (Proc.devRef (τ := τ) .tc main_v209)) (constantI S_ 32 0#32)))) (broadcastInDim S1024 ![] bcast_S_S1024 (constantI S_ 32 1#32)) := by
  simp only [it11C, it11Ca, it11Cb, List.cons_append, List.nil_append]
  after_results_simp
  try simp only [cast_eq]
  rfl

set_option maxRecDepth 65536 in
set_option maxHeartbeats 1000000 in
theorem it11D_val (V : Valuation τ sig (Elt F)) :
    after (it11D (F := F)) V (Proc.devRef (τ := τ) .tc main_v220) = RefFns.cumsum1F (V (Proc.devRef (τ := τ) .tc main_v219)) := by
  simp only [it11D, List.cons_append, List.nil_append]
  after_results_simp
  try simp only [cast_eq]
  rfl

set_option maxRecDepth 65536 in
set_option maxHeartbeats 1000000 in
theorem it11E_val (V : Valuation τ sig (Elt F)) :
    after (it11E (F := F)) V (Proc.devRef (τ := τ) .tc main_v221) = RefFns.floorDivF (V (Proc.devRef (τ := τ) .tc main_v220)) (constantI S_ 32 1#32) := by
  simp only [it11E, List.cons_append, List.nil_append]
  after_results_simp
  try simp only [cast_eq]
  rfl

set_option maxRecDepth 65536 in
set_option maxHeartbeats 1000000 in
theorem it11G_val (V : Valuation τ sig (Elt F)) :
    after (it11G (F := F)) V (Proc.devRef (τ := τ) .tc main_v222) = RefFns.remainderF (V (Proc.devRef (τ := τ) .tc main_v221)) (constantI S_ 32 1024#32) := by
  simp only [it11G, List.cons_append, List.nil_append]
  after_results_simp
  try simp only [cast_eq]
  rfl

set_option maxRecDepth 65536 in
set_option maxHeartbeats 1000000 in
theorem it11H_val (V : Valuation τ sig (Elt F)) :
    after (it11H (F := F)) V (Proc.devRef (τ := τ) .tc main_v223) = RefFns.takeF (V (Proc.devRef (τ := τ) .tc main_v7)) (V (Proc.devRef (τ := τ) .tc main_v222)) := by
  simp only [it11H, List.cons_append, List.nil_append]
  after_results_simp
  try simp only [cast_eq]
  rfl

theorem it11A_writes : (it11A (F := F)).Forall fun op => op.writes ⊆ (it11_W.map (Proc.devRef (τ := τ) .tc)).toFinset :=
  ⟨wsub main_v206 (by decide), wsub main_v207 (by decide), wsub main_v208 (by decide)⟩

theorem it11B_writes : (it11B (F := F)).Forall fun op => op.writes ⊆ (it11_W.map (Proc.devRef (τ := τ) .tc)).toFinset :=
  ⟨wsub (main_call66.v0.ref) (by decide), wsub (main_call66.call0.c.ref) (by decide), wsub (main_call66.call0.v0.ref) (by decide), wsub (main_call66.call0.v1.ref) (by decide)⟩

theorem it11Ca_writes : (it11Ca (F := F)).Forall fun op => op.writes ⊆ (it11_W.map (Proc.devRef (τ := τ) .tc)).toFinset :=
  ⟨wsub main_c_77 (by decide), wsub main_v210 (by decide), wsub main_c_78 (by decide), wsub (main_call67.v0.ref) (by decide), wsub (main_call67.v1.ref) (by decide), wsub (main_call67.v2.ref) (by decide), wsub main_c_79 (by decide), wsub main_v212 (by decide), wsub main_v213 (by decide), wsub main_c_80 (by decide), wsub main_v214 (by decide), wsub main_v215 (by decide), wsub main_v216 (by decide), wsub main_v217 (by decide)⟩

theorem it11Cb_writes : (it11Cb (F := F)).Forall fun op => op.writes ⊆ (it11_W.map (Proc.devRef (τ := τ) .tc)).toFinset :=
  ⟨wsub main_c_81 (by decide), wsub main_v218 (by decide), wsub main_v219 (by decide)⟩

theorem it11D_writes : (it11D (F := F)).Forall fun op => op.writes ⊆ (it11_W.map (Proc.devRef (τ := τ) .tc)).toFinset :=
  ⟨wsub (main_call68.call0.c.ref) (by decide), wsub (main_call68.call0.v0.ref) (by decide), wsub (main_call68.call0.v1.ref) (by decide)⟩

theorem it11E_writes : (it11E (F := F)).Forall fun op => op.writes ⊆ (it11_W.map (Proc.devRef (τ := τ) .tc)).toFinset :=
  ⟨wsub main_c_82 (by decide), wsub (main_call69.v0.ref) (by decide), wsub (main_call69.v1.ref) (by decide), wsub (main_call69.v2.ref) (by decide), wsub (main_call69.v3.ref) (by decide), wsub (main_call69.v4.ref) (by decide), wsub (main_call69.v5.ref) (by decide), wsub (main_call69.v6.ref) (by decide), wsub (main_call69.v7.ref) (by decide), wsub (main_call69.c.ref) (by decide), wsub (main_call69.v8.ref) (by decide), wsub (main_call69.v9.ref) (by decide), wsub (main_call69.v10.ref) (by decide), wsub (main_call69.c_0.ref) (by decide), wsub (main_call69.v11.ref) (by decide), wsub (main_call69.v12.ref) (by decide), wsub (main_call69.call0.v0.ref) (by decide)⟩

theorem it11G_writes : (it11G (F := F)).Forall fun op => op.writes ⊆ (it11_W.map (Proc.devRef (τ := τ) .tc)).toFinset :=
  ⟨wsub main_c_83 (by decide), wsub (main_call70.v0.ref) (by decide), wsub (main_call70.c.ref) (by decide), wsub (main_call70.v1.ref) (by decide), wsub (main_call70.c_0.ref) (by decide), wsub (main_call70.call0.v0.ref) (by decide), wsub (main_call70.v3.ref) (by decide), wsub (main_call70.v4.ref) (by decide), wsub (main_call70.c_1.ref) (by decide), wsub (main_call70.v5.ref) (by decide), wsub (main_call70.v6.ref) (by decide), wsub (main_call70.c_2.ref) (by decide), wsub (main_call70.v7.ref) (by decide), wsub (main_call70.v8.ref) (by decide), wsub (main_call70.c_3.ref) (by decide), wsub (main_call70.v9.ref) (by decide), wsub (main_call70.v10.ref) (by decide), wsub (main_call70.v11.ref) (by decide), wsub (main_call70.v12.ref) (by decide), wsub (main_call70.v13.ref) (by decide), wsub (main_call70.v14.ref) (by decide), wsub (main_call70.v15.ref) (by decide)⟩

theorem it11H_writes : (it11H (F := F)).Forall fun op => op.writes ⊆ (it11_W.map (Proc.devRef (τ := τ) .tc)).toFinset :=
  ⟨wsub (main_call71.c.ref) (by decide), wsub (main_call71.v0.ref) (by decide), wsub (main_call71.v1.ref) (by decide), wsub (main_call71.c_0.ref) (by decide), wsub (main_call71.v2.ref) (by decide), wsub (main_call71.v3.ref) (by decide), wsub (main_call71.call0.v0.ref) (by decide), wsub (main_call71.v5.ref) (by decide), wsub (main_call71.c_1.ref) (by decide), wsub (main_call71.c_2.ref) (by decide), wsub (main_call71.v6.ref) (by decide), wsub (main_call71.v7.ref) (by decide), wsub (main_call71.v8.ref) (by decide), wsub (main_call71.v9.ref) (by decide), wsub (main_call71.v10.ref) (by decide), wsub (main_call71.v11.ref) (by decide), wsub (main_call71.c_3.ref) (by decide), wsub (main_call71.v12.ref) (by decide), wsub (main_call71.v13.ref) (by decide), wsub (main_call71.v14.ref) (by decide), wsub (main_call71.cst.ref) (by decide), wsub (main_call71.v15.ref) (by decide), wsub (main_call71.v16.ref) (by decide)⟩

theorem it11hd_writes : (it11hd (F := F)).Forall fun op => op.writes ⊆ (it11_W.map (Proc.devRef (τ := τ) .tc)).toFinset :=
  forall_append it11A_writes (forall_append it11B_writes (forall_append (forall_append it11Ca_writes it11Cb_writes) (forall_append it11D_writes (forall_append it11E_writes it11G_writes))))

theorem it11_writes : (it11 (F := F)).Forall fun op => op.writes ⊆ (it11_W.map (Proc.devRef (τ := τ) .tc)).toFinset :=
  forall_append it11hd_writes (it11H_writes)

/-- The iteration leaves every buffer it does not write as it was. -/
theorem it11_keep (V : Valuation τ sig (Elt F)) (r : Ref sig .tc) (hr : r ∉ it11_W) :
    after (it11 (F := F)) V (Proc.devRef (τ := τ) .tc r) = V (Proc.devRef (τ := τ) .tc r) :=
  after_of_writes_sub it11 V it11_writes hr

theorem it11hd_keep (V : Valuation τ sig (Elt F)) (r : Ref sig .tc) (hr : r ∉ it11_W) :
    after (it11hd (F := F)) V (Proc.devRef (τ := τ) .tc r) = V (Proc.devRef (τ := τ) .tc r) :=
  after_of_writes_sub it11hd V it11hd_writes hr

/-- The iteration's result: the rows of the matrix it is handed at the compacted indices of its mask. -/
theorem it11_res (V : Valuation τ sig (Elt F)) :
    after (it11 (F := F)) V (Proc.devRef (τ := τ) .tc main_v223) = RefFns.nzTake (V (Proc.devRef (τ := τ) .tc main_v7)) (RefFns.colMask (V (Proc.devRef (τ := τ) .tc main_v1)) 11 slices_S1024x32x1_S1024x1x1_0_11_0) := by
  rw [it11, after_append, it11H_val, it11hd_keep V main_v7 (by decide), it11hd]
  simp only [after_append]
  rw [it11G_val, it11E_val, it11D_val, it11C_val, it11B_val, it11A_val]
  rfl

set_option maxRecDepth 65536 in
set_option maxHeartbeats 4000000 in
/-- The invariant of the run survives the iteration, with its block added. -/
theorem it11_step {x : FVec F S1x32x1024 .f32} {V : Valuation τ sig (Elt F)} (hg : Good 11 x V) : Good 12 x (after (it11 (F := F)) V) :=
  good_step 11 (by decide) it11 it11_W slices_S1024x32x1_S1024x1x1_0_11_0 it11_keep it11_res (fun _ => rfl) (by decide +kernel) (by decide +kernel) (by decide +kernel) (by decide +kernel) hg

end Cert.ReferenceIdeal.HandRun

end
-- ==== Proof.RefOpsIt12.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 5 of @main). -/
noncomputable def it12A : List (HloOp τ sig (Elt F)) :=
  [ StableHlo.unary main_v1 main_v224 ((extractStridedSlice S1024x1x1 ![0, 12, 0] · slices_S1024x32x1_S1024x1x1_0_12_0) : (⟨S1024x32x1, .i1⟩ : BufTy).Contents (Elt F) → (⟨S1024x1x1, .i1⟩ : BufTy).Contents (Elt F)),
    StableHlo.reshape main_v224 main_v225 rfl shapeCasts_S1024x1x1_S1024,
    StableHlo.unary main_v225 main_v226 (noti : (⟨S1024, .i1⟩ : BufTy).Contents (Elt F) → (⟨S1024, .i1⟩ : BufTy).Contents (Elt F)) ]

theorem it12A_sub : (it12A (F := F)).Forall fun op => op.bufs ⊆ tcRefs τ sig :=
  ⟨unary_bufs_sub .., reshape_bufs_sub .., unary_bufs_sub ..⟩

theorem it12A_fresh : (it12A (F := F)).Forall fun op => op.fresh = ∅ :=
  ⟨rfl, rfl, rfl⟩

/-- A piece of this stretch (window 5 of @main). -/
noncomputable def it12B : List (HloOp τ sig (Elt F)) :=
  [ StableHlo.TRef.unary (.of main_v226 : StableHlo.TRef sig ⟨S1024, .i1⟩) main_call72.v0 (extui 32 · natLt_1_32),
    StableHlo.TRef.nullary main_call72.call0.c (constantI S_ 32 0#32),
    StableHlo.TRef.unary main_call72.call0.c main_call72.call0.v0 (broadcastInDim S_ ![] bcast_S_S_),
    StableHlo.TRef.binary main_call72.v0 main_call72.call0.v0 main_call72.call0.v1 (fun x v => Host.reduceWindow IntOp.addi ![1024] ![1] ![1023] ![0] x v reduceWindows_S1024_S1024_w1024s1p1023_0 h_S_) ]

theorem it12B_sub : (it12B (F := F)).Forall fun op => op.bufs ⊆ tcRefs τ sig :=
  ⟨unary_bufs_sub .., nullary_bufs_sub .., unary_bufs_sub .., binary_bufs_sub ..⟩

theorem it12B_fresh : (it12B (F := F)).Forall fun op => op.fresh = ∅ :=
  ⟨rfl, rfl, rfl, rfl⟩

/-- A piece of this stretch (window 5 of @main). -/
noncomputable def it12C : List (HloOp τ sig (Elt F)) :=
  [ StableHlo.nullary main_c_84 (constantI S_ 32 0#32),
    StableHlo.unary main_c_84 main_v228 (broadcastInDim S1024 ![] bcast_S_S1024 : (⟨S_, .i32⟩ : BufTy).Contents (Elt F) → (⟨S1024, .i32⟩ : BufTy).Contents (Elt F)),
    StableHlo.nullary main_c_85 (constantI S_ 32 0#32),
    StableHlo.TRef.unary (.of main_c_85 : StableHlo.TRef sig ⟨S_, .i32⟩) main_call73.v0 id,
    StableHlo.TRef.unary main_call73.v0 main_call73.v1 (broadcastInDim S1024 ![] bcast_S_S1024),
    StableHlo.TRef.binary main_call73.v1 (.of main_v227 : StableHlo.TRef sig ⟨S1024, .i32⟩) main_call73.v2 maxsi,
    StableHlo.nullary main_c_86 (constantI S_ 32 0#32),
    StableHlo.unary main_c_86 main_v230 (broadcastInDim S1024 ![] bcast_S_S1024 : (⟨S_, .i32⟩ : BufTy).Contents (Elt F) → (⟨S1024, .i32⟩ : BufTy).Contents (Elt F)),
    StableHlo.binary main_v229 main_v230 main_v231 (cmpi .slt : (⟨S1024, .i32⟩ : BufTy).Contents (Elt F) → (⟨S1024, .i32⟩ : BufTy).Contents (Elt F) → (⟨S1024, .i1⟩ : BufTy).Contents (Elt F)),
    StableHlo.nullary main_c_87 (constantI S_ 32 1024#32),
    StableHlo.unary main_c_87 main_v232 (broadcastInDim S1024 ![] bcast_S_S1024 : (⟨S_, .i32⟩ : BufTy).Contents (Elt F) → (⟨S1024, .i32⟩ : BufTy).Contents (Elt F)),
    StableHlo.binary main_v229 main_v232 main_v233 (addi : (⟨S1024, .i32⟩ : BufTy).Contents (Elt F) → (⟨S1024, .i32⟩ : BufTy).Contents (Elt F) → (⟨S1024, .i32⟩ : BufTy).Contents (Elt F)),
    StableHlo.ternary main_v231 main_v233 main_v229 main_v234 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v234 main_v235 (broadcastInDim S1024x1 ![0] bcast_S1024_S1024x1_0 : (⟨S1024, .i32⟩ : BufTy).Contents (Elt F) → (⟨S1024x1, .i32⟩ : BufTy).Contents (Elt F)),
    StableHlo.nullary main_c_88 (constantI S_ 32 1#32),
    StableHlo.unary main_c_88 main_v236 (broadcastInDim S1024 ![] bcast_S_S1024 : (⟨S_, .i32⟩ : BufTy).Contents (Elt F) → (⟨S1024, .i32⟩ : BufTy).Contents (Elt F)),
    StableHlo.ternary main_v228 main_v235 main_v236 main_v237 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it12C_sub : (it12C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it12C_fresh : (it12C (F := F)).Forall fun op => op.fresh = ∅ :=
  ⟨rfl, rfl, rfl, rfl, rfl, rfl, rfl, rfl, rfl, rfl, rfl, rfl, rfl, rfl, rfl, rfl, rfl⟩

/-- A piece of this stretch (window 5 of @main). -/
noncomputable def it12D : List (HloOp τ sig (Elt F)) :=
  [ StableHlo.TRef.nullary main_call74.call0.c (constantI S_ 32 0#32),
    StableHlo.TRef.unary main_call74.call0.c main_call74.call0.v0 (broadcastInDim S_ ![] bcast_S_S_),
    StableHlo.TRef.binary (.of main_v237 : StableHlo.TRef sig ⟨S1024, .i32⟩) main_call74.call0.v0 main_call74.call0.v1 (fun x v => Host.reduceWindow IntOp.addi ![1024] ![1] ![1023] ![0] x v reduceWindows_S1024_S1024_w1024s1p1023_0 h_S_) ]

theorem it12D_sub : (it12D (F := F)).Forall fun op => op.bufs ⊆ tcRefs τ sig :=
  ⟨nullary_bufs_sub .., unary_bufs_sub .., binary_bufs_sub ..⟩

theorem it12D_fresh : (it12D (F := F)).Forall fun op => op.fresh = ∅ :=
  ⟨rfl, rfl, rfl⟩

/-- A piece of this stretch (window 5 of @main). -/
noncomputable def it12E : List (HloOp τ sig (Elt F)) :=
  [ StableHlo.nullary main_c_89 (constantI S_ 32 1#32),
    StableHlo.TRef.unary (.of main_c_89 : StableHlo.TRef sig ⟨S_, .i32⟩) main_call75.v0 (broadcastInDim S1024 ![] bcast_S_S1024),
    StableHlo.TRef.binary (.of main_v238 : StableHlo.TRef sig ⟨S1024, .i32⟩) main_call75.v0 main_call75.v1 Host.divsi,
    StableHlo.TRef.unary (.of main_v238 : StableHlo.TRef sig ⟨S1024, .i32⟩) main_call75.v2 signi,
    StableHlo.TRef.unary (.of main_c_89 : StableHlo.TRef sig ⟨S_, .i32⟩) main_call75.v3 signi,
    StableHlo.TRef.unary main_call75.v3 main_call75.v4 (broadcastInDim S1024 ![] bcast_S_S1024),
    StableHlo.TRef.binary main_call75.v2 main_call75.v4 main_call75.v5 (cmpi .ne),
    StableHlo.TRef.unary (.of main_c_89 : StableHlo.TRef sig ⟨S_, .i32⟩) main_call75.v6 (broadcastInDim S1024 ![] bcast_S_S1024),
    StableHlo.TRef.binary (.of main_v238 : StableHlo.TRef sig ⟨S1024, .i32⟩) main_call75.v6 main_call75.v7 Host.remsi,
    StableHlo.TRef.nullary main_call75.c (constantI S_ 32 0#32),
    StableHlo.TRef.unary main_call75.c main_call75.v8 (broadcastInDim S1024 ![] bcast_S_S1024),
    StableHlo.TRef.binary main_call75.v7 main_call75.v8 main_call75.v9 (cmpi .ne),
    StableHlo.TRef.binary main_call75.v5 main_call75.v9 main_call75.v10 andi,
    StableHlo.TRef.nullary main_call75.c_0 (constantI S_ 32 1#32),
    StableHlo.TRef.unary main_call75.c_0 main_call75.v11 (broadcastInDim S1024 ![] bcast_S_S1024),
    StableHlo.TRef.binary main_call75.v1 main_call75.v11 main_call75.v12 subi,
    StableHlo.TRef.ternary main_call75.v10 main_call75.v12 main_call75.v1 main_call75.call0.v0 select ]

theorem it12E_sub : (it12E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it12E_fresh : (it12E (F := F)).Forall fun op => op.fresh = ∅ :=
  ⟨rfl, rfl, rfl, rfl, rfl, rfl, rfl, rfl, rfl, rfl, rfl, rfl, rfl, rfl, rfl, rfl, rfl⟩

/-- A piece of this stretch (window 5 of @main). -/
noncomputable def it12G : List (HloOp τ sig (Elt F)) :=
  [ StableHlo.nullary main_c_90 (constantI S_ 32 1024#32),
    StableHlo.TRef.unary (.of main_c_90 : StableHlo.TRef sig ⟨S_, .i32⟩) main_call76.v0 id,
    StableHlo.TRef.nullary main_call76.c (constantI S_ 32 0#32),
    StableHlo.TRef.binary main_call76.v0 main_call76.c main_call76.v1 (cmpi .eq),
    StableHlo.TRef.nullary main_call76.c_0 (constantI S_ 32 1#32),
    StableHlo.TRef.ternary main_call76.v1 main_call76.c_0 main_call76.v0 main_call76.call0.v0 select,
    StableHlo.TRef.unary main_call76.call0.v0 main_call76.v3 (broadcastInDim S1024 ![] bcast_S_S1024),
    StableHlo.TRef.binary (.of main_v239 : StableHlo.TRef sig ⟨S1024, .i32⟩) main_call76.v3 main_call76.v4 Host.remsi,
    StableHlo.TRef.nullary main_call76.c_1 (constantI S_ 32 0#32),
    StableHlo.TRef.unary main_call76.c_1 main_call76.v5 (broadcastInDim S1024 ![] bcast_S_S1024),
    StableHlo.TRef.binary main_call76.v4 main_call76.v5 main_call76.v6 (cmpi .ne),
    StableHlo.TRef.nullary main_call76.c_2 (constantI S_ 32 0#32),
    StableHlo.TRef.unary main_call76.c_2 main_call76.v7 (broadcastInDim S1024 ![] bcast_S_S1024),
    StableHlo.TRef.binary main_call76.v4 main_call76.v7 main_call76.v8 (cmpi .slt),
    StableHlo.TRef.nullary main_call76.c_3 (constantI S_ 32 0#32),
    StableHlo.TRef.binary main_call76.call0.v0 main_call76.c_3 main_call76.v9 (cmpi .slt),
    StableHlo.TRef.unary main_call76.v9 main_call76.v10 (broadcastInDim S1024 ![] bcast_S_S1024),
    StableHlo.TRef.binary main_call76.v8 main_call76.v10 main_call76.v11 (cmpi .ne),
    StableHlo.TRef.binary main_call76.v11 main_call76.v6 main_call76.v12 andi,
    StableHlo.TRef.unary main_call76.call0.v0 main_call76.v13 (broadcastInDim S1024 ![] bcast_S_S1024),
    StableHlo.TRef.binary main_call76.v4 main_call76.v13 main_call76.v14 addi,
    StableHlo.TRef.ternary main_call76.v12 main_call76.v14 main_call76.v4 main_call76.v15 select ]

theorem it12G_sub : (it12G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it12G_fresh : (it12G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 5 of @main). -/
noncomputable def it12H : List (HloOp τ sig (Elt F)) :=
  [ StableHlo.TRef.nullary main_call77.c (constantI S_ 32 0#32),
    StableHlo.TRef.unary main_call77.c main_call77.v0 (broadcastInDim S1024 ![] bcast_S_S1024),
    StableHlo.TRef.binary (.of main_v240 : StableHlo.TRef sig ⟨S1024, .i32⟩) main_call77.v0 main_call77.v1 (cmpi .slt),
    StableHlo.TRef.nullary main_call77.c_0 (constantI S_ 32 1024#32),
    StableHlo.TRef.unary main_call77.c_0 main_call77.v2 (broadcastInDim S1024 ![] bcast_S_S1024),
    StableHlo.TRef.binary (.of main_v240 : StableHlo.TRef sig ⟨S1024, .i32⟩) main_call77.v2 main_call77.v3 addi,
    StableHlo.TRef.ternary main_call77.v1 main_call77.v3 (.of main_v240 : StableHlo.TRef sig ⟨S1024, .i32⟩) main_call77.call0.v0 select,
    StableHlo.TRef.unary main_call77.call0.v0 main_call77.v5 (broadcastInDim S1024x1 ![0] bcast_S1024_S1024x1_0),
    StableHlo.TRef.nullary main_call77.c_1 (constantI S1 32 1023#32),
    StableHlo.TRef.nullary main_call77.c_2 (constantI S_ 32 0#32),
    StableHlo.TRef.unary main_call77.c_2 main_call77.v6 (broadcastInDim S1024x1 ![] bcast_S_S1024x1),
    StableHlo.TRef.binary main_call77.v5 main_call77.v6 main_call77.v7 (cmpi .sge),
    StableHlo.TRef.unary main_call77.c_1 main_call77.v8 (broadcastInDim S1x1 ![1] bcast_S1_S1x1_1),
    StableHlo.TRef.unary main_call77.v8 main_call77.v9 (broadcastInDim S1024x1 ![0, 1] bcast_S1x1_S1024x1_0_1),
    StableHlo.TRef.binary main_call77.v5 main_call77.v9 main_call77.v10 (cmpi .sle),
    StableHlo.TRef.binary main_call77.v7 main_call77.v10 main_call77.v11 andi,
    StableHlo.TRef.nullary main_call77.c_3 (constantI S_ 1 1#1),
    StableHlo.TRef.binary main_call77.v11 main_call77.c_3 main_call77.v12 (fun x v => Host.reduce IntOp.andi x v reducesTo_S1024x1_S1024_d1 h_S_),
    StableHlo.TRef.binary (.of main_v7 : StableHlo.TRef sig ⟨S1024x1024, .f32⟩) main_call77.v5 main_call77.v13 (fun x i => Host.gather gather_S1024x1024_S1024x1_S1024x1024_1_0_n_n_0_1_11024 x i),
    StableHlo.TRef.unary main_call77.v12 main_call77.v14 (broadcastInDim S1024x1024 ![0] bcast_S1024_S1024x1024_0),
    StableHlo.TRef.nullary main_call77.cst (constant S_ .f32 0x7FC00000#32),
    StableHlo.TRef.unary main_call77.cst main_call77.v15 (broadcastInDim S1024x1024 ![] bcast_S_S1024x1024),
    StableHlo.TRef.ternary main_call77.v14 main_call77.v13 main_call77.v15 main_call77.v16 select ]

theorem it12H_sub : (it12H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it12H_fresh : (it12H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it12_W : List (Ref sig .tc) :=
  [main_v224, main_v225, main_v226, (main_call72.v0.ref), (main_call72.call0.c.ref), (main_call72.call0.v0.ref), (main_call72.call0.v1.ref), main_c_84, main_v228, main_c_85, (main_call73.v0.ref), (main_call73.v1.ref), (main_call73.v2.ref), main_c_86, main_v230, main_v231, main_c_87, main_v232, main_v233, main_v234, main_v235, main_c_88, main_v236, main_v237, (main_call74.call0.c.ref), (main_call74.call0.v0.ref), (main_call74.call0.v1.ref), main_c_89, (main_call75.v0.ref), (main_call75.v1.ref), (main_call75.v2.ref), (main_call75.v3.ref), (main_call75.v4.ref), (main_call75.v5.ref), (main_call75.v6.ref), (main_call75.v7.ref), (main_call75.c.ref), (main_call75.v8.ref), (main_call75.v9.ref), (main_call75.v10.ref), (main_call75.c_0.ref), (main_call75.v11.ref), (main_call75.v12.ref), (main_call75.call0.v0.ref), main_c_90, (main_call76.v0.ref), (main_call76.c.ref), (main_call76.v1.ref), (main_call76.c_0.ref), (main_call76.call0.v0.ref), (main_call76.v3.ref), (main_call76.v4.ref), (main_call76.c_1.ref), (main_call76.v5.ref), (main_call76.v6.ref), (main_call76.c_2.ref), (main_call76.v7.ref), (main_call76.v8.ref), (main_call76.c_3.ref), (main_call76.v9.ref), (main_call76.v10.ref), (main_call76.v11.ref), (main_call76.v12.ref), (main_call76.v13.ref), (main_call76.v14.ref), (main_call76.v15.ref), (main_call77.c.ref), (main_call77.v0.ref), (main_call77.v1.ref), (main_call77.c_0.ref), (main_call77.v2.ref), (main_call77.v3.ref), (main_call77.call0.v0.ref), (main_call77.v5.ref), (main_call77.c_1.ref), (main_call77.c_2.ref), (main_call77.v6.ref), (main_call77.v7.ref), (main_call77.v8.ref), (main_call77.v9.ref), (main_call77.v10.ref), (main_call77.v11.ref), (main_call77.c_3.ref), (main_call77.v12.ref), (main_call77.v13.ref), (main_call77.v14.ref), (main_call77.cst.ref), (main_call77.v15.ref), (main_call77.v16.ref)]

/-- The iteration up to the row lookup. -/
noncomputable def it12hd : List (HloOp τ sig (Elt F)) := it12A ++ (it12B ++ (it12C ++ (it12D ++ (it12E ++ it12G))))

/-- The iteration. -/
noncomputable def it12 : List (HloOp τ sig (Elt F)) := it12hd ++ it12H
theorem it12_sub : (it12 (F := F)).Forall fun op => op.bufs ⊆ tcRefs τ sig :=
  forall_append (forall_append it12A_sub (forall_append it12B_sub (forall_append it12C_sub (forall_append it12D_sub (forall_append it12E_sub it12G_sub))))) it12H_sub
theorem it12_fresh : (it12 (F := F)).Forall fun op => op.fresh = ∅ :=
  forall_append (forall_append it12A_fresh (forall_append it12B_fresh (forall_append it12C_fresh (forall_append it12D_fresh (forall_append it12E_fresh it12G_fresh))))) it12H_fresh

/-- The iteration as the concatenation of its pieces. -/
theorem it12_atoms : it12 (F := F) = it12A ++ (it12B ++ (it12C ++ (it12D ++ (it12E ++ (it12G ++ it12H))))) := by
  simp only [it12, it12hd, List.append_assoc]

end Cert.ReferenceIdeal.HandRun

end
-- ==== Proof.RefIt12.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt12

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it12A_val (V : Valuation τ sig (Elt F)) :
    after (it12A (F := F)) V (Proc.devRef (τ := τ) .tc main_v226) = RefFns.colMask (V (Proc.devRef (τ := τ) .tc main_v1)) 12 slices_S1024x32x1_S1024x1x1_0_12_0 := by
  simp only [it12A, List.cons_append, List.nil_append]
  after_results_simp
  try simp only [cast_eq]
  rfl

set_option maxRecDepth 65536 in
set_option maxHeartbeats 1000000 in
theorem it12B_val (V : Valuation τ sig (Elt F)) :
    after (it12B (F := F)) V (Proc.devRef (τ := τ) .tc main_v227) = RefFns.cumsumF (V (Proc.devRef (τ := τ) .tc main_v226)) := by
  simp only [it12B, List.cons_append, List.nil_append]
  after_results_simp
  try simp only [cast_eq]
  rfl

set_option maxRecDepth 65536 in
set_option maxHeartbeats 1000000 in
theorem it12C_val (V : Valuation τ sig (Elt F)) :
    after (it12C (F := F)) V (Proc.devRef (τ := τ) .tc main_v237) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v227)) (constantI S_ 32 0#32)) (broadcastInDim S1024 ![] bcast_S_S1024 (constantI S_ 32 0#32))) (addi (RefFns.clipF (V (Proc.devRef (τ := τ) .tc main_v227)) (constantI S_ 32 0#32)) (broadcastInDim S1024 ![] bcast_S_S1024 (constantI S_ 32 1024#32))) (RefFns.clipF (V (Proc.devRef (τ := τ) .tc main_v227)) (constantI S_ 32 0#32)))) (broadcastInDim S1024 ![] bcast_S_S1024 (constantI S_ 32 1#32)) := by
  simp only [it12C, List.cons_append, List.nil_append]
  after_results_simp
  try simp only [cast_eq]
  rfl

set_option maxRecDepth 65536 in
set_option maxHeartbeats 1000000 in
theorem it12D_val (V : Valuation τ sig (Elt F)) :
    after (it12D (F := F)) V (Proc.devRef (τ := τ) .tc main_v238) = RefFns.cumsum1F (V (Proc.devRef (τ := τ) .tc main_v237)) := by
  simp only [it12D, List.cons_append, List.nil_append]
  after_results_simp
  try simp only [cast_eq]
  rfl

set_option maxRecDepth 65536 in
set_option maxHeartbeats 1000000 in
theorem it12E_val (V : Valuation τ sig (Elt F)) :
    after (it12E (F := F)) V (Proc.devRef (τ := τ) .tc main_v239) = RefFns.floorDivF (V (Proc.devRef (τ := τ) .tc main_v238)) (constantI S_ 32 1#32) := by
  simp only [it12E, List.cons_append, List.nil_append]
  after_results_simp
  try simp only [cast_eq]
  rfl

set_option maxRecDepth 65536 in
set_option maxHeartbeats 1000000 in
theorem it12G_val (V : Valuation τ sig (Elt F)) :
    after (it12G (F := F)) V (Proc.devRef (τ := τ) .tc main_v240) = RefFns.remainderF (V (Proc.devRef (τ := τ) .tc main_v239)) (constantI S_ 32 1024#32) := by
  simp only [it12G, List.cons_append, List.nil_append]
  after_results_simp
  try simp only [cast_eq]
  rfl

set_option maxRecDepth 65536 in
set_option maxHeartbeats 1000000 in
theorem it12H_val (V : Valuation τ sig (Elt F)) :
    after (it12H (F := F)) V (Proc.devRef (τ := τ) .tc main_v241) = RefFns.takeF (V (Proc.devRef (τ := τ) .tc main_v7)) (V (Proc.devRef (τ := τ) .tc main_v240)) := by
  simp only [it12H, List.cons_append, List.nil_append]
  after_results_simp
  try simp only [cast_eq]
  rfl

theorem it12A_writes : (it12A (F := F)).Forall fun op => op.writes ⊆ (it12_W.map (Proc.devRef (τ := τ) .tc)).toFinset :=
  ⟨wsub main_v224 (by decide), wsub main_v225 (by decide), wsub main_v226 (by decide)⟩

theorem it12B_writes : (it12B (F := F)).Forall fun op => op.writes ⊆ (it12_W.map (Proc.devRef (τ := τ) .tc)).toFinset :=
  ⟨wsub (main_call72.v0.ref) (by decide), wsub (main_call72.call0.c.ref) (by decide), wsub (main_call72.call0.v0.ref) (by decide), wsub (main_call72.call0.v1.ref) (by decide)⟩

theorem it12C_writes : (it12C (F := F)).Forall fun op => op.writes ⊆ (it12_W.map (Proc.devRef (τ := τ) .tc)).toFinset :=
  ⟨wsub main_c_84 (by decide), wsub main_v228 (by decide), wsub main_c_85 (by decide), wsub (main_call73.v0.ref) (by decide), wsub (main_call73.v1.ref) (by decide), wsub (main_call73.v2.ref) (by decide), wsub main_c_86 (by decide), wsub main_v230 (by decide), wsub main_v231 (by decide), wsub main_c_87 (by decide), wsub main_v232 (by decide), wsub main_v233 (by decide), wsub main_v234 (by decide), wsub main_v235 (by decide), wsub main_c_88 (by decide), wsub main_v236 (by decide), wsub main_v237 (by decide)⟩

theorem it12D_writes : (it12D (F := F)).Forall fun op => op.writes ⊆ (it12_W.map (Proc.devRef (τ := τ) .tc)).toFinset :=
  ⟨wsub (main_call74.call0.c.ref) (by decide), wsub (main_call74.call0.v0.ref) (by decide), wsub (main_call74.call0.v1.ref) (by decide)⟩

theorem it12E_writes : (it12E (F := F)).Forall fun op => op.writes ⊆ (it12_W.map (Proc.devRef (τ := τ) .tc)).toFinset :=
  ⟨wsub main_c_89 (by decide), wsub (main_call75.v0.ref) (by decide), wsub (main_call75.v1.ref) (by decide), wsub (main_call75.v2.ref) (by decide), wsub (main_call75.v3.ref) (by decide), wsub (main_call75.v4.ref) (by decide), wsub (main_call75.v5.ref) (by decide), wsub (main_call75.v6.ref) (by decide), wsub (main_call75.v7.ref) (by decide), wsub (main_call75.c.ref) (by decide), wsub (main_call75.v8.ref) (by decide), wsub (main_call75.v9.ref) (by decide), wsub (main_call75.v10.ref) (by decide), wsub (main_call75.c_0.ref) (by decide), wsub (main_call75.v11.ref) (by decide), wsub (main_call75.v12.ref) (by decide), wsub (main_call75.call0.v0.ref) (by decide)⟩

theorem it12G_writes : (it12G (F := F)).Forall fun op => op.writes ⊆ (it12_W.map (Proc.devRef (τ := τ) .tc)).toFinset :=
  ⟨wsub main_c_90 (by decide), wsub (main_call76.v0.ref) (by decide), wsub (main_call76.c.ref) (by decide), wsub (main_call76.v1.ref) (by decide), wsub (main_call76.c_0.ref) (by decide), wsub (main_call76.call0.v0.ref) (by decide), wsub (main_call76.v3.ref) (by decide), wsub (main_call76.v4.ref) (by decide), wsub (main_call76.c_1.ref) (by decide), wsub (main_call76.v5.ref) (by decide), wsub (main_call76.v6.ref) (by decide), wsub (main_call76.c_2.ref) (by decide), wsub (main_call76.v7.ref) (by decide), wsub (main_call76.v8.ref) (by decide), wsub (main_call76.c_3.ref) (by decide), wsub (main_call76.v9.ref) (by decide), wsub (main_call76.v10.ref) (by decide), wsub (main_call76.v11.ref) (by decide), wsub (main_call76.v12.ref) (by decide), wsub (main_call76.v13.ref) (by decide), wsub (main_call76.v14.ref) (by decide), wsub (main_call76.v15.ref) (by decide)⟩

theorem it12H_writes : (it12H (F := F)).Forall fun op => op.writes ⊆ (it12_W.map (Proc.devRef (τ := τ) .tc)).toFinset :=
  ⟨wsub (main_call77.c.ref) (by decide), wsub (main_call77.v0.ref) (by decide), wsub (main_call77.v1.ref) (by decide), wsub (main_call77.c_0.ref) (by decide), wsub (main_call77.v2.ref) (by decide), wsub (main_call77.v3.ref) (by decide), wsub (main_call77.call0.v0.ref) (by decide), wsub (main_call77.v5.ref) (by decide), wsub (main_call77.c_1.ref) (by decide), wsub (main_call77.c_2.ref) (by decide), wsub (main_call77.v6.ref) (by decide), wsub (main_call77.v7.ref) (by decide), wsub (main_call77.v8.ref) (by decide), wsub (main_call77.v9.ref) (by decide), wsub (main_call77.v10.ref) (by decide), wsub (main_call77.v11.ref) (by decide), wsub (main_call77.c_3.ref) (by decide), wsub (main_call77.v12.ref) (by decide), wsub (main_call77.v13.ref) (by decide), wsub (main_call77.v14.ref) (by decide), wsub (main_call77.cst.ref) (by decide), wsub (main_call77.v15.ref) (by decide), wsub (main_call77.v16.ref) (by decide)⟩

theorem it12hd_writes : (it12hd (F := F)).Forall fun op => op.writes ⊆ (it12_W.map (Proc.devRef (τ := τ) .tc)).toFinset :=
  forall_append it12A_writes (forall_append it12B_writes (forall_append it12C_writes (forall_append it12D_writes (forall_append it12E_writes it12G_writes))))

theorem it12_writes : (it12 (F := F)).Forall fun op => op.writes ⊆ (it12_W.map (Proc.devRef (τ := τ) .tc)).toFinset :=
  forall_append it12hd_writes (it12H_writes)

/-- The iteration leaves every buffer it does not write as it was. -/
theorem it12_keep (V : Valuation τ sig (Elt F)) (r : Ref sig .tc) (hr : r ∉ it12_W) :
    after (it12 (F := F)) V (Proc.devRef (τ := τ) .tc r) = V (Proc.devRef (τ := τ) .tc r) :=
  after_of_writes_sub it12 V it12_writes hr

theorem it12hd_keep (V : Valuation τ sig (Elt F)) (r : Ref sig .tc) (hr : r ∉ it12_W) :
    after (it12hd (F := F)) V (Proc.devRef (τ := τ) .tc r) = V (Proc.devRef (τ := τ) .tc r) :=
  after_of_writes_sub it12hd V it12hd_writes hr

/-- The iteration's result: the rows of the matrix it is handed at the compacted indices of its mask. -/
theorem it12_res (V : Valuation τ sig (Elt F)) :
    after (it12 (F := F)) V (Proc.devRef (τ := τ) .tc main_v241) = RefFns.nzTake (V (Proc.devRef (τ := τ) .tc main_v7)) (RefFns.colMask (V (Proc.devRef (τ := τ) .tc main_v1)) 12 slices_S1024x32x1_S1024x1x1_0_12_0) := by
  rw [it12, after_append, it12H_val, it12hd_keep V main_v7 (by decide), it12hd]
  simp only [after_append]
  rw [it12G_val, it12E_val, it12D_val, it12C_val, it12B_val, it12A_val]
  rfl

set_option maxRecDepth 65536 in
set_option maxHeartbeats 4000000 in
/-- The invariant of the run survives the iteration, with its block added. -/
theorem it12_step {x : FVec F S1x32x1024 .f32} {V : Valuation τ sig (Elt F)} (hg : Good 12 x V) : Good 13 x (after (it12 (F := F)) V) :=
  good_step 12 (by decide) it12 it12_W slices_S1024x32x1_S1024x1x1_0_12_0 it12_keep it12_res (fun _ => rfl) (by decide +kernel) (by decide +kernel) (by decide +kernel) (by decide +kernel) hg

end Cert.ReferenceIdeal.HandRun

end
-- ==== Proof.RefOpsIt13.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 5 of @main). -/
noncomputable def it13A : List (HloOp τ sig (Elt F)) :=
  [ StableHlo.unary main_v1 main_v242 ((extractStridedSlice S1024x1x1 ![0, 13, 0] · slices_S1024x32x1_S1024x1x1_0_13_0) : (⟨S1024x32x1, .i1⟩ : BufTy).Contents (Elt F) → (⟨S1024x1x1, .i1⟩ : BufTy).Contents (Elt F)),
    StableHlo.reshape main_v242 main_v243 rfl shapeCasts_S1024x1x1_S1024,
    StableHlo.unary main_v243 main_v244 (noti : (⟨S1024, .i1⟩ : BufTy).Contents (Elt F) → (⟨S1024, .i1⟩ : BufTy).Contents (Elt F)) ]

theorem it13A_sub : (it13A (F := F)).Forall fun op => op.bufs ⊆ tcRefs τ sig :=
  ⟨unary_bufs_sub .., reshape_bufs_sub .., unary_bufs_sub ..⟩

theorem it13A_fresh : (it13A (F := F)).Forall fun op => op.fresh = ∅ :=
  ⟨rfl, rfl, rfl⟩

/-- A piece of this stretch (window 5 of @main). -/
noncomputable def it13B : List (HloOp τ sig (Elt F)) :=
  [ StableHlo.TRef.unary (.of main_v244 : StableHlo.TRef sig ⟨S1024, .i1⟩) main_call78.v0 (extui 32 · natLt_1_32),
    StableHlo.TRef.nullary main_call78.call0.c (constantI S_ 32 0#32),
    StableHlo.TRef.unary main_call78.call0.c main_call78.call0.v0 (broadcastInDim S_ ![] bcast_S_S_),
    StableHlo.TRef.binary main_call78.v0 main_call78.call0.v0 main_call78.call0.v1 (fun x v => Host.reduceWindow IntOp.addi ![1024] ![1] ![1023] ![0] x v reduceWindows_S1024_S1024_w1024s1p1023_0 h_S_) ]

theorem it13B_sub : (it13B (F := F)).Forall fun op => op.bufs ⊆ tcRefs τ sig :=
  ⟨unary_bufs_sub .., nullary_bufs_sub .., unary_bufs_sub .., binary_bufs_sub ..⟩

theorem it13B_fresh : (it13B (F := F)).Forall fun op => op.fresh = ∅ :=
  ⟨rfl, rfl, rfl, rfl⟩

/-- A piece of this stretch (window 5 of @main). -/
noncomputable def it13C : List (HloOp τ sig (Elt F)) :=
  [ StableHlo.nullary main_c_91 (constantI S_ 32 0#32),
    StableHlo.unary main_c_91 main_v246 (broadcastInDim S1024 ![] bcast_S_S1024 : (⟨S_, .i32⟩ : BufTy).Contents (Elt F) → (⟨S1024, .i32⟩ : BufTy).Contents (Elt F)),
    StableHlo.nullary main_c_92 (constantI S_ 32 0#32),
    StableHlo.TRef.unary (.of main_c_92 : StableHlo.TRef sig ⟨S_, .i32⟩) main_call79.v0 id,
    StableHlo.TRef.unary main_call79.v0 main_call79.v1 (broadcastInDim S1024 ![] bcast_S_S1024),
    StableHlo.TRef.binary main_call79.v1 (.of main_v245 : StableHlo.TRef sig ⟨S1024, .i32⟩) main_call79.v2 maxsi,
    StableHlo.nullary main_c_93 (constantI S_ 32 0#32),
    StableHlo.unary main_c_93 main_v248 (broadcastInDim S1024 ![] bcast_S_S1024 : (⟨S_, .i32⟩ : BufTy).Contents (Elt F) → (⟨S1024, .i32⟩ : BufTy).Contents (Elt F)),
    StableHlo.binary main_v247 main_v248 main_v249 (cmpi .slt : (⟨S1024, .i32⟩ : BufTy).Contents (Elt F) → (⟨S1024, .i32⟩ : BufTy).Contents (Elt F) → (⟨S1024, .i1⟩ : BufTy).Contents (Elt F)),
    StableHlo.nullary main_c_94 (constantI S_ 32 1024#32),
    StableHlo.unary main_c_94 main_v250 (broadcastInDim S1024 ![] bcast_S_S1024 : (⟨S_, .i32⟩ : BufTy).Contents (Elt F) → (⟨S1024, .i32⟩ : BufTy).Contents (Elt F)),
    StableHlo.binary main_v247 main_v250 main_v251 (addi : (⟨S1024, .i32⟩ : BufTy).Contents (Elt F) → (⟨S1024, .i32⟩ : BufTy).Contents (Elt F) → (⟨S1024, .i32⟩ : BufTy).Contents (Elt F)),
    StableHlo.ternary main_v249 main_v251 main_v247 main_v252 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v252 main_v253 (broadcastInDim S1024x1 ![0] bcast_S1024_S1024x1_0 : (⟨S1024, .i32⟩ : BufTy).Contents (Elt F) → (⟨S1024x1, .i32⟩ : BufTy).Contents (Elt F)),
    StableHlo.nullary main_c_95 (constantI S_ 32 1#32),
    StableHlo.unary main_c_95 main_v254 (broadcastInDim S1024 ![] bcast_S_S1024 : (⟨S_, .i32⟩ : BufTy).Contents (Elt F) → (⟨S1024, .i32⟩ : BufTy).Contents (Elt F)),
    StableHlo.ternary main_v246 main_v253 main_v254 main_v255 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it13C_sub : (it13C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it13C_fresh : (it13C (F := F)).Forall fun op => op.fresh = ∅ :=
  ⟨rfl, rfl, rfl, rfl, rfl, rfl, rfl, rfl, rfl, rfl, rfl, rfl, rfl, rfl, rfl, rfl, rfl⟩

/-- A piece of this stretch (window 5 of @main). -/
noncomputable def it13D : List (HloOp τ sig (Elt F)) :=
  [ StableHlo.TRef.nullary main_call80.call0.c (constantI S_ 32 0#32),
    StableHlo.TRef.unary main_call80.call0.c main_call80.call0.v0 (broadcastInDim S_ ![] bcast_S_S_),
    StableHlo.TRef.binary (.of main_v255 : StableHlo.TRef sig ⟨S1024, .i32⟩) main_call80.call0.v0 main_call80.call0.v1 (fun x v => Host.reduceWindow IntOp.addi ![1024] ![1] ![1023] ![0] x v reduceWindows_S1024_S1024_w1024s1p1023_0 h_S_) ]

theorem it13D_sub : (it13D (F := F)).Forall fun op => op.bufs ⊆ tcRefs τ sig :=
  ⟨nullary_bufs_sub .., unary_bufs_sub .., binary_bufs_sub ..⟩

theorem it13D_fresh : (it13D (F := F)).Forall fun op => op.fresh = ∅ :=
  ⟨rfl, rfl, rfl⟩

/-- A piece of this stretch (window 5 of @main). -/
noncomputable def it13E : List (HloOp τ sig (Elt F)) :=
  [ StableHlo.nullary main_c_96 (constantI S_ 32 1#32),
    StableHlo.TRef.unary (.of main_c_96 : StableHlo.TRef sig ⟨S_, .i32⟩) main_call81.v0 (broadcastInDim S1024 ![] bcast_S_S1024),
    StableHlo.TRef.binary (.of main_v256 : StableHlo.TRef sig ⟨S1024, .i32⟩) main_call81.v0 main_call81.v1 Host.divsi,
    StableHlo.TRef.unary (.of main_v256 : StableHlo.TRef sig ⟨S1024, .i32⟩) main_call81.v2 signi,
    StableHlo.TRef.unary (.of main_c_96 : StableHlo.TRef sig ⟨S_, .i32⟩) main_call81.v3 signi,
    StableHlo.TRef.unary main_call81.v3 main_call81.v4 (broadcastInDim S1024 ![] bcast_S_S1024),
    StableHlo.TRef.binary main_call81.v2 main_call81.v4 main_call81.v5 (cmpi .ne),
    StableHlo.TRef.unary (.of main_c_96 : StableHlo.TRef sig ⟨S_, .i32⟩) main_call81.v6 (broadcastInDim S1024 ![] bcast_S_S1024),
    StableHlo.TRef.binary (.of main_v256 : StableHlo.TRef sig ⟨S1024, .i32⟩) main_call81.v6 main_call81.v7 Host.remsi,
    StableHlo.TRef.nullary main_call81.c (constantI S_ 32 0#32),
    StableHlo.TRef.unary main_call81.c main_call81.v8 (broadcastInDim S1024 ![] bcast_S_S1024),
    StableHlo.TRef.binary main_call81.v7 main_call81.v8 main_call81.v9 (cmpi .ne),
    StableHlo.TRef.binary main_call81.v5 main_call81.v9 main_call81.v10 andi,
    StableHlo.TRef.nullary main_call81.c_0 (constantI S_ 32 1#32),
    StableHlo.TRef.unary main_call81.c_0 main_call81.v11 (broadcastInDim S1024 ![] bcast_S_S1024),
    StableHlo.TRef.binary main_call81.v1 main_call81.v11 main_call81.v12 subi,
    StableHlo.TRef.ternary main_call81.v10 main_call81.v12 main_call81.v1 main_call81.call0.v0 select ]

theorem it13E_sub : (it13E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it13E_fresh : (it13E (F := F)).Forall fun op => op.fresh = ∅ :=
  ⟨rfl, rfl, rfl, rfl, rfl, rfl, rfl, rfl, rfl, rfl, rfl, rfl, rfl, rfl, rfl, rfl, rfl⟩

/-- A piece of this stretch (window 5 of @main). -/
noncomputable def it13G : List (HloOp τ sig (Elt F)) :=
  [ StableHlo.nullary main_c_97 (constantI S_ 32 1024#32),
    StableHlo.TRef.unary (.of main_c_97 : StableHlo.TRef sig ⟨S_, .i32⟩) main_call82.v0 id,
    StableHlo.TRef.nullary main_call82.c (constantI S_ 32 0#32),
    StableHlo.TRef.binary main_call82.v0 main_call82.c main_call82.v1 (cmpi .eq),
    StableHlo.TRef.nullary main_call82.c_0 (constantI S_ 32 1#32),
    StableHlo.TRef.ternary main_call82.v1 main_call82.c_0 main_call82.v0 main_call82.call0.v0 select,
    StableHlo.TRef.unary main_call82.call0.v0 main_call82.v3 (broadcastInDim S1024 ![] bcast_S_S1024),
    StableHlo.TRef.binary (.of main_v257 : StableHlo.TRef sig ⟨S1024, .i32⟩) main_call82.v3 main_call82.v4 Host.remsi,
    StableHlo.TRef.nullary main_call82.c_1 (constantI S_ 32 0#32),
    StableHlo.TRef.unary main_call82.c_1 main_call82.v5 (broadcastInDim S1024 ![] bcast_S_S1024),
    StableHlo.TRef.binary main_call82.v4 main_call82.v5 main_call82.v6 (cmpi .ne),
    StableHlo.TRef.nullary main_call82.c_2 (constantI S_ 32 0#32),
    StableHlo.TRef.unary main_call82.c_2 main_call82.v7 (broadcastInDim S1024 ![] bcast_S_S1024),
    StableHlo.TRef.binary main_call82.v4 main_call82.v7 main_call82.v8 (cmpi .slt),
    StableHlo.TRef.nullary main_call82.c_3 (constantI S_ 32 0#32),
    StableHlo.TRef.binary main_call82.call0.v0 main_call82.c_3 main_call82.v9 (cmpi .slt),
    StableHlo.TRef.unary main_call82.v9 main_call82.v10 (broadcastInDim S1024 ![] bcast_S_S1024),
    StableHlo.TRef.binary main_call82.v8 main_call82.v10 main_call82.v11 (cmpi .ne),
    StableHlo.TRef.binary main_call82.v11 main_call82.v6 main_call82.v12 andi,
    StableHlo.TRef.unary main_call82.call0.v0 main_call82.v13 (broadcastInDim S1024 ![] bcast_S_S1024),
    StableHlo.TRef.binary main_call82.v4 main_call82.v13 main_call82.v14 addi,
    StableHlo.TRef.ternary main_call82.v12 main_call82.v14 main_call82.v4 main_call82.v15 select ]

theorem it13G_sub : (it13G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it13G_fresh : (it13G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 5 of @main). -/
noncomputable def it13H : List (HloOp τ sig (Elt F)) :=
  [ StableHlo.TRef.nullary main_call83.c (constantI S_ 32 0#32),
    StableHlo.TRef.unary main_call83.c main_call83.v0 (broadcastInDim S1024 ![] bcast_S_S1024),
    StableHlo.TRef.binary (.of main_v258 : StableHlo.TRef sig ⟨S1024, .i32⟩) main_call83.v0 main_call83.v1 (cmpi .slt),
    StableHlo.TRef.nullary main_call83.c_0 (constantI S_ 32 1024#32),
    StableHlo.TRef.unary main_call83.c_0 main_call83.v2 (broadcastInDim S1024 ![] bcast_S_S1024),
    StableHlo.TRef.binary (.of main_v258 : StableHlo.TRef sig ⟨S1024, .i32⟩) main_call83.v2 main_call83.v3 addi,
    StableHlo.TRef.ternary main_call83.v1 main_call83.v3 (.of main_v258 : StableHlo.TRef sig ⟨S1024, .i32⟩) main_call83.call0.v0 select,
    StableHlo.TRef.unary main_call83.call0.v0 main_call83.v5 (broadcastInDim S1024x1 ![0] bcast_S1024_S1024x1_0),
    StableHlo.TRef.nullary main_call83.c_1 (constantI S1 32 1023#32),
    StableHlo.TRef.nullary main_call83.c_2 (constantI S_ 32 0#32),
    StableHlo.TRef.unary main_call83.c_2 main_call83.v6 (broadcastInDim S1024x1 ![] bcast_S_S1024x1),
    StableHlo.TRef.binary main_call83.v5 main_call83.v6 main_call83.v7 (cmpi .sge),
    StableHlo.TRef.unary main_call83.c_1 main_call83.v8 (broadcastInDim S1x1 ![1] bcast_S1_S1x1_1),
    StableHlo.TRef.unary main_call83.v8 main_call83.v9 (broadcastInDim S1024x1 ![0, 1] bcast_S1x1_S1024x1_0_1),
    StableHlo.TRef.binary main_call83.v5 main_call83.v9 main_call83.v10 (cmpi .sle),
    StableHlo.TRef.binary main_call83.v7 main_call83.v10 main_call83.v11 andi,
    StableHlo.TRef.nullary main_call83.c_3 (constantI S_ 1 1#1),
    StableHlo.TRef.binary main_call83.v11 main_call83.c_3 main_call83.v12 (fun x v => Host.reduce IntOp.andi x v reducesTo_S1024x1_S1024_d1 h_S_),
    StableHlo.TRef.binary (.of main_v7 : StableHlo.TRef sig ⟨S1024x1024, .f32⟩) main_call83.v5 main_call83.v13 (fun x i => Host.gather gather_S1024x1024_S1024x1_S1024x1024_1_0_n_n_0_1_11024 x i),
    StableHlo.TRef.unary main_call83.v12 main_call83.v14 (broadcastInDim S1024x1024 ![0] bcast_S1024_S1024x1024_0),
    StableHlo.TRef.nullary main_call83.cst (constant S_ .f32 0x7FC00000#32),
    StableHlo.TRef.unary main_call83.cst main_call83.v15 (broadcastInDim S1024x1024 ![] bcast_S_S1024x1024),
    StableHlo.TRef.ternary main_call83.v14 main_call83.v13 main_call83.v15 main_call83.v16 select ]

theorem it13H_sub : (it13H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it13H_fresh : (it13H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it13_W : List (Ref sig .tc) :=
  [main_v242, main_v243, main_v244, (main_call78.v0.ref), (main_call78.call0.c.ref), (main_call78.call0.v0.ref), (main_call78.call0.v1.ref), main_c_91, main_v246, main_c_92, (main_call79.v0.ref), (main_call79.v1.ref), (main_call79.v2.ref), main_c_93, main_v248, main_v249, main_c_94, main_v250, main_v251, main_v252, main_v253, main_c_95, main_v254, main_v255, (main_call80.call0.c.ref), (main_call80.call0.v0.ref), (main_call80.call0.v1.ref), main_c_96, (main_call81.v0.ref), (main_call81.v1.ref), (main_call81.v2.ref), (main_call81.v3.ref), (main_call81.v4.ref), (main_call81.v5.ref), (main_call81.v6.ref), (main_call81.v7.ref), (main_call81.c.ref), (main_call81.v8.ref), (main_call81.v9.ref), (main_call81.v10.ref), (main_call81.c_0.ref), (main_call81.v11.ref), (main_call81.v12.ref), (main_call81.call0.v0.ref), main_c_97, (main_call82.v0.ref), (main_call82.c.ref), (main_call82.v1.ref), (main_call82.c_0.ref), (main_call82.call0.v0.ref), (main_call82.v3.ref), (main_call82.v4.ref), (main_call82.c_1.ref), (main_call82.v5.ref), (main_call82.v6.ref), (main_call82.c_2.ref), (main_call82.v7.ref), (main_call82.v8.ref), (main_call82.c_3.ref), (main_call82.v9.ref), (main_call82.v10.ref), (main_call82.v11.ref), (main_call82.v12.ref), (main_call82.v13.ref), (main_call82.v14.ref), (main_call82.v15.ref), (main_call83.c.ref), (main_call83.v0.ref), (main_call83.v1.ref), (main_call83.c_0.ref), (main_call83.v2.ref), (main_call83.v3.ref), (main_call83.call0.v0.ref), (main_call83.v5.ref), (main_call83.c_1.ref), (main_call83.c_2.ref), (main_call83.v6.ref), (main_call83.v7.ref), (main_call83.v8.ref), (main_call83.v9.ref), (main_call83.v10.ref), (main_call83.v11.ref), (main_call83.c_3.ref), (main_call83.v12.ref), (main_call83.v13.ref), (main_call83.v14.ref), (main_call83.cst.ref), (main_call83.v15.ref), (main_call83.v16.ref)]

/-- The iteration up to the row lookup. -/
noncomputable def it13hd : List (HloOp τ sig (Elt F)) := it13A ++ (it13B ++ (it13C ++ (it13D ++ (it13E ++ it13G))))

/-- The iteration. -/
noncomputable def it13 : List (HloOp τ sig (Elt F)) := it13hd ++ it13H
theorem it13_sub : (it13 (F := F)).Forall fun op => op.bufs ⊆ tcRefs τ sig :=
  forall_append (forall_append it13A_sub (forall_append it13B_sub (forall_append it13C_sub (forall_append it13D_sub (forall_append it13E_sub it13G_sub))))) it13H_sub
theorem it13_fresh : (it13 (F := F)).Forall fun op => op.fresh = ∅ :=
  forall_append (forall_append it13A_fresh (forall_append it13B_fresh (forall_append it13C_fresh (forall_append it13D_fresh (forall_append it13E_fresh it13G_fresh))))) it13H_fresh

/-- The iteration as the concatenation of its pieces. -/
theorem it13_atoms : it13 (F := F) = it13A ++ (it13B ++ (it13C ++ (it13D ++ (it13E ++ (it13G ++ it13H))))) := by
  simp only [it13, it13hd, List.append_assoc]

end Cert.ReferenceIdeal.HandRun

end
-- ==== Proof.RefIt13.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt13

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it13A_val (V : Valuation τ sig (Elt F)) :
    after (it13A (F := F)) V (Proc.devRef (τ := τ) .tc main_v244) = RefFns.colMask (V (Proc.devRef (τ := τ) .tc main_v1)) 13 slices_S1024x32x1_S1024x1x1_0_13_0 := by
  simp only [it13A, List.cons_append, List.nil_append]
  after_results_simp
  try simp only [cast_eq]
  rfl

set_option maxRecDepth 65536 in
set_option maxHeartbeats 1000000 in
theorem it13B_val (V : Valuation τ sig (Elt F)) :
    after (it13B (F := F)) V (Proc.devRef (τ := τ) .tc main_v245) = RefFns.cumsumF (V (Proc.devRef (τ := τ) .tc main_v244)) := by
  simp only [it13B, List.cons_append, List.nil_append]
  after_results_simp
  try simp only [cast_eq]
  rfl

set_option maxRecDepth 65536 in
set_option maxHeartbeats 1000000 in
theorem it13C_val (V : Valuation τ sig (Elt F)) :
    after (it13C (F := F)) V (Proc.devRef (τ := τ) .tc main_v255) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v245)) (constantI S_ 32 0#32)) (broadcastInDim S1024 ![] bcast_S_S1024 (constantI S_ 32 0#32))) (addi (RefFns.clipF (V (Proc.devRef (τ := τ) .tc main_v245)) (constantI S_ 32 0#32)) (broadcastInDim S1024 ![] bcast_S_S1024 (constantI S_ 32 1024#32))) (RefFns.clipF (V (Proc.devRef (τ := τ) .tc main_v245)) (constantI S_ 32 0#32)))) (broadcastInDim S1024 ![] bcast_S_S1024 (constantI S_ 32 1#32)) := by
  simp only [it13C, List.cons_append, List.nil_append]
  after_results_simp
  try simp only [cast_eq]
  rfl

set_option maxRecDepth 65536 in
set_option maxHeartbeats 1000000 in
theorem it13D_val (V : Valuation τ sig (Elt F)) :
    after (it13D (F := F)) V (Proc.devRef (τ := τ) .tc main_v256) = RefFns.cumsum1F (V (Proc.devRef (τ := τ) .tc main_v255)) := by
  simp only [it13D, List.cons_append, List.nil_append]
  after_results_simp
  try simp only [cast_eq]
  rfl

set_option maxRecDepth 65536 in
set_option maxHeartbeats 1000000 in
theorem it13E_val (V : Valuation τ sig (Elt F)) :
    after (it13E (F := F)) V (Proc.devRef (τ := τ) .tc main_v257) = RefFns.floorDivF (V (Proc.devRef (τ := τ) .tc main_v256)) (constantI S_ 32 1#32) := by
  simp only [it13E, List.cons_append, List.nil_append]
  after_results_simp
  try simp only [cast_eq]
  rfl

set_option maxRecDepth 65536 in
set_option maxHeartbeats 1000000 in
theorem it13G_val (V : Valuation τ sig (Elt F)) :
    after (it13G (F := F)) V (Proc.devRef (τ := τ) .tc main_v258) = RefFns.remainderF (V (Proc.devRef (τ := τ) .tc main_v257)) (constantI S_ 32 1024#32) := by
  simp only [it13G, List.cons_append, List.nil_append]
  after_results_simp
  try simp only [cast_eq]
  rfl

set_option maxRecDepth 65536 in
set_option maxHeartbeats 1000000 in
theorem it13H_val (V : Valuation τ sig (Elt F)) :
    after (it13H (F := F)) V (Proc.devRef (τ := τ) .tc main_v259) = RefFns.takeF (V (Proc.devRef (τ := τ) .tc main_v7)) (V (Proc.devRef (τ := τ) .tc main_v258)) := by
  simp only [it13H, List.cons_append, List.nil_append]
  after_results_simp
  try simp only [cast_eq]
  rfl

theorem it13A_writes : (it13A (F := F)).Forall fun op => op.writes ⊆ (it13_W.map (Proc.devRef (τ := τ) .tc)).toFinset :=
  ⟨wsub main_v242 (by decide), wsub main_v243 (by decide), wsub main_v244 (by decide)⟩

theorem it13B_writes : (it13B (F := F)).Forall fun op => op.writes ⊆ (it13_W.map (Proc.devRef (τ := τ) .tc)).toFinset :=
  ⟨wsub (main_call78.v0.ref) (by decide), wsub (main_call78.call0.c.ref) (by decide), wsub (main_call78.call0.v0.ref) (by decide), wsub (main_call78.call0.v1.ref) (by decide)⟩

theorem it13C_writes : (it13C (F := F)).Forall fun op => op.writes ⊆ (it13_W.map (Proc.devRef (τ := τ) .tc)).toFinset :=
  ⟨wsub main_c_91 (by decide), wsub main_v246 (by decide), wsub main_c_92 (by decide), wsub (main_call79.v0.ref) (by decide), wsub (main_call79.v1.ref) (by decide), wsub (main_call79.v2.ref) (by decide), wsub main_c_93 (by decide), wsub main_v248 (by decide), wsub main_v249 (by decide), wsub main_c_94 (by decide), wsub main_v250 (by decide), wsub main_v251 (by decide), wsub main_v252 (by decide), wsub main_v253 (by decide), wsub main_c_95 (by decide), wsub main_v254 (by decide), wsub main_v255 (by decide)⟩

theorem it13D_writes : (it13D (F := F)).Forall fun op => op.writes ⊆ (it13_W.map (Proc.devRef (τ := τ) .tc)).toFinset :=
  ⟨wsub (main_call80.call0.c.ref) (by decide), wsub (main_call80.call0.v0.ref) (by decide), wsub (main_call80.call0.v1.ref) (by decide)⟩

theorem it13E_writes : (it13E (F := F)).Forall fun op => op.writes ⊆ (it13_W.map (Proc.devRef (τ := τ) .tc)).toFinset :=
  ⟨wsub main_c_96 (by decide), wsub (main_call81.v0.ref) (by decide), wsub (main_call81.v1.ref) (by decide), wsub (main_call81.v2.ref) (by decide), wsub (main_call81.v3.ref) (by decide), wsub (main_call81.v4.ref) (by decide), wsub (main_call81.v5.ref) (by decide), wsub (main_call81.v6.ref) (by decide), wsub (main_call81.v7.ref) (by decide), wsub (main_call81.c.ref) (by decide), wsub (main_call81.v8.ref) (by decide), wsub (main_call81.v9.ref) (by decide), wsub (main_call81.v10.ref) (by decide), wsub (main_call81.c_0.ref) (by decide), wsub (main_call81.v11.ref) (by decide), wsub (main_call81.v12.ref) (by decide), wsub (main_call81.call0.v0.ref) (by decide)⟩

theorem it13G_writes : (it13G (F := F)).Forall fun op => op.writes ⊆ (it13_W.map (Proc.devRef (τ := τ) .tc)).toFinset :=
  ⟨wsub main_c_97 (by decide), wsub (main_call82.v0.ref) (by decide), wsub (main_call82.c.ref) (by decide), wsub (main_call82.v1.ref) (by decide), wsub (main_call82.c_0.ref) (by decide), wsub (main_call82.call0.v0.ref) (by decide), wsub (main_call82.v3.ref) (by decide), wsub (main_call82.v4.ref) (by decide), wsub (main_call82.c_1.ref) (by decide), wsub (main_call82.v5.ref) (by decide), wsub (main_call82.v6.ref) (by decide), wsub (main_call82.c_2.ref) (by decide), wsub (main_call82.v7.ref) (by decide), wsub (main_call82.v8.ref) (by decide), wsub (main_call82.c_3.ref) (by decide), wsub (main_call82.v9.ref) (by decide), wsub (main_call82.v10.ref) (by decide), wsub (main_call82.v11.ref) (by decide), wsub (main_call82.v12.ref) (by decide), wsub (main_call82.v13.ref) (by decide), wsub (main_call82.v14.ref) (by decide), wsub (main_call82.v15.ref) (by decide)⟩

theorem it13H_writes : (it13H (F := F)).Forall fun op => op.writes ⊆ (it13_W.map (Proc.devRef (τ := τ) .tc)).toFinset :=
  ⟨wsub (main_call83.c.ref) (by decide), wsub (main_call83.v0.ref) (by decide), wsub (main_call83.v1.ref) (by decide), wsub (main_call83.c_0.ref) (by decide), wsub (main_call83.v2.ref) (by decide), wsub (main_call83.v3.ref) (by decide), wsub (main_call83.call0.v0.ref) (by decide), wsub (main_call83.v5.ref) (by decide), wsub (main_call83.c_1.ref) (by decide), wsub (main_call83.c_2.ref) (by decide), wsub (main_call83.v6.ref) (by decide), wsub (main_call83.v7.ref) (by decide), wsub (main_call83.v8.ref) (by decide), wsub (main_call83.v9.ref) (by decide), wsub (main_call83.v10.ref) (by decide), wsub (main_call83.v11.ref) (by decide), wsub (main_call83.c_3.ref) (by decide), wsub (main_call83.v12.ref) (by decide), wsub (main_call83.v13.ref) (by decide), wsub (main_call83.v14.ref) (by decide), wsub (main_call83.cst.ref) (by decide), wsub (main_call83.v15.ref) (by decide), wsub (main_call83.v16.ref) (by decide)⟩

theorem it13hd_writes : (it13hd (F := F)).Forall fun op => op.writes ⊆ (it13_W.map (Proc.devRef (τ := τ) .tc)).toFinset :=
  forall_append it13A_writes (forall_append it13B_writes (forall_append it13C_writes (forall_append it13D_writes (forall_append it13E_writes it13G_writes))))

theorem it13_writes : (it13 (F := F)).Forall fun op => op.writes ⊆ (it13_W.map (Proc.devRef (τ := τ) .tc)).toFinset :=
  forall_append it13hd_writes (it13H_writes)

/-- The iteration leaves every buffer it does not write as it was. -/
theorem it13_keep (V : Valuation τ sig (Elt F)) (r : Ref sig .tc) (hr : r ∉ it13_W) :
    after (it13 (F := F)) V (Proc.devRef (τ := τ) .tc r) = V (Proc.devRef (τ := τ) .tc r) :=
  after_of_writes_sub it13 V it13_writes hr

theorem it13hd_keep (V : Valuation τ sig (Elt F)) (r : Ref sig .tc) (hr : r ∉ it13_W) :
    after (it13hd (F := F)) V (Proc.devRef (τ := τ) .tc r) = V (Proc.devRef (τ := τ) .tc r) :=
  after_of_writes_sub it13hd V it13hd_writes hr

/-- The iteration's result: the rows of the matrix it is handed at the compacted indices of its mask. -/
theorem it13_res (V : Valuation τ sig (Elt F)) :
    after (it13 (F := F)) V (Proc.devRef (τ := τ) .tc main_v259) = RefFns.nzTake (V (Proc.devRef (τ := τ) .tc main_v7)) (RefFns.colMask (V (Proc.devRef (τ := τ) .tc main_v1)) 13 slices_S1024x32x1_S1024x1x1_0_13_0) := by
  rw [it13, after_append, it13H_val, it13hd_keep V main_v7 (by decide), it13hd]
  simp only [after_append]
  rw [it13G_val, it13E_val, it13D_val, it13C_val, it13B_val, it13A_val]
  rfl

set_option maxRecDepth 65536 in
set_option maxHeartbeats 4000000 in
/-- The invariant of the run survives the iteration, with its block added. -/
theorem it13_step {x : FVec F S1x32x1024 .f32} {V : Valuation τ sig (Elt F)} (hg : Good 13 x V) : Good 14 x (after (it13 (F := F)) V) :=
  good_step 13 (by decide) it13 it13_W slices_S1024x32x1_S1024x1x1_0_13_0 it13_keep it13_res (fun _ => rfl) (by decide +kernel) (by decide +kernel) (by decide +kernel) (by decide +kernel) hg

end Cert.ReferenceIdeal.HandRun

end
-- ==== Proof.RefOpsIt14.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 5 of @main). -/
noncomputable def it14Aa : List (HloOp τ sig (Elt F)) :=
  [ StableHlo.unary main_v1 main_v260 ((extractStridedSlice S1024x1x1 ![0, 14, 0] · slices_S1024x32x1_S1024x1x1_0_14_0) : (⟨S1024x32x1, .i1⟩ : BufTy).Contents (Elt F) → (⟨S1024x1x1, .i1⟩ : BufTy).Contents (Elt F)) ]

theorem it14Aa_sub : (it14Aa (F := F)).Forall fun op => op.bufs ⊆ tcRefs τ sig :=
  unary_bufs_sub ..

theorem it14Aa_fresh : (it14Aa (F := F)).Forall fun op => op.fresh = ∅ :=
  rfl

/-- A piece of this stretch (window 6 of @main). -/
noncomputable def it14Ab : List (HloOp τ sig (Elt F)) :=
  [ StableHlo.reshape main_v260 main_v261 rfl shapeCasts_S1024x1x1_S1024,
    StableHlo.unary main_v261 main_v262 (noti : (⟨S1024, .i1⟩ : BufTy).Contents (Elt F) → (⟨S1024, .i1⟩ : BufTy).Contents (Elt F)) ]

theorem it14Ab_sub : (it14Ab (F := F)).Forall fun op => op.bufs ⊆ tcRefs τ sig :=
  ⟨reshape_bufs_sub .., unary_bufs_sub ..⟩

theorem it14Ab_fresh : (it14Ab (F := F)).Forall fun op => op.fresh = ∅ :=
  ⟨rfl, rfl⟩

/-- A piece of this stretch (window 6 of @main). -/
noncomputable def it14B : List (HloOp τ sig (Elt F)) :=
  [ StableHlo.TRef.unary (.of main_v262 : StableHlo.TRef sig ⟨S1024, .i1⟩) main_call84.v0 (extui 32 · natLt_1_32),
    StableHlo.TRef.nullary main_call84.call0.c (constantI S_ 32 0#32),
    StableHlo.TRef.unary main_call84.call0.c main_call84.call0.v0 (broadcastInDim S_ ![] bcast_S_S_),
    StableHlo.TRef.binary main_call84.v0 main_call84.call0.v0 main_call84.call0.v1 (fun x v => Host.reduceWindow IntOp.addi ![1024] ![1] ![1023] ![0] x v reduceWindows_S1024_S1024_w1024s1p1023_0 h_S_) ]

theorem it14B_sub : (it14B (F := F)).Forall fun op => op.bufs ⊆ tcRefs τ sig :=
  ⟨unary_bufs_sub .., nullary_bufs_sub .., unary_bufs_sub .., binary_bufs_sub ..⟩

theorem it14B_fresh : (it14B (F := F)).Forall fun op => op.fresh = ∅ :=
  ⟨rfl, rfl, rfl, rfl⟩

/-- A piece of this stretch (window 6 of @main). -/
noncomputable def it14C : List (HloOp τ sig (Elt F)) :=
  [ StableHlo.nullary main_c_98 (constantI S_ 32 0#32),
    StableHlo.unary main_c_98 main_v264 (broadcastInDim S1024 ![] bcast_S_S1024 : (⟨S_, .i32⟩ : BufTy).Contents (Elt F) → (⟨S1024, .i32⟩ : BufTy).Contents (Elt F)),
    StableHlo.nullary main_c_99 (constantI S_ 32 0#32),
    StableHlo.TRef.unary (.of main_c_99 : StableHlo.TRef sig ⟨S_, .i32⟩) main_call85.v0 id,
    StableHlo.TRef.unary main_call85.v0 main_call85.v1 (broadcastInDim S1024 ![] bcast_S_S1024),
    StableHlo.TRef.binary main_call85.v1 (.of main_v263 : StableHlo.TRef sig ⟨S1024, .i32⟩) main_call85.v2 maxsi,
    StableHlo.nullary main_c_100 (constantI S_ 32 0#32),
    StableHlo.unary main_c_100 main_v266 (broadcastInDim S1024 ![] bcast_S_S1024 : (⟨S_, .i32⟩ : BufTy).Contents (Elt F) → (⟨S1024, .i32⟩ : BufTy).Contents (Elt F)),
    StableHlo.binary main_v265 main_v266 main_v267 (cmpi .slt : (⟨S1024, .i32⟩ : BufTy).Contents (Elt F) → (⟨S1024, .i32⟩ : BufTy).Contents (Elt F) → (⟨S1024, .i1⟩ : BufTy).Contents (Elt F)),
    StableHlo.nullary main_c_101 (constantI S_ 32 1024#32),
    StableHlo.unary main_c_101 main_v268 (broadcastInDim S1024 ![] bcast_S_S1024 : (⟨S_, .i32⟩ : BufTy).Contents (Elt F) → (⟨S1024, .i32⟩ : BufTy).Contents (Elt F)),
    StableHlo.binary main_v265 main_v268 main_v269 (addi : (⟨S1024, .i32⟩ : BufTy).Contents (Elt F) → (⟨S1024, .i32⟩ : BufTy).Contents (Elt F) → (⟨S1024, .i32⟩ : BufTy).Contents (Elt F)),
    StableHlo.ternary main_v267 main_v269 main_v265 main_v270 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v270 main_v271 (broadcastInDim S1024x1 ![0] bcast_S1024_S1024x1_0 : (⟨S1024, .i32⟩ : BufTy).Contents (Elt F) → (⟨S1024x1, .i32⟩ : BufTy).Contents (Elt F)),
    StableHlo.nullary main_c_102 (constantI S_ 32 1#32),
    StableHlo.unary main_c_102 main_v272 (broadcastInDim S1024 ![] bcast_S_S1024 : (⟨S_, .i32⟩ : BufTy).Contents (Elt F) → (⟨S1024, .i32⟩ : BufTy).Contents (Elt F)),
    StableHlo.ternary main_v264 main_v271 main_v272 main_v273 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it14C_sub : (it14C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it14C_fresh : (it14C (F := F)).Forall fun op => op.fresh = ∅ :=
  ⟨rfl, rfl, rfl, rfl, rfl, rfl, rfl, rfl, rfl, rfl, rfl, rfl, rfl, rfl, rfl, rfl, rfl⟩

/-- A piece of this stretch (window 6 of @main). -/
noncomputable def it14D : List (HloOp τ sig (Elt F)) :=
  [ StableHlo.TRef.nullary main_call86.call0.c (constantI S_ 32 0#32),
    StableHlo.TRef.unary main_call86.call0.c main_call86.call0.v0 (broadcastInDim S_ ![] bcast_S_S_),
    StableHlo.TRef.binary (.of main_v273 : StableHlo.TRef sig ⟨S1024, .i32⟩) main_call86.call0.v0 main_call86.call0.v1 (fun x v => Host.reduceWindow IntOp.addi ![1024] ![1] ![1023] ![0] x v reduceWindows_S1024_S1024_w1024s1p1023_0 h_S_) ]

theorem it14D_sub : (it14D (F := F)).Forall fun op => op.bufs ⊆ tcRefs τ sig :=
  ⟨nullary_bufs_sub .., unary_bufs_sub .., binary_bufs_sub ..⟩

theorem it14D_fresh : (it14D (F := F)).Forall fun op => op.fresh = ∅ :=
  ⟨rfl, rfl, rfl⟩

/-- A piece of this stretch (window 6 of @main). -/
noncomputable def it14E : List (HloOp τ sig (Elt F)) :=
  [ StableHlo.nullary main_c_103 (constantI S_ 32 1#32),
    StableHlo.TRef.unary (.of main_c_103 : StableHlo.TRef sig ⟨S_, .i32⟩) main_call87.v0 (broadcastInDim S1024 ![] bcast_S_S1024),
    StableHlo.TRef.binary (.of main_v274 : StableHlo.TRef sig ⟨S1024, .i32⟩) main_call87.v0 main_call87.v1 Host.divsi,
    StableHlo.TRef.unary (.of main_v274 : StableHlo.TRef sig ⟨S1024, .i32⟩) main_call87.v2 signi,
    StableHlo.TRef.unary (.of main_c_103 : StableHlo.TRef sig ⟨S_, .i32⟩) main_call87.v3 signi,
    StableHlo.TRef.unary main_call87.v3 main_call87.v4 (broadcastInDim S1024 ![] bcast_S_S1024),
    StableHlo.TRef.binary main_call87.v2 main_call87.v4 main_call87.v5 (cmpi .ne),
    StableHlo.TRef.unary (.of main_c_103 : StableHlo.TRef sig ⟨S_, .i32⟩) main_call87.v6 (broadcastInDim S1024 ![] bcast_S_S1024),
    StableHlo.TRef.binary (.of main_v274 : StableHlo.TRef sig ⟨S1024, .i32⟩) main_call87.v6 main_call87.v7 Host.remsi,
    StableHlo.TRef.nullary main_call87.c (constantI S_ 32 0#32),
    StableHlo.TRef.unary main_call87.c main_call87.v8 (broadcastInDim S1024 ![] bcast_S_S1024),
    StableHlo.TRef.binary main_call87.v7 main_call87.v8 main_call87.v9 (cmpi .ne),
    StableHlo.TRef.binary main_call87.v5 main_call87.v9 main_call87.v10 andi,
    StableHlo.TRef.nullary main_call87.c_0 (constantI S_ 32 1#32),
    StableHlo.TRef.unary main_call87.c_0 main_call87.v11 (broadcastInDim S1024 ![] bcast_S_S1024),
    StableHlo.TRef.binary main_call87.v1 main_call87.v11 main_call87.v12 subi,
    StableHlo.TRef.ternary main_call87.v10 main_call87.v12 main_call87.v1 main_call87.call0.v0 select ]

theorem it14E_sub : (it14E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it14E_fresh : (it14E (F := F)).Forall fun op => op.fresh = ∅ :=
  ⟨rfl, rfl, rfl, rfl, rfl, rfl, rfl, rfl, rfl, rfl, rfl, rfl, rfl, rfl, rfl, rfl, rfl⟩

/-- A piece of this stretch (window 6 of @main). -/
noncomputable def it14G : List (HloOp τ sig (Elt F)) :=
  [ StableHlo.nullary main_c_104 (constantI S_ 32 1024#32),
    StableHlo.TRef.unary (.of main_c_104 : StableHlo.TRef sig ⟨S_, .i32⟩) main_call88.v0 id,
    StableHlo.TRef.nullary main_call88.c (constantI S_ 32 0#32),
    StableHlo.TRef.binary main_call88.v0 main_call88.c main_call88.v1 (cmpi .eq),
    StableHlo.TRef.nullary main_call88.c_0 (constantI S_ 32 1#32),
    StableHlo.TRef.ternary main_call88.v1 main_call88.c_0 main_call88.v0 main_call88.call0.v0 select,
    StableHlo.TRef.unary main_call88.call0.v0 main_call88.v3 (broadcastInDim S1024 ![] bcast_S_S1024),
    StableHlo.TRef.binary (.of main_v275 : StableHlo.TRef sig ⟨S1024, .i32⟩) main_call88.v3 main_call88.v4 Host.remsi,
    StableHlo.TRef.nullary main_call88.c_1 (constantI S_ 32 0#32),
    StableHlo.TRef.unary main_call88.c_1 main_call88.v5 (broadcastInDim S1024 ![] bcast_S_S1024),
    StableHlo.TRef.binary main_call88.v4 main_call88.v5 main_call88.v6 (cmpi .ne),
    StableHlo.TRef.nullary main_call88.c_2 (constantI S_ 32 0#32),
    StableHlo.TRef.unary main_call88.c_2 main_call88.v7 (broadcastInDim S1024 ![] bcast_S_S1024),
    StableHlo.TRef.binary main_call88.v4 main_call88.v7 main_call88.v8 (cmpi .slt),
    StableHlo.TRef.nullary main_call88.c_3 (constantI S_ 32 0#32),
    StableHlo.TRef.binary main_call88.call0.v0 main_call88.c_3 main_call88.v9 (cmpi .slt),
    StableHlo.TRef.unary main_call88.v9 main_call88.v10 (broadcastInDim S1024 ![] bcast_S_S1024),
    StableHlo.TRef.binary main_call88.v8 main_call88.v10 main_call88.v11 (cmpi .ne),
    StableHlo.TRef.binary main_call88.v11 main_call88.v6 main_call88.v12 andi,
    StableHlo.TRef.unary main_call88.call0.v0 main_call88.v13 (broadcastInDim S1024 ![] bcast_S_S1024),
    StableHlo.TRef.binary main_call88.v4 main_call88.v13 main_call88.v14 addi,
    StableHlo.TRef.ternary main_call88.v12 main_call88.v14 main_call88.v4 main_call88.v15 select ]

theorem it14G_sub : (it14G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it14G_fresh : (it14G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 6 of @main). -/
noncomputable def it14H : List (HloOp τ sig (Elt F)) :=
  [ StableHlo.TRef.nullary main_call89.c (constantI S_ 32 0#32),
    StableHlo.TRef.unary main_call89.c main_call89.v0 (broadcastInDim S1024 ![] bcast_S_S1024),
    StableHlo.TRef.binary (.of main_v276 : StableHlo.TRef sig ⟨S1024, .i32⟩) main_call89.v0 main_call89.v1 (cmpi .slt),
    StableHlo.TRef.nullary main_call89.c_0 (constantI S_ 32 1024#32),
    StableHlo.TRef.unary main_call89.c_0 main_call89.v2 (broadcastInDim S1024 ![] bcast_S_S1024),
    StableHlo.TRef.binary (.of main_v276 : StableHlo.TRef sig ⟨S1024, .i32⟩) main_call89.v2 main_call89.v3 addi,
    StableHlo.TRef.ternary main_call89.v1 main_call89.v3 (.of main_v276 : StableHlo.TRef sig ⟨S1024, .i32⟩) main_call89.call0.v0 select,
    StableHlo.TRef.unary main_call89.call0.v0 main_call89.v5 (broadcastInDim S1024x1 ![0] bcast_S1024_S1024x1_0),
    StableHlo.TRef.nullary main_call89.c_1 (constantI S1 32 1023#32),
    StableHlo.TRef.nullary main_call89.c_2 (constantI S_ 32 0#32),
    StableHlo.TRef.unary main_call89.c_2 main_call89.v6 (broadcastInDim S1024x1 ![] bcast_S_S1024x1),
    StableHlo.TRef.binary main_call89.v5 main_call89.v6 main_call89.v7 (cmpi .sge),
    StableHlo.TRef.unary main_call89.c_1 main_call89.v8 (broadcastInDim S1x1 ![1] bcast_S1_S1x1_1),
    StableHlo.TRef.unary main_call89.v8 main_call89.v9 (broadcastInDim S1024x1 ![0, 1] bcast_S1x1_S1024x1_0_1),
    StableHlo.TRef.binary main_call89.v5 main_call89.v9 main_call89.v10 (cmpi .sle),
    StableHlo.TRef.binary main_call89.v7 main_call89.v10 main_call89.v11 andi,
    StableHlo.TRef.nullary main_call89.c_3 (constantI S_ 1 1#1),
    StableHlo.TRef.binary main_call89.v11 main_call89.c_3 main_call89.v12 (fun x v => Host.reduce IntOp.andi x v reducesTo_S1024x1_S1024_d1 h_S_),
    StableHlo.TRef.binary (.of main_v7 : StableHlo.TRef sig ⟨S1024x1024, .f32⟩) main_call89.v5 main_call89.v13 (fun x i => Host.gather gather_S1024x1024_S1024x1_S1024x1024_1_0_n_n_0_1_11024 x i),
    StableHlo.TRef.unary main_call89.v12 main_call89.v14 (broadcastInDim S1024x1024 ![0] bcast_S1024_S1024x1024_0),
    StableHlo.TRef.nullary main_call89.cst (constant S_ .f32 0x7FC00000#32),
    StableHlo.TRef.unary main_call89.cst main_call89.v15 (broadcastInDim S1024x1024 ![] bcast_S_S1024x1024),
    StableHlo.TRef.ternary main_call89.v14 main_call89.v13 main_call89.v15 main_call89.v16 select ]

theorem it14H_sub : (it14H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it14H_fresh : (it14H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it14_W : List (Ref sig .tc) :=
  [main_v260, main_v261, main_v262, (main_call84.v0.ref), (main_call84.call0.c.ref), (main_call84.call0.v0.ref), (main_call84.call0.v1.ref), main_c_98, main_v264, main_c_99, (main_call85.v0.ref), (main_call85.v1.ref), (main_call85.v2.ref), main_c_100, main_v266, main_v267, main_c_101, main_v268, main_v269, main_v270, main_v271, main_c_102, main_v272, main_v273, (main_call86.call0.c.ref), (main_call86.call0.v0.ref), (main_call86.call0.v1.ref), main_c_103, (main_call87.v0.ref), (main_call87.v1.ref), (main_call87.v2.ref), (main_call87.v3.ref), (main_call87.v4.ref), (main_call87.v5.ref), (main_call87.v6.ref), (main_call87.v7.ref), (main_call87.c.ref), (main_call87.v8.ref), (main_call87.v9.ref), (main_call87.v10.ref), (main_call87.c_0.ref), (main_call87.v11.ref), (main_call87.v12.ref), (main_call87.call0.v0.ref), main_c_104, (main_call88.v0.ref), (main_call88.c.ref), (main_call88.v1.ref), (main_call88.c_0.ref), (main_call88.call0.v0.ref), (main_call88.v3.ref), (main_call88.v4.ref), (main_call88.c_1.ref), (main_call88.v5.ref), (main_call88.v6.ref), (main_call88.c_2.ref), (main_call88.v7.ref), (main_call88.v8.ref), (main_call88.c_3.ref), (main_call88.v9.ref), (main_call88.v10.ref), (main_call88.v11.ref), (main_call88.v12.ref), (main_call88.v13.ref), (main_call88.v14.ref), (main_call88.v15.ref), (main_call89.c.ref), (main_call89.v0.ref), (main_call89.v1.ref), (main_call89.c_0.ref), (main_call89.v2.ref), (main_call89.v3.ref), (main_call89.call0.v0.ref), (main_call89.v5.ref), (main_call89.c_1.ref), (main_call89.c_2.ref), (main_call89.v6.ref), (main_call89.v7.ref), (main_call89.v8.ref), (main_call89.v9.ref), (main_call89.v10.ref), (main_call89.v11.ref), (main_call89.c_3.ref), (main_call89.v12.ref), (main_call89.v13.ref), (main_call89.v14.ref), (main_call89.cst.ref), (main_call89.v15.ref), (main_call89.v16.ref)]

/-- One stage of the iteration, whole. -/
noncomputable def it14A : List (HloOp τ sig (Elt F)) := it14Aa ++ it14Ab
theorem it14A_sub : (it14A (F := F)).Forall fun op => op.bufs ⊆ tcRefs τ sig :=
  forall_append it14Aa_sub it14Ab_sub
theorem it14A_fresh : (it14A (F := F)).Forall fun op => op.fresh = ∅ :=
  forall_append it14Aa_fresh it14Ab_fresh

/-- The iteration up to the row lookup. -/
noncomputable def it14hd : List (HloOp τ sig (Elt F)) := it14A ++ (it14B ++ (it14C ++ (it14D ++ (it14E ++ it14G))))

/-- The iteration. -/
noncomputable def it14 : List (HloOp τ sig (Elt F)) := it14hd ++ it14H
theorem it14_sub : (it14 (F := F)).Forall fun op => op.bufs ⊆ tcRefs τ sig :=
  forall_append (forall_append it14A_sub (forall_append it14B_sub (forall_append it14C_sub (forall_append it14D_sub (forall_append it14E_sub it14G_sub))))) it14H_sub
theorem it14_fresh : (it14 (F := F)).Forall fun op => op.fresh = ∅ :=
  forall_append (forall_append it14A_fresh (forall_append it14B_fresh (forall_append it14C_fresh (forall_append it14D_fresh (forall_append it14E_fresh it14G_fresh))))) it14H_fresh

/-- The iteration as the concatenation of its pieces. -/
theorem it14_atoms : it14 (F := F) = it14Aa ++ (it14Ab ++ (it14B ++ (it14C ++ (it14D ++ (it14E ++ (it14G ++ it14H)))))) := by
  simp only [it14, it14hd, it14A, List.append_assoc]

end Cert.ReferenceIdeal.HandRun

end
-- ==== Proof.RefIt14.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt14

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it14A_val (V : Valuation τ sig (Elt F)) :
    after (it14A (F := F)) V (Proc.devRef (τ := τ) .tc main_v262) = RefFns.colMask (V (Proc.devRef (τ := τ) .tc main_v1)) 14 slices_S1024x32x1_S1024x1x1_0_14_0 := by
  simp only [it14A, it14Aa, it14Ab, List.cons_append, List.nil_append]
  after_results_simp
  try simp only [cast_eq]
  rfl

set_option maxRecDepth 65536 in
set_option maxHeartbeats 1000000 in
theorem it14B_val (V : Valuation τ sig (Elt F)) :
    after (it14B (F := F)) V (Proc.devRef (τ := τ) .tc main_v263) = RefFns.cumsumF (V (Proc.devRef (τ := τ) .tc main_v262)) := by
  simp only [it14B, List.cons_append, List.nil_append]
  after_results_simp
  try simp only [cast_eq]
  rfl

set_option maxRecDepth 65536 in
set_option maxHeartbeats 1000000 in
theorem it14C_val (V : Valuation τ sig (Elt F)) :
    after (it14C (F := F)) V (Proc.devRef (τ := τ) .tc main_v273) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v263)) (constantI S_ 32 0#32)) (broadcastInDim S1024 ![] bcast_S_S1024 (constantI S_ 32 0#32))) (addi (RefFns.clipF (V (Proc.devRef (τ := τ) .tc main_v263)) (constantI S_ 32 0#32)) (broadcastInDim S1024 ![] bcast_S_S1024 (constantI S_ 32 1024#32))) (RefFns.clipF (V (Proc.devRef (τ := τ) .tc main_v263)) (constantI S_ 32 0#32)))) (broadcastInDim S1024 ![] bcast_S_S1024 (constantI S_ 32 1#32)) := by
  simp only [it14C, List.cons_append, List.nil_append]
  after_results_simp
  try simp only [cast_eq]
  rfl

set_option maxRecDepth 65536 in
set_option maxHeartbeats 1000000 in
theorem it14D_val (V : Valuation τ sig (Elt F)) :
    after (it14D (F := F)) V (Proc.devRef (τ := τ) .tc main_v274) = RefFns.cumsum1F (V (Proc.devRef (τ := τ) .tc main_v273)) := by
  simp only [it14D, List.cons_append, List.nil_append]
  after_results_simp
  try simp only [cast_eq]
  rfl

set_option maxRecDepth 65536 in
set_option maxHeartbeats 1000000 in
theorem it14E_val (V : Valuation τ sig (Elt F)) :
    after (it14E (F := F)) V (Proc.devRef (τ := τ) .tc main_v275) = RefFns.floorDivF (V (Proc.devRef (τ := τ) .tc main_v274)) (constantI S_ 32 1#32) := by
  simp only [it14E, List.cons_append, List.nil_append]
  after_results_simp
  try simp only [cast_eq]
  rfl

set_option maxRecDepth 65536 in
set_option maxHeartbeats 1000000 in
theorem it14G_val (V : Valuation τ sig (Elt F)) :
    after (it14G (F := F)) V (Proc.devRef (τ := τ) .tc main_v276) = RefFns.remainderF (V (Proc.devRef (τ := τ) .tc main_v275)) (constantI S_ 32 1024#32) := by
  simp only [it14G, List.cons_append, List.nil_append]
  after_results_simp
  try simp only [cast_eq]
  rfl

set_option maxRecDepth 65536 in
set_option maxHeartbeats 1000000 in
theorem it14H_val (V : Valuation τ sig (Elt F)) :
    after (it14H (F := F)) V (Proc.devRef (τ := τ) .tc main_v277) = RefFns.takeF (V (Proc.devRef (τ := τ) .tc main_v7)) (V (Proc.devRef (τ := τ) .tc main_v276)) := by
  simp only [it14H, List.cons_append, List.nil_append]
  after_results_simp
  try simp only [cast_eq]
  rfl

theorem it14Aa_writes : (it14Aa (F := F)).Forall fun op => op.writes ⊆ (it14_W.map (Proc.devRef (τ := τ) .tc)).toFinset :=
  wsub main_v260 (by decide)

theorem it14Ab_writes : (it14Ab (F := F)).Forall fun op => op.writes ⊆ (it14_W.map (Proc.devRef (τ := τ) .tc)).toFinset :=
  ⟨wsub main_v261 (by decide), wsub main_v262 (by decide)⟩

theorem it14B_writes : (it14B (F := F)).Forall fun op => op.writes ⊆ (it14_W.map (Proc.devRef (τ := τ) .tc)).toFinset :=
  ⟨wsub (main_call84.v0.ref) (by decide), wsub (main_call84.call0.c.ref) (by decide), wsub (main_call84.call0.v0.ref) (by decide), wsub (main_call84.call0.v1.ref) (by decide)⟩

theorem it14C_writes : (it14C (F := F)).Forall fun op => op.writes ⊆ (it14_W.map (Proc.devRef (τ := τ) .tc)).toFinset :=
  ⟨wsub main_c_98 (by decide), wsub main_v264 (by decide), wsub main_c_99 (by decide), wsub (main_call85.v0.ref) (by decide), wsub (main_call85.v1.ref) (by decide), wsub (main_call85.v2.ref) (by decide), wsub main_c_100 (by decide), wsub main_v266 (by decide), wsub main_v267 (by decide), wsub main_c_101 (by decide), wsub main_v268 (by decide), wsub main_v269 (by decide), wsub main_v270 (by decide), wsub main_v271 (by decide), wsub main_c_102 (by decide), wsub main_v272 (by decide), wsub main_v273 (by decide)⟩

theorem it14D_writes : (it14D (F := F)).Forall fun op => op.writes ⊆ (it14_W.map (Proc.devRef (τ := τ) .tc)).toFinset :=
  ⟨wsub (main_call86.call0.c.ref) (by decide), wsub (main_call86.call0.v0.ref) (by decide), wsub (main_call86.call0.v1.ref) (by decide)⟩

theorem it14E_writes : (it14E (F := F)).Forall fun op => op.writes ⊆ (it14_W.map (Proc.devRef (τ := τ) .tc)).toFinset :=
  ⟨wsub main_c_103 (by decide), wsub (main_call87.v0.ref) (by decide), wsub (main_call87.v1.ref) (by decide), wsub (main_call87.v2.ref) (by decide), wsub (main_call87.v3.ref) (by decide), wsub (main_call87.v4.ref) (by decide), wsub (main_call87.v5.ref) (by decide), wsub (main_call87.v6.ref) (by decide), wsub (main_call87.v7.ref) (by decide), wsub (main_call87.c.ref) (by decide), wsub (main_call87.v8.ref) (by decide), wsub (main_call87.v9.ref) (by decide), wsub (main_call87.v10.ref) (by decide), wsub (main_call87.c_0.ref) (by decide), wsub (main_call87.v11.ref) (by decide), wsub (main_call87.v12.ref) (by decide), wsub (main_call87.call0.v0.ref) (by decide)⟩

theorem it14G_writes : (it14G (F := F)).Forall fun op => op.writes ⊆ (it14_W.map (Proc.devRef (τ := τ) .tc)).toFinset :=
  ⟨wsub main_c_104 (by decide), wsub (main_call88.v0.ref) (by decide), wsub (main_call88.c.ref) (by decide), wsub (main_call88.v1.ref) (by decide), wsub (main_call88.c_0.ref) (by decide), wsub (main_call88.call0.v0.ref) (by decide), wsub (main_call88.v3.ref) (by decide), wsub (main_call88.v4.ref) (by decide), wsub (main_call88.c_1.ref) (by decide), wsub (main_call88.v5.ref) (by decide), wsub (main_call88.v6.ref) (by decide), wsub (main_call88.c_2.ref) (by decide), wsub (main_call88.v7.ref) (by decide), wsub (main_call88.v8.ref) (by decide), wsub (main_call88.c_3.ref) (by decide), wsub (main_call88.v9.ref) (by decide), wsub (main_call88.v10.ref) (by decide), wsub (main_call88.v11.ref) (by decide), wsub (main_call88.v12.ref) (by decide), wsub (main_call88.v13.ref) (by decide), wsub (main_call88.v14.ref) (by decide), wsub (main_call88.v15.ref) (by decide)⟩

theorem it14H_writes : (it14H (F := F)).Forall fun op => op.writes ⊆ (it14_W.map (Proc.devRef (τ := τ) .tc)).toFinset :=
  ⟨wsub (main_call89.c.ref) (by decide), wsub (main_call89.v0.ref) (by decide), wsub (main_call89.v1.ref) (by decide), wsub (main_call89.c_0.ref) (by decide), wsub (main_call89.v2.ref) (by decide), wsub (main_call89.v3.ref) (by decide), wsub (main_call89.call0.v0.ref) (by decide), wsub (main_call89.v5.ref) (by decide), wsub (main_call89.c_1.ref) (by decide), wsub (main_call89.c_2.ref) (by decide), wsub (main_call89.v6.ref) (by decide), wsub (main_call89.v7.ref) (by decide), wsub (main_call89.v8.ref) (by decide), wsub (main_call89.v9.ref) (by decide), wsub (main_call89.v10.ref) (by decide), wsub (main_call89.v11.ref) (by decide), wsub (main_call89.c_3.ref) (by decide), wsub (main_call89.v12.ref) (by decide), wsub (main_call89.v13.ref) (by decide), wsub (main_call89.v14.ref) (by decide), wsub (main_call89.cst.ref) (by decide), wsub (main_call89.v15.ref) (by decide), wsub (main_call89.v16.ref) (by decide)⟩

theorem it14hd_writes : (it14hd (F := F)).Forall fun op => op.writes ⊆ (it14_W.map (Proc.devRef (τ := τ) .tc)).toFinset :=
  forall_append (forall_append it14Aa_writes it14Ab_writes) (forall_append it14B_writes (forall_append it14C_writes (forall_append it14D_writes (forall_append it14E_writes it14G_writes))))

theorem it14_writes : (it14 (F := F)).Forall fun op => op.writes ⊆ (it14_W.map (Proc.devRef (τ := τ) .tc)).toFinset :=
  forall_append it14hd_writes (it14H_writes)

/-- The iteration leaves every buffer it does not write as it was. -/
theorem it14_keep (V : Valuation τ sig (Elt F)) (r : Ref sig .tc) (hr : r ∉ it14_W) :
    after (it14 (F := F)) V (Proc.devRef (τ := τ) .tc r) = V (Proc.devRef (τ := τ) .tc r) :=
  after_of_writes_sub it14 V it14_writes hr

theorem it14hd_keep (V : Valuation τ sig (Elt F)) (r : Ref sig .tc) (hr : r ∉ it14_W) :
    after (it14hd (F := F)) V (Proc.devRef (τ := τ) .tc r) = V (Proc.devRef (τ := τ) .tc r) :=
  after_of_writes_sub it14hd V it14hd_writes hr

/-- The iteration's result: the rows of the matrix it is handed at the compacted indices of its mask. -/
theorem it14_res (V : Valuation τ sig (Elt F)) :
    after (it14 (F := F)) V (Proc.devRef (τ := τ) .tc main_v277) = RefFns.nzTake (V (Proc.devRef (τ := τ) .tc main_v7)) (RefFns.colMask (V (Proc.devRef (τ := τ) .tc main_v1)) 14 slices_S1024x32x1_S1024x1x1_0_14_0) := by
  rw [it14, after_append, it14H_val, it14hd_keep V main_v7 (by decide), it14hd]
  simp only [after_append]
  rw [it14G_val, it14E_val, it14D_val, it14C_val, it14B_val, it14A_val]
  rfl

set_option maxRecDepth 65536 in
set_option maxHeartbeats 4000000 in
/-- The invariant of the run survives the iteration, with its block added. -/
theorem it14_step {x : FVec F S1x32x1024 .f32} {V : Valuation τ sig (Elt F)} (hg : Good 14 x V) : Good 15 x (after (it14 (F := F)) V) :=
  good_step 14 (by decide) it14 it14_W slices_S1024x32x1_S1024x1x1_0_14_0 it14_keep it14_res (fun _ => rfl) (by decide +kernel) (by decide +kernel) (by decide +kernel) (by decide +kernel) hg

end Cert.ReferenceIdeal.HandRun

end
-- ==== Proof.RefOpsIt15.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 6 of @main). -/
noncomputable def it15A : List (HloOp τ sig (Elt F)) :=
  [ StableHlo.unary main_v1 main_v278 ((extractStridedSlice S1024x1x1 ![0, 15, 0] · slices_S1024x32x1_S1024x1x1_0_15_0) : (⟨S1024x32x1, .i1⟩ : BufTy).Contents (Elt F) → (⟨S1024x1x1, .i1⟩ : BufTy).Contents (Elt F)),
    StableHlo.reshape main_v278 main_v279 rfl shapeCasts_S1024x1x1_S1024,
    StableHlo.unary main_v279 main_v280 (noti : (⟨S1024, .i1⟩ : BufTy).Contents (Elt F) → (⟨S1024, .i1⟩ : BufTy).Contents (Elt F)) ]

theorem it15A_sub : (it15A (F := F)).Forall fun op => op.bufs ⊆ tcRefs τ sig :=
  ⟨unary_bufs_sub .., reshape_bufs_sub .., unary_bufs_sub ..⟩

theorem it15A_fresh : (it15A (F := F)).Forall fun op => op.fresh = ∅ :=
  ⟨rfl, rfl, rfl⟩

/-- A piece of this stretch (window 6 of @main). -/
noncomputable def it15B : List (HloOp τ sig (Elt F)) :=
  [ StableHlo.TRef.unary (.of main_v280 : StableHlo.TRef sig ⟨S1024, .i1⟩) main_call90.v0 (extui 32 · natLt_1_32),
    StableHlo.TRef.nullary main_call90.call0.c (constantI S_ 32 0#32),
    StableHlo.TRef.unary main_call90.call0.c main_call90.call0.v0 (broadcastInDim S_ ![] bcast_S_S_),
    StableHlo.TRef.binary main_call90.v0 main_call90.call0.v0 main_call90.call0.v1 (fun x v => Host.reduceWindow IntOp.addi ![1024] ![1] ![1023] ![0] x v reduceWindows_S1024_S1024_w1024s1p1023_0 h_S_) ]

theorem it15B_sub : (it15B (F := F)).Forall fun op => op.bufs ⊆ tcRefs τ sig :=
  ⟨unary_bufs_sub .., nullary_bufs_sub .., unary_bufs_sub .., binary_bufs_sub ..⟩

theorem it15B_fresh : (it15B (F := F)).Forall fun op => op.fresh = ∅ :=
  ⟨rfl, rfl, rfl, rfl⟩

/-- A piece of this stretch (window 6 of @main). -/
noncomputable def it15C : List (HloOp τ sig (Elt F)) :=
  [ StableHlo.nullary main_c_105 (constantI S_ 32 0#32),
    StableHlo.unary main_c_105 main_v282 (broadcastInDim S1024 ![] bcast_S_S1024 : (⟨S_, .i32⟩ : BufTy).Contents (Elt F) → (⟨S1024, .i32⟩ : BufTy).Contents (Elt F)),
    StableHlo.nullary main_c_106 (constantI S_ 32 0#32),
    StableHlo.TRef.unary (.of main_c_106 : StableHlo.TRef sig ⟨S_, .i32⟩) main_call91.v0 id,
    StableHlo.TRef.unary main_call91.v0 main_call91.v1 (broadcastInDim S1024 ![] bcast_S_S1024),
    StableHlo.TRef.binary main_call91.v1 (.of main_v281 : StableHlo.TRef sig ⟨S1024, .i32⟩) main_call91.v2 maxsi,
    StableHlo.nullary main_c_107 (constantI S_ 32 0#32),
    StableHlo.unary main_c_107 main_v284 (broadcastInDim S1024 ![] bcast_S_S1024 : (⟨S_, .i32⟩ : BufTy).Contents (Elt F) → (⟨S1024, .i32⟩ : BufTy).Contents (Elt F)),
    StableHlo.binary main_v283 main_v284 main_v285 (cmpi .slt : (⟨S1024, .i32⟩ : BufTy).Contents (Elt F) → (⟨S1024, .i32⟩ : BufTy).Contents (Elt F) → (⟨S1024, .i1⟩ : BufTy).Contents (Elt F)),
    StableHlo.nullary main_c_108 (constantI S_ 32 1024#32),
    StableHlo.unary main_c_108 main_v286 (broadcastInDim S1024 ![] bcast_S_S1024 : (⟨S_, .i32⟩ : BufTy).Contents (Elt F) → (⟨S1024, .i32⟩ : BufTy).Contents (Elt F)),
    StableHlo.binary main_v283 main_v286 main_v287 (addi : (⟨S1024, .i32⟩ : BufTy).Contents (Elt F) → (⟨S1024, .i32⟩ : BufTy).Contents (Elt F) → (⟨S1024, .i32⟩ : BufTy).Contents (Elt F)),
    StableHlo.ternary main_v285 main_v287 main_v283 main_v288 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v288 main_v289 (broadcastInDim S1024x1 ![0] bcast_S1024_S1024x1_0 : (⟨S1024, .i32⟩ : BufTy).Contents (Elt F) → (⟨S1024x1, .i32⟩ : BufTy).Contents (Elt F)),
    StableHlo.nullary main_c_109 (constantI S_ 32 1#32),
    StableHlo.unary main_c_109 main_v290 (broadcastInDim S1024 ![] bcast_S_S1024 : (⟨S_, .i32⟩ : BufTy).Contents (Elt F) → (⟨S1024, .i32⟩ : BufTy).Contents (Elt F)),
    StableHlo.ternary main_v282 main_v289 main_v290 main_v291 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it15C_sub : (it15C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it15C_fresh : (it15C (F := F)).Forall fun op => op.fresh = ∅ :=
  ⟨rfl, rfl, rfl, rfl, rfl, rfl, rfl, rfl, rfl, rfl, rfl, rfl, rfl, rfl, rfl, rfl, rfl⟩

/-- A piece of this stretch (window 6 of @main). -/
noncomputable def it15D : List (HloOp τ sig (Elt F)) :=
  [ StableHlo.TRef.nullary main_call92.call0.c (constantI S_ 32 0#32),
    StableHlo.TRef.unary main_call92.call0.c main_call92.call0.v0 (broadcastInDim S_ ![] bcast_S_S_),
    StableHlo.TRef.binary (.of main_v291 : StableHlo.TRef sig ⟨S1024, .i32⟩) main_call92.call0.v0 main_call92.call0.v1 (fun x v => Host.reduceWindow IntOp.addi ![1024] ![1] ![1023] ![0] x v reduceWindows_S1024_S1024_w1024s1p1023_0 h_S_) ]

theorem it15D_sub : (it15D (F := F)).Forall fun op => op.bufs ⊆ tcRefs τ sig :=
  ⟨nullary_bufs_sub .., unary_bufs_sub .., binary_bufs_sub ..⟩

theorem it15D_fresh : (it15D (F := F)).Forall fun op => op.fresh = ∅ :=
  ⟨rfl, rfl, rfl⟩

/-- A piece of this stretch (window 6 of @main). -/
noncomputable def it15E : List (HloOp τ sig (Elt F)) :=
  [ StableHlo.nullary main_c_110 (constantI S_ 32 1#32),
    StableHlo.TRef.unary (.of main_c_110 : StableHlo.TRef sig ⟨S_, .i32⟩) main_call93.v0 (broadcastInDim S1024 ![] bcast_S_S1024),
    StableHlo.TRef.binary (.of main_v292 : StableHlo.TRef sig ⟨S1024, .i32⟩) main_call93.v0 main_call93.v1 Host.divsi,
    StableHlo.TRef.unary (.of main_v292 : StableHlo.TRef sig ⟨S1024, .i32⟩) main_call93.v2 signi,
    StableHlo.TRef.unary (.of main_c_110 : StableHlo.TRef sig ⟨S_, .i32⟩) main_call93.v3 signi,
    StableHlo.TRef.unary main_call93.v3 main_call93.v4 (broadcastInDim S1024 ![] bcast_S_S1024),
    StableHlo.TRef.binary main_call93.v2 main_call93.v4 main_call93.v5 (cmpi .ne),
    StableHlo.TRef.unary (.of main_c_110 : StableHlo.TRef sig ⟨S_, .i32⟩) main_call93.v6 (broadcastInDim S1024 ![] bcast_S_S1024),
    StableHlo.TRef.binary (.of main_v292 : StableHlo.TRef sig ⟨S1024, .i32⟩) main_call93.v6 main_call93.v7 Host.remsi,
    StableHlo.TRef.nullary main_call93.c (constantI S_ 32 0#32),
    StableHlo.TRef.unary main_call93.c main_call93.v8 (broadcastInDim S1024 ![] bcast_S_S1024),
    StableHlo.TRef.binary main_call93.v7 main_call93.v8 main_call93.v9 (cmpi .ne),
    StableHlo.TRef.binary main_call93.v5 main_call93.v9 main_call93.v10 andi,
    StableHlo.TRef.nullary main_call93.c_0 (constantI S_ 32 1#32),
    StableHlo.TRef.unary main_call93.c_0 main_call93.v11 (broadcastInDim S1024 ![] bcast_S_S1024),
    StableHlo.TRef.binary main_call93.v1 main_call93.v11 main_call93.v12 subi,
    StableHlo.TRef.ternary main_call93.v10 main_call93.v12 main_call93.v1 main_call93.call0.v0 select ]

theorem it15E_sub : (it15E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it15E_fresh : (it15E (F := F)).Forall fun op => op.fresh = ∅ :=
  ⟨rfl, rfl, rfl, rfl, rfl, rfl, rfl, rfl, rfl, rfl, rfl, rfl, rfl, rfl, rfl, rfl, rfl⟩

/-- A piece of this stretch (window 6 of @main). -/
noncomputable def it15G : List (HloOp τ sig (Elt F)) :=
  [ StableHlo.nullary main_c_111 (constantI S_ 32 1024#32),
    StableHlo.TRef.unary (.of main_c_111 : StableHlo.TRef sig ⟨S_, .i32⟩) main_call94.v0 id,
    StableHlo.TRef.nullary main_call94.c (constantI S_ 32 0#32),
    StableHlo.TRef.binary main_call94.v0 main_call94.c main_call94.v1 (cmpi .eq),
    StableHlo.TRef.nullary main_call94.c_0 (constantI S_ 32 1#32),
    StableHlo.TRef.ternary main_call94.v1 main_call94.c_0 main_call94.v0 main_call94.call0.v0 select,
    StableHlo.TRef.unary main_call94.call0.v0 main_call94.v3 (broadcastInDim S1024 ![] bcast_S_S1024),
    StableHlo.TRef.binary (.of main_v293 : StableHlo.TRef sig ⟨S1024, .i32⟩) main_call94.v3 main_call94.v4 Host.remsi,
    StableHlo.TRef.nullary main_call94.c_1 (constantI S_ 32 0#32),
    StableHlo.TRef.unary main_call94.c_1 main_call94.v5 (broadcastInDim S1024 ![] bcast_S_S1024),
    StableHlo.TRef.binary main_call94.v4 main_call94.v5 main_call94.v6 (cmpi .ne),
    StableHlo.TRef.nullary main_call94.c_2 (constantI S_ 32 0#32),
    StableHlo.TRef.unary main_call94.c_2 main_call94.v7 (broadcastInDim S1024 ![] bcast_S_S1024),
    StableHlo.TRef.binary main_call94.v4 main_call94.v7 main_call94.v8 (cmpi .slt),
    StableHlo.TRef.nullary main_call94.c_3 (constantI S_ 32 0#32),
    StableHlo.TRef.binary main_call94.call0.v0 main_call94.c_3 main_call94.v9 (cmpi .slt),
    StableHlo.TRef.unary main_call94.v9 main_call94.v10 (broadcastInDim S1024 ![] bcast_S_S1024),
    StableHlo.TRef.binary main_call94.v8 main_call94.v10 main_call94.v11 (cmpi .ne),
    StableHlo.TRef.binary main_call94.v11 main_call94.v6 main_call94.v12 andi,
    StableHlo.TRef.unary main_call94.call0.v0 main_call94.v13 (broadcastInDim S1024 ![] bcast_S_S1024),
    StableHlo.TRef.binary main_call94.v4 main_call94.v13 main_call94.v14 addi,
    StableHlo.TRef.ternary main_call94.v12 main_call94.v14 main_call94.v4 main_call94.v15 select ]

theorem it15G_sub : (it15G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it15G_fresh : (it15G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 6 of @main). -/
noncomputable def it15H : List (HloOp τ sig (Elt F)) :=
  [ StableHlo.TRef.nullary main_call95.c (constantI S_ 32 0#32),
    StableHlo.TRef.unary main_call95.c main_call95.v0 (broadcastInDim S1024 ![] bcast_S_S1024),
    StableHlo.TRef.binary (.of main_v294 : StableHlo.TRef sig ⟨S1024, .i32⟩) main_call95.v0 main_call95.v1 (cmpi .slt),
    StableHlo.TRef.nullary main_call95.c_0 (constantI S_ 32 1024#32),
    StableHlo.TRef.unary main_call95.c_0 main_call95.v2 (broadcastInDim S1024 ![] bcast_S_S1024),
    StableHlo.TRef.binary (.of main_v294 : StableHlo.TRef sig ⟨S1024, .i32⟩) main_call95.v2 main_call95.v3 addi,
    StableHlo.TRef.ternary main_call95.v1 main_call95.v3 (.of main_v294 : StableHlo.TRef sig ⟨S1024, .i32⟩) main_call95.call0.v0 select,
    StableHlo.TRef.unary main_call95.call0.v0 main_call95.v5 (broadcastInDim S1024x1 ![0] bcast_S1024_S1024x1_0),
    StableHlo.TRef.nullary main_call95.c_1 (constantI S1 32 1023#32),
    StableHlo.TRef.nullary main_call95.c_2 (constantI S_ 32 0#32),
    StableHlo.TRef.unary main_call95.c_2 main_call95.v6 (broadcastInDim S1024x1 ![] bcast_S_S1024x1),
    StableHlo.TRef.binary main_call95.v5 main_call95.v6 main_call95.v7 (cmpi .sge),
    StableHlo.TRef.unary main_call95.c_1 main_call95.v8 (broadcastInDim S1x1 ![1] bcast_S1_S1x1_1),
    StableHlo.TRef.unary main_call95.v8 main_call95.v9 (broadcastInDim S1024x1 ![0, 1] bcast_S1x1_S1024x1_0_1),
    StableHlo.TRef.binary main_call95.v5 main_call95.v9 main_call95.v10 (cmpi .sle),
    StableHlo.TRef.binary main_call95.v7 main_call95.v10 main_call95.v11 andi,
    StableHlo.TRef.nullary main_call95.c_3 (constantI S_ 1 1#1),
    StableHlo.TRef.binary main_call95.v11 main_call95.c_3 main_call95.v12 (fun x v => Host.reduce IntOp.andi x v reducesTo_S1024x1_S1024_d1 h_S_),
    StableHlo.TRef.binary (.of main_v7 : StableHlo.TRef sig ⟨S1024x1024, .f32⟩) main_call95.v5 main_call95.v13 (fun x i => Host.gather gather_S1024x1024_S1024x1_S1024x1024_1_0_n_n_0_1_11024 x i),
    StableHlo.TRef.unary main_call95.v12 main_call95.v14 (broadcastInDim S1024x1024 ![0] bcast_S1024_S1024x1024_0),
    StableHlo.TRef.nullary main_call95.cst (constant S_ .f32 0x7FC00000#32),
    StableHlo.TRef.unary main_call95.cst main_call95.v15 (broadcastInDim S1024x1024 ![] bcast_S_S1024x1024),
    StableHlo.TRef.ternary main_call95.v14 main_call95.v13 main_call95.v15 main_call95.v16 select ]

theorem it15H_sub : (it15H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it15H_fresh : (it15H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it15_W : List (Ref sig .tc) :=
  [main_v278, main_v279, main_v280, (main_call90.v0.ref), (main_call90.call0.c.ref), (main_call90.call0.v0.ref), (main_call90.call0.v1.ref), main_c_105, main_v282, main_c_106, (main_call91.v0.ref), (main_call91.v1.ref), (main_call91.v2.ref), main_c_107, main_v284, main_v285, main_c_108, main_v286, main_v287, main_v288, main_v289, main_c_109, main_v290, main_v291, (main_call92.call0.c.ref), (main_call92.call0.v0.ref), (main_call92.call0.v1.ref), main_c_110, (main_call93.v0.ref), (main_call93.v1.ref), (main_call93.v2.ref), (main_call93.v3.ref), (main_call93.v4.ref), (main_call93.v5.ref), (main_call93.v6.ref), (main_call93.v7.ref), (main_call93.c.ref), (main_call93.v8.ref), (main_call93.v9.ref), (main_call93.v10.ref), (main_call93.c_0.ref), (main_call93.v11.ref), (main_call93.v12.ref), (main_call93.call0.v0.ref), main_c_111, (main_call94.v0.ref), (main_call94.c.ref), (main_call94.v1.ref), (main_call94.c_0.ref), (main_call94.call0.v0.ref), (main_call94.v3.ref), (main_call94.v4.ref), (main_call94.c_1.ref), (main_call94.v5.ref), (main_call94.v6.ref), (main_call94.c_2.ref), (main_call94.v7.ref), (main_call94.v8.ref), (main_call94.c_3.ref), (main_call94.v9.ref), (main_call94.v10.ref), (main_call94.v11.ref), (main_call94.v12.ref), (main_call94.v13.ref), (main_call94.v14.ref), (main_call94.v15.ref), (main_call95.c.ref), (main_call95.v0.ref), (main_call95.v1.ref), (main_call95.c_0.ref), (main_call95.v2.ref), (main_call95.v3.ref), (main_call95.call0.v0.ref), (main_call95.v5.ref), (main_call95.c_1.ref), (main_call95.c_2.ref), (main_call95.v6.ref), (main_call95.v7.ref), (main_call95.v8.ref), (main_call95.v9.ref), (main_call95.v10.ref), (main_call95.v11.ref), (main_call95.c_3.ref), (main_call95.v12.ref), (main_call95.v13.ref), (main_call95.v14.ref), (main_call95.cst.ref), (main_call95.v15.ref), (main_call95.v16.ref)]

/-- The iteration up to the row lookup. -/
noncomputable def it15hd : List (HloOp τ sig (Elt F)) := it15A ++ (it15B ++ (it15C ++ (it15D ++ (it15E ++ it15G))))

/-- The iteration. -/
noncomputable def it15 : List (HloOp τ sig (Elt F)) := it15hd ++ it15H
theorem it15_sub : (it15 (F := F)).Forall fun op => op.bufs ⊆ tcRefs τ sig :=
  forall_append (forall_append it15A_sub (forall_append it15B_sub (forall_append it15C_sub (forall_append it15D_sub (forall_append it15E_sub it15G_sub))))) it15H_sub
theorem it15_fresh : (it15 (F := F)).Forall fun op => op.fresh = ∅ :=
  forall_append (forall_append it15A_fresh (forall_append it15B_fresh (forall_append it15C_fresh (forall_append it15D_fresh (forall_append it15E_fresh it15G_fresh))))) it15H_fresh

/-- The iteration as the concatenation of its pieces. -/
theorem it15_atoms : it15 (F := F) = it15A ++ (it15B ++ (it15C ++ (it15D ++ (it15E ++ (it15G ++ it15H))))) := by
  simp only [it15, it15hd, List.append_assoc]

end Cert.ReferenceIdeal.HandRun

end
-- ==== Proof.RefIt15.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt15

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it15A_val (V : Valuation τ sig (Elt F)) :
    after (it15A (F := F)) V (Proc.devRef (τ := τ) .tc main_v280) = RefFns.colMask (V (Proc.devRef (τ := τ) .tc main_v1)) 15 slices_S1024x32x1_S1024x1x1_0_15_0 := by
  simp only [it15A, List.cons_append, List.nil_append]
  after_results_simp
  try simp only [cast_eq]
  rfl

set_option maxRecDepth 65536 in
set_option maxHeartbeats 1000000 in
theorem it15B_val (V : Valuation τ sig (Elt F)) :
    after (it15B (F := F)) V (Proc.devRef (τ := τ) .tc main_v281) = RefFns.cumsumF (V (Proc.devRef (τ := τ) .tc main_v280)) := by
  simp only [it15B, List.cons_append, List.nil_append]
  after_results_simp
  try simp only [cast_eq]
  rfl

set_option maxRecDepth 65536 in
set_option maxHeartbeats 1000000 in
theorem it15C_val (V : Valuation τ sig (Elt F)) :
    after (it15C (F := F)) V (Proc.devRef (τ := τ) .tc main_v291) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v281)) (constantI S_ 32 0#32)) (broadcastInDim S1024 ![] bcast_S_S1024 (constantI S_ 32 0#32))) (addi (RefFns.clipF (V (Proc.devRef (τ := τ) .tc main_v281)) (constantI S_ 32 0#32)) (broadcastInDim S1024 ![] bcast_S_S1024 (constantI S_ 32 1024#32))) (RefFns.clipF (V (Proc.devRef (τ := τ) .tc main_v281)) (constantI S_ 32 0#32)))) (broadcastInDim S1024 ![] bcast_S_S1024 (constantI S_ 32 1#32)) := by
  simp only [it15C, List.cons_append, List.nil_append]
  after_results_simp
  try simp only [cast_eq]
  rfl

set_option maxRecDepth 65536 in
set_option maxHeartbeats 1000000 in
theorem it15D_val (V : Valuation τ sig (Elt F)) :
    after (it15D (F := F)) V (Proc.devRef (τ := τ) .tc main_v292) = RefFns.cumsum1F (V (Proc.devRef (τ := τ) .tc main_v291)) := by
  simp only [it15D, List.cons_append, List.nil_append]
  after_results_simp
  try simp only [cast_eq]
  rfl

set_option maxRecDepth 65536 in
set_option maxHeartbeats 1000000 in
theorem it15E_val (V : Valuation τ sig (Elt F)) :
    after (it15E (F := F)) V (Proc.devRef (τ := τ) .tc main_v293) = RefFns.floorDivF (V (Proc.devRef (τ := τ) .tc main_v292)) (constantI S_ 32 1#32) := by
  simp only [it15E, List.cons_append, List.nil_append]
  after_results_simp
  try simp only [cast_eq]
  rfl

set_option maxRecDepth 65536 in
set_option maxHeartbeats 1000000 in
theorem it15G_val (V : Valuation τ sig (Elt F)) :
    after (it15G (F := F)) V (Proc.devRef (τ := τ) .tc main_v294) = RefFns.remainderF (V (Proc.devRef (τ := τ) .tc main_v293)) (constantI S_ 32 1024#32) := by
  simp only [it15G, List.cons_append, List.nil_append]
  after_results_simp
  try simp only [cast_eq]
  rfl

set_option maxRecDepth 65536 in
set_option maxHeartbeats 1000000 in
theorem it15H_val (V : Valuation τ sig (Elt F)) :
    after (it15H (F := F)) V (Proc.devRef (τ := τ) .tc main_v295) = RefFns.takeF (V (Proc.devRef (τ := τ) .tc main_v7)) (V (Proc.devRef (τ := τ) .tc main_v294)) := by
  simp only [it15H, List.cons_append, List.nil_append]
  after_results_simp
  try simp only [cast_eq]
  rfl

theorem it15A_writes : (it15A (F := F)).Forall fun op => op.writes ⊆ (it15_W.map (Proc.devRef (τ := τ) .tc)).toFinset :=
  ⟨wsub main_v278 (by decide), wsub main_v279 (by decide), wsub main_v280 (by decide)⟩

theorem it15B_writes : (it15B (F := F)).Forall fun op => op.writes ⊆ (it15_W.map (Proc.devRef (τ := τ) .tc)).toFinset :=
  ⟨wsub (main_call90.v0.ref) (by decide), wsub (main_call90.call0.c.ref) (by decide), wsub (main_call90.call0.v0.ref) (by decide), wsub (main_call90.call0.v1.ref) (by decide)⟩

theorem it15C_writes : (it15C (F := F)).Forall fun op => op.writes ⊆ (it15_W.map (Proc.devRef (τ := τ) .tc)).toFinset :=
  ⟨wsub main_c_105 (by decide), wsub main_v282 (by decide), wsub main_c_106 (by decide), wsub (main_call91.v0.ref) (by decide), wsub (main_call91.v1.ref) (by decide), wsub (main_call91.v2.ref) (by decide), wsub main_c_107 (by decide), wsub main_v284 (by decide), wsub main_v285 (by decide), wsub main_c_108 (by decide), wsub main_v286 (by decide), wsub main_v287 (by decide), wsub main_v288 (by decide), wsub main_v289 (by decide), wsub main_c_109 (by decide), wsub main_v290 (by decide), wsub main_v291 (by decide)⟩

theorem it15D_writes : (it15D (F := F)).Forall fun op => op.writes ⊆ (it15_W.map (Proc.devRef (τ := τ) .tc)).toFinset :=
  ⟨wsub (main_call92.call0.c.ref) (by decide), wsub (main_call92.call0.v0.ref) (by decide), wsub (main_call92.call0.v1.ref) (by decide)⟩

theorem it15E_writes : (it15E (F := F)).Forall fun op => op.writes ⊆ (it15_W.map (Proc.devRef (τ := τ) .tc)).toFinset :=
  ⟨wsub main_c_110 (by decide), wsub (main_call93.v0.ref) (by decide), wsub (main_call93.v1.ref) (by decide), wsub (main_call93.v2.ref) (by decide), wsub (main_call93.v3.ref) (by decide), wsub (main_call93.v4.ref) (by decide), wsub (main_call93.v5.ref) (by decide), wsub (main_call93.v6.ref) (by decide), wsub (main_call93.v7.ref) (by decide), wsub (main_call93.c.ref) (by decide), wsub (main_call93.v8.ref) (by decide), wsub (main_call93.v9.ref) (by decide), wsub (main_call93.v10.ref) (by decide), wsub (main_call93.c_0.ref) (by decide), wsub (main_call93.v11.ref) (by decide), wsub (main_call93.v12.ref) (by decide), wsub (main_call93.call0.v0.ref) (by decide)⟩

theorem it15G_writes : (it15G (F := F)).Forall fun op => op.writes ⊆ (it15_W.map (Proc.devRef (τ := τ) .tc)).toFinset :=
  ⟨wsub main_c_111 (by decide), wsub (main_call94.v0.ref) (by decide), wsub (main_call94.c.ref) (by decide), wsub (main_call94.v1.ref) (by decide), wsub (main_call94.c_0.ref) (by decide), wsub (main_call94.call0.v0.ref) (by decide), wsub (main_call94.v3.ref) (by decide), wsub (main_call94.v4.ref) (by decide), wsub (main_call94.c_1.ref) (by decide), wsub (main_call94.v5.ref) (by decide), wsub (main_call94.v6.ref) (by decide), wsub (main_call94.c_2.ref) (by decide), wsub (main_call94.v7.ref) (by decide), wsub (main_call94.v8.ref) (by decide), wsub (main_call94.c_3.ref) (by decide), wsub (main_call94.v9.ref) (by decide), wsub (main_call94.v10.ref) (by decide), wsub (main_call94.v11.ref) (by decide), wsub (main_call94.v12.ref) (by decide), wsub (main_call94.v13.ref) (by decide), wsub (main_call94.v14.ref) (by decide), wsub (main_call94.v15.ref) (by decide)⟩

theorem it15H_writes : (it15H (F := F)).Forall fun op => op.writes ⊆ (it15_W.map (Proc.devRef (τ := τ) .tc)).toFinset :=
  ⟨wsub (main_call95.c.ref) (by decide), wsub (main_call95.v0.ref) (by decide), wsub (main_call95.v1.ref) (by decide), wsub (main_call95.c_0.ref) (by decide), wsub (main_call95.v2.ref) (by decide), wsub (main_call95.v3.ref) (by decide), wsub (main_call95.call0.v0.ref) (by decide), wsub (main_call95.v5.ref) (by decide), wsub (main_call95.c_1.ref) (by decide), wsub (main_call95.c_2.ref) (by decide), wsub (main_call95.v6.ref) (by decide), wsub (main_call95.v7.ref) (by decide), wsub (main_call95.v8.ref) (by decide), wsub (main_call95.v9.ref) (by decide), wsub (main_call95.v10.ref) (by decide), wsub (main_call95.v11.ref) (by decide), wsub (main_call95.c_3.ref) (by decide), wsub (main_call95.v12.ref) (by decide), wsub (main_call95.v13.ref) (by decide), wsub (main_call95.v14.ref) (by decide), wsub (main_call95.cst.ref) (by decide), wsub (main_call95.v15.ref) (by decide), wsub (main_call95.v16.ref) (by decide)⟩

theorem it15hd_writes : (it15hd (F := F)).Forall fun op => op.writes ⊆ (it15_W.map (Proc.devRef (τ := τ) .tc)).toFinset :=
  forall_append it15A_writes (forall_append it15B_writes (forall_append it15C_writes (forall_append it15D_writes (forall_append it15E_writes it15G_writes))))

theorem it15_writes : (it15 (F := F)).Forall fun op => op.writes ⊆ (it15_W.map (Proc.devRef (τ := τ) .tc)).toFinset :=
  forall_append it15hd_writes (it15H_writes)

/-- The iteration leaves every buffer it does not write as it was. -/
theorem it15_keep (V : Valuation τ sig (Elt F)) (r : Ref sig .tc) (hr : r ∉ it15_W) :
    after (it15 (F := F)) V (Proc.devRef (τ := τ) .tc r) = V (Proc.devRef (τ := τ) .tc r) :=
  after_of_writes_sub it15 V it15_writes hr

theorem it15hd_keep (V : Valuation τ sig (Elt F)) (r : Ref sig .tc) (hr : r ∉ it15_W) :
    after (it15hd (F := F)) V (Proc.devRef (τ := τ) .tc r) = V (Proc.devRef (τ := τ) .tc r) :=
  after_of_writes_sub it15hd V it15hd_writes hr

/-- The iteration's result: the rows of the matrix it is handed at the compacted indices of its mask. -/
theorem it15_res (V : Valuation τ sig (Elt F)) :
    after (it15 (F := F)) V (Proc.devRef (τ := τ) .tc main_v295) = RefFns.nzTake (V (Proc.devRef (τ := τ) .tc main_v7)) (RefFns.colMask (V (Proc.devRef (τ := τ) .tc main_v1)) 15 slices_S1024x32x1_S1024x1x1_0_15_0) := by
  rw [it15, after_append, it15H_val, it15hd_keep V main_v7 (by decide), it15hd]
  simp only [after_append]
  rw [it15G_val, it15E_val, it15D_val, it15C_val, it15B_val, it15A_val]
  rfl

set_option maxRecDepth 65536 in
set_option maxHeartbeats 4000000 in
/-- The invariant of the run survives the iteration, with its block added. -/
theorem it15_step {x : FVec F S1x32x1024 .f32} {V : Valuation τ sig (Elt F)} (hg : Good 15 x V) : Good 16 x (after (it15 (F := F)) V) :=
  good_step 15 (by decide) it15 it15_W slices_S1024x32x1_S1024x1x1_0_15_0 it15_keep it15_res (fun _ => rfl) (by decide +kernel) (by decide +kernel) (by decide +kernel) (by decide +kernel) hg

end Cert.ReferenceIdeal.HandRun

end
-- ==== Proof.RefOpsIt16.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 6 of @main). -/
noncomputable def it16A : List (HloOp τ sig (Elt F)) :=
  [ StableHlo.unary main_v1 main_v296 ((extractStridedSlice S1024x1x1 ![0, 16, 0] · slices_S1024x32x1_S1024x1x1_0_16_0) : (⟨S1024x32x1, .i1⟩ : BufTy).Contents (Elt F) → (⟨S1024x1x1, .i1⟩ : BufTy).Contents (Elt F)),
    StableHlo.reshape main_v296 main_v297 rfl shapeCasts_S1024x1x1_S1024,
    StableHlo.unary main_v297 main_v298 (noti : (⟨S1024, .i1⟩ : BufTy).Contents (Elt F) → (⟨S1024, .i1⟩ : BufTy).Contents (Elt F)) ]

theorem it16A_sub : (it16A (F := F)).Forall fun op => op.bufs ⊆ tcRefs τ sig :=
  ⟨unary_bufs_sub .., reshape_bufs_sub .., unary_bufs_sub ..⟩

theorem it16A_fresh : (it16A (F := F)).Forall fun op => op.fresh = ∅ :=
  ⟨rfl, rfl, rfl⟩

/-- A piece of this stretch (window 6 of @main). -/
noncomputable def it16B : List (HloOp τ sig (Elt F)) :=
  [ StableHlo.TRef.unary (.of main_v298 : StableHlo.TRef sig ⟨S1024, .i1⟩) main_call96.v0 (extui 32 · natLt_1_32),
    StableHlo.TRef.nullary main_call96.call0.c (constantI S_ 32 0#32),
    StableHlo.TRef.unary main_call96.call0.c main_call96.call0.v0 (broadcastInDim S_ ![] bcast_S_S_),
    StableHlo.TRef.binary main_call96.v0 main_call96.call0.v0 main_call96.call0.v1 (fun x v => Host.reduceWindow IntOp.addi ![1024] ![1] ![1023] ![0] x v reduceWindows_S1024_S1024_w1024s1p1023_0 h_S_) ]

theorem it16B_sub : (it16B (F := F)).Forall fun op => op.bufs ⊆ tcRefs τ sig :=
  ⟨unary_bufs_sub .., nullary_bufs_sub .., unary_bufs_sub .., binary_bufs_sub ..⟩

theorem it16B_fresh : (it16B (F := F)).Forall fun op => op.fresh = ∅ :=
  ⟨rfl, rfl, rfl, rfl⟩

/-- A piece of this stretch (window 6 of @main). -/
noncomputable def it16Ca : List (HloOp τ sig (Elt F)) :=
  [ StableHlo.nullary main_c_112 (constantI S_ 32 0#32),
    StableHlo.unary main_c_112 main_v300 (broadcastInDim S1024 ![] bcast_S_S1024 : (⟨S_, .i32⟩ : BufTy).Contents (Elt F) → (⟨S1024, .i32⟩ : BufTy).Contents (Elt F)),
    StableHlo.nullary main_c_113 (constantI S_ 32 0#32),
    StableHlo.TRef.unary (.of main_c_113 : StableHlo.TRef sig ⟨S_, .i32⟩) main_call97.v0 id,
    StableHlo.TRef.unary main_call97.v0 main_call97.v1 (broadcastInDim S1024 ![] bcast_S_S1024),
    StableHlo.TRef.binary main_call97.v1 (.of main_v299 : StableHlo.TRef sig ⟨S1024, .i32⟩) main_call97.v2 maxsi,
    StableHlo.nullary main_c_114 (constantI S_ 32 0#32),
    StableHlo.unary main_c_114 main_v302 (broadcastInDim S1024 ![] bcast_S_S1024 : (⟨S_, .i32⟩ : BufTy).Contents (Elt F) → (⟨S1024, .i32⟩ : BufTy).Contents (Elt F)),
    StableHlo.binary main_v301 main_v302 main_v303 (cmpi .slt : (⟨S1024, .i32⟩ : BufTy).Contents (Elt F) → (⟨S1024, .i32⟩ : BufTy).Contents (Elt F) → (⟨S1024, .i1⟩ : BufTy).Contents (Elt F)) ]

theorem it16Ca_sub : (it16Ca (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub ..⟩

theorem it16Ca_fresh : (it16Ca (F := F)).Forall fun op => op.fresh = ∅ :=
  ⟨rfl, rfl, rfl, rfl, rfl, rfl, rfl, rfl, rfl⟩

/-- A piece of this stretch (window 7 of @main). -/
noncomputable def it16Cb : List (HloOp τ sig (Elt F)) :=
  [ StableHlo.nullary main_c_115 (constantI S_ 32 1024#32),
    StableHlo.unary main_c_115 main_v304 (broadcastInDim S1024 ![] bcast_S_S1024 : (⟨S_, .i32⟩ : BufTy).Contents (Elt F) → (⟨S1024, .i32⟩ : BufTy).Contents (Elt F)),
    StableHlo.binary main_v301 main_v304 main_v305 (addi : (⟨S1024, .i32⟩ : BufTy).Contents (Elt F) → (⟨S1024, .i32⟩ : BufTy).Contents (Elt F) → (⟨S1024, .i32⟩ : BufTy).Contents (Elt F)),
    StableHlo.ternary main_v303 main_v305 main_v301 main_v306 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v306 main_v307 (broadcastInDim S1024x1 ![0] bcast_S1024_S1024x1_0 : (⟨S1024, .i32⟩ : BufTy).Contents (Elt F) → (⟨S1024x1, .i32⟩ : BufTy).Contents (Elt F)),
    StableHlo.nullary main_c_116 (constantI S_ 32 1#32),
    StableHlo.unary main_c_116 main_v308 (broadcastInDim S1024 ![] bcast_S_S1024 : (⟨S_, .i32⟩ : BufTy).Contents (Elt F) → (⟨S1024, .i32⟩ : BufTy).Contents (Elt F)),
    StableHlo.ternary main_v300 main_v307 main_v308 main_v309 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it16Cb_sub : (it16Cb (F := F)).Forall fun op => op.bufs ⊆ tcRefs τ sig :=
  ⟨nullary_bufs_sub .., unary_bufs_sub .., binary_bufs_sub .., ternary_bufs_sub .., unary_bufs_sub .., nullary_bufs_sub .., unary_bufs_sub .., ternary_bufs_sub ..⟩

theorem it16Cb_fresh : (it16Cb (F := F)).Forall fun op => op.fresh = ∅ :=
  ⟨rfl, rfl, rfl, rfl, rfl, rfl, rfl, rfl⟩

/-- A piece of this stretch (window 7 of @main). -/
noncomputable def it16D : List (HloOp τ sig (Elt F)) :=
  [ StableHlo.TRef.nullary main_call98.call0.c (constantI S_ 32 0#32),
    StableHlo.TRef.unary main_call98.call0.c main_call98.call0.v0 (broadcastInDim S_ ![] bcast_S_S_),
    StableHlo.TRef.binary (.of main_v309 : StableHlo.TRef sig ⟨S1024, .i32⟩) main_call98.call0.v0 main_call98.call0.v1 (fun x v => Host.reduceWindow IntOp.addi ![1024] ![1] ![1023] ![0] x v reduceWindows_S1024_S1024_w1024s1p1023_0 h_S_) ]

theorem it16D_sub : (it16D (F := F)).Forall fun op => op.bufs ⊆ tcRefs τ sig :=
  ⟨nullary_bufs_sub .., unary_bufs_sub .., binary_bufs_sub ..⟩

theorem it16D_fresh : (it16D (F := F)).Forall fun op => op.fresh = ∅ :=
  ⟨rfl, rfl, rfl⟩

/-- A piece of this stretch (window 7 of @main). -/
noncomputable def it16E : List (HloOp τ sig (Elt F)) :=
  [ StableHlo.nullary main_c_117 (constantI S_ 32 1#32),
    StableHlo.TRef.unary (.of main_c_117 : StableHlo.TRef sig ⟨S_, .i32⟩) main_call99.v0 (broadcastInDim S1024 ![] bcast_S_S1024),
    StableHlo.TRef.binary (.of main_v310 : StableHlo.TRef sig ⟨S1024, .i32⟩) main_call99.v0 main_call99.v1 Host.divsi,
    StableHlo.TRef.unary (.of main_v310 : StableHlo.TRef sig ⟨S1024, .i32⟩) main_call99.v2 signi,
    StableHlo.TRef.unary (.of main_c_117 : StableHlo.TRef sig ⟨S_, .i32⟩) main_call99.v3 signi,
    StableHlo.TRef.unary main_call99.v3 main_call99.v4 (broadcastInDim S1024 ![] bcast_S_S1024),
    StableHlo.TRef.binary main_call99.v2 main_call99.v4 main_call99.v5 (cmpi .ne),
    StableHlo.TRef.unary (.of main_c_117 : StableHlo.TRef sig ⟨S_, .i32⟩) main_call99.v6 (broadcastInDim S1024 ![] bcast_S_S1024),
    StableHlo.TRef.binary (.of main_v310 : StableHlo.TRef sig ⟨S1024, .i32⟩) main_call99.v6 main_call99.v7 Host.remsi,
    StableHlo.TRef.nullary main_call99.c (constantI S_ 32 0#32),
    StableHlo.TRef.unary main_call99.c main_call99.v8 (broadcastInDim S1024 ![] bcast_S_S1024),
    StableHlo.TRef.binary main_call99.v7 main_call99.v8 main_call99.v9 (cmpi .ne),
    StableHlo.TRef.binary main_call99.v5 main_call99.v9 main_call99.v10 andi,
    StableHlo.TRef.nullary main_call99.c_0 (constantI S_ 32 1#32),
    StableHlo.TRef.unary main_call99.c_0 main_call99.v11 (broadcastInDim S1024 ![] bcast_S_S1024),
    StableHlo.TRef.binary main_call99.v1 main_call99.v11 main_call99.v12 subi,
    StableHlo.TRef.ternary main_call99.v10 main_call99.v12 main_call99.v1 main_call99.call0.v0 select ]

theorem it16E_sub : (it16E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it16E_fresh : (it16E (F := F)).Forall fun op => op.fresh = ∅ :=
  ⟨rfl, rfl, rfl, rfl, rfl, rfl, rfl, rfl, rfl, rfl, rfl, rfl, rfl, rfl, rfl, rfl, rfl⟩

/-- A piece of this stretch (window 7 of @main). -/
noncomputable def it16G : List (HloOp τ sig (Elt F)) :=
  [ StableHlo.nullary main_c_118 (constantI S_ 32 1024#32),
    StableHlo.TRef.unary (.of main_c_118 : StableHlo.TRef sig ⟨S_, .i32⟩) main_call100.v0 id,
    StableHlo.TRef.nullary main_call100.c (constantI S_ 32 0#32),
    StableHlo.TRef.binary main_call100.v0 main_call100.c main_call100.v1 (cmpi .eq),
    StableHlo.TRef.nullary main_call100.c_0 (constantI S_ 32 1#32),
    StableHlo.TRef.ternary main_call100.v1 main_call100.c_0 main_call100.v0 main_call100.call0.v0 select,
    StableHlo.TRef.unary main_call100.call0.v0 main_call100.v3 (broadcastInDim S1024 ![] bcast_S_S1024),
    StableHlo.TRef.binary (.of main_v311 : StableHlo.TRef sig ⟨S1024, .i32⟩) main_call100.v3 main_call100.v4 Host.remsi,
    StableHlo.TRef.nullary main_call100.c_1 (constantI S_ 32 0#32),
    StableHlo.TRef.unary main_call100.c_1 main_call100.v5 (broadcastInDim S1024 ![] bcast_S_S1024),
    StableHlo.TRef.binary main_call100.v4 main_call100.v5 main_call100.v6 (cmpi .ne),
    StableHlo.TRef.nullary main_call100.c_2 (constantI S_ 32 0#32),
    StableHlo.TRef.unary main_call100.c_2 main_call100.v7 (broadcastInDim S1024 ![] bcast_S_S1024),
    StableHlo.TRef.binary main_call100.v4 main_call100.v7 main_call100.v8 (cmpi .slt),
    StableHlo.TRef.nullary main_call100.c_3 (constantI S_ 32 0#32),
    StableHlo.TRef.binary main_call100.call0.v0 main_call100.c_3 main_call100.v9 (cmpi .slt),
    StableHlo.TRef.unary main_call100.v9 main_call100.v10 (broadcastInDim S1024 ![] bcast_S_S1024),
    StableHlo.TRef.binary main_call100.v8 main_call100.v10 main_call100.v11 (cmpi .ne),
    StableHlo.TRef.binary main_call100.v11 main_call100.v6 main_call100.v12 andi,
    StableHlo.TRef.unary main_call100.call0.v0 main_call100.v13 (broadcastInDim S1024 ![] bcast_S_S1024),
    StableHlo.TRef.binary main_call100.v4 main_call100.v13 main_call100.v14 addi,
    StableHlo.TRef.ternary main_call100.v12 main_call100.v14 main_call100.v4 main_call100.v15 select ]

theorem it16G_sub : (it16G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it16G_fresh : (it16G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 7 of @main). -/
noncomputable def it16H : List (HloOp τ sig (Elt F)) :=
  [ StableHlo.TRef.nullary main_call101.c (constantI S_ 32 0#32),
    StableHlo.TRef.unary main_call101.c main_call101.v0 (broadcastInDim S1024 ![] bcast_S_S1024),
    StableHlo.TRef.binary (.of main_v312 : StableHlo.TRef sig ⟨S1024, .i32⟩) main_call101.v0 main_call101.v1 (cmpi .slt),
    StableHlo.TRef.nullary main_call101.c_0 (constantI S_ 32 1024#32),
    StableHlo.TRef.unary main_call101.c_0 main_call101.v2 (broadcastInDim S1024 ![] bcast_S_S1024),
    StableHlo.TRef.binary (.of main_v312 : StableHlo.TRef sig ⟨S1024, .i32⟩) main_call101.v2 main_call101.v3 addi,
    StableHlo.TRef.ternary main_call101.v1 main_call101.v3 (.of main_v312 : StableHlo.TRef sig ⟨S1024, .i32⟩) main_call101.call0.v0 select,
    StableHlo.TRef.unary main_call101.call0.v0 main_call101.v5 (broadcastInDim S1024x1 ![0] bcast_S1024_S1024x1_0),
    StableHlo.TRef.nullary main_call101.c_1 (constantI S1 32 1023#32),
    StableHlo.TRef.nullary main_call101.c_2 (constantI S_ 32 0#32),
    StableHlo.TRef.unary main_call101.c_2 main_call101.v6 (broadcastInDim S1024x1 ![] bcast_S_S1024x1),
    StableHlo.TRef.binary main_call101.v5 main_call101.v6 main_call101.v7 (cmpi .sge),
    StableHlo.TRef.unary main_call101.c_1 main_call101.v8 (broadcastInDim S1x1 ![1] bcast_S1_S1x1_1),
    StableHlo.TRef.unary main_call101.v8 main_call101.v9 (broadcastInDim S1024x1 ![0, 1] bcast_S1x1_S1024x1_0_1),
    StableHlo.TRef.binary main_call101.v5 main_call101.v9 main_call101.v10 (cmpi .sle),
    StableHlo.TRef.binary main_call101.v7 main_call101.v10 main_call101.v11 andi,
    StableHlo.TRef.nullary main_call101.c_3 (constantI S_ 1 1#1),
    StableHlo.TRef.binary main_call101.v11 main_call101.c_3 main_call101.v12 (fun x v => Host.reduce IntOp.andi x v reducesTo_S1024x1_S1024_d1 h_S_),
    StableHlo.TRef.binary (.of main_v7 : StableHlo.TRef sig ⟨S1024x1024, .f32⟩) main_call101.v5 main_call101.v13 (fun x i => Host.gather gather_S1024x1024_S1024x1_S1024x1024_1_0_n_n_0_1_11024 x i),
    StableHlo.TRef.unary main_call101.v12 main_call101.v14 (broadcastInDim S1024x1024 ![0] bcast_S1024_S1024x1024_0),
    StableHlo.TRef.nullary main_call101.cst (constant S_ .f32 0x7FC00000#32),
    StableHlo.TRef.unary main_call101.cst main_call101.v15 (broadcastInDim S1024x1024 ![] bcast_S_S1024x1024),
    StableHlo.TRef.ternary main_call101.v14 main_call101.v13 main_call101.v15 main_call101.v16 select ]

theorem it16H_sub : (it16H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it16H_fresh : (it16H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it16_W : List (Ref sig .tc) :=
  [main_v296, main_v297, main_v298, (main_call96.v0.ref), (main_call96.call0.c.ref), (main_call96.call0.v0.ref), (main_call96.call0.v1.ref), main_c_112, main_v300, main_c_113, (main_call97.v0.ref), (main_call97.v1.ref), (main_call97.v2.ref), main_c_114, main_v302, main_v303, main_c_115, main_v304, main_v305, main_v306, main_v307, main_c_116, main_v308, main_v309, (main_call98.call0.c.ref), (main_call98.call0.v0.ref), (main_call98.call0.v1.ref), main_c_117, (main_call99.v0.ref), (main_call99.v1.ref), (main_call99.v2.ref), (main_call99.v3.ref), (main_call99.v4.ref), (main_call99.v5.ref), (main_call99.v6.ref), (main_call99.v7.ref), (main_call99.c.ref), (main_call99.v8.ref), (main_call99.v9.ref), (main_call99.v10.ref), (main_call99.c_0.ref), (main_call99.v11.ref), (main_call99.v12.ref), (main_call99.call0.v0.ref), main_c_118, (main_call100.v0.ref), (main_call100.c.ref), (main_call100.v1.ref), (main_call100.c_0.ref), (main_call100.call0.v0.ref), (main_call100.v3.ref), (main_call100.v4.ref), (main_call100.c_1.ref), (main_call100.v5.ref), (main_call100.v6.ref), (main_call100.c_2.ref), (main_call100.v7.ref), (main_call100.v8.ref), (main_call100.c_3.ref), (main_call100.v9.ref), (main_call100.v10.ref), (main_call100.v11.ref), (main_call100.v12.ref), (main_call100.v13.ref), (main_call100.v14.ref), (main_call100.v15.ref), (main_call101.c.ref), (main_call101.v0.ref), (main_call101.v1.ref), (main_call101.c_0.ref), (main_call101.v2.ref), (main_call101.v3.ref), (main_call101.call0.v0.ref), (main_call101.v5.ref), (main_call101.c_1.ref), (main_call101.c_2.ref), (main_call101.v6.ref), (main_call101.v7.ref), (main_call101.v8.ref), (main_call101.v9.ref), (main_call101.v10.ref), (main_call101.v11.ref), (main_call101.c_3.ref), (main_call101.v12.ref), (main_call101.v13.ref), (main_call101.v14.ref), (main_call101.cst.ref), (main_call101.v15.ref), (main_call101.v16.ref)]

/-- One stage of the iteration, whole. -/
noncomputable def it16C : List (HloOp τ sig (Elt F)) := it16Ca ++ it16Cb
theorem it16C_sub : (it16C (F := F)).Forall fun op => op.bufs ⊆ tcRefs τ sig :=
  forall_append it16Ca_sub it16Cb_sub
theorem it16C_fresh : (it16C (F := F)).Forall fun op => op.fresh = ∅ :=
  forall_append it16Ca_fresh it16Cb_fresh

/-- The iteration up to the row lookup. -/
noncomputable def it16hd : List (HloOp τ sig (Elt F)) := it16A ++ (it16B ++ (it16C ++ (it16D ++ (it16E ++ it16G))))

/-- The iteration. -/
noncomputable def it16 : List (HloOp τ sig (Elt F)) := it16hd ++ it16H
theorem it16_sub : (it16 (F := F)).Forall fun op => op.bufs ⊆ tcRefs τ sig :=
  forall_append (forall_append it16A_sub (forall_append it16B_sub (forall_append it16C_sub (forall_append it16D_sub (forall_append it16E_sub it16G_sub))))) it16H_sub
theorem it16_fresh : (it16 (F := F)).Forall fun op => op.fresh = ∅ :=
  forall_append (forall_append it16A_fresh (forall_append it16B_fresh (forall_append it16C_fresh (forall_append it16D_fresh (forall_append it16E_fresh it16G_fresh))))) it16H_fresh

/-- The iteration as the concatenation of its pieces. -/
theorem it16_atoms : it16 (F := F) = it16A ++ (it16B ++ (it16Ca ++ (it16Cb ++ (it16D ++ (it16E ++ (it16G ++ it16H)))))) := by
  simp only [it16, it16hd, it16C, List.append_assoc]

end Cert.ReferenceIdeal.HandRun

end
-- ==== Proof.RefIt16.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt16

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it16A_val (V : Valuation τ sig (Elt F)) :
    after (it16A (F := F)) V (Proc.devRef (τ := τ) .tc main_v298) = RefFns.colMask (V (Proc.devRef (τ := τ) .tc main_v1)) 16 slices_S1024x32x1_S1024x1x1_0_16_0 := by
  simp only [it16A, List.cons_append, List.nil_append]
  after_results_simp
  try simp only [cast_eq]
  rfl

set_option maxRecDepth 65536 in
set_option maxHeartbeats 1000000 in
theorem it16B_val (V : Valuation τ sig (Elt F)) :
    after (it16B (F := F)) V (Proc.devRef (τ := τ) .tc main_v299) = RefFns.cumsumF (V (Proc.devRef (τ := τ) .tc main_v298)) := by
  simp only [it16B, List.cons_append, List.nil_append]
  after_results_simp
  try simp only [cast_eq]
  rfl

set_option maxRecDepth 65536 in
set_option maxHeartbeats 1000000 in
theorem it16C_val (V : Valuation τ sig (Elt F)) :
    after (it16C (F := F)) V (Proc.devRef (τ := τ) .tc main_v309) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v299)) (constantI S_ 32 0#32)) (broadcastInDim S1024 ![] bcast_S_S1024 (constantI S_ 32 0#32))) (addi (RefFns.clipF (V (Proc.devRef (τ := τ) .tc main_v299)) (constantI S_ 32 0#32)) (broadcastInDim S1024 ![] bcast_S_S1024 (constantI S_ 32 1024#32))) (RefFns.clipF (V (Proc.devRef (τ := τ) .tc main_v299)) (constantI S_ 32 0#32)))) (broadcastInDim S1024 ![] bcast_S_S1024 (constantI S_ 32 1#32)) := by
  simp only [it16C, it16Ca, it16Cb, List.cons_append, List.nil_append]
  after_results_simp
  try simp only [cast_eq]
  rfl

set_option maxRecDepth 65536 in
set_option maxHeartbeats 1000000 in
theorem it16D_val (V : Valuation τ sig (Elt F)) :
    after (it16D (F := F)) V (Proc.devRef (τ := τ) .tc main_v310) = RefFns.cumsum1F (V (Proc.devRef (τ := τ) .tc main_v309)) := by
  simp only [it16D, List.cons_append, List.nil_append]
  after_results_simp
  try simp only [cast_eq]
  rfl

set_option maxRecDepth 65536 in
set_option maxHeartbeats 1000000 in
theorem it16E_val (V : Valuation τ sig (Elt F)) :
    after (it16E (F := F)) V (Proc.devRef (τ := τ) .tc main_v311) = RefFns.floorDivF (V (Proc.devRef (τ := τ) .tc main_v310)) (constantI S_ 32 1#32) := by
  simp only [it16E, List.cons_append, List.nil_append]
  after_results_simp
  try simp only [cast_eq]
  rfl

set_option maxRecDepth 65536 in
set_option maxHeartbeats 1000000 in
theorem it16G_val (V : Valuation τ sig (Elt F)) :
    after (it16G (F := F)) V (Proc.devRef (τ := τ) .tc main_v312) = RefFns.remainderF (V (Proc.devRef (τ := τ) .tc main_v311)) (constantI S_ 32 1024#32) := by
  simp only [it16G, List.cons_append, List.nil_append]
  after_results_simp
  try simp only [cast_eq]
  rfl

set_option maxRecDepth 65536 in
set_option maxHeartbeats 1000000 in
theorem it16H_val (V : Valuation τ sig (Elt F)) :
    after (it16H (F := F)) V (Proc.devRef (τ := τ) .tc main_v313) = RefFns.takeF (V (Proc.devRef (τ := τ) .tc main_v7)) (V (Proc.devRef (τ := τ) .tc main_v312)) := by
  simp only [it16H, List.cons_append, List.nil_append]
  after_results_simp
  try simp only [cast_eq]
  rfl

theorem it16A_writes : (it16A (F := F)).Forall fun op => op.writes ⊆ (it16_W.map (Proc.devRef (τ := τ) .tc)).toFinset :=
  ⟨wsub main_v296 (by decide), wsub main_v297 (by decide), wsub main_v298 (by decide)⟩

theorem it16B_writes : (it16B (F := F)).Forall fun op => op.writes ⊆ (it16_W.map (Proc.devRef (τ := τ) .tc)).toFinset :=
  ⟨wsub (main_call96.v0.ref) (by decide), wsub (main_call96.call0.c.ref) (by decide), wsub (main_call96.call0.v0.ref) (by decide), wsub (main_call96.call0.v1.ref) (by decide)⟩

theorem it16Ca_writes : (it16Ca (F := F)).Forall fun op => op.writes ⊆ (it16_W.map (Proc.devRef (τ := τ) .tc)).toFinset :=
  ⟨wsub main_c_112 (by decide), wsub main_v300 (by decide), wsub main_c_113 (by decide), wsub (main_call97.v0.ref) (by decide), wsub (main_call97.v1.ref) (by decide), wsub (main_call97.v2.ref) (by decide), wsub main_c_114 (by decide), wsub main_v302 (by decide), wsub main_v303 (by decide)⟩

theorem it16Cb_writes : (it16Cb (F := F)).Forall fun op => op.writes ⊆ (it16_W.map (Proc.devRef (τ := τ) .tc)).toFinset :=
  ⟨wsub main_c_115 (by decide), wsub main_v304 (by decide), wsub main_v305 (by decide), wsub main_v306 (by decide), wsub main_v307 (by decide), wsub main_c_116 (by decide), wsub main_v308 (by decide), wsub main_v309 (by decide)⟩

theorem it16D_writes : (it16D (F := F)).Forall fun op => op.writes ⊆ (it16_W.map (Proc.devRef (τ := τ) .tc)).toFinset :=
  ⟨wsub (main_call98.call0.c.ref) (by decide), wsub (main_call98.call0.v0.ref) (by decide), wsub (main_call98.call0.v1.ref) (by decide)⟩

theorem it16E_writes : (it16E (F := F)).Forall fun op => op.writes ⊆ (it16_W.map (Proc.devRef (τ := τ) .tc)).toFinset :=
  ⟨wsub main_c_117 (by decide), wsub (main_call99.v0.ref) (by decide), wsub (main_call99.v1.ref) (by decide), wsub (main_call99.v2.ref) (by decide), wsub (main_call99.v3.ref) (by decide), wsub (main_call99.v4.ref) (by decide), wsub (main_call99.v5.ref) (by decide), wsub (main_call99.v6.ref) (by decide), wsub (main_call99.v7.ref) (by decide), wsub (main_call99.c.ref) (by decide), wsub (main_call99.v8.ref) (by decide), wsub (main_call99.v9.ref) (by decide), wsub (main_call99.v10.ref) (by decide), wsub (main_call99.c_0.ref) (by decide), wsub (main_call99.v11.ref) (by decide), wsub (main_call99.v12.ref) (by decide), wsub (main_call99.call0.v0.ref) (by decide)⟩

theorem it16G_writes : (it16G (F := F)).Forall fun op => op.writes ⊆ (it16_W.map (Proc.devRef (τ := τ) .tc)).toFinset :=
  ⟨wsub main_c_118 (by decide), wsub (main_call100.v0.ref) (by decide), wsub (main_call100.c.ref) (by decide), wsub (main_call100.v1.ref) (by decide), wsub (main_call100.c_0.ref) (by decide), wsub (main_call100.call0.v0.ref) (by decide), wsub (main_call100.v3.ref) (by decide), wsub (main_call100.v4.ref) (by decide), wsub (main_call100.c_1.ref) (by decide), wsub (main_call100.v5.ref) (by decide), wsub (main_call100.v6.ref) (by decide), wsub (main_call100.c_2.ref) (by decide), wsub (main_call100.v7.ref) (by decide), wsub (main_call100.v8.ref) (by decide), wsub (main_call100.c_3.ref) (by decide), wsub (main_call100.v9.ref) (by decide), wsub (main_call100.v10.ref) (by decide), wsub (main_call100.v11.ref) (by decide), wsub (main_call100.v12.ref) (by decide), wsub (main_call100.v13.ref) (by decide), wsub (main_call100.v14.ref) (by decide), wsub (main_call100.v15.ref) (by decide)⟩

theorem it16H_writes : (it16H (F := F)).Forall fun op => op.writes ⊆ (it16_W.map (Proc.devRef (τ := τ) .tc)).toFinset :=
  ⟨wsub (main_call101.c.ref) (by decide), wsub (main_call101.v0.ref) (by decide), wsub (main_call101.v1.ref) (by decide), wsub (main_call101.c_0.ref) (by decide), wsub (main_call101.v2.ref) (by decide), wsub (main_call101.v3.ref) (by decide), wsub (main_call101.call0.v0.ref) (by decide), wsub (main_call101.v5.ref) (by decide), wsub (main_call101.c_1.ref) (by decide), wsub (main_call101.c_2.ref) (by decide), wsub (main_call101.v6.ref) (by decide), wsub (main_call101.v7.ref) (by decide), wsub (main_call101.v8.ref) (by decide), wsub (main_call101.v9.ref) (by decide), wsub (main_call101.v10.ref) (by decide), wsub (main_call101.v11.ref) (by decide), wsub (main_call101.c_3.ref) (by decide), wsub (main_call101.v12.ref) (by decide), wsub (main_call101.v13.ref) (by decide), wsub (main_call101.v14.ref) (by decide), wsub (main_call101.cst.ref) (by decide), wsub (main_call101.v15.ref) (by decide), wsub (main_call101.v16.ref) (by decide)⟩

theorem it16hd_writes : (it16hd (F := F)).Forall fun op => op.writes ⊆ (it16_W.map (Proc.devRef (τ := τ) .tc)).toFinset :=
  forall_append it16A_writes (forall_append it16B_writes (forall_append (forall_append it16Ca_writes it16Cb_writes) (forall_append it16D_writes (forall_append it16E_writes it16G_writes))))

theorem it16_writes : (it16 (F := F)).Forall fun op => op.writes ⊆ (it16_W.map (Proc.devRef (τ := τ) .tc)).toFinset :=
  forall_append it16hd_writes (it16H_writes)

/-- The iteration leaves every buffer it does not write as it was. -/
theorem it16_keep (V : Valuation τ sig (Elt F)) (r : Ref sig .tc) (hr : r ∉ it16_W) :
    after (it16 (F := F)) V (Proc.devRef (τ := τ) .tc r) = V (Proc.devRef (τ := τ) .tc r) :=
  after_of_writes_sub it16 V it16_writes hr

theorem it16hd_keep (V : Valuation τ sig (Elt F)) (r : Ref sig .tc) (hr : r ∉ it16_W) :
    after (it16hd (F := F)) V (Proc.devRef (τ := τ) .tc r) = V (Proc.devRef (τ := τ) .tc r) :=
  after_of_writes_sub it16hd V it16hd_writes hr

/-- The iteration's result: the rows of the matrix it is handed at the compacted indices of its mask. -/
theorem it16_res (V : Valuation τ sig (Elt F)) :
    after (it16 (F := F)) V (Proc.devRef (τ := τ) .tc main_v313) = RefFns.nzTake (V (Proc.devRef (τ := τ) .tc main_v7)) (RefFns.colMask (V (Proc.devRef (τ := τ) .tc main_v1)) 16 slices_S1024x32x1_S1024x1x1_0_16_0) := by
  rw [it16, after_append, it16H_val, it16hd_keep V main_v7 (by decide), it16hd]
  simp only [after_append]
  rw [it16G_val, it16E_val, it16D_val, it16C_val, it16B_val, it16A_val]
  rfl

set_option maxRecDepth 65536 in
set_option maxHeartbeats 4000000 in
/-- The invariant of the run survives the iteration, with its block added. -/
theorem it16_step {x : FVec F S1x32x1024 .f32} {V : Valuation τ sig (Elt F)} (hg : Good 16 x V) : Good 17 x (after (it16 (F := F)) V) :=
  good_step 16 (by decide) it16 it16_W slices_S1024x32x1_S1024x1x1_0_16_0 it16_keep it16_res (fun _ => rfl) (by decide +kernel) (by decide +kernel) (by decide +kernel) (by decide +kernel) hg

end Cert.ReferenceIdeal.HandRun

end
-- ==== Proof.RefOpsIt17.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 7 of @main). -/
noncomputable def it17A : List (HloOp τ sig (Elt F)) :=
  [ StableHlo.unary main_v1 main_v314 ((extractStridedSlice S1024x1x1 ![0, 17, 0] · slices_S1024x32x1_S1024x1x1_0_17_0) : (⟨S1024x32x1, .i1⟩ : BufTy).Contents (Elt F) → (⟨S1024x1x1, .i1⟩ : BufTy).Contents (Elt F)),
    StableHlo.reshape main_v314 main_v315 rfl shapeCasts_S1024x1x1_S1024,
    StableHlo.unary main_v315 main_v316 (noti : (⟨S1024, .i1⟩ : BufTy).Contents (Elt F) → (⟨S1024, .i1⟩ : BufTy).Contents (Elt F)) ]

theorem it17A_sub : (it17A (F := F)).Forall fun op => op.bufs ⊆ tcRefs τ sig :=
  ⟨unary_bufs_sub .., reshape_bufs_sub .., unary_bufs_sub ..⟩

theorem it17A_fresh : (it17A (F := F)).Forall fun op => op.fresh = ∅ :=
  ⟨rfl, rfl, rfl⟩

/-- A piece of this stretch (window 7 of @main). -/
noncomputable def it17B : List (HloOp τ sig (Elt F)) :=
  [ StableHlo.TRef.unary (.of main_v316 : StableHlo.TRef sig ⟨S1024, .i1⟩) main_call102.v0 (extui 32 · natLt_1_32),
    StableHlo.TRef.nullary main_call102.call0.c (constantI S_ 32 0#32),
    StableHlo.TRef.unary main_call102.call0.c main_call102.call0.v0 (broadcastInDim S_ ![] bcast_S_S_),
    StableHlo.TRef.binary main_call102.v0 main_call102.call0.v0 main_call102.call0.v1 (fun x v => Host.reduceWindow IntOp.addi ![1024] ![1] ![1023] ![0] x v reduceWindows_S1024_S1024_w1024s1p1023_0 h_S_) ]

theorem it17B_sub : (it17B (F := F)).Forall fun op => op.bufs ⊆ tcRefs τ sig :=
  ⟨unary_bufs_sub .., nullary_bufs_sub .., unary_bufs_sub .., binary_bufs_sub ..⟩

theorem it17B_fresh : (it17B (F := F)).Forall fun op => op.fresh = ∅ :=
  ⟨rfl, rfl, rfl, rfl⟩

/-- A piece of this stretch (window 7 of @main). -/
noncomputable def it17C : List (HloOp τ sig (Elt F)) :=
  [ StableHlo.nullary main_c_119 (constantI S_ 32 0#32),
    StableHlo.unary main_c_119 main_v318 (broadcastInDim S1024 ![] bcast_S_S1024 : (⟨S_, .i32⟩ : BufTy).Contents (Elt F) → (⟨S1024, .i32⟩ : BufTy).Contents (Elt F)),
    StableHlo.nullary main_c_120 (constantI S_ 32 0#32),
    StableHlo.TRef.unary (.of main_c_120 : StableHlo.TRef sig ⟨S_, .i32⟩) main_call103.v0 id,
    StableHlo.TRef.unary main_call103.v0 main_call103.v1 (broadcastInDim S1024 ![] bcast_S_S1024),
    StableHlo.TRef.binary main_call103.v1 (.of main_v317 : StableHlo.TRef sig ⟨S1024, .i32⟩) main_call103.v2 maxsi,
    StableHlo.nullary main_c_121 (constantI S_ 32 0#32),
    StableHlo.unary main_c_121 main_v320 (broadcastInDim S1024 ![] bcast_S_S1024 : (⟨S_, .i32⟩ : BufTy).Contents (Elt F) → (⟨S1024, .i32⟩ : BufTy).Contents (Elt F)),
    StableHlo.binary main_v319 main_v320 main_v321 (cmpi .slt : (⟨S1024, .i32⟩ : BufTy).Contents (Elt F) → (⟨S1024, .i32⟩ : BufTy).Contents (Elt F) → (⟨S1024, .i1⟩ : BufTy).Contents (Elt F)),
    StableHlo.nullary main_c_122 (constantI S_ 32 1024#32),
    StableHlo.unary main_c_122 main_v322 (broadcastInDim S1024 ![] bcast_S_S1024 : (⟨S_, .i32⟩ : BufTy).Contents (Elt F) → (⟨S1024, .i32⟩ : BufTy).Contents (Elt F)),
    StableHlo.binary main_v319 main_v322 main_v323 (addi : (⟨S1024, .i32⟩ : BufTy).Contents (Elt F) → (⟨S1024, .i32⟩ : BufTy).Contents (Elt F) → (⟨S1024, .i32⟩ : BufTy).Contents (Elt F)),
    StableHlo.ternary main_v321 main_v323 main_v319 main_v324 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v324 main_v325 (broadcastInDim S1024x1 ![0] bcast_S1024_S1024x1_0 : (⟨S1024, .i32⟩ : BufTy).Contents (Elt F) → (⟨S1024x1, .i32⟩ : BufTy).Contents (Elt F)),
    StableHlo.nullary main_c_123 (constantI S_ 32 1#32),
    StableHlo.unary main_c_123 main_v326 (broadcastInDim S1024 ![] bcast_S_S1024 : (⟨S_, .i32⟩ : BufTy).Contents (Elt F) → (⟨S1024, .i32⟩ : BufTy).Contents (Elt F)),
    StableHlo.ternary main_v318 main_v325 main_v326 main_v327 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it17C_sub : (it17C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it17C_fresh : (it17C (F := F)).Forall fun op => op.fresh = ∅ :=
  ⟨rfl, rfl, rfl, rfl, rfl, rfl, rfl, rfl, rfl, rfl, rfl, rfl, rfl, rfl, rfl, rfl, rfl⟩

/-- A piece of this stretch (window 7 of @main). -/
noncomputable def it17D : List (HloOp τ sig (Elt F)) :=
  [ StableHlo.TRef.nullary main_call104.call0.c (constantI S_ 32 0#32),
    StableHlo.TRef.unary main_call104.call0.c main_call104.call0.v0 (broadcastInDim S_ ![] bcast_S_S_),
    StableHlo.TRef.binary (.of main_v327 : StableHlo.TRef sig ⟨S1024, .i32⟩) main_call104.call0.v0 main_call104.call0.v1 (fun x v => Host.reduceWindow IntOp.addi ![1024] ![1] ![1023] ![0] x v reduceWindows_S1024_S1024_w1024s1p1023_0 h_S_) ]

theorem it17D_sub : (it17D (F := F)).Forall fun op => op.bufs ⊆ tcRefs τ sig :=
  ⟨nullary_bufs_sub .., unary_bufs_sub .., binary_bufs_sub ..⟩

theorem it17D_fresh : (it17D (F := F)).Forall fun op => op.fresh = ∅ :=
  ⟨rfl, rfl, rfl⟩

/-- A piece of this stretch (window 7 of @main). -/
noncomputable def it17E : List (HloOp τ sig (Elt F)) :=
  [ StableHlo.nullary main_c_124 (constantI S_ 32 1#32),
    StableHlo.TRef.unary (.of main_c_124 : StableHlo.TRef sig ⟨S_, .i32⟩) main_call105.v0 (broadcastInDim S1024 ![] bcast_S_S1024),
    StableHlo.TRef.binary (.of main_v328 : StableHlo.TRef sig ⟨S1024, .i32⟩) main_call105.v0 main_call105.v1 Host.divsi,
    StableHlo.TRef.unary (.of main_v328 : StableHlo.TRef sig ⟨S1024, .i32⟩) main_call105.v2 signi,
    StableHlo.TRef.unary (.of main_c_124 : StableHlo.TRef sig ⟨S_, .i32⟩) main_call105.v3 signi,
    StableHlo.TRef.unary main_call105.v3 main_call105.v4 (broadcastInDim S1024 ![] bcast_S_S1024),
    StableHlo.TRef.binary main_call105.v2 main_call105.v4 main_call105.v5 (cmpi .ne),
    StableHlo.TRef.unary (.of main_c_124 : StableHlo.TRef sig ⟨S_, .i32⟩) main_call105.v6 (broadcastInDim S1024 ![] bcast_S_S1024),
    StableHlo.TRef.binary (.of main_v328 : StableHlo.TRef sig ⟨S1024, .i32⟩) main_call105.v6 main_call105.v7 Host.remsi,
    StableHlo.TRef.nullary main_call105.c (constantI S_ 32 0#32),
    StableHlo.TRef.unary main_call105.c main_call105.v8 (broadcastInDim S1024 ![] bcast_S_S1024),
    StableHlo.TRef.binary main_call105.v7 main_call105.v8 main_call105.v9 (cmpi .ne),
    StableHlo.TRef.binary main_call105.v5 main_call105.v9 main_call105.v10 andi,
    StableHlo.TRef.nullary main_call105.c_0 (constantI S_ 32 1#32),
    StableHlo.TRef.unary main_call105.c_0 main_call105.v11 (broadcastInDim S1024 ![] bcast_S_S1024),
    StableHlo.TRef.binary main_call105.v1 main_call105.v11 main_call105.v12 subi,
    StableHlo.TRef.ternary main_call105.v10 main_call105.v12 main_call105.v1 main_call105.call0.v0 select ]

theorem it17E_sub : (it17E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it17E_fresh : (it17E (F := F)).Forall fun op => op.fresh = ∅ :=
  ⟨rfl, rfl, rfl, rfl, rfl, rfl, rfl, rfl, rfl, rfl, rfl, rfl, rfl, rfl, rfl, rfl, rfl⟩

/-- A piece of this stretch (window 7 of @main). -/
noncomputable def it17G : List (HloOp τ sig (Elt F)) :=
  [ StableHlo.nullary main_c_125 (constantI S_ 32 1024#32),
    StableHlo.TRef.unary (.of main_c_125 : StableHlo.TRef sig ⟨S_, .i32⟩) main_call106.v0 id,
    StableHlo.TRef.nullary main_call106.c (constantI S_ 32 0#32),
    StableHlo.TRef.binary main_call106.v0 main_call106.c main_call106.v1 (cmpi .eq),
    StableHlo.TRef.nullary main_call106.c_0 (constantI S_ 32 1#32),
    StableHlo.TRef.ternary main_call106.v1 main_call106.c_0 main_call106.v0 main_call106.call0.v0 select,
    StableHlo.TRef.unary main_call106.call0.v0 main_call106.v3 (broadcastInDim S1024 ![] bcast_S_S1024),
    StableHlo.TRef.binary (.of main_v329 : StableHlo.TRef sig ⟨S1024, .i32⟩) main_call106.v3 main_call106.v4 Host.remsi,
    StableHlo.TRef.nullary main_call106.c_1 (constantI S_ 32 0#32),
    StableHlo.TRef.unary main_call106.c_1 main_call106.v5 (broadcastInDim S1024 ![] bcast_S_S1024),
    StableHlo.TRef.binary main_call106.v4 main_call106.v5 main_call106.v6 (cmpi .ne),
    StableHlo.TRef.nullary main_call106.c_2 (constantI S_ 32 0#32),
    StableHlo.TRef.unary main_call106.c_2 main_call106.v7 (broadcastInDim S1024 ![] bcast_S_S1024),
    StableHlo.TRef.binary main_call106.v4 main_call106.v7 main_call106.v8 (cmpi .slt),
    StableHlo.TRef.nullary main_call106.c_3 (constantI S_ 32 0#32),
    StableHlo.TRef.binary main_call106.call0.v0 main_call106.c_3 main_call106.v9 (cmpi .slt),
    StableHlo.TRef.unary main_call106.v9 main_call106.v10 (broadcastInDim S1024 ![] bcast_S_S1024),
    StableHlo.TRef.binary main_call106.v8 main_call106.v10 main_call106.v11 (cmpi .ne),
    StableHlo.TRef.binary main_call106.v11 main_call106.v6 main_call106.v12 andi,
    StableHlo.TRef.unary main_call106.call0.v0 main_call106.v13 (broadcastInDim S1024 ![] bcast_S_S1024),
    StableHlo.TRef.binary main_call106.v4 main_call106.v13 main_call106.v14 addi,
    StableHlo.TRef.ternary main_call106.v12 main_call106.v14 main_call106.v4 main_call106.v15 select ]

theorem it17G_sub : (it17G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it17G_fresh : (it17G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 7 of @main). -/
noncomputable def it17H : List (HloOp τ sig (Elt F)) :=
  [ StableHlo.TRef.nullary main_call107.c (constantI S_ 32 0#32),
    StableHlo.TRef.unary main_call107.c main_call107.v0 (broadcastInDim S1024 ![] bcast_S_S1024),
    StableHlo.TRef.binary (.of main_v330 : StableHlo.TRef sig ⟨S1024, .i32⟩) main_call107.v0 main_call107.v1 (cmpi .slt),
    StableHlo.TRef.nullary main_call107.c_0 (constantI S_ 32 1024#32),
    StableHlo.TRef.unary main_call107.c_0 main_call107.v2 (broadcastInDim S1024 ![] bcast_S_S1024),
    StableHlo.TRef.binary (.of main_v330 : StableHlo.TRef sig ⟨S1024, .i32⟩) main_call107.v2 main_call107.v3 addi,
    StableHlo.TRef.ternary main_call107.v1 main_call107.v3 (.of main_v330 : StableHlo.TRef sig ⟨S1024, .i32⟩) main_call107.call0.v0 select,
    StableHlo.TRef.unary main_call107.call0.v0 main_call107.v5 (broadcastInDim S1024x1 ![0] bcast_S1024_S1024x1_0),
    StableHlo.TRef.nullary main_call107.c_1 (constantI S1 32 1023#32),
    StableHlo.TRef.nullary main_call107.c_2 (constantI S_ 32 0#32),
    StableHlo.TRef.unary main_call107.c_2 main_call107.v6 (broadcastInDim S1024x1 ![] bcast_S_S1024x1),
    StableHlo.TRef.binary main_call107.v5 main_call107.v6 main_call107.v7 (cmpi .sge),
    StableHlo.TRef.unary main_call107.c_1 main_call107.v8 (broadcastInDim S1x1 ![1] bcast_S1_S1x1_1),
    StableHlo.TRef.unary main_call107.v8 main_call107.v9 (broadcastInDim S1024x1 ![0, 1] bcast_S1x1_S1024x1_0_1),
    StableHlo.TRef.binary main_call107.v5 main_call107.v9 main_call107.v10 (cmpi .sle),
    StableHlo.TRef.binary main_call107.v7 main_call107.v10 main_call107.v11 andi,
    StableHlo.TRef.nullary main_call107.c_3 (constantI S_ 1 1#1),
    StableHlo.TRef.binary main_call107.v11 main_call107.c_3 main_call107.v12 (fun x v => Host.reduce IntOp.andi x v reducesTo_S1024x1_S1024_d1 h_S_),
    StableHlo.TRef.binary (.of main_v7 : StableHlo.TRef sig ⟨S1024x1024, .f32⟩) main_call107.v5 main_call107.v13 (fun x i => Host.gather gather_S1024x1024_S1024x1_S1024x1024_1_0_n_n_0_1_11024 x i),
    StableHlo.TRef.unary main_call107.v12 main_call107.v14 (broadcastInDim S1024x1024 ![0] bcast_S1024_S1024x1024_0),
    StableHlo.TRef.nullary main_call107.cst (constant S_ .f32 0x7FC00000#32),
    StableHlo.TRef.unary main_call107.cst main_call107.v15 (broadcastInDim S1024x1024 ![] bcast_S_S1024x1024),
    StableHlo.TRef.ternary main_call107.v14 main_call107.v13 main_call107.v15 main_call107.v16 select ]

theorem it17H_sub : (it17H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it17H_fresh : (it17H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it17_W : List (Ref sig .tc) :=
  [main_v314, main_v315, main_v316, (main_call102.v0.ref), (main_call102.call0.c.ref), (main_call102.call0.v0.ref), (main_call102.call0.v1.ref), main_c_119, main_v318, main_c_120, (main_call103.v0.ref), (main_call103.v1.ref), (main_call103.v2.ref), main_c_121, main_v320, main_v321, main_c_122, main_v322, main_v323, main_v324, main_v325, main_c_123, main_v326, main_v327, (main_call104.call0.c.ref), (main_call104.call0.v0.ref), (main_call104.call0.v1.ref), main_c_124, (main_call105.v0.ref), (main_call105.v1.ref), (main_call105.v2.ref), (main_call105.v3.ref), (main_call105.v4.ref), (main_call105.v5.ref), (main_call105.v6.ref), (main_call105.v7.ref), (main_call105.c.ref), (main_call105.v8.ref), (main_call105.v9.ref), (main_call105.v10.ref), (main_call105.c_0.ref), (main_call105.v11.ref), (main_call105.v12.ref), (main_call105.call0.v0.ref), main_c_125, (main_call106.v0.ref), (main_call106.c.ref), (main_call106.v1.ref), (main_call106.c_0.ref), (main_call106.call0.v0.ref), (main_call106.v3.ref), (main_call106.v4.ref), (main_call106.c_1.ref), (main_call106.v5.ref), (main_call106.v6.ref), (main_call106.c_2.ref), (main_call106.v7.ref), (main_call106.v8.ref), (main_call106.c_3.ref), (main_call106.v9.ref), (main_call106.v10.ref), (main_call106.v11.ref), (main_call106.v12.ref), (main_call106.v13.ref), (main_call106.v14.ref), (main_call106.v15.ref), (main_call107.c.ref), (main_call107.v0.ref), (main_call107.v1.ref), (main_call107.c_0.ref), (main_call107.v2.ref), (main_call107.v3.ref), (main_call107.call0.v0.ref), (main_call107.v5.ref), (main_call107.c_1.ref), (main_call107.c_2.ref), (main_call107.v6.ref), (main_call107.v7.ref), (main_call107.v8.ref), (main_call107.v9.ref), (main_call107.v10.ref), (main_call107.v11.ref), (main_call107.c_3.ref), (main_call107.v12.ref), (main_call107.v13.ref), (main_call107.v14.ref), (main_call107.cst.ref), (main_call107.v15.ref), (main_call107.v16.ref)]

/-- The iteration up to the row lookup. -/
noncomputable def it17hd : List (HloOp τ sig (Elt F)) := it17A ++ (it17B ++ (it17C ++ (it17D ++ (it17E ++ it17G))))

/-- The iteration. -/
noncomputable def it17 : List (HloOp τ sig (Elt F)) := it17hd ++ it17H
theorem it17_sub : (it17 (F := F)).Forall fun op => op.bufs ⊆ tcRefs τ sig :=
  forall_append (forall_append it17A_sub (forall_append it17B_sub (forall_append it17C_sub (forall_append it17D_sub (forall_append it17E_sub it17G_sub))))) it17H_sub
theorem it17_fresh : (it17 (F := F)).Forall fun op => op.fresh = ∅ :=
  forall_append (forall_append it17A_fresh (forall_append it17B_fresh (forall_append it17C_fresh (forall_append it17D_fresh (forall_append it17E_fresh it17G_fresh))))) it17H_fresh

/-- The iteration as the concatenation of its pieces. -/
theorem it17_atoms : it17 (F := F) = it17A ++ (it17B ++ (it17C ++ (it17D ++ (it17E ++ (it17G ++ it17H))))) := by
  simp only [it17, it17hd, List.append_assoc]

end Cert.ReferenceIdeal.HandRun

end
-- ==== Proof.RefIt17.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt17

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it17A_val (V : Valuation τ sig (Elt F)) :
    after (it17A (F := F)) V (Proc.devRef (τ := τ) .tc main_v316) = RefFns.colMask (V (Proc.devRef (τ := τ) .tc main_v1)) 17 slices_S1024x32x1_S1024x1x1_0_17_0 := by
  simp only [it17A, List.cons_append, List.nil_append]
  after_results_simp
  try simp only [cast_eq]
  rfl

set_option maxRecDepth 65536 in
set_option maxHeartbeats 1000000 in
theorem it17B_val (V : Valuation τ sig (Elt F)) :
    after (it17B (F := F)) V (Proc.devRef (τ := τ) .tc main_v317) = RefFns.cumsumF (V (Proc.devRef (τ := τ) .tc main_v316)) := by
  simp only [it17B, List.cons_append, List.nil_append]
  after_results_simp
  try simp only [cast_eq]
  rfl

set_option maxRecDepth 65536 in
set_option maxHeartbeats 1000000 in
theorem it17C_val (V : Valuation τ sig (Elt F)) :
    after (it17C (F := F)) V (Proc.devRef (τ := τ) .tc main_v327) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v317)) (constantI S_ 32 0#32)) (broadcastInDim S1024 ![] bcast_S_S1024 (constantI S_ 32 0#32))) (addi (RefFns.clipF (V (Proc.devRef (τ := τ) .tc main_v317)) (constantI S_ 32 0#32)) (broadcastInDim S1024 ![] bcast_S_S1024 (constantI S_ 32 1024#32))) (RefFns.clipF (V (Proc.devRef (τ := τ) .tc main_v317)) (constantI S_ 32 0#32)))) (broadcastInDim S1024 ![] bcast_S_S1024 (constantI S_ 32 1#32)) := by
  simp only [it17C, List.cons_append, List.nil_append]
  after_results_simp
  try simp only [cast_eq]
  rfl

set_option maxRecDepth 65536 in
set_option maxHeartbeats 1000000 in
theorem it17D_val (V : Valuation τ sig (Elt F)) :
    after (it17D (F := F)) V (Proc.devRef (τ := τ) .tc main_v328) = RefFns.cumsum1F (V (Proc.devRef (τ := τ) .tc main_v327)) := by
  simp only [it17D, List.cons_append, List.nil_append]
  after_results_simp
  try simp only [cast_eq]
  rfl

set_option maxRecDepth 65536 in
set_option maxHeartbeats 1000000 in
theorem it17E_val (V : Valuation τ sig (Elt F)) :
    after (it17E (F := F)) V (Proc.devRef (τ := τ) .tc main_v329) = RefFns.floorDivF (V (Proc.devRef (τ := τ) .tc main_v328)) (constantI S_ 32 1#32) := by
  simp only [it17E, List.cons_append, List.nil_append]
  after_results_simp
  try simp only [cast_eq]
  rfl

set_option maxRecDepth 65536 in
set_option maxHeartbeats 1000000 in
theorem it17G_val (V : Valuation τ sig (Elt F)) :
    after (it17G (F := F)) V (Proc.devRef (τ := τ) .tc main_v330) = RefFns.remainderF (V (Proc.devRef (τ := τ) .tc main_v329)) (constantI S_ 32 1024#32) := by
  simp only [it17G, List.cons_append, List.nil_append]
  after_results_simp
  try simp only [cast_eq]
  rfl

set_option maxRecDepth 65536 in
set_option maxHeartbeats 1000000 in
theorem it17H_val (V : Valuation τ sig (Elt F)) :
    after (it17H (F := F)) V (Proc.devRef (τ := τ) .tc main_v331) = RefFns.takeF (V (Proc.devRef (τ := τ) .tc main_v7)) (V (Proc.devRef (τ := τ) .tc main_v330)) := by
  simp only [it17H, List.cons_append, List.nil_append]
  after_results_simp
  try simp only [cast_eq]
  rfl

theorem it17A_writes : (it17A (F := F)).Forall fun op => op.writes ⊆ (it17_W.map (Proc.devRef (τ := τ) .tc)).toFinset :=
  ⟨wsub main_v314 (by decide), wsub main_v315 (by decide), wsub main_v316 (by decide)⟩

theorem it17B_writes : (it17B (F := F)).Forall fun op => op.writes ⊆ (it17_W.map (Proc.devRef (τ := τ) .tc)).toFinset :=
  ⟨wsub (main_call102.v0.ref) (by decide), wsub (main_call102.call0.c.ref) (by decide), wsub (main_call102.call0.v0.ref) (by decide), wsub (main_call102.call0.v1.ref) (by decide)⟩

theorem it17C_writes : (it17C (F := F)).Forall fun op => op.writes ⊆ (it17_W.map (Proc.devRef (τ := τ) .tc)).toFinset :=
  ⟨wsub main_c_119 (by decide), wsub main_v318 (by decide), wsub main_c_120 (by decide), wsub (main_call103.v0.ref) (by decide), wsub (main_call103.v1.ref) (by decide), wsub (main_call103.v2.ref) (by decide), wsub main_c_121 (by decide), wsub main_v320 (by decide), wsub main_v321 (by decide), wsub main_c_122 (by decide), wsub main_v322 (by decide), wsub main_v323 (by decide), wsub main_v324 (by decide), wsub main_v325 (by decide), wsub main_c_123 (by decide), wsub main_v326 (by decide), wsub main_v327 (by decide)⟩

theorem it17D_writes : (it17D (F := F)).Forall fun op => op.writes ⊆ (it17_W.map (Proc.devRef (τ := τ) .tc)).toFinset :=
  ⟨wsub (main_call104.call0.c.ref) (by decide), wsub (main_call104.call0.v0.ref) (by decide), wsub (main_call104.call0.v1.ref) (by decide)⟩

theorem it17E_writes : (it17E (F := F)).Forall fun op => op.writes ⊆ (it17_W.map (Proc.devRef (τ := τ) .tc)).toFinset :=
  ⟨wsub main_c_124 (by decide), wsub (main_call105.v0.ref) (by decide), wsub (main_call105.v1.ref) (by decide), wsub (main_call105.v2.ref) (by decide), wsub (main_call105.v3.ref) (by decide), wsub (main_call105.v4.ref) (by decide), wsub (main_call105.v5.ref) (by decide), wsub (main_call105.v6.ref) (by decide), wsub (main_call105.v7.ref) (by decide), wsub (main_call105.c.ref) (by decide), wsub (main_call105.v8.ref) (by decide), wsub (main_call105.v9.ref) (by decide), wsub (main_call105.v10.ref) (by decide), wsub (main_call105.c_0.ref) (by decide), wsub (main_call105.v11.ref) (by decide), wsub (main_call105.v12.ref) (by decide), wsub (main_call105.call0.v0.ref) (by decide)⟩

theorem it17G_writes : (it17G (F := F)).Forall fun op => op.writes ⊆ (it17_W.map (Proc.devRef (τ := τ) .tc)).toFinset :=
  ⟨wsub main_c_125 (by decide), wsub (main_call106.v0.ref) (by decide), wsub (main_call106.c.ref) (by decide), wsub (main_call106.v1.ref) (by decide), wsub (main_call106.c_0.ref) (by decide), wsub (main_call106.call0.v0.ref) (by decide), wsub (main_call106.v3.ref) (by decide), wsub (main_call106.v4.ref) (by decide), wsub (main_call106.c_1.ref) (by decide), wsub (main_call106.v5.ref) (by decide), wsub (main_call106.v6.ref) (by decide), wsub (main_call106.c_2.ref) (by decide), wsub (main_call106.v7.ref) (by decide), wsub (main_call106.v8.ref) (by decide), wsub (main_call106.c_3.ref) (by decide), wsub (main_call106.v9.ref) (by decide), wsub (main_call106.v10.ref) (by decide), wsub (main_call106.v11.ref) (by decide), wsub (main_call106.v12.ref) (by decide), wsub (main_call106.v13.ref) (by decide), wsub (main_call106.v14.ref) (by decide), wsub (main_call106.v15.ref) (by decide)⟩

theorem it17H_writes : (it17H (F := F)).Forall fun op => op.writes ⊆ (it17_W.map (Proc.devRef (τ := τ) .tc)).toFinset :=
  ⟨wsub (main_call107.c.ref) (by decide), wsub (main_call107.v0.ref) (by decide), wsub (main_call107.v1.ref) (by decide), wsub (main_call107.c_0.ref) (by decide), wsub (main_call107.v2.ref) (by decide), wsub (main_call107.v3.ref) (by decide), wsub (main_call107.call0.v0.ref) (by decide), wsub (main_call107.v5.ref) (by decide), wsub (main_call107.c_1.ref) (by decide), wsub (main_call107.c_2.ref) (by decide), wsub (main_call107.v6.ref) (by decide), wsub (main_call107.v7.ref) (by decide), wsub (main_call107.v8.ref) (by decide), wsub (main_call107.v9.ref) (by decide), wsub (main_call107.v10.ref) (by decide), wsub (main_call107.v11.ref) (by decide), wsub (main_call107.c_3.ref) (by decide), wsub (main_call107.v12.ref) (by decide), wsub (main_call107.v13.ref) (by decide), wsub (main_call107.v14.ref) (by decide), wsub (main_call107.cst.ref) (by decide), wsub (main_call107.v15.ref) (by decide), wsub (main_call107.v16.ref) (by decide)⟩

theorem it17hd_writes : (it17hd (F := F)).Forall fun op => op.writes ⊆ (it17_W.map (Proc.devRef (τ := τ) .tc)).toFinset :=
  forall_append it17A_writes (forall_append it17B_writes (forall_append it17C_writes (forall_append it17D_writes (forall_append it17E_writes it17G_writes))))

theorem it17_writes : (it17 (F := F)).Forall fun op => op.writes ⊆ (it17_W.map (Proc.devRef (τ := τ) .tc)).toFinset :=
  forall_append it17hd_writes (it17H_writes)

/-- The iteration leaves every buffer it does not write as it was. -/
theorem it17_keep (V : Valuation τ sig (Elt F)) (r : Ref sig .tc) (hr : r ∉ it17_W) :
    after (it17 (F := F)) V (Proc.devRef (τ := τ) .tc r) = V (Proc.devRef (τ := τ) .tc r) :=
  after_of_writes_sub it17 V it17_writes hr

theorem it17hd_keep (V : Valuation τ sig (Elt F)) (r : Ref sig .tc) (hr : r ∉ it17_W) :
    after (it17hd (F := F)) V (Proc.devRef (τ := τ) .tc r) = V (Proc.devRef (τ := τ) .tc r) :=
  after_of_writes_sub it17hd V it17hd_writes hr

/-- The iteration's result: the rows of the matrix it is handed at the compacted indices of its mask. -/
theorem it17_res (V : Valuation τ sig (Elt F)) :
    after (it17 (F := F)) V (Proc.devRef (τ := τ) .tc main_v331) = RefFns.nzTake (V (Proc.devRef (τ := τ) .tc main_v7)) (RefFns.colMask (V (Proc.devRef (τ := τ) .tc main_v1)) 17 slices_S1024x32x1_S1024x1x1_0_17_0) := by
  rw [it17, after_append, it17H_val, it17hd_keep V main_v7 (by decide), it17hd]
  simp only [after_append]
  rw [it17G_val, it17E_val, it17D_val, it17C_val, it17B_val, it17A_val]
  rfl

set_option maxRecDepth 65536 in
set_option maxHeartbeats 4000000 in
/-- The invariant of the run survives the iteration, with its block added. -/
theorem it17_step {x : FVec F S1x32x1024 .f32} {V : Valuation τ sig (Elt F)} (hg : Good 17 x V) : Good 18 x (after (it17 (F := F)) V) :=
  good_step 17 (by decide) it17 it17_W slices_S1024x32x1_S1024x1x1_0_17_0 it17_keep it17_res (fun _ => rfl) (by decide +kernel) (by decide +kernel) (by decide +kernel) (by decide +kernel) hg

end Cert.ReferenceIdeal.HandRun

end
-- ==== Proof.RefOpsIt18.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 7 of @main). -/
noncomputable def it18A : List (HloOp τ sig (Elt F)) :=
  [ StableHlo.unary main_v1 main_v332 ((extractStridedSlice S1024x1x1 ![0, 18, 0] · slices_S1024x32x1_S1024x1x1_0_18_0) : (⟨S1024x32x1, .i1⟩ : BufTy).Contents (Elt F) → (⟨S1024x1x1, .i1⟩ : BufTy).Contents (Elt F)),
    StableHlo.reshape main_v332 main_v333 rfl shapeCasts_S1024x1x1_S1024,
    StableHlo.unary main_v333 main_v334 (noti : (⟨S1024, .i1⟩ : BufTy).Contents (Elt F) → (⟨S1024, .i1⟩ : BufTy).Contents (Elt F)) ]

theorem it18A_sub : (it18A (F := F)).Forall fun op => op.bufs ⊆ tcRefs τ sig :=
  ⟨unary_bufs_sub .., reshape_bufs_sub .., unary_bufs_sub ..⟩

theorem it18A_fresh : (it18A (F := F)).Forall fun op => op.fresh = ∅ :=
  ⟨rfl, rfl, rfl⟩

/-- A piece of this stretch (window 7 of @main). -/
noncomputable def it18B : List (HloOp τ sig (Elt F)) :=
  [ StableHlo.TRef.unary (.of main_v334 : StableHlo.TRef sig ⟨S1024, .i1⟩) main_call108.v0 (extui 32 · natLt_1_32),
    StableHlo.TRef.nullary main_call108.call0.c (constantI S_ 32 0#32),
    StableHlo.TRef.unary main_call108.call0.c main_call108.call0.v0 (broadcastInDim S_ ![] bcast_S_S_),
    StableHlo.TRef.binary main_call108.v0 main_call108.call0.v0 main_call108.call0.v1 (fun x v => Host.reduceWindow IntOp.addi ![1024] ![1] ![1023] ![0] x v reduceWindows_S1024_S1024_w1024s1p1023_0 h_S_) ]

theorem it18B_sub : (it18B (F := F)).Forall fun op => op.bufs ⊆ tcRefs τ sig :=
  ⟨unary_bufs_sub .., nullary_bufs_sub .., unary_bufs_sub .., binary_bufs_sub ..⟩

theorem it18B_fresh : (it18B (F := F)).Forall fun op => op.fresh = ∅ :=
  ⟨rfl, rfl, rfl, rfl⟩

/-- A piece of this stretch (window 7 of @main). -/
noncomputable def it18C : List (HloOp τ sig (Elt F)) :=
  [ StableHlo.nullary main_c_126 (constantI S_ 32 0#32),
    StableHlo.unary main_c_126 main_v336 (broadcastInDim S1024 ![] bcast_S_S1024 : (⟨S_, .i32⟩ : BufTy).Contents (Elt F) → (⟨S1024, .i32⟩ : BufTy).Contents (Elt F)),
    StableHlo.nullary main_c_127 (constantI S_ 32 0#32),
    StableHlo.TRef.unary (.of main_c_127 : StableHlo.TRef sig ⟨S_, .i32⟩) main_call109.v0 id,
    StableHlo.TRef.unary main_call109.v0 main_call109.v1 (broadcastInDim S1024 ![] bcast_S_S1024),
    StableHlo.TRef.binary main_call109.v1 (.of main_v335 : StableHlo.TRef sig ⟨S1024, .i32⟩) main_call109.v2 maxsi,
    StableHlo.nullary main_c_128 (constantI S_ 32 0#32),
    StableHlo.unary main_c_128 main_v338 (broadcastInDim S1024 ![] bcast_S_S1024 : (⟨S_, .i32⟩ : BufTy).Contents (Elt F) → (⟨S1024, .i32⟩ : BufTy).Contents (Elt F)),
    StableHlo.binary main_v337 main_v338 main_v339 (cmpi .slt : (⟨S1024, .i32⟩ : BufTy).Contents (Elt F) → (⟨S1024, .i32⟩ : BufTy).Contents (Elt F) → (⟨S1024, .i1⟩ : BufTy).Contents (Elt F)),
    StableHlo.nullary main_c_129 (constantI S_ 32 1024#32),
    StableHlo.unary main_c_129 main_v340 (broadcastInDim S1024 ![] bcast_S_S1024 : (⟨S_, .i32⟩ : BufTy).Contents (Elt F) → (⟨S1024, .i32⟩ : BufTy).Contents (Elt F)),
    StableHlo.binary main_v337 main_v340 main_v341 (addi : (⟨S1024, .i32⟩ : BufTy).Contents (Elt F) → (⟨S1024, .i32⟩ : BufTy).Contents (Elt F) → (⟨S1024, .i32⟩ : BufTy).Contents (Elt F)),
    StableHlo.ternary main_v339 main_v341 main_v337 main_v342 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v342 main_v343 (broadcastInDim S1024x1 ![0] bcast_S1024_S1024x1_0 : (⟨S1024, .i32⟩ : BufTy).Contents (Elt F) → (⟨S1024x1, .i32⟩ : BufTy).Contents (Elt F)),
    StableHlo.nullary main_c_130 (constantI S_ 32 1#32),
    StableHlo.unary main_c_130 main_v344 (broadcastInDim S1024 ![] bcast_S_S1024 : (⟨S_, .i32⟩ : BufTy).Contents (Elt F) → (⟨S1024, .i32⟩ : BufTy).Contents (Elt F)),
    StableHlo.ternary main_v336 main_v343 main_v344 main_v345 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it18C_sub : (it18C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it18C_fresh : (it18C (F := F)).Forall fun op => op.fresh = ∅ :=
  ⟨rfl, rfl, rfl, rfl, rfl, rfl, rfl, rfl, rfl, rfl, rfl, rfl, rfl, rfl, rfl, rfl, rfl⟩

/-- A piece of this stretch (window 7 of @main). -/
noncomputable def it18D : List (HloOp τ sig (Elt F)) :=
  [ StableHlo.TRef.nullary main_call110.call0.c (constantI S_ 32 0#32),
    StableHlo.TRef.unary main_call110.call0.c main_call110.call0.v0 (broadcastInDim S_ ![] bcast_S_S_),
    StableHlo.TRef.binary (.of main_v345 : StableHlo.TRef sig ⟨S1024, .i32⟩) main_call110.call0.v0 main_call110.call0.v1 (fun x v => Host.reduceWindow IntOp.addi ![1024] ![1] ![1023] ![0] x v reduceWindows_S1024_S1024_w1024s1p1023_0 h_S_) ]

theorem it18D_sub : (it18D (F := F)).Forall fun op => op.bufs ⊆ tcRefs τ sig :=
  ⟨nullary_bufs_sub .., unary_bufs_sub .., binary_bufs_sub ..⟩

theorem it18D_fresh : (it18D (F := F)).Forall fun op => op.fresh = ∅ :=
  ⟨rfl, rfl, rfl⟩

/-- A piece of this stretch (window 7 of @main). -/
noncomputable def it18Ea : List (HloOp τ sig (Elt F)) :=
  [ StableHlo.nullary main_c_131 (constantI S_ 32 1#32) ]

theorem it18Ea_sub : (it18Ea (F := F)).Forall fun op => op.bufs ⊆ tcRefs τ sig :=
  nullary_bufs_sub ..

theorem it18Ea_fresh : (it18Ea (F := F)).Forall fun op => op.fresh = ∅ :=
  rfl

/-- A piece of this stretch (window 8 of @main). -/
noncomputable def it18Eb : List (HloOp τ sig (Elt F)) :=
  [ StableHlo.TRef.unary (.of main_c_131 : StableHlo.TRef sig ⟨S_, .i32⟩) main_call111.v0 (broadcastInDim S1024 ![] bcast_S_S1024),
    StableHlo.TRef.binary (.of main_v346 : StableHlo.TRef sig ⟨S1024, .i32⟩) main_call111.v0 main_call111.v1 Host.divsi,
    StableHlo.TRef.unary (.of main_v346 : StableHlo.TRef sig ⟨S1024, .i32⟩) main_call111.v2 signi,
    StableHlo.TRef.unary (.of main_c_131 : StableHlo.TRef sig ⟨S_, .i32⟩) main_call111.v3 signi,
    StableHlo.TRef.unary main_call111.v3 main_call111.v4 (broadcastInDim S1024 ![] bcast_S_S1024),
    StableHlo.TRef.binary main_call111.v2 main_call111.v4 main_call111.v5 (cmpi .ne),
    StableHlo.TRef.unary (.of main_c_131 : StableHlo.TRef sig ⟨S_, .i32⟩) main_call111.v6 (broadcastInDim S1024 ![] bcast_S_S1024),
    StableHlo.TRef.binary (.of main_v346 : StableHlo.TRef sig ⟨S1024, .i32⟩) main_call111.v6 main_call111.v7 Host.remsi,
    StableHlo.TRef.nullary main_call111.c (constantI S_ 32 0#32),
    StableHlo.TRef.unary main_call111.c main_call111.v8 (broadcastInDim S1024 ![] bcast_S_S1024),
    StableHlo.TRef.binary main_call111.v7 main_call111.v8 main_call111.v9 (cmpi .ne),
    StableHlo.TRef.binary main_call111.v5 main_call111.v9 main_call111.v10 andi,
    StableHlo.TRef.nullary main_call111.c_0 (constantI S_ 32 1#32),
    StableHlo.TRef.unary main_call111.c_0 main_call111.v11 (broadcastInDim S1024 ![] bcast_S_S1024),
    StableHlo.TRef.binary main_call111.v1 main_call111.v11 main_call111.v12 subi,
    StableHlo.TRef.ternary main_call111.v10 main_call111.v12 main_call111.v1 main_call111.call0.v0 select ]

theorem it18Eb_sub : (it18Eb (F := F)).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it18Eb_fresh : (it18Eb (F := F)).Forall fun op => op.fresh = ∅ :=
  ⟨rfl, rfl, rfl, rfl, rfl, rfl, rfl, rfl, rfl, rfl, rfl, rfl, rfl, rfl, rfl, rfl⟩

/-- A piece of this stretch (window 8 of @main). -/
noncomputable def it18G : List (HloOp τ sig (Elt F)) :=
  [ StableHlo.nullary main_c_132 (constantI S_ 32 1024#32),
    StableHlo.TRef.unary (.of main_c_132 : StableHlo.TRef sig ⟨S_, .i32⟩) main_call112.v0 id,
    StableHlo.TRef.nullary main_call112.c (constantI S_ 32 0#32),
    StableHlo.TRef.binary main_call112.v0 main_call112.c main_call112.v1 (cmpi .eq),
    StableHlo.TRef.nullary main_call112.c_0 (constantI S_ 32 1#32),
    StableHlo.TRef.ternary main_call112.v1 main_call112.c_0 main_call112.v0 main_call112.call0.v0 select,
    StableHlo.TRef.unary main_call112.call0.v0 main_call112.v3 (broadcastInDim S1024 ![] bcast_S_S1024),
    StableHlo.TRef.binary (.of main_v347 : StableHlo.TRef sig ⟨S1024, .i32⟩) main_call112.v3 main_call112.v4 Host.remsi,
    StableHlo.TRef.nullary main_call112.c_1 (constantI S_ 32 0#32),
    StableHlo.TRef.unary main_call112.c_1 main_call112.v5 (broadcastInDim S1024 ![] bcast_S_S1024),
    StableHlo.TRef.binary main_call112.v4 main_call112.v5 main_call112.v6 (cmpi .ne),
    StableHlo.TRef.nullary main_call112.c_2 (constantI S_ 32 0#32),
    StableHlo.TRef.unary main_call112.c_2 main_call112.v7 (broadcastInDim S1024 ![] bcast_S_S1024),
    StableHlo.TRef.binary main_call112.v4 main_call112.v7 main_call112.v8 (cmpi .slt),
    StableHlo.TRef.nullary main_call112.c_3 (constantI S_ 32 0#32),
    StableHlo.TRef.binary main_call112.call0.v0 main_call112.c_3 main_call112.v9 (cmpi .slt),
    StableHlo.TRef.unary main_call112.v9 main_call112.v10 (broadcastInDim S1024 ![] bcast_S_S1024),
    StableHlo.TRef.binary main_call112.v8 main_call112.v10 main_call112.v11 (cmpi .ne),
    StableHlo.TRef.binary main_call112.v11 main_call112.v6 main_call112.v12 andi,
    StableHlo.TRef.unary main_call112.call0.v0 main_call112.v13 (broadcastInDim S1024 ![] bcast_S_S1024),
    StableHlo.TRef.binary main_call112.v4 main_call112.v13 main_call112.v14 addi,
    StableHlo.TRef.ternary main_call112.v12 main_call112.v14 main_call112.v4 main_call112.v15 select ]

theorem it18G_sub : (it18G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it18G_fresh : (it18G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 8 of @main). -/
noncomputable def it18H : List (HloOp τ sig (Elt F)) :=
  [ StableHlo.TRef.nullary main_call113.c (constantI S_ 32 0#32),
    StableHlo.TRef.unary main_call113.c main_call113.v0 (broadcastInDim S1024 ![] bcast_S_S1024),
    StableHlo.TRef.binary (.of main_v348 : StableHlo.TRef sig ⟨S1024, .i32⟩) main_call113.v0 main_call113.v1 (cmpi .slt),
    StableHlo.TRef.nullary main_call113.c_0 (constantI S_ 32 1024#32),
    StableHlo.TRef.unary main_call113.c_0 main_call113.v2 (broadcastInDim S1024 ![] bcast_S_S1024),
    StableHlo.TRef.binary (.of main_v348 : StableHlo.TRef sig ⟨S1024, .i32⟩) main_call113.v2 main_call113.v3 addi,
    StableHlo.TRef.ternary main_call113.v1 main_call113.v3 (.of main_v348 : StableHlo.TRef sig ⟨S1024, .i32⟩) main_call113.call0.v0 select,
    StableHlo.TRef.unary main_call113.call0.v0 main_call113.v5 (broadcastInDim S1024x1 ![0] bcast_S1024_S1024x1_0),
    StableHlo.TRef.nullary main_call113.c_1 (constantI S1 32 1023#32),
    StableHlo.TRef.nullary main_call113.c_2 (constantI S_ 32 0#32),
    StableHlo.TRef.unary main_call113.c_2 main_call113.v6 (broadcastInDim S1024x1 ![] bcast_S_S1024x1),
    StableHlo.TRef.binary main_call113.v5 main_call113.v6 main_call113.v7 (cmpi .sge),
    StableHlo.TRef.unary main_call113.c_1 main_call113.v8 (broadcastInDim S1x1 ![1] bcast_S1_S1x1_1),
    StableHlo.TRef.unary main_call113.v8 main_call113.v9 (broadcastInDim S1024x1 ![0, 1] bcast_S1x1_S1024x1_0_1),
    StableHlo.TRef.binary main_call113.v5 main_call113.v9 main_call113.v10 (cmpi .sle),
    StableHlo.TRef.binary main_call113.v7 main_call113.v10 main_call113.v11 andi,
    StableHlo.TRef.nullary main_call113.c_3 (constantI S_ 1 1#1),
    StableHlo.TRef.binary main_call113.v11 main_call113.c_3 main_call113.v12 (fun x v => Host.reduce IntOp.andi x v reducesTo_S1024x1_S1024_d1 h_S_),
    StableHlo.TRef.binary (.of main_v7 : StableHlo.TRef sig ⟨S1024x1024, .f32⟩) main_call113.v5 main_call113.v13 (fun x i => Host.gather gather_S1024x1024_S1024x1_S1024x1024_1_0_n_n_0_1_11024 x i),
    StableHlo.TRef.unary main_call113.v12 main_call113.v14 (broadcastInDim S1024x1024 ![0] bcast_S1024_S1024x1024_0),
    StableHlo.TRef.nullary main_call113.cst (constant S_ .f32 0x7FC00000#32),
    StableHlo.TRef.unary main_call113.cst main_call113.v15 (broadcastInDim S1024x1024 ![] bcast_S_S1024x1024),
    StableHlo.TRef.ternary main_call113.v14 main_call113.v13 main_call113.v15 main_call113.v16 select ]

theorem it18H_sub : (it18H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it18H_fresh : (it18H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it18_W : List (Ref sig .tc) :=
  [main_v332, main_v333, main_v334, (main_call108.v0.ref), (main_call108.call0.c.ref), (main_call108.call0.v0.ref), (main_call108.call0.v1.ref), main_c_126, main_v336, main_c_127, (main_call109.v0.ref), (main_call109.v1.ref), (main_call109.v2.ref), main_c_128, main_v338, main_v339, main_c_129, main_v340, main_v341, main_v342, main_v343, main_c_130, main_v344, main_v345, (main_call110.call0.c.ref), (main_call110.call0.v0.ref), (main_call110.call0.v1.ref), main_c_131, (main_call111.v0.ref), (main_call111.v1.ref), (main_call111.v2.ref), (main_call111.v3.ref), (main_call111.v4.ref), (main_call111.v5.ref), (main_call111.v6.ref), (main_call111.v7.ref), (main_call111.c.ref), (main_call111.v8.ref), (main_call111.v9.ref), (main_call111.v10.ref), (main_call111.c_0.ref), (main_call111.v11.ref), (main_call111.v12.ref), (main_call111.call0.v0.ref), main_c_132, (main_call112.v0.ref), (main_call112.c.ref), (main_call112.v1.ref), (main_call112.c_0.ref), (main_call112.call0.v0.ref), (main_call112.v3.ref), (main_call112.v4.ref), (main_call112.c_1.ref), (main_call112.v5.ref), (main_call112.v6.ref), (main_call112.c_2.ref), (main_call112.v7.ref), (main_call112.v8.ref), (main_call112.c_3.ref), (main_call112.v9.ref), (main_call112.v10.ref), (main_call112.v11.ref), (main_call112.v12.ref), (main_call112.v13.ref), (main_call112.v14.ref), (main_call112.v15.ref), (main_call113.c.ref), (main_call113.v0.ref), (main_call113.v1.ref), (main_call113.c_0.ref), (main_call113.v2.ref), (main_call113.v3.ref), (main_call113.call0.v0.ref), (main_call113.v5.ref), (main_call113.c_1.ref), (main_call113.c_2.ref), (main_call113.v6.ref), (main_call113.v7.ref), (main_call113.v8.ref), (main_call113.v9.ref), (main_call113.v10.ref), (main_call113.v11.ref), (main_call113.c_3.ref), (main_call113.v12.ref), (main_call113.v13.ref), (main_call113.v14.ref), (main_call113.cst.ref), (main_call113.v15.ref), (main_call113.v16.ref)]

/-- One stage of the iteration, whole. -/
noncomputable def it18E : List (HloOp τ sig (Elt F)) := it18Ea ++ it18Eb
theorem it18E_sub : (it18E (F := F)).Forall fun op => op.bufs ⊆ tcRefs τ sig :=
  forall_append it18Ea_sub it18Eb_sub
theorem it18E_fresh : (it18E (F := F)).Forall fun op => op.fresh = ∅ :=
  forall_append it18Ea_fresh it18Eb_fresh

/-- The iteration up to the row lookup. -/
noncomputable def it18hd : List (HloOp τ sig (Elt F)) := it18A ++ (it18B ++ (it18C ++ (it18D ++ (it18E ++ it18G))))

/-- The iteration. -/
noncomputable def it18 : List (HloOp τ sig (Elt F)) := it18hd ++ it18H
theorem it18_sub : (it18 (F := F)).Forall fun op => op.bufs ⊆ tcRefs τ sig :=
  forall_append (forall_append it18A_sub (forall_append it18B_sub (forall_append it18C_sub (forall_append it18D_sub (forall_append it18E_sub it18G_sub))))) it18H_sub
theorem it18_fresh : (it18 (F := F)).Forall fun op => op.fresh = ∅ :=
  forall_append (forall_append it18A_fresh (forall_append it18B_fresh (forall_append it18C_fresh (forall_append it18D_fresh (forall_append it18E_fresh it18G_fresh))))) it18H_fresh

/-- The iteration as the concatenation of its pieces. -/
theorem it18_atoms : it18 (F := F) = it18A ++ (it18B ++ (it18C ++ (it18D ++ (it18Ea ++ (it18Eb ++ (it18G ++ it18H)))))) := by
  simp only [it18, it18hd, it18E, List.append_assoc]

end Cert.ReferenceIdeal.HandRun

end
-- ==== Proof.RefIt18.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt18

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it18A_val (V : Valuation τ sig (Elt F)) :
    after (it18A (F := F)) V (Proc.devRef (τ := τ) .tc main_v334) = RefFns.colMask (V (Proc.devRef (τ := τ) .tc main_v1)) 18 slices_S1024x32x1_S1024x1x1_0_18_0 := by
  simp only [it18A, List.cons_append, List.nil_append]
  after_results_simp
  try simp only [cast_eq]
  rfl

set_option maxRecDepth 65536 in
set_option maxHeartbeats 1000000 in
theorem it18B_val (V : Valuation τ sig (Elt F)) :
    after (it18B (F := F)) V (Proc.devRef (τ := τ) .tc main_v335) = RefFns.cumsumF (V (Proc.devRef (τ := τ) .tc main_v334)) := by
  simp only [it18B, List.cons_append, List.nil_append]
  after_results_simp
  try simp only [cast_eq]
  rfl

set_option maxRecDepth 65536 in
set_option maxHeartbeats 1000000 in
theorem it18C_val (V : Valuation τ sig (Elt F)) :
    after (it18C (F := F)) V (Proc.devRef (τ := τ) .tc main_v345) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v335)) (constantI S_ 32 0#32)) (broadcastInDim S1024 ![] bcast_S_S1024 (constantI S_ 32 0#32))) (addi (RefFns.clipF (V (Proc.devRef (τ := τ) .tc main_v335)) (constantI S_ 32 0#32)) (broadcastInDim S1024 ![] bcast_S_S1024 (constantI S_ 32 1024#32))) (RefFns.clipF (V (Proc.devRef (τ := τ) .tc main_v335)) (constantI S_ 32 0#32)))) (broadcastInDim S1024 ![] bcast_S_S1024 (constantI S_ 32 1#32)) := by
  simp only [it18C, List.cons_append, List.nil_append]
  after_results_simp
  try simp only [cast_eq]
  rfl

set_option maxRecDepth 65536 in
set_option maxHeartbeats 1000000 in
theorem it18D_val (V : Valuation τ sig (Elt F)) :
    after (it18D (F := F)) V (Proc.devRef (τ := τ) .tc main_v346) = RefFns.cumsum1F (V (Proc.devRef (τ := τ) .tc main_v345)) := by
  simp only [it18D, List.cons_append, List.nil_append]
  after_results_simp
  try simp only [cast_eq]
  rfl

set_option maxRecDepth 65536 in
set_option maxHeartbeats 1000000 in
theorem it18E_val (V : Valuation τ sig (Elt F)) :
    after (it18E (F := F)) V (Proc.devRef (τ := τ) .tc main_v347) = RefFns.floorDivF (V (Proc.devRef (τ := τ) .tc main_v346)) (constantI S_ 32 1#32) := by
  simp only [it18E, it18Ea, it18Eb, List.cons_append, List.nil_append]
  after_results_simp
  try simp only [cast_eq]
  rfl

set_option maxRecDepth 65536 in
set_option maxHeartbeats 1000000 in
theorem it18G_val (V : Valuation τ sig (Elt F)) :
    after (it18G (F := F)) V (Proc.devRef (τ := τ) .tc main_v348) = RefFns.remainderF (V (Proc.devRef (τ := τ) .tc main_v347)) (constantI S_ 32 1024#32) := by
  simp only [it18G, List.cons_append, List.nil_append]
  after_results_simp
  try simp only [cast_eq]
  rfl

set_option maxRecDepth 65536 in
set_option maxHeartbeats 1000000 in
theorem it18H_val (V : Valuation τ sig (Elt F)) :
    after (it18H (F := F)) V (Proc.devRef (τ := τ) .tc main_v349) = RefFns.takeF (V (Proc.devRef (τ := τ) .tc main_v7)) (V (Proc.devRef (τ := τ) .tc main_v348)) := by
  simp only [it18H, List.cons_append, List.nil_append]
  after_results_simp
  try simp only [cast_eq]
  rfl

theorem it18A_writes : (it18A (F := F)).Forall fun op => op.writes ⊆ (it18_W.map (Proc.devRef (τ := τ) .tc)).toFinset :=
  ⟨wsub main_v332 (by decide), wsub main_v333 (by decide), wsub main_v334 (by decide)⟩

theorem it18B_writes : (it18B (F := F)).Forall fun op => op.writes ⊆ (it18_W.map (Proc.devRef (τ := τ) .tc)).toFinset :=
  ⟨wsub (main_call108.v0.ref) (by decide), wsub (main_call108.call0.c.ref) (by decide), wsub (main_call108.call0.v0.ref) (by decide), wsub (main_call108.call0.v1.ref) (by decide)⟩

theorem it18C_writes : (it18C (F := F)).Forall fun op => op.writes ⊆ (it18_W.map (Proc.devRef (τ := τ) .tc)).toFinset :=
  ⟨wsub main_c_126 (by decide), wsub main_v336 (by decide), wsub main_c_127 (by decide), wsub (main_call109.v0.ref) (by decide), wsub (main_call109.v1.ref) (by decide), wsub (main_call109.v2.ref) (by decide), wsub main_c_128 (by decide), wsub main_v338 (by decide), wsub main_v339 (by decide), wsub main_c_129 (by decide), wsub main_v340 (by decide), wsub main_v341 (by decide), wsub main_v342 (by decide), wsub main_v343 (by decide), wsub main_c_130 (by decide), wsub main_v344 (by decide), wsub main_v345 (by decide)⟩

theorem it18D_writes : (it18D (F := F)).Forall fun op => op.writes ⊆ (it18_W.map (Proc.devRef (τ := τ) .tc)).toFinset :=
  ⟨wsub (main_call110.call0.c.ref) (by decide), wsub (main_call110.call0.v0.ref) (by decide), wsub (main_call110.call0.v1.ref) (by decide)⟩

theorem it18Ea_writes : (it18Ea (F := F)).Forall fun op => op.writes ⊆ (it18_W.map (Proc.devRef (τ := τ) .tc)).toFinset :=
  wsub main_c_131 (by decide)

theorem it18Eb_writes : (it18Eb (F := F)).Forall fun op => op.writes ⊆ (it18_W.map (Proc.devRef (τ := τ) .tc)).toFinset :=
  ⟨wsub (main_call111.v0.ref) (by decide), wsub (main_call111.v1.ref) (by decide), wsub (main_call111.v2.ref) (by decide), wsub (main_call111.v3.ref) (by decide), wsub (main_call111.v4.ref) (by decide), wsub (main_call111.v5.ref) (by decide), wsub (main_call111.v6.ref) (by decide), wsub (main_call111.v7.ref) (by decide), wsub (main_call111.c.ref) (by decide), wsub (main_call111.v8.ref) (by decide), wsub (main_call111.v9.ref) (by decide), wsub (main_call111.v10.ref) (by decide), wsub (main_call111.c_0.ref) (by decide), wsub (main_call111.v11.ref) (by decide), wsub (main_call111.v12.ref) (by decide), wsub (main_call111.call0.v0.ref) (by decide)⟩

theorem it18G_writes : (it18G (F := F)).Forall fun op => op.writes ⊆ (it18_W.map (Proc.devRef (τ := τ) .tc)).toFinset :=
  ⟨wsub main_c_132 (by decide), wsub (main_call112.v0.ref) (by decide), wsub (main_call112.c.ref) (by decide), wsub (main_call112.v1.ref) (by decide), wsub (main_call112.c_0.ref) (by decide), wsub (main_call112.call0.v0.ref) (by decide), wsub (main_call112.v3.ref) (by decide), wsub (main_call112.v4.ref) (by decide), wsub (main_call112.c_1.ref) (by decide), wsub (main_call112.v5.ref) (by decide), wsub (main_call112.v6.ref) (by decide), wsub (main_call112.c_2.ref) (by decide), wsub (main_call112.v7.ref) (by decide), wsub (main_call112.v8.ref) (by decide), wsub (main_call112.c_3.ref) (by decide), wsub (main_call112.v9.ref) (by decide), wsub (main_call112.v10.ref) (by decide), wsub (main_call112.v11.ref) (by decide), wsub (main_call112.v12.ref) (by decide), wsub (main_call112.v13.ref) (by decide), wsub (main_call112.v14.ref) (by decide), wsub (main_call112.v15.ref) (by decide)⟩

theorem it18H_writes : (it18H (F := F)).Forall fun op => op.writes ⊆ (it18_W.map (Proc.devRef (τ := τ) .tc)).toFinset :=
  ⟨wsub (main_call113.c.ref) (by decide), wsub (main_call113.v0.ref) (by decide), wsub (main_call113.v1.ref) (by decide), wsub (main_call113.c_0.ref) (by decide), wsub (main_call113.v2.ref) (by decide), wsub (main_call113.v3.ref) (by decide), wsub (main_call113.call0.v0.ref) (by decide), wsub (main_call113.v5.ref) (by decide), wsub (main_call113.c_1.ref) (by decide), wsub (main_call113.c_2.ref) (by decide), wsub (main_call113.v6.ref) (by decide), wsub (main_call113.v7.ref) (by decide), wsub (main_call113.v8.ref) (by decide), wsub (main_call113.v9.ref) (by decide), wsub (main_call113.v10.ref) (by decide), wsub (main_call113.v11.ref) (by decide), wsub (main_call113.c_3.ref) (by decide), wsub (main_call113.v12.ref) (by decide), wsub (main_call113.v13.ref) (by decide), wsub (main_call113.v14.ref) (by decide), wsub (main_call113.cst.ref) (by decide), wsub (main_call113.v15.ref) (by decide), wsub (main_call113.v16.ref) (by decide)⟩

theorem it18hd_writes : (it18hd (F := F)).Forall fun op => op.writes ⊆ (it18_W.map (Proc.devRef (τ := τ) .tc)).toFinset :=
  forall_append it18A_writes (forall_append it18B_writes (forall_append it18C_writes (forall_append it18D_writes (forall_append (forall_append it18Ea_writes it18Eb_writes) it18G_writes))))

theorem it18_writes : (it18 (F := F)).Forall fun op => op.writes ⊆ (it18_W.map (Proc.devRef (τ := τ) .tc)).toFinset :=
  forall_append it18hd_writes (it18H_writes)

/-- The iteration leaves every buffer it does not write as it was. -/
theorem it18_keep (V : Valuation τ sig (Elt F)) (r : Ref sig .tc) (hr : r ∉ it18_W) :
    after (it18 (F := F)) V (Proc.devRef (τ := τ) .tc r) = V (Proc.devRef (τ := τ) .tc r) :=
  after_of_writes_sub it18 V it18_writes hr

theorem it18hd_keep (V : Valuation τ sig (Elt F)) (r : Ref sig .tc) (hr : r ∉ it18_W) :
    after (it18hd (F := F)) V (Proc.devRef (τ := τ) .tc r) = V (Proc.devRef (τ := τ) .tc r) :=
  after_of_writes_sub it18hd V it18hd_writes hr

/-- The iteration's result: the rows of the matrix it is handed at the compacted indices of its mask. -/
theorem it18_res (V : Valuation τ sig (Elt F)) :
    after (it18 (F := F)) V (Proc.devRef (τ := τ) .tc main_v349) = RefFns.nzTake (V (Proc.devRef (τ := τ) .tc main_v7)) (RefFns.colMask (V (Proc.devRef (τ := τ) .tc main_v1)) 18 slices_S1024x32x1_S1024x1x1_0_18_0) := by
  rw [it18, after_append, it18H_val, it18hd_keep V main_v7 (by decide), it18hd]
  simp only [after_append]
  rw [it18G_val, it18E_val, it18D_val, it18C_val, it18B_val, it18A_val]
  rfl

set_option maxRecDepth 65536 in
set_option maxHeartbeats 4000000 in
/-- The invariant of the run survives the iteration, with its block added. -/
theorem it18_step {x : FVec F S1x32x1024 .f32} {V : Valuation τ sig (Elt F)} (hg : Good 18 x V) : Good 19 x (after (it18 (F := F)) V) :=
  good_step 18 (by decide) it18 it18_W slices_S1024x32x1_S1024x1x1_0_18_0 it18_keep it18_res (fun _ => rfl) (by decide +kernel) (by decide +kernel) (by decide +kernel) (by decide +kernel) hg

end Cert.ReferenceIdeal.HandRun

end
-- ==== Proof.RefOpsIt19.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 8 of @main). -/
noncomputable def it19A : List (HloOp τ sig (Elt F)) :=
  [ StableHlo.unary main_v1 main_v350 ((extractStridedSlice S1024x1x1 ![0, 19, 0] · slices_S1024x32x1_S1024x1x1_0_19_0) : (⟨S1024x32x1, .i1⟩ : BufTy).Contents (Elt F) → (⟨S1024x1x1, .i1⟩ : BufTy).Contents (Elt F)),
    StableHlo.reshape main_v350 main_v351 rfl shapeCasts_S1024x1x1_S1024,
    StableHlo.unary main_v351 main_v352 (noti : (⟨S1024, .i1⟩ : BufTy).Contents (Elt F) → (⟨S1024, .i1⟩ : BufTy).Contents (Elt F)) ]

theorem it19A_sub : (it19A (F := F)).Forall fun op => op.bufs ⊆ tcRefs τ sig :=
  ⟨unary_bufs_sub .., reshape_bufs_sub .., unary_bufs_sub ..⟩

theorem it19A_fresh : (it19A (F := F)).Forall fun op => op.fresh = ∅ :=
  ⟨rfl, rfl, rfl⟩

/-- A piece of this stretch (window 8 of @main). -/
noncomputable def it19B : List (HloOp τ sig (Elt F)) :=
  [ StableHlo.TRef.unary (.of main_v352 : StableHlo.TRef sig ⟨S1024, .i1⟩) main_call114.v0 (extui 32 · natLt_1_32),
    StableHlo.TRef.nullary main_call114.call0.c (constantI S_ 32 0#32),
    StableHlo.TRef.unary main_call114.call0.c main_call114.call0.v0 (broadcastInDim S_ ![] bcast_S_S_),
    StableHlo.TRef.binary main_call114.v0 main_call114.call0.v0 main_call114.call0.v1 (fun x v => Host.reduceWindow IntOp.addi ![1024] ![1] ![1023] ![0] x v reduceWindows_S1024_S1024_w1024s1p1023_0 h_S_) ]

theorem it19B_sub : (it19B (F := F)).Forall fun op => op.bufs ⊆ tcRefs τ sig :=
  ⟨unary_bufs_sub .., nullary_bufs_sub .., unary_bufs_sub .., binary_bufs_sub ..⟩

theorem it19B_fresh : (it19B (F := F)).Forall fun op => op.fresh = ∅ :=
  ⟨rfl, rfl, rfl, rfl⟩

/-- A piece of this stretch (window 8 of @main). -/
noncomputable def it19C : List (HloOp τ sig (Elt F)) :=
  [ StableHlo.nullary main_c_133 (constantI S_ 32 0#32),
    StableHlo.unary main_c_133 main_v354 (broadcastInDim S1024 ![] bcast_S_S1024 : (⟨S_, .i32⟩ : BufTy).Contents (Elt F) → (⟨S1024, .i32⟩ : BufTy).Contents (Elt F)),
    StableHlo.nullary main_c_134 (constantI S_ 32 0#32),
    StableHlo.TRef.unary (.of main_c_134 : StableHlo.TRef sig ⟨S_, .i32⟩) main_call115.v0 id,
    StableHlo.TRef.unary main_call115.v0 main_call115.v1 (broadcastInDim S1024 ![] bcast_S_S1024),
    StableHlo.TRef.binary main_call115.v1 (.of main_v353 : StableHlo.TRef sig ⟨S1024, .i32⟩) main_call115.v2 maxsi,
    StableHlo.nullary main_c_135 (constantI S_ 32 0#32),
    StableHlo.unary main_c_135 main_v356 (broadcastInDim S1024 ![] bcast_S_S1024 : (⟨S_, .i32⟩ : BufTy).Contents (Elt F) → (⟨S1024, .i32⟩ : BufTy).Contents (Elt F)),
    StableHlo.binary main_v355 main_v356 main_v357 (cmpi .slt : (⟨S1024, .i32⟩ : BufTy).Contents (Elt F) → (⟨S1024, .i32⟩ : BufTy).Contents (Elt F) → (⟨S1024, .i1⟩ : BufTy).Contents (Elt F)),
    StableHlo.nullary main_c_136 (constantI S_ 32 1024#32),
    StableHlo.unary main_c_136 main_v358 (broadcastInDim S1024 ![] bcast_S_S1024 : (⟨S_, .i32⟩ : BufTy).Contents (Elt F) → (⟨S1024, .i32⟩ : BufTy).Contents (Elt F)),
    StableHlo.binary main_v355 main_v358 main_v359 (addi : (⟨S1024, .i32⟩ : BufTy).Contents (Elt F) → (⟨S1024, .i32⟩ : BufTy).Contents (Elt F) → (⟨S1024, .i32⟩ : BufTy).Contents (Elt F)),
    StableHlo.ternary main_v357 main_v359 main_v355 main_v360 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v360 main_v361 (broadcastInDim S1024x1 ![0] bcast_S1024_S1024x1_0 : (⟨S1024, .i32⟩ : BufTy).Contents (Elt F) → (⟨S1024x1, .i32⟩ : BufTy).Contents (Elt F)),
    StableHlo.nullary main_c_137 (constantI S_ 32 1#32),
    StableHlo.unary main_c_137 main_v362 (broadcastInDim S1024 ![] bcast_S_S1024 : (⟨S_, .i32⟩ : BufTy).Contents (Elt F) → (⟨S1024, .i32⟩ : BufTy).Contents (Elt F)),
    StableHlo.ternary main_v354 main_v361 main_v362 main_v363 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it19C_sub : (it19C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it19C_fresh : (it19C (F := F)).Forall fun op => op.fresh = ∅ :=
  ⟨rfl, rfl, rfl, rfl, rfl, rfl, rfl, rfl, rfl, rfl, rfl, rfl, rfl, rfl, rfl, rfl, rfl⟩

/-- A piece of this stretch (window 8 of @main). -/
noncomputable def it19D : List (HloOp τ sig (Elt F)) :=
  [ StableHlo.TRef.nullary main_call116.call0.c (constantI S_ 32 0#32),
    StableHlo.TRef.unary main_call116.call0.c main_call116.call0.v0 (broadcastInDim S_ ![] bcast_S_S_),
    StableHlo.TRef.binary (.of main_v363 : StableHlo.TRef sig ⟨S1024, .i32⟩) main_call116.call0.v0 main_call116.call0.v1 (fun x v => Host.reduceWindow IntOp.addi ![1024] ![1] ![1023] ![0] x v reduceWindows_S1024_S1024_w1024s1p1023_0 h_S_) ]

theorem it19D_sub : (it19D (F := F)).Forall fun op => op.bufs ⊆ tcRefs τ sig :=
  ⟨nullary_bufs_sub .., unary_bufs_sub .., binary_bufs_sub ..⟩

theorem it19D_fresh : (it19D (F := F)).Forall fun op => op.fresh = ∅ :=
  ⟨rfl, rfl, rfl⟩

/-- A piece of this stretch (window 8 of @main). -/
noncomputable def it19E : List (HloOp τ sig (Elt F)) :=
  [ StableHlo.nullary main_c_138 (constantI S_ 32 1#32),
    StableHlo.TRef.unary (.of main_c_138 : StableHlo.TRef sig ⟨S_, .i32⟩) main_call117.v0 (broadcastInDim S1024 ![] bcast_S_S1024),
    StableHlo.TRef.binary (.of main_v364 : StableHlo.TRef sig ⟨S1024, .i32⟩) main_call117.v0 main_call117.v1 Host.divsi,
    StableHlo.TRef.unary (.of main_v364 : StableHlo.TRef sig ⟨S1024, .i32⟩) main_call117.v2 signi,
    StableHlo.TRef.unary (.of main_c_138 : StableHlo.TRef sig ⟨S_, .i32⟩) main_call117.v3 signi,
    StableHlo.TRef.unary main_call117.v3 main_call117.v4 (broadcastInDim S1024 ![] bcast_S_S1024),
    StableHlo.TRef.binary main_call117.v2 main_call117.v4 main_call117.v5 (cmpi .ne),
    StableHlo.TRef.unary (.of main_c_138 : StableHlo.TRef sig ⟨S_, .i32⟩) main_call117.v6 (broadcastInDim S1024 ![] bcast_S_S1024),
    StableHlo.TRef.binary (.of main_v364 : StableHlo.TRef sig ⟨S1024, .i32⟩) main_call117.v6 main_call117.v7 Host.remsi,
    StableHlo.TRef.nullary main_call117.c (constantI S_ 32 0#32),
    StableHlo.TRef.unary main_call117.c main_call117.v8 (broadcastInDim S1024 ![] bcast_S_S1024),
    StableHlo.TRef.binary main_call117.v7 main_call117.v8 main_call117.v9 (cmpi .ne),
    StableHlo.TRef.binary main_call117.v5 main_call117.v9 main_call117.v10 andi,
    StableHlo.TRef.nullary main_call117.c_0 (constantI S_ 32 1#32),
    StableHlo.TRef.unary main_call117.c_0 main_call117.v11 (broadcastInDim S1024 ![] bcast_S_S1024),
    StableHlo.TRef.binary main_call117.v1 main_call117.v11 main_call117.v12 subi,
    StableHlo.TRef.ternary main_call117.v10 main_call117.v12 main_call117.v1 main_call117.call0.v0 select ]

theorem it19E_sub : (it19E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it19E_fresh : (it19E (F := F)).Forall fun op => op.fresh = ∅ :=
  ⟨rfl, rfl, rfl, rfl, rfl, rfl, rfl, rfl, rfl, rfl, rfl, rfl, rfl, rfl, rfl, rfl, rfl⟩

/-- A piece of this stretch (window 8 of @main). -/
noncomputable def it19G : List (HloOp τ sig (Elt F)) :=
  [ StableHlo.nullary main_c_139 (constantI S_ 32 1024#32),
    StableHlo.TRef.unary (.of main_c_139 : StableHlo.TRef sig ⟨S_, .i32⟩) main_call118.v0 id,
    StableHlo.TRef.nullary main_call118.c (constantI S_ 32 0#32),
    StableHlo.TRef.binary main_call118.v0 main_call118.c main_call118.v1 (cmpi .eq),
    StableHlo.TRef.nullary main_call118.c_0 (constantI S_ 32 1#32),
    StableHlo.TRef.ternary main_call118.v1 main_call118.c_0 main_call118.v0 main_call118.call0.v0 select,
    StableHlo.TRef.unary main_call118.call0.v0 main_call118.v3 (broadcastInDim S1024 ![] bcast_S_S1024),
    StableHlo.TRef.binary (.of main_v365 : StableHlo.TRef sig ⟨S1024, .i32⟩) main_call118.v3 main_call118.v4 Host.remsi,
    StableHlo.TRef.nullary main_call118.c_1 (constantI S_ 32 0#32),
    StableHlo.TRef.unary main_call118.c_1 main_call118.v5 (broadcastInDim S1024 ![] bcast_S_S1024),
    StableHlo.TRef.binary main_call118.v4 main_call118.v5 main_call118.v6 (cmpi .ne),
    StableHlo.TRef.nullary main_call118.c_2 (constantI S_ 32 0#32),
    StableHlo.TRef.unary main_call118.c_2 main_call118.v7 (broadcastInDim S1024 ![] bcast_S_S1024),
    StableHlo.TRef.binary main_call118.v4 main_call118.v7 main_call118.v8 (cmpi .slt),
    StableHlo.TRef.nullary main_call118.c_3 (constantI S_ 32 0#32),
    StableHlo.TRef.binary main_call118.call0.v0 main_call118.c_3 main_call118.v9 (cmpi .slt),
    StableHlo.TRef.unary main_call118.v9 main_call118.v10 (broadcastInDim S1024 ![] bcast_S_S1024),
    StableHlo.TRef.binary main_call118.v8 main_call118.v10 main_call118.v11 (cmpi .ne),
    StableHlo.TRef.binary main_call118.v11 main_call118.v6 main_call118.v12 andi,
    StableHlo.TRef.unary main_call118.call0.v0 main_call118.v13 (broadcastInDim S1024 ![] bcast_S_S1024),
    StableHlo.TRef.binary main_call118.v4 main_call118.v13 main_call118.v14 addi,
    StableHlo.TRef.ternary main_call118.v12 main_call118.v14 main_call118.v4 main_call118.v15 select ]

theorem it19G_sub : (it19G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it19G_fresh : (it19G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 8 of @main). -/
noncomputable def it19H : List (HloOp τ sig (Elt F)) :=
  [ StableHlo.TRef.nullary main_call119.c (constantI S_ 32 0#32),
    StableHlo.TRef.unary main_call119.c main_call119.v0 (broadcastInDim S1024 ![] bcast_S_S1024),
    StableHlo.TRef.binary (.of main_v366 : StableHlo.TRef sig ⟨S1024, .i32⟩) main_call119.v0 main_call119.v1 (cmpi .slt),
    StableHlo.TRef.nullary main_call119.c_0 (constantI S_ 32 1024#32),
    StableHlo.TRef.unary main_call119.c_0 main_call119.v2 (broadcastInDim S1024 ![] bcast_S_S1024),
    StableHlo.TRef.binary (.of main_v366 : StableHlo.TRef sig ⟨S1024, .i32⟩) main_call119.v2 main_call119.v3 addi,
    StableHlo.TRef.ternary main_call119.v1 main_call119.v3 (.of main_v366 : StableHlo.TRef sig ⟨S1024, .i32⟩) main_call119.call0.v0 select,
    StableHlo.TRef.unary main_call119.call0.v0 main_call119.v5 (broadcastInDim S1024x1 ![0] bcast_S1024_S1024x1_0),
    StableHlo.TRef.nullary main_call119.c_1 (constantI S1 32 1023#32),
    StableHlo.TRef.nullary main_call119.c_2 (constantI S_ 32 0#32),
    StableHlo.TRef.unary main_call119.c_2 main_call119.v6 (broadcastInDim S1024x1 ![] bcast_S_S1024x1),
    StableHlo.TRef.binary main_call119.v5 main_call119.v6 main_call119.v7 (cmpi .sge),
    StableHlo.TRef.unary main_call119.c_1 main_call119.v8 (broadcastInDim S1x1 ![1] bcast_S1_S1x1_1),
    StableHlo.TRef.unary main_call119.v8 main_call119.v9 (broadcastInDim S1024x1 ![0, 1] bcast_S1x1_S1024x1_0_1),
    StableHlo.TRef.binary main_call119.v5 main_call119.v9 main_call119.v10 (cmpi .sle),
    StableHlo.TRef.binary main_call119.v7 main_call119.v10 main_call119.v11 andi,
    StableHlo.TRef.nullary main_call119.c_3 (constantI S_ 1 1#1),
    StableHlo.TRef.binary main_call119.v11 main_call119.c_3 main_call119.v12 (fun x v => Host.reduce IntOp.andi x v reducesTo_S1024x1_S1024_d1 h_S_),
    StableHlo.TRef.binary (.of main_v7 : StableHlo.TRef sig ⟨S1024x1024, .f32⟩) main_call119.v5 main_call119.v13 (fun x i => Host.gather gather_S1024x1024_S1024x1_S1024x1024_1_0_n_n_0_1_11024 x i),
    StableHlo.TRef.unary main_call119.v12 main_call119.v14 (broadcastInDim S1024x1024 ![0] bcast_S1024_S1024x1024_0),
    StableHlo.TRef.nullary main_call119.cst (constant S_ .f32 0x7FC00000#32),
    StableHlo.TRef.unary main_call119.cst main_call119.v15 (broadcastInDim S1024x1024 ![] bcast_S_S1024x1024),
    StableHlo.TRef.ternary main_call119.v14 main_call119.v13 main_call119.v15 main_call119.v16 select ]

theorem it19H_sub : (it19H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it19H_fresh : (it19H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it19_W : List (Ref sig .tc) :=
  [main_v350, main_v351, main_v352, (main_call114.v0.ref), (main_call114.call0.c.ref), (main_call114.call0.v0.ref), (main_call114.call0.v1.ref), main_c_133, main_v354, main_c_134, (main_call115.v0.ref), (main_call115.v1.ref), (main_call115.v2.ref), main_c_135, main_v356, main_v357, main_c_136, main_v358, main_v359, main_v360, main_v361, main_c_137, main_v362, main_v363, (main_call116.call0.c.ref), (main_call116.call0.v0.ref), (main_call116.call0.v1.ref), main_c_138, (main_call117.v0.ref), (main_call117.v1.ref), (main_call117.v2.ref), (main_call117.v3.ref), (main_call117.v4.ref), (main_call117.v5.ref), (main_call117.v6.ref), (main_call117.v7.ref), (main_call117.c.ref), (main_call117.v8.ref), (main_call117.v9.ref), (main_call117.v10.ref), (main_call117.c_0.ref), (main_call117.v11.ref), (main_call117.v12.ref), (main_call117.call0.v0.ref), main_c_139, (main_call118.v0.ref), (main_call118.c.ref), (main_call118.v1.ref), (main_call118.c_0.ref), (main_call118.call0.v0.ref), (main_call118.v3.ref), (main_call118.v4.ref), (main_call118.c_1.ref), (main_call118.v5.ref), (main_call118.v6.ref), (main_call118.c_2.ref), (main_call118.v7.ref), (main_call118.v8.ref), (main_call118.c_3.ref), (main_call118.v9.ref), (main_call118.v10.ref), (main_call118.v11.ref), (main_call118.v12.ref), (main_call118.v13.ref), (main_call118.v14.ref), (main_call118.v15.ref), (main_call119.c.ref), (main_call119.v0.ref), (main_call119.v1.ref), (main_call119.c_0.ref), (main_call119.v2.ref), (main_call119.v3.ref), (main_call119.call0.v0.ref), (main_call119.v5.ref), (main_call119.c_1.ref), (main_call119.c_2.ref), (main_call119.v6.ref), (main_call119.v7.ref), (main_call119.v8.ref), (main_call119.v9.ref), (main_call119.v10.ref), (main_call119.v11.ref), (main_call119.c_3.ref), (main_call119.v12.ref), (main_call119.v13.ref), (main_call119.v14.ref), (main_call119.cst.ref), (main_call119.v15.ref), (main_call119.v16.ref)]

/-- The iteration up to the row lookup. -/
noncomputable def it19hd : List (HloOp τ sig (Elt F)) := it19A ++ (it19B ++ (it19C ++ (it19D ++ (it19E ++ it19G))))

/-- The iteration. -/
noncomputable def it19 : List (HloOp τ sig (Elt F)) := it19hd ++ it19H
theorem it19_sub : (it19 (F := F)).Forall fun op => op.bufs ⊆ tcRefs τ sig :=
  forall_append (forall_append it19A_sub (forall_append it19B_sub (forall_append it19C_sub (forall_append it19D_sub (forall_append it19E_sub it19G_sub))))) it19H_sub
theorem it19_fresh : (it19 (F := F)).Forall fun op => op.fresh = ∅ :=
  forall_append (forall_append it19A_fresh (forall_append it19B_fresh (forall_append it19C_fresh (forall_append it19D_fresh (forall_append it19E_fresh it19G_fresh))))) it19H_fresh

/-- The iteration as the concatenation of its pieces. -/
theorem it19_atoms : it19 (F := F) = it19A ++ (it19B ++ (it19C ++ (it19D ++ (it19E ++ (it19G ++ it19H))))) := by
  simp only [it19, it19hd, List.append_assoc]

end Cert.ReferenceIdeal.HandRun

end
-- ==== Proof.RefIt19.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt19

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it19A_val (V : Valuation τ sig (Elt F)) :
    after (it19A (F := F)) V (Proc.devRef (τ := τ) .tc main_v352) = RefFns.colMask (V (Proc.devRef (τ := τ) .tc main_v1)) 19 slices_S1024x32x1_S1024x1x1_0_19_0 := by
  simp only [it19A, List.cons_append, List.nil_append]
  after_results_simp
  try simp only [cast_eq]
  rfl

set_option maxRecDepth 65536 in
set_option maxHeartbeats 1000000 in
theorem it19B_val (V : Valuation τ sig (Elt F)) :
    after (it19B (F := F)) V (Proc.devRef (τ := τ) .tc main_v353) = RefFns.cumsumF (V (Proc.devRef (τ := τ) .tc main_v352)) := by
  simp only [it19B, List.cons_append, List.nil_append]
  after_results_simp
  try simp only [cast_eq]
  rfl

set_option maxRecDepth 65536 in
set_option maxHeartbeats 1000000 in
theorem it19C_val (V : Valuation τ sig (Elt F)) :
    after (it19C (F := F)) V (Proc.devRef (τ := τ) .tc main_v363) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v353)) (constantI S_ 32 0#32)) (broadcastInDim S1024 ![] bcast_S_S1024 (constantI S_ 32 0#32))) (addi (RefFns.clipF (V (Proc.devRef (τ := τ) .tc main_v353)) (constantI S_ 32 0#32)) (broadcastInDim S1024 ![] bcast_S_S1024 (constantI S_ 32 1024#32))) (RefFns.clipF (V (Proc.devRef (τ := τ) .tc main_v353)) (constantI S_ 32 0#32)))) (broadcastInDim S1024 ![] bcast_S_S1024 (constantI S_ 32 1#32)) := by
  simp only [it19C, List.cons_append, List.nil_append]
  after_results_simp
  try simp only [cast_eq]
  rfl

set_option maxRecDepth 65536 in
set_option maxHeartbeats 1000000 in
theorem it19D_val (V : Valuation τ sig (Elt F)) :
    after (it19D (F := F)) V (Proc.devRef (τ := τ) .tc main_v364) = RefFns.cumsum1F (V (Proc.devRef (τ := τ) .tc main_v363)) := by
  simp only [it19D, List.cons_append, List.nil_append]
  after_results_simp
  try simp only [cast_eq]
  rfl

set_option maxRecDepth 65536 in
set_option maxHeartbeats 1000000 in
theorem it19E_val (V : Valuation τ sig (Elt F)) :
    after (it19E (F := F)) V (Proc.devRef (τ := τ) .tc main_v365) = RefFns.floorDivF (V (Proc.devRef (τ := τ) .tc main_v364)) (constantI S_ 32 1#32) := by
  simp only [it19E, List.cons_append, List.nil_append]
  after_results_simp
  try simp only [cast_eq]
  rfl

set_option maxRecDepth 65536 in
set_option maxHeartbeats 1000000 in
theorem it19G_val (V : Valuation τ sig (Elt F)) :
    after (it19G (F := F)) V (Proc.devRef (τ := τ) .tc main_v366) = RefFns.remainderF (V (Proc.devRef (τ := τ) .tc main_v365)) (constantI S_ 32 1024#32) := by
  simp only [it19G, List.cons_append, List.nil_append]
  after_results_simp
  try simp only [cast_eq]
  rfl

set_option maxRecDepth 65536 in
set_option maxHeartbeats 1000000 in
theorem it19H_val (V : Valuation τ sig (Elt F)) :
    after (it19H (F := F)) V (Proc.devRef (τ := τ) .tc main_v367) = RefFns.takeF (V (Proc.devRef (τ := τ) .tc main_v7)) (V (Proc.devRef (τ := τ) .tc main_v366)) := by
  simp only [it19H, List.cons_append, List.nil_append]
  after_results_simp
  try simp only [cast_eq]
  rfl

theorem it19A_writes : (it19A (F := F)).Forall fun op => op.writes ⊆ (it19_W.map (Proc.devRef (τ := τ) .tc)).toFinset :=
  ⟨wsub main_v350 (by decide), wsub main_v351 (by decide), wsub main_v352 (by decide)⟩

theorem it19B_writes : (it19B (F := F)).Forall fun op => op.writes ⊆ (it19_W.map (Proc.devRef (τ := τ) .tc)).toFinset :=
  ⟨wsub (main_call114.v0.ref) (by decide), wsub (main_call114.call0.c.ref) (by decide), wsub (main_call114.call0.v0.ref) (by decide), wsub (main_call114.call0.v1.ref) (by decide)⟩

theorem it19C_writes : (it19C (F := F)).Forall fun op => op.writes ⊆ (it19_W.map (Proc.devRef (τ := τ) .tc)).toFinset :=
  ⟨wsub main_c_133 (by decide), wsub main_v354 (by decide), wsub main_c_134 (by decide), wsub (main_call115.v0.ref) (by decide), wsub (main_call115.v1.ref) (by decide), wsub (main_call115.v2.ref) (by decide), wsub main_c_135 (by decide), wsub main_v356 (by decide), wsub main_v357 (by decide), wsub main_c_136 (by decide), wsub main_v358 (by decide), wsub main_v359 (by decide), wsub main_v360 (by decide), wsub main_v361 (by decide), wsub main_c_137 (by decide), wsub main_v362 (by decide), wsub main_v363 (by decide)⟩

theorem it19D_writes : (it19D (F := F)).Forall fun op => op.writes ⊆ (it19_W.map (Proc.devRef (τ := τ) .tc)).toFinset :=
  ⟨wsub (main_call116.call0.c.ref) (by decide), wsub (main_call116.call0.v0.ref) (by decide), wsub (main_call116.call0.v1.ref) (by decide)⟩

theorem it19E_writes : (it19E (F := F)).Forall fun op => op.writes ⊆ (it19_W.map (Proc.devRef (τ := τ) .tc)).toFinset :=
  ⟨wsub main_c_138 (by decide), wsub (main_call117.v0.ref) (by decide), wsub (main_call117.v1.ref) (by decide), wsub (main_call117.v2.ref) (by decide), wsub (main_call117.v3.ref) (by decide), wsub (main_call117.v4.ref) (by decide), wsub (main_call117.v5.ref) (by decide), wsub (main_call117.v6.ref) (by decide), wsub (main_call117.v7.ref) (by decide), wsub (main_call117.c.ref) (by decide), wsub (main_call117.v8.ref) (by decide), wsub (main_call117.v9.ref) (by decide), wsub (main_call117.v10.ref) (by decide), wsub (main_call117.c_0.ref) (by decide), wsub (main_call117.v11.ref) (by decide), wsub (main_call117.v12.ref) (by decide), wsub (main_call117.call0.v0.ref) (by decide)⟩

theorem it19G_writes : (it19G (F := F)).Forall fun op => op.writes ⊆ (it19_W.map (Proc.devRef (τ := τ) .tc)).toFinset :=
  ⟨wsub main_c_139 (by decide), wsub (main_call118.v0.ref) (by decide), wsub (main_call118.c.ref) (by decide), wsub (main_call118.v1.ref) (by decide), wsub (main_call118.c_0.ref) (by decide), wsub (main_call118.call0.v0.ref) (by decide), wsub (main_call118.v3.ref) (by decide), wsub (main_call118.v4.ref) (by decide), wsub (main_call118.c_1.ref) (by decide), wsub (main_call118.v5.ref) (by decide), wsub (main_call118.v6.ref) (by decide), wsub (main_call118.c_2.ref) (by decide), wsub (main_call118.v7.ref) (by decide), wsub (main_call118.v8.ref) (by decide), wsub (main_call118.c_3.ref) (by decide), wsub (main_call118.v9.ref) (by decide), wsub (main_call118.v10.ref) (by decide), wsub (main_call118.v11.ref) (by decide), wsub (main_call118.v12.ref) (by decide), wsub (main_call118.v13.ref) (by decide), wsub (main_call118.v14.ref) (by decide), wsub (main_call118.v15.ref) (by decide)⟩

theorem it19H_writes : (it19H (F := F)).Forall fun op => op.writes ⊆ (it19_W.map (Proc.devRef (τ := τ) .tc)).toFinset :=
  ⟨wsub (main_call119.c.ref) (by decide), wsub (main_call119.v0.ref) (by decide), wsub (main_call119.v1.ref) (by decide), wsub (main_call119.c_0.ref) (by decide), wsub (main_call119.v2.ref) (by decide), wsub (main_call119.v3.ref) (by decide), wsub (main_call119.call0.v0.ref) (by decide), wsub (main_call119.v5.ref) (by decide), wsub (main_call119.c_1.ref) (by decide), wsub (main_call119.c_2.ref) (by decide), wsub (main_call119.v6.ref) (by decide), wsub (main_call119.v7.ref) (by decide), wsub (main_call119.v8.ref) (by decide), wsub (main_call119.v9.ref) (by decide), wsub (main_call119.v10.ref) (by decide), wsub (main_call119.v11.ref) (by decide), wsub (main_call119.c_3.ref) (by decide), wsub (main_call119.v12.ref) (by decide), wsub (main_call119.v13.ref) (by decide), wsub (main_call119.v14.ref) (by decide), wsub (main_call119.cst.ref) (by decide), wsub (main_call119.v15.ref) (by decide), wsub (main_call119.v16.ref) (by decide)⟩

theorem it19hd_writes : (it19hd (F := F)).Forall fun op => op.writes ⊆ (it19_W.map (Proc.devRef (τ := τ) .tc)).toFinset :=
  forall_append it19A_writes (forall_append it19B_writes (forall_append it19C_writes (forall_append it19D_writes (forall_append it19E_writes it19G_writes))))

theorem it19_writes : (it19 (F := F)).Forall fun op => op.writes ⊆ (it19_W.map (Proc.devRef (τ := τ) .tc)).toFinset :=
  forall_append it19hd_writes (it19H_writes)

/-- The iteration leaves every buffer it does not write as it was. -/
theorem it19_keep (V : Valuation τ sig (Elt F)) (r : Ref sig .tc) (hr : r ∉ it19_W) :
    after (it19 (F := F)) V (Proc.devRef (τ := τ) .tc r) = V (Proc.devRef (τ := τ) .tc r) :=
  after_of_writes_sub it19 V it19_writes hr

theorem it19hd_keep (V : Valuation τ sig (Elt F)) (r : Ref sig .tc) (hr : r ∉ it19_W) :
    after (it19hd (F := F)) V (Proc.devRef (τ := τ) .tc r) = V (Proc.devRef (τ := τ) .tc r) :=
  after_of_writes_sub it19hd V it19hd_writes hr

/-- The iteration's result: the rows of the matrix it is handed at the compacted indices of its mask. -/
theorem it19_res (V : Valuation τ sig (Elt F)) :
    after (it19 (F := F)) V (Proc.devRef (τ := τ) .tc main_v367) = RefFns.nzTake (V (Proc.devRef (τ := τ) .tc main_v7)) (RefFns.colMask (V (Proc.devRef (τ := τ) .tc main_v1)) 19 slices_S1024x32x1_S1024x1x1_0_19_0) := by
  rw [it19, after_append, it19H_val, it19hd_keep V main_v7 (by decide), it19hd]
  simp only [after_append]
  rw [it19G_val, it19E_val, it19D_val, it19C_val, it19B_val, it19A_val]
  rfl

set_option maxRecDepth 65536 in
set_option maxHeartbeats 4000000 in
/-- The invariant of the run survives the iteration, with its block added. -/
theorem it19_step {x : FVec F S1x32x1024 .f32} {V : Valuation τ sig (Elt F)} (hg : Good 19 x V) : Good 20 x (after (it19 (F := F)) V) :=
  good_step 19 (by decide) it19 it19_W slices_S1024x32x1_S1024x1x1_0_19_0 it19_keep it19_res (fun _ => rfl) (by decide +kernel) (by decide +kernel) (by decide +kernel) (by decide +kernel) hg

end Cert.ReferenceIdeal.HandRun

end
-- ==== Proof.RefOpsIt20.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 8 of @main). -/
noncomputable def it20A : List (HloOp τ sig (Elt F)) :=
  [ StableHlo.unary main_v1 main_v368 ((extractStridedSlice S1024x1x1 ![0, 20, 0] · slices_S1024x32x1_S1024x1x1_0_20_0) : (⟨S1024x32x1, .i1⟩ : BufTy).Contents (Elt F) → (⟨S1024x1x1, .i1⟩ : BufTy).Contents (Elt F)),
    StableHlo.reshape main_v368 main_v369 rfl shapeCasts_S1024x1x1_S1024,
    StableHlo.unary main_v369 main_v370 (noti : (⟨S1024, .i1⟩ : BufTy).Contents (Elt F) → (⟨S1024, .i1⟩ : BufTy).Contents (Elt F)) ]

theorem it20A_sub : (it20A (F := F)).Forall fun op => op.bufs ⊆ tcRefs τ sig :=
  ⟨unary_bufs_sub .., reshape_bufs_sub .., unary_bufs_sub ..⟩

theorem it20A_fresh : (it20A (F := F)).Forall fun op => op.fresh = ∅ :=
  ⟨rfl, rfl, rfl⟩

/-- A piece of this stretch (window 8 of @main). -/
noncomputable def it20B : List (HloOp τ sig (Elt F)) :=
  [ StableHlo.TRef.unary (.of main_v370 : StableHlo.TRef sig ⟨S1024, .i1⟩) main_call120.v0 (extui 32 · natLt_1_32),
    StableHlo.TRef.nullary main_call120.call0.c (constantI S_ 32 0#32),
    StableHlo.TRef.unary main_call120.call0.c main_call120.call0.v0 (broadcastInDim S_ ![] bcast_S_S_),
    StableHlo.TRef.binary main_call120.v0 main_call120.call0.v0 main_call120.call0.v1 (fun x v => Host.reduceWindow IntOp.addi ![1024] ![1] ![1023] ![0] x v reduceWindows_S1024_S1024_w1024s1p1023_0 h_S_) ]

theorem it20B_sub : (it20B (F := F)).Forall fun op => op.bufs ⊆ tcRefs τ sig :=
  ⟨unary_bufs_sub .., nullary_bufs_sub .., unary_bufs_sub .., binary_bufs_sub ..⟩

theorem it20B_fresh : (it20B (F := F)).Forall fun op => op.fresh = ∅ :=
  ⟨rfl, rfl, rfl, rfl⟩

/-- A piece of this stretch (window 8 of @main). -/
noncomputable def it20C : List (HloOp τ sig (Elt F)) :=
  [ StableHlo.nullary main_c_140 (constantI S_ 32 0#32),
    StableHlo.unary main_c_140 main_v372 (broadcastInDim S1024 ![] bcast_S_S1024 : (⟨S_, .i32⟩ : BufTy).Contents (Elt F) → (⟨S1024, .i32⟩ : BufTy).Contents (Elt F)),
    StableHlo.nullary main_c_141 (constantI S_ 32 0#32),
    StableHlo.TRef.unary (.of main_c_141 : StableHlo.TRef sig ⟨S_, .i32⟩) main_call121.v0 id,
    StableHlo.TRef.unary main_call121.v0 main_call121.v1 (broadcastInDim S1024 ![] bcast_S_S1024),
    StableHlo.TRef.binary main_call121.v1 (.of main_v371 : StableHlo.TRef sig ⟨S1024, .i32⟩) main_call121.v2 maxsi,
    StableHlo.nullary main_c_142 (constantI S_ 32 0#32),
    StableHlo.unary main_c_142 main_v374 (broadcastInDim S1024 ![] bcast_S_S1024 : (⟨S_, .i32⟩ : BufTy).Contents (Elt F) → (⟨S1024, .i32⟩ : BufTy).Contents (Elt F)),
    StableHlo.binary main_v373 main_v374 main_v375 (cmpi .slt : (⟨S1024, .i32⟩ : BufTy).Contents (Elt F) → (⟨S1024, .i32⟩ : BufTy).Contents (Elt F) → (⟨S1024, .i1⟩ : BufTy).Contents (Elt F)),
    StableHlo.nullary main_c_143 (constantI S_ 32 1024#32),
    StableHlo.unary main_c_143 main_v376 (broadcastInDim S1024 ![] bcast_S_S1024 : (⟨S_, .i32⟩ : BufTy).Contents (Elt F) → (⟨S1024, .i32⟩ : BufTy).Contents (Elt F)),
    StableHlo.binary main_v373 main_v376 main_v377 (addi : (⟨S1024, .i32⟩ : BufTy).Contents (Elt F) → (⟨S1024, .i32⟩ : BufTy).Contents (Elt F) → (⟨S1024, .i32⟩ : BufTy).Contents (Elt F)),
    StableHlo.ternary main_v375 main_v377 main_v373 main_v378 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v378 main_v379 (broadcastInDim S1024x1 ![0] bcast_S1024_S1024x1_0 : (⟨S1024, .i32⟩ : BufTy).Contents (Elt F) → (⟨S1024x1, .i32⟩ : BufTy).Contents (Elt F)),
    StableHlo.nullary main_c_144 (constantI S_ 32 1#32),
    StableHlo.unary main_c_144 main_v380 (broadcastInDim S1024 ![] bcast_S_S1024 : (⟨S_, .i32⟩ : BufTy).Contents (Elt F) → (⟨S1024, .i32⟩ : BufTy).Contents (Elt F)),
    StableHlo.ternary main_v372 main_v379 main_v380 main_v381 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it20C_sub : (it20C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it20C_fresh : (it20C (F := F)).Forall fun op => op.fresh = ∅ :=
  ⟨rfl, rfl, rfl, rfl, rfl, rfl, rfl, rfl, rfl, rfl, rfl, rfl, rfl, rfl, rfl, rfl, rfl⟩

/-- A piece of this stretch (window 8 of @main). -/
noncomputable def it20D : List (HloOp τ sig (Elt F)) :=
  [ StableHlo.TRef.nullary main_call122.call0.c (constantI S_ 32 0#32),
    StableHlo.TRef.unary main_call122.call0.c main_call122.call0.v0 (broadcastInDim S_ ![] bcast_S_S_),
    StableHlo.TRef.binary (.of main_v381 : StableHlo.TRef sig ⟨S1024, .i32⟩) main_call122.call0.v0 main_call122.call0.v1 (fun x v => Host.reduceWindow IntOp.addi ![1024] ![1] ![1023] ![0] x v reduceWindows_S1024_S1024_w1024s1p1023_0 h_S_) ]

theorem it20D_sub : (it20D (F := F)).Forall fun op => op.bufs ⊆ tcRefs τ sig :=
  ⟨nullary_bufs_sub .., unary_bufs_sub .., binary_bufs_sub ..⟩

theorem it20D_fresh : (it20D (F := F)).Forall fun op => op.fresh = ∅ :=
  ⟨rfl, rfl, rfl⟩

/-- A piece of this stretch (window 8 of @main). -/
noncomputable def it20E : List (HloOp τ sig (Elt F)) :=
  [ StableHlo.nullary main_c_145 (constantI S_ 32 1#32),
    StableHlo.TRef.unary (.of main_c_145 : StableHlo.TRef sig ⟨S_, .i32⟩) main_call123.v0 (broadcastInDim S1024 ![] bcast_S_S1024),
    StableHlo.TRef.binary (.of main_v382 : StableHlo.TRef sig ⟨S1024, .i32⟩) main_call123.v0 main_call123.v1 Host.divsi,
    StableHlo.TRef.unary (.of main_v382 : StableHlo.TRef sig ⟨S1024, .i32⟩) main_call123.v2 signi,
    StableHlo.TRef.unary (.of main_c_145 : StableHlo.TRef sig ⟨S_, .i32⟩) main_call123.v3 signi,
    StableHlo.TRef.unary main_call123.v3 main_call123.v4 (broadcastInDim S1024 ![] bcast_S_S1024),
    StableHlo.TRef.binary main_call123.v2 main_call123.v4 main_call123.v5 (cmpi .ne),
    StableHlo.TRef.unary (.of main_c_145 : StableHlo.TRef sig ⟨S_, .i32⟩) main_call123.v6 (broadcastInDim S1024 ![] bcast_S_S1024),
    StableHlo.TRef.binary (.of main_v382 : StableHlo.TRef sig ⟨S1024, .i32⟩) main_call123.v6 main_call123.v7 Host.remsi,
    StableHlo.TRef.nullary main_call123.c (constantI S_ 32 0#32),
    StableHlo.TRef.unary main_call123.c main_call123.v8 (broadcastInDim S1024 ![] bcast_S_S1024),
    StableHlo.TRef.binary main_call123.v7 main_call123.v8 main_call123.v9 (cmpi .ne),
    StableHlo.TRef.binary main_call123.v5 main_call123.v9 main_call123.v10 andi,
    StableHlo.TRef.nullary main_call123.c_0 (constantI S_ 32 1#32),
    StableHlo.TRef.unary main_call123.c_0 main_call123.v11 (broadcastInDim S1024 ![] bcast_S_S1024),
    StableHlo.TRef.binary main_call123.v1 main_call123.v11 main_call123.v12 subi,
    StableHlo.TRef.ternary main_call123.v10 main_call123.v12 main_call123.v1 main_call123.call0.v0 select ]

theorem it20E_sub : (it20E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it20E_fresh : (it20E (F := F)).Forall fun op => op.fresh = ∅ :=
  ⟨rfl, rfl, rfl, rfl, rfl, rfl, rfl, rfl, rfl, rfl, rfl, rfl, rfl, rfl, rfl, rfl, rfl⟩

/-- A piece of this stretch (window 8 of @main). -/
noncomputable def it20G : List (HloOp τ sig (Elt F)) :=
  [ StableHlo.nullary main_c_146 (constantI S_ 32 1024#32),
    StableHlo.TRef.unary (.of main_c_146 : StableHlo.TRef sig ⟨S_, .i32⟩) main_call124.v0 id,
    StableHlo.TRef.nullary main_call124.c (constantI S_ 32 0#32),
    StableHlo.TRef.binary main_call124.v0 main_call124.c main_call124.v1 (cmpi .eq),
    StableHlo.TRef.nullary main_call124.c_0 (constantI S_ 32 1#32),
    StableHlo.TRef.ternary main_call124.v1 main_call124.c_0 main_call124.v0 main_call124.call0.v0 select,
    StableHlo.TRef.unary main_call124.call0.v0 main_call124.v3 (broadcastInDim S1024 ![] bcast_S_S1024),
    StableHlo.TRef.binary (.of main_v383 : StableHlo.TRef sig ⟨S1024, .i32⟩) main_call124.v3 main_call124.v4 Host.remsi,
    StableHlo.TRef.nullary main_call124.c_1 (constantI S_ 32 0#32),
    StableHlo.TRef.unary main_call124.c_1 main_call124.v5 (broadcastInDim S1024 ![] bcast_S_S1024),
    StableHlo.TRef.binary main_call124.v4 main_call124.v5 main_call124.v6 (cmpi .ne),
    StableHlo.TRef.nullary main_call124.c_2 (constantI S_ 32 0#32),
    StableHlo.TRef.unary main_call124.c_2 main_call124.v7 (broadcastInDim S1024 ![] bcast_S_S1024),
    StableHlo.TRef.binary main_call124.v4 main_call124.v7 main_call124.v8 (cmpi .slt),
    StableHlo.TRef.nullary main_call124.c_3 (constantI S_ 32 0#32),
    StableHlo.TRef.binary main_call124.call0.v0 main_call124.c_3 main_call124.v9 (cmpi .slt),
    StableHlo.TRef.unary main_call124.v9 main_call124.v10 (broadcastInDim S1024 ![] bcast_S_S1024),
    StableHlo.TRef.binary main_call124.v8 main_call124.v10 main_call124.v11 (cmpi .ne),
    StableHlo.TRef.binary main_call124.v11 main_call124.v6 main_call124.v12 andi,
    StableHlo.TRef.unary main_call124.call0.v0 main_call124.v13 (broadcastInDim S1024 ![] bcast_S_S1024),
    StableHlo.TRef.binary main_call124.v4 main_call124.v13 main_call124.v14 addi,
    StableHlo.TRef.ternary main_call124.v12 main_call124.v14 main_call124.v4 main_call124.v15 select ]

theorem it20G_sub : (it20G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it20G_fresh : (it20G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 8 of @main). -/
noncomputable def it20H : List (HloOp τ sig (Elt F)) :=
  [ StableHlo.TRef.nullary main_call125.c (constantI S_ 32 0#32),
    StableHlo.TRef.unary main_call125.c main_call125.v0 (broadcastInDim S1024 ![] bcast_S_S1024),
    StableHlo.TRef.binary (.of main_v384 : StableHlo.TRef sig ⟨S1024, .i32⟩) main_call125.v0 main_call125.v1 (cmpi .slt),
    StableHlo.TRef.nullary main_call125.c_0 (constantI S_ 32 1024#32),
    StableHlo.TRef.unary main_call125.c_0 main_call125.v2 (broadcastInDim S1024 ![] bcast_S_S1024),
    StableHlo.TRef.binary (.of main_v384 : StableHlo.TRef sig ⟨S1024, .i32⟩) main_call125.v2 main_call125.v3 addi,
    StableHlo.TRef.ternary main_call125.v1 main_call125.v3 (.of main_v384 : StableHlo.TRef sig ⟨S1024, .i32⟩) main_call125.call0.v0 select,
    StableHlo.TRef.unary main_call125.call0.v0 main_call125.v5 (broadcastInDim S1024x1 ![0] bcast_S1024_S1024x1_0),
    StableHlo.TRef.nullary main_call125.c_1 (constantI S1 32 1023#32),
    StableHlo.TRef.nullary main_call125.c_2 (constantI S_ 32 0#32),
    StableHlo.TRef.unary main_call125.c_2 main_call125.v6 (broadcastInDim S1024x1 ![] bcast_S_S1024x1),
    StableHlo.TRef.binary main_call125.v5 main_call125.v6 main_call125.v7 (cmpi .sge),
    StableHlo.TRef.unary main_call125.c_1 main_call125.v8 (broadcastInDim S1x1 ![1] bcast_S1_S1x1_1),
    StableHlo.TRef.unary main_call125.v8 main_call125.v9 (broadcastInDim S1024x1 ![0, 1] bcast_S1x1_S1024x1_0_1),
    StableHlo.TRef.binary main_call125.v5 main_call125.v9 main_call125.v10 (cmpi .sle),
    StableHlo.TRef.binary main_call125.v7 main_call125.v10 main_call125.v11 andi,
    StableHlo.TRef.nullary main_call125.c_3 (constantI S_ 1 1#1),
    StableHlo.TRef.binary main_call125.v11 main_call125.c_3 main_call125.v12 (fun x v => Host.reduce IntOp.andi x v reducesTo_S1024x1_S1024_d1 h_S_),
    StableHlo.TRef.binary (.of main_v7 : StableHlo.TRef sig ⟨S1024x1024, .f32⟩) main_call125.v5 main_call125.v13 (fun x i => Host.gather gather_S1024x1024_S1024x1_S1024x1024_1_0_n_n_0_1_11024 x i),
    StableHlo.TRef.unary main_call125.v12 main_call125.v14 (broadcastInDim S1024x1024 ![0] bcast_S1024_S1024x1024_0),
    StableHlo.TRef.nullary main_call125.cst (constant S_ .f32 0x7FC00000#32),
    StableHlo.TRef.unary main_call125.cst main_call125.v15 (broadcastInDim S1024x1024 ![] bcast_S_S1024x1024),
    StableHlo.TRef.ternary main_call125.v14 main_call125.v13 main_call125.v15 main_call125.v16 select ]

theorem it20H_sub : (it20H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it20H_fresh : (it20H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it20_W : List (Ref sig .tc) :=
  [main_v368, main_v369, main_v370, (main_call120.v0.ref), (main_call120.call0.c.ref), (main_call120.call0.v0.ref), (main_call120.call0.v1.ref), main_c_140, main_v372, main_c_141, (main_call121.v0.ref), (main_call121.v1.ref), (main_call121.v2.ref), main_c_142, main_v374, main_v375, main_c_143, main_v376, main_v377, main_v378, main_v379, main_c_144, main_v380, main_v381, (main_call122.call0.c.ref), (main_call122.call0.v0.ref), (main_call122.call0.v1.ref), main_c_145, (main_call123.v0.ref), (main_call123.v1.ref), (main_call123.v2.ref), (main_call123.v3.ref), (main_call123.v4.ref), (main_call123.v5.ref), (main_call123.v6.ref), (main_call123.v7.ref), (main_call123.c.ref), (main_call123.v8.ref), (main_call123.v9.ref), (main_call123.v10.ref), (main_call123.c_0.ref), (main_call123.v11.ref), (main_call123.v12.ref), (main_call123.call0.v0.ref), main_c_146, (main_call124.v0.ref), (main_call124.c.ref), (main_call124.v1.ref), (main_call124.c_0.ref), (main_call124.call0.v0.ref), (main_call124.v3.ref), (main_call124.v4.ref), (main_call124.c_1.ref), (main_call124.v5.ref), (main_call124.v6.ref), (main_call124.c_2.ref), (main_call124.v7.ref), (main_call124.v8.ref), (main_call124.c_3.ref), (main_call124.v9.ref), (main_call124.v10.ref), (main_call124.v11.ref), (main_call124.v12.ref), (main_call124.v13.ref), (main_call124.v14.ref), (main_call124.v15.ref), (main_call125.c.ref), (main_call125.v0.ref), (main_call125.v1.ref), (main_call125.c_0.ref), (main_call125.v2.ref), (main_call125.v3.ref), (main_call125.call0.v0.ref), (main_call125.v5.ref), (main_call125.c_1.ref), (main_call125.c_2.ref), (main_call125.v6.ref), (main_call125.v7.ref), (main_call125.v8.ref), (main_call125.v9.ref), (main_call125.v10.ref), (main_call125.v11.ref), (main_call125.c_3.ref), (main_call125.v12.ref), (main_call125.v13.ref), (main_call125.v14.ref), (main_call125.cst.ref), (main_call125.v15.ref), (main_call125.v16.ref)]

/-- The iteration up to the row lookup. -/
noncomputable def it20hd : List (HloOp τ sig (Elt F)) := it20A ++ (it20B ++ (it20C ++ (it20D ++ (it20E ++ it20G))))

/-- The iteration. -/
noncomputable def it20 : List (HloOp τ sig (Elt F)) := it20hd ++ it20H
theorem it20_sub : (it20 (F := F)).Forall fun op => op.bufs ⊆ tcRefs τ sig :=
  forall_append (forall_append it20A_sub (forall_append it20B_sub (forall_append it20C_sub (forall_append it20D_sub (forall_append it20E_sub it20G_sub))))) it20H_sub
theorem it20_fresh : (it20 (F := F)).Forall fun op => op.fresh = ∅ :=
  forall_append (forall_append it20A_fresh (forall_append it20B_fresh (forall_append it20C_fresh (forall_append it20D_fresh (forall_append it20E_fresh it20G_fresh))))) it20H_fresh

/-- The iteration as the concatenation of its pieces. -/
theorem it20_atoms : it20 (F := F) = it20A ++ (it20B ++ (it20C ++ (it20D ++ (it20E ++ (it20G ++ it20H))))) := by
  simp only [it20, it20hd, List.append_assoc]

end Cert.ReferenceIdeal.HandRun

end
-- ==== Proof.RefIt20.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt20

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it20A_val (V : Valuation τ sig (Elt F)) :
    after (it20A (F := F)) V (Proc.devRef (τ := τ) .tc main_v370) = RefFns.colMask (V (Proc.devRef (τ := τ) .tc main_v1)) 20 slices_S1024x32x1_S1024x1x1_0_20_0 := by
  simp only [it20A, List.cons_append, List.nil_append]
  after_results_simp
  try simp only [cast_eq]
  rfl

set_option maxRecDepth 65536 in
set_option maxHeartbeats 1000000 in
theorem it20B_val (V : Valuation τ sig (Elt F)) :
    after (it20B (F := F)) V (Proc.devRef (τ := τ) .tc main_v371) = RefFns.cumsumF (V (Proc.devRef (τ := τ) .tc main_v370)) := by
  simp only [it20B, List.cons_append, List.nil_append]
  after_results_simp
  try simp only [cast_eq]
  rfl

set_option maxRecDepth 65536 in
set_option maxHeartbeats 1000000 in
theorem it20C_val (V : Valuation τ sig (Elt F)) :
    after (it20C (F := F)) V (Proc.devRef (τ := τ) .tc main_v381) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v371)) (constantI S_ 32 0#32)) (broadcastInDim S1024 ![] bcast_S_S1024 (constantI S_ 32 0#32))) (addi (RefFns.clipF (V (Proc.devRef (τ := τ) .tc main_v371)) (constantI S_ 32 0#32)) (broadcastInDim S1024 ![] bcast_S_S1024 (constantI S_ 32 1024#32))) (RefFns.clipF (V (Proc.devRef (τ := τ) .tc main_v371)) (constantI S_ 32 0#32)))) (broadcastInDim S1024 ![] bcast_S_S1024 (constantI S_ 32 1#32)) := by
  simp only [it20C, List.cons_append, List.nil_append]
  after_results_simp
  try simp only [cast_eq]
  rfl

set_option maxRecDepth 65536 in
set_option maxHeartbeats 1000000 in
theorem it20D_val (V : Valuation τ sig (Elt F)) :
    after (it20D (F := F)) V (Proc.devRef (τ := τ) .tc main_v382) = RefFns.cumsum1F (V (Proc.devRef (τ := τ) .tc main_v381)) := by
  simp only [it20D, List.cons_append, List.nil_append]
  after_results_simp
  try simp only [cast_eq]
  rfl

set_option maxRecDepth 65536 in
set_option maxHeartbeats 1000000 in
theorem it20E_val (V : Valuation τ sig (Elt F)) :
    after (it20E (F := F)) V (Proc.devRef (τ := τ) .tc main_v383) = RefFns.floorDivF (V (Proc.devRef (τ := τ) .tc main_v382)) (constantI S_ 32 1#32) := by
  simp only [it20E, List.cons_append, List.nil_append]
  after_results_simp
  try simp only [cast_eq]
  rfl

set_option maxRecDepth 65536 in
set_option maxHeartbeats 1000000 in
theorem it20G_val (V : Valuation τ sig (Elt F)) :
    after (it20G (F := F)) V (Proc.devRef (τ := τ) .tc main_v384) = RefFns.remainderF (V (Proc.devRef (τ := τ) .tc main_v383)) (constantI S_ 32 1024#32) := by
  simp only [it20G, List.cons_append, List.nil_append]
  after_results_simp
  try simp only [cast_eq]
  rfl

set_option maxRecDepth 65536 in
set_option maxHeartbeats 1000000 in
theorem it20H_val (V : Valuation τ sig (Elt F)) :
    after (it20H (F := F)) V (Proc.devRef (τ := τ) .tc main_v385) = RefFns.takeF (V (Proc.devRef (τ := τ) .tc main_v7)) (V (Proc.devRef (τ := τ) .tc main_v384)) := by
  simp only [it20H, List.cons_append, List.nil_append]
  after_results_simp
  try simp only [cast_eq]
  rfl

theorem it20A_writes : (it20A (F := F)).Forall fun op => op.writes ⊆ (it20_W.map (Proc.devRef (τ := τ) .tc)).toFinset :=
  ⟨wsub main_v368 (by decide), wsub main_v369 (by decide), wsub main_v370 (by decide)⟩

theorem it20B_writes : (it20B (F := F)).Forall fun op => op.writes ⊆ (it20_W.map (Proc.devRef (τ := τ) .tc)).toFinset :=
  ⟨wsub (main_call120.v0.ref) (by decide), wsub (main_call120.call0.c.ref) (by decide), wsub (main_call120.call0.v0.ref) (by decide), wsub (main_call120.call0.v1.ref) (by decide)⟩

theorem it20C_writes : (it20C (F := F)).Forall fun op => op.writes ⊆ (it20_W.map (Proc.devRef (τ := τ) .tc)).toFinset :=
  ⟨wsub main_c_140 (by decide), wsub main_v372 (by decide), wsub main_c_141 (by decide), wsub (main_call121.v0.ref) (by decide), wsub (main_call121.v1.ref) (by decide), wsub (main_call121.v2.ref) (by decide), wsub main_c_142 (by decide), wsub main_v374 (by decide), wsub main_v375 (by decide), wsub main_c_143 (by decide), wsub main_v376 (by decide), wsub main_v377 (by decide), wsub main_v378 (by decide), wsub main_v379 (by decide), wsub main_c_144 (by decide), wsub main_v380 (by decide), wsub main_v381 (by decide)⟩

theorem it20D_writes : (it20D (F := F)).Forall fun op => op.writes ⊆ (it20_W.map (Proc.devRef (τ := τ) .tc)).toFinset :=
  ⟨wsub (main_call122.call0.c.ref) (by decide), wsub (main_call122.call0.v0.ref) (by decide), wsub (main_call122.call0.v1.ref) (by decide)⟩

theorem it20E_writes : (it20E (F := F)).Forall fun op => op.writes ⊆ (it20_W.map (Proc.devRef (τ := τ) .tc)).toFinset :=
  ⟨wsub main_c_145 (by decide), wsub (main_call123.v0.ref) (by decide), wsub (main_call123.v1.ref) (by decide), wsub (main_call123.v2.ref) (by decide), wsub (main_call123.v3.ref) (by decide), wsub (main_call123.v4.ref) (by decide), wsub (main_call123.v5.ref) (by decide), wsub (main_call123.v6.ref) (by decide), wsub (main_call123.v7.ref) (by decide), wsub (main_call123.c.ref) (by decide), wsub (main_call123.v8.ref) (by decide), wsub (main_call123.v9.ref) (by decide), wsub (main_call123.v10.ref) (by decide), wsub (main_call123.c_0.ref) (by decide), wsub (main_call123.v11.ref) (by decide), wsub (main_call123.v12.ref) (by decide), wsub (main_call123.call0.v0.ref) (by decide)⟩

theorem it20G_writes : (it20G (F := F)).Forall fun op => op.writes ⊆ (it20_W.map (Proc.devRef (τ := τ) .tc)).toFinset :=
  ⟨wsub main_c_146 (by decide), wsub (main_call124.v0.ref) (by decide), wsub (main_call124.c.ref) (by decide), wsub (main_call124.v1.ref) (by decide), wsub (main_call124.c_0.ref) (by decide), wsub (main_call124.call0.v0.ref) (by decide), wsub (main_call124.v3.ref) (by decide), wsub (main_call124.v4.ref) (by decide), wsub (main_call124.c_1.ref) (by decide), wsub (main_call124.v5.ref) (by decide), wsub (main_call124.v6.ref) (by decide), wsub (main_call124.c_2.ref) (by decide), wsub (main_call124.v7.ref) (by decide), wsub (main_call124.v8.ref) (by decide), wsub (main_call124.c_3.ref) (by decide), wsub (main_call124.v9.ref) (by decide), wsub (main_call124.v10.ref) (by decide), wsub (main_call124.v11.ref) (by decide), wsub (main_call124.v12.ref) (by decide), wsub (main_call124.v13.ref) (by decide), wsub (main_call124.v14.ref) (by decide), wsub (main_call124.v15.ref) (by decide)⟩

theorem it20H_writes : (it20H (F := F)).Forall fun op => op.writes ⊆ (it20_W.map (Proc.devRef (τ := τ) .tc)).toFinset :=
  ⟨wsub (main_call125.c.ref) (by decide), wsub (main_call125.v0.ref) (by decide), wsub (main_call125.v1.ref) (by decide), wsub (main_call125.c_0.ref) (by decide), wsub (main_call125.v2.ref) (by decide), wsub (main_call125.v3.ref) (by decide), wsub (main_call125.call0.v0.ref) (by decide), wsub (main_call125.v5.ref) (by decide), wsub (main_call125.c_1.ref) (by decide), wsub (main_call125.c_2.ref) (by decide), wsub (main_call125.v6.ref) (by decide), wsub (main_call125.v7.ref) (by decide), wsub (main_call125.v8.ref) (by decide), wsub (main_call125.v9.ref) (by decide), wsub (main_call125.v10.ref) (by decide), wsub (main_call125.v11.ref) (by decide), wsub (main_call125.c_3.ref) (by decide), wsub (main_call125.v12.ref) (by decide), wsub (main_call125.v13.ref) (by decide), wsub (main_call125.v14.ref) (by decide), wsub (main_call125.cst.ref) (by decide), wsub (main_call125.v15.ref) (by decide), wsub (main_call125.v16.ref) (by decide)⟩

theorem it20hd_writes : (it20hd (F := F)).Forall fun op => op.writes ⊆ (it20_W.map (Proc.devRef (τ := τ) .tc)).toFinset :=
  forall_append it20A_writes (forall_append it20B_writes (forall_append it20C_writes (forall_append it20D_writes (forall_append it20E_writes it20G_writes))))

theorem it20_writes : (it20 (F := F)).Forall fun op => op.writes ⊆ (it20_W.map (Proc.devRef (τ := τ) .tc)).toFinset :=
  forall_append it20hd_writes (it20H_writes)

/-- The iteration leaves every buffer it does not write as it was. -/
theorem it20_keep (V : Valuation τ sig (Elt F)) (r : Ref sig .tc) (hr : r ∉ it20_W) :
    after (it20 (F := F)) V (Proc.devRef (τ := τ) .tc r) = V (Proc.devRef (τ := τ) .tc r) :=
  after_of_writes_sub it20 V it20_writes hr

theorem it20hd_keep (V : Valuation τ sig (Elt F)) (r : Ref sig .tc) (hr : r ∉ it20_W) :
    after (it20hd (F := F)) V (Proc.devRef (τ := τ) .tc r) = V (Proc.devRef (τ := τ) .tc r) :=
  after_of_writes_sub it20hd V it20hd_writes hr

/-- The iteration's result: the rows of the matrix it is handed at the compacted indices of its mask. -/
theorem it20_res (V : Valuation τ sig (Elt F)) :
    after (it20 (F := F)) V (Proc.devRef (τ := τ) .tc main_v385) = RefFns.nzTake (V (Proc.devRef (τ := τ) .tc main_v7)) (RefFns.colMask (V (Proc.devRef (τ := τ) .tc main_v1)) 20 slices_S1024x32x1_S1024x1x1_0_20_0) := by
  rw [it20, after_append, it20H_val, it20hd_keep V main_v7 (by decide), it20hd]
  simp only [after_append]
  rw [it20G_val, it20E_val, it20D_val, it20C_val, it20B_val, it20A_val]
  rfl

set_option maxRecDepth 65536 in
set_option maxHeartbeats 4000000 in
/-- The invariant of the run survives the iteration, with its block added. -/
theorem it20_step {x : FVec F S1x32x1024 .f32} {V : Valuation τ sig (Elt F)} (hg : Good 20 x V) : Good 21 x (after (it20 (F := F)) V) :=
  good_step 20 (by decide) it20 it20_W slices_S1024x32x1_S1024x1x1_0_20_0 it20_keep it20_res (fun _ => rfl) (by decide +kernel) (by decide +kernel) (by decide +kernel) (by decide +kernel) hg

end Cert.ReferenceIdeal.HandRun

end
-- ==== Proof.RefOpsIt21.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 8 of @main). -/
noncomputable def it21A : List (HloOp τ sig (Elt F)) :=
  [ StableHlo.unary main_v1 main_v386 ((extractStridedSlice S1024x1x1 ![0, 21, 0] · slices_S1024x32x1_S1024x1x1_0_21_0) : (⟨S1024x32x1, .i1⟩ : BufTy).Contents (Elt F) → (⟨S1024x1x1, .i1⟩ : BufTy).Contents (Elt F)),
    StableHlo.reshape main_v386 main_v387 rfl shapeCasts_S1024x1x1_S1024,
    StableHlo.unary main_v387 main_v388 (noti : (⟨S1024, .i1⟩ : BufTy).Contents (Elt F) → (⟨S1024, .i1⟩ : BufTy).Contents (Elt F)) ]

theorem it21A_sub : (it21A (F := F)).Forall fun op => op.bufs ⊆ tcRefs τ sig :=
  ⟨unary_bufs_sub .., reshape_bufs_sub .., unary_bufs_sub ..⟩

theorem it21A_fresh : (it21A (F := F)).Forall fun op => op.fresh = ∅ :=
  ⟨rfl, rfl, rfl⟩

/-- A piece of this stretch (window 8 of @main). -/
noncomputable def it21B : List (HloOp τ sig (Elt F)) :=
  [ StableHlo.TRef.unary (.of main_v388 : StableHlo.TRef sig ⟨S1024, .i1⟩) main_call126.v0 (extui 32 · natLt_1_32),
    StableHlo.TRef.nullary main_call126.call0.c (constantI S_ 32 0#32),
    StableHlo.TRef.unary main_call126.call0.c main_call126.call0.v0 (broadcastInDim S_ ![] bcast_S_S_),
    StableHlo.TRef.binary main_call126.v0 main_call126.call0.v0 main_call126.call0.v1 (fun x v => Host.reduceWindow IntOp.addi ![1024] ![1] ![1023] ![0] x v reduceWindows_S1024_S1024_w1024s1p1023_0 h_S_) ]

theorem it21B_sub : (it21B (F := F)).Forall fun op => op.bufs ⊆ tcRefs τ sig :=
  ⟨unary_bufs_sub .., nullary_bufs_sub .., unary_bufs_sub .., binary_bufs_sub ..⟩

theorem it21B_fresh : (it21B (F := F)).Forall fun op => op.fresh = ∅ :=
  ⟨rfl, rfl, rfl, rfl⟩

/-- A piece of this stretch (window 8 of @main). -/
noncomputable def it21Ca : List (HloOp τ sig (Elt F)) :=
  [ StableHlo.nullary main_c_147 (constantI S_ 32 0#32),
    StableHlo.unary main_c_147 main_v390 (broadcastInDim S1024 ![] bcast_S_S1024 : (⟨S_, .i32⟩ : BufTy).Contents (Elt F) → (⟨S1024, .i32⟩ : BufTy).Contents (Elt F)) ]

theorem it21Ca_sub : (it21Ca (F := F)).Forall fun op => op.bufs ⊆ tcRefs τ sig :=
  ⟨nullary_bufs_sub .., unary_bufs_sub ..⟩

theorem it21Ca_fresh : (it21Ca (F := F)).Forall fun op => op.fresh = ∅ :=
  ⟨rfl, rfl⟩

/-- A piece of this stretch (window 9 of @main). -/
noncomputable def it21Cb : List (HloOp τ sig (Elt F)) :=
  [ StableHlo.nullary main_c_148 (constantI S_ 32 0#32),
    StableHlo.TRef.unary (.of main_c_148 : StableHlo.TRef sig ⟨S_, .i32⟩) main_call127.v0 id,
    StableHlo.TRef.unary main_call127.v0 main_call127.v1 (broadcastInDim S1024 ![] bcast_S_S1024),
    StableHlo.TRef.binary main_call127.v1 (.of main_v389 : StableHlo.TRef sig ⟨S1024, .i32⟩) main_call127.v2 maxsi,
    StableHlo.nullary main_c_149 (constantI S_ 32 0#32),
    StableHlo.unary main_c_149 main_v392 (broadcastInDim S1024 ![] bcast_S_S1024 : (⟨S_, .i32⟩ : BufTy).Contents (Elt F) → (⟨S1024, .i32⟩ : BufTy).Contents (Elt F)),
    StableHlo.binary main_v391 main_v392 main_v393 (cmpi .slt : (⟨S1024, .i32⟩ : BufTy).Contents (Elt F) → (⟨S1024, .i32⟩ : BufTy).Contents (Elt F) → (⟨S1024, .i1⟩ : BufTy).Contents (Elt F)),
    StableHlo.nullary main_c_150 (constantI S_ 32 1024#32),
    StableHlo.unary main_c_150 main_v394 (broadcastInDim S1024 ![] bcast_S_S1024 : (⟨S_, .i32⟩ : BufTy).Contents (Elt F) → (⟨S1024, .i32⟩ : BufTy).Contents (Elt F)),
    StableHlo.binary main_v391 main_v394 main_v395 (addi : (⟨S1024, .i32⟩ : BufTy).Contents (Elt F) → (⟨S1024, .i32⟩ : BufTy).Contents (Elt F) → (⟨S1024, .i32⟩ : BufTy).Contents (Elt F)),
    StableHlo.ternary main_v393 main_v395 main_v391 main_v396 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v396 main_v397 (broadcastInDim S1024x1 ![0] bcast_S1024_S1024x1_0 : (⟨S1024, .i32⟩ : BufTy).Contents (Elt F) → (⟨S1024x1, .i32⟩ : BufTy).Contents (Elt F)),
    StableHlo.nullary main_c_151 (constantI S_ 32 1#32),
    StableHlo.unary main_c_151 main_v398 (broadcastInDim S1024 ![] bcast_S_S1024 : (⟨S_, .i32⟩ : BufTy).Contents (Elt F) → (⟨S1024, .i32⟩ : BufTy).Contents (Elt F)),
    StableHlo.ternary main_v390 main_v397 main_v398 main_v399 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it21Cb_sub : (it21Cb (F := F)).Forall fun op => op.bufs ⊆ tcRefs τ sig :=
  ⟨nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it21Cb_fresh : (it21Cb (F := F)).Forall fun op => op.fresh = ∅ :=
  ⟨rfl, rfl, rfl, rfl, rfl, rfl, rfl, rfl, rfl, rfl, rfl, rfl, rfl, rfl, rfl⟩

/-- A piece of this stretch (window 9 of @main). -/
noncomputable def it21D : List (HloOp τ sig (Elt F)) :=
  [ StableHlo.TRef.nullary main_call128.call0.c (constantI S_ 32 0#32),
    StableHlo.TRef.unary main_call128.call0.c main_call128.call0.v0 (broadcastInDim S_ ![] bcast_S_S_),
    StableHlo.TRef.binary (.of main_v399 : StableHlo.TRef sig ⟨S1024, .i32⟩) main_call128.call0.v0 main_call128.call0.v1 (fun x v => Host.reduceWindow IntOp.addi ![1024] ![1] ![1023] ![0] x v reduceWindows_S1024_S1024_w1024s1p1023_0 h_S_) ]

theorem it21D_sub : (it21D (F := F)).Forall fun op => op.bufs ⊆ tcRefs τ sig :=
  ⟨nullary_bufs_sub .., unary_bufs_sub .., binary_bufs_sub ..⟩

theorem it21D_fresh : (it21D (F := F)).Forall fun op => op.fresh = ∅ :=
  ⟨rfl, rfl, rfl⟩

/-- A piece of this stretch (window 9 of @main). -/
noncomputable def it21E : List (HloOp τ sig (Elt F)) :=
  [ StableHlo.nullary main_c_152 (constantI S_ 32 1#32),
    StableHlo.TRef.unary (.of main_c_152 : StableHlo.TRef sig ⟨S_, .i32⟩) main_call129.v0 (broadcastInDim S1024 ![] bcast_S_S1024),
    StableHlo.TRef.binary (.of main_v400 : StableHlo.TRef sig ⟨S1024, .i32⟩) main_call129.v0 main_call129.v1 Host.divsi,
    StableHlo.TRef.unary (.of main_v400 : StableHlo.TRef sig ⟨S1024, .i32⟩) main_call129.v2 signi,
    StableHlo.TRef.unary (.of main_c_152 : StableHlo.TRef sig ⟨S_, .i32⟩) main_call129.v3 signi,
    StableHlo.TRef.unary main_call129.v3 main_call129.v4 (broadcastInDim S1024 ![] bcast_S_S1024),
    StableHlo.TRef.binary main_call129.v2 main_call129.v4 main_call129.v5 (cmpi .ne),
    StableHlo.TRef.unary (.of main_c_152 : StableHlo.TRef sig ⟨S_, .i32⟩) main_call129.v6 (broadcastInDim S1024 ![] bcast_S_S1024),
    StableHlo.TRef.binary (.of main_v400 : StableHlo.TRef sig ⟨S1024, .i32⟩) main_call129.v6 main_call129.v7 Host.remsi,
    StableHlo.TRef.nullary main_call129.c (constantI S_ 32 0#32),
    StableHlo.TRef.unary main_call129.c main_call129.v8 (broadcastInDim S1024 ![] bcast_S_S1024),
    StableHlo.TRef.binary main_call129.v7 main_call129.v8 main_call129.v9 (cmpi .ne),
    StableHlo.TRef.binary main_call129.v5 main_call129.v9 main_call129.v10 andi,
    StableHlo.TRef.nullary main_call129.c_0 (constantI S_ 32 1#32),
    StableHlo.TRef.unary main_call129.c_0 main_call129.v11 (broadcastInDim S1024 ![] bcast_S_S1024),
    StableHlo.TRef.binary main_call129.v1 main_call129.v11 main_call129.v12 subi,
    StableHlo.TRef.ternary main_call129.v10 main_call129.v12 main_call129.v1 main_call129.call0.v0 select ]

theorem it21E_sub : (it21E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it21E_fresh : (it21E (F := F)).Forall fun op => op.fresh = ∅ :=
  ⟨rfl, rfl, rfl, rfl, rfl, rfl, rfl, rfl, rfl, rfl, rfl, rfl, rfl, rfl, rfl, rfl, rfl⟩

/-- A piece of this stretch (window 9 of @main). -/
noncomputable def it21G : List (HloOp τ sig (Elt F)) :=
  [ StableHlo.nullary main_c_153 (constantI S_ 32 1024#32),
    StableHlo.TRef.unary (.of main_c_153 : StableHlo.TRef sig ⟨S_, .i32⟩) main_call130.v0 id,
    StableHlo.TRef.nullary main_call130.c (constantI S_ 32 0#32),
    StableHlo.TRef.binary main_call130.v0 main_call130.c main_call130.v1 (cmpi .eq),
    StableHlo.TRef.nullary main_call130.c_0 (constantI S_ 32 1#32),
    StableHlo.TRef.ternary main_call130.v1 main_call130.c_0 main_call130.v0 main_call130.call0.v0 select,
    StableHlo.TRef.unary main_call130.call0.v0 main_call130.v3 (broadcastInDim S1024 ![] bcast_S_S1024),
    StableHlo.TRef.binary (.of main_v401 : StableHlo.TRef sig ⟨S1024, .i32⟩) main_call130.v3 main_call130.v4 Host.remsi,
    StableHlo.TRef.nullary main_call130.c_1 (constantI S_ 32 0#32),
    StableHlo.TRef.unary main_call130.c_1 main_call130.v5 (broadcastInDim S1024 ![] bcast_S_S1024),
    StableHlo.TRef.binary main_call130.v4 main_call130.v5 main_call130.v6 (cmpi .ne),
    StableHlo.TRef.nullary main_call130.c_2 (constantI S_ 32 0#32),
    StableHlo.TRef.unary main_call130.c_2 main_call130.v7 (broadcastInDim S1024 ![] bcast_S_S1024),
    StableHlo.TRef.binary main_call130.v4 main_call130.v7 main_call130.v8 (cmpi .slt),
    StableHlo.TRef.nullary main_call130.c_3 (constantI S_ 32 0#32),
    StableHlo.TRef.binary main_call130.call0.v0 main_call130.c_3 main_call130.v9 (cmpi .slt),
    StableHlo.TRef.unary main_call130.v9 main_call130.v10 (broadcastInDim S1024 ![] bcast_S_S1024),
    StableHlo.TRef.binary main_call130.v8 main_call130.v10 main_call130.v11 (cmpi .ne),
    StableHlo.TRef.binary main_call130.v11 main_call130.v6 main_call130.v12 andi,
    StableHlo.TRef.unary main_call130.call0.v0 main_call130.v13 (broadcastInDim S1024 ![] bcast_S_S1024),
    StableHlo.TRef.binary main_call130.v4 main_call130.v13 main_call130.v14 addi,
    StableHlo.TRef.ternary main_call130.v12 main_call130.v14 main_call130.v4 main_call130.v15 select ]

theorem it21G_sub : (it21G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it21G_fresh : (it21G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 9 of @main). -/
noncomputable def it21H : List (HloOp τ sig (Elt F)) :=
  [ StableHlo.TRef.nullary main_call131.c (constantI S_ 32 0#32),
    StableHlo.TRef.unary main_call131.c main_call131.v0 (broadcastInDim S1024 ![] bcast_S_S1024),
    StableHlo.TRef.binary (.of main_v402 : StableHlo.TRef sig ⟨S1024, .i32⟩) main_call131.v0 main_call131.v1 (cmpi .slt),
    StableHlo.TRef.nullary main_call131.c_0 (constantI S_ 32 1024#32),
    StableHlo.TRef.unary main_call131.c_0 main_call131.v2 (broadcastInDim S1024 ![] bcast_S_S1024),
    StableHlo.TRef.binary (.of main_v402 : StableHlo.TRef sig ⟨S1024, .i32⟩) main_call131.v2 main_call131.v3 addi,
    StableHlo.TRef.ternary main_call131.v1 main_call131.v3 (.of main_v402 : StableHlo.TRef sig ⟨S1024, .i32⟩) main_call131.call0.v0 select,
    StableHlo.TRef.unary main_call131.call0.v0 main_call131.v5 (broadcastInDim S1024x1 ![0] bcast_S1024_S1024x1_0),
    StableHlo.TRef.nullary main_call131.c_1 (constantI S1 32 1023#32),
    StableHlo.TRef.nullary main_call131.c_2 (constantI S_ 32 0#32),
    StableHlo.TRef.unary main_call131.c_2 main_call131.v6 (broadcastInDim S1024x1 ![] bcast_S_S1024x1),
    StableHlo.TRef.binary main_call131.v5 main_call131.v6 main_call131.v7 (cmpi .sge),
    StableHlo.TRef.unary main_call131.c_1 main_call131.v8 (broadcastInDim S1x1 ![1] bcast_S1_S1x1_1),
    StableHlo.TRef.unary main_call131.v8 main_call131.v9 (broadcastInDim S1024x1 ![0, 1] bcast_S1x1_S1024x1_0_1),
    StableHlo.TRef.binary main_call131.v5 main_call131.v9 main_call131.v10 (cmpi .sle),
    StableHlo.TRef.binary main_call131.v7 main_call131.v10 main_call131.v11 andi,
    StableHlo.TRef.nullary main_call131.c_3 (constantI S_ 1 1#1),
    StableHlo.TRef.binary main_call131.v11 main_call131.c_3 main_call131.v12 (fun x v => Host.reduce IntOp.andi x v reducesTo_S1024x1_S1024_d1 h_S_),
    StableHlo.TRef.binary (.of main_v7 : StableHlo.TRef sig ⟨S1024x1024, .f32⟩) main_call131.v5 main_call131.v13 (fun x i => Host.gather gather_S1024x1024_S1024x1_S1024x1024_1_0_n_n_0_1_11024 x i),
    StableHlo.TRef.unary main_call131.v12 main_call131.v14 (broadcastInDim S1024x1024 ![0] bcast_S1024_S1024x1024_0),
    StableHlo.TRef.nullary main_call131.cst (constant S_ .f32 0x7FC00000#32),
    StableHlo.TRef.unary main_call131.cst main_call131.v15 (broadcastInDim S1024x1024 ![] bcast_S_S1024x1024),
    StableHlo.TRef.ternary main_call131.v14 main_call131.v13 main_call131.v15 main_call131.v16 select ]

theorem it21H_sub : (it21H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it21H_fresh : (it21H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it21_W : List (Ref sig .tc) :=
  [main_v386, main_v387, main_v388, (main_call126.v0.ref), (main_call126.call0.c.ref), (main_call126.call0.v0.ref), (main_call126.call0.v1.ref), main_c_147, main_v390, main_c_148, (main_call127.v0.ref), (main_call127.v1.ref), (main_call127.v2.ref), main_c_149, main_v392, main_v393, main_c_150, main_v394, main_v395, main_v396, main_v397, main_c_151, main_v398, main_v399, (main_call128.call0.c.ref), (main_call128.call0.v0.ref), (main_call128.call0.v1.ref), main_c_152, (main_call129.v0.ref), (main_call129.v1.ref), (main_call129.v2.ref), (main_call129.v3.ref), (main_call129.v4.ref), (main_call129.v5.ref), (main_call129.v6.ref), (main_call129.v7.ref), (main_call129.c.ref), (main_call129.v8.ref), (main_call129.v9.ref), (main_call129.v10.ref), (main_call129.c_0.ref), (main_call129.v11.ref), (main_call129.v12.ref), (main_call129.call0.v0.ref), main_c_153, (main_call130.v0.ref), (main_call130.c.ref), (main_call130.v1.ref), (main_call130.c_0.ref), (main_call130.call0.v0.ref), (main_call130.v3.ref), (main_call130.v4.ref), (main_call130.c_1.ref), (main_call130.v5.ref), (main_call130.v6.ref), (main_call130.c_2.ref), (main_call130.v7.ref), (main_call130.v8.ref), (main_call130.c_3.ref), (main_call130.v9.ref), (main_call130.v10.ref), (main_call130.v11.ref), (main_call130.v12.ref), (main_call130.v13.ref), (main_call130.v14.ref), (main_call130.v15.ref), (main_call131.c.ref), (main_call131.v0.ref), (main_call131.v1.ref), (main_call131.c_0.ref), (main_call131.v2.ref), (main_call131.v3.ref), (main_call131.call0.v0.ref), (main_call131.v5.ref), (main_call131.c_1.ref), (main_call131.c_2.ref), (main_call131.v6.ref), (main_call131.v7.ref), (main_call131.v8.ref), (main_call131.v9.ref), (main_call131.v10.ref), (main_call131.v11.ref), (main_call131.c_3.ref), (main_call131.v12.ref), (main_call131.v13.ref), (main_call131.v14.ref), (main_call131.cst.ref), (main_call131.v15.ref), (main_call131.v16.ref)]

/-- One stage of the iteration, whole. -/
noncomputable def it21C : List (HloOp τ sig (Elt F)) := it21Ca ++ it21Cb
theorem it21C_sub : (it21C (F := F)).Forall fun op => op.bufs ⊆ tcRefs τ sig :=
  forall_append it21Ca_sub it21Cb_sub
theorem it21C_fresh : (it21C (F := F)).Forall fun op => op.fresh = ∅ :=
  forall_append it21Ca_fresh it21Cb_fresh

/-- The iteration up to the row lookup. -/
noncomputable def it21hd : List (HloOp τ sig (Elt F)) := it21A ++ (it21B ++ (it21C ++ (it21D ++ (it21E ++ it21G))))

/-- The iteration. -/
noncomputable def it21 : List (HloOp τ sig (Elt F)) := it21hd ++ it21H
theorem it21_sub : (it21 (F := F)).Forall fun op => op.bufs ⊆ tcRefs τ sig :=
  forall_append (forall_append it21A_sub (forall_append it21B_sub (forall_append it21C_sub (forall_append it21D_sub (forall_append it21E_sub it21G_sub))))) it21H_sub
theorem it21_fresh : (it21 (F := F)).Forall fun op => op.fresh = ∅ :=
  forall_append (forall_append it21A_fresh (forall_append it21B_fresh (forall_append it21C_fresh (forall_append it21D_fresh (forall_append it21E_fresh it21G_fresh))))) it21H_fresh

/-- The iteration as the concatenation of its pieces. -/
theorem it21_atoms : it21 (F := F) = it21A ++ (it21B ++ (it21Ca ++ (it21Cb ++ (it21D ++ (it21E ++ (it21G ++ it21H)))))) := by
  simp only [it21, it21hd, it21C, List.append_assoc]

end Cert.ReferenceIdeal.HandRun

end
-- ==== Proof.RefIt21.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt21

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it21A_val (V : Valuation τ sig (Elt F)) :
    after (it21A (F := F)) V (Proc.devRef (τ := τ) .tc main_v388) = RefFns.colMask (V (Proc.devRef (τ := τ) .tc main_v1)) 21 slices_S1024x32x1_S1024x1x1_0_21_0 := by
  simp only [it21A, List.cons_append, List.nil_append]
  after_results_simp
  try simp only [cast_eq]
  rfl

set_option maxRecDepth 65536 in
set_option maxHeartbeats 1000000 in
theorem it21B_val (V : Valuation τ sig (Elt F)) :
    after (it21B (F := F)) V (Proc.devRef (τ := τ) .tc main_v389) = RefFns.cumsumF (V (Proc.devRef (τ := τ) .tc main_v388)) := by
  simp only [it21B, List.cons_append, List.nil_append]
  after_results_simp
  try simp only [cast_eq]
  rfl

set_option maxRecDepth 65536 in
set_option maxHeartbeats 1000000 in
theorem it21C_val (V : Valuation τ sig (Elt F)) :
    after (it21C (F := F)) V (Proc.devRef (τ := τ) .tc main_v399) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v389)) (constantI S_ 32 0#32)) (broadcastInDim S1024 ![] bcast_S_S1024 (constantI S_ 32 0#32))) (addi (RefFns.clipF (V (Proc.devRef (τ := τ) .tc main_v389)) (constantI S_ 32 0#32)) (broadcastInDim S1024 ![] bcast_S_S1024 (constantI S_ 32 1024#32))) (RefFns.clipF (V (Proc.devRef (τ := τ) .tc main_v389)) (constantI S_ 32 0#32)))) (broadcastInDim S1024 ![] bcast_S_S1024 (constantI S_ 32 1#32)) := by
  simp only [it21C, it21Ca, it21Cb, List.cons_append, List.nil_append]
  after_results_simp
  try simp only [cast_eq]
  rfl

set_option maxRecDepth 65536 in
set_option maxHeartbeats 1000000 in
theorem it21D_val (V : Valuation τ sig (Elt F)) :
    after (it21D (F := F)) V (Proc.devRef (τ := τ) .tc main_v400) = RefFns.cumsum1F (V (Proc.devRef (τ := τ) .tc main_v399)) := by
  simp only [it21D, List.cons_append, List.nil_append]
  after_results_simp
  try simp only [cast_eq]
  rfl

set_option maxRecDepth 65536 in
set_option maxHeartbeats 1000000 in
theorem it21E_val (V : Valuation τ sig (Elt F)) :
    after (it21E (F := F)) V (Proc.devRef (τ := τ) .tc main_v401) = RefFns.floorDivF (V (Proc.devRef (τ := τ) .tc main_v400)) (constantI S_ 32 1#32) := by
  simp only [it21E, List.cons_append, List.nil_append]
  after_results_simp
  try simp only [cast_eq]
  rfl

set_option maxRecDepth 65536 in
set_option maxHeartbeats 1000000 in
theorem it21G_val (V : Valuation τ sig (Elt F)) :
    after (it21G (F := F)) V (Proc.devRef (τ := τ) .tc main_v402) = RefFns.remainderF (V (Proc.devRef (τ := τ) .tc main_v401)) (constantI S_ 32 1024#32) := by
  simp only [it21G, List.cons_append, List.nil_append]
  after_results_simp
  try simp only [cast_eq]
  rfl

set_option maxRecDepth 65536 in
set_option maxHeartbeats 1000000 in
theorem it21H_val (V : Valuation τ sig (Elt F)) :
    after (it21H (F := F)) V (Proc.devRef (τ := τ) .tc main_v403) = RefFns.takeF (V (Proc.devRef (τ := τ) .tc main_v7)) (V (Proc.devRef (τ := τ) .tc main_v402)) := by
  simp only [it21H, List.cons_append, List.nil_append]
  after_results_simp
  try simp only [cast_eq]
  rfl

theorem it21A_writes : (it21A (F := F)).Forall fun op => op.writes ⊆ (it21_W.map (Proc.devRef (τ := τ) .tc)).toFinset :=
  ⟨wsub main_v386 (by decide), wsub main_v387 (by decide), wsub main_v388 (by decide)⟩

theorem it21B_writes : (it21B (F := F)).Forall fun op => op.writes ⊆ (it21_W.map (Proc.devRef (τ := τ) .tc)).toFinset :=
  ⟨wsub (main_call126.v0.ref) (by decide), wsub (main_call126.call0.c.ref) (by decide), wsub (main_call126.call0.v0.ref) (by decide), wsub (main_call126.call0.v1.ref) (by decide)⟩

theorem it21Ca_writes : (it21Ca (F := F)).Forall fun op => op.writes ⊆ (it21_W.map (Proc.devRef (τ := τ) .tc)).toFinset :=
  ⟨wsub main_c_147 (by decide), wsub main_v390 (by decide)⟩

theorem it21Cb_writes : (it21Cb (F := F)).Forall fun op => op.writes ⊆ (it21_W.map (Proc.devRef (τ := τ) .tc)).toFinset :=
  ⟨wsub main_c_148 (by decide), wsub (main_call127.v0.ref) (by decide), wsub (main_call127.v1.ref) (by decide), wsub (main_call127.v2.ref) (by decide), wsub main_c_149 (by decide), wsub main_v392 (by decide), wsub main_v393 (by decide), wsub main_c_150 (by decide), wsub main_v394 (by decide), wsub main_v395 (by decide), wsub main_v396 (by decide), wsub main_v397 (by decide), wsub main_c_151 (by decide), wsub main_v398 (by decide), wsub main_v399 (by decide)⟩

theorem it21D_writes : (it21D (F := F)).Forall fun op => op.writes ⊆ (it21_W.map (Proc.devRef (τ := τ) .tc)).toFinset :=
  ⟨wsub (main_call128.call0.c.ref) (by decide), wsub (main_call128.call0.v0.ref) (by decide), wsub (main_call128.call0.v1.ref) (by decide)⟩

theorem it21E_writes : (it21E (F := F)).Forall fun op => op.writes ⊆ (it21_W.map (Proc.devRef (τ := τ) .tc)).toFinset :=
  ⟨wsub main_c_152 (by decide), wsub (main_call129.v0.ref) (by decide), wsub (main_call129.v1.ref) (by decide), wsub (main_call129.v2.ref) (by decide), wsub (main_call129.v3.ref) (by decide), wsub (main_call129.v4.ref) (by decide), wsub (main_call129.v5.ref) (by decide), wsub (main_call129.v6.ref) (by decide), wsub (main_call129.v7.ref) (by decide), wsub (main_call129.c.ref) (by decide), wsub (main_call129.v8.ref) (by decide), wsub (main_call129.v9.ref) (by decide), wsub (main_call129.v10.ref) (by decide), wsub (main_call129.c_0.ref) (by decide), wsub (main_call129.v11.ref) (by decide), wsub (main_call129.v12.ref) (by decide), wsub (main_call129.call0.v0.ref) (by decide)⟩

theorem it21G_writes : (it21G (F := F)).Forall fun op => op.writes ⊆ (it21_W.map (Proc.devRef (τ := τ) .tc)).toFinset :=
  ⟨wsub main_c_153 (by decide), wsub (main_call130.v0.ref) (by decide), wsub (main_call130.c.ref) (by decide), wsub (main_call130.v1.ref) (by decide), wsub (main_call130.c_0.ref) (by decide), wsub (main_call130.call0.v0.ref) (by decide), wsub (main_call130.v3.ref) (by decide), wsub (main_call130.v4.ref) (by decide), wsub (main_call130.c_1.ref) (by decide), wsub (main_call130.v5.ref) (by decide), wsub (main_call130.v6.ref) (by decide), wsub (main_call130.c_2.ref) (by decide), wsub (main_call130.v7.ref) (by decide), wsub (main_call130.v8.ref) (by decide), wsub (main_call130.c_3.ref) (by decide), wsub (main_call130.v9.ref) (by decide), wsub (main_call130.v10.ref) (by decide), wsub (main_call130.v11.ref) (by decide), wsub (main_call130.v12.ref) (by decide), wsub (main_call130.v13.ref) (by decide), wsub (main_call130.v14.ref) (by decide), wsub (main_call130.v15.ref) (by decide)⟩

theorem it21H_writes : (it21H (F := F)).Forall fun op => op.writes ⊆ (it21_W.map (Proc.devRef (τ := τ) .tc)).toFinset :=
  ⟨wsub (main_call131.c.ref) (by decide), wsub (main_call131.v0.ref) (by decide), wsub (main_call131.v1.ref) (by decide), wsub (main_call131.c_0.ref) (by decide), wsub (main_call131.v2.ref) (by decide), wsub (main_call131.v3.ref) (by decide), wsub (main_call131.call0.v0.ref) (by decide), wsub (main_call131.v5.ref) (by decide), wsub (main_call131.c_1.ref) (by decide), wsub (main_call131.c_2.ref) (by decide), wsub (main_call131.v6.ref) (by decide), wsub (main_call131.v7.ref) (by decide), wsub (main_call131.v8.ref) (by decide), wsub (main_call131.v9.ref) (by decide), wsub (main_call131.v10.ref) (by decide), wsub (main_call131.v11.ref) (by decide), wsub (main_call131.c_3.ref) (by decide), wsub (main_call131.v12.ref) (by decide), wsub (main_call131.v13.ref) (by decide), wsub (main_call131.v14.ref) (by decide), wsub (main_call131.cst.ref) (by decide), wsub (main_call131.v15.ref) (by decide), wsub (main_call131.v16.ref) (by decide)⟩

theorem it21hd_writes : (it21hd (F := F)).Forall fun op => op.writes ⊆ (it21_W.map (Proc.devRef (τ := τ) .tc)).toFinset :=
  forall_append it21A_writes (forall_append it21B_writes (forall_append (forall_append it21Ca_writes it21Cb_writes) (forall_append it21D_writes (forall_append it21E_writes it21G_writes))))

theorem it21_writes : (it21 (F := F)).Forall fun op => op.writes ⊆ (it21_W.map (Proc.devRef (τ := τ) .tc)).toFinset :=
  forall_append it21hd_writes (it21H_writes)

/-- The iteration leaves every buffer it does not write as it was. -/
theorem it21_keep (V : Valuation τ sig (Elt F)) (r : Ref sig .tc) (hr : r ∉ it21_W) :
    after (it21 (F := F)) V (Proc.devRef (τ := τ) .tc r) = V (Proc.devRef (τ := τ) .tc r) :=
  after_of_writes_sub it21 V it21_writes hr

theorem it21hd_keep (V : Valuation τ sig (Elt F)) (r : Ref sig .tc) (hr : r ∉ it21_W) :
    after (it21hd (F := F)) V (Proc.devRef (τ := τ) .tc r) = V (Proc.devRef (τ := τ) .tc r) :=
  after_of_writes_sub it21hd V it21hd_writes hr

/-- The iteration's result: the rows of the matrix it is handed at the compacted indices of its mask. -/
theorem it21_res (V : Valuation τ sig (Elt F)) :
    after (it21 (F := F)) V (Proc.devRef (τ := τ) .tc main_v403) = RefFns.nzTake (V (Proc.devRef (τ := τ) .tc main_v7)) (RefFns.colMask (V (Proc.devRef (τ := τ) .tc main_v1)) 21 slices_S1024x32x1_S1024x1x1_0_21_0) := by
  rw [it21, after_append, it21H_val, it21hd_keep V main_v7 (by decide), it21hd]
  simp only [after_append]
  rw [it21G_val, it21E_val, it21D_val, it21C_val, it21B_val, it21A_val]
  rfl

set_option maxRecDepth 65536 in
set_option maxHeartbeats 4000000 in
/-- The invariant of the run survives the iteration, with its block added. -/
theorem it21_step {x : FVec F S1x32x1024 .f32} {V : Valuation τ sig (Elt F)} (hg : Good 21 x V) : Good 22 x (after (it21 (F := F)) V) :=
  good_step 21 (by decide) it21 it21_W slices_S1024x32x1_S1024x1x1_0_21_0 it21_keep it21_res (fun _ => rfl) (by decide +kernel) (by decide +kernel) (by decide +kernel) (by decide +kernel) hg

end Cert.ReferenceIdeal.HandRun

end
-- ==== Proof.RefOpsIt22.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 9 of @main). -/
noncomputable def it22A : List (HloOp τ sig (Elt F)) :=
  [ StableHlo.unary main_v1 main_v404 ((extractStridedSlice S1024x1x1 ![0, 22, 0] · slices_S1024x32x1_S1024x1x1_0_22_0) : (⟨S1024x32x1, .i1⟩ : BufTy).Contents (Elt F) → (⟨S1024x1x1, .i1⟩ : BufTy).Contents (Elt F)),
    StableHlo.reshape main_v404 main_v405 rfl shapeCasts_S1024x1x1_S1024,
    StableHlo.unary main_v405 main_v406 (noti : (⟨S1024, .i1⟩ : BufTy).Contents (Elt F) → (⟨S1024, .i1⟩ : BufTy).Contents (Elt F)) ]

theorem it22A_sub : (it22A (F := F)).Forall fun op => op.bufs ⊆ tcRefs τ sig :=
  ⟨unary_bufs_sub .., reshape_bufs_sub .., unary_bufs_sub ..⟩

theorem it22A_fresh : (it22A (F := F)).Forall fun op => op.fresh = ∅ :=
  ⟨rfl, rfl, rfl⟩

/-- A piece of this stretch (window 9 of @main). -/
noncomputable def it22B : List (HloOp τ sig (Elt F)) :=
  [ StableHlo.TRef.unary (.of main_v406 : StableHlo.TRef sig ⟨S1024, .i1⟩) main_call132.v0 (extui 32 · natLt_1_32),
    StableHlo.TRef.nullary main_call132.call0.c (constantI S_ 32 0#32),
    StableHlo.TRef.unary main_call132.call0.c main_call132.call0.v0 (broadcastInDim S_ ![] bcast_S_S_),
    StableHlo.TRef.binary main_call132.v0 main_call132.call0.v0 main_call132.call0.v1 (fun x v => Host.reduceWindow IntOp.addi ![1024] ![1] ![1023] ![0] x v reduceWindows_S1024_S1024_w1024s1p1023_0 h_S_) ]

theorem it22B_sub : (it22B (F := F)).Forall fun op => op.bufs ⊆ tcRefs τ sig :=
  ⟨unary_bufs_sub .., nullary_bufs_sub .., unary_bufs_sub .., binary_bufs_sub ..⟩

theorem it22B_fresh : (it22B (F := F)).Forall fun op => op.fresh = ∅ :=
  ⟨rfl, rfl, rfl, rfl⟩

/-- A piece of this stretch (window 9 of @main). -/
noncomputable def it22C : List (HloOp τ sig (Elt F)) :=
  [ StableHlo.nullary main_c_154 (constantI S_ 32 0#32),
    StableHlo.unary main_c_154 main_v408 (broadcastInDim S1024 ![] bcast_S_S1024 : (⟨S_, .i32⟩ : BufTy).Contents (Elt F) → (⟨S1024, .i32⟩ : BufTy).Contents (Elt F)),
    StableHlo.nullary main_c_155 (constantI S_ 32 0#32),
    StableHlo.TRef.unary (.of main_c_155 : StableHlo.TRef sig ⟨S_, .i32⟩) main_call133.v0 id,
    StableHlo.TRef.unary main_call133.v0 main_call133.v1 (broadcastInDim S1024 ![] bcast_S_S1024),
    StableHlo.TRef.binary main_call133.v1 (.of main_v407 : StableHlo.TRef sig ⟨S1024, .i32⟩) main_call133.v2 maxsi,
    StableHlo.nullary main_c_156 (constantI S_ 32 0#32),
    StableHlo.unary main_c_156 main_v410 (broadcastInDim S1024 ![] bcast_S_S1024 : (⟨S_, .i32⟩ : BufTy).Contents (Elt F) → (⟨S1024, .i32⟩ : BufTy).Contents (Elt F)),
    StableHlo.binary main_v409 main_v410 main_v411 (cmpi .slt : (⟨S1024, .i32⟩ : BufTy).Contents (Elt F) → (⟨S1024, .i32⟩ : BufTy).Contents (Elt F) → (⟨S1024, .i1⟩ : BufTy).Contents (Elt F)),
    StableHlo.nullary main_c_157 (constantI S_ 32 1024#32),
    StableHlo.unary main_c_157 main_v412 (broadcastInDim S1024 ![] bcast_S_S1024 : (⟨S_, .i32⟩ : BufTy).Contents (Elt F) → (⟨S1024, .i32⟩ : BufTy).Contents (Elt F)),
    StableHlo.binary main_v409 main_v412 main_v413 (addi : (⟨S1024, .i32⟩ : BufTy).Contents (Elt F) → (⟨S1024, .i32⟩ : BufTy).Contents (Elt F) → (⟨S1024, .i32⟩ : BufTy).Contents (Elt F)),
    StableHlo.ternary main_v411 main_v413 main_v409 main_v414 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v414 main_v415 (broadcastInDim S1024x1 ![0] bcast_S1024_S1024x1_0 : (⟨S1024, .i32⟩ : BufTy).Contents (Elt F) → (⟨S1024x1, .i32⟩ : BufTy).Contents (Elt F)),
    StableHlo.nullary main_c_158 (constantI S_ 32 1#32),
    StableHlo.unary main_c_158 main_v416 (broadcastInDim S1024 ![] bcast_S_S1024 : (⟨S_, .i32⟩ : BufTy).Contents (Elt F) → (⟨S1024, .i32⟩ : BufTy).Contents (Elt F)),
    StableHlo.ternary main_v408 main_v415 main_v416 main_v417 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it22C_sub : (it22C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it22C_fresh : (it22C (F := F)).Forall fun op => op.fresh = ∅ :=
  ⟨rfl, rfl, rfl, rfl, rfl, rfl, rfl, rfl, rfl, rfl, rfl, rfl, rfl, rfl, rfl, rfl, rfl⟩

/-- A piece of this stretch (window 9 of @main). -/
noncomputable def it22D : List (HloOp τ sig (Elt F)) :=
  [ StableHlo.TRef.nullary main_call134.call0.c (constantI S_ 32 0#32),
    StableHlo.TRef.unary main_call134.call0.c main_call134.call0.v0 (broadcastInDim S_ ![] bcast_S_S_),
    StableHlo.TRef.binary (.of main_v417 : StableHlo.TRef sig ⟨S1024, .i32⟩) main_call134.call0.v0 main_call134.call0.v1 (fun x v => Host.reduceWindow IntOp.addi ![1024] ![1] ![1023] ![0] x v reduceWindows_S1024_S1024_w1024s1p1023_0 h_S_) ]

theorem it22D_sub : (it22D (F := F)).Forall fun op => op.bufs ⊆ tcRefs τ sig :=
  ⟨nullary_bufs_sub .., unary_bufs_sub .., binary_bufs_sub ..⟩

theorem it22D_fresh : (it22D (F := F)).Forall fun op => op.fresh = ∅ :=
  ⟨rfl, rfl, rfl⟩

/-- A piece of this stretch (window 9 of @main). -/
noncomputable def it22E : List (HloOp τ sig (Elt F)) :=
  [ StableHlo.nullary main_c_159 (constantI S_ 32 1#32),
    StableHlo.TRef.unary (.of main_c_159 : StableHlo.TRef sig ⟨S_, .i32⟩) main_call135.v0 (broadcastInDim S1024 ![] bcast_S_S1024),
    StableHlo.TRef.binary (.of main_v418 : StableHlo.TRef sig ⟨S1024, .i32⟩) main_call135.v0 main_call135.v1 Host.divsi,
    StableHlo.TRef.unary (.of main_v418 : StableHlo.TRef sig ⟨S1024, .i32⟩) main_call135.v2 signi,
    StableHlo.TRef.unary (.of main_c_159 : StableHlo.TRef sig ⟨S_, .i32⟩) main_call135.v3 signi,
    StableHlo.TRef.unary main_call135.v3 main_call135.v4 (broadcastInDim S1024 ![] bcast_S_S1024),
    StableHlo.TRef.binary main_call135.v2 main_call135.v4 main_call135.v5 (cmpi .ne),
    StableHlo.TRef.unary (.of main_c_159 : StableHlo.TRef sig ⟨S_, .i32⟩) main_call135.v6 (broadcastInDim S1024 ![] bcast_S_S1024),
    StableHlo.TRef.binary (.of main_v418 : StableHlo.TRef sig ⟨S1024, .i32⟩) main_call135.v6 main_call135.v7 Host.remsi,
    StableHlo.TRef.nullary main_call135.c (constantI S_ 32 0#32),
    StableHlo.TRef.unary main_call135.c main_call135.v8 (broadcastInDim S1024 ![] bcast_S_S1024),
    StableHlo.TRef.binary main_call135.v7 main_call135.v8 main_call135.v9 (cmpi .ne),
    StableHlo.TRef.binary main_call135.v5 main_call135.v9 main_call135.v10 andi,
    StableHlo.TRef.nullary main_call135.c_0 (constantI S_ 32 1#32),
    StableHlo.TRef.unary main_call135.c_0 main_call135.v11 (broadcastInDim S1024 ![] bcast_S_S1024),
    StableHlo.TRef.binary main_call135.v1 main_call135.v11 main_call135.v12 subi,
    StableHlo.TRef.ternary main_call135.v10 main_call135.v12 main_call135.v1 main_call135.call0.v0 select ]

theorem it22E_sub : (it22E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it22E_fresh : (it22E (F := F)).Forall fun op => op.fresh = ∅ :=
  ⟨rfl, rfl, rfl, rfl, rfl, rfl, rfl, rfl, rfl, rfl, rfl, rfl, rfl, rfl, rfl, rfl, rfl⟩

/-- A piece of this stretch (window 9 of @main). -/
noncomputable def it22G : List (HloOp τ sig (Elt F)) :=
  [ StableHlo.nullary main_c_160 (constantI S_ 32 1024#32),
    StableHlo.TRef.unary (.of main_c_160 : StableHlo.TRef sig ⟨S_, .i32⟩) main_call136.v0 id,
    StableHlo.TRef.nullary main_call136.c (constantI S_ 32 0#32),
    StableHlo.TRef.binary main_call136.v0 main_call136.c main_call136.v1 (cmpi .eq),
    StableHlo.TRef.nullary main_call136.c_0 (constantI S_ 32 1#32),
    StableHlo.TRef.ternary main_call136.v1 main_call136.c_0 main_call136.v0 main_call136.call0.v0 select,
    StableHlo.TRef.unary main_call136.call0.v0 main_call136.v3 (broadcastInDim S1024 ![] bcast_S_S1024),
    StableHlo.TRef.binary (.of main_v419 : StableHlo.TRef sig ⟨S1024, .i32⟩) main_call136.v3 main_call136.v4 Host.remsi,
    StableHlo.TRef.nullary main_call136.c_1 (constantI S_ 32 0#32),
    StableHlo.TRef.unary main_call136.c_1 main_call136.v5 (broadcastInDim S1024 ![] bcast_S_S1024),
    StableHlo.TRef.binary main_call136.v4 main_call136.v5 main_call136.v6 (cmpi .ne),
    StableHlo.TRef.nullary main_call136.c_2 (constantI S_ 32 0#32),
    StableHlo.TRef.unary main_call136.c_2 main_call136.v7 (broadcastInDim S1024 ![] bcast_S_S1024),
    StableHlo.TRef.binary main_call136.v4 main_call136.v7 main_call136.v8 (cmpi .slt),
    StableHlo.TRef.nullary main_call136.c_3 (constantI S_ 32 0#32),
    StableHlo.TRef.binary main_call136.call0.v0 main_call136.c_3 main_call136.v9 (cmpi .slt),
    StableHlo.TRef.unary main_call136.v9 main_call136.v10 (broadcastInDim S1024 ![] bcast_S_S1024),
    StableHlo.TRef.binary main_call136.v8 main_call136.v10 main_call136.v11 (cmpi .ne),
    StableHlo.TRef.binary main_call136.v11 main_call136.v6 main_call136.v12 andi,
    StableHlo.TRef.unary main_call136.call0.v0 main_call136.v13 (broadcastInDim S1024 ![] bcast_S_S1024),
    StableHlo.TRef.binary main_call136.v4 main_call136.v13 main_call136.v14 addi,
    StableHlo.TRef.ternary main_call136.v12 main_call136.v14 main_call136.v4 main_call136.v15 select ]

theorem it22G_sub : (it22G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it22G_fresh : (it22G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 9 of @main). -/
noncomputable def it22H : List (HloOp τ sig (Elt F)) :=
  [ StableHlo.TRef.nullary main_call137.c (constantI S_ 32 0#32),
    StableHlo.TRef.unary main_call137.c main_call137.v0 (broadcastInDim S1024 ![] bcast_S_S1024),
    StableHlo.TRef.binary (.of main_v420 : StableHlo.TRef sig ⟨S1024, .i32⟩) main_call137.v0 main_call137.v1 (cmpi .slt),
    StableHlo.TRef.nullary main_call137.c_0 (constantI S_ 32 1024#32),
    StableHlo.TRef.unary main_call137.c_0 main_call137.v2 (broadcastInDim S1024 ![] bcast_S_S1024),
    StableHlo.TRef.binary (.of main_v420 : StableHlo.TRef sig ⟨S1024, .i32⟩) main_call137.v2 main_call137.v3 addi,
    StableHlo.TRef.ternary main_call137.v1 main_call137.v3 (.of main_v420 : StableHlo.TRef sig ⟨S1024, .i32⟩) main_call137.call0.v0 select,
    StableHlo.TRef.unary main_call137.call0.v0 main_call137.v5 (broadcastInDim S1024x1 ![0] bcast_S1024_S1024x1_0),
    StableHlo.TRef.nullary main_call137.c_1 (constantI S1 32 1023#32),
    StableHlo.TRef.nullary main_call137.c_2 (constantI S_ 32 0#32),
    StableHlo.TRef.unary main_call137.c_2 main_call137.v6 (broadcastInDim S1024x1 ![] bcast_S_S1024x1),
    StableHlo.TRef.binary main_call137.v5 main_call137.v6 main_call137.v7 (cmpi .sge),
    StableHlo.TRef.unary main_call137.c_1 main_call137.v8 (broadcastInDim S1x1 ![1] bcast_S1_S1x1_1),
    StableHlo.TRef.unary main_call137.v8 main_call137.v9 (broadcastInDim S1024x1 ![0, 1] bcast_S1x1_S1024x1_0_1),
    StableHlo.TRef.binary main_call137.v5 main_call137.v9 main_call137.v10 (cmpi .sle),
    StableHlo.TRef.binary main_call137.v7 main_call137.v10 main_call137.v11 andi,
    StableHlo.TRef.nullary main_call137.c_3 (constantI S_ 1 1#1),
    StableHlo.TRef.binary main_call137.v11 main_call137.c_3 main_call137.v12 (fun x v => Host.reduce IntOp.andi x v reducesTo_S1024x1_S1024_d1 h_S_),
    StableHlo.TRef.binary (.of main_v7 : StableHlo.TRef sig ⟨S1024x1024, .f32⟩) main_call137.v5 main_call137.v13 (fun x i => Host.gather gather_S1024x1024_S1024x1_S1024x1024_1_0_n_n_0_1_11024 x i),
    StableHlo.TRef.unary main_call137.v12 main_call137.v14 (broadcastInDim S1024x1024 ![0] bcast_S1024_S1024x1024_0),
    StableHlo.TRef.nullary main_call137.cst (constant S_ .f32 0x7FC00000#32),
    StableHlo.TRef.unary main_call137.cst main_call137.v15 (broadcastInDim S1024x1024 ![] bcast_S_S1024x1024),
    StableHlo.TRef.ternary main_call137.v14 main_call137.v13 main_call137.v15 main_call137.v16 select ]

theorem it22H_sub : (it22H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it22H_fresh : (it22H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it22_W : List (Ref sig .tc) :=
  [main_v404, main_v405, main_v406, (main_call132.v0.ref), (main_call132.call0.c.ref), (main_call132.call0.v0.ref), (main_call132.call0.v1.ref), main_c_154, main_v408, main_c_155, (main_call133.v0.ref), (main_call133.v1.ref), (main_call133.v2.ref), main_c_156, main_v410, main_v411, main_c_157, main_v412, main_v413, main_v414, main_v415, main_c_158, main_v416, main_v417, (main_call134.call0.c.ref), (main_call134.call0.v0.ref), (main_call134.call0.v1.ref), main_c_159, (main_call135.v0.ref), (main_call135.v1.ref), (main_call135.v2.ref), (main_call135.v3.ref), (main_call135.v4.ref), (main_call135.v5.ref), (main_call135.v6.ref), (main_call135.v7.ref), (main_call135.c.ref), (main_call135.v8.ref), (main_call135.v9.ref), (main_call135.v10.ref), (main_call135.c_0.ref), (main_call135.v11.ref), (main_call135.v12.ref), (main_call135.call0.v0.ref), main_c_160, (main_call136.v0.ref), (main_call136.c.ref), (main_call136.v1.ref), (main_call136.c_0.ref), (main_call136.call0.v0.ref), (main_call136.v3.ref), (main_call136.v4.ref), (main_call136.c_1.ref), (main_call136.v5.ref), (main_call136.v6.ref), (main_call136.c_2.ref), (main_call136.v7.ref), (main_call136.v8.ref), (main_call136.c_3.ref), (main_call136.v9.ref), (main_call136.v10.ref), (main_call136.v11.ref), (main_call136.v12.ref), (main_call136.v13.ref), (main_call136.v14.ref), (main_call136.v15.ref), (main_call137.c.ref), (main_call137.v0.ref), (main_call137.v1.ref), (main_call137.c_0.ref), (main_call137.v2.ref), (main_call137.v3.ref), (main_call137.call0.v0.ref), (main_call137.v5.ref), (main_call137.c_1.ref), (main_call137.c_2.ref), (main_call137.v6.ref), (main_call137.v7.ref), (main_call137.v8.ref), (main_call137.v9.ref), (main_call137.v10.ref), (main_call137.v11.ref), (main_call137.c_3.ref), (main_call137.v12.ref), (main_call137.v13.ref), (main_call137.v14.ref), (main_call137.cst.ref), (main_call137.v15.ref), (main_call137.v16.ref)]

/-- The iteration up to the row lookup. -/
noncomputable def it22hd : List (HloOp τ sig (Elt F)) := it22A ++ (it22B ++ (it22C ++ (it22D ++ (it22E ++ it22G))))

/-- The iteration. -/
noncomputable def it22 : List (HloOp τ sig (Elt F)) := it22hd ++ it22H
theorem it22_sub : (it22 (F := F)).Forall fun op => op.bufs ⊆ tcRefs τ sig :=
  forall_append (forall_append it22A_sub (forall_append it22B_sub (forall_append it22C_sub (forall_append it22D_sub (forall_append it22E_sub it22G_sub))))) it22H_sub
theorem it22_fresh : (it22 (F := F)).Forall fun op => op.fresh = ∅ :=
  forall_append (forall_append it22A_fresh (forall_append it22B_fresh (forall_append it22C_fresh (forall_append it22D_fresh (forall_append it22E_fresh it22G_fresh))))) it22H_fresh

/-- The iteration as the concatenation of its pieces. -/
theorem it22_atoms : it22 (F := F) = it22A ++ (it22B ++ (it22C ++ (it22D ++ (it22E ++ (it22G ++ it22H))))) := by
  simp only [it22, it22hd, List.append_assoc]

end Cert.ReferenceIdeal.HandRun

end
-- ==== Proof.RefIt22.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt22

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it22A_val (V : Valuation τ sig (Elt F)) :
    after (it22A (F := F)) V (Proc.devRef (τ := τ) .tc main_v406) = RefFns.colMask (V (Proc.devRef (τ := τ) .tc main_v1)) 22 slices_S1024x32x1_S1024x1x1_0_22_0 := by
  simp only [it22A, List.cons_append, List.nil_append]
  after_results_simp
  try simp only [cast_eq]
  rfl

set_option maxRecDepth 65536 in
set_option maxHeartbeats 1000000 in
theorem it22B_val (V : Valuation τ sig (Elt F)) :
    after (it22B (F := F)) V (Proc.devRef (τ := τ) .tc main_v407) = RefFns.cumsumF (V (Proc.devRef (τ := τ) .tc main_v406)) := by
  simp only [it22B, List.cons_append, List.nil_append]
  after_results_simp
  try simp only [cast_eq]
  rfl

set_option maxRecDepth 65536 in
set_option maxHeartbeats 1000000 in
theorem it22C_val (V : Valuation τ sig (Elt F)) :
    after (it22C (F := F)) V (Proc.devRef (τ := τ) .tc main_v417) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v407)) (constantI S_ 32 0#32)) (broadcastInDim S1024 ![] bcast_S_S1024 (constantI S_ 32 0#32))) (addi (RefFns.clipF (V (Proc.devRef (τ := τ) .tc main_v407)) (constantI S_ 32 0#32)) (broadcastInDim S1024 ![] bcast_S_S1024 (constantI S_ 32 1024#32))) (RefFns.clipF (V (Proc.devRef (τ := τ) .tc main_v407)) (constantI S_ 32 0#32)))) (broadcastInDim S1024 ![] bcast_S_S1024 (constantI S_ 32 1#32)) := by
  simp only [it22C, List.cons_append, List.nil_append]
  after_results_simp
  try simp only [cast_eq]
  rfl

set_option maxRecDepth 65536 in
set_option maxHeartbeats 1000000 in
theorem it22D_val (V : Valuation τ sig (Elt F)) :
    after (it22D (F := F)) V (Proc.devRef (τ := τ) .tc main_v418) = RefFns.cumsum1F (V (Proc.devRef (τ := τ) .tc main_v417)) := by
  simp only [it22D, List.cons_append, List.nil_append]
  after_results_simp
  try simp only [cast_eq]
  rfl

set_option maxRecDepth 65536 in
set_option maxHeartbeats 1000000 in
theorem it22E_val (V : Valuation τ sig (Elt F)) :
    after (it22E (F := F)) V (Proc.devRef (τ := τ) .tc main_v419) = RefFns.floorDivF (V (Proc.devRef (τ := τ) .tc main_v418)) (constantI S_ 32 1#32) := by
  simp only [it22E, List.cons_append, List.nil_append]
  after_results_simp
  try simp only [cast_eq]
  rfl

set_option maxRecDepth 65536 in
set_option maxHeartbeats 1000000 in
theorem it22G_val (V : Valuation τ sig (Elt F)) :
    after (it22G (F := F)) V (Proc.devRef (τ := τ) .tc main_v420) = RefFns.remainderF (V (Proc.devRef (τ := τ) .tc main_v419)) (constantI S_ 32 1024#32) := by
  simp only [it22G, List.cons_append, List.nil_append]
  after_results_simp
  try simp only [cast_eq]
  rfl

set_option maxRecDepth 65536 in
set_option maxHeartbeats 1000000 in
theorem it22H_val (V : Valuation τ sig (Elt F)) :
    after (it22H (F := F)) V (Proc.devRef (τ := τ) .tc main_v421) = RefFns.takeF (V (Proc.devRef (τ := τ) .tc main_v7)) (V (Proc.devRef (τ := τ) .tc main_v420)) := by
  simp only [it22H, List.cons_append, List.nil_append]
  after_results_simp
  try simp only [cast_eq]
  rfl

theorem it22A_writes : (it22A (F := F)).Forall fun op => op.writes ⊆ (it22_W.map (Proc.devRef (τ := τ) .tc)).toFinset :=
  ⟨wsub main_v404 (by decide), wsub main_v405 (by decide), wsub main_v406 (by decide)⟩

theorem it22B_writes : (it22B (F := F)).Forall fun op => op.writes ⊆ (it22_W.map (Proc.devRef (τ := τ) .tc)).toFinset :=
  ⟨wsub (main_call132.v0.ref) (by decide), wsub (main_call132.call0.c.ref) (by decide), wsub (main_call132.call0.v0.ref) (by decide), wsub (main_call132.call0.v1.ref) (by decide)⟩

theorem it22C_writes : (it22C (F := F)).Forall fun op => op.writes ⊆ (it22_W.map (Proc.devRef (τ := τ) .tc)).toFinset :=
  ⟨wsub main_c_154 (by decide), wsub main_v408 (by decide), wsub main_c_155 (by decide), wsub (main_call133.v0.ref) (by decide), wsub (main_call133.v1.ref) (by decide), wsub (main_call133.v2.ref) (by decide), wsub main_c_156 (by decide), wsub main_v410 (by decide), wsub main_v411 (by decide), wsub main_c_157 (by decide), wsub main_v412 (by decide), wsub main_v413 (by decide), wsub main_v414 (by decide), wsub main_v415 (by decide), wsub main_c_158 (by decide), wsub main_v416 (by decide), wsub main_v417 (by decide)⟩

theorem it22D_writes : (it22D (F := F)).Forall fun op => op.writes ⊆ (it22_W.map (Proc.devRef (τ := τ) .tc)).toFinset :=
  ⟨wsub (main_call134.call0.c.ref) (by decide), wsub (main_call134.call0.v0.ref) (by decide), wsub (main_call134.call0.v1.ref) (by decide)⟩

theorem it22E_writes : (it22E (F := F)).Forall fun op => op.writes ⊆ (it22_W.map (Proc.devRef (τ := τ) .tc)).toFinset :=
  ⟨wsub main_c_159 (by decide), wsub (main_call135.v0.ref) (by decide), wsub (main_call135.v1.ref) (by decide), wsub (main_call135.v2.ref) (by decide), wsub (main_call135.v3.ref) (by decide), wsub (main_call135.v4.ref) (by decide), wsub (main_call135.v5.ref) (by decide), wsub (main_call135.v6.ref) (by decide), wsub (main_call135.v7.ref) (by decide), wsub (main_call135.c.ref) (by decide), wsub (main_call135.v8.ref) (by decide), wsub (main_call135.v9.ref) (by decide), wsub (main_call135.v10.ref) (by decide), wsub (main_call135.c_0.ref) (by decide), wsub (main_call135.v11.ref) (by decide), wsub (main_call135.v12.ref) (by decide), wsub (main_call135.call0.v0.ref) (by decide)⟩

theorem it22G_writes : (it22G (F := F)).Forall fun op => op.writes ⊆ (it22_W.map (Proc.devRef (τ := τ) .tc)).toFinset :=
  ⟨wsub main_c_160 (by decide), wsub (main_call136.v0.ref) (by decide), wsub (main_call136.c.ref) (by decide), wsub (main_call136.v1.ref) (by decide), wsub (main_call136.c_0.ref) (by decide), wsub (main_call136.call0.v0.ref) (by decide), wsub (main_call136.v3.ref) (by decide), wsub (main_call136.v4.ref) (by decide), wsub (main_call136.c_1.ref) (by decide), wsub (main_call136.v5.ref) (by decide), wsub (main_call136.v6.ref) (by decide), wsub (main_call136.c_2.ref) (by decide), wsub (main_call136.v7.ref) (by decide), wsub (main_call136.v8.ref) (by decide), wsub (main_call136.c_3.ref) (by decide), wsub (main_call136.v9.ref) (by decide), wsub (main_call136.v10.ref) (by decide), wsub (main_call136.v11.ref) (by decide), wsub (main_call136.v12.ref) (by decide), wsub (main_call136.v13.ref) (by decide), wsub (main_call136.v14.ref) (by decide), wsub (main_call136.v15.ref) (by decide)⟩

theorem it22H_writes : (it22H (F := F)).Forall fun op => op.writes ⊆ (it22_W.map (Proc.devRef (τ := τ) .tc)).toFinset :=
  ⟨wsub (main_call137.c.ref) (by decide), wsub (main_call137.v0.ref) (by decide), wsub (main_call137.v1.ref) (by decide), wsub (main_call137.c_0.ref) (by decide), wsub (main_call137.v2.ref) (by decide), wsub (main_call137.v3.ref) (by decide), wsub (main_call137.call0.v0.ref) (by decide), wsub (main_call137.v5.ref) (by decide), wsub (main_call137.c_1.ref) (by decide), wsub (main_call137.c_2.ref) (by decide), wsub (main_call137.v6.ref) (by decide), wsub (main_call137.v7.ref) (by decide), wsub (main_call137.v8.ref) (by decide), wsub (main_call137.v9.ref) (by decide), wsub (main_call137.v10.ref) (by decide), wsub (main_call137.v11.ref) (by decide), wsub (main_call137.c_3.ref) (by decide), wsub (main_call137.v12.ref) (by decide), wsub (main_call137.v13.ref) (by decide), wsub (main_call137.v14.ref) (by decide), wsub (main_call137.cst.ref) (by decide), wsub (main_call137.v15.ref) (by decide), wsub (main_call137.v16.ref) (by decide)⟩

theorem it22hd_writes : (it22hd (F := F)).Forall fun op => op.writes ⊆ (it22_W.map (Proc.devRef (τ := τ) .tc)).toFinset :=
  forall_append it22A_writes (forall_append it22B_writes (forall_append it22C_writes (forall_append it22D_writes (forall_append it22E_writes it22G_writes))))

theorem it22_writes : (it22 (F := F)).Forall fun op => op.writes ⊆ (it22_W.map (Proc.devRef (τ := τ) .tc)).toFinset :=
  forall_append it22hd_writes (it22H_writes)

/-- The iteration leaves every buffer it does not write as it was. -/
theorem it22_keep (V : Valuation τ sig (Elt F)) (r : Ref sig .tc) (hr : r ∉ it22_W) :
    after (it22 (F := F)) V (Proc.devRef (τ := τ) .tc r) = V (Proc.devRef (τ := τ) .tc r) :=
  after_of_writes_sub it22 V it22_writes hr

theorem it22hd_keep (V : Valuation τ sig (Elt F)) (r : Ref sig .tc) (hr : r ∉ it22_W) :
    after (it22hd (F := F)) V (Proc.devRef (τ := τ) .tc r) = V (Proc.devRef (τ := τ) .tc r) :=
  after_of_writes_sub it22hd V it22hd_writes hr

/-- The iteration's result: the rows of the matrix it is handed at the compacted indices of its mask. -/
theorem it22_res (V : Valuation τ sig (Elt F)) :
    after (it22 (F := F)) V (Proc.devRef (τ := τ) .tc main_v421) = RefFns.nzTake (V (Proc.devRef (τ := τ) .tc main_v7)) (RefFns.colMask (V (Proc.devRef (τ := τ) .tc main_v1)) 22 slices_S1024x32x1_S1024x1x1_0_22_0) := by
  rw [it22, after_append, it22H_val, it22hd_keep V main_v7 (by decide), it22hd]
  simp only [after_append]
  rw [it22G_val, it22E_val, it22D_val, it22C_val, it22B_val, it22A_val]
  rfl

set_option maxRecDepth 65536 in
set_option maxHeartbeats 4000000 in
/-- The invariant of the run survives the iteration, with its block added. -/
theorem it22_step {x : FVec F S1x32x1024 .f32} {V : Valuation τ sig (Elt F)} (hg : Good 22 x V) : Good 23 x (after (it22 (F := F)) V) :=
  good_step 22 (by decide) it22 it22_W slices_S1024x32x1_S1024x1x1_0_22_0 it22_keep it22_res (fun _ => rfl) (by decide +kernel) (by decide +kernel) (by decide +kernel) (by decide +kernel) hg

end Cert.ReferenceIdeal.HandRun

end
-- ==== Proof.RefOpsIt23.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 9 of @main). -/
noncomputable def it23A : List (HloOp τ sig (Elt F)) :=
  [ StableHlo.unary main_v1 main_v422 ((extractStridedSlice S1024x1x1 ![0, 23, 0] · slices_S1024x32x1_S1024x1x1_0_23_0) : (⟨S1024x32x1, .i1⟩ : BufTy).Contents (Elt F) → (⟨S1024x1x1, .i1⟩ : BufTy).Contents (Elt F)),
    StableHlo.reshape main_v422 main_v423 rfl shapeCasts_S1024x1x1_S1024,
    StableHlo.unary main_v423 main_v424 (noti : (⟨S1024, .i1⟩ : BufTy).Contents (Elt F) → (⟨S1024, .i1⟩ : BufTy).Contents (Elt F)) ]

theorem it23A_sub : (it23A (F := F)).Forall fun op => op.bufs ⊆ tcRefs τ sig :=
  ⟨unary_bufs_sub .., reshape_bufs_sub .., unary_bufs_sub ..⟩

theorem it23A_fresh : (it23A (F := F)).Forall fun op => op.fresh = ∅ :=
  ⟨rfl, rfl, rfl⟩

/-- A piece of this stretch (window 9 of @main). -/
noncomputable def it23B : List (HloOp τ sig (Elt F)) :=
  [ StableHlo.TRef.unary (.of main_v424 : StableHlo.TRef sig ⟨S1024, .i1⟩) main_call138.v0 (extui 32 · natLt_1_32),
    StableHlo.TRef.nullary main_call138.call0.c (constantI S_ 32 0#32),
    StableHlo.TRef.unary main_call138.call0.c main_call138.call0.v0 (broadcastInDim S_ ![] bcast_S_S_),
    StableHlo.TRef.binary main_call138.v0 main_call138.call0.v0 main_call138.call0.v1 (fun x v => Host.reduceWindow IntOp.addi ![1024] ![1] ![1023] ![0] x v reduceWindows_S1024_S1024_w1024s1p1023_0 h_S_) ]

theorem it23B_sub : (it23B (F := F)).Forall fun op => op.bufs ⊆ tcRefs τ sig :=
  ⟨unary_bufs_sub .., nullary_bufs_sub .., unary_bufs_sub .., binary_bufs_sub ..⟩

theorem it23B_fresh : (it23B (F := F)).Forall fun op => op.fresh = ∅ :=
  ⟨rfl, rfl, rfl, rfl⟩

/-- A piece of this stretch (window 9 of @main). -/
noncomputable def it23Ca : List (HloOp τ sig (Elt F)) :=
  [ StableHlo.nullary main_c_161 (constantI S_ 32 0#32),
    StableHlo.unary main_c_161 main_v426 (broadcastInDim S1024 ![] bcast_S_S1024 : (⟨S_, .i32⟩ : BufTy).Contents (Elt F) → (⟨S1024, .i32⟩ : BufTy).Contents (Elt F)),
    StableHlo.nullary main_c_162 (constantI S_ 32 0#32),
    StableHlo.TRef.unary (.of main_c_162 : StableHlo.TRef sig ⟨S_, .i32⟩) main_call139.v0 id,
    StableHlo.TRef.unary main_call139.v0 main_call139.v1 (broadcastInDim S1024 ![] bcast_S_S1024),
    StableHlo.TRef.binary main_call139.v1 (.of main_v425 : StableHlo.TRef sig ⟨S1024, .i32⟩) main_call139.v2 maxsi,
    StableHlo.nullary main_c_163 (constantI S_ 32 0#32),
    StableHlo.unary main_c_163 main_v428 (broadcastInDim S1024 ![] bcast_S_S1024 : (⟨S_, .i32⟩ : BufTy).Contents (Elt F) → (⟨S1024, .i32⟩ : BufTy).Contents (Elt F)),
    StableHlo.binary main_v427 main_v428 main_v429 (cmpi .slt : (⟨S1024, .i32⟩ : BufTy).Contents (Elt F) → (⟨S1024, .i32⟩ : BufTy).Contents (Elt F) → (⟨S1024, .i1⟩ : BufTy).Contents (Elt F)),
    StableHlo.nullary main_c_164 (constantI S_ 32 1024#32),
    StableHlo.unary main_c_164 main_v430 (broadcastInDim S1024 ![] bcast_S_S1024 : (⟨S_, .i32⟩ : BufTy).Contents (Elt F) → (⟨S1024, .i32⟩ : BufTy).Contents (Elt F)),
    StableHlo.binary main_v427 main_v430 main_v431 (addi : (⟨S1024, .i32⟩ : BufTy).Contents (Elt F) → (⟨S1024, .i32⟩ : BufTy).Contents (Elt F) → (⟨S1024, .i32⟩ : BufTy).Contents (Elt F)),
    StableHlo.ternary main_v429 main_v431 main_v427 main_v432 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v432 main_v433 (broadcastInDim S1024x1 ![0] bcast_S1024_S1024x1_0 : (⟨S1024, .i32⟩ : BufTy).Contents (Elt F) → (⟨S1024x1, .i32⟩ : BufTy).Contents (Elt F)) ]

theorem it23Ca_sub : (it23Ca (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩

theorem it23Ca_fresh : (it23Ca (F := F)).Forall fun op => op.fresh = ∅ :=
  ⟨rfl, rfl, rfl, rfl, rfl, rfl, rfl, rfl, rfl, rfl, rfl, rfl, rfl, rfl⟩

/-- A piece of this stretch (window 10 of @main). -/
noncomputable def it23Cb : List (HloOp τ sig (Elt F)) :=
  [ StableHlo.nullary main_c_165 (constantI S_ 32 1#32),
    StableHlo.unary main_c_165 main_v434 (broadcastInDim S1024 ![] bcast_S_S1024 : (⟨S_, .i32⟩ : BufTy).Contents (Elt F) → (⟨S1024, .i32⟩ : BufTy).Contents (Elt F)),
    StableHlo.ternary main_v426 main_v433 main_v434 main_v435 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it23Cb_sub : (it23Cb (F := F)).Forall fun op => op.bufs ⊆ tcRefs τ sig :=
  ⟨nullary_bufs_sub .., unary_bufs_sub .., ternary_bufs_sub ..⟩

theorem it23Cb_fresh : (it23Cb (F := F)).Forall fun op => op.fresh = ∅ :=
  ⟨rfl, rfl, rfl⟩

/-- A piece of this stretch (window 10 of @main). -/
noncomputable def it23D : List (HloOp τ sig (Elt F)) :=
  [ StableHlo.TRef.nullary main_call140.call0.c (constantI S_ 32 0#32),
    StableHlo.TRef.unary main_call140.call0.c main_call140.call0.v0 (broadcastInDim S_ ![] bcast_S_S_),
    StableHlo.TRef.binary (.of main_v435 : StableHlo.TRef sig ⟨S1024, .i32⟩) main_call140.call0.v0 main_call140.call0.v1 (fun x v => Host.reduceWindow IntOp.addi ![1024] ![1] ![1023] ![0] x v reduceWindows_S1024_S1024_w1024s1p1023_0 h_S_) ]

theorem it23D_sub : (it23D (F := F)).Forall fun op => op.bufs ⊆ tcRefs τ sig :=
  ⟨nullary_bufs_sub .., unary_bufs_sub .., binary_bufs_sub ..⟩

theorem it23D_fresh : (it23D (F := F)).Forall fun op => op.fresh = ∅ :=
  ⟨rfl, rfl, rfl⟩

/-- A piece of this stretch (window 10 of @main). -/
noncomputable def it23E : List (HloOp τ sig (Elt F)) :=
  [ StableHlo.nullary main_c_166 (constantI S_ 32 1#32),
    StableHlo.TRef.unary (.of main_c_166 : StableHlo.TRef sig ⟨S_, .i32⟩) main_call141.v0 (broadcastInDim S1024 ![] bcast_S_S1024),
    StableHlo.TRef.binary (.of main_v436 : StableHlo.TRef sig ⟨S1024, .i32⟩) main_call141.v0 main_call141.v1 Host.divsi,
    StableHlo.TRef.unary (.of main_v436 : StableHlo.TRef sig ⟨S1024, .i32⟩) main_call141.v2 signi,
    StableHlo.TRef.unary (.of main_c_166 : StableHlo.TRef sig ⟨S_, .i32⟩) main_call141.v3 signi,
    StableHlo.TRef.unary main_call141.v3 main_call141.v4 (broadcastInDim S1024 ![] bcast_S_S1024),
    StableHlo.TRef.binary main_call141.v2 main_call141.v4 main_call141.v5 (cmpi .ne),
    StableHlo.TRef.unary (.of main_c_166 : StableHlo.TRef sig ⟨S_, .i32⟩) main_call141.v6 (broadcastInDim S1024 ![] bcast_S_S1024),
    StableHlo.TRef.binary (.of main_v436 : StableHlo.TRef sig ⟨S1024, .i32⟩) main_call141.v6 main_call141.v7 Host.remsi,
    StableHlo.TRef.nullary main_call141.c (constantI S_ 32 0#32),
    StableHlo.TRef.unary main_call141.c main_call141.v8 (broadcastInDim S1024 ![] bcast_S_S1024),
    StableHlo.TRef.binary main_call141.v7 main_call141.v8 main_call141.v9 (cmpi .ne),
    StableHlo.TRef.binary main_call141.v5 main_call141.v9 main_call141.v10 andi,
    StableHlo.TRef.nullary main_call141.c_0 (constantI S_ 32 1#32),
    StableHlo.TRef.unary main_call141.c_0 main_call141.v11 (broadcastInDim S1024 ![] bcast_S_S1024),
    StableHlo.TRef.binary main_call141.v1 main_call141.v11 main_call141.v12 subi,
    StableHlo.TRef.ternary main_call141.v10 main_call141.v12 main_call141.v1 main_call141.call0.v0 select ]

theorem it23E_sub : (it23E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it23E_fresh : (it23E (F := F)).Forall fun op => op.fresh = ∅ :=
  ⟨rfl, rfl, rfl, rfl, rfl, rfl, rfl, rfl, rfl, rfl, rfl, rfl, rfl, rfl, rfl, rfl, rfl⟩

/-- A piece of this stretch (window 10 of @main). -/
noncomputable def it23G : List (HloOp τ sig (Elt F)) :=
  [ StableHlo.nullary main_c_167 (constantI S_ 32 1024#32),
    StableHlo.TRef.unary (.of main_c_167 : StableHlo.TRef sig ⟨S_, .i32⟩) main_call142.v0 id,
    StableHlo.TRef.nullary main_call142.c (constantI S_ 32 0#32),
    StableHlo.TRef.binary main_call142.v0 main_call142.c main_call142.v1 (cmpi .eq),
    StableHlo.TRef.nullary main_call142.c_0 (constantI S_ 32 1#32),
    StableHlo.TRef.ternary main_call142.v1 main_call142.c_0 main_call142.v0 main_call142.call0.v0 select,
    StableHlo.TRef.unary main_call142.call0.v0 main_call142.v3 (broadcastInDim S1024 ![] bcast_S_S1024),
    StableHlo.TRef.binary (.of main_v437 : StableHlo.TRef sig ⟨S1024, .i32⟩) main_call142.v3 main_call142.v4 Host.remsi,
    StableHlo.TRef.nullary main_call142.c_1 (constantI S_ 32 0#32),
    StableHlo.TRef.unary main_call142.c_1 main_call142.v5 (broadcastInDim S1024 ![] bcast_S_S1024),
    StableHlo.TRef.binary main_call142.v4 main_call142.v5 main_call142.v6 (cmpi .ne),
    StableHlo.TRef.nullary main_call142.c_2 (constantI S_ 32 0#32),
    StableHlo.TRef.unary main_call142.c_2 main_call142.v7 (broadcastInDim S1024 ![] bcast_S_S1024),
    StableHlo.TRef.binary main_call142.v4 main_call142.v7 main_call142.v8 (cmpi .slt),
    StableHlo.TRef.nullary main_call142.c_3 (constantI S_ 32 0#32),
    StableHlo.TRef.binary main_call142.call0.v0 main_call142.c_3 main_call142.v9 (cmpi .slt),
    StableHlo.TRef.unary main_call142.v9 main_call142.v10 (broadcastInDim S1024 ![] bcast_S_S1024),
    StableHlo.TRef.binary main_call142.v8 main_call142.v10 main_call142.v11 (cmpi .ne),
    StableHlo.TRef.binary main_call142.v11 main_call142.v6 main_call142.v12 andi,
    StableHlo.TRef.unary main_call142.call0.v0 main_call142.v13 (broadcastInDim S1024 ![] bcast_S_S1024),
    StableHlo.TRef.binary main_call142.v4 main_call142.v13 main_call142.v14 addi,
    StableHlo.TRef.ternary main_call142.v12 main_call142.v14 main_call142.v4 main_call142.v15 select ]

theorem it23G_sub : (it23G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it23G_fresh : (it23G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 10 of @main). -/
noncomputable def it23H : List (HloOp τ sig (Elt F)) :=
  [ StableHlo.TRef.nullary main_call143.c (constantI S_ 32 0#32),
    StableHlo.TRef.unary main_call143.c main_call143.v0 (broadcastInDim S1024 ![] bcast_S_S1024),
    StableHlo.TRef.binary (.of main_v438 : StableHlo.TRef sig ⟨S1024, .i32⟩) main_call143.v0 main_call143.v1 (cmpi .slt),
    StableHlo.TRef.nullary main_call143.c_0 (constantI S_ 32 1024#32),
    StableHlo.TRef.unary main_call143.c_0 main_call143.v2 (broadcastInDim S1024 ![] bcast_S_S1024),
    StableHlo.TRef.binary (.of main_v438 : StableHlo.TRef sig ⟨S1024, .i32⟩) main_call143.v2 main_call143.v3 addi,
    StableHlo.TRef.ternary main_call143.v1 main_call143.v3 (.of main_v438 : StableHlo.TRef sig ⟨S1024, .i32⟩) main_call143.call0.v0 select,
    StableHlo.TRef.unary main_call143.call0.v0 main_call143.v5 (broadcastInDim S1024x1 ![0] bcast_S1024_S1024x1_0),
    StableHlo.TRef.nullary main_call143.c_1 (constantI S1 32 1023#32),
    StableHlo.TRef.nullary main_call143.c_2 (constantI S_ 32 0#32),
    StableHlo.TRef.unary main_call143.c_2 main_call143.v6 (broadcastInDim S1024x1 ![] bcast_S_S1024x1),
    StableHlo.TRef.binary main_call143.v5 main_call143.v6 main_call143.v7 (cmpi .sge),
    StableHlo.TRef.unary main_call143.c_1 main_call143.v8 (broadcastInDim S1x1 ![1] bcast_S1_S1x1_1),
    StableHlo.TRef.unary main_call143.v8 main_call143.v9 (broadcastInDim S1024x1 ![0, 1] bcast_S1x1_S1024x1_0_1),
    StableHlo.TRef.binary main_call143.v5 main_call143.v9 main_call143.v10 (cmpi .sle),
    StableHlo.TRef.binary main_call143.v7 main_call143.v10 main_call143.v11 andi,
    StableHlo.TRef.nullary main_call143.c_3 (constantI S_ 1 1#1),
    StableHlo.TRef.binary main_call143.v11 main_call143.c_3 main_call143.v12 (fun x v => Host.reduce IntOp.andi x v reducesTo_S1024x1_S1024_d1 h_S_),
    StableHlo.TRef.binary (.of main_v7 : StableHlo.TRef sig ⟨S1024x1024, .f32⟩) main_call143.v5 main_call143.v13 (fun x i => Host.gather gather_S1024x1024_S1024x1_S1024x1024_1_0_n_n_0_1_11024 x i),
    StableHlo.TRef.unary main_call143.v12 main_call143.v14 (broadcastInDim S1024x1024 ![0] bcast_S1024_S1024x1024_0),
    StableHlo.TRef.nullary main_call143.cst (constant S_ .f32 0x7FC00000#32),
    StableHlo.TRef.unary main_call143.cst main_call143.v15 (broadcastInDim S1024x1024 ![] bcast_S_S1024x1024),
    StableHlo.TRef.ternary main_call143.v14 main_call143.v13 main_call143.v15 main_call143.v16 select ]

theorem it23H_sub : (it23H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it23H_fresh : (it23H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it23_W : List (Ref sig .tc) :=
  [main_v422, main_v423, main_v424, (main_call138.v0.ref), (main_call138.call0.c.ref), (main_call138.call0.v0.ref), (main_call138.call0.v1.ref), main_c_161, main_v426, main_c_162, (main_call139.v0.ref), (main_call139.v1.ref), (main_call139.v2.ref), main_c_163, main_v428, main_v429, main_c_164, main_v430, main_v431, main_v432, main_v433, main_c_165, main_v434, main_v435, (main_call140.call0.c.ref), (main_call140.call0.v0.ref), (main_call140.call0.v1.ref), main_c_166, (main_call141.v0.ref), (main_call141.v1.ref), (main_call141.v2.ref), (main_call141.v3.ref), (main_call141.v4.ref), (main_call141.v5.ref), (main_call141.v6.ref), (main_call141.v7.ref), (main_call141.c.ref), (main_call141.v8.ref), (main_call141.v9.ref), (main_call141.v10.ref), (main_call141.c_0.ref), (main_call141.v11.ref), (main_call141.v12.ref), (main_call141.call0.v0.ref), main_c_167, (main_call142.v0.ref), (main_call142.c.ref), (main_call142.v1.ref), (main_call142.c_0.ref), (main_call142.call0.v0.ref), (main_call142.v3.ref), (main_call142.v4.ref), (main_call142.c_1.ref), (main_call142.v5.ref), (main_call142.v6.ref), (main_call142.c_2.ref), (main_call142.v7.ref), (main_call142.v8.ref), (main_call142.c_3.ref), (main_call142.v9.ref), (main_call142.v10.ref), (main_call142.v11.ref), (main_call142.v12.ref), (main_call142.v13.ref), (main_call142.v14.ref), (main_call142.v15.ref), (main_call143.c.ref), (main_call143.v0.ref), (main_call143.v1.ref), (main_call143.c_0.ref), (main_call143.v2.ref), (main_call143.v3.ref), (main_call143.call0.v0.ref), (main_call143.v5.ref), (main_call143.c_1.ref), (main_call143.c_2.ref), (main_call143.v6.ref), (main_call143.v7.ref), (main_call143.v8.ref), (main_call143.v9.ref), (main_call143.v10.ref), (main_call143.v11.ref), (main_call143.c_3.ref), (main_call143.v12.ref), (main_call143.v13.ref), (main_call143.v14.ref), (main_call143.cst.ref), (main_call143.v15.ref), (main_call143.v16.ref)]

/-- One stage of the iteration, whole. -/
noncomputable def it23C : List (HloOp τ sig (Elt F)) := it23Ca ++ it23Cb
theorem it23C_sub : (it23C (F := F)).Forall fun op => op.bufs ⊆ tcRefs τ sig :=
  forall_append it23Ca_sub it23Cb_sub
theorem it23C_fresh : (it23C (F := F)).Forall fun op => op.fresh = ∅ :=
  forall_append it23Ca_fresh it23Cb_fresh

/-- The iteration up to the row lookup. -/
noncomputable def it23hd : List (HloOp τ sig (Elt F)) := it23A ++ (it23B ++ (it23C ++ (it23D ++ (it23E ++ it23G))))

/-- The iteration. -/
noncomputable def it23 : List (HloOp τ sig (Elt F)) := it23hd ++ it23H
theorem it23_sub : (it23 (F := F)).Forall fun op => op.bufs ⊆ tcRefs τ sig :=
  forall_append (forall_append it23A_sub (forall_append it23B_sub (forall_append it23C_sub (forall_append it23D_sub (forall_append it23E_sub it23G_sub))))) it23H_sub
theorem it23_fresh : (it23 (F := F)).Forall fun op => op.fresh = ∅ :=
  forall_append (forall_append it23A_fresh (forall_append it23B_fresh (forall_append it23C_fresh (forall_append it23D_fresh (forall_append it23E_fresh it23G_fresh))))) it23H_fresh

/-- The iteration as the concatenation of its pieces. -/
theorem it23_atoms : it23 (F := F) = it23A ++ (it23B ++ (it23Ca ++ (it23Cb ++ (it23D ++ (it23E ++ (it23G ++ it23H)))))) := by
  simp only [it23, it23hd, it23C, List.append_assoc]

end Cert.ReferenceIdeal.HandRun

end
-- ==== Proof.RefIt23.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt23

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it23A_val (V : Valuation τ sig (Elt F)) :
    after (it23A (F := F)) V (Proc.devRef (τ := τ) .tc main_v424) = RefFns.colMask (V (Proc.devRef (τ := τ) .tc main_v1)) 23 slices_S1024x32x1_S1024x1x1_0_23_0 := by
  simp only [it23A, List.cons_append, List.nil_append]
  after_results_simp
  try simp only [cast_eq]
  rfl

set_option maxRecDepth 65536 in
set_option maxHeartbeats 1000000 in
theorem it23B_val (V : Valuation τ sig (Elt F)) :
    after (it23B (F := F)) V (Proc.devRef (τ := τ) .tc main_v425) = RefFns.cumsumF (V (Proc.devRef (τ := τ) .tc main_v424)) := by
  simp only [it23B, List.cons_append, List.nil_append]
  after_results_simp
  try simp only [cast_eq]
  rfl

set_option maxRecDepth 65536 in
set_option maxHeartbeats 1000000 in
theorem it23C_val (V : Valuation τ sig (Elt F)) :
    after (it23C (F := F)) V (Proc.devRef (τ := τ) .tc main_v435) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v425)) (constantI S_ 32 0#32)) (broadcastInDim S1024 ![] bcast_S_S1024 (constantI S_ 32 0#32))) (addi (RefFns.clipF (V (Proc.devRef (τ := τ) .tc main_v425)) (constantI S_ 32 0#32)) (broadcastInDim S1024 ![] bcast_S_S1024 (constantI S_ 32 1024#32))) (RefFns.clipF (V (Proc.devRef (τ := τ) .tc main_v425)) (constantI S_ 32 0#32)))) (broadcastInDim S1024 ![] bcast_S_S1024 (constantI S_ 32 1#32)) := by
  simp only [it23C, it23Ca, it23Cb, List.cons_append, List.nil_append]
  after_results_simp
  try simp only [cast_eq]
  rfl

set_option maxRecDepth 65536 in
set_option maxHeartbeats 1000000 in
theorem it23D_val (V : Valuation τ sig (Elt F)) :
    after (it23D (F := F)) V (Proc.devRef (τ := τ) .tc main_v436) = RefFns.cumsum1F (V (Proc.devRef (τ := τ) .tc main_v435)) := by
  simp only [it23D, List.cons_append, List.nil_append]
  after_results_simp
  try simp only [cast_eq]
  rfl

set_option maxRecDepth 65536 in
set_option maxHeartbeats 1000000 in
theorem it23E_val (V : Valuation τ sig (Elt F)) :
    after (it23E (F := F)) V (Proc.devRef (τ := τ) .tc main_v437) = RefFns.floorDivF (V (Proc.devRef (τ := τ) .tc main_v436)) (constantI S_ 32 1#32) := by
  simp only [it23E, List.cons_append, List.nil_append]
  after_results_simp
  try simp only [cast_eq]
  rfl

set_option maxRecDepth 65536 in
set_option maxHeartbeats 1000000 in
theorem it23G_val (V : Valuation τ sig (Elt F)) :
    after (it23G (F := F)) V (Proc.devRef (τ := τ) .tc main_v438) = RefFns.remainderF (V (Proc.devRef (τ := τ) .tc main_v437)) (constantI S_ 32 1024#32) := by
  simp only [it23G, List.cons_append, List.nil_append]
  after_results_simp
  try simp only [cast_eq]
  rfl

set_option maxRecDepth 65536 in
set_option maxHeartbeats 1000000 in
theorem it23H_val (V : Valuation τ sig (Elt F)) :
    after (it23H (F := F)) V (Proc.devRef (τ := τ) .tc main_v439) = RefFns.takeF (V (Proc.devRef (τ := τ) .tc main_v7)) (V (Proc.devRef (τ := τ) .tc main_v438)) := by
  simp only [it23H, List.cons_append, List.nil_append]
  after_results_simp
  try simp only [cast_eq]
  rfl

theorem it23A_writes : (it23A (F := F)).Forall fun op => op.writes ⊆ (it23_W.map (Proc.devRef (τ := τ) .tc)).toFinset :=
  ⟨wsub main_v422 (by decide), wsub main_v423 (by decide), wsub main_v424 (by decide)⟩

theorem it23B_writes : (it23B (F := F)).Forall fun op => op.writes ⊆ (it23_W.map (Proc.devRef (τ := τ) .tc)).toFinset :=
  ⟨wsub (main_call138.v0.ref) (by decide), wsub (main_call138.call0.c.ref) (by decide), wsub (main_call138.call0.v0.ref) (by decide), wsub (main_call138.call0.v1.ref) (by decide)⟩

theorem it23Ca_writes : (it23Ca (F := F)).Forall fun op => op.writes ⊆ (it23_W.map (Proc.devRef (τ := τ) .tc)).toFinset :=
  ⟨wsub main_c_161 (by decide), wsub main_v426 (by decide), wsub main_c_162 (by decide), wsub (main_call139.v0.ref) (by decide), wsub (main_call139.v1.ref) (by decide), wsub (main_call139.v2.ref) (by decide), wsub main_c_163 (by decide), wsub main_v428 (by decide), wsub main_v429 (by decide), wsub main_c_164 (by decide), wsub main_v430 (by decide), wsub main_v431 (by decide), wsub main_v432 (by decide), wsub main_v433 (by decide)⟩

theorem it23Cb_writes : (it23Cb (F := F)).Forall fun op => op.writes ⊆ (it23_W.map (Proc.devRef (τ := τ) .tc)).toFinset :=
  ⟨wsub main_c_165 (by decide), wsub main_v434 (by decide), wsub main_v435 (by decide)⟩

theorem it23D_writes : (it23D (F := F)).Forall fun op => op.writes ⊆ (it23_W.map (Proc.devRef (τ := τ) .tc)).toFinset :=
  ⟨wsub (main_call140.call0.c.ref) (by decide), wsub (main_call140.call0.v0.ref) (by decide), wsub (main_call140.call0.v1.ref) (by decide)⟩

theorem it23E_writes : (it23E (F := F)).Forall fun op => op.writes ⊆ (it23_W.map (Proc.devRef (τ := τ) .tc)).toFinset :=
  ⟨wsub main_c_166 (by decide), wsub (main_call141.v0.ref) (by decide), wsub (main_call141.v1.ref) (by decide), wsub (main_call141.v2.ref) (by decide), wsub (main_call141.v3.ref) (by decide), wsub (main_call141.v4.ref) (by decide), wsub (main_call141.v5.ref) (by decide), wsub (main_call141.v6.ref) (by decide), wsub (main_call141.v7.ref) (by decide), wsub (main_call141.c.ref) (by decide), wsub (main_call141.v8.ref) (by decide), wsub (main_call141.v9.ref) (by decide), wsub (main_call141.v10.ref) (by decide), wsub (main_call141.c_0.ref) (by decide), wsub (main_call141.v11.ref) (by decide), wsub (main_call141.v12.ref) (by decide), wsub (main_call141.call0.v0.ref) (by decide)⟩

theorem it23G_writes : (it23G (F := F)).Forall fun op => op.writes ⊆ (it23_W.map (Proc.devRef (τ := τ) .tc)).toFinset :=
  ⟨wsub main_c_167 (by decide), wsub (main_call142.v0.ref) (by decide), wsub (main_call142.c.ref) (by decide), wsub (main_call142.v1.ref) (by decide), wsub (main_call142.c_0.ref) (by decide), wsub (main_call142.call0.v0.ref) (by decide), wsub (main_call142.v3.ref) (by decide), wsub (main_call142.v4.ref) (by decide), wsub (main_call142.c_1.ref) (by decide), wsub (main_call142.v5.ref) (by decide), wsub (main_call142.v6.ref) (by decide), wsub (main_call142.c_2.ref) (by decide), wsub (main_call142.v7.ref) (by decide), wsub (main_call142.v8.ref) (by decide), wsub (main_call142.c_3.ref) (by decide), wsub (main_call142.v9.ref) (by decide), wsub (main_call142.v10.ref) (by decide), wsub (main_call142.v11.ref) (by decide), wsub (main_call142.v12.ref) (by decide), wsub (main_call142.v13.ref) (by decide), wsub (main_call142.v14.ref) (by decide), wsub (main_call142.v15.ref) (by decide)⟩

theorem it23H_writes : (it23H (F := F)).Forall fun op => op.writes ⊆ (it23_W.map (Proc.devRef (τ := τ) .tc)).toFinset :=
  ⟨wsub (main_call143.c.ref) (by decide), wsub (main_call143.v0.ref) (by decide), wsub (main_call143.v1.ref) (by decide), wsub (main_call143.c_0.ref) (by decide), wsub (main_call143.v2.ref) (by decide), wsub (main_call143.v3.ref) (by decide), wsub (main_call143.call0.v0.ref) (by decide), wsub (main_call143.v5.ref) (by decide), wsub (main_call143.c_1.ref) (by decide), wsub (main_call143.c_2.ref) (by decide), wsub (main_call143.v6.ref) (by decide), wsub (main_call143.v7.ref) (by decide), wsub (main_call143.v8.ref) (by decide), wsub (main_call143.v9.ref) (by decide), wsub (main_call143.v10.ref) (by decide), wsub (main_call143.v11.ref) (by decide), wsub (main_call143.c_3.ref) (by decide), wsub (main_call143.v12.ref) (by decide), wsub (main_call143.v13.ref) (by decide), wsub (main_call143.v14.ref) (by decide), wsub (main_call143.cst.ref) (by decide), wsub (main_call143.v15.ref) (by decide), wsub (main_call143.v16.ref) (by decide)⟩

theorem it23hd_writes : (it23hd (F := F)).Forall fun op => op.writes ⊆ (it23_W.map (Proc.devRef (τ := τ) .tc)).toFinset :=
  forall_append it23A_writes (forall_append it23B_writes (forall_append (forall_append it23Ca_writes it23Cb_writes) (forall_append it23D_writes (forall_append it23E_writes it23G_writes))))

theorem it23_writes : (it23 (F := F)).Forall fun op => op.writes ⊆ (it23_W.map (Proc.devRef (τ := τ) .tc)).toFinset :=
  forall_append it23hd_writes (it23H_writes)

/-- The iteration leaves every buffer it does not write as it was. -/
theorem it23_keep (V : Valuation τ sig (Elt F)) (r : Ref sig .tc) (hr : r ∉ it23_W) :
    after (it23 (F := F)) V (Proc.devRef (τ := τ) .tc r) = V (Proc.devRef (τ := τ) .tc r) :=
  after_of_writes_sub it23 V it23_writes hr

theorem it23hd_keep (V : Valuation τ sig (Elt F)) (r : Ref sig .tc) (hr : r ∉ it23_W) :
    after (it23hd (F := F)) V (Proc.devRef (τ := τ) .tc r) = V (Proc.devRef (τ := τ) .tc r) :=
  after_of_writes_sub it23hd V it23hd_writes hr

/-- The iteration's result: the rows of the matrix it is handed at the compacted indices of its mask. -/
theorem it23_res (V : Valuation τ sig (Elt F)) :
    after (it23 (F := F)) V (Proc.devRef (τ := τ) .tc main_v439) = RefFns.nzTake (V (Proc.devRef (τ := τ) .tc main_v7)) (RefFns.colMask (V (Proc.devRef (τ := τ) .tc main_v1)) 23 slices_S1024x32x1_S1024x1x1_0_23_0) := by
  rw [it23, after_append, it23H_val, it23hd_keep V main_v7 (by decide), it23hd]
  simp only [after_append]
  rw [it23G_val, it23E_val, it23D_val, it23C_val, it23B_val, it23A_val]
  rfl

set_option maxRecDepth 65536 in
set_option maxHeartbeats 4000000 in
/-- The invariant of the run survives the iteration, with its block added. -/
theorem it23_step {x : FVec F S1x32x1024 .f32} {V : Valuation τ sig (Elt F)} (hg : Good 23 x V) : Good 24 x (after (it23 (F := F)) V) :=
  good_step 23 (by decide) it23 it23_W slices_S1024x32x1_S1024x1x1_0_23_0 it23_keep it23_res (fun _ => rfl) (by decide +kernel) (by decide +kernel) (by decide +kernel) (by decide +kernel) hg

end Cert.ReferenceIdeal.HandRun

end
-- ==== Proof.RefOpsIt24.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 10 of @main). -/
noncomputable def it24A : List (HloOp τ sig (Elt F)) :=
  [ StableHlo.unary main_v1 main_v440 ((extractStridedSlice S1024x1x1 ![0, 24, 0] · slices_S1024x32x1_S1024x1x1_0_24_0) : (⟨S1024x32x1, .i1⟩ : BufTy).Contents (Elt F) → (⟨S1024x1x1, .i1⟩ : BufTy).Contents (Elt F)),
    StableHlo.reshape main_v440 main_v441 rfl shapeCasts_S1024x1x1_S1024,
    StableHlo.unary main_v441 main_v442 (noti : (⟨S1024, .i1⟩ : BufTy).Contents (Elt F) → (⟨S1024, .i1⟩ : BufTy).Contents (Elt F)) ]

theorem it24A_sub : (it24A (F := F)).Forall fun op => op.bufs ⊆ tcRefs τ sig :=
  ⟨unary_bufs_sub .., reshape_bufs_sub .., unary_bufs_sub ..⟩

theorem it24A_fresh : (it24A (F := F)).Forall fun op => op.fresh = ∅ :=
  ⟨rfl, rfl, rfl⟩

/-- A piece of this stretch (window 10 of @main). -/
noncomputable def it24B : List (HloOp τ sig (Elt F)) :=
  [ StableHlo.TRef.unary (.of main_v442 : StableHlo.TRef sig ⟨S1024, .i1⟩) main_call144.v0 (extui 32 · natLt_1_32),
    StableHlo.TRef.nullary main_call144.call0.c (constantI S_ 32 0#32),
    StableHlo.TRef.unary main_call144.call0.c main_call144.call0.v0 (broadcastInDim S_ ![] bcast_S_S_),
    StableHlo.TRef.binary main_call144.v0 main_call144.call0.v0 main_call144.call0.v1 (fun x v => Host.reduceWindow IntOp.addi ![1024] ![1] ![1023] ![0] x v reduceWindows_S1024_S1024_w1024s1p1023_0 h_S_) ]

theorem it24B_sub : (it24B (F := F)).Forall fun op => op.bufs ⊆ tcRefs τ sig :=
  ⟨unary_bufs_sub .., nullary_bufs_sub .., unary_bufs_sub .., binary_bufs_sub ..⟩

theorem it24B_fresh : (it24B (F := F)).Forall fun op => op.fresh = ∅ :=
  ⟨rfl, rfl, rfl, rfl⟩

/-- A piece of this stretch (window 10 of @main). -/
noncomputable def it24C : List (HloOp τ sig (Elt F)) :=
  [ StableHlo.nullary main_c_168 (constantI S_ 32 0#32),
    StableHlo.unary main_c_168 main_v444 (broadcastInDim S1024 ![] bcast_S_S1024 : (⟨S_, .i32⟩ : BufTy).Contents (Elt F) → (⟨S1024, .i32⟩ : BufTy).Contents (Elt F)),
    StableHlo.nullary main_c_169 (constantI S_ 32 0#32),
    StableHlo.TRef.unary (.of main_c_169 : StableHlo.TRef sig ⟨S_, .i32⟩) main_call145.v0 id,
    StableHlo.TRef.unary main_call145.v0 main_call145.v1 (broadcastInDim S1024 ![] bcast_S_S1024),
    StableHlo.TRef.binary main_call145.v1 (.of main_v443 : StableHlo.TRef sig ⟨S1024, .i32⟩) main_call145.v2 maxsi,
    StableHlo.nullary main_c_170 (constantI S_ 32 0#32),
    StableHlo.unary main_c_170 main_v446 (broadcastInDim S1024 ![] bcast_S_S1024 : (⟨S_, .i32⟩ : BufTy).Contents (Elt F) → (⟨S1024, .i32⟩ : BufTy).Contents (Elt F)),
    StableHlo.binary main_v445 main_v446 main_v447 (cmpi .slt : (⟨S1024, .i32⟩ : BufTy).Contents (Elt F) → (⟨S1024, .i32⟩ : BufTy).Contents (Elt F) → (⟨S1024, .i1⟩ : BufTy).Contents (Elt F)),
    StableHlo.nullary main_c_171 (constantI S_ 32 1024#32),
    StableHlo.unary main_c_171 main_v448 (broadcastInDim S1024 ![] bcast_S_S1024 : (⟨S_, .i32⟩ : BufTy).Contents (Elt F) → (⟨S1024, .i32⟩ : BufTy).Contents (Elt F)),
    StableHlo.binary main_v445 main_v448 main_v449 (addi : (⟨S1024, .i32⟩ : BufTy).Contents (Elt F) → (⟨S1024, .i32⟩ : BufTy).Contents (Elt F) → (⟨S1024, .i32⟩ : BufTy).Contents (Elt F)),
    StableHlo.ternary main_v447 main_v449 main_v445 main_v450 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v450 main_v451 (broadcastInDim S1024x1 ![0] bcast_S1024_S1024x1_0 : (⟨S1024, .i32⟩ : BufTy).Contents (Elt F) → (⟨S1024x1, .i32⟩ : BufTy).Contents (Elt F)),
    StableHlo.nullary main_c_172 (constantI S_ 32 1#32),
    StableHlo.unary main_c_172 main_v452 (broadcastInDim S1024 ![] bcast_S_S1024 : (⟨S_, .i32⟩ : BufTy).Contents (Elt F) → (⟨S1024, .i32⟩ : BufTy).Contents (Elt F)),
    StableHlo.ternary main_v444 main_v451 main_v452 main_v453 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it24C_sub : (it24C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it24C_fresh : (it24C (F := F)).Forall fun op => op.fresh = ∅ :=
  ⟨rfl, rfl, rfl, rfl, rfl, rfl, rfl, rfl, rfl, rfl, rfl, rfl, rfl, rfl, rfl, rfl, rfl⟩

/-- A piece of this stretch (window 10 of @main). -/
noncomputable def it24D : List (HloOp τ sig (Elt F)) :=
  [ StableHlo.TRef.nullary main_call146.call0.c (constantI S_ 32 0#32),
    StableHlo.TRef.unary main_call146.call0.c main_call146.call0.v0 (broadcastInDim S_ ![] bcast_S_S_),
    StableHlo.TRef.binary (.of main_v453 : StableHlo.TRef sig ⟨S1024, .i32⟩) main_call146.call0.v0 main_call146.call0.v1 (fun x v => Host.reduceWindow IntOp.addi ![1024] ![1] ![1023] ![0] x v reduceWindows_S1024_S1024_w1024s1p1023_0 h_S_) ]

theorem it24D_sub : (it24D (F := F)).Forall fun op => op.bufs ⊆ tcRefs τ sig :=
  ⟨nullary_bufs_sub .., unary_bufs_sub .., binary_bufs_sub ..⟩

theorem it24D_fresh : (it24D (F := F)).Forall fun op => op.fresh = ∅ :=
  ⟨rfl, rfl, rfl⟩

/-- A piece of this stretch (window 10 of @main). -/
noncomputable def it24E : List (HloOp τ sig (Elt F)) :=
  [ StableHlo.nullary main_c_173 (constantI S_ 32 1#32),
    StableHlo.TRef.unary (.of main_c_173 : StableHlo.TRef sig ⟨S_, .i32⟩) main_call147.v0 (broadcastInDim S1024 ![] bcast_S_S1024),
    StableHlo.TRef.binary (.of main_v454 : StableHlo.TRef sig ⟨S1024, .i32⟩) main_call147.v0 main_call147.v1 Host.divsi,
    StableHlo.TRef.unary (.of main_v454 : StableHlo.TRef sig ⟨S1024, .i32⟩) main_call147.v2 signi,
    StableHlo.TRef.unary (.of main_c_173 : StableHlo.TRef sig ⟨S_, .i32⟩) main_call147.v3 signi,
    StableHlo.TRef.unary main_call147.v3 main_call147.v4 (broadcastInDim S1024 ![] bcast_S_S1024),
    StableHlo.TRef.binary main_call147.v2 main_call147.v4 main_call147.v5 (cmpi .ne),
    StableHlo.TRef.unary (.of main_c_173 : StableHlo.TRef sig ⟨S_, .i32⟩) main_call147.v6 (broadcastInDim S1024 ![] bcast_S_S1024),
    StableHlo.TRef.binary (.of main_v454 : StableHlo.TRef sig ⟨S1024, .i32⟩) main_call147.v6 main_call147.v7 Host.remsi,
    StableHlo.TRef.nullary main_call147.c (constantI S_ 32 0#32),
    StableHlo.TRef.unary main_call147.c main_call147.v8 (broadcastInDim S1024 ![] bcast_S_S1024),
    StableHlo.TRef.binary main_call147.v7 main_call147.v8 main_call147.v9 (cmpi .ne),
    StableHlo.TRef.binary main_call147.v5 main_call147.v9 main_call147.v10 andi,
    StableHlo.TRef.nullary main_call147.c_0 (constantI S_ 32 1#32),
    StableHlo.TRef.unary main_call147.c_0 main_call147.v11 (broadcastInDim S1024 ![] bcast_S_S1024),
    StableHlo.TRef.binary main_call147.v1 main_call147.v11 main_call147.v12 subi,
    StableHlo.TRef.ternary main_call147.v10 main_call147.v12 main_call147.v1 main_call147.call0.v0 select ]

theorem it24E_sub : (it24E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it24E_fresh : (it24E (F := F)).Forall fun op => op.fresh = ∅ :=
  ⟨rfl, rfl, rfl, rfl, rfl, rfl, rfl, rfl, rfl, rfl, rfl, rfl, rfl, rfl, rfl, rfl, rfl⟩

/-- A piece of this stretch (window 10 of @main). -/
noncomputable def it24G : List (HloOp τ sig (Elt F)) :=
  [ StableHlo.nullary main_c_174 (constantI S_ 32 1024#32),
    StableHlo.TRef.unary (.of main_c_174 : StableHlo.TRef sig ⟨S_, .i32⟩) main_call148.v0 id,
    StableHlo.TRef.nullary main_call148.c (constantI S_ 32 0#32),
    StableHlo.TRef.binary main_call148.v0 main_call148.c main_call148.v1 (cmpi .eq),
    StableHlo.TRef.nullary main_call148.c_0 (constantI S_ 32 1#32),
    StableHlo.TRef.ternary main_call148.v1 main_call148.c_0 main_call148.v0 main_call148.call0.v0 select,
    StableHlo.TRef.unary main_call148.call0.v0 main_call148.v3 (broadcastInDim S1024 ![] bcast_S_S1024),
    StableHlo.TRef.binary (.of main_v455 : StableHlo.TRef sig ⟨S1024, .i32⟩) main_call148.v3 main_call148.v4 Host.remsi,
    StableHlo.TRef.nullary main_call148.c_1 (constantI S_ 32 0#32),
    StableHlo.TRef.unary main_call148.c_1 main_call148.v5 (broadcastInDim S1024 ![] bcast_S_S1024),
    StableHlo.TRef.binary main_call148.v4 main_call148.v5 main_call148.v6 (cmpi .ne),
    StableHlo.TRef.nullary main_call148.c_2 (constantI S_ 32 0#32),
    StableHlo.TRef.unary main_call148.c_2 main_call148.v7 (broadcastInDim S1024 ![] bcast_S_S1024),
    StableHlo.TRef.binary main_call148.v4 main_call148.v7 main_call148.v8 (cmpi .slt),
    StableHlo.TRef.nullary main_call148.c_3 (constantI S_ 32 0#32),
    StableHlo.TRef.binary main_call148.call0.v0 main_call148.c_3 main_call148.v9 (cmpi .slt),
    StableHlo.TRef.unary main_call148.v9 main_call148.v10 (broadcastInDim S1024 ![] bcast_S_S1024),
    StableHlo.TRef.binary main_call148.v8 main_call148.v10 main_call148.v11 (cmpi .ne),
    StableHlo.TRef.binary main_call148.v11 main_call148.v6 main_call148.v12 andi,
    StableHlo.TRef.unary main_call148.call0.v0 main_call148.v13 (broadcastInDim S1024 ![] bcast_S_S1024),
    StableHlo.TRef.binary main_call148.v4 main_call148.v13 main_call148.v14 addi,
    StableHlo.TRef.ternary main_call148.v12 main_call148.v14 main_call148.v4 main_call148.v15 select ]

theorem it24G_sub : (it24G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it24G_fresh : (it24G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 10 of @main). -/
noncomputable def it24H : List (HloOp τ sig (Elt F)) :=
  [ StableHlo.TRef.nullary main_call149.c (constantI S_ 32 0#32),
    StableHlo.TRef.unary main_call149.c main_call149.v0 (broadcastInDim S1024 ![] bcast_S_S1024),
    StableHlo.TRef.binary (.of main_v456 : StableHlo.TRef sig ⟨S1024, .i32⟩) main_call149.v0 main_call149.v1 (cmpi .slt),
    StableHlo.TRef.nullary main_call149.c_0 (constantI S_ 32 1024#32),
    StableHlo.TRef.unary main_call149.c_0 main_call149.v2 (broadcastInDim S1024 ![] bcast_S_S1024),
    StableHlo.TRef.binary (.of main_v456 : StableHlo.TRef sig ⟨S1024, .i32⟩) main_call149.v2 main_call149.v3 addi,
    StableHlo.TRef.ternary main_call149.v1 main_call149.v3 (.of main_v456 : StableHlo.TRef sig ⟨S1024, .i32⟩) main_call149.call0.v0 select,
    StableHlo.TRef.unary main_call149.call0.v0 main_call149.v5 (broadcastInDim S1024x1 ![0] bcast_S1024_S1024x1_0),
    StableHlo.TRef.nullary main_call149.c_1 (constantI S1 32 1023#32),
    StableHlo.TRef.nullary main_call149.c_2 (constantI S_ 32 0#32),
    StableHlo.TRef.unary main_call149.c_2 main_call149.v6 (broadcastInDim S1024x1 ![] bcast_S_S1024x1),
    StableHlo.TRef.binary main_call149.v5 main_call149.v6 main_call149.v7 (cmpi .sge),
    StableHlo.TRef.unary main_call149.c_1 main_call149.v8 (broadcastInDim S1x1 ![1] bcast_S1_S1x1_1),
    StableHlo.TRef.unary main_call149.v8 main_call149.v9 (broadcastInDim S1024x1 ![0, 1] bcast_S1x1_S1024x1_0_1),
    StableHlo.TRef.binary main_call149.v5 main_call149.v9 main_call149.v10 (cmpi .sle),
    StableHlo.TRef.binary main_call149.v7 main_call149.v10 main_call149.v11 andi,
    StableHlo.TRef.nullary main_call149.c_3 (constantI S_ 1 1#1),
    StableHlo.TRef.binary main_call149.v11 main_call149.c_3 main_call149.v12 (fun x v => Host.reduce IntOp.andi x v reducesTo_S1024x1_S1024_d1 h_S_),
    StableHlo.TRef.binary (.of main_v7 : StableHlo.TRef sig ⟨S1024x1024, .f32⟩) main_call149.v5 main_call149.v13 (fun x i => Host.gather gather_S1024x1024_S1024x1_S1024x1024_1_0_n_n_0_1_11024 x i),
    StableHlo.TRef.unary main_call149.v12 main_call149.v14 (broadcastInDim S1024x1024 ![0] bcast_S1024_S1024x1024_0),
    StableHlo.TRef.nullary main_call149.cst (constant S_ .f32 0x7FC00000#32),
    StableHlo.TRef.unary main_call149.cst main_call149.v15 (broadcastInDim S1024x1024 ![] bcast_S_S1024x1024),
    StableHlo.TRef.ternary main_call149.v14 main_call149.v13 main_call149.v15 main_call149.v16 select ]

theorem it24H_sub : (it24H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it24H_fresh : (it24H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it24_W : List (Ref sig .tc) :=
  [main_v440, main_v441, main_v442, (main_call144.v0.ref), (main_call144.call0.c.ref), (main_call144.call0.v0.ref), (main_call144.call0.v1.ref), main_c_168, main_v444, main_c_169, (main_call145.v0.ref), (main_call145.v1.ref), (main_call145.v2.ref), main_c_170, main_v446, main_v447, main_c_171, main_v448, main_v449, main_v450, main_v451, main_c_172, main_v452, main_v453, (main_call146.call0.c.ref), (main_call146.call0.v0.ref), (main_call146.call0.v1.ref), main_c_173, (main_call147.v0.ref), (main_call147.v1.ref), (main_call147.v2.ref), (main_call147.v3.ref), (main_call147.v4.ref), (main_call147.v5.ref), (main_call147.v6.ref), (main_call147.v7.ref), (main_call147.c.ref), (main_call147.v8.ref), (main_call147.v9.ref), (main_call147.v10.ref), (main_call147.c_0.ref), (main_call147.v11.ref), (main_call147.v12.ref), (main_call147.call0.v0.ref), main_c_174, (main_call148.v0.ref), (main_call148.c.ref), (main_call148.v1.ref), (main_call148.c_0.ref), (main_call148.call0.v0.ref), (main_call148.v3.ref), (main_call148.v4.ref), (main_call148.c_1.ref), (main_call148.v5.ref), (main_call148.v6.ref), (main_call148.c_2.ref), (main_call148.v7.ref), (main_call148.v8.ref), (main_call148.c_3.ref), (main_call148.v9.ref), (main_call148.v10.ref), (main_call148.v11.ref), (main_call148.v12.ref), (main_call148.v13.ref), (main_call148.v14.ref), (main_call148.v15.ref), (main_call149.c.ref), (main_call149.v0.ref), (main_call149.v1.ref), (main_call149.c_0.ref), (main_call149.v2.ref), (main_call149.v3.ref), (main_call149.call0.v0.ref), (main_call149.v5.ref), (main_call149.c_1.ref), (main_call149.c_2.ref), (main_call149.v6.ref), (main_call149.v7.ref), (main_call149.v8.ref), (main_call149.v9.ref), (main_call149.v10.ref), (main_call149.v11.ref), (main_call149.c_3.ref), (main_call149.v12.ref), (main_call149.v13.ref), (main_call149.v14.ref), (main_call149.cst.ref), (main_call149.v15.ref), (main_call149.v16.ref)]

/-- The iteration up to the row lookup. -/
noncomputable def it24hd : List (HloOp τ sig (Elt F)) := it24A ++ (it24B ++ (it24C ++ (it24D ++ (it24E ++ it24G))))

/-- The iteration. -/
noncomputable def it24 : List (HloOp τ sig (Elt F)) := it24hd ++ it24H
theorem it24_sub : (it24 (F := F)).Forall fun op => op.bufs ⊆ tcRefs τ sig :=
  forall_append (forall_append it24A_sub (forall_append it24B_sub (forall_append it24C_sub (forall_append it24D_sub (forall_append it24E_sub it24G_sub))))) it24H_sub
theorem it24_fresh : (it24 (F := F)).Forall fun op => op.fresh = ∅ :=
  forall_append (forall_append it24A_fresh (forall_append it24B_fresh (forall_append it24C_fresh (forall_append it24D_fresh (forall_append it24E_fresh it24G_fresh))))) it24H_fresh

/-- The iteration as the concatenation of its pieces. -/
theorem it24_atoms : it24 (F := F) = it24A ++ (it24B ++ (it24C ++ (it24D ++ (it24E ++ (it24G ++ it24H))))) := by
  simp only [it24, it24hd, List.append_assoc]

end Cert.ReferenceIdeal.HandRun

end
-- ==== Proof.RefIt24.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt24

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it24A_val (V : Valuation τ sig (Elt F)) :
    after (it24A (F := F)) V (Proc.devRef (τ := τ) .tc main_v442) = RefFns.colMask (V (Proc.devRef (τ := τ) .tc main_v1)) 24 slices_S1024x32x1_S1024x1x1_0_24_0 := by
  simp only [it24A, List.cons_append, List.nil_append]
  after_results_simp
  try simp only [cast_eq]
  rfl

set_option maxRecDepth 65536 in
set_option maxHeartbeats 1000000 in
theorem it24B_val (V : Valuation τ sig (Elt F)) :
    after (it24B (F := F)) V (Proc.devRef (τ := τ) .tc main_v443) = RefFns.cumsumF (V (Proc.devRef (τ := τ) .tc main_v442)) := by
  simp only [it24B, List.cons_append, List.nil_append]
  after_results_simp
  try simp only [cast_eq]
  rfl

set_option maxRecDepth 65536 in
set_option maxHeartbeats 1000000 in
theorem it24C_val (V : Valuation τ sig (Elt F)) :
    after (it24C (F := F)) V (Proc.devRef (τ := τ) .tc main_v453) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v443)) (constantI S_ 32 0#32)) (broadcastInDim S1024 ![] bcast_S_S1024 (constantI S_ 32 0#32))) (addi (RefFns.clipF (V (Proc.devRef (τ := τ) .tc main_v443)) (constantI S_ 32 0#32)) (broadcastInDim S1024 ![] bcast_S_S1024 (constantI S_ 32 1024#32))) (RefFns.clipF (V (Proc.devRef (τ := τ) .tc main_v443)) (constantI S_ 32 0#32)))) (broadcastInDim S1024 ![] bcast_S_S1024 (constantI S_ 32 1#32)) := by
  simp only [it24C, List.cons_append, List.nil_append]
  after_results_simp
  try simp only [cast_eq]
  rfl

set_option maxRecDepth 65536 in
set_option maxHeartbeats 1000000 in
theorem it24D_val (V : Valuation τ sig (Elt F)) :
    after (it24D (F := F)) V (Proc.devRef (τ := τ) .tc main_v454) = RefFns.cumsum1F (V (Proc.devRef (τ := τ) .tc main_v453)) := by
  simp only [it24D, List.cons_append, List.nil_append]
  after_results_simp
  try simp only [cast_eq]
  rfl

set_option maxRecDepth 65536 in
set_option maxHeartbeats 1000000 in
theorem it24E_val (V : Valuation τ sig (Elt F)) :
    after (it24E (F := F)) V (Proc.devRef (τ := τ) .tc main_v455) = RefFns.floorDivF (V (Proc.devRef (τ := τ) .tc main_v454)) (constantI S_ 32 1#32) := by
  simp only [it24E, List.cons_append, List.nil_append]
  after_results_simp
  try simp only [cast_eq]
  rfl

set_option maxRecDepth 65536 in
set_option maxHeartbeats 1000000 in
theorem it24G_val (V : Valuation τ sig (Elt F)) :
    after (it24G (F := F)) V (Proc.devRef (τ := τ) .tc main_v456) = RefFns.remainderF (V (Proc.devRef (τ := τ) .tc main_v455)) (constantI S_ 32 1024#32) := by
  simp only [it24G, List.cons_append, List.nil_append]
  after_results_simp
  try simp only [cast_eq]
  rfl

set_option maxRecDepth 65536 in
set_option maxHeartbeats 1000000 in
theorem it24H_val (V : Valuation τ sig (Elt F)) :
    after (it24H (F := F)) V (Proc.devRef (τ := τ) .tc main_v457) = RefFns.takeF (V (Proc.devRef (τ := τ) .tc main_v7)) (V (Proc.devRef (τ := τ) .tc main_v456)) := by
  simp only [it24H, List.cons_append, List.nil_append]
  after_results_simp
  try simp only [cast_eq]
  rfl

theorem it24A_writes : (it24A (F := F)).Forall fun op => op.writes ⊆ (it24_W.map (Proc.devRef (τ := τ) .tc)).toFinset :=
  ⟨wsub main_v440 (by decide), wsub main_v441 (by decide), wsub main_v442 (by decide)⟩

theorem it24B_writes : (it24B (F := F)).Forall fun op => op.writes ⊆ (it24_W.map (Proc.devRef (τ := τ) .tc)).toFinset :=
  ⟨wsub (main_call144.v0.ref) (by decide), wsub (main_call144.call0.c.ref) (by decide), wsub (main_call144.call0.v0.ref) (by decide), wsub (main_call144.call0.v1.ref) (by decide)⟩

theorem it24C_writes : (it24C (F := F)).Forall fun op => op.writes ⊆ (it24_W.map (Proc.devRef (τ := τ) .tc)).toFinset :=
  ⟨wsub main_c_168 (by decide), wsub main_v444 (by decide), wsub main_c_169 (by decide), wsub (main_call145.v0.ref) (by decide), wsub (main_call145.v1.ref) (by decide), wsub (main_call145.v2.ref) (by decide), wsub main_c_170 (by decide), wsub main_v446 (by decide), wsub main_v447 (by decide), wsub main_c_171 (by decide), wsub main_v448 (by decide), wsub main_v449 (by decide), wsub main_v450 (by decide), wsub main_v451 (by decide), wsub main_c_172 (by decide), wsub main_v452 (by decide), wsub main_v453 (by decide)⟩

theorem it24D_writes : (it24D (F := F)).Forall fun op => op.writes ⊆ (it24_W.map (Proc.devRef (τ := τ) .tc)).toFinset :=
  ⟨wsub (main_call146.call0.c.ref) (by decide), wsub (main_call146.call0.v0.ref) (by decide), wsub (main_call146.call0.v1.ref) (by decide)⟩

theorem it24E_writes : (it24E (F := F)).Forall fun op => op.writes ⊆ (it24_W.map (Proc.devRef (τ := τ) .tc)).toFinset :=
  ⟨wsub main_c_173 (by decide), wsub (main_call147.v0.ref) (by decide), wsub (main_call147.v1.ref) (by decide), wsub (main_call147.v2.ref) (by decide), wsub (main_call147.v3.ref) (by decide), wsub (main_call147.v4.ref) (by decide), wsub (main_call147.v5.ref) (by decide), wsub (main_call147.v6.ref) (by decide), wsub (main_call147.v7.ref) (by decide), wsub (main_call147.c.ref) (by decide), wsub (main_call147.v8.ref) (by decide), wsub (main_call147.v9.ref) (by decide), wsub (main_call147.v10.ref) (by decide), wsub (main_call147.c_0.ref) (by decide), wsub (main_call147.v11.ref) (by decide), wsub (main_call147.v12.ref) (by decide), wsub (main_call147.call0.v0.ref) (by decide)⟩

theorem it24G_writes : (it24G (F := F)).Forall fun op => op.writes ⊆ (it24_W.map (Proc.devRef (τ := τ) .tc)).toFinset :=
  ⟨wsub main_c_174 (by decide), wsub (main_call148.v0.ref) (by decide), wsub (main_call148.c.ref) (by decide), wsub (main_call148.v1.ref) (by decide), wsub (main_call148.c_0.ref) (by decide), wsub (main_call148.call0.v0.ref) (by decide), wsub (main_call148.v3.ref) (by decide), wsub (main_call148.v4.ref) (by decide), wsub (main_call148.c_1.ref) (by decide), wsub (main_call148.v5.ref) (by decide), wsub (main_call148.v6.ref) (by decide), wsub (main_call148.c_2.ref) (by decide), wsub (main_call148.v7.ref) (by decide), wsub (main_call148.v8.ref) (by decide), wsub (main_call148.c_3.ref) (by decide), wsub (main_call148.v9.ref) (by decide), wsub (main_call148.v10.ref) (by decide), wsub (main_call148.v11.ref) (by decide), wsub (main_call148.v12.ref) (by decide), wsub (main_call148.v13.ref) (by decide), wsub (main_call148.v14.ref) (by decide), wsub (main_call148.v15.ref) (by decide)⟩

theorem it24H_writes : (it24H (F := F)).Forall fun op => op.writes ⊆ (it24_W.map (Proc.devRef (τ := τ) .tc)).toFinset :=
  ⟨wsub (main_call149.c.ref) (by decide), wsub (main_call149.v0.ref) (by decide), wsub (main_call149.v1.ref) (by decide), wsub (main_call149.c_0.ref) (by decide), wsub (main_call149.v2.ref) (by decide), wsub (main_call149.v3.ref) (by decide), wsub (main_call149.call0.v0.ref) (by decide), wsub (main_call149.v5.ref) (by decide), wsub (main_call149.c_1.ref) (by decide), wsub (main_call149.c_2.ref) (by decide), wsub (main_call149.v6.ref) (by decide), wsub (main_call149.v7.ref) (by decide), wsub (main_call149.v8.ref) (by decide), wsub (main_call149.v9.ref) (by decide), wsub (main_call149.v10.ref) (by decide), wsub (main_call149.v11.ref) (by decide), wsub (main_call149.c_3.ref) (by decide), wsub (main_call149.v12.ref) (by decide), wsub (main_call149.v13.ref) (by decide), wsub (main_call149.v14.ref) (by decide), wsub (main_call149.cst.ref) (by decide), wsub (main_call149.v15.ref) (by decide), wsub (main_call149.v16.ref) (by decide)⟩

theorem it24hd_writes : (it24hd (F := F)).Forall fun op => op.writes ⊆ (it24_W.map (Proc.devRef (τ := τ) .tc)).toFinset :=
  forall_append it24A_writes (forall_append it24B_writes (forall_append it24C_writes (forall_append it24D_writes (forall_append it24E_writes it24G_writes))))

theorem it24_writes : (it24 (F := F)).Forall fun op => op.writes ⊆ (it24_W.map (Proc.devRef (τ := τ) .tc)).toFinset :=
  forall_append it24hd_writes (it24H_writes)

/-- The iteration leaves every buffer it does not write as it was. -/
theorem it24_keep (V : Valuation τ sig (Elt F)) (r : Ref sig .tc) (hr : r ∉ it24_W) :
    after (it24 (F := F)) V (Proc.devRef (τ := τ) .tc r) = V (Proc.devRef (τ := τ) .tc r) :=
  after_of_writes_sub it24 V it24_writes hr

theorem it24hd_keep (V : Valuation τ sig (Elt F)) (r : Ref sig .tc) (hr : r ∉ it24_W) :
    after (it24hd (F := F)) V (Proc.devRef (τ := τ) .tc r) = V (Proc.devRef (τ := τ) .tc r) :=
  after_of_writes_sub it24hd V it24hd_writes hr

/-- The iteration's result: the rows of the matrix it is handed at the compacted indices of its mask. -/
theorem it24_res (V : Valuation τ sig (Elt F)) :
    after (it24 (F := F)) V (Proc.devRef (τ := τ) .tc main_v457) = RefFns.nzTake (V (Proc.devRef (τ := τ) .tc main_v7)) (RefFns.colMask (V (Proc.devRef (τ := τ) .tc main_v1)) 24 slices_S1024x32x1_S1024x1x1_0_24_0) := by
  rw [it24, after_append, it24H_val, it24hd_keep V main_v7 (by decide), it24hd]
  simp only [after_append]
  rw [it24G_val, it24E_val, it24D_val, it24C_val, it24B_val, it24A_val]
  rfl

set_option maxRecDepth 65536 in
set_option maxHeartbeats 4000000 in
/-- The invariant of the run survives the iteration, with its block added. -/
theorem it24_step {x : FVec F S1x32x1024 .f32} {V : Valuation τ sig (Elt F)} (hg : Good 24 x V) : Good 25 x (after (it24 (F := F)) V) :=
  good_step 24 (by decide) it24 it24_W slices_S1024x32x1_S1024x1x1_0_24_0 it24_keep it24_res (fun _ => rfl) (by decide +kernel) (by decide +kernel) (by decide +kernel) (by decide +kernel) hg

end Cert.ReferenceIdeal.HandRun

end
-- ==== Proof.RefOpsIt25.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 10 of @main). -/
noncomputable def it25A : List (HloOp τ sig (Elt F)) :=
  [ StableHlo.unary main_v1 main_v458 ((extractStridedSlice S1024x1x1 ![0, 25, 0] · slices_S1024x32x1_S1024x1x1_0_25_0) : (⟨S1024x32x1, .i1⟩ : BufTy).Contents (Elt F) → (⟨S1024x1x1, .i1⟩ : BufTy).Contents (Elt F)),
    StableHlo.reshape main_v458 main_v459 rfl shapeCasts_S1024x1x1_S1024,
    StableHlo.unary main_v459 main_v460 (noti : (⟨S1024, .i1⟩ : BufTy).Contents (Elt F) → (⟨S1024, .i1⟩ : BufTy).Contents (Elt F)) ]

theorem it25A_sub : (it25A (F := F)).Forall fun op => op.bufs ⊆ tcRefs τ sig :=
  ⟨unary_bufs_sub .., reshape_bufs_sub .., unary_bufs_sub ..⟩

theorem it25A_fresh : (it25A (F := F)).Forall fun op => op.fresh = ∅ :=
  ⟨rfl, rfl, rfl⟩

/-- A piece of this stretch (window 10 of @main). -/
noncomputable def it25B : List (HloOp τ sig (Elt F)) :=
  [ StableHlo.TRef.unary (.of main_v460 : StableHlo.TRef sig ⟨S1024, .i1⟩) main_call150.v0 (extui 32 · natLt_1_32),
    StableHlo.TRef.nullary main_call150.call0.c (constantI S_ 32 0#32),
    StableHlo.TRef.unary main_call150.call0.c main_call150.call0.v0 (broadcastInDim S_ ![] bcast_S_S_),
    StableHlo.TRef.binary main_call150.v0 main_call150.call0.v0 main_call150.call0.v1 (fun x v => Host.reduceWindow IntOp.addi ![1024] ![1] ![1023] ![0] x v reduceWindows_S1024_S1024_w1024s1p1023_0 h_S_) ]

theorem it25B_sub : (it25B (F := F)).Forall fun op => op.bufs ⊆ tcRefs τ sig :=
  ⟨unary_bufs_sub .., nullary_bufs_sub .., unary_bufs_sub .., binary_bufs_sub ..⟩

theorem it25B_fresh : (it25B (F := F)).Forall fun op => op.fresh = ∅ :=
  ⟨rfl, rfl, rfl, rfl⟩

/-- A piece of this stretch (window 10 of @main). -/
noncomputable def it25C : List (HloOp τ sig (Elt F)) :=
  [ StableHlo.nullary main_c_175 (constantI S_ 32 0#32),
    StableHlo.unary main_c_175 main_v462 (broadcastInDim S1024 ![] bcast_S_S1024 : (⟨S_, .i32⟩ : BufTy).Contents (Elt F) → (⟨S1024, .i32⟩ : BufTy).Contents (Elt F)),
    StableHlo.nullary main_c_176 (constantI S_ 32 0#32),
    StableHlo.TRef.unary (.of main_c_176 : StableHlo.TRef sig ⟨S_, .i32⟩) main_call151.v0 id,
    StableHlo.TRef.unary main_call151.v0 main_call151.v1 (broadcastInDim S1024 ![] bcast_S_S1024),
    StableHlo.TRef.binary main_call151.v1 (.of main_v461 : StableHlo.TRef sig ⟨S1024, .i32⟩) main_call151.v2 maxsi,
    StableHlo.nullary main_c_177 (constantI S_ 32 0#32),
    StableHlo.unary main_c_177 main_v464 (broadcastInDim S1024 ![] bcast_S_S1024 : (⟨S_, .i32⟩ : BufTy).Contents (Elt F) → (⟨S1024, .i32⟩ : BufTy).Contents (Elt F)),
    StableHlo.binary main_v463 main_v464 main_v465 (cmpi .slt : (⟨S1024, .i32⟩ : BufTy).Contents (Elt F) → (⟨S1024, .i32⟩ : BufTy).Contents (Elt F) → (⟨S1024, .i1⟩ : BufTy).Contents (Elt F)),
    StableHlo.nullary main_c_178 (constantI S_ 32 1024#32),
    StableHlo.unary main_c_178 main_v466 (broadcastInDim S1024 ![] bcast_S_S1024 : (⟨S_, .i32⟩ : BufTy).Contents (Elt F) → (⟨S1024, .i32⟩ : BufTy).Contents (Elt F)),
    StableHlo.binary main_v463 main_v466 main_v467 (addi : (⟨S1024, .i32⟩ : BufTy).Contents (Elt F) → (⟨S1024, .i32⟩ : BufTy).Contents (Elt F) → (⟨S1024, .i32⟩ : BufTy).Contents (Elt F)),
    StableHlo.ternary main_v465 main_v467 main_v463 main_v468 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v468 main_v469 (broadcastInDim S1024x1 ![0] bcast_S1024_S1024x1_0 : (⟨S1024, .i32⟩ : BufTy).Contents (Elt F) → (⟨S1024x1, .i32⟩ : BufTy).Contents (Elt F)),
    StableHlo.nullary main_c_179 (constantI S_ 32 1#32),
    StableHlo.unary main_c_179 main_v470 (broadcastInDim S1024 ![] bcast_S_S1024 : (⟨S_, .i32⟩ : BufTy).Contents (Elt F) → (⟨S1024, .i32⟩ : BufTy).Contents (Elt F)),
    StableHlo.ternary main_v462 main_v469 main_v470 main_v471 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it25C_sub : (it25C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it25C_fresh : (it25C (F := F)).Forall fun op => op.fresh = ∅ :=
  ⟨rfl, rfl, rfl, rfl, rfl, rfl, rfl, rfl, rfl, rfl, rfl, rfl, rfl, rfl, rfl, rfl, rfl⟩

/-- A piece of this stretch (window 10 of @main). -/
noncomputable def it25D : List (HloOp τ sig (Elt F)) :=
  [ StableHlo.TRef.nullary main_call152.call0.c (constantI S_ 32 0#32),
    StableHlo.TRef.unary main_call152.call0.c main_call152.call0.v0 (broadcastInDim S_ ![] bcast_S_S_),
    StableHlo.TRef.binary (.of main_v471 : StableHlo.TRef sig ⟨S1024, .i32⟩) main_call152.call0.v0 main_call152.call0.v1 (fun x v => Host.reduceWindow IntOp.addi ![1024] ![1] ![1023] ![0] x v reduceWindows_S1024_S1024_w1024s1p1023_0 h_S_) ]

theorem it25D_sub : (it25D (F := F)).Forall fun op => op.bufs ⊆ tcRefs τ sig :=
  ⟨nullary_bufs_sub .., unary_bufs_sub .., binary_bufs_sub ..⟩

theorem it25D_fresh : (it25D (F := F)).Forall fun op => op.fresh = ∅ :=
  ⟨rfl, rfl, rfl⟩

/-- A piece of this stretch (window 10 of @main). -/
noncomputable def it25E : List (HloOp τ sig (Elt F)) :=
  [ StableHlo.nullary main_c_180 (constantI S_ 32 1#32),
    StableHlo.TRef.unary (.of main_c_180 : StableHlo.TRef sig ⟨S_, .i32⟩) main_call153.v0 (broadcastInDim S1024 ![] bcast_S_S1024),
    StableHlo.TRef.binary (.of main_v472 : StableHlo.TRef sig ⟨S1024, .i32⟩) main_call153.v0 main_call153.v1 Host.divsi,
    StableHlo.TRef.unary (.of main_v472 : StableHlo.TRef sig ⟨S1024, .i32⟩) main_call153.v2 signi,
    StableHlo.TRef.unary (.of main_c_180 : StableHlo.TRef sig ⟨S_, .i32⟩) main_call153.v3 signi,
    StableHlo.TRef.unary main_call153.v3 main_call153.v4 (broadcastInDim S1024 ![] bcast_S_S1024),
    StableHlo.TRef.binary main_call153.v2 main_call153.v4 main_call153.v5 (cmpi .ne),
    StableHlo.TRef.unary (.of main_c_180 : StableHlo.TRef sig ⟨S_, .i32⟩) main_call153.v6 (broadcastInDim S1024 ![] bcast_S_S1024),
    StableHlo.TRef.binary (.of main_v472 : StableHlo.TRef sig ⟨S1024, .i32⟩) main_call153.v6 main_call153.v7 Host.remsi,
    StableHlo.TRef.nullary main_call153.c (constantI S_ 32 0#32),
    StableHlo.TRef.unary main_call153.c main_call153.v8 (broadcastInDim S1024 ![] bcast_S_S1024),
    StableHlo.TRef.binary main_call153.v7 main_call153.v8 main_call153.v9 (cmpi .ne),
    StableHlo.TRef.binary main_call153.v5 main_call153.v9 main_call153.v10 andi,
    StableHlo.TRef.nullary main_call153.c_0 (constantI S_ 32 1#32),
    StableHlo.TRef.unary main_call153.c_0 main_call153.v11 (broadcastInDim S1024 ![] bcast_S_S1024),
    StableHlo.TRef.binary main_call153.v1 main_call153.v11 main_call153.v12 subi,
    StableHlo.TRef.ternary main_call153.v10 main_call153.v12 main_call153.v1 main_call153.call0.v0 select ]

theorem it25E_sub : (it25E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it25E_fresh : (it25E (F := F)).Forall fun op => op.fresh = ∅ :=
  ⟨rfl, rfl, rfl, rfl, rfl, rfl, rfl, rfl, rfl, rfl, rfl, rfl, rfl, rfl, rfl, rfl, rfl⟩

/-- A piece of this stretch (window 10 of @main). -/
noncomputable def it25G : List (HloOp τ sig (Elt F)) :=
  [ StableHlo.nullary main_c_181 (constantI S_ 32 1024#32),
    StableHlo.TRef.unary (.of main_c_181 : StableHlo.TRef sig ⟨S_, .i32⟩) main_call154.v0 id,
    StableHlo.TRef.nullary main_call154.c (constantI S_ 32 0#32),
    StableHlo.TRef.binary main_call154.v0 main_call154.c main_call154.v1 (cmpi .eq),
    StableHlo.TRef.nullary main_call154.c_0 (constantI S_ 32 1#32),
    StableHlo.TRef.ternary main_call154.v1 main_call154.c_0 main_call154.v0 main_call154.call0.v0 select,
    StableHlo.TRef.unary main_call154.call0.v0 main_call154.v3 (broadcastInDim S1024 ![] bcast_S_S1024),
    StableHlo.TRef.binary (.of main_v473 : StableHlo.TRef sig ⟨S1024, .i32⟩) main_call154.v3 main_call154.v4 Host.remsi,
    StableHlo.TRef.nullary main_call154.c_1 (constantI S_ 32 0#32),
    StableHlo.TRef.unary main_call154.c_1 main_call154.v5 (broadcastInDim S1024 ![] bcast_S_S1024),
    StableHlo.TRef.binary main_call154.v4 main_call154.v5 main_call154.v6 (cmpi .ne),
    StableHlo.TRef.nullary main_call154.c_2 (constantI S_ 32 0#32),
    StableHlo.TRef.unary main_call154.c_2 main_call154.v7 (broadcastInDim S1024 ![] bcast_S_S1024),
    StableHlo.TRef.binary main_call154.v4 main_call154.v7 main_call154.v8 (cmpi .slt),
    StableHlo.TRef.nullary main_call154.c_3 (constantI S_ 32 0#32),
    StableHlo.TRef.binary main_call154.call0.v0 main_call154.c_3 main_call154.v9 (cmpi .slt),
    StableHlo.TRef.unary main_call154.v9 main_call154.v10 (broadcastInDim S1024 ![] bcast_S_S1024),
    StableHlo.TRef.binary main_call154.v8 main_call154.v10 main_call154.v11 (cmpi .ne),
    StableHlo.TRef.binary main_call154.v11 main_call154.v6 main_call154.v12 andi,
    StableHlo.TRef.unary main_call154.call0.v0 main_call154.v13 (broadcastInDim S1024 ![] bcast_S_S1024),
    StableHlo.TRef.binary main_call154.v4 main_call154.v13 main_call154.v14 addi,
    StableHlo.TRef.ternary main_call154.v12 main_call154.v14 main_call154.v4 main_call154.v15 select ]

theorem it25G_sub : (it25G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it25G_fresh : (it25G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 10 of @main). -/
noncomputable def it25H : List (HloOp τ sig (Elt F)) :=
  [ StableHlo.TRef.nullary main_call155.c (constantI S_ 32 0#32),
    StableHlo.TRef.unary main_call155.c main_call155.v0 (broadcastInDim S1024 ![] bcast_S_S1024),
    StableHlo.TRef.binary (.of main_v474 : StableHlo.TRef sig ⟨S1024, .i32⟩) main_call155.v0 main_call155.v1 (cmpi .slt),
    StableHlo.TRef.nullary main_call155.c_0 (constantI S_ 32 1024#32),
    StableHlo.TRef.unary main_call155.c_0 main_call155.v2 (broadcastInDim S1024 ![] bcast_S_S1024),
    StableHlo.TRef.binary (.of main_v474 : StableHlo.TRef sig ⟨S1024, .i32⟩) main_call155.v2 main_call155.v3 addi,
    StableHlo.TRef.ternary main_call155.v1 main_call155.v3 (.of main_v474 : StableHlo.TRef sig ⟨S1024, .i32⟩) main_call155.call0.v0 select,
    StableHlo.TRef.unary main_call155.call0.v0 main_call155.v5 (broadcastInDim S1024x1 ![0] bcast_S1024_S1024x1_0),
    StableHlo.TRef.nullary main_call155.c_1 (constantI S1 32 1023#32),
    StableHlo.TRef.nullary main_call155.c_2 (constantI S_ 32 0#32),
    StableHlo.TRef.unary main_call155.c_2 main_call155.v6 (broadcastInDim S1024x1 ![] bcast_S_S1024x1),
    StableHlo.TRef.binary main_call155.v5 main_call155.v6 main_call155.v7 (cmpi .sge),
    StableHlo.TRef.unary main_call155.c_1 main_call155.v8 (broadcastInDim S1x1 ![1] bcast_S1_S1x1_1),
    StableHlo.TRef.unary main_call155.v8 main_call155.v9 (broadcastInDim S1024x1 ![0, 1] bcast_S1x1_S1024x1_0_1),
    StableHlo.TRef.binary main_call155.v5 main_call155.v9 main_call155.v10 (cmpi .sle),
    StableHlo.TRef.binary main_call155.v7 main_call155.v10 main_call155.v11 andi,
    StableHlo.TRef.nullary main_call155.c_3 (constantI S_ 1 1#1),
    StableHlo.TRef.binary main_call155.v11 main_call155.c_3 main_call155.v12 (fun x v => Host.reduce IntOp.andi x v reducesTo_S1024x1_S1024_d1 h_S_),
    StableHlo.TRef.binary (.of main_v7 : StableHlo.TRef sig ⟨S1024x1024, .f32⟩) main_call155.v5 main_call155.v13 (fun x i => Host.gather gather_S1024x1024_S1024x1_S1024x1024_1_0_n_n_0_1_11024 x i),
    StableHlo.TRef.unary main_call155.v12 main_call155.v14 (broadcastInDim S1024x1024 ![0] bcast_S1024_S1024x1024_0),
    StableHlo.TRef.nullary main_call155.cst (constant S_ .f32 0x7FC00000#32),
    StableHlo.TRef.unary main_call155.cst main_call155.v15 (broadcastInDim S1024x1024 ![] bcast_S_S1024x1024),
    StableHlo.TRef.ternary main_call155.v14 main_call155.v13 main_call155.v15 main_call155.v16 select ]

theorem it25H_sub : (it25H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it25H_fresh : (it25H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it25_W : List (Ref sig .tc) :=
  [main_v458, main_v459, main_v460, (main_call150.v0.ref), (main_call150.call0.c.ref), (main_call150.call0.v0.ref), (main_call150.call0.v1.ref), main_c_175, main_v462, main_c_176, (main_call151.v0.ref), (main_call151.v1.ref), (main_call151.v2.ref), main_c_177, main_v464, main_v465, main_c_178, main_v466, main_v467, main_v468, main_v469, main_c_179, main_v470, main_v471, (main_call152.call0.c.ref), (main_call152.call0.v0.ref), (main_call152.call0.v1.ref), main_c_180, (main_call153.v0.ref), (main_call153.v1.ref), (main_call153.v2.ref), (main_call153.v3.ref), (main_call153.v4.ref), (main_call153.v5.ref), (main_call153.v6.ref), (main_call153.v7.ref), (main_call153.c.ref), (main_call153.v8.ref), (main_call153.v9.ref), (main_call153.v10.ref), (main_call153.c_0.ref), (main_call153.v11.ref), (main_call153.v12.ref), (main_call153.call0.v0.ref), main_c_181, (main_call154.v0.ref), (main_call154.c.ref), (main_call154.v1.ref), (main_call154.c_0.ref), (main_call154.call0.v0.ref), (main_call154.v3.ref), (main_call154.v4.ref), (main_call154.c_1.ref), (main_call154.v5.ref), (main_call154.v6.ref), (main_call154.c_2.ref), (main_call154.v7.ref), (main_call154.v8.ref), (main_call154.c_3.ref), (main_call154.v9.ref), (main_call154.v10.ref), (main_call154.v11.ref), (main_call154.v12.ref), (main_call154.v13.ref), (main_call154.v14.ref), (main_call154.v15.ref), (main_call155.c.ref), (main_call155.v0.ref), (main_call155.v1.ref), (main_call155.c_0.ref), (main_call155.v2.ref), (main_call155.v3.ref), (main_call155.call0.v0.ref), (main_call155.v5.ref), (main_call155.c_1.ref), (main_call155.c_2.ref), (main_call155.v6.ref), (main_call155.v7.ref), (main_call155.v8.ref), (main_call155.v9.ref), (main_call155.v10.ref), (main_call155.v11.ref), (main_call155.c_3.ref), (main_call155.v12.ref), (main_call155.v13.ref), (main_call155.v14.ref), (main_call155.cst.ref), (main_call155.v15.ref), (main_call155.v16.ref)]

/-- The iteration up to the row lookup. -/
noncomputable def it25hd : List (HloOp τ sig (Elt F)) := it25A ++ (it25B ++ (it25C ++ (it25D ++ (it25E ++ it25G))))

/-- The iteration. -/
noncomputable def it25 : List (HloOp τ sig (Elt F)) := it25hd ++ it25H
theorem it25_sub : (it25 (F := F)).Forall fun op => op.bufs ⊆ tcRefs τ sig :=
  forall_append (forall_append it25A_sub (forall_append it25B_sub (forall_append it25C_sub (forall_append it25D_sub (forall_append it25E_sub it25G_sub))))) it25H_sub
theorem it25_fresh : (it25 (F := F)).Forall fun op => op.fresh = ∅ :=
  forall_append (forall_append it25A_fresh (forall_append it25B_fresh (forall_append it25C_fresh (forall_append it25D_fresh (forall_append it25E_fresh it25G_fresh))))) it25H_fresh

/-- The iteration as the concatenation of its pieces. -/
theorem it25_atoms : it25 (F := F) = it25A ++ (it25B ++ (it25C ++ (it25D ++ (it25E ++ (it25G ++ it25H))))) := by
  simp only [it25, it25hd, List.append_assoc]

end Cert.ReferenceIdeal.HandRun

end
-- ==== Proof.RefIt25.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt25

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it25A_val (V : Valuation τ sig (Elt F)) :
    after (it25A (F := F)) V (Proc.devRef (τ := τ) .tc main_v460) = RefFns.colMask (V (Proc.devRef (τ := τ) .tc main_v1)) 25 slices_S1024x32x1_S1024x1x1_0_25_0 := by
  simp only [it25A, List.cons_append, List.nil_append]
  after_results_simp
  try simp only [cast_eq]
  rfl

set_option maxRecDepth 65536 in
set_option maxHeartbeats 1000000 in
theorem it25B_val (V : Valuation τ sig (Elt F)) :
    after (it25B (F := F)) V (Proc.devRef (τ := τ) .tc main_v461) = RefFns.cumsumF (V (Proc.devRef (τ := τ) .tc main_v460)) := by
  simp only [it25B, List.cons_append, List.nil_append]
  after_results_simp
  try simp only [cast_eq]
  rfl

set_option maxRecDepth 65536 in
set_option maxHeartbeats 1000000 in
theorem it25C_val (V : Valuation τ sig (Elt F)) :
    after (it25C (F := F)) V (Proc.devRef (τ := τ) .tc main_v471) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v461)) (constantI S_ 32 0#32)) (broadcastInDim S1024 ![] bcast_S_S1024 (constantI S_ 32 0#32))) (addi (RefFns.clipF (V (Proc.devRef (τ := τ) .tc main_v461)) (constantI S_ 32 0#32)) (broadcastInDim S1024 ![] bcast_S_S1024 (constantI S_ 32 1024#32))) (RefFns.clipF (V (Proc.devRef (τ := τ) .tc main_v461)) (constantI S_ 32 0#32)))) (broadcastInDim S1024 ![] bcast_S_S1024 (constantI S_ 32 1#32)) := by
  simp only [it25C, List.cons_append, List.nil_append]
  after_results_simp
  try simp only [cast_eq]
  rfl

set_option maxRecDepth 65536 in
set_option maxHeartbeats 1000000 in
theorem it25D_val (V : Valuation τ sig (Elt F)) :
    after (it25D (F := F)) V (Proc.devRef (τ := τ) .tc main_v472) = RefFns.cumsum1F (V (Proc.devRef (τ := τ) .tc main_v471)) := by
  simp only [it25D, List.cons_append, List.nil_append]
  after_results_simp
  try simp only [cast_eq]
  rfl

set_option maxRecDepth 65536 in
set_option maxHeartbeats 1000000 in
theorem it25E_val (V : Valuation τ sig (Elt F)) :
    after (it25E (F := F)) V (Proc.devRef (τ := τ) .tc main_v473) = RefFns.floorDivF (V (Proc.devRef (τ := τ) .tc main_v472)) (constantI S_ 32 1#32) := by
  simp only [it25E, List.cons_append, List.nil_append]
  after_results_simp
  try simp only [cast_eq]
  rfl

set_option maxRecDepth 65536 in
set_option maxHeartbeats 1000000 in
theorem it25G_val (V : Valuation τ sig (Elt F)) :
    after (it25G (F := F)) V (Proc.devRef (τ := τ) .tc main_v474) = RefFns.remainderF (V (Proc.devRef (τ := τ) .tc main_v473)) (constantI S_ 32 1024#32) := by
  simp only [it25G, List.cons_append, List.nil_append]
  after_results_simp
  try simp only [cast_eq]
  rfl

set_option maxRecDepth 65536 in
set_option maxHeartbeats 1000000 in
theorem it25H_val (V : Valuation τ sig (Elt F)) :
    after (it25H (F := F)) V (Proc.devRef (τ := τ) .tc main_v475) = RefFns.takeF (V (Proc.devRef (τ := τ) .tc main_v7)) (V (Proc.devRef (τ := τ) .tc main_v474)) := by
  simp only [it25H, List.cons_append, List.nil_append]
  after_results_simp
  try simp only [cast_eq]
  rfl

theorem it25A_writes : (it25A (F := F)).Forall fun op => op.writes ⊆ (it25_W.map (Proc.devRef (τ := τ) .tc)).toFinset :=
  ⟨wsub main_v458 (by decide), wsub main_v459 (by decide), wsub main_v460 (by decide)⟩

theorem it25B_writes : (it25B (F := F)).Forall fun op => op.writes ⊆ (it25_W.map (Proc.devRef (τ := τ) .tc)).toFinset :=
  ⟨wsub (main_call150.v0.ref) (by decide), wsub (main_call150.call0.c.ref) (by decide), wsub (main_call150.call0.v0.ref) (by decide), wsub (main_call150.call0.v1.ref) (by decide)⟩

theorem it25C_writes : (it25C (F := F)).Forall fun op => op.writes ⊆ (it25_W.map (Proc.devRef (τ := τ) .tc)).toFinset :=
  ⟨wsub main_c_175 (by decide), wsub main_v462 (by decide), wsub main_c_176 (by decide), wsub (main_call151.v0.ref) (by decide), wsub (main_call151.v1.ref) (by decide), wsub (main_call151.v2.ref) (by decide), wsub main_c_177 (by decide), wsub main_v464 (by decide), wsub main_v465 (by decide), wsub main_c_178 (by decide), wsub main_v466 (by decide), wsub main_v467 (by decide), wsub main_v468 (by decide), wsub main_v469 (by decide), wsub main_c_179 (by decide), wsub main_v470 (by decide), wsub main_v471 (by decide)⟩

theorem it25D_writes : (it25D (F := F)).Forall fun op => op.writes ⊆ (it25_W.map (Proc.devRef (τ := τ) .tc)).toFinset :=
  ⟨wsub (main_call152.call0.c.ref) (by decide), wsub (main_call152.call0.v0.ref) (by decide), wsub (main_call152.call0.v1.ref) (by decide)⟩

theorem it25E_writes : (it25E (F := F)).Forall fun op => op.writes ⊆ (it25_W.map (Proc.devRef (τ := τ) .tc)).toFinset :=
  ⟨wsub main_c_180 (by decide), wsub (main_call153.v0.ref) (by decide), wsub (main_call153.v1.ref) (by decide), wsub (main_call153.v2.ref) (by decide), wsub (main_call153.v3.ref) (by decide), wsub (main_call153.v4.ref) (by decide), wsub (main_call153.v5.ref) (by decide), wsub (main_call153.v6.ref) (by decide), wsub (main_call153.v7.ref) (by decide), wsub (main_call153.c.ref) (by decide), wsub (main_call153.v8.ref) (by decide), wsub (main_call153.v9.ref) (by decide), wsub (main_call153.v10.ref) (by decide), wsub (main_call153.c_0.ref) (by decide), wsub (main_call153.v11.ref) (by decide), wsub (main_call153.v12.ref) (by decide), wsub (main_call153.call0.v0.ref) (by decide)⟩

theorem it25G_writes : (it25G (F := F)).Forall fun op => op.writes ⊆ (it25_W.map (Proc.devRef (τ := τ) .tc)).toFinset :=
  ⟨wsub main_c_181 (by decide), wsub (main_call154.v0.ref) (by decide), wsub (main_call154.c.ref) (by decide), wsub (main_call154.v1.ref) (by decide), wsub (main_call154.c_0.ref) (by decide), wsub (main_call154.call0.v0.ref) (by decide), wsub (main_call154.v3.ref) (by decide), wsub (main_call154.v4.ref) (by decide), wsub (main_call154.c_1.ref) (by decide), wsub (main_call154.v5.ref) (by decide), wsub (main_call154.v6.ref) (by decide), wsub (main_call154.c_2.ref) (by decide), wsub (main_call154.v7.ref) (by decide), wsub (main_call154.v8.ref) (by decide), wsub (main_call154.c_3.ref) (by decide), wsub (main_call154.v9.ref) (by decide), wsub (main_call154.v10.ref) (by decide), wsub (main_call154.v11.ref) (by decide), wsub (main_call154.v12.ref) (by decide), wsub (main_call154.v13.ref) (by decide), wsub (main_call154.v14.ref) (by decide), wsub (main_call154.v15.ref) (by decide)⟩

theorem it25H_writes : (it25H (F := F)).Forall fun op => op.writes ⊆ (it25_W.map (Proc.devRef (τ := τ) .tc)).toFinset :=
  ⟨wsub (main_call155.c.ref) (by decide), wsub (main_call155.v0.ref) (by decide), wsub (main_call155.v1.ref) (by decide), wsub (main_call155.c_0.ref) (by decide), wsub (main_call155.v2.ref) (by decide), wsub (main_call155.v3.ref) (by decide), wsub (main_call155.call0.v0.ref) (by decide), wsub (main_call155.v5.ref) (by decide), wsub (main_call155.c_1.ref) (by decide), wsub (main_call155.c_2.ref) (by decide), wsub (main_call155.v6.ref) (by decide), wsub (main_call155.v7.ref) (by decide), wsub (main_call155.v8.ref) (by decide), wsub (main_call155.v9.ref) (by decide), wsub (main_call155.v10.ref) (by decide), wsub (main_call155.v11.ref) (by decide), wsub (main_call155.c_3.ref) (by decide), wsub (main_call155.v12.ref) (by decide), wsub (main_call155.v13.ref) (by decide), wsub (main_call155.v14.ref) (by decide), wsub (main_call155.cst.ref) (by decide), wsub (main_call155.v15.ref) (by decide), wsub (main_call155.v16.ref) (by decide)⟩

theorem it25hd_writes : (it25hd (F := F)).Forall fun op => op.writes ⊆ (it25_W.map (Proc.devRef (τ := τ) .tc)).toFinset :=
  forall_append it25A_writes (forall_append it25B_writes (forall_append it25C_writes (forall_append it25D_writes (forall_append it25E_writes it25G_writes))))

theorem it25_writes : (it25 (F := F)).Forall fun op => op.writes ⊆ (it25_W.map (Proc.devRef (τ := τ) .tc)).toFinset :=
  forall_append it25hd_writes (it25H_writes)

/-- The iteration leaves every buffer it does not write as it was. -/
theorem it25_keep (V : Valuation τ sig (Elt F)) (r : Ref sig .tc) (hr : r ∉ it25_W) :
    after (it25 (F := F)) V (Proc.devRef (τ := τ) .tc r) = V (Proc.devRef (τ := τ) .tc r) :=
  after_of_writes_sub it25 V it25_writes hr

theorem it25hd_keep (V : Valuation τ sig (Elt F)) (r : Ref sig .tc) (hr : r ∉ it25_W) :
    after (it25hd (F := F)) V (Proc.devRef (τ := τ) .tc r) = V (Proc.devRef (τ := τ) .tc r) :=
  after_of_writes_sub it25hd V it25hd_writes hr

/-- The iteration's result: the rows of the matrix it is handed at the compacted indices of its mask. -/
theorem it25_res (V : Valuation τ sig (Elt F)) :
    after (it25 (F := F)) V (Proc.devRef (τ := τ) .tc main_v475) = RefFns.nzTake (V (Proc.devRef (τ := τ) .tc main_v7)) (RefFns.colMask (V (Proc.devRef (τ := τ) .tc main_v1)) 25 slices_S1024x32x1_S1024x1x1_0_25_0) := by
  rw [it25, after_append, it25H_val, it25hd_keep V main_v7 (by decide), it25hd]
  simp only [after_append]
  rw [it25G_val, it25E_val, it25D_val, it25C_val, it25B_val, it25A_val]
  rfl

set_option maxRecDepth 65536 in
set_option maxHeartbeats 4000000 in
/-- The invariant of the run survives the iteration, with its block added. -/
theorem it25_step {x : FVec F S1x32x1024 .f32} {V : Valuation τ sig (Elt F)} (hg : Good 25 x V) : Good 26 x (after (it25 (F := F)) V) :=
  good_step 25 (by decide) it25 it25_W slices_S1024x32x1_S1024x1x1_0_25_0 it25_keep it25_res (fun _ => rfl) (by decide +kernel) (by decide +kernel) (by decide +kernel) (by decide +kernel) hg

end Cert.ReferenceIdeal.HandRun

end
-- ==== Proof.RefOpsIt26.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 10 of @main). -/
noncomputable def it26Aa : List (HloOp τ sig (Elt F)) :=
  [ StableHlo.unary main_v1 main_v476 ((extractStridedSlice S1024x1x1 ![0, 26, 0] · slices_S1024x32x1_S1024x1x1_0_26_0) : (⟨S1024x32x1, .i1⟩ : BufTy).Contents (Elt F) → (⟨S1024x1x1, .i1⟩ : BufTy).Contents (Elt F)) ]

theorem it26Aa_sub : (it26Aa (F := F)).Forall fun op => op.bufs ⊆ tcRefs τ sig :=
  unary_bufs_sub ..

theorem it26Aa_fresh : (it26Aa (F := F)).Forall fun op => op.fresh = ∅ :=
  rfl

/-- A piece of this stretch (window 11 of @main). -/
noncomputable def it26Ab : List (HloOp τ sig (Elt F)) :=
  [ StableHlo.reshape main_v476 main_v477 rfl shapeCasts_S1024x1x1_S1024,
    StableHlo.unary main_v477 main_v478 (noti : (⟨S1024, .i1⟩ : BufTy).Contents (Elt F) → (⟨S1024, .i1⟩ : BufTy).Contents (Elt F)) ]

theorem it26Ab_sub : (it26Ab (F := F)).Forall fun op => op.bufs ⊆ tcRefs τ sig :=
  ⟨reshape_bufs_sub .., unary_bufs_sub ..⟩

theorem it26Ab_fresh : (it26Ab (F := F)).Forall fun op => op.fresh = ∅ :=
  ⟨rfl, rfl⟩

/-- A piece of this stretch (window 11 of @main). -/
noncomputable def it26B : List (HloOp τ sig (Elt F)) :=
  [ StableHlo.TRef.unary (.of main_v478 : StableHlo.TRef sig ⟨S1024, .i1⟩) main_call156.v0 (extui 32 · natLt_1_32),
    StableHlo.TRef.nullary main_call156.call0.c (constantI S_ 32 0#32),
    StableHlo.TRef.unary main_call156.call0.c main_call156.call0.v0 (broadcastInDim S_ ![] bcast_S_S_),
    StableHlo.TRef.binary main_call156.v0 main_call156.call0.v0 main_call156.call0.v1 (fun x v => Host.reduceWindow IntOp.addi ![1024] ![1] ![1023] ![0] x v reduceWindows_S1024_S1024_w1024s1p1023_0 h_S_) ]

theorem it26B_sub : (it26B (F := F)).Forall fun op => op.bufs ⊆ tcRefs τ sig :=
  ⟨unary_bufs_sub .., nullary_bufs_sub .., unary_bufs_sub .., binary_bufs_sub ..⟩

theorem it26B_fresh : (it26B (F := F)).Forall fun op => op.fresh = ∅ :=
  ⟨rfl, rfl, rfl, rfl⟩

/-- A piece of this stretch (window 11 of @main). -/
noncomputable def it26C : List (HloOp τ sig (Elt F)) :=
  [ StableHlo.nullary main_c_182 (constantI S_ 32 0#32),
    StableHlo.unary main_c_182 main_v480 (broadcastInDim S1024 ![] bcast_S_S1024 : (⟨S_, .i32⟩ : BufTy).Contents (Elt F) → (⟨S1024, .i32⟩ : BufTy).Contents (Elt F)),
    StableHlo.nullary main_c_183 (constantI S_ 32 0#32),
    StableHlo.TRef.unary (.of main_c_183 : StableHlo.TRef sig ⟨S_, .i32⟩) main_call157.v0 id,
    StableHlo.TRef.unary main_call157.v0 main_call157.v1 (broadcastInDim S1024 ![] bcast_S_S1024),
    StableHlo.TRef.binary main_call157.v1 (.of main_v479 : StableHlo.TRef sig ⟨S1024, .i32⟩) main_call157.v2 maxsi,
    StableHlo.nullary main_c_184 (constantI S_ 32 0#32),
    StableHlo.unary main_c_184 main_v482 (broadcastInDim S1024 ![] bcast_S_S1024 : (⟨S_, .i32⟩ : BufTy).Contents (Elt F) → (⟨S1024, .i32⟩ : BufTy).Contents (Elt F)),
    StableHlo.binary main_v481 main_v482 main_v483 (cmpi .slt : (⟨S1024, .i32⟩ : BufTy).Contents (Elt F) → (⟨S1024, .i32⟩ : BufTy).Contents (Elt F) → (⟨S1024, .i1⟩ : BufTy).Contents (Elt F)),
    StableHlo.nullary main_c_185 (constantI S_ 32 1024#32),
    StableHlo.unary main_c_185 main_v484 (broadcastInDim S1024 ![] bcast_S_S1024 : (⟨S_, .i32⟩ : BufTy).Contents (Elt F) → (⟨S1024, .i32⟩ : BufTy).Contents (Elt F)),
    StableHlo.binary main_v481 main_v484 main_v485 (addi : (⟨S1024, .i32⟩ : BufTy).Contents (Elt F) → (⟨S1024, .i32⟩ : BufTy).Contents (Elt F) → (⟨S1024, .i32⟩ : BufTy).Contents (Elt F)),
    StableHlo.ternary main_v483 main_v485 main_v481 main_v486 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v486 main_v487 (broadcastInDim S1024x1 ![0] bcast_S1024_S1024x1_0 : (⟨S1024, .i32⟩ : BufTy).Contents (Elt F) → (⟨S1024x1, .i32⟩ : BufTy).Contents (Elt F)),
    StableHlo.nullary main_c_186 (constantI S_ 32 1#32),
    StableHlo.unary main_c_186 main_v488 (broadcastInDim S1024 ![] bcast_S_S1024 : (⟨S_, .i32⟩ : BufTy).Contents (Elt F) → (⟨S1024, .i32⟩ : BufTy).Contents (Elt F)),
    StableHlo.ternary main_v480 main_v487 main_v488 main_v489 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it26C_sub : (it26C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it26C_fresh : (it26C (F := F)).Forall fun op => op.fresh = ∅ :=
  ⟨rfl, rfl, rfl, rfl, rfl, rfl, rfl, rfl, rfl, rfl, rfl, rfl, rfl, rfl, rfl, rfl, rfl⟩

/-- A piece of this stretch (window 11 of @main). -/
noncomputable def it26D : List (HloOp τ sig (Elt F)) :=
  [ StableHlo.TRef.nullary main_call158.call0.c (constantI S_ 32 0#32),
    StableHlo.TRef.unary main_call158.call0.c main_call158.call0.v0 (broadcastInDim S_ ![] bcast_S_S_),
    StableHlo.TRef.binary (.of main_v489 : StableHlo.TRef sig ⟨S1024, .i32⟩) main_call158.call0.v0 main_call158.call0.v1 (fun x v => Host.reduceWindow IntOp.addi ![1024] ![1] ![1023] ![0] x v reduceWindows_S1024_S1024_w1024s1p1023_0 h_S_) ]

theorem it26D_sub : (it26D (F := F)).Forall fun op => op.bufs ⊆ tcRefs τ sig :=
  ⟨nullary_bufs_sub .., unary_bufs_sub .., binary_bufs_sub ..⟩

theorem it26D_fresh : (it26D (F := F)).Forall fun op => op.fresh = ∅ :=
  ⟨rfl, rfl, rfl⟩

/-- A piece of this stretch (window 11 of @main). -/
noncomputable def it26E : List (HloOp τ sig (Elt F)) :=
  [ StableHlo.nullary main_c_187 (constantI S_ 32 1#32),
    StableHlo.TRef.unary (.of main_c_187 : StableHlo.TRef sig ⟨S_, .i32⟩) main_call159.v0 (broadcastInDim S1024 ![] bcast_S_S1024),
    StableHlo.TRef.binary (.of main_v490 : StableHlo.TRef sig ⟨S1024, .i32⟩) main_call159.v0 main_call159.v1 Host.divsi,
    StableHlo.TRef.unary (.of main_v490 : StableHlo.TRef sig ⟨S1024, .i32⟩) main_call159.v2 signi,
    StableHlo.TRef.unary (.of main_c_187 : StableHlo.TRef sig ⟨S_, .i32⟩) main_call159.v3 signi,
    StableHlo.TRef.unary main_call159.v3 main_call159.v4 (broadcastInDim S1024 ![] bcast_S_S1024),
    StableHlo.TRef.binary main_call159.v2 main_call159.v4 main_call159.v5 (cmpi .ne),
    StableHlo.TRef.unary (.of main_c_187 : StableHlo.TRef sig ⟨S_, .i32⟩) main_call159.v6 (broadcastInDim S1024 ![] bcast_S_S1024),
    StableHlo.TRef.binary (.of main_v490 : StableHlo.TRef sig ⟨S1024, .i32⟩) main_call159.v6 main_call159.v7 Host.remsi,
    StableHlo.TRef.nullary main_call159.c (constantI S_ 32 0#32),
    StableHlo.TRef.unary main_call159.c main_call159.v8 (broadcastInDim S1024 ![] bcast_S_S1024),
    StableHlo.TRef.binary main_call159.v7 main_call159.v8 main_call159.v9 (cmpi .ne),
    StableHlo.TRef.binary main_call159.v5 main_call159.v9 main_call159.v10 andi,
    StableHlo.TRef.nullary main_call159.c_0 (constantI S_ 32 1#32),
    StableHlo.TRef.unary main_call159.c_0 main_call159.v11 (broadcastInDim S1024 ![] bcast_S_S1024),
    StableHlo.TRef.binary main_call159.v1 main_call159.v11 main_call159.v12 subi,
    StableHlo.TRef.ternary main_call159.v10 main_call159.v12 main_call159.v1 main_call159.call0.v0 select ]

theorem it26E_sub : (it26E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it26E_fresh : (it26E (F := F)).Forall fun op => op.fresh = ∅ :=
  ⟨rfl, rfl, rfl, rfl, rfl, rfl, rfl, rfl, rfl, rfl, rfl, rfl, rfl, rfl, rfl, rfl, rfl⟩

/-- A piece of this stretch (window 11 of @main). -/
noncomputable def it26G : List (HloOp τ sig (Elt F)) :=
  [ StableHlo.nullary main_c_188 (constantI S_ 32 1024#32),
    StableHlo.TRef.unary (.of main_c_188 : StableHlo.TRef sig ⟨S_, .i32⟩) main_call160.v0 id,
    StableHlo.TRef.nullary main_call160.c (constantI S_ 32 0#32),
    StableHlo.TRef.binary main_call160.v0 main_call160.c main_call160.v1 (cmpi .eq),
    StableHlo.TRef.nullary main_call160.c_0 (constantI S_ 32 1#32),
    StableHlo.TRef.ternary main_call160.v1 main_call160.c_0 main_call160.v0 main_call160.call0.v0 select,
    StableHlo.TRef.unary main_call160.call0.v0 main_call160.v3 (broadcastInDim S1024 ![] bcast_S_S1024),
    StableHlo.TRef.binary (.of main_v491 : StableHlo.TRef sig ⟨S1024, .i32⟩) main_call160.v3 main_call160.v4 Host.remsi,
    StableHlo.TRef.nullary main_call160.c_1 (constantI S_ 32 0#32),
    StableHlo.TRef.unary main_call160.c_1 main_call160.v5 (broadcastInDim S1024 ![] bcast_S_S1024),
    StableHlo.TRef.binary main_call160.v4 main_call160.v5 main_call160.v6 (cmpi .ne),
    StableHlo.TRef.nullary main_call160.c_2 (constantI S_ 32 0#32),
    StableHlo.TRef.unary main_call160.c_2 main_call160.v7 (broadcastInDim S1024 ![] bcast_S_S1024),
    StableHlo.TRef.binary main_call160.v4 main_call160.v7 main_call160.v8 (cmpi .slt),
    StableHlo.TRef.nullary main_call160.c_3 (constantI S_ 32 0#32),
    StableHlo.TRef.binary main_call160.call0.v0 main_call160.c_3 main_call160.v9 (cmpi .slt),
    StableHlo.TRef.unary main_call160.v9 main_call160.v10 (broadcastInDim S1024 ![] bcast_S_S1024),
    StableHlo.TRef.binary main_call160.v8 main_call160.v10 main_call160.v11 (cmpi .ne),
    StableHlo.TRef.binary main_call160.v11 main_call160.v6 main_call160.v12 andi,
    StableHlo.TRef.unary main_call160.call0.v0 main_call160.v13 (broadcastInDim S1024 ![] bcast_S_S1024),
    StableHlo.TRef.binary main_call160.v4 main_call160.v13 main_call160.v14 addi,
    StableHlo.TRef.ternary main_call160.v12 main_call160.v14 main_call160.v4 main_call160.v15 select ]

theorem it26G_sub : (it26G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it26G_fresh : (it26G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 11 of @main). -/
noncomputable def it26H : List (HloOp τ sig (Elt F)) :=
  [ StableHlo.TRef.nullary main_call161.c (constantI S_ 32 0#32),
    StableHlo.TRef.unary main_call161.c main_call161.v0 (broadcastInDim S1024 ![] bcast_S_S1024),
    StableHlo.TRef.binary (.of main_v492 : StableHlo.TRef sig ⟨S1024, .i32⟩) main_call161.v0 main_call161.v1 (cmpi .slt),
    StableHlo.TRef.nullary main_call161.c_0 (constantI S_ 32 1024#32),
    StableHlo.TRef.unary main_call161.c_0 main_call161.v2 (broadcastInDim S1024 ![] bcast_S_S1024),
    StableHlo.TRef.binary (.of main_v492 : StableHlo.TRef sig ⟨S1024, .i32⟩) main_call161.v2 main_call161.v3 addi,
    StableHlo.TRef.ternary main_call161.v1 main_call161.v3 (.of main_v492 : StableHlo.TRef sig ⟨S1024, .i32⟩) main_call161.call0.v0 select,
    StableHlo.TRef.unary main_call161.call0.v0 main_call161.v5 (broadcastInDim S1024x1 ![0] bcast_S1024_S1024x1_0),
    StableHlo.TRef.nullary main_call161.c_1 (constantI S1 32 1023#32),
    StableHlo.TRef.nullary main_call161.c_2 (constantI S_ 32 0#32),
    StableHlo.TRef.unary main_call161.c_2 main_call161.v6 (broadcastInDim S1024x1 ![] bcast_S_S1024x1),
    StableHlo.TRef.binary main_call161.v5 main_call161.v6 main_call161.v7 (cmpi .sge),
    StableHlo.TRef.unary main_call161.c_1 main_call161.v8 (broadcastInDim S1x1 ![1] bcast_S1_S1x1_1),
    StableHlo.TRef.unary main_call161.v8 main_call161.v9 (broadcastInDim S1024x1 ![0, 1] bcast_S1x1_S1024x1_0_1),
    StableHlo.TRef.binary main_call161.v5 main_call161.v9 main_call161.v10 (cmpi .sle),
    StableHlo.TRef.binary main_call161.v7 main_call161.v10 main_call161.v11 andi,
    StableHlo.TRef.nullary main_call161.c_3 (constantI S_ 1 1#1),
    StableHlo.TRef.binary main_call161.v11 main_call161.c_3 main_call161.v12 (fun x v => Host.reduce IntOp.andi x v reducesTo_S1024x1_S1024_d1 h_S_),
    StableHlo.TRef.binary (.of main_v7 : StableHlo.TRef sig ⟨S1024x1024, .f32⟩) main_call161.v5 main_call161.v13 (fun x i => Host.gather gather_S1024x1024_S1024x1_S1024x1024_1_0_n_n_0_1_11024 x i),
    StableHlo.TRef.unary main_call161.v12 main_call161.v14 (broadcastInDim S1024x1024 ![0] bcast_S1024_S1024x1024_0),
    StableHlo.TRef.nullary main_call161.cst (constant S_ .f32 0x7FC00000#32),
    StableHlo.TRef.unary main_call161.cst main_call161.v15 (broadcastInDim S1024x1024 ![] bcast_S_S1024x1024),
    StableHlo.TRef.ternary main_call161.v14 main_call161.v13 main_call161.v15 main_call161.v16 select ]

theorem it26H_sub : (it26H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it26H_fresh : (it26H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it26_W : List (Ref sig .tc) :=
  [main_v476, main_v477, main_v478, (main_call156.v0.ref), (main_call156.call0.c.ref), (main_call156.call0.v0.ref), (main_call156.call0.v1.ref), main_c_182, main_v480, main_c_183, (main_call157.v0.ref), (main_call157.v1.ref), (main_call157.v2.ref), main_c_184, main_v482, main_v483, main_c_185, main_v484, main_v485, main_v486, main_v487, main_c_186, main_v488, main_v489, (main_call158.call0.c.ref), (main_call158.call0.v0.ref), (main_call158.call0.v1.ref), main_c_187, (main_call159.v0.ref), (main_call159.v1.ref), (main_call159.v2.ref), (main_call159.v3.ref), (main_call159.v4.ref), (main_call159.v5.ref), (main_call159.v6.ref), (main_call159.v7.ref), (main_call159.c.ref), (main_call159.v8.ref), (main_call159.v9.ref), (main_call159.v10.ref), (main_call159.c_0.ref), (main_call159.v11.ref), (main_call159.v12.ref), (main_call159.call0.v0.ref), main_c_188, (main_call160.v0.ref), (main_call160.c.ref), (main_call160.v1.ref), (main_call160.c_0.ref), (main_call160.call0.v0.ref), (main_call160.v3.ref), (main_call160.v4.ref), (main_call160.c_1.ref), (main_call160.v5.ref), (main_call160.v6.ref), (main_call160.c_2.ref), (main_call160.v7.ref), (main_call160.v8.ref), (main_call160.c_3.ref), (main_call160.v9.ref), (main_call160.v10.ref), (main_call160.v11.ref), (main_call160.v12.ref), (main_call160.v13.ref), (main_call160.v14.ref), (main_call160.v15.ref), (main_call161.c.ref), (main_call161.v0.ref), (main_call161.v1.ref), (main_call161.c_0.ref), (main_call161.v2.ref), (main_call161.v3.ref), (main_call161.call0.v0.ref), (main_call161.v5.ref), (main_call161.c_1.ref), (main_call161.c_2.ref), (main_call161.v6.ref), (main_call161.v7.ref), (main_call161.v8.ref), (main_call161.v9.ref), (main_call161.v10.ref), (main_call161.v11.ref), (main_call161.c_3.ref), (main_call161.v12.ref), (main_call161.v13.ref), (main_call161.v14.ref), (main_call161.cst.ref), (main_call161.v15.ref), (main_call161.v16.ref)]

/-- One stage of the iteration, whole. -/
noncomputable def it26A : List (HloOp τ sig (Elt F)) := it26Aa ++ it26Ab
theorem it26A_sub : (it26A (F := F)).Forall fun op => op.bufs ⊆ tcRefs τ sig :=
  forall_append it26Aa_sub it26Ab_sub
theorem it26A_fresh : (it26A (F := F)).Forall fun op => op.fresh = ∅ :=
  forall_append it26Aa_fresh it26Ab_fresh

/-- The iteration up to the row lookup. -/
noncomputable def it26hd : List (HloOp τ sig (Elt F)) := it26A ++ (it26B ++ (it26C ++ (it26D ++ (it26E ++ it26G))))

/-- The iteration. -/
noncomputable def it26 : List (HloOp τ sig (Elt F)) := it26hd ++ it26H
theorem it26_sub : (it26 (F := F)).Forall fun op => op.bufs ⊆ tcRefs τ sig :=
  forall_append (forall_append it26A_sub (forall_append it26B_sub (forall_append it26C_sub (forall_append it26D_sub (forall_append it26E_sub it26G_sub))))) it26H_sub
theorem it26_fresh : (it26 (F := F)).Forall fun op => op.fresh = ∅ :=
  forall_append (forall_append it26A_fresh (forall_append it26B_fresh (forall_append it26C_fresh (forall_append it26D_fresh (forall_append it26E_fresh it26G_fresh))))) it26H_fresh

/-- The iteration as the concatenation of its pieces. -/
theorem it26_atoms : it26 (F := F) = it26Aa ++ (it26Ab ++ (it26B ++ (it26C ++ (it26D ++ (it26E ++ (it26G ++ it26H)))))) := by
  simp only [it26, it26hd, it26A, List.append_assoc]

end Cert.ReferenceIdeal.HandRun

end
-- ==== Proof.RefIt26.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt26

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it26A_val (V : Valuation τ sig (Elt F)) :
    after (it26A (F := F)) V (Proc.devRef (τ := τ) .tc main_v478) = RefFns.colMask (V (Proc.devRef (τ := τ) .tc main_v1)) 26 slices_S1024x32x1_S1024x1x1_0_26_0 := by
  simp only [it26A, it26Aa, it26Ab, List.cons_append, List.nil_append]
  after_results_simp
  try simp only [cast_eq]
  rfl

set_option maxRecDepth 65536 in
set_option maxHeartbeats 1000000 in
theorem it26B_val (V : Valuation τ sig (Elt F)) :
    after (it26B (F := F)) V (Proc.devRef (τ := τ) .tc main_v479) = RefFns.cumsumF (V (Proc.devRef (τ := τ) .tc main_v478)) := by
  simp only [it26B, List.cons_append, List.nil_append]
  after_results_simp
  try simp only [cast_eq]
  rfl

set_option maxRecDepth 65536 in
set_option maxHeartbeats 1000000 in
theorem it26C_val (V : Valuation τ sig (Elt F)) :
    after (it26C (F := F)) V (Proc.devRef (τ := τ) .tc main_v489) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v479)) (constantI S_ 32 0#32)) (broadcastInDim S1024 ![] bcast_S_S1024 (constantI S_ 32 0#32))) (addi (RefFns.clipF (V (Proc.devRef (τ := τ) .tc main_v479)) (constantI S_ 32 0#32)) (broadcastInDim S1024 ![] bcast_S_S1024 (constantI S_ 32 1024#32))) (RefFns.clipF (V (Proc.devRef (τ := τ) .tc main_v479)) (constantI S_ 32 0#32)))) (broadcastInDim S1024 ![] bcast_S_S1024 (constantI S_ 32 1#32)) := by
  simp only [it26C, List.cons_append, List.nil_append]
  after_results_simp
  try simp only [cast_eq]
  rfl

set_option maxRecDepth 65536 in
set_option maxHeartbeats 1000000 in
theorem it26D_val (V : Valuation τ sig (Elt F)) :
    after (it26D (F := F)) V (Proc.devRef (τ := τ) .tc main_v490) = RefFns.cumsum1F (V (Proc.devRef (τ := τ) .tc main_v489)) := by
  simp only [it26D, List.cons_append, List.nil_append]
  after_results_simp
  try simp only [cast_eq]
  rfl

set_option maxRecDepth 65536 in
set_option maxHeartbeats 1000000 in
theorem it26E_val (V : Valuation τ sig (Elt F)) :
    after (it26E (F := F)) V (Proc.devRef (τ := τ) .tc main_v491) = RefFns.floorDivF (V (Proc.devRef (τ := τ) .tc main_v490)) (constantI S_ 32 1#32) := by
  simp only [it26E, List.cons_append, List.nil_append]
  after_results_simp
  try simp only [cast_eq]
  rfl

set_option maxRecDepth 65536 in
set_option maxHeartbeats 1000000 in
theorem it26G_val (V : Valuation τ sig (Elt F)) :
    after (it26G (F := F)) V (Proc.devRef (τ := τ) .tc main_v492) = RefFns.remainderF (V (Proc.devRef (τ := τ) .tc main_v491)) (constantI S_ 32 1024#32) := by
  simp only [it26G, List.cons_append, List.nil_append]
  after_results_simp
  try simp only [cast_eq]
  rfl

set_option maxRecDepth 65536 in
set_option maxHeartbeats 1000000 in
theorem it26H_val (V : Valuation τ sig (Elt F)) :
    after (it26H (F := F)) V (Proc.devRef (τ := τ) .tc main_v493) = RefFns.takeF (V (Proc.devRef (τ := τ) .tc main_v7)) (V (Proc.devRef (τ := τ) .tc main_v492)) := by
  simp only [it26H, List.cons_append, List.nil_append]
  after_results_simp
  try simp only [cast_eq]
  rfl

theorem it26Aa_writes : (it26Aa (F := F)).Forall fun op => op.writes ⊆ (it26_W.map (Proc.devRef (τ := τ) .tc)).toFinset :=
  wsub main_v476 (by decide)

theorem it26Ab_writes : (it26Ab (F := F)).Forall fun op => op.writes ⊆ (it26_W.map (Proc.devRef (τ := τ) .tc)).toFinset :=
  ⟨wsub main_v477 (by decide), wsub main_v478 (by decide)⟩

theorem it26B_writes : (it26B (F := F)).Forall fun op => op.writes ⊆ (it26_W.map (Proc.devRef (τ := τ) .tc)).toFinset :=
  ⟨wsub (main_call156.v0.ref) (by decide), wsub (main_call156.call0.c.ref) (by decide), wsub (main_call156.call0.v0.ref) (by decide), wsub (main_call156.call0.v1.ref) (by decide)⟩

theorem it26C_writes : (it26C (F := F)).Forall fun op => op.writes ⊆ (it26_W.map (Proc.devRef (τ := τ) .tc)).toFinset :=
  ⟨wsub main_c_182 (by decide), wsub main_v480 (by decide), wsub main_c_183 (by decide), wsub (main_call157.v0.ref) (by decide), wsub (main_call157.v1.ref) (by decide), wsub (main_call157.v2.ref) (by decide), wsub main_c_184 (by decide), wsub main_v482 (by decide), wsub main_v483 (by decide), wsub main_c_185 (by decide), wsub main_v484 (by decide), wsub main_v485 (by decide), wsub main_v486 (by decide), wsub main_v487 (by decide), wsub main_c_186 (by decide), wsub main_v488 (by decide), wsub main_v489 (by decide)⟩

theorem it26D_writes : (it26D (F := F)).Forall fun op => op.writes ⊆ (it26_W.map (Proc.devRef (τ := τ) .tc)).toFinset :=
  ⟨wsub (main_call158.call0.c.ref) (by decide), wsub (main_call158.call0.v0.ref) (by decide), wsub (main_call158.call0.v1.ref) (by decide)⟩

theorem it26E_writes : (it26E (F := F)).Forall fun op => op.writes ⊆ (it26_W.map (Proc.devRef (τ := τ) .tc)).toFinset :=
  ⟨wsub main_c_187 (by decide), wsub (main_call159.v0.ref) (by decide), wsub (main_call159.v1.ref) (by decide), wsub (main_call159.v2.ref) (by decide), wsub (main_call159.v3.ref) (by decide), wsub (main_call159.v4.ref) (by decide), wsub (main_call159.v5.ref) (by decide), wsub (main_call159.v6.ref) (by decide), wsub (main_call159.v7.ref) (by decide), wsub (main_call159.c.ref) (by decide), wsub (main_call159.v8.ref) (by decide), wsub (main_call159.v9.ref) (by decide), wsub (main_call159.v10.ref) (by decide), wsub (main_call159.c_0.ref) (by decide), wsub (main_call159.v11.ref) (by decide), wsub (main_call159.v12.ref) (by decide), wsub (main_call159.call0.v0.ref) (by decide)⟩

theorem it26G_writes : (it26G (F := F)).Forall fun op => op.writes ⊆ (it26_W.map (Proc.devRef (τ := τ) .tc)).toFinset :=
  ⟨wsub main_c_188 (by decide), wsub (main_call160.v0.ref) (by decide), wsub (main_call160.c.ref) (by decide), wsub (main_call160.v1.ref) (by decide), wsub (main_call160.c_0.ref) (by decide), wsub (main_call160.call0.v0.ref) (by decide), wsub (main_call160.v3.ref) (by decide), wsub (main_call160.v4.ref) (by decide), wsub (main_call160.c_1.ref) (by decide), wsub (main_call160.v5.ref) (by decide), wsub (main_call160.v6.ref) (by decide), wsub (main_call160.c_2.ref) (by decide), wsub (main_call160.v7.ref) (by decide), wsub (main_call160.v8.ref) (by decide), wsub (main_call160.c_3.ref) (by decide), wsub (main_call160.v9.ref) (by decide), wsub (main_call160.v10.ref) (by decide), wsub (main_call160.v11.ref) (by decide), wsub (main_call160.v12.ref) (by decide), wsub (main_call160.v13.ref) (by decide), wsub (main_call160.v14.ref) (by decide), wsub (main_call160.v15.ref) (by decide)⟩

theorem it26H_writes : (it26H (F := F)).Forall fun op => op.writes ⊆ (it26_W.map (Proc.devRef (τ := τ) .tc)).toFinset :=
  ⟨wsub (main_call161.c.ref) (by decide), wsub (main_call161.v0.ref) (by decide), wsub (main_call161.v1.ref) (by decide), wsub (main_call161.c_0.ref) (by decide), wsub (main_call161.v2.ref) (by decide), wsub (main_call161.v3.ref) (by decide), wsub (main_call161.call0.v0.ref) (by decide), wsub (main_call161.v5.ref) (by decide), wsub (main_call161.c_1.ref) (by decide), wsub (main_call161.c_2.ref) (by decide), wsub (main_call161.v6.ref) (by decide), wsub (main_call161.v7.ref) (by decide), wsub (main_call161.v8.ref) (by decide), wsub (main_call161.v9.ref) (by decide), wsub (main_call161.v10.ref) (by decide), wsub (main_call161.v11.ref) (by decide), wsub (main_call161.c_3.ref) (by decide), wsub (main_call161.v12.ref) (by decide), wsub (main_call161.v13.ref) (by decide), wsub (main_call161.v14.ref) (by decide), wsub (main_call161.cst.ref) (by decide), wsub (main_call161.v15.ref) (by decide), wsub (main_call161.v16.ref) (by decide)⟩

theorem it26hd_writes : (it26hd (F := F)).Forall fun op => op.writes ⊆ (it26_W.map (Proc.devRef (τ := τ) .tc)).toFinset :=
  forall_append (forall_append it26Aa_writes it26Ab_writes) (forall_append it26B_writes (forall_append it26C_writes (forall_append it26D_writes (forall_append it26E_writes it26G_writes))))

theorem it26_writes : (it26 (F := F)).Forall fun op => op.writes ⊆ (it26_W.map (Proc.devRef (τ := τ) .tc)).toFinset :=
  forall_append it26hd_writes (it26H_writes)

/-- The iteration leaves every buffer it does not write as it was. -/
theorem it26_keep (V : Valuation τ sig (Elt F)) (r : Ref sig .tc) (hr : r ∉ it26_W) :
    after (it26 (F := F)) V (Proc.devRef (τ := τ) .tc r) = V (Proc.devRef (τ := τ) .tc r) :=
  after_of_writes_sub it26 V it26_writes hr

theorem it26hd_keep (V : Valuation τ sig (Elt F)) (r : Ref sig .tc) (hr : r ∉ it26_W) :
    after (it26hd (F := F)) V (Proc.devRef (τ := τ) .tc r) = V (Proc.devRef (τ := τ) .tc r) :=
  after_of_writes_sub it26hd V it26hd_writes hr

/-- The iteration's result: the rows of the matrix it is handed at the compacted indices of its mask. -/
theorem it26_res (V : Valuation τ sig (Elt F)) :
    after (it26 (F := F)) V (Proc.devRef (τ := τ) .tc main_v493) = RefFns.nzTake (V (Proc.devRef (τ := τ) .tc main_v7)) (RefFns.colMask (V (Proc.devRef (τ := τ) .tc main_v1)) 26 slices_S1024x32x1_S1024x1x1_0_26_0) := by
  rw [it26, after_append, it26H_val, it26hd_keep V main_v7 (by decide), it26hd]
  simp only [after_append]
  rw [it26G_val, it26E_val, it26D_val, it26C_val, it26B_val, it26A_val]
  rfl

set_option maxRecDepth 65536 in
set_option maxHeartbeats 4000000 in
/-- The invariant of the run survives the iteration, with its block added. -/
theorem it26_step {x : FVec F S1x32x1024 .f32} {V : Valuation τ sig (Elt F)} (hg : Good 26 x V) : Good 27 x (after (it26 (F := F)) V) :=
  good_step 26 (by decide) it26 it26_W slices_S1024x32x1_S1024x1x1_0_26_0 it26_keep it26_res (fun _ => rfl) (by decide +kernel) (by decide +kernel) (by decide +kernel) (by decide +kernel) hg

end Cert.ReferenceIdeal.HandRun

end
-- ==== Proof.RefOpsIt27.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 11 of @main). -/
noncomputable def it27A : List (HloOp τ sig (Elt F)) :=
  [ StableHlo.unary main_v1 main_v494 ((extractStridedSlice S1024x1x1 ![0, 27, 0] · slices_S1024x32x1_S1024x1x1_0_27_0) : (⟨S1024x32x1, .i1⟩ : BufTy).Contents (Elt F) → (⟨S1024x1x1, .i1⟩ : BufTy).Contents (Elt F)),
    StableHlo.reshape main_v494 main_v495 rfl shapeCasts_S1024x1x1_S1024,
    StableHlo.unary main_v495 main_v496 (noti : (⟨S1024, .i1⟩ : BufTy).Contents (Elt F) → (⟨S1024, .i1⟩ : BufTy).Contents (Elt F)) ]

theorem it27A_sub : (it27A (F := F)).Forall fun op => op.bufs ⊆ tcRefs τ sig :=
  ⟨unary_bufs_sub .., reshape_bufs_sub .., unary_bufs_sub ..⟩

theorem it27A_fresh : (it27A (F := F)).Forall fun op => op.fresh = ∅ :=
  ⟨rfl, rfl, rfl⟩

/-- A piece of this stretch (window 11 of @main). -/
noncomputable def it27B : List (HloOp τ sig (Elt F)) :=
  [ StableHlo.TRef.unary (.of main_v496 : StableHlo.TRef sig ⟨S1024, .i1⟩) main_call162.v0 (extui 32 · natLt_1_32),
    StableHlo.TRef.nullary main_call162.call0.c (constantI S_ 32 0#32),
    StableHlo.TRef.unary main_call162.call0.c main_call162.call0.v0 (broadcastInDim S_ ![] bcast_S_S_),
    StableHlo.TRef.binary main_call162.v0 main_call162.call0.v0 main_call162.call0.v1 (fun x v => Host.reduceWindow IntOp.addi ![1024] ![1] ![1023] ![0] x v reduceWindows_S1024_S1024_w1024s1p1023_0 h_S_) ]

theorem it27B_sub : (it27B (F := F)).Forall fun op => op.bufs ⊆ tcRefs τ sig :=
  ⟨unary_bufs_sub .., nullary_bufs_sub .., unary_bufs_sub .., binary_bufs_sub ..⟩

theorem it27B_fresh : (it27B (F := F)).Forall fun op => op.fresh = ∅ :=
  ⟨rfl, rfl, rfl, rfl⟩

/-- A piece of this stretch (window 11 of @main). -/
noncomputable def it27C : List (HloOp τ sig (Elt F)) :=
  [ StableHlo.nullary main_c_189 (constantI S_ 32 0#32),
    StableHlo.unary main_c_189 main_v498 (broadcastInDim S1024 ![] bcast_S_S1024 : (⟨S_, .i32⟩ : BufTy).Contents (Elt F) → (⟨S1024, .i32⟩ : BufTy).Contents (Elt F)),
    StableHlo.nullary main_c_190 (constantI S_ 32 0#32),
    StableHlo.TRef.unary (.of main_c_190 : StableHlo.TRef sig ⟨S_, .i32⟩) main_call163.v0 id,
    StableHlo.TRef.unary main_call163.v0 main_call163.v1 (broadcastInDim S1024 ![] bcast_S_S1024),
    StableHlo.TRef.binary main_call163.v1 (.of main_v497 : StableHlo.TRef sig ⟨S1024, .i32⟩) main_call163.v2 maxsi,
    StableHlo.nullary main_c_191 (constantI S_ 32 0#32),
    StableHlo.unary main_c_191 main_v500 (broadcastInDim S1024 ![] bcast_S_S1024 : (⟨S_, .i32⟩ : BufTy).Contents (Elt F) → (⟨S1024, .i32⟩ : BufTy).Contents (Elt F)),
    StableHlo.binary main_v499 main_v500 main_v501 (cmpi .slt : (⟨S1024, .i32⟩ : BufTy).Contents (Elt F) → (⟨S1024, .i32⟩ : BufTy).Contents (Elt F) → (⟨S1024, .i1⟩ : BufTy).Contents (Elt F)),
    StableHlo.nullary main_c_192 (constantI S_ 32 1024#32),
    StableHlo.unary main_c_192 main_v502 (broadcastInDim S1024 ![] bcast_S_S1024 : (⟨S_, .i32⟩ : BufTy).Contents (Elt F) → (⟨S1024, .i32⟩ : BufTy).Contents (Elt F)),
    StableHlo.binary main_v499 main_v502 main_v503 (addi : (⟨S1024, .i32⟩ : BufTy).Contents (Elt F) → (⟨S1024, .i32⟩ : BufTy).Contents (Elt F) → (⟨S1024, .i32⟩ : BufTy).Contents (Elt F)),
    StableHlo.ternary main_v501 main_v503 main_v499 main_v504 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v504 main_v505 (broadcastInDim S1024x1 ![0] bcast_S1024_S1024x1_0 : (⟨S1024, .i32⟩ : BufTy).Contents (Elt F) → (⟨S1024x1, .i32⟩ : BufTy).Contents (Elt F)),
    StableHlo.nullary main_c_193 (constantI S_ 32 1#32),
    StableHlo.unary main_c_193 main_v506 (broadcastInDim S1024 ![] bcast_S_S1024 : (⟨S_, .i32⟩ : BufTy).Contents (Elt F) → (⟨S1024, .i32⟩ : BufTy).Contents (Elt F)),
    StableHlo.ternary main_v498 main_v505 main_v506 main_v507 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it27C_sub : (it27C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it27C_fresh : (it27C (F := F)).Forall fun op => op.fresh = ∅ :=
  ⟨rfl, rfl, rfl, rfl, rfl, rfl, rfl, rfl, rfl, rfl, rfl, rfl, rfl, rfl, rfl, rfl, rfl⟩

/-- A piece of this stretch (window 11 of @main). -/
noncomputable def it27D : List (HloOp τ sig (Elt F)) :=
  [ StableHlo.TRef.nullary main_call164.call0.c (constantI S_ 32 0#32),
    StableHlo.TRef.unary main_call164.call0.c main_call164.call0.v0 (broadcastInDim S_ ![] bcast_S_S_),
    StableHlo.TRef.binary (.of main_v507 : StableHlo.TRef sig ⟨S1024, .i32⟩) main_call164.call0.v0 main_call164.call0.v1 (fun x v => Host.reduceWindow IntOp.addi ![1024] ![1] ![1023] ![0] x v reduceWindows_S1024_S1024_w1024s1p1023_0 h_S_) ]

theorem it27D_sub : (it27D (F := F)).Forall fun op => op.bufs ⊆ tcRefs τ sig :=
  ⟨nullary_bufs_sub .., unary_bufs_sub .., binary_bufs_sub ..⟩

theorem it27D_fresh : (it27D (F := F)).Forall fun op => op.fresh = ∅ :=
  ⟨rfl, rfl, rfl⟩

/-- A piece of this stretch (window 11 of @main). -/
noncomputable def it27E : List (HloOp τ sig (Elt F)) :=
  [ StableHlo.nullary main_c_194 (constantI S_ 32 1#32),
    StableHlo.TRef.unary (.of main_c_194 : StableHlo.TRef sig ⟨S_, .i32⟩) main_call165.v0 (broadcastInDim S1024 ![] bcast_S_S1024),
    StableHlo.TRef.binary (.of main_v508 : StableHlo.TRef sig ⟨S1024, .i32⟩) main_call165.v0 main_call165.v1 Host.divsi,
    StableHlo.TRef.unary (.of main_v508 : StableHlo.TRef sig ⟨S1024, .i32⟩) main_call165.v2 signi,
    StableHlo.TRef.unary (.of main_c_194 : StableHlo.TRef sig ⟨S_, .i32⟩) main_call165.v3 signi,
    StableHlo.TRef.unary main_call165.v3 main_call165.v4 (broadcastInDim S1024 ![] bcast_S_S1024),
    StableHlo.TRef.binary main_call165.v2 main_call165.v4 main_call165.v5 (cmpi .ne),
    StableHlo.TRef.unary (.of main_c_194 : StableHlo.TRef sig ⟨S_, .i32⟩) main_call165.v6 (broadcastInDim S1024 ![] bcast_S_S1024),
    StableHlo.TRef.binary (.of main_v508 : StableHlo.TRef sig ⟨S1024, .i32⟩) main_call165.v6 main_call165.v7 Host.remsi,
    StableHlo.TRef.nullary main_call165.c (constantI S_ 32 0#32),
    StableHlo.TRef.unary main_call165.c main_call165.v8 (broadcastInDim S1024 ![] bcast_S_S1024),
    StableHlo.TRef.binary main_call165.v7 main_call165.v8 main_call165.v9 (cmpi .ne),
    StableHlo.TRef.binary main_call165.v5 main_call165.v9 main_call165.v10 andi,
    StableHlo.TRef.nullary main_call165.c_0 (constantI S_ 32 1#32),
    StableHlo.TRef.unary main_call165.c_0 main_call165.v11 (broadcastInDim S1024 ![] bcast_S_S1024),
    StableHlo.TRef.binary main_call165.v1 main_call165.v11 main_call165.v12 subi,
    StableHlo.TRef.ternary main_call165.v10 main_call165.v12 main_call165.v1 main_call165.call0.v0 select ]

theorem it27E_sub : (it27E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it27E_fresh : (it27E (F := F)).Forall fun op => op.fresh = ∅ :=
  ⟨rfl, rfl, rfl, rfl, rfl, rfl, rfl, rfl, rfl, rfl, rfl, rfl, rfl, rfl, rfl, rfl, rfl⟩

/-- A piece of this stretch (window 11 of @main). -/
noncomputable def it27G : List (HloOp τ sig (Elt F)) :=
  [ StableHlo.nullary main_c_195 (constantI S_ 32 1024#32),
    StableHlo.TRef.unary (.of main_c_195 : StableHlo.TRef sig ⟨S_, .i32⟩) main_call166.v0 id,
    StableHlo.TRef.nullary main_call166.c (constantI S_ 32 0#32),
    StableHlo.TRef.binary main_call166.v0 main_call166.c main_call166.v1 (cmpi .eq),
    StableHlo.TRef.nullary main_call166.c_0 (constantI S_ 32 1#32),
    StableHlo.TRef.ternary main_call166.v1 main_call166.c_0 main_call166.v0 main_call166.call0.v0 select,
    StableHlo.TRef.unary main_call166.call0.v0 main_call166.v3 (broadcastInDim S1024 ![] bcast_S_S1024),
    StableHlo.TRef.binary (.of main_v509 : StableHlo.TRef sig ⟨S1024, .i32⟩) main_call166.v3 main_call166.v4 Host.remsi,
    StableHlo.TRef.nullary main_call166.c_1 (constantI S_ 32 0#32),
    StableHlo.TRef.unary main_call166.c_1 main_call166.v5 (broadcastInDim S1024 ![] bcast_S_S1024),
    StableHlo.TRef.binary main_call166.v4 main_call166.v5 main_call166.v6 (cmpi .ne),
    StableHlo.TRef.nullary main_call166.c_2 (constantI S_ 32 0#32),
    StableHlo.TRef.unary main_call166.c_2 main_call166.v7 (broadcastInDim S1024 ![] bcast_S_S1024),
    StableHlo.TRef.binary main_call166.v4 main_call166.v7 main_call166.v8 (cmpi .slt),
    StableHlo.TRef.nullary main_call166.c_3 (constantI S_ 32 0#32),
    StableHlo.TRef.binary main_call166.call0.v0 main_call166.c_3 main_call166.v9 (cmpi .slt),
    StableHlo.TRef.unary main_call166.v9 main_call166.v10 (broadcastInDim S1024 ![] bcast_S_S1024),
    StableHlo.TRef.binary main_call166.v8 main_call166.v10 main_call166.v11 (cmpi .ne),
    StableHlo.TRef.binary main_call166.v11 main_call166.v6 main_call166.v12 andi,
    StableHlo.TRef.unary main_call166.call0.v0 main_call166.v13 (broadcastInDim S1024 ![] bcast_S_S1024),
    StableHlo.TRef.binary main_call166.v4 main_call166.v13 main_call166.v14 addi,
    StableHlo.TRef.ternary main_call166.v12 main_call166.v14 main_call166.v4 main_call166.v15 select ]

theorem it27G_sub : (it27G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it27G_fresh : (it27G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 11 of @main). -/
noncomputable def it27H : List (HloOp τ sig (Elt F)) :=
  [ StableHlo.TRef.nullary main_call167.c (constantI S_ 32 0#32),
    StableHlo.TRef.unary main_call167.c main_call167.v0 (broadcastInDim S1024 ![] bcast_S_S1024),
    StableHlo.TRef.binary (.of main_v510 : StableHlo.TRef sig ⟨S1024, .i32⟩) main_call167.v0 main_call167.v1 (cmpi .slt),
    StableHlo.TRef.nullary main_call167.c_0 (constantI S_ 32 1024#32),
    StableHlo.TRef.unary main_call167.c_0 main_call167.v2 (broadcastInDim S1024 ![] bcast_S_S1024),
    StableHlo.TRef.binary (.of main_v510 : StableHlo.TRef sig ⟨S1024, .i32⟩) main_call167.v2 main_call167.v3 addi,
    StableHlo.TRef.ternary main_call167.v1 main_call167.v3 (.of main_v510 : StableHlo.TRef sig ⟨S1024, .i32⟩) main_call167.call0.v0 select,
    StableHlo.TRef.unary main_call167.call0.v0 main_call167.v5 (broadcastInDim S1024x1 ![0] bcast_S1024_S1024x1_0),
    StableHlo.TRef.nullary main_call167.c_1 (constantI S1 32 1023#32),
    StableHlo.TRef.nullary main_call167.c_2 (constantI S_ 32 0#32),
    StableHlo.TRef.unary main_call167.c_2 main_call167.v6 (broadcastInDim S1024x1 ![] bcast_S_S1024x1),
    StableHlo.TRef.binary main_call167.v5 main_call167.v6 main_call167.v7 (cmpi .sge),
    StableHlo.TRef.unary main_call167.c_1 main_call167.v8 (broadcastInDim S1x1 ![1] bcast_S1_S1x1_1),
    StableHlo.TRef.unary main_call167.v8 main_call167.v9 (broadcastInDim S1024x1 ![0, 1] bcast_S1x1_S1024x1_0_1),
    StableHlo.TRef.binary main_call167.v5 main_call167.v9 main_call167.v10 (cmpi .sle),
    StableHlo.TRef.binary main_call167.v7 main_call167.v10 main_call167.v11 andi,
    StableHlo.TRef.nullary main_call167.c_3 (constantI S_ 1 1#1),
    StableHlo.TRef.binary main_call167.v11 main_call167.c_3 main_call167.v12 (fun x v => Host.reduce IntOp.andi x v reducesTo_S1024x1_S1024_d1 h_S_),
    StableHlo.TRef.binary (.of main_v7 : StableHlo.TRef sig ⟨S1024x1024, .f32⟩) main_call167.v5 main_call167.v13 (fun x i => Host.gather gather_S1024x1024_S1024x1_S1024x1024_1_0_n_n_0_1_11024 x i),
    StableHlo.TRef.unary main_call167.v12 main_call167.v14 (broadcastInDim S1024x1024 ![0] bcast_S1024_S1024x1024_0),
    StableHlo.TRef.nullary main_call167.cst (constant S_ .f32 0x7FC00000#32),
    StableHlo.TRef.unary main_call167.cst main_call167.v15 (broadcastInDim S1024x1024 ![] bcast_S_S1024x1024),
    StableHlo.TRef.ternary main_call167.v14 main_call167.v13 main_call167.v15 main_call167.v16 select ]

theorem it27H_sub : (it27H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it27H_fresh : (it27H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it27_W : List (Ref sig .tc) :=
  [main_v494, main_v495, main_v496, (main_call162.v0.ref), (main_call162.call0.c.ref), (main_call162.call0.v0.ref), (main_call162.call0.v1.ref), main_c_189, main_v498, main_c_190, (main_call163.v0.ref), (main_call163.v1.ref), (main_call163.v2.ref), main_c_191, main_v500, main_v501, main_c_192, main_v502, main_v503, main_v504, main_v505, main_c_193, main_v506, main_v507, (main_call164.call0.c.ref), (main_call164.call0.v0.ref), (main_call164.call0.v1.ref), main_c_194, (main_call165.v0.ref), (main_call165.v1.ref), (main_call165.v2.ref), (main_call165.v3.ref), (main_call165.v4.ref), (main_call165.v5.ref), (main_call165.v6.ref), (main_call165.v7.ref), (main_call165.c.ref), (main_call165.v8.ref), (main_call165.v9.ref), (main_call165.v10.ref), (main_call165.c_0.ref), (main_call165.v11.ref), (main_call165.v12.ref), (main_call165.call0.v0.ref), main_c_195, (main_call166.v0.ref), (main_call166.c.ref), (main_call166.v1.ref), (main_call166.c_0.ref), (main_call166.call0.v0.ref), (main_call166.v3.ref), (main_call166.v4.ref), (main_call166.c_1.ref), (main_call166.v5.ref), (main_call166.v6.ref), (main_call166.c_2.ref), (main_call166.v7.ref), (main_call166.v8.ref), (main_call166.c_3.ref), (main_call166.v9.ref), (main_call166.v10.ref), (main_call166.v11.ref), (main_call166.v12.ref), (main_call166.v13.ref), (main_call166.v14.ref), (main_call166.v15.ref), (main_call167.c.ref), (main_call167.v0.ref), (main_call167.v1.ref), (main_call167.c_0.ref), (main_call167.v2.ref), (main_call167.v3.ref), (main_call167.call0.v0.ref), (main_call167.v5.ref), (main_call167.c_1.ref), (main_call167.c_2.ref), (main_call167.v6.ref), (main_call167.v7.ref), (main_call167.v8.ref), (main_call167.v9.ref), (main_call167.v10.ref), (main_call167.v11.ref), (main_call167.c_3.ref), (main_call167.v12.ref), (main_call167.v13.ref), (main_call167.v14.ref), (main_call167.cst.ref), (main_call167.v15.ref), (main_call167.v16.ref)]

/-- The iteration up to the row lookup. -/
noncomputable def it27hd : List (HloOp τ sig (Elt F)) := it27A ++ (it27B ++ (it27C ++ (it27D ++ (it27E ++ it27G))))

/-- The iteration. -/
noncomputable def it27 : List (HloOp τ sig (Elt F)) := it27hd ++ it27H
theorem it27_sub : (it27 (F := F)).Forall fun op => op.bufs ⊆ tcRefs τ sig :=
  forall_append (forall_append it27A_sub (forall_append it27B_sub (forall_append it27C_sub (forall_append it27D_sub (forall_append it27E_sub it27G_sub))))) it27H_sub
theorem it27_fresh : (it27 (F := F)).Forall fun op => op.fresh = ∅ :=
  forall_append (forall_append it27A_fresh (forall_append it27B_fresh (forall_append it27C_fresh (forall_append it27D_fresh (forall_append it27E_fresh it27G_fresh))))) it27H_fresh

/-- The iteration as the concatenation of its pieces. -/
theorem it27_atoms : it27 (F := F) = it27A ++ (it27B ++ (it27C ++ (it27D ++ (it27E ++ (it27G ++ it27H))))) := by
  simp only [it27, it27hd, List.append_assoc]

end Cert.ReferenceIdeal.HandRun

end
-- ==== Proof.RefIt27.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt27

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it27A_val (V : Valuation τ sig (Elt F)) :
    after (it27A (F := F)) V (Proc.devRef (τ := τ) .tc main_v496) = RefFns.colMask (V (Proc.devRef (τ := τ) .tc main_v1)) 27 slices_S1024x32x1_S1024x1x1_0_27_0 := by
  simp only [it27A, List.cons_append, List.nil_append]
  after_results_simp
  try simp only [cast_eq]
  rfl

set_option maxRecDepth 65536 in
set_option maxHeartbeats 1000000 in
theorem it27B_val (V : Valuation τ sig (Elt F)) :
    after (it27B (F := F)) V (Proc.devRef (τ := τ) .tc main_v497) = RefFns.cumsumF (V (Proc.devRef (τ := τ) .tc main_v496)) := by
  simp only [it27B, List.cons_append, List.nil_append]
  after_results_simp
  try simp only [cast_eq]
  rfl

set_option maxRecDepth 65536 in
set_option maxHeartbeats 1000000 in
theorem it27C_val (V : Valuation τ sig (Elt F)) :
    after (it27C (F := F)) V (Proc.devRef (τ := τ) .tc main_v507) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v497)) (constantI S_ 32 0#32)) (broadcastInDim S1024 ![] bcast_S_S1024 (constantI S_ 32 0#32))) (addi (RefFns.clipF (V (Proc.devRef (τ := τ) .tc main_v497)) (constantI S_ 32 0#32)) (broadcastInDim S1024 ![] bcast_S_S1024 (constantI S_ 32 1024#32))) (RefFns.clipF (V (Proc.devRef (τ := τ) .tc main_v497)) (constantI S_ 32 0#32)))) (broadcastInDim S1024 ![] bcast_S_S1024 (constantI S_ 32 1#32)) := by
  simp only [it27C, List.cons_append, List.nil_append]
  after_results_simp
  try simp only [cast_eq]
  rfl

set_option maxRecDepth 65536 in
set_option maxHeartbeats 1000000 in
theorem it27D_val (V : Valuation τ sig (Elt F)) :
    after (it27D (F := F)) V (Proc.devRef (τ := τ) .tc main_v508) = RefFns.cumsum1F (V (Proc.devRef (τ := τ) .tc main_v507)) := by
  simp only [it27D, List.cons_append, List.nil_append]
  after_results_simp
  try simp only [cast_eq]
  rfl

set_option maxRecDepth 65536 in
set_option maxHeartbeats 1000000 in
theorem it27E_val (V : Valuation τ sig (Elt F)) :
    after (it27E (F := F)) V (Proc.devRef (τ := τ) .tc main_v509) = RefFns.floorDivF (V (Proc.devRef (τ := τ) .tc main_v508)) (constantI S_ 32 1#32) := by
  simp only [it27E, List.cons_append, List.nil_append]
  after_results_simp
  try simp only [cast_eq]
  rfl

set_option maxRecDepth 65536 in
set_option maxHeartbeats 1000000 in
theorem it27G_val (V : Valuation τ sig (Elt F)) :
    after (it27G (F := F)) V (Proc.devRef (τ := τ) .tc main_v510) = RefFns.remainderF (V (Proc.devRef (τ := τ) .tc main_v509)) (constantI S_ 32 1024#32) := by
  simp only [it27G, List.cons_append, List.nil_append]
  after_results_simp
  try simp only [cast_eq]
  rfl

set_option maxRecDepth 65536 in
set_option maxHeartbeats 1000000 in
theorem it27H_val (V : Valuation τ sig (Elt F)) :
    after (it27H (F := F)) V (Proc.devRef (τ := τ) .tc main_v511) = RefFns.takeF (V (Proc.devRef (τ := τ) .tc main_v7)) (V (Proc.devRef (τ := τ) .tc main_v510)) := by
  simp only [it27H, List.cons_append, List.nil_append]
  after_results_simp
  try simp only [cast_eq]
  rfl

theorem it27A_writes : (it27A (F := F)).Forall fun op => op.writes ⊆ (it27_W.map (Proc.devRef (τ := τ) .tc)).toFinset :=
  ⟨wsub main_v494 (by decide), wsub main_v495 (by decide), wsub main_v496 (by decide)⟩

theorem it27B_writes : (it27B (F := F)).Forall fun op => op.writes ⊆ (it27_W.map (Proc.devRef (τ := τ) .tc)).toFinset :=
  ⟨wsub (main_call162.v0.ref) (by decide), wsub (main_call162.call0.c.ref) (by decide), wsub (main_call162.call0.v0.ref) (by decide), wsub (main_call162.call0.v1.ref) (by decide)⟩

theorem it27C_writes : (it27C (F := F)).Forall fun op => op.writes ⊆ (it27_W.map (Proc.devRef (τ := τ) .tc)).toFinset :=
  ⟨wsub main_c_189 (by decide), wsub main_v498 (by decide), wsub main_c_190 (by decide), wsub (main_call163.v0.ref) (by decide), wsub (main_call163.v1.ref) (by decide), wsub (main_call163.v2.ref) (by decide), wsub main_c_191 (by decide), wsub main_v500 (by decide), wsub main_v501 (by decide), wsub main_c_192 (by decide), wsub main_v502 (by decide), wsub main_v503 (by decide), wsub main_v504 (by decide), wsub main_v505 (by decide), wsub main_c_193 (by decide), wsub main_v506 (by decide), wsub main_v507 (by decide)⟩

theorem it27D_writes : (it27D (F := F)).Forall fun op => op.writes ⊆ (it27_W.map (Proc.devRef (τ := τ) .tc)).toFinset :=
  ⟨wsub (main_call164.call0.c.ref) (by decide), wsub (main_call164.call0.v0.ref) (by decide), wsub (main_call164.call0.v1.ref) (by decide)⟩

theorem it27E_writes : (it27E (F := F)).Forall fun op => op.writes ⊆ (it27_W.map (Proc.devRef (τ := τ) .tc)).toFinset :=
  ⟨wsub main_c_194 (by decide), wsub (main_call165.v0.ref) (by decide), wsub (main_call165.v1.ref) (by decide), wsub (main_call165.v2.ref) (by decide), wsub (main_call165.v3.ref) (by decide), wsub (main_call165.v4.ref) (by decide), wsub (main_call165.v5.ref) (by decide), wsub (main_call165.v6.ref) (by decide), wsub (main_call165.v7.ref) (by decide), wsub (main_call165.c.ref) (by decide), wsub (main_call165.v8.ref) (by decide), wsub (main_call165.v9.ref) (by decide), wsub (main_call165.v10.ref) (by decide), wsub (main_call165.c_0.ref) (by decide), wsub (main_call165.v11.ref) (by decide), wsub (main_call165.v12.ref) (by decide), wsub (main_call165.call0.v0.ref) (by decide)⟩

theorem it27G_writes : (it27G (F := F)).Forall fun op => op.writes ⊆ (it27_W.map (Proc.devRef (τ := τ) .tc)).toFinset :=
  ⟨wsub main_c_195 (by decide), wsub (main_call166.v0.ref) (by decide), wsub (main_call166.c.ref) (by decide), wsub (main_call166.v1.ref) (by decide), wsub (main_call166.c_0.ref) (by decide), wsub (main_call166.call0.v0.ref) (by decide), wsub (main_call166.v3.ref) (by decide), wsub (main_call166.v4.ref) (by decide), wsub (main_call166.c_1.ref) (by decide), wsub (main_call166.v5.ref) (by decide), wsub (main_call166.v6.ref) (by decide), wsub (main_call166.c_2.ref) (by decide), wsub (main_call166.v7.ref) (by decide), wsub (main_call166.v8.ref) (by decide), wsub (main_call166.c_3.ref) (by decide), wsub (main_call166.v9.ref) (by decide), wsub (main_call166.v10.ref) (by decide), wsub (main_call166.v11.ref) (by decide), wsub (main_call166.v12.ref) (by decide), wsub (main_call166.v13.ref) (by decide), wsub (main_call166.v14.ref) (by decide), wsub (main_call166.v15.ref) (by decide)⟩

theorem it27H_writes : (it27H (F := F)).Forall fun op => op.writes ⊆ (it27_W.map (Proc.devRef (τ := τ) .tc)).toFinset :=
  ⟨wsub (main_call167.c.ref) (by decide), wsub (main_call167.v0.ref) (by decide), wsub (main_call167.v1.ref) (by decide), wsub (main_call167.c_0.ref) (by decide), wsub (main_call167.v2.ref) (by decide), wsub (main_call167.v3.ref) (by decide), wsub (main_call167.call0.v0.ref) (by decide), wsub (main_call167.v5.ref) (by decide), wsub (main_call167.c_1.ref) (by decide), wsub (main_call167.c_2.ref) (by decide), wsub (main_call167.v6.ref) (by decide), wsub (main_call167.v7.ref) (by decide), wsub (main_call167.v8.ref) (by decide), wsub (main_call167.v9.ref) (by decide), wsub (main_call167.v10.ref) (by decide), wsub (main_call167.v11.ref) (by decide), wsub (main_call167.c_3.ref) (by decide), wsub (main_call167.v12.ref) (by decide), wsub (main_call167.v13.ref) (by decide), wsub (main_call167.v14.ref) (by decide), wsub (main_call167.cst.ref) (by decide), wsub (main_call167.v15.ref) (by decide), wsub (main_call167.v16.ref) (by decide)⟩

theorem it27hd_writes : (it27hd (F := F)).Forall fun op => op.writes ⊆ (it27_W.map (Proc.devRef (τ := τ) .tc)).toFinset :=
  forall_append it27A_writes (forall_append it27B_writes (forall_append it27C_writes (forall_append it27D_writes (forall_append it27E_writes it27G_writes))))

theorem it27_writes : (it27 (F := F)).Forall fun op => op.writes ⊆ (it27_W.map (Proc.devRef (τ := τ) .tc)).toFinset :=
  forall_append it27hd_writes (it27H_writes)

/-- The iteration leaves every buffer it does not write as it was. -/
theorem it27_keep (V : Valuation τ sig (Elt F)) (r : Ref sig .tc) (hr : r ∉ it27_W) :
    after (it27 (F := F)) V (Proc.devRef (τ := τ) .tc r) = V (Proc.devRef (τ := τ) .tc r) :=
  after_of_writes_sub it27 V it27_writes hr

theorem it27hd_keep (V : Valuation τ sig (Elt F)) (r : Ref sig .tc) (hr : r ∉ it27_W) :
    after (it27hd (F := F)) V (Proc.devRef (τ := τ) .tc r) = V (Proc.devRef (τ := τ) .tc r) :=
  after_of_writes_sub it27hd V it27hd_writes hr

/-- The iteration's result: the rows of the matrix it is handed at the compacted indices of its mask. -/
theorem it27_res (V : Valuation τ sig (Elt F)) :
    after (it27 (F := F)) V (Proc.devRef (τ := τ) .tc main_v511) = RefFns.nzTake (V (Proc.devRef (τ := τ) .tc main_v7)) (RefFns.colMask (V (Proc.devRef (τ := τ) .tc main_v1)) 27 slices_S1024x32x1_S1024x1x1_0_27_0) := by
  rw [it27, after_append, it27H_val, it27hd_keep V main_v7 (by decide), it27hd]
  simp only [after_append]
  rw [it27G_val, it27E_val, it27D_val, it27C_val, it27B_val, it27A_val]
  rfl

set_option maxRecDepth 65536 in
set_option maxHeartbeats 4000000 in
/-- The invariant of the run survives the iteration, with its block added. -/
theorem it27_step {x : FVec F S1x32x1024 .f32} {V : Valuation τ sig (Elt F)} (hg : Good 27 x V) : Good 28 x (after (it27 (F := F)) V) :=
  good_step 27 (by decide) it27 it27_W slices_S1024x32x1_S1024x1x1_0_27_0 it27_keep it27_res (fun _ => rfl) (by decide +kernel) (by decide +kernel) (by decide +kernel) (by decide +kernel) hg

end Cert.ReferenceIdeal.HandRun

end
-- ==== Proof.RefOpsIt28.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 11 of @main). -/
noncomputable def it28A : List (HloOp τ sig (Elt F)) :=
  [ StableHlo.unary main_v1 main_v512 ((extractStridedSlice S1024x1x1 ![0, 28, 0] · slices_S1024x32x1_S1024x1x1_0_28_0) : (⟨S1024x32x1, .i1⟩ : BufTy).Contents (Elt F) → (⟨S1024x1x1, .i1⟩ : BufTy).Contents (Elt F)),
    StableHlo.reshape main_v512 main_v513 rfl shapeCasts_S1024x1x1_S1024,
    StableHlo.unary main_v513 main_v514 (noti : (⟨S1024, .i1⟩ : BufTy).Contents (Elt F) → (⟨S1024, .i1⟩ : BufTy).Contents (Elt F)) ]

theorem it28A_sub : (it28A (F := F)).Forall fun op => op.bufs ⊆ tcRefs τ sig :=
  ⟨unary_bufs_sub .., reshape_bufs_sub .., unary_bufs_sub ..⟩

theorem it28A_fresh : (it28A (F := F)).Forall fun op => op.fresh = ∅ :=
  ⟨rfl, rfl, rfl⟩

/-- A piece of this stretch (window 11 of @main). -/
noncomputable def it28B : List (HloOp τ sig (Elt F)) :=
  [ StableHlo.TRef.unary (.of main_v514 : StableHlo.TRef sig ⟨S1024, .i1⟩) main_call168.v0 (extui 32 · natLt_1_32),
    StableHlo.TRef.nullary main_call168.call0.c (constantI S_ 32 0#32),
    StableHlo.TRef.unary main_call168.call0.c main_call168.call0.v0 (broadcastInDim S_ ![] bcast_S_S_),
    StableHlo.TRef.binary main_call168.v0 main_call168.call0.v0 main_call168.call0.v1 (fun x v => Host.reduceWindow IntOp.addi ![1024] ![1] ![1023] ![0] x v reduceWindows_S1024_S1024_w1024s1p1023_0 h_S_) ]

theorem it28B_sub : (it28B (F := F)).Forall fun op => op.bufs ⊆ tcRefs τ sig :=
  ⟨unary_bufs_sub .., nullary_bufs_sub .., unary_bufs_sub .., binary_bufs_sub ..⟩

theorem it28B_fresh : (it28B (F := F)).Forall fun op => op.fresh = ∅ :=
  ⟨rfl, rfl, rfl, rfl⟩

/-- A piece of this stretch (window 11 of @main). -/
noncomputable def it28Ca : List (HloOp τ sig (Elt F)) :=
  [ StableHlo.nullary main_c_196 (constantI S_ 32 0#32),
    StableHlo.unary main_c_196 main_v516 (broadcastInDim S1024 ![] bcast_S_S1024 : (⟨S_, .i32⟩ : BufTy).Contents (Elt F) → (⟨S1024, .i32⟩ : BufTy).Contents (Elt F)),
    StableHlo.nullary main_c_197 (constantI S_ 32 0#32),
    StableHlo.TRef.unary (.of main_c_197 : StableHlo.TRef sig ⟨S_, .i32⟩) main_call169.v0 id,
    StableHlo.TRef.unary main_call169.v0 main_call169.v1 (broadcastInDim S1024 ![] bcast_S_S1024),
    StableHlo.TRef.binary main_call169.v1 (.of main_v515 : StableHlo.TRef sig ⟨S1024, .i32⟩) main_call169.v2 maxsi,
    StableHlo.nullary main_c_198 (constantI S_ 32 0#32),
    StableHlo.unary main_c_198 main_v518 (broadcastInDim S1024 ![] bcast_S_S1024 : (⟨S_, .i32⟩ : BufTy).Contents (Elt F) → (⟨S1024, .i32⟩ : BufTy).Contents (Elt F)),
    StableHlo.binary main_v517 main_v518 main_v519 (cmpi .slt : (⟨S1024, .i32⟩ : BufTy).Contents (Elt F) → (⟨S1024, .i32⟩ : BufTy).Contents (Elt F) → (⟨S1024, .i1⟩ : BufTy).Contents (Elt F)) ]

theorem it28Ca_sub : (it28Ca (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub ..⟩

theorem it28Ca_fresh : (it28Ca (F := F)).Forall fun op => op.fresh = ∅ :=
  ⟨rfl, rfl, rfl, rfl, rfl, rfl, rfl, rfl, rfl⟩

/-- A piece of this stretch (window 12 of @main). -/
noncomputable def it28Cb : List (HloOp τ sig (Elt F)) :=
  [ StableHlo.nullary main_c_199 (constantI S_ 32 1024#32),
    StableHlo.unary main_c_199 main_v520 (broadcastInDim S1024 ![] bcast_S_S1024 : (⟨S_, .i32⟩ : BufTy).Contents (Elt F) → (⟨S1024, .i32⟩ : BufTy).Contents (Elt F)),
    StableHlo.binary main_v517 main_v520 main_v521 (addi : (⟨S1024, .i32⟩ : BufTy).Contents (Elt F) → (⟨S1024, .i32⟩ : BufTy).Contents (Elt F) → (⟨S1024, .i32⟩ : BufTy).Contents (Elt F)),
    StableHlo.ternary main_v519 main_v521 main_v517 main_v522 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v522 main_v523 (broadcastInDim S1024x1 ![0] bcast_S1024_S1024x1_0 : (⟨S1024, .i32⟩ : BufTy).Contents (Elt F) → (⟨S1024x1, .i32⟩ : BufTy).Contents (Elt F)),
    StableHlo.nullary main_c_200 (constantI S_ 32 1#32),
    StableHlo.unary main_c_200 main_v524 (broadcastInDim S1024 ![] bcast_S_S1024 : (⟨S_, .i32⟩ : BufTy).Contents (Elt F) → (⟨S1024, .i32⟩ : BufTy).Contents (Elt F)),
    StableHlo.ternary main_v516 main_v523 main_v524 main_v525 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it28Cb_sub : (it28Cb (F := F)).Forall fun op => op.bufs ⊆ tcRefs τ sig :=
  ⟨nullary_bufs_sub .., unary_bufs_sub .., binary_bufs_sub .., ternary_bufs_sub .., unary_bufs_sub .., nullary_bufs_sub .., unary_bufs_sub .., ternary_bufs_sub ..⟩

theorem it28Cb_fresh : (it28Cb (F := F)).Forall fun op => op.fresh = ∅ :=
  ⟨rfl, rfl, rfl, rfl, rfl, rfl, rfl, rfl⟩

/-- A piece of this stretch (window 12 of @main). -/
noncomputable def it28D : List (HloOp τ sig (Elt F)) :=
  [ StableHlo.TRef.nullary main_call170.call0.c (constantI S_ 32 0#32),
    StableHlo.TRef.unary main_call170.call0.c main_call170.call0.v0 (broadcastInDim S_ ![] bcast_S_S_),
    StableHlo.TRef.binary (.of main_v525 : StableHlo.TRef sig ⟨S1024, .i32⟩) main_call170.call0.v0 main_call170.call0.v1 (fun x v => Host.reduceWindow IntOp.addi ![1024] ![1] ![1023] ![0] x v reduceWindows_S1024_S1024_w1024s1p1023_0 h_S_) ]

theorem it28D_sub : (it28D (F := F)).Forall fun op => op.bufs ⊆ tcRefs τ sig :=
  ⟨nullary_bufs_sub .., unary_bufs_sub .., binary_bufs_sub ..⟩

theorem it28D_fresh : (it28D (F := F)).Forall fun op => op.fresh = ∅ :=
  ⟨rfl, rfl, rfl⟩

/-- A piece of this stretch (window 12 of @main). -/
noncomputable def it28E : List (HloOp τ sig (Elt F)) :=
  [ StableHlo.nullary main_c_201 (constantI S_ 32 1#32),
    StableHlo.TRef.unary (.of main_c_201 : StableHlo.TRef sig ⟨S_, .i32⟩) main_call171.v0 (broadcastInDim S1024 ![] bcast_S_S1024),
    StableHlo.TRef.binary (.of main_v526 : StableHlo.TRef sig ⟨S1024, .i32⟩) main_call171.v0 main_call171.v1 Host.divsi,
    StableHlo.TRef.unary (.of main_v526 : StableHlo.TRef sig ⟨S1024, .i32⟩) main_call171.v2 signi,
    StableHlo.TRef.unary (.of main_c_201 : StableHlo.TRef sig ⟨S_, .i32⟩) main_call171.v3 signi,
    StableHlo.TRef.unary main_call171.v3 main_call171.v4 (broadcastInDim S1024 ![] bcast_S_S1024),
    StableHlo.TRef.binary main_call171.v2 main_call171.v4 main_call171.v5 (cmpi .ne),
    StableHlo.TRef.unary (.of main_c_201 : StableHlo.TRef sig ⟨S_, .i32⟩) main_call171.v6 (broadcastInDim S1024 ![] bcast_S_S1024),
    StableHlo.TRef.binary (.of main_v526 : StableHlo.TRef sig ⟨S1024, .i32⟩) main_call171.v6 main_call171.v7 Host.remsi,
    StableHlo.TRef.nullary main_call171.c (constantI S_ 32 0#32),
    StableHlo.TRef.unary main_call171.c main_call171.v8 (broadcastInDim S1024 ![] bcast_S_S1024),
    StableHlo.TRef.binary main_call171.v7 main_call171.v8 main_call171.v9 (cmpi .ne),
    StableHlo.TRef.binary main_call171.v5 main_call171.v9 main_call171.v10 andi,
    StableHlo.TRef.nullary main_call171.c_0 (constantI S_ 32 1#32),
    StableHlo.TRef.unary main_call171.c_0 main_call171.v11 (broadcastInDim S1024 ![] bcast_S_S1024),
    StableHlo.TRef.binary main_call171.v1 main_call171.v11 main_call171.v12 subi,
    StableHlo.TRef.ternary main_call171.v10 main_call171.v12 main_call171.v1 main_call171.call0.v0 select ]

theorem it28E_sub : (it28E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it28E_fresh : (it28E (F := F)).Forall fun op => op.fresh = ∅ :=
  ⟨rfl, rfl, rfl, rfl, rfl, rfl, rfl, rfl, rfl, rfl, rfl, rfl, rfl, rfl, rfl, rfl, rfl⟩

/-- A piece of this stretch (window 12 of @main). -/
noncomputable def it28G : List (HloOp τ sig (Elt F)) :=
  [ StableHlo.nullary main_c_202 (constantI S_ 32 1024#32),
    StableHlo.TRef.unary (.of main_c_202 : StableHlo.TRef sig ⟨S_, .i32⟩) main_call172.v0 id,
    StableHlo.TRef.nullary main_call172.c (constantI S_ 32 0#32),
    StableHlo.TRef.binary main_call172.v0 main_call172.c main_call172.v1 (cmpi .eq),
    StableHlo.TRef.nullary main_call172.c_0 (constantI S_ 32 1#32),
    StableHlo.TRef.ternary main_call172.v1 main_call172.c_0 main_call172.v0 main_call172.call0.v0 select,
    StableHlo.TRef.unary main_call172.call0.v0 main_call172.v3 (broadcastInDim S1024 ![] bcast_S_S1024),
    StableHlo.TRef.binary (.of main_v527 : StableHlo.TRef sig ⟨S1024, .i32⟩) main_call172.v3 main_call172.v4 Host.remsi,
    StableHlo.TRef.nullary main_call172.c_1 (constantI S_ 32 0#32),
    StableHlo.TRef.unary main_call172.c_1 main_call172.v5 (broadcastInDim S1024 ![] bcast_S_S1024),
    StableHlo.TRef.binary main_call172.v4 main_call172.v5 main_call172.v6 (cmpi .ne),
    StableHlo.TRef.nullary main_call172.c_2 (constantI S_ 32 0#32),
    StableHlo.TRef.unary main_call172.c_2 main_call172.v7 (broadcastInDim S1024 ![] bcast_S_S1024),
    StableHlo.TRef.binary main_call172.v4 main_call172.v7 main_call172.v8 (cmpi .slt),
    StableHlo.TRef.nullary main_call172.c_3 (constantI S_ 32 0#32),
    StableHlo.TRef.binary main_call172.call0.v0 main_call172.c_3 main_call172.v9 (cmpi .slt),
    StableHlo.TRef.unary main_call172.v9 main_call172.v10 (broadcastInDim S1024 ![] bcast_S_S1024),
    StableHlo.TRef.binary main_call172.v8 main_call172.v10 main_call172.v11 (cmpi .ne),
    StableHlo.TRef.binary main_call172.v11 main_call172.v6 main_call172.v12 andi,
    StableHlo.TRef.unary main_call172.call0.v0 main_call172.v13 (broadcastInDim S1024 ![] bcast_S_S1024),
    StableHlo.TRef.binary main_call172.v4 main_call172.v13 main_call172.v14 addi,
    StableHlo.TRef.ternary main_call172.v12 main_call172.v14 main_call172.v4 main_call172.v15 select ]

theorem it28G_sub : (it28G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it28G_fresh : (it28G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 12 of @main). -/
noncomputable def it28H : List (HloOp τ sig (Elt F)) :=
  [ StableHlo.TRef.nullary main_call173.c (constantI S_ 32 0#32),
    StableHlo.TRef.unary main_call173.c main_call173.v0 (broadcastInDim S1024 ![] bcast_S_S1024),
    StableHlo.TRef.binary (.of main_v528 : StableHlo.TRef sig ⟨S1024, .i32⟩) main_call173.v0 main_call173.v1 (cmpi .slt),
    StableHlo.TRef.nullary main_call173.c_0 (constantI S_ 32 1024#32),
    StableHlo.TRef.unary main_call173.c_0 main_call173.v2 (broadcastInDim S1024 ![] bcast_S_S1024),
    StableHlo.TRef.binary (.of main_v528 : StableHlo.TRef sig ⟨S1024, .i32⟩) main_call173.v2 main_call173.v3 addi,
    StableHlo.TRef.ternary main_call173.v1 main_call173.v3 (.of main_v528 : StableHlo.TRef sig ⟨S1024, .i32⟩) main_call173.call0.v0 select,
    StableHlo.TRef.unary main_call173.call0.v0 main_call173.v5 (broadcastInDim S1024x1 ![0] bcast_S1024_S1024x1_0),
    StableHlo.TRef.nullary main_call173.c_1 (constantI S1 32 1023#32),
    StableHlo.TRef.nullary main_call173.c_2 (constantI S_ 32 0#32),
    StableHlo.TRef.unary main_call173.c_2 main_call173.v6 (broadcastInDim S1024x1 ![] bcast_S_S1024x1),
    StableHlo.TRef.binary main_call173.v5 main_call173.v6 main_call173.v7 (cmpi .sge),
    StableHlo.TRef.unary main_call173.c_1 main_call173.v8 (broadcastInDim S1x1 ![1] bcast_S1_S1x1_1),
    StableHlo.TRef.unary main_call173.v8 main_call173.v9 (broadcastInDim S1024x1 ![0, 1] bcast_S1x1_S1024x1_0_1),
    StableHlo.TRef.binary main_call173.v5 main_call173.v9 main_call173.v10 (cmpi .sle),
    StableHlo.TRef.binary main_call173.v7 main_call173.v10 main_call173.v11 andi,
    StableHlo.TRef.nullary main_call173.c_3 (constantI S_ 1 1#1),
    StableHlo.TRef.binary main_call173.v11 main_call173.c_3 main_call173.v12 (fun x v => Host.reduce IntOp.andi x v reducesTo_S1024x1_S1024_d1 h_S_),
    StableHlo.TRef.binary (.of main_v7 : StableHlo.TRef sig ⟨S1024x1024, .f32⟩) main_call173.v5 main_call173.v13 (fun x i => Host.gather gather_S1024x1024_S1024x1_S1024x1024_1_0_n_n_0_1_11024 x i),
    StableHlo.TRef.unary main_call173.v12 main_call173.v14 (broadcastInDim S1024x1024 ![0] bcast_S1024_S1024x1024_0),
    StableHlo.TRef.nullary main_call173.cst (constant S_ .f32 0x7FC00000#32),
    StableHlo.TRef.unary main_call173.cst main_call173.v15 (broadcastInDim S1024x1024 ![] bcast_S_S1024x1024),
    StableHlo.TRef.ternary main_call173.v14 main_call173.v13 main_call173.v15 main_call173.v16 select ]

theorem it28H_sub : (it28H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it28H_fresh : (it28H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it28_W : List (Ref sig .tc) :=
  [main_v512, main_v513, main_v514, (main_call168.v0.ref), (main_call168.call0.c.ref), (main_call168.call0.v0.ref), (main_call168.call0.v1.ref), main_c_196, main_v516, main_c_197, (main_call169.v0.ref), (main_call169.v1.ref), (main_call169.v2.ref), main_c_198, main_v518, main_v519, main_c_199, main_v520, main_v521, main_v522, main_v523, main_c_200, main_v524, main_v525, (main_call170.call0.c.ref), (main_call170.call0.v0.ref), (main_call170.call0.v1.ref), main_c_201, (main_call171.v0.ref), (main_call171.v1.ref), (main_call171.v2.ref), (main_call171.v3.ref), (main_call171.v4.ref), (main_call171.v5.ref), (main_call171.v6.ref), (main_call171.v7.ref), (main_call171.c.ref), (main_call171.v8.ref), (main_call171.v9.ref), (main_call171.v10.ref), (main_call171.c_0.ref), (main_call171.v11.ref), (main_call171.v12.ref), (main_call171.call0.v0.ref), main_c_202, (main_call172.v0.ref), (main_call172.c.ref), (main_call172.v1.ref), (main_call172.c_0.ref), (main_call172.call0.v0.ref), (main_call172.v3.ref), (main_call172.v4.ref), (main_call172.c_1.ref), (main_call172.v5.ref), (main_call172.v6.ref), (main_call172.c_2.ref), (main_call172.v7.ref), (main_call172.v8.ref), (main_call172.c_3.ref), (main_call172.v9.ref), (main_call172.v10.ref), (main_call172.v11.ref), (main_call172.v12.ref), (main_call172.v13.ref), (main_call172.v14.ref), (main_call172.v15.ref), (main_call173.c.ref), (main_call173.v0.ref), (main_call173.v1.ref), (main_call173.c_0.ref), (main_call173.v2.ref), (main_call173.v3.ref), (main_call173.call0.v0.ref), (main_call173.v5.ref), (main_call173.c_1.ref), (main_call173.c_2.ref), (main_call173.v6.ref), (main_call173.v7.ref), (main_call173.v8.ref), (main_call173.v9.ref), (main_call173.v10.ref), (main_call173.v11.ref), (main_call173.c_3.ref), (main_call173.v12.ref), (main_call173.v13.ref), (main_call173.v14.ref), (main_call173.cst.ref), (main_call173.v15.ref), (main_call173.v16.ref)]

/-- One stage of the iteration, whole. -/
noncomputable def it28C : List (HloOp τ sig (Elt F)) := it28Ca ++ it28Cb
theorem it28C_sub : (it28C (F := F)).Forall fun op => op.bufs ⊆ tcRefs τ sig :=
  forall_append it28Ca_sub it28Cb_sub
theorem it28C_fresh : (it28C (F := F)).Forall fun op => op.fresh = ∅ :=
  forall_append it28Ca_fresh it28Cb_fresh

/-- The iteration up to the row lookup. -/
noncomputable def it28hd : List (HloOp τ sig (Elt F)) := it28A ++ (it28B ++ (it28C ++ (it28D ++ (it28E ++ it28G))))

/-- The iteration. -/
noncomputable def it28 : List (HloOp τ sig (Elt F)) := it28hd ++ it28H
theorem it28_sub : (it28 (F := F)).Forall fun op => op.bufs ⊆ tcRefs τ sig :=
  forall_append (forall_append it28A_sub (forall_append it28B_sub (forall_append it28C_sub (forall_append it28D_sub (forall_append it28E_sub it28G_sub))))) it28H_sub
theorem it28_fresh : (it28 (F := F)).Forall fun op => op.fresh = ∅ :=
  forall_append (forall_append it28A_fresh (forall_append it28B_fresh (forall_append it28C_fresh (forall_append it28D_fresh (forall_append it28E_fresh it28G_fresh))))) it28H_fresh

/-- The iteration as the concatenation of its pieces. -/
theorem it28_atoms : it28 (F := F) = it28A ++ (it28B ++ (it28Ca ++ (it28Cb ++ (it28D ++ (it28E ++ (it28G ++ it28H)))))) := by
  simp only [it28, it28hd, it28C, List.append_assoc]

end Cert.ReferenceIdeal.HandRun

end
-- ==== Proof.RefIt28.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt28

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it28A_val (V : Valuation τ sig (Elt F)) :
    after (it28A (F := F)) V (Proc.devRef (τ := τ) .tc main_v514) = RefFns.colMask (V (Proc.devRef (τ := τ) .tc main_v1)) 28 slices_S1024x32x1_S1024x1x1_0_28_0 := by
  simp only [it28A, List.cons_append, List.nil_append]
  after_results_simp
  try simp only [cast_eq]
  rfl

set_option maxRecDepth 65536 in
set_option maxHeartbeats 1000000 in
theorem it28B_val (V : Valuation τ sig (Elt F)) :
    after (it28B (F := F)) V (Proc.devRef (τ := τ) .tc main_v515) = RefFns.cumsumF (V (Proc.devRef (τ := τ) .tc main_v514)) := by
  simp only [it28B, List.cons_append, List.nil_append]
  after_results_simp
  try simp only [cast_eq]
  rfl

set_option maxRecDepth 65536 in
set_option maxHeartbeats 1000000 in
theorem it28C_val (V : Valuation τ sig (Elt F)) :
    after (it28C (F := F)) V (Proc.devRef (τ := τ) .tc main_v525) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v515)) (constantI S_ 32 0#32)) (broadcastInDim S1024 ![] bcast_S_S1024 (constantI S_ 32 0#32))) (addi (RefFns.clipF (V (Proc.devRef (τ := τ) .tc main_v515)) (constantI S_ 32 0#32)) (broadcastInDim S1024 ![] bcast_S_S1024 (constantI S_ 32 1024#32))) (RefFns.clipF (V (Proc.devRef (τ := τ) .tc main_v515)) (constantI S_ 32 0#32)))) (broadcastInDim S1024 ![] bcast_S_S1024 (constantI S_ 32 1#32)) := by
  simp only [it28C, it28Ca, it28Cb, List.cons_append, List.nil_append]
  after_results_simp
  try simp only [cast_eq]
  rfl

set_option maxRecDepth 65536 in
set_option maxHeartbeats 1000000 in
theorem it28D_val (V : Valuation τ sig (Elt F)) :
    after (it28D (F := F)) V (Proc.devRef (τ := τ) .tc main_v526) = RefFns.cumsum1F (V (Proc.devRef (τ := τ) .tc main_v525)) := by
  simp only [it28D, List.cons_append, List.nil_append]
  after_results_simp
  try simp only [cast_eq]
  rfl

set_option maxRecDepth 65536 in
set_option maxHeartbeats 1000000 in
theorem it28E_val (V : Valuation τ sig (Elt F)) :
    after (it28E (F := F)) V (Proc.devRef (τ := τ) .tc main_v527) = RefFns.floorDivF (V (Proc.devRef (τ := τ) .tc main_v526)) (constantI S_ 32 1#32) := by
  simp only [it28E, List.cons_append, List.nil_append]
  after_results_simp
  try simp only [cast_eq]
  rfl

set_option maxRecDepth 65536 in
set_option maxHeartbeats 1000000 in
theorem it28G_val (V : Valuation τ sig (Elt F)) :
    after (it28G (F := F)) V (Proc.devRef (τ := τ) .tc main_v528) = RefFns.remainderF (V (Proc.devRef (τ := τ) .tc main_v527)) (constantI S_ 32 1024#32) := by
  simp only [it28G, List.cons_append, List.nil_append]
  after_results_simp
  try simp only [cast_eq]
  rfl

set_option maxRecDepth 65536 in
set_option maxHeartbeats 1000000 in
theorem it28H_val (V : Valuation τ sig (Elt F)) :
    after (it28H (F := F)) V (Proc.devRef (τ := τ) .tc main_v529) = RefFns.takeF (V (Proc.devRef (τ := τ) .tc main_v7)) (V (Proc.devRef (τ := τ) .tc main_v528)) := by
  simp only [it28H, List.cons_append, List.nil_append]
  after_results_simp
  try simp only [cast_eq]
  rfl

theorem it28A_writes : (it28A (F := F)).Forall fun op => op.writes ⊆ (it28_W.map (Proc.devRef (τ := τ) .tc)).toFinset :=
  ⟨wsub main_v512 (by decide), wsub main_v513 (by decide), wsub main_v514 (by decide)⟩

theorem it28B_writes : (it28B (F := F)).Forall fun op => op.writes ⊆ (it28_W.map (Proc.devRef (τ := τ) .tc)).toFinset :=
  ⟨wsub (main_call168.v0.ref) (by decide), wsub (main_call168.call0.c.ref) (by decide), wsub (main_call168.call0.v0.ref) (by decide), wsub (main_call168.call0.v1.ref) (by decide)⟩

theorem it28Ca_writes : (it28Ca (F := F)).Forall fun op => op.writes ⊆ (it28_W.map (Proc.devRef (τ := τ) .tc)).toFinset :=
  ⟨wsub main_c_196 (by decide), wsub main_v516 (by decide), wsub main_c_197 (by decide), wsub (main_call169.v0.ref) (by decide), wsub (main_call169.v1.ref) (by decide), wsub (main_call169.v2.ref) (by decide), wsub main_c_198 (by decide), wsub main_v518 (by decide), wsub main_v519 (by decide)⟩

theorem it28Cb_writes : (it28Cb (F := F)).Forall fun op => op.writes ⊆ (it28_W.map (Proc.devRef (τ := τ) .tc)).toFinset :=
  ⟨wsub main_c_199 (by decide), wsub main_v520 (by decide), wsub main_v521 (by decide), wsub main_v522 (by decide), wsub main_v523 (by decide), wsub main_c_200 (by decide), wsub main_v524 (by decide), wsub main_v525 (by decide)⟩

theorem it28D_writes : (it28D (F := F)).Forall fun op => op.writes ⊆ (it28_W.map (Proc.devRef (τ := τ) .tc)).toFinset :=
  ⟨wsub (main_call170.call0.c.ref) (by decide), wsub (main_call170.call0.v0.ref) (by decide), wsub (main_call170.call0.v1.ref) (by decide)⟩

theorem it28E_writes : (it28E (F := F)).Forall fun op => op.writes ⊆ (it28_W.map (Proc.devRef (τ := τ) .tc)).toFinset :=
  ⟨wsub main_c_201 (by decide), wsub (main_call171.v0.ref) (by decide), wsub (main_call171.v1.ref) (by decide), wsub (main_call171.v2.ref) (by decide), wsub (main_call171.v3.ref) (by decide), wsub (main_call171.v4.ref) (by decide), wsub (main_call171.v5.ref) (by decide), wsub (main_call171.v6.ref) (by decide), wsub (main_call171.v7.ref) (by decide), wsub (main_call171.c.ref) (by decide), wsub (main_call171.v8.ref) (by decide), wsub (main_call171.v9.ref) (by decide), wsub (main_call171.v10.ref) (by decide), wsub (main_call171.c_0.ref) (by decide), wsub (main_call171.v11.ref) (by decide), wsub (main_call171.v12.ref) (by decide), wsub (main_call171.call0.v0.ref) (by decide)⟩

theorem it28G_writes : (it28G (F := F)).Forall fun op => op.writes ⊆ (it28_W.map (Proc.devRef (τ := τ) .tc)).toFinset :=
  ⟨wsub main_c_202 (by decide), wsub (main_call172.v0.ref) (by decide), wsub (main_call172.c.ref) (by decide), wsub (main_call172.v1.ref) (by decide), wsub (main_call172.c_0.ref) (by decide), wsub (main_call172.call0.v0.ref) (by decide), wsub (main_call172.v3.ref) (by decide), wsub (main_call172.v4.ref) (by decide), wsub (main_call172.c_1.ref) (by decide), wsub (main_call172.v5.ref) (by decide), wsub (main_call172.v6.ref) (by decide), wsub (main_call172.c_2.ref) (by decide), wsub (main_call172.v7.ref) (by decide), wsub (main_call172.v8.ref) (by decide), wsub (main_call172.c_3.ref) (by decide), wsub (main_call172.v9.ref) (by decide), wsub (main_call172.v10.ref) (by decide), wsub (main_call172.v11.ref) (by decide), wsub (main_call172.v12.ref) (by decide), wsub (main_call172.v13.ref) (by decide), wsub (main_call172.v14.ref) (by decide), wsub (main_call172.v15.ref) (by decide)⟩

theorem it28H_writes : (it28H (F := F)).Forall fun op => op.writes ⊆ (it28_W.map (Proc.devRef (τ := τ) .tc)).toFinset :=
  ⟨wsub (main_call173.c.ref) (by decide), wsub (main_call173.v0.ref) (by decide), wsub (main_call173.v1.ref) (by decide), wsub (main_call173.c_0.ref) (by decide), wsub (main_call173.v2.ref) (by decide), wsub (main_call173.v3.ref) (by decide), wsub (main_call173.call0.v0.ref) (by decide), wsub (main_call173.v5.ref) (by decide), wsub (main_call173.c_1.ref) (by decide), wsub (main_call173.c_2.ref) (by decide), wsub (main_call173.v6.ref) (by decide), wsub (main_call173.v7.ref) (by decide), wsub (main_call173.v8.ref) (by decide), wsub (main_call173.v9.ref) (by decide), wsub (main_call173.v10.ref) (by decide), wsub (main_call173.v11.ref) (by decide), wsub (main_call173.c_3.ref) (by decide), wsub (main_call173.v12.ref) (by decide), wsub (main_call173.v13.ref) (by decide), wsub (main_call173.v14.ref) (by decide), wsub (main_call173.cst.ref) (by decide), wsub (main_call173.v15.ref) (by decide), wsub (main_call173.v16.ref) (by decide)⟩

theorem it28hd_writes : (it28hd (F := F)).Forall fun op => op.writes ⊆ (it28_W.map (Proc.devRef (τ := τ) .tc)).toFinset :=
  forall_append it28A_writes (forall_append it28B_writes (forall_append (forall_append it28Ca_writes it28Cb_writes) (forall_append it28D_writes (forall_append it28E_writes it28G_writes))))

theorem it28_writes : (it28 (F := F)).Forall fun op => op.writes ⊆ (it28_W.map (Proc.devRef (τ := τ) .tc)).toFinset :=
  forall_append it28hd_writes (it28H_writes)

/-- The iteration leaves every buffer it does not write as it was. -/
theorem it28_keep (V : Valuation τ sig (Elt F)) (r : Ref sig .tc) (hr : r ∉ it28_W) :
    after (it28 (F := F)) V (Proc.devRef (τ := τ) .tc r) = V (Proc.devRef (τ := τ) .tc r) :=
  after_of_writes_sub it28 V it28_writes hr

theorem it28hd_keep (V : Valuation τ sig (Elt F)) (r : Ref sig .tc) (hr : r ∉ it28_W) :
    after (it28hd (F := F)) V (Proc.devRef (τ := τ) .tc r) = V (Proc.devRef (τ := τ) .tc r) :=
  after_of_writes_sub it28hd V it28hd_writes hr

/-- The iteration's result: the rows of the matrix it is handed at the compacted indices of its mask. -/
theorem it28_res (V : Valuation τ sig (Elt F)) :
    after (it28 (F := F)) V (Proc.devRef (τ := τ) .tc main_v529) = RefFns.nzTake (V (Proc.devRef (τ := τ) .tc main_v7)) (RefFns.colMask (V (Proc.devRef (τ := τ) .tc main_v1)) 28 slices_S1024x32x1_S1024x1x1_0_28_0) := by
  rw [it28, after_append, it28H_val, it28hd_keep V main_v7 (by decide), it28hd]
  simp only [after_append]
  rw [it28G_val, it28E_val, it28D_val, it28C_val, it28B_val, it28A_val]
  rfl

set_option maxRecDepth 65536 in
set_option maxHeartbeats 4000000 in
/-- The invariant of the run survives the iteration, with its block added. -/
theorem it28_step {x : FVec F S1x32x1024 .f32} {V : Valuation τ sig (Elt F)} (hg : Good 28 x V) : Good 29 x (after (it28 (F := F)) V) :=
  good_step 28 (by decide) it28 it28_W slices_S1024x32x1_S1024x1x1_0_28_0 it28_keep it28_res (fun _ => rfl) (by decide +kernel) (by decide +kernel) (by decide +kernel) (by decide +kernel) hg

end Cert.ReferenceIdeal.HandRun

end
-- ==== Proof.RefOpsIt29.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 12 of @main). -/
noncomputable def it29A : List (HloOp τ sig (Elt F)) :=
  [ StableHlo.unary main_v1 main_v530 ((extractStridedSlice S1024x1x1 ![0, 29, 0] · slices_S1024x32x1_S1024x1x1_0_29_0) : (⟨S1024x32x1, .i1⟩ : BufTy).Contents (Elt F) → (⟨S1024x1x1, .i1⟩ : BufTy).Contents (Elt F)),
    StableHlo.reshape main_v530 main_v531 rfl shapeCasts_S1024x1x1_S1024,
    StableHlo.unary main_v531 main_v532 (noti : (⟨S1024, .i1⟩ : BufTy).Contents (Elt F) → (⟨S1024, .i1⟩ : BufTy).Contents (Elt F)) ]

theorem it29A_sub : (it29A (F := F)).Forall fun op => op.bufs ⊆ tcRefs τ sig :=
  ⟨unary_bufs_sub .., reshape_bufs_sub .., unary_bufs_sub ..⟩

theorem it29A_fresh : (it29A (F := F)).Forall fun op => op.fresh = ∅ :=
  ⟨rfl, rfl, rfl⟩

/-- A piece of this stretch (window 12 of @main). -/
noncomputable def it29B : List (HloOp τ sig (Elt F)) :=
  [ StableHlo.TRef.unary (.of main_v532 : StableHlo.TRef sig ⟨S1024, .i1⟩) main_call174.v0 (extui 32 · natLt_1_32),
    StableHlo.TRef.nullary main_call174.call0.c (constantI S_ 32 0#32),
    StableHlo.TRef.unary main_call174.call0.c main_call174.call0.v0 (broadcastInDim S_ ![] bcast_S_S_),
    StableHlo.TRef.binary main_call174.v0 main_call174.call0.v0 main_call174.call0.v1 (fun x v => Host.reduceWindow IntOp.addi ![1024] ![1] ![1023] ![0] x v reduceWindows_S1024_S1024_w1024s1p1023_0 h_S_) ]

theorem it29B_sub : (it29B (F := F)).Forall fun op => op.bufs ⊆ tcRefs τ sig :=
  ⟨unary_bufs_sub .., nullary_bufs_sub .., unary_bufs_sub .., binary_bufs_sub ..⟩

theorem it29B_fresh : (it29B (F := F)).Forall fun op => op.fresh = ∅ :=
  ⟨rfl, rfl, rfl, rfl⟩

/-- A piece of this stretch (window 12 of @main). -/
noncomputable def it29C : List (HloOp τ sig (Elt F)) :=
  [ StableHlo.nullary main_c_203 (constantI S_ 32 0#32),
    StableHlo.unary main_c_203 main_v534 (broadcastInDim S1024 ![] bcast_S_S1024 : (⟨S_, .i32⟩ : BufTy).Contents (Elt F) → (⟨S1024, .i32⟩ : BufTy).Contents (Elt F)),
    StableHlo.nullary main_c_204 (constantI S_ 32 0#32),
    StableHlo.TRef.unary (.of main_c_204 : StableHlo.TRef sig ⟨S_, .i32⟩) main_call175.v0 id,
    StableHlo.TRef.unary main_call175.v0 main_call175.v1 (broadcastInDim S1024 ![] bcast_S_S1024),
    StableHlo.TRef.binary main_call175.v1 (.of main_v533 : StableHlo.TRef sig ⟨S1024, .i32⟩) main_call175.v2 maxsi,
    StableHlo.nullary main_c_205 (constantI S_ 32 0#32),
    StableHlo.unary main_c_205 main_v536 (broadcastInDim S1024 ![] bcast_S_S1024 : (⟨S_, .i32⟩ : BufTy).Contents (Elt F) → (⟨S1024, .i32⟩ : BufTy).Contents (Elt F)),
    StableHlo.binary main_v535 main_v536 main_v537 (cmpi .slt : (⟨S1024, .i32⟩ : BufTy).Contents (Elt F) → (⟨S1024, .i32⟩ : BufTy).Contents (Elt F) → (⟨S1024, .i1⟩ : BufTy).Contents (Elt F)),
    StableHlo.nullary main_c_206 (constantI S_ 32 1024#32),
    StableHlo.unary main_c_206 main_v538 (broadcastInDim S1024 ![] bcast_S_S1024 : (⟨S_, .i32⟩ : BufTy).Contents (Elt F) → (⟨S1024, .i32⟩ : BufTy).Contents (Elt F)),
    StableHlo.binary main_v535 main_v538 main_v539 (addi : (⟨S1024, .i32⟩ : BufTy).Contents (Elt F) → (⟨S1024, .i32⟩ : BufTy).Contents (Elt F) → (⟨S1024, .i32⟩ : BufTy).Contents (Elt F)),
    StableHlo.ternary main_v537 main_v539 main_v535 main_v540 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v540 main_v541 (broadcastInDim S1024x1 ![0] bcast_S1024_S1024x1_0 : (⟨S1024, .i32⟩ : BufTy).Contents (Elt F) → (⟨S1024x1, .i32⟩ : BufTy).Contents (Elt F)),
    StableHlo.nullary main_c_207 (constantI S_ 32 1#32),
    StableHlo.unary main_c_207 main_v542 (broadcastInDim S1024 ![] bcast_S_S1024 : (⟨S_, .i32⟩ : BufTy).Contents (Elt F) → (⟨S1024, .i32⟩ : BufTy).Contents (Elt F)),
    StableHlo.ternary main_v534 main_v541 main_v542 main_v543 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it29C_sub : (it29C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it29C_fresh : (it29C (F := F)).Forall fun op => op.fresh = ∅ :=
  ⟨rfl, rfl, rfl, rfl, rfl, rfl, rfl, rfl, rfl, rfl, rfl, rfl, rfl, rfl, rfl, rfl, rfl⟩

/-- A piece of this stretch (window 12 of @main). -/
noncomputable def it29D : List (HloOp τ sig (Elt F)) :=
  [ StableHlo.TRef.nullary main_call176.call0.c (constantI S_ 32 0#32),
    StableHlo.TRef.unary main_call176.call0.c main_call176.call0.v0 (broadcastInDim S_ ![] bcast_S_S_),
    StableHlo.TRef.binary (.of main_v543 : StableHlo.TRef sig ⟨S1024, .i32⟩) main_call176.call0.v0 main_call176.call0.v1 (fun x v => Host.reduceWindow IntOp.addi ![1024] ![1] ![1023] ![0] x v reduceWindows_S1024_S1024_w1024s1p1023_0 h_S_) ]

theorem it29D_sub : (it29D (F := F)).Forall fun op => op.bufs ⊆ tcRefs τ sig :=
  ⟨nullary_bufs_sub .., unary_bufs_sub .., binary_bufs_sub ..⟩

theorem it29D_fresh : (it29D (F := F)).Forall fun op => op.fresh = ∅ :=
  ⟨rfl, rfl, rfl⟩

/-- A piece of this stretch (window 12 of @main). -/
noncomputable def it29E : List (HloOp τ sig (Elt F)) :=
  [ StableHlo.nullary main_c_208 (constantI S_ 32 1#32),
    StableHlo.TRef.unary (.of main_c_208 : StableHlo.TRef sig ⟨S_, .i32⟩) main_call177.v0 (broadcastInDim S1024 ![] bcast_S_S1024),
    StableHlo.TRef.binary (.of main_v544 : StableHlo.TRef sig ⟨S1024, .i32⟩) main_call177.v0 main_call177.v1 Host.divsi,
    StableHlo.TRef.unary (.of main_v544 : StableHlo.TRef sig ⟨S1024, .i32⟩) main_call177.v2 signi,
    StableHlo.TRef.unary (.of main_c_208 : StableHlo.TRef sig ⟨S_, .i32⟩) main_call177.v3 signi,
    StableHlo.TRef.unary main_call177.v3 main_call177.v4 (broadcastInDim S1024 ![] bcast_S_S1024),
    StableHlo.TRef.binary main_call177.v2 main_call177.v4 main_call177.v5 (cmpi .ne),
    StableHlo.TRef.unary (.of main_c_208 : StableHlo.TRef sig ⟨S_, .i32⟩) main_call177.v6 (broadcastInDim S1024 ![] bcast_S_S1024),
    StableHlo.TRef.binary (.of main_v544 : StableHlo.TRef sig ⟨S1024, .i32⟩) main_call177.v6 main_call177.v7 Host.remsi,
    StableHlo.TRef.nullary main_call177.c (constantI S_ 32 0#32),
    StableHlo.TRef.unary main_call177.c main_call177.v8 (broadcastInDim S1024 ![] bcast_S_S1024),
    StableHlo.TRef.binary main_call177.v7 main_call177.v8 main_call177.v9 (cmpi .ne),
    StableHlo.TRef.binary main_call177.v5 main_call177.v9 main_call177.v10 andi,
    StableHlo.TRef.nullary main_call177.c_0 (constantI S_ 32 1#32),
    StableHlo.TRef.unary main_call177.c_0 main_call177.v11 (broadcastInDim S1024 ![] bcast_S_S1024),
    StableHlo.TRef.binary main_call177.v1 main_call177.v11 main_call177.v12 subi,
    StableHlo.TRef.ternary main_call177.v10 main_call177.v12 main_call177.v1 main_call177.call0.v0 select ]

theorem it29E_sub : (it29E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it29E_fresh : (it29E (F := F)).Forall fun op => op.fresh = ∅ :=
  ⟨rfl, rfl, rfl, rfl, rfl, rfl, rfl, rfl, rfl, rfl, rfl, rfl, rfl, rfl, rfl, rfl, rfl⟩

/-- A piece of this stretch (window 12 of @main). -/
noncomputable def it29G : List (HloOp τ sig (Elt F)) :=
  [ StableHlo.nullary main_c_209 (constantI S_ 32 1024#32),
    StableHlo.TRef.unary (.of main_c_209 : StableHlo.TRef sig ⟨S_, .i32⟩) main_call178.v0 id,
    StableHlo.TRef.nullary main_call178.c (constantI S_ 32 0#32),
    StableHlo.TRef.binary main_call178.v0 main_call178.c main_call178.v1 (cmpi .eq),
    StableHlo.TRef.nullary main_call178.c_0 (constantI S_ 32 1#32),
    StableHlo.TRef.ternary main_call178.v1 main_call178.c_0 main_call178.v0 main_call178.call0.v0 select,
    StableHlo.TRef.unary main_call178.call0.v0 main_call178.v3 (broadcastInDim S1024 ![] bcast_S_S1024),
    StableHlo.TRef.binary (.of main_v545 : StableHlo.TRef sig ⟨S1024, .i32⟩) main_call178.v3 main_call178.v4 Host.remsi,
    StableHlo.TRef.nullary main_call178.c_1 (constantI S_ 32 0#32),
    StableHlo.TRef.unary main_call178.c_1 main_call178.v5 (broadcastInDim S1024 ![] bcast_S_S1024),
    StableHlo.TRef.binary main_call178.v4 main_call178.v5 main_call178.v6 (cmpi .ne),
    StableHlo.TRef.nullary main_call178.c_2 (constantI S_ 32 0#32),
    StableHlo.TRef.unary main_call178.c_2 main_call178.v7 (broadcastInDim S1024 ![] bcast_S_S1024),
    StableHlo.TRef.binary main_call178.v4 main_call178.v7 main_call178.v8 (cmpi .slt),
    StableHlo.TRef.nullary main_call178.c_3 (constantI S_ 32 0#32),
    StableHlo.TRef.binary main_call178.call0.v0 main_call178.c_3 main_call178.v9 (cmpi .slt),
    StableHlo.TRef.unary main_call178.v9 main_call178.v10 (broadcastInDim S1024 ![] bcast_S_S1024),
    StableHlo.TRef.binary main_call178.v8 main_call178.v10 main_call178.v11 (cmpi .ne),
    StableHlo.TRef.binary main_call178.v11 main_call178.v6 main_call178.v12 andi,
    StableHlo.TRef.unary main_call178.call0.v0 main_call178.v13 (broadcastInDim S1024 ![] bcast_S_S1024),
    StableHlo.TRef.binary main_call178.v4 main_call178.v13 main_call178.v14 addi,
    StableHlo.TRef.ternary main_call178.v12 main_call178.v14 main_call178.v4 main_call178.v15 select ]

theorem it29G_sub : (it29G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it29G_fresh : (it29G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 12 of @main). -/
noncomputable def it29H : List (HloOp τ sig (Elt F)) :=
  [ StableHlo.TRef.nullary main_call179.c (constantI S_ 32 0#32),
    StableHlo.TRef.unary main_call179.c main_call179.v0 (broadcastInDim S1024 ![] bcast_S_S1024),
    StableHlo.TRef.binary (.of main_v546 : StableHlo.TRef sig ⟨S1024, .i32⟩) main_call179.v0 main_call179.v1 (cmpi .slt),
    StableHlo.TRef.nullary main_call179.c_0 (constantI S_ 32 1024#32),
    StableHlo.TRef.unary main_call179.c_0 main_call179.v2 (broadcastInDim S1024 ![] bcast_S_S1024),
    StableHlo.TRef.binary (.of main_v546 : StableHlo.TRef sig ⟨S1024, .i32⟩) main_call179.v2 main_call179.v3 addi,
    StableHlo.TRef.ternary main_call179.v1 main_call179.v3 (.of main_v546 : StableHlo.TRef sig ⟨S1024, .i32⟩) main_call179.call0.v0 select,
    StableHlo.TRef.unary main_call179.call0.v0 main_call179.v5 (broadcastInDim S1024x1 ![0] bcast_S1024_S1024x1_0),
    StableHlo.TRef.nullary main_call179.c_1 (constantI S1 32 1023#32),
    StableHlo.TRef.nullary main_call179.c_2 (constantI S_ 32 0#32),
    StableHlo.TRef.unary main_call179.c_2 main_call179.v6 (broadcastInDim S1024x1 ![] bcast_S_S1024x1),
    StableHlo.TRef.binary main_call179.v5 main_call179.v6 main_call179.v7 (cmpi .sge),
    StableHlo.TRef.unary main_call179.c_1 main_call179.v8 (broadcastInDim S1x1 ![1] bcast_S1_S1x1_1),
    StableHlo.TRef.unary main_call179.v8 main_call179.v9 (broadcastInDim S1024x1 ![0, 1] bcast_S1x1_S1024x1_0_1),
    StableHlo.TRef.binary main_call179.v5 main_call179.v9 main_call179.v10 (cmpi .sle),
    StableHlo.TRef.binary main_call179.v7 main_call179.v10 main_call179.v11 andi,
    StableHlo.TRef.nullary main_call179.c_3 (constantI S_ 1 1#1),
    StableHlo.TRef.binary main_call179.v11 main_call179.c_3 main_call179.v12 (fun x v => Host.reduce IntOp.andi x v reducesTo_S1024x1_S1024_d1 h_S_),
    StableHlo.TRef.binary (.of main_v7 : StableHlo.TRef sig ⟨S1024x1024, .f32⟩) main_call179.v5 main_call179.v13 (fun x i => Host.gather gather_S1024x1024_S1024x1_S1024x1024_1_0_n_n_0_1_11024 x i),
    StableHlo.TRef.unary main_call179.v12 main_call179.v14 (broadcastInDim S1024x1024 ![0] bcast_S1024_S1024x1024_0),
    StableHlo.TRef.nullary main_call179.cst (constant S_ .f32 0x7FC00000#32),
    StableHlo.TRef.unary main_call179.cst main_call179.v15 (broadcastInDim S1024x1024 ![] bcast_S_S1024x1024),
    StableHlo.TRef.ternary main_call179.v14 main_call179.v13 main_call179.v15 main_call179.v16 select ]

theorem it29H_sub : (it29H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it29H_fresh : (it29H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it29_W : List (Ref sig .tc) :=
  [main_v530, main_v531, main_v532, (main_call174.v0.ref), (main_call174.call0.c.ref), (main_call174.call0.v0.ref), (main_call174.call0.v1.ref), main_c_203, main_v534, main_c_204, (main_call175.v0.ref), (main_call175.v1.ref), (main_call175.v2.ref), main_c_205, main_v536, main_v537, main_c_206, main_v538, main_v539, main_v540, main_v541, main_c_207, main_v542, main_v543, (main_call176.call0.c.ref), (main_call176.call0.v0.ref), (main_call176.call0.v1.ref), main_c_208, (main_call177.v0.ref), (main_call177.v1.ref), (main_call177.v2.ref), (main_call177.v3.ref), (main_call177.v4.ref), (main_call177.v5.ref), (main_call177.v6.ref), (main_call177.v7.ref), (main_call177.c.ref), (main_call177.v8.ref), (main_call177.v9.ref), (main_call177.v10.ref), (main_call177.c_0.ref), (main_call177.v11.ref), (main_call177.v12.ref), (main_call177.call0.v0.ref), main_c_209, (main_call178.v0.ref), (main_call178.c.ref), (main_call178.v1.ref), (main_call178.c_0.ref), (main_call178.call0.v0.ref), (main_call178.v3.ref), (main_call178.v4.ref), (main_call178.c_1.ref), (main_call178.v5.ref), (main_call178.v6.ref), (main_call178.c_2.ref), (main_call178.v7.ref), (main_call178.v8.ref), (main_call178.c_3.ref), (main_call178.v9.ref), (main_call178.v10.ref), (main_call178.v11.ref), (main_call178.v12.ref), (main_call178.v13.ref), (main_call178.v14.ref), (main_call178.v15.ref), (main_call179.c.ref), (main_call179.v0.ref), (main_call179.v1.ref), (main_call179.c_0.ref), (main_call179.v2.ref), (main_call179.v3.ref), (main_call179.call0.v0.ref), (main_call179.v5.ref), (main_call179.c_1.ref), (main_call179.c_2.ref), (main_call179.v6.ref), (main_call179.v7.ref), (main_call179.v8.ref), (main_call179.v9.ref), (main_call179.v10.ref), (main_call179.v11.ref), (main_call179.c_3.ref), (main_call179.v12.ref), (main_call179.v13.ref), (main_call179.v14.ref), (main_call179.cst.ref), (main_call179.v15.ref), (main_call179.v16.ref)]

/-- The iteration up to the row lookup. -/
noncomputable def it29hd : List (HloOp τ sig (Elt F)) := it29A ++ (it29B ++ (it29C ++ (it29D ++ (it29E ++ it29G))))

/-- The iteration. -/
noncomputable def it29 : List (HloOp τ sig (Elt F)) := it29hd ++ it29H
theorem it29_sub : (it29 (F := F)).Forall fun op => op.bufs ⊆ tcRefs τ sig :=
  forall_append (forall_append it29A_sub (forall_append it29B_sub (forall_append it29C_sub (forall_append it29D_sub (forall_append it29E_sub it29G_sub))))) it29H_sub
theorem it29_fresh : (it29 (F := F)).Forall fun op => op.fresh = ∅ :=
  forall_append (forall_append it29A_fresh (forall_append it29B_fresh (forall_append it29C_fresh (forall_append it29D_fresh (forall_append it29E_fresh it29G_fresh))))) it29H_fresh

/-- The iteration as the concatenation of its pieces. -/
theorem it29_atoms : it29 (F := F) = it29A ++ (it29B ++ (it29C ++ (it29D ++ (it29E ++ (it29G ++ it29H))))) := by
  simp only [it29, it29hd, List.append_assoc]

end Cert.ReferenceIdeal.HandRun

end
-- ==== Proof.RefIt29.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt29

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it29A_val (V : Valuation τ sig (Elt F)) :
    after (it29A (F := F)) V (Proc.devRef (τ := τ) .tc main_v532) = RefFns.colMask (V (Proc.devRef (τ := τ) .tc main_v1)) 29 slices_S1024x32x1_S1024x1x1_0_29_0 := by
  simp only [it29A, List.cons_append, List.nil_append]
  after_results_simp
  try simp only [cast_eq]
  rfl

set_option maxRecDepth 65536 in
set_option maxHeartbeats 1000000 in
theorem it29B_val (V : Valuation τ sig (Elt F)) :
    after (it29B (F := F)) V (Proc.devRef (τ := τ) .tc main_v533) = RefFns.cumsumF (V (Proc.devRef (τ := τ) .tc main_v532)) := by
  simp only [it29B, List.cons_append, List.nil_append]
  after_results_simp
  try simp only [cast_eq]
  rfl

set_option maxRecDepth 65536 in
set_option maxHeartbeats 1000000 in
theorem it29C_val (V : Valuation τ sig (Elt F)) :
    after (it29C (F := F)) V (Proc.devRef (τ := τ) .tc main_v543) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v533)) (constantI S_ 32 0#32)) (broadcastInDim S1024 ![] bcast_S_S1024 (constantI S_ 32 0#32))) (addi (RefFns.clipF (V (Proc.devRef (τ := τ) .tc main_v533)) (constantI S_ 32 0#32)) (broadcastInDim S1024 ![] bcast_S_S1024 (constantI S_ 32 1024#32))) (RefFns.clipF (V (Proc.devRef (τ := τ) .tc main_v533)) (constantI S_ 32 0#32)))) (broadcastInDim S1024 ![] bcast_S_S1024 (constantI S_ 32 1#32)) := by
  simp only [it29C, List.cons_append, List.nil_append]
  after_results_simp
  try simp only [cast_eq]
  rfl

set_option maxRecDepth 65536 in
set_option maxHeartbeats 1000000 in
theorem it29D_val (V : Valuation τ sig (Elt F)) :
    after (it29D (F := F)) V (Proc.devRef (τ := τ) .tc main_v544) = RefFns.cumsum1F (V (Proc.devRef (τ := τ) .tc main_v543)) := by
  simp only [it29D, List.cons_append, List.nil_append]
  after_results_simp
  try simp only [cast_eq]
  rfl

set_option maxRecDepth 65536 in
set_option maxHeartbeats 1000000 in
theorem it29E_val (V : Valuation τ sig (Elt F)) :
    after (it29E (F := F)) V (Proc.devRef (τ := τ) .tc main_v545) = RefFns.floorDivF (V (Proc.devRef (τ := τ) .tc main_v544)) (constantI S_ 32 1#32) := by
  simp only [it29E, List.cons_append, List.nil_append]
  after_results_simp
  try simp only [cast_eq]
  rfl

set_option maxRecDepth 65536 in
set_option maxHeartbeats 1000000 in
theorem it29G_val (V : Valuation τ sig (Elt F)) :
    after (it29G (F := F)) V (Proc.devRef (τ := τ) .tc main_v546) = RefFns.remainderF (V (Proc.devRef (τ := τ) .tc main_v545)) (constantI S_ 32 1024#32) := by
  simp only [it29G, List.cons_append, List.nil_append]
  after_results_simp
  try simp only [cast_eq]
  rfl

set_option maxRecDepth 65536 in
set_option maxHeartbeats 1000000 in
theorem it29H_val (V : Valuation τ sig (Elt F)) :
    after (it29H (F := F)) V (Proc.devRef (τ := τ) .tc main_v547) = RefFns.takeF (V (Proc.devRef (τ := τ) .tc main_v7)) (V (Proc.devRef (τ := τ) .tc main_v546)) := by
  simp only [it29H, List.cons_append, List.nil_append]
  after_results_simp
  try simp only [cast_eq]
  rfl

theorem it29A_writes : (it29A (F := F)).Forall fun op => op.writes ⊆ (it29_W.map (Proc.devRef (τ := τ) .tc)).toFinset :=
  ⟨wsub main_v530 (by decide), wsub main_v531 (by decide), wsub main_v532 (by decide)⟩

theorem it29B_writes : (it29B (F := F)).Forall fun op => op.writes ⊆ (it29_W.map (Proc.devRef (τ := τ) .tc)).toFinset :=
  ⟨wsub (main_call174.v0.ref) (by decide), wsub (main_call174.call0.c.ref) (by decide), wsub (main_call174.call0.v0.ref) (by decide), wsub (main_call174.call0.v1.ref) (by decide)⟩

theorem it29C_writes : (it29C (F := F)).Forall fun op => op.writes ⊆ (it29_W.map (Proc.devRef (τ := τ) .tc)).toFinset :=
  ⟨wsub main_c_203 (by decide), wsub main_v534 (by decide), wsub main_c_204 (by decide), wsub (main_call175.v0.ref) (by decide), wsub (main_call175.v1.ref) (by decide), wsub (main_call175.v2.ref) (by decide), wsub main_c_205 (by decide), wsub main_v536 (by decide), wsub main_v537 (by decide), wsub main_c_206 (by decide), wsub main_v538 (by decide), wsub main_v539 (by decide), wsub main_v540 (by decide), wsub main_v541 (by decide), wsub main_c_207 (by decide), wsub main_v542 (by decide), wsub main_v543 (by decide)⟩

theorem it29D_writes : (it29D (F := F)).Forall fun op => op.writes ⊆ (it29_W.map (Proc.devRef (τ := τ) .tc)).toFinset :=
  ⟨wsub (main_call176.call0.c.ref) (by decide), wsub (main_call176.call0.v0.ref) (by decide), wsub (main_call176.call0.v1.ref) (by decide)⟩

theorem it29E_writes : (it29E (F := F)).Forall fun op => op.writes ⊆ (it29_W.map (Proc.devRef (τ := τ) .tc)).toFinset :=
  ⟨wsub main_c_208 (by decide), wsub (main_call177.v0.ref) (by decide), wsub (main_call177.v1.ref) (by decide), wsub (main_call177.v2.ref) (by decide), wsub (main_call177.v3.ref) (by decide), wsub (main_call177.v4.ref) (by decide), wsub (main_call177.v5.ref) (by decide), wsub (main_call177.v6.ref) (by decide), wsub (main_call177.v7.ref) (by decide), wsub (main_call177.c.ref) (by decide), wsub (main_call177.v8.ref) (by decide), wsub (main_call177.v9.ref) (by decide), wsub (main_call177.v10.ref) (by decide), wsub (main_call177.c_0.ref) (by decide), wsub (main_call177.v11.ref) (by decide), wsub (main_call177.v12.ref) (by decide), wsub (main_call177.call0.v0.ref) (by decide)⟩

theorem it29G_writes : (it29G (F := F)).Forall fun op => op.writes ⊆ (it29_W.map (Proc.devRef (τ := τ) .tc)).toFinset :=
  ⟨wsub main_c_209 (by decide), wsub (main_call178.v0.ref) (by decide), wsub (main_call178.c.ref) (by decide), wsub (main_call178.v1.ref) (by decide), wsub (main_call178.c_0.ref) (by decide), wsub (main_call178.call0.v0.ref) (by decide), wsub (main_call178.v3.ref) (by decide), wsub (main_call178.v4.ref) (by decide), wsub (main_call178.c_1.ref) (by decide), wsub (main_call178.v5.ref) (by decide), wsub (main_call178.v6.ref) (by decide), wsub (main_call178.c_2.ref) (by decide), wsub (main_call178.v7.ref) (by decide), wsub (main_call178.v8.ref) (by decide), wsub (main_call178.c_3.ref) (by decide), wsub (main_call178.v9.ref) (by decide), wsub (main_call178.v10.ref) (by decide), wsub (main_call178.v11.ref) (by decide), wsub (main_call178.v12.ref) (by decide), wsub (main_call178.v13.ref) (by decide), wsub (main_call178.v14.ref) (by decide), wsub (main_call178.v15.ref) (by decide)⟩

theorem it29H_writes : (it29H (F := F)).Forall fun op => op.writes ⊆ (it29_W.map (Proc.devRef (τ := τ) .tc)).toFinset :=
  ⟨wsub (main_call179.c.ref) (by decide), wsub (main_call179.v0.ref) (by decide), wsub (main_call179.v1.ref) (by decide), wsub (main_call179.c_0.ref) (by decide), wsub (main_call179.v2.ref) (by decide), wsub (main_call179.v3.ref) (by decide), wsub (main_call179.call0.v0.ref) (by decide), wsub (main_call179.v5.ref) (by decide), wsub (main_call179.c_1.ref) (by decide), wsub (main_call179.c_2.ref) (by decide), wsub (main_call179.v6.ref) (by decide), wsub (main_call179.v7.ref) (by decide), wsub (main_call179.v8.ref) (by decide), wsub (main_call179.v9.ref) (by decide), wsub (main_call179.v10.ref) (by decide), wsub (main_call179.v11.ref) (by decide), wsub (main_call179.c_3.ref) (by decide), wsub (main_call179.v12.ref) (by decide), wsub (main_call179.v13.ref) (by decide), wsub (main_call179.v14.ref) (by decide), wsub (main_call179.cst.ref) (by decide), wsub (main_call179.v15.ref) (by decide), wsub (main_call179.v16.ref) (by decide)⟩

theorem it29hd_writes : (it29hd (F := F)).Forall fun op => op.writes ⊆ (it29_W.map (Proc.devRef (τ := τ) .tc)).toFinset :=
  forall_append it29A_writes (forall_append it29B_writes (forall_append it29C_writes (forall_append it29D_writes (forall_append it29E_writes it29G_writes))))

theorem it29_writes : (it29 (F := F)).Forall fun op => op.writes ⊆ (it29_W.map (Proc.devRef (τ := τ) .tc)).toFinset :=
  forall_append it29hd_writes (it29H_writes)

/-- The iteration leaves every buffer it does not write as it was. -/
theorem it29_keep (V : Valuation τ sig (Elt F)) (r : Ref sig .tc) (hr : r ∉ it29_W) :
    after (it29 (F := F)) V (Proc.devRef (τ := τ) .tc r) = V (Proc.devRef (τ := τ) .tc r) :=
  after_of_writes_sub it29 V it29_writes hr

theorem it29hd_keep (V : Valuation τ sig (Elt F)) (r : Ref sig .tc) (hr : r ∉ it29_W) :
    after (it29hd (F := F)) V (Proc.devRef (τ := τ) .tc r) = V (Proc.devRef (τ := τ) .tc r) :=
  after_of_writes_sub it29hd V it29hd_writes hr

/-- The iteration's result: the rows of the matrix it is handed at the compacted indices of its mask. -/
theorem it29_res (V : Valuation τ sig (Elt F)) :
    after (it29 (F := F)) V (Proc.devRef (τ := τ) .tc main_v547) = RefFns.nzTake (V (Proc.devRef (τ := τ) .tc main_v7)) (RefFns.colMask (V (Proc.devRef (τ := τ) .tc main_v1)) 29 slices_S1024x32x1_S1024x1x1_0_29_0) := by
  rw [it29, after_append, it29H_val, it29hd_keep V main_v7 (by decide), it29hd]
  simp only [after_append]
  rw [it29G_val, it29E_val, it29D_val, it29C_val, it29B_val, it29A_val]
  rfl

set_option maxRecDepth 65536 in
set_option maxHeartbeats 4000000 in
/-- The invariant of the run survives the iteration, with its block added. -/
theorem it29_step {x : FVec F S1x32x1024 .f32} {V : Valuation τ sig (Elt F)} (hg : Good 29 x V) : Good 30 x (after (it29 (F := F)) V) :=
  good_step 29 (by decide) it29 it29_W slices_S1024x32x1_S1024x1x1_0_29_0 it29_keep it29_res (fun _ => rfl) (by decide +kernel) (by decide +kernel) (by decide +kernel) (by decide +kernel) hg

end Cert.ReferenceIdeal.HandRun

end
-- ==== Proof.RefOpsIt30.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 12 of @main). -/
noncomputable def it30A : List (HloOp τ sig (Elt F)) :=
  [ StableHlo.unary main_v1 main_v548 ((extractStridedSlice S1024x1x1 ![0, 30, 0] · slices_S1024x32x1_S1024x1x1_0_30_0) : (⟨S1024x32x1, .i1⟩ : BufTy).Contents (Elt F) → (⟨S1024x1x1, .i1⟩ : BufTy).Contents (Elt F)),
    StableHlo.reshape main_v548 main_v549 rfl shapeCasts_S1024x1x1_S1024,
    StableHlo.unary main_v549 main_v550 (noti : (⟨S1024, .i1⟩ : BufTy).Contents (Elt F) → (⟨S1024, .i1⟩ : BufTy).Contents (Elt F)) ]

theorem it30A_sub : (it30A (F := F)).Forall fun op => op.bufs ⊆ tcRefs τ sig :=
  ⟨unary_bufs_sub .., reshape_bufs_sub .., unary_bufs_sub ..⟩

theorem it30A_fresh : (it30A (F := F)).Forall fun op => op.fresh = ∅ :=
  ⟨rfl, rfl, rfl⟩

/-- A piece of this stretch (window 12 of @main). -/
noncomputable def it30B : List (HloOp τ sig (Elt F)) :=
  [ StableHlo.TRef.unary (.of main_v550 : StableHlo.TRef sig ⟨S1024, .i1⟩) main_call180.v0 (extui 32 · natLt_1_32),
    StableHlo.TRef.nullary main_call180.call0.c (constantI S_ 32 0#32),
    StableHlo.TRef.unary main_call180.call0.c main_call180.call0.v0 (broadcastInDim S_ ![] bcast_S_S_),
    StableHlo.TRef.binary main_call180.v0 main_call180.call0.v0 main_call180.call0.v1 (fun x v => Host.reduceWindow IntOp.addi ![1024] ![1] ![1023] ![0] x v reduceWindows_S1024_S1024_w1024s1p1023_0 h_S_) ]

theorem it30B_sub : (it30B (F := F)).Forall fun op => op.bufs ⊆ tcRefs τ sig :=
  ⟨unary_bufs_sub .., nullary_bufs_sub .., unary_bufs_sub .., binary_bufs_sub ..⟩

theorem it30B_fresh : (it30B (F := F)).Forall fun op => op.fresh = ∅ :=
  ⟨rfl, rfl, rfl, rfl⟩

/-- A piece of this stretch (window 12 of @main). -/
noncomputable def it30C : List (HloOp τ sig (Elt F)) :=
  [ StableHlo.nullary main_c_210 (constantI S_ 32 0#32),
    StableHlo.unary main_c_210 main_v552 (broadcastInDim S1024 ![] bcast_S_S1024 : (⟨S_, .i32⟩ : BufTy).Contents (Elt F) → (⟨S1024, .i32⟩ : BufTy).Contents (Elt F)),
    StableHlo.nullary main_c_211 (constantI S_ 32 0#32),
    StableHlo.TRef.unary (.of main_c_211 : StableHlo.TRef sig ⟨S_, .i32⟩) main_call181.v0 id,
    StableHlo.TRef.unary main_call181.v0 main_call181.v1 (broadcastInDim S1024 ![] bcast_S_S1024),
    StableHlo.TRef.binary main_call181.v1 (.of main_v551 : StableHlo.TRef sig ⟨S1024, .i32⟩) main_call181.v2 maxsi,
    StableHlo.nullary main_c_212 (constantI S_ 32 0#32),
    StableHlo.unary main_c_212 main_v554 (broadcastInDim S1024 ![] bcast_S_S1024 : (⟨S_, .i32⟩ : BufTy).Contents (Elt F) → (⟨S1024, .i32⟩ : BufTy).Contents (Elt F)),
    StableHlo.binary main_v553 main_v554 main_v555 (cmpi .slt : (⟨S1024, .i32⟩ : BufTy).Contents (Elt F) → (⟨S1024, .i32⟩ : BufTy).Contents (Elt F) → (⟨S1024, .i1⟩ : BufTy).Contents (Elt F)),
    StableHlo.nullary main_c_213 (constantI S_ 32 1024#32),
    StableHlo.unary main_c_213 main_v556 (broadcastInDim S1024 ![] bcast_S_S1024 : (⟨S_, .i32⟩ : BufTy).Contents (Elt F) → (⟨S1024, .i32⟩ : BufTy).Contents (Elt F)),
    StableHlo.binary main_v553 main_v556 main_v557 (addi : (⟨S1024, .i32⟩ : BufTy).Contents (Elt F) → (⟨S1024, .i32⟩ : BufTy).Contents (Elt F) → (⟨S1024, .i32⟩ : BufTy).Contents (Elt F)),
    StableHlo.ternary main_v555 main_v557 main_v553 main_v558 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v558 main_v559 (broadcastInDim S1024x1 ![0] bcast_S1024_S1024x1_0 : (⟨S1024, .i32⟩ : BufTy).Contents (Elt F) → (⟨S1024x1, .i32⟩ : BufTy).Contents (Elt F)),
    StableHlo.nullary main_c_214 (constantI S_ 32 1#32),
    StableHlo.unary main_c_214 main_v560 (broadcastInDim S1024 ![] bcast_S_S1024 : (⟨S_, .i32⟩ : BufTy).Contents (Elt F) → (⟨S1024, .i32⟩ : BufTy).Contents (Elt F)),
    StableHlo.ternary main_v552 main_v559 main_v560 main_v561 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it30C_sub : (it30C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it30C_fresh : (it30C (F := F)).Forall fun op => op.fresh = ∅ :=
  ⟨rfl, rfl, rfl, rfl, rfl, rfl, rfl, rfl, rfl, rfl, rfl, rfl, rfl, rfl, rfl, rfl, rfl⟩

/-- A piece of this stretch (window 12 of @main). -/
noncomputable def it30D : List (HloOp τ sig (Elt F)) :=
  [ StableHlo.TRef.nullary main_call182.call0.c (constantI S_ 32 0#32),
    StableHlo.TRef.unary main_call182.call0.c main_call182.call0.v0 (broadcastInDim S_ ![] bcast_S_S_),
    StableHlo.TRef.binary (.of main_v561 : StableHlo.TRef sig ⟨S1024, .i32⟩) main_call182.call0.v0 main_call182.call0.v1 (fun x v => Host.reduceWindow IntOp.addi ![1024] ![1] ![1023] ![0] x v reduceWindows_S1024_S1024_w1024s1p1023_0 h_S_) ]

theorem it30D_sub : (it30D (F := F)).Forall fun op => op.bufs ⊆ tcRefs τ sig :=
  ⟨nullary_bufs_sub .., unary_bufs_sub .., binary_bufs_sub ..⟩

theorem it30D_fresh : (it30D (F := F)).Forall fun op => op.fresh = ∅ :=
  ⟨rfl, rfl, rfl⟩

/-- A piece of this stretch (window 12 of @main). -/
noncomputable def it30Ea : List (HloOp τ sig (Elt F)) :=
  [ StableHlo.nullary main_c_215 (constantI S_ 32 1#32) ]

theorem it30Ea_sub : (it30Ea (F := F)).Forall fun op => op.bufs ⊆ tcRefs τ sig :=
  nullary_bufs_sub ..

theorem it30Ea_fresh : (it30Ea (F := F)).Forall fun op => op.fresh = ∅ :=
  rfl

/-- A piece of this stretch (window 13 of @main). -/
noncomputable def it30Eb : List (HloOp τ sig (Elt F)) :=
  [ StableHlo.TRef.unary (.of main_c_215 : StableHlo.TRef sig ⟨S_, .i32⟩) main_call183.v0 (broadcastInDim S1024 ![] bcast_S_S1024),
    StableHlo.TRef.binary (.of main_v562 : StableHlo.TRef sig ⟨S1024, .i32⟩) main_call183.v0 main_call183.v1 Host.divsi,
    StableHlo.TRef.unary (.of main_v562 : StableHlo.TRef sig ⟨S1024, .i32⟩) main_call183.v2 signi,
    StableHlo.TRef.unary (.of main_c_215 : StableHlo.TRef sig ⟨S_, .i32⟩) main_call183.v3 signi,
    StableHlo.TRef.unary main_call183.v3 main_call183.v4 (broadcastInDim S1024 ![] bcast_S_S1024),
    StableHlo.TRef.binary main_call183.v2 main_call183.v4 main_call183.v5 (cmpi .ne),
    StableHlo.TRef.unary (.of main_c_215 : StableHlo.TRef sig ⟨S_, .i32⟩) main_call183.v6 (broadcastInDim S1024 ![] bcast_S_S1024),
    StableHlo.TRef.binary (.of main_v562 : StableHlo.TRef sig ⟨S1024, .i32⟩) main_call183.v6 main_call183.v7 Host.remsi,
    StableHlo.TRef.nullary main_call183.c (constantI S_ 32 0#32),
    StableHlo.TRef.unary main_call183.c main_call183.v8 (broadcastInDim S1024 ![] bcast_S_S1024),
    StableHlo.TRef.binary main_call183.v7 main_call183.v8 main_call183.v9 (cmpi .ne),
    StableHlo.TRef.binary main_call183.v5 main_call183.v9 main_call183.v10 andi,
    StableHlo.TRef.nullary main_call183.c_0 (constantI S_ 32 1#32),
    StableHlo.TRef.unary main_call183.c_0 main_call183.v11 (broadcastInDim S1024 ![] bcast_S_S1024),
    StableHlo.TRef.binary main_call183.v1 main_call183.v11 main_call183.v12 subi,
    StableHlo.TRef.ternary main_call183.v10 main_call183.v12 main_call183.v1 main_call183.call0.v0 select ]

theorem it30Eb_sub : (it30Eb (F := F)).Forall fun op => op.bufs ⊆ tcRefs τ sig :=
  ⟨unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it30Eb_fresh : (it30Eb (F := F)).Forall fun op => op.fresh = ∅ :=
  ⟨rfl, rfl, rfl, rfl, rfl, rfl, rfl, rfl, rfl, rfl, rfl, rfl, rfl, rfl, rfl, rfl⟩

/-- A piece of this stretch (window 13 of @main). -/
noncomputable def it30G : List (HloOp τ sig (Elt F)) :=
  [ StableHlo.nullary main_c_216 (constantI S_ 32 1024#32),
    StableHlo.TRef.unary (.of main_c_216 : StableHlo.TRef sig ⟨S_, .i32⟩) main_call184.v0 id,
    StableHlo.TRef.nullary main_call184.c (constantI S_ 32 0#32),
    StableHlo.TRef.binary main_call184.v0 main_call184.c main_call184.v1 (cmpi .eq),
    StableHlo.TRef.nullary main_call184.c_0 (constantI S_ 32 1#32),
    StableHlo.TRef.ternary main_call184.v1 main_call184.c_0 main_call184.v0 main_call184.call0.v0 select,
    StableHlo.TRef.unary main_call184.call0.v0 main_call184.v3 (broadcastInDim S1024 ![] bcast_S_S1024),
    StableHlo.TRef.binary (.of main_v563 : StableHlo.TRef sig ⟨S1024, .i32⟩) main_call184.v3 main_call184.v4 Host.remsi,
    StableHlo.TRef.nullary main_call184.c_1 (constantI S_ 32 0#32),
    StableHlo.TRef.unary main_call184.c_1 main_call184.v5 (broadcastInDim S1024 ![] bcast_S_S1024),
    StableHlo.TRef.binary main_call184.v4 main_call184.v5 main_call184.v6 (cmpi .ne),
    StableHlo.TRef.nullary main_call184.c_2 (constantI S_ 32 0#32),
    StableHlo.TRef.unary main_call184.c_2 main_call184.v7 (broadcastInDim S1024 ![] bcast_S_S1024),
    StableHlo.TRef.binary main_call184.v4 main_call184.v7 main_call184.v8 (cmpi .slt),
    StableHlo.TRef.nullary main_call184.c_3 (constantI S_ 32 0#32),
    StableHlo.TRef.binary main_call184.call0.v0 main_call184.c_3 main_call184.v9 (cmpi .slt),
    StableHlo.TRef.unary main_call184.v9 main_call184.v10 (broadcastInDim S1024 ![] bcast_S_S1024),
    StableHlo.TRef.binary main_call184.v8 main_call184.v10 main_call184.v11 (cmpi .ne),
    StableHlo.TRef.binary main_call184.v11 main_call184.v6 main_call184.v12 andi,
    StableHlo.TRef.unary main_call184.call0.v0 main_call184.v13 (broadcastInDim S1024 ![] bcast_S_S1024),
    StableHlo.TRef.binary main_call184.v4 main_call184.v13 main_call184.v14 addi,
    StableHlo.TRef.ternary main_call184.v12 main_call184.v14 main_call184.v4 main_call184.v15 select ]

theorem it30G_sub : (it30G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it30G_fresh : (it30G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 13 of @main). -/
noncomputable def it30H : List (HloOp τ sig (Elt F)) :=
  [ StableHlo.TRef.nullary main_call185.c (constantI S_ 32 0#32),
    StableHlo.TRef.unary main_call185.c main_call185.v0 (broadcastInDim S1024 ![] bcast_S_S1024),
    StableHlo.TRef.binary (.of main_v564 : StableHlo.TRef sig ⟨S1024, .i32⟩) main_call185.v0 main_call185.v1 (cmpi .slt),
    StableHlo.TRef.nullary main_call185.c_0 (constantI S_ 32 1024#32),
    StableHlo.TRef.unary main_call185.c_0 main_call185.v2 (broadcastInDim S1024 ![] bcast_S_S1024),
    StableHlo.TRef.binary (.of main_v564 : StableHlo.TRef sig ⟨S1024, .i32⟩) main_call185.v2 main_call185.v3 addi,
    StableHlo.TRef.ternary main_call185.v1 main_call185.v3 (.of main_v564 : StableHlo.TRef sig ⟨S1024, .i32⟩) main_call185.call0.v0 select,
    StableHlo.TRef.unary main_call185.call0.v0 main_call185.v5 (broadcastInDim S1024x1 ![0] bcast_S1024_S1024x1_0),
    StableHlo.TRef.nullary main_call185.c_1 (constantI S1 32 1023#32),
    StableHlo.TRef.nullary main_call185.c_2 (constantI S_ 32 0#32),
    StableHlo.TRef.unary main_call185.c_2 main_call185.v6 (broadcastInDim S1024x1 ![] bcast_S_S1024x1),
    StableHlo.TRef.binary main_call185.v5 main_call185.v6 main_call185.v7 (cmpi .sge),
    StableHlo.TRef.unary main_call185.c_1 main_call185.v8 (broadcastInDim S1x1 ![1] bcast_S1_S1x1_1),
    StableHlo.TRef.unary main_call185.v8 main_call185.v9 (broadcastInDim S1024x1 ![0, 1] bcast_S1x1_S1024x1_0_1),
    StableHlo.TRef.binary main_call185.v5 main_call185.v9 main_call185.v10 (cmpi .sle),
    StableHlo.TRef.binary main_call185.v7 main_call185.v10 main_call185.v11 andi,
    StableHlo.TRef.nullary main_call185.c_3 (constantI S_ 1 1#1),
    StableHlo.TRef.binary main_call185.v11 main_call185.c_3 main_call185.v12 (fun x v => Host.reduce IntOp.andi x v reducesTo_S1024x1_S1024_d1 h_S_),
    StableHlo.TRef.binary (.of main_v7 : StableHlo.TRef sig ⟨S1024x1024, .f32⟩) main_call185.v5 main_call185.v13 (fun x i => Host.gather gather_S1024x1024_S1024x1_S1024x1024_1_0_n_n_0_1_11024 x i),
    StableHlo.TRef.unary main_call185.v12 main_call185.v14 (broadcastInDim S1024x1024 ![0] bcast_S1024_S1024x1024_0),
    StableHlo.TRef.nullary main_call185.cst (constant S_ .f32 0x7FC00000#32),
    StableHlo.TRef.unary main_call185.cst main_call185.v15 (broadcastInDim S1024x1024 ![] bcast_S_S1024x1024),
    StableHlo.TRef.ternary main_call185.v14 main_call185.v13 main_call185.v15 main_call185.v16 select ]

theorem it30H_sub : (it30H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it30H_fresh : (it30H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it30_W : List (Ref sig .tc) :=
  [main_v548, main_v549, main_v550, (main_call180.v0.ref), (main_call180.call0.c.ref), (main_call180.call0.v0.ref), (main_call180.call0.v1.ref), main_c_210, main_v552, main_c_211, (main_call181.v0.ref), (main_call181.v1.ref), (main_call181.v2.ref), main_c_212, main_v554, main_v555, main_c_213, main_v556, main_v557, main_v558, main_v559, main_c_214, main_v560, main_v561, (main_call182.call0.c.ref), (main_call182.call0.v0.ref), (main_call182.call0.v1.ref), main_c_215, (main_call183.v0.ref), (main_call183.v1.ref), (main_call183.v2.ref), (main_call183.v3.ref), (main_call183.v4.ref), (main_call183.v5.ref), (main_call183.v6.ref), (main_call183.v7.ref), (main_call183.c.ref), (main_call183.v8.ref), (main_call183.v9.ref), (main_call183.v10.ref), (main_call183.c_0.ref), (main_call183.v11.ref), (main_call183.v12.ref), (main_call183.call0.v0.ref), main_c_216, (main_call184.v0.ref), (main_call184.c.ref), (main_call184.v1.ref), (main_call184.c_0.ref), (main_call184.call0.v0.ref), (main_call184.v3.ref), (main_call184.v4.ref), (main_call184.c_1.ref), (main_call184.v5.ref), (main_call184.v6.ref), (main_call184.c_2.ref), (main_call184.v7.ref), (main_call184.v8.ref), (main_call184.c_3.ref), (main_call184.v9.ref), (main_call184.v10.ref), (main_call184.v11.ref), (main_call184.v12.ref), (main_call184.v13.ref), (main_call184.v14.ref), (main_call184.v15.ref), (main_call185.c.ref), (main_call185.v0.ref), (main_call185.v1.ref), (main_call185.c_0.ref), (main_call185.v2.ref), (main_call185.v3.ref), (main_call185.call0.v0.ref), (main_call185.v5.ref), (main_call185.c_1.ref), (main_call185.c_2.ref), (main_call185.v6.ref), (main_call185.v7.ref), (main_call185.v8.ref), (main_call185.v9.ref), (main_call185.v10.ref), (main_call185.v11.ref), (main_call185.c_3.ref), (main_call185.v12.ref), (main_call185.v13.ref), (main_call185.v14.ref), (main_call185.cst.ref), (main_call185.v15.ref), (main_call185.v16.ref)]

/-- One stage of the iteration, whole. -/
noncomputable def it30E : List (HloOp τ sig (Elt F)) := it30Ea ++ it30Eb
theorem it30E_sub : (it30E (F := F)).Forall fun op => op.bufs ⊆ tcRefs τ sig :=
  forall_append it30Ea_sub it30Eb_sub
theorem it30E_fresh : (it30E (F := F)).Forall fun op => op.fresh = ∅ :=
  forall_append it30Ea_fresh it30Eb_fresh

/-- The iteration up to the row lookup. -/
noncomputable def it30hd : List (HloOp τ sig (Elt F)) := it30A ++ (it30B ++ (it30C ++ (it30D ++ (it30E ++ it30G))))

/-- The iteration. -/
noncomputable def it30 : List (HloOp τ sig (Elt F)) := it30hd ++ it30H
theorem it30_sub : (it30 (F := F)).Forall fun op => op.bufs ⊆ tcRefs τ sig :=
  forall_append (forall_append it30A_sub (forall_append it30B_sub (forall_append it30C_sub (forall_append it30D_sub (forall_append it30E_sub it30G_sub))))) it30H_sub
theorem it30_fresh : (it30 (F := F)).Forall fun op => op.fresh = ∅ :=
  forall_append (forall_append it30A_fresh (forall_append it30B_fresh (forall_append it30C_fresh (forall_append it30D_fresh (forall_append it30E_fresh it30G_fresh))))) it30H_fresh

/-- The iteration as the concatenation of its pieces. -/
theorem it30_atoms : it30 (F := F) = it30A ++ (it30B ++ (it30C ++ (it30D ++ (it30Ea ++ (it30Eb ++ (it30G ++ it30H)))))) := by
  simp only [it30, it30hd, it30E, List.append_assoc]

end Cert.ReferenceIdeal.HandRun

end
-- ==== Proof.RefIt30.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt30

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it30A_val (V : Valuation τ sig (Elt F)) :
    after (it30A (F := F)) V (Proc.devRef (τ := τ) .tc main_v550) = RefFns.colMask (V (Proc.devRef (τ := τ) .tc main_v1)) 30 slices_S1024x32x1_S1024x1x1_0_30_0 := by
  simp only [it30A, List.cons_append, List.nil_append]
  after_results_simp
  try simp only [cast_eq]
  rfl

set_option maxRecDepth 65536 in
set_option maxHeartbeats 1000000 in
theorem it30B_val (V : Valuation τ sig (Elt F)) :
    after (it30B (F := F)) V (Proc.devRef (τ := τ) .tc main_v551) = RefFns.cumsumF (V (Proc.devRef (τ := τ) .tc main_v550)) := by
  simp only [it30B, List.cons_append, List.nil_append]
  after_results_simp
  try simp only [cast_eq]
  rfl

set_option maxRecDepth 65536 in
set_option maxHeartbeats 1000000 in
theorem it30C_val (V : Valuation τ sig (Elt F)) :
    after (it30C (F := F)) V (Proc.devRef (τ := τ) .tc main_v561) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v551)) (constantI S_ 32 0#32)) (broadcastInDim S1024 ![] bcast_S_S1024 (constantI S_ 32 0#32))) (addi (RefFns.clipF (V (Proc.devRef (τ := τ) .tc main_v551)) (constantI S_ 32 0#32)) (broadcastInDim S1024 ![] bcast_S_S1024 (constantI S_ 32 1024#32))) (RefFns.clipF (V (Proc.devRef (τ := τ) .tc main_v551)) (constantI S_ 32 0#32)))) (broadcastInDim S1024 ![] bcast_S_S1024 (constantI S_ 32 1#32)) := by
  simp only [it30C, List.cons_append, List.nil_append]
  after_results_simp
  try simp only [cast_eq]
  rfl

set_option maxRecDepth 65536 in
set_option maxHeartbeats 1000000 in
theorem it30D_val (V : Valuation τ sig (Elt F)) :
    after (it30D (F := F)) V (Proc.devRef (τ := τ) .tc main_v562) = RefFns.cumsum1F (V (Proc.devRef (τ := τ) .tc main_v561)) := by
  simp only [it30D, List.cons_append, List.nil_append]
  after_results_simp
  try simp only [cast_eq]
  rfl

set_option maxRecDepth 65536 in
set_option maxHeartbeats 1000000 in
theorem it30E_val (V : Valuation τ sig (Elt F)) :
    after (it30E (F := F)) V (Proc.devRef (τ := τ) .tc main_v563) = RefFns.floorDivF (V (Proc.devRef (τ := τ) .tc main_v562)) (constantI S_ 32 1#32) := by
  simp only [it30E, it30Ea, it30Eb, List.cons_append, List.nil_append]
  after_results_simp
  try simp only [cast_eq]
  rfl

set_option maxRecDepth 65536 in
set_option maxHeartbeats 1000000 in
theorem it30G_val (V : Valuation τ sig (Elt F)) :
    after (it30G (F := F)) V (Proc.devRef (τ := τ) .tc main_v564) = RefFns.remainderF (V (Proc.devRef (τ := τ) .tc main_v563)) (constantI S_ 32 1024#32) := by
  simp only [it30G, List.cons_append, List.nil_append]
  after_results_simp
  try simp only [cast_eq]
  rfl

set_option maxRecDepth 65536 in
set_option maxHeartbeats 1000000 in
theorem it30H_val (V : Valuation τ sig (Elt F)) :
    after (it30H (F := F)) V (Proc.devRef (τ := τ) .tc main_v565) = RefFns.takeF (V (Proc.devRef (τ := τ) .tc main_v7)) (V (Proc.devRef (τ := τ) .tc main_v564)) := by
  simp only [it30H, List.cons_append, List.nil_append]
  after_results_simp
  try simp only [cast_eq]
  rfl

theorem it30A_writes : (it30A (F := F)).Forall fun op => op.writes ⊆ (it30_W.map (Proc.devRef (τ := τ) .tc)).toFinset :=
  ⟨wsub main_v548 (by decide), wsub main_v549 (by decide), wsub main_v550 (by decide)⟩

theorem it30B_writes : (it30B (F := F)).Forall fun op => op.writes ⊆ (it30_W.map (Proc.devRef (τ := τ) .tc)).toFinset :=
  ⟨wsub (main_call180.v0.ref) (by decide), wsub (main_call180.call0.c.ref) (by decide), wsub (main_call180.call0.v0.ref) (by decide), wsub (main_call180.call0.v1.ref) (by decide)⟩

theorem it30C_writes : (it30C (F := F)).Forall fun op => op.writes ⊆ (it30_W.map (Proc.devRef (τ := τ) .tc)).toFinset :=
  ⟨wsub main_c_210 (by decide), wsub main_v552 (by decide), wsub main_c_211 (by decide), wsub (main_call181.v0.ref) (by decide), wsub (main_call181.v1.ref) (by decide), wsub (main_call181.v2.ref) (by decide), wsub main_c_212 (by decide), wsub main_v554 (by decide), wsub main_v555 (by decide), wsub main_c_213 (by decide), wsub main_v556 (by decide), wsub main_v557 (by decide), wsub main_v558 (by decide), wsub main_v559 (by decide), wsub main_c_214 (by decide), wsub main_v560 (by decide), wsub main_v561 (by decide)⟩

theorem it30D_writes : (it30D (F := F)).Forall fun op => op.writes ⊆ (it30_W.map (Proc.devRef (τ := τ) .tc)).toFinset :=
  ⟨wsub (main_call182.call0.c.ref) (by decide), wsub (main_call182.call0.v0.ref) (by decide), wsub (main_call182.call0.v1.ref) (by decide)⟩

theorem it30Ea_writes : (it30Ea (F := F)).Forall fun op => op.writes ⊆ (it30_W.map (Proc.devRef (τ := τ) .tc)).toFinset :=
  wsub main_c_215 (by decide)

theorem it30Eb_writes : (it30Eb (F := F)).Forall fun op => op.writes ⊆ (it30_W.map (Proc.devRef (τ := τ) .tc)).toFinset :=
  ⟨wsub (main_call183.v0.ref) (by decide), wsub (main_call183.v1.ref) (by decide), wsub (main_call183.v2.ref) (by decide), wsub (main_call183.v3.ref) (by decide), wsub (main_call183.v4.ref) (by decide), wsub (main_call183.v5.ref) (by decide), wsub (main_call183.v6.ref) (by decide), wsub (main_call183.v7.ref) (by decide), wsub (main_call183.c.ref) (by decide), wsub (main_call183.v8.ref) (by decide), wsub (main_call183.v9.ref) (by decide), wsub (main_call183.v10.ref) (by decide), wsub (main_call183.c_0.ref) (by decide), wsub (main_call183.v11.ref) (by decide), wsub (main_call183.v12.ref) (by decide), wsub (main_call183.call0.v0.ref) (by decide)⟩

theorem it30G_writes : (it30G (F := F)).Forall fun op => op.writes ⊆ (it30_W.map (Proc.devRef (τ := τ) .tc)).toFinset :=
  ⟨wsub main_c_216 (by decide), wsub (main_call184.v0.ref) (by decide), wsub (main_call184.c.ref) (by decide), wsub (main_call184.v1.ref) (by decide), wsub (main_call184.c_0.ref) (by decide), wsub (main_call184.call0.v0.ref) (by decide), wsub (main_call184.v3.ref) (by decide), wsub (main_call184.v4.ref) (by decide), wsub (main_call184.c_1.ref) (by decide), wsub (main_call184.v5.ref) (by decide), wsub (main_call184.v6.ref) (by decide), wsub (main_call184.c_2.ref) (by decide), wsub (main_call184.v7.ref) (by decide), wsub (main_call184.v8.ref) (by decide), wsub (main_call184.c_3.ref) (by decide), wsub (main_call184.v9.ref) (by decide), wsub (main_call184.v10.ref) (by decide), wsub (main_call184.v11.ref) (by decide), wsub (main_call184.v12.ref) (by decide), wsub (main_call184.v13.ref) (by decide), wsub (main_call184.v14.ref) (by decide), wsub (main_call184.v15.ref) (by decide)⟩

theorem it30H_writes : (it30H (F := F)).Forall fun op => op.writes ⊆ (it30_W.map (Proc.devRef (τ := τ) .tc)).toFinset :=
  ⟨wsub (main_call185.c.ref) (by decide), wsub (main_call185.v0.ref) (by decide), wsub (main_call185.v1.ref) (by decide), wsub (main_call185.c_0.ref) (by decide), wsub (main_call185.v2.ref) (by decide), wsub (main_call185.v3.ref) (by decide), wsub (main_call185.call0.v0.ref) (by decide), wsub (main_call185.v5.ref) (by decide), wsub (main_call185.c_1.ref) (by decide), wsub (main_call185.c_2.ref) (by decide), wsub (main_call185.v6.ref) (by decide), wsub (main_call185.v7.ref) (by decide), wsub (main_call185.v8.ref) (by decide), wsub (main_call185.v9.ref) (by decide), wsub (main_call185.v10.ref) (by decide), wsub (main_call185.v11.ref) (by decide), wsub (main_call185.c_3.ref) (by decide), wsub (main_call185.v12.ref) (by decide), wsub (main_call185.v13.ref) (by decide), wsub (main_call185.v14.ref) (by decide), wsub (main_call185.cst.ref) (by decide), wsub (main_call185.v15.ref) (by decide), wsub (main_call185.v16.ref) (by decide)⟩

theorem it30hd_writes : (it30hd (F := F)).Forall fun op => op.writes ⊆ (it30_W.map (Proc.devRef (τ := τ) .tc)).toFinset :=
  forall_append it30A_writes (forall_append it30B_writes (forall_append it30C_writes (forall_append it30D_writes (forall_append (forall_append it30Ea_writes it30Eb_writes) it30G_writes))))

theorem it30_writes : (it30 (F := F)).Forall fun op => op.writes ⊆ (it30_W.map (Proc.devRef (τ := τ) .tc)).toFinset :=
  forall_append it30hd_writes (it30H_writes)

/-- The iteration leaves every buffer it does not write as it was. -/
theorem it30_keep (V : Valuation τ sig (Elt F)) (r : Ref sig .tc) (hr : r ∉ it30_W) :
    after (it30 (F := F)) V (Proc.devRef (τ := τ) .tc r) = V (Proc.devRef (τ := τ) .tc r) :=
  after_of_writes_sub it30 V it30_writes hr

theorem it30hd_keep (V : Valuation τ sig (Elt F)) (r : Ref sig .tc) (hr : r ∉ it30_W) :
    after (it30hd (F := F)) V (Proc.devRef (τ := τ) .tc r) = V (Proc.devRef (τ := τ) .tc r) :=
  after_of_writes_sub it30hd V it30hd_writes hr

/-- The iteration's result: the rows of the matrix it is handed at the compacted indices of its mask. -/
theorem it30_res (V : Valuation τ sig (Elt F)) :
    after (it30 (F := F)) V (Proc.devRef (τ := τ) .tc main_v565) = RefFns.nzTake (V (Proc.devRef (τ := τ) .tc main_v7)) (RefFns.colMask (V (Proc.devRef (τ := τ) .tc main_v1)) 30 slices_S1024x32x1_S1024x1x1_0_30_0) := by
  rw [it30, after_append, it30H_val, it30hd_keep V main_v7 (by decide), it30hd]
  simp only [after_append]
  rw [it30G_val, it30E_val, it30D_val, it30C_val, it30B_val, it30A_val]
  rfl

set_option maxRecDepth 65536 in
set_option maxHeartbeats 4000000 in
/-- The invariant of the run survives the iteration, with its block added. -/
theorem it30_step {x : FVec F S1x32x1024 .f32} {V : Valuation τ sig (Elt F)} (hg : Good 30 x V) : Good 31 x (after (it30 (F := F)) V) :=
  good_step 30 (by decide) it30 it30_W slices_S1024x32x1_S1024x1x1_0_30_0 it30_keep it30_res (fun _ => rfl) (by decide +kernel) (by decide +kernel) (by decide +kernel) (by decide +kernel) hg

end Cert.ReferenceIdeal.HandRun

end
-- ==== Proof.RefOpsIt31.lean ====
/- The host operations of one stretch of the reference's @main, in order, the outlined functions' operations listed at
   their call sites over each call's own buffers, in pieces; for each piece: every buffer touched is a TensorCore
   reference, no operation allocates; and the references the stretch writes. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- A piece of this stretch (window 13 of @main). -/
noncomputable def it31A : List (HloOp τ sig (Elt F)) :=
  [ StableHlo.unary main_v1 main_v566 ((extractStridedSlice S1024x1x1 ![0, 31, 0] · slices_S1024x32x1_S1024x1x1_0_31_0) : (⟨S1024x32x1, .i1⟩ : BufTy).Contents (Elt F) → (⟨S1024x1x1, .i1⟩ : BufTy).Contents (Elt F)),
    StableHlo.reshape main_v566 main_v567 rfl shapeCasts_S1024x1x1_S1024,
    StableHlo.unary main_v567 main_v568 (noti : (⟨S1024, .i1⟩ : BufTy).Contents (Elt F) → (⟨S1024, .i1⟩ : BufTy).Contents (Elt F)) ]

theorem it31A_sub : (it31A (F := F)).Forall fun op => op.bufs ⊆ tcRefs τ sig :=
  ⟨unary_bufs_sub .., reshape_bufs_sub .., unary_bufs_sub ..⟩

theorem it31A_fresh : (it31A (F := F)).Forall fun op => op.fresh = ∅ :=
  ⟨rfl, rfl, rfl⟩

/-- A piece of this stretch (window 13 of @main). -/
noncomputable def it31B : List (HloOp τ sig (Elt F)) :=
  [ StableHlo.TRef.unary (.of main_v568 : StableHlo.TRef sig ⟨S1024, .i1⟩) main_call186.v0 (extui 32 · natLt_1_32),
    StableHlo.TRef.nullary main_call186.call0.c (constantI S_ 32 0#32),
    StableHlo.TRef.unary main_call186.call0.c main_call186.call0.v0 (broadcastInDim S_ ![] bcast_S_S_),
    StableHlo.TRef.binary main_call186.v0 main_call186.call0.v0 main_call186.call0.v1 (fun x v => Host.reduceWindow IntOp.addi ![1024] ![1] ![1023] ![0] x v reduceWindows_S1024_S1024_w1024s1p1023_0 h_S_) ]

theorem it31B_sub : (it31B (F := F)).Forall fun op => op.bufs ⊆ tcRefs τ sig :=
  ⟨unary_bufs_sub .., nullary_bufs_sub .., unary_bufs_sub .., binary_bufs_sub ..⟩

theorem it31B_fresh : (it31B (F := F)).Forall fun op => op.fresh = ∅ :=
  ⟨rfl, rfl, rfl, rfl⟩

/-- A piece of this stretch (window 13 of @main). -/
noncomputable def it31C : List (HloOp τ sig (Elt F)) :=
  [ StableHlo.nullary main_c_217 (constantI S_ 32 0#32),
    StableHlo.unary main_c_217 main_v570 (broadcastInDim S1024 ![] bcast_S_S1024 : (⟨S_, .i32⟩ : BufTy).Contents (Elt F) → (⟨S1024, .i32⟩ : BufTy).Contents (Elt F)),
    StableHlo.nullary main_c_218 (constantI S_ 32 0#32),
    StableHlo.TRef.unary (.of main_c_218 : StableHlo.TRef sig ⟨S_, .i32⟩) main_call187.v0 id,
    StableHlo.TRef.unary main_call187.v0 main_call187.v1 (broadcastInDim S1024 ![] bcast_S_S1024),
    StableHlo.TRef.binary main_call187.v1 (.of main_v569 : StableHlo.TRef sig ⟨S1024, .i32⟩) main_call187.v2 maxsi,
    StableHlo.nullary main_c_219 (constantI S_ 32 0#32),
    StableHlo.unary main_c_219 main_v572 (broadcastInDim S1024 ![] bcast_S_S1024 : (⟨S_, .i32⟩ : BufTy).Contents (Elt F) → (⟨S1024, .i32⟩ : BufTy).Contents (Elt F)),
    StableHlo.binary main_v571 main_v572 main_v573 (cmpi .slt : (⟨S1024, .i32⟩ : BufTy).Contents (Elt F) → (⟨S1024, .i32⟩ : BufTy).Contents (Elt F) → (⟨S1024, .i1⟩ : BufTy).Contents (Elt F)),
    StableHlo.nullary main_c_220 (constantI S_ 32 1024#32),
    StableHlo.unary main_c_220 main_v574 (broadcastInDim S1024 ![] bcast_S_S1024 : (⟨S_, .i32⟩ : BufTy).Contents (Elt F) → (⟨S1024, .i32⟩ : BufTy).Contents (Elt F)),
    StableHlo.binary main_v571 main_v574 main_v575 (addi : (⟨S1024, .i32⟩ : BufTy).Contents (Elt F) → (⟨S1024, .i32⟩ : BufTy).Contents (Elt F) → (⟨S1024, .i32⟩ : BufTy).Contents (Elt F)),
    StableHlo.ternary main_v573 main_v575 main_v571 main_v576 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v576 main_v577 (broadcastInDim S1024x1 ![0] bcast_S1024_S1024x1_0 : (⟨S1024, .i32⟩ : BufTy).Contents (Elt F) → (⟨S1024x1, .i32⟩ : BufTy).Contents (Elt F)),
    StableHlo.nullary main_c_221 (constantI S_ 32 1#32),
    StableHlo.unary main_c_221 main_v578 (broadcastInDim S1024 ![] bcast_S_S1024 : (⟨S_, .i32⟩ : BufTy).Contents (Elt F) → (⟨S1024, .i32⟩ : BufTy).Contents (Elt F)),
    StableHlo.ternary main_v570 main_v577 main_v578 main_v579 ((fun x i u => Host.scatter scatter_S1024_S1024x1_S1024_n_0_0_1 IntOp.addi x i u) : (⟨S1024, .i32⟩ : BufTy).Contents (Elt F) → (⟨S1024x1, .i32⟩ : BufTy).Contents (Elt F) → (⟨S1024, .i32⟩ : BufTy).Contents (Elt F) → (⟨S1024, .i32⟩ : BufTy).Contents (Elt F)) ]

theorem it31C_sub : (it31C (F := F)).Forall fun op => op.bufs ⊆ tcRefs τ sig :=
  ⟨nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub ..⟩

theorem it31C_fresh : (it31C (F := F)).Forall fun op => op.fresh = ∅ :=
  ⟨rfl, rfl, rfl, rfl, rfl, rfl, rfl, rfl, rfl, rfl, rfl, rfl, rfl, rfl, rfl, rfl, rfl⟩

/-- A piece of this stretch (window 13 of @main). -/
noncomputable def it31D : List (HloOp τ sig (Elt F)) :=
  [ StableHlo.TRef.nullary main_call188.call0.c (constantI S_ 32 0#32),
    StableHlo.TRef.unary main_call188.call0.c main_call188.call0.v0 (broadcastInDim S_ ![] bcast_S_S_),
    StableHlo.TRef.binary (.of main_v579 : StableHlo.TRef sig ⟨S1024, .i32⟩) main_call188.call0.v0 main_call188.call0.v1 (fun x v => Host.reduceWindow IntOp.addi ![1024] ![1] ![1023] ![0] x v reduceWindows_S1024_S1024_w1024s1p1023_0 h_S_) ]

theorem it31D_sub : (it31D (F := F)).Forall fun op => op.bufs ⊆ tcRefs τ sig :=
  ⟨nullary_bufs_sub .., unary_bufs_sub .., binary_bufs_sub ..⟩

theorem it31D_fresh : (it31D (F := F)).Forall fun op => op.fresh = ∅ :=
  ⟨rfl, rfl, rfl⟩

/-- A piece of this stretch (window 13 of @main). -/
noncomputable def it31E : List (HloOp τ sig (Elt F)) :=
  [ StableHlo.nullary main_c_222 (constantI S_ 32 1#32),
    StableHlo.TRef.unary (.of main_c_222 : StableHlo.TRef sig ⟨S_, .i32⟩) main_call189.v0 (broadcastInDim S1024 ![] bcast_S_S1024),
    StableHlo.TRef.binary (.of main_v580 : StableHlo.TRef sig ⟨S1024, .i32⟩) main_call189.v0 main_call189.v1 Host.divsi,
    StableHlo.TRef.unary (.of main_v580 : StableHlo.TRef sig ⟨S1024, .i32⟩) main_call189.v2 signi,
    StableHlo.TRef.unary (.of main_c_222 : StableHlo.TRef sig ⟨S_, .i32⟩) main_call189.v3 signi,
    StableHlo.TRef.unary main_call189.v3 main_call189.v4 (broadcastInDim S1024 ![] bcast_S_S1024),
    StableHlo.TRef.binary main_call189.v2 main_call189.v4 main_call189.v5 (cmpi .ne),
    StableHlo.TRef.unary (.of main_c_222 : StableHlo.TRef sig ⟨S_, .i32⟩) main_call189.v6 (broadcastInDim S1024 ![] bcast_S_S1024),
    StableHlo.TRef.binary (.of main_v580 : StableHlo.TRef sig ⟨S1024, .i32⟩) main_call189.v6 main_call189.v7 Host.remsi,
    StableHlo.TRef.nullary main_call189.c (constantI S_ 32 0#32),
    StableHlo.TRef.unary main_call189.c main_call189.v8 (broadcastInDim S1024 ![] bcast_S_S1024),
    StableHlo.TRef.binary main_call189.v7 main_call189.v8 main_call189.v9 (cmpi .ne),
    StableHlo.TRef.binary main_call189.v5 main_call189.v9 main_call189.v10 andi,
    StableHlo.TRef.nullary main_call189.c_0 (constantI S_ 32 1#32),
    StableHlo.TRef.unary main_call189.c_0 main_call189.v11 (broadcastInDim S1024 ![] bcast_S_S1024),
    StableHlo.TRef.binary main_call189.v1 main_call189.v11 main_call189.v12 subi,
    StableHlo.TRef.ternary main_call189.v10 main_call189.v12 main_call189.v1 main_call189.call0.v0 select ]

theorem it31E_sub : (it31E (F := F)).Forall fun op => op.bufs ⊆ tcRefs τ sig :=
  ⟨nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub ..⟩

theorem it31E_fresh : (it31E (F := F)).Forall fun op => op.fresh = ∅ :=
  ⟨rfl, rfl, rfl, rfl, rfl, rfl, rfl, rfl, rfl, rfl, rfl, rfl, rfl, rfl, rfl, rfl, rfl⟩

/-- A piece of this stretch (window 13 of @main). -/
noncomputable def it31G : List (HloOp τ sig (Elt F)) :=
  [ StableHlo.nullary main_c_223 (constantI S_ 32 1024#32),
    StableHlo.TRef.unary (.of main_c_223 : StableHlo.TRef sig ⟨S_, .i32⟩) main_call190.v0 id,
    StableHlo.TRef.nullary main_call190.c (constantI S_ 32 0#32),
    StableHlo.TRef.binary main_call190.v0 main_call190.c main_call190.v1 (cmpi .eq),
    StableHlo.TRef.nullary main_call190.c_0 (constantI S_ 32 1#32),
    StableHlo.TRef.ternary main_call190.v1 main_call190.c_0 main_call190.v0 main_call190.call0.v0 select,
    StableHlo.TRef.unary main_call190.call0.v0 main_call190.v3 (broadcastInDim S1024 ![] bcast_S_S1024),
    StableHlo.TRef.binary (.of main_v581 : StableHlo.TRef sig ⟨S1024, .i32⟩) main_call190.v3 main_call190.v4 Host.remsi,
    StableHlo.TRef.nullary main_call190.c_1 (constantI S_ 32 0#32),
    StableHlo.TRef.unary main_call190.c_1 main_call190.v5 (broadcastInDim S1024 ![] bcast_S_S1024),
    StableHlo.TRef.binary main_call190.v4 main_call190.v5 main_call190.v6 (cmpi .ne),
    StableHlo.TRef.nullary main_call190.c_2 (constantI S_ 32 0#32),
    StableHlo.TRef.unary main_call190.c_2 main_call190.v7 (broadcastInDim S1024 ![] bcast_S_S1024),
    StableHlo.TRef.binary main_call190.v4 main_call190.v7 main_call190.v8 (cmpi .slt),
    StableHlo.TRef.nullary main_call190.c_3 (constantI S_ 32 0#32),
    StableHlo.TRef.binary main_call190.call0.v0 main_call190.c_3 main_call190.v9 (cmpi .slt),
    StableHlo.TRef.unary main_call190.v9 main_call190.v10 (broadcastInDim S1024 ![] bcast_S_S1024),
    StableHlo.TRef.binary main_call190.v8 main_call190.v10 main_call190.v11 (cmpi .ne),
    StableHlo.TRef.binary main_call190.v11 main_call190.v6 main_call190.v12 andi,
    StableHlo.TRef.unary main_call190.call0.v0 main_call190.v13 (broadcastInDim S1024 ![] bcast_S_S1024),
    StableHlo.TRef.binary main_call190.v4 main_call190.v13 main_call190.v14 addi,
    StableHlo.TRef.ternary main_call190.v12 main_call190.v14 main_call190.v4 main_call190.v15 select ]

theorem it31G_sub : (it31G (F := F)).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

theorem it31G_fresh : (it31G (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- A piece of this stretch (window 13 of @main). -/
noncomputable def it31H : List (HloOp τ sig (Elt F)) :=
  [ StableHlo.TRef.nullary main_call191.c (constantI S_ 32 0#32),
    StableHlo.TRef.unary main_call191.c main_call191.v0 (broadcastInDim S1024 ![] bcast_S_S1024),
    StableHlo.TRef.binary (.of main_v582 : StableHlo.TRef sig ⟨S1024, .i32⟩) main_call191.v0 main_call191.v1 (cmpi .slt),
    StableHlo.TRef.nullary main_call191.c_0 (constantI S_ 32 1024#32),
    StableHlo.TRef.unary main_call191.c_0 main_call191.v2 (broadcastInDim S1024 ![] bcast_S_S1024),
    StableHlo.TRef.binary (.of main_v582 : StableHlo.TRef sig ⟨S1024, .i32⟩) main_call191.v2 main_call191.v3 addi,
    StableHlo.TRef.ternary main_call191.v1 main_call191.v3 (.of main_v582 : StableHlo.TRef sig ⟨S1024, .i32⟩) main_call191.call0.v0 select,
    StableHlo.TRef.unary main_call191.call0.v0 main_call191.v5 (broadcastInDim S1024x1 ![0] bcast_S1024_S1024x1_0),
    StableHlo.TRef.nullary main_call191.c_1 (constantI S1 32 1023#32),
    StableHlo.TRef.nullary main_call191.c_2 (constantI S_ 32 0#32),
    StableHlo.TRef.unary main_call191.c_2 main_call191.v6 (broadcastInDim S1024x1 ![] bcast_S_S1024x1),
    StableHlo.TRef.binary main_call191.v5 main_call191.v6 main_call191.v7 (cmpi .sge),
    StableHlo.TRef.unary main_call191.c_1 main_call191.v8 (broadcastInDim S1x1 ![1] bcast_S1_S1x1_1),
    StableHlo.TRef.unary main_call191.v8 main_call191.v9 (broadcastInDim S1024x1 ![0, 1] bcast_S1x1_S1024x1_0_1),
    StableHlo.TRef.binary main_call191.v5 main_call191.v9 main_call191.v10 (cmpi .sle),
    StableHlo.TRef.binary main_call191.v7 main_call191.v10 main_call191.v11 andi,
    StableHlo.TRef.nullary main_call191.c_3 (constantI S_ 1 1#1),
    StableHlo.TRef.binary main_call191.v11 main_call191.c_3 main_call191.v12 (fun x v => Host.reduce IntOp.andi x v reducesTo_S1024x1_S1024_d1 h_S_),
    StableHlo.TRef.binary (.of main_v7 : StableHlo.TRef sig ⟨S1024x1024, .f32⟩) main_call191.v5 main_call191.v13 (fun x i => Host.gather gather_S1024x1024_S1024x1_S1024x1024_1_0_n_n_0_1_11024 x i),
    StableHlo.TRef.unary main_call191.v12 main_call191.v14 (broadcastInDim S1024x1024 ![0] bcast_S1024_S1024x1024_0),
    StableHlo.TRef.nullary main_call191.cst (constant S_ .f32 0x7FC00000#32),
    StableHlo.TRef.unary main_call191.cst main_call191.v15 (broadcastInDim S1024x1024 ![] bcast_S_S1024x1024),
    StableHlo.TRef.ternary main_call191.v14 main_call191.v13 main_call191.v15 main_call191.v16 select ]

theorem it31H_sub : (it31H (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

theorem it31H_fresh : (it31H (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The references this stretch writes, in order. -/
noncomputable def it31_W : List (Ref sig .tc) :=
  [main_v566, main_v567, main_v568, (main_call186.v0.ref), (main_call186.call0.c.ref), (main_call186.call0.v0.ref), (main_call186.call0.v1.ref), main_c_217, main_v570, main_c_218, (main_call187.v0.ref), (main_call187.v1.ref), (main_call187.v2.ref), main_c_219, main_v572, main_v573, main_c_220, main_v574, main_v575, main_v576, main_v577, main_c_221, main_v578, main_v579, (main_call188.call0.c.ref), (main_call188.call0.v0.ref), (main_call188.call0.v1.ref), main_c_222, (main_call189.v0.ref), (main_call189.v1.ref), (main_call189.v2.ref), (main_call189.v3.ref), (main_call189.v4.ref), (main_call189.v5.ref), (main_call189.v6.ref), (main_call189.v7.ref), (main_call189.c.ref), (main_call189.v8.ref), (main_call189.v9.ref), (main_call189.v10.ref), (main_call189.c_0.ref), (main_call189.v11.ref), (main_call189.v12.ref), (main_call189.call0.v0.ref), main_c_223, (main_call190.v0.ref), (main_call190.c.ref), (main_call190.v1.ref), (main_call190.c_0.ref), (main_call190.call0.v0.ref), (main_call190.v3.ref), (main_call190.v4.ref), (main_call190.c_1.ref), (main_call190.v5.ref), (main_call190.v6.ref), (main_call190.c_2.ref), (main_call190.v7.ref), (main_call190.v8.ref), (main_call190.c_3.ref), (main_call190.v9.ref), (main_call190.v10.ref), (main_call190.v11.ref), (main_call190.v12.ref), (main_call190.v13.ref), (main_call190.v14.ref), (main_call190.v15.ref), (main_call191.c.ref), (main_call191.v0.ref), (main_call191.v1.ref), (main_call191.c_0.ref), (main_call191.v2.ref), (main_call191.v3.ref), (main_call191.call0.v0.ref), (main_call191.v5.ref), (main_call191.c_1.ref), (main_call191.c_2.ref), (main_call191.v6.ref), (main_call191.v7.ref), (main_call191.v8.ref), (main_call191.v9.ref), (main_call191.v10.ref), (main_call191.v11.ref), (main_call191.c_3.ref), (main_call191.v12.ref), (main_call191.v13.ref), (main_call191.v14.ref), (main_call191.cst.ref), (main_call191.v15.ref), (main_call191.v16.ref)]

/-- The iteration up to the row lookup. -/
noncomputable def it31hd : List (HloOp τ sig (Elt F)) := it31A ++ (it31B ++ (it31C ++ (it31D ++ (it31E ++ it31G))))

/-- The iteration. -/
noncomputable def it31 : List (HloOp τ sig (Elt F)) := it31hd ++ it31H
theorem it31_sub : (it31 (F := F)).Forall fun op => op.bufs ⊆ tcRefs τ sig :=
  forall_append (forall_append it31A_sub (forall_append it31B_sub (forall_append it31C_sub (forall_append it31D_sub (forall_append it31E_sub it31G_sub))))) it31H_sub
theorem it31_fresh : (it31 (F := F)).Forall fun op => op.fresh = ∅ :=
  forall_append (forall_append it31A_fresh (forall_append it31B_fresh (forall_append it31C_fresh (forall_append it31D_fresh (forall_append it31E_fresh it31G_fresh))))) it31H_fresh

/-- The iteration as the concatenation of its pieces. -/
theorem it31_atoms : it31 (F := F) = it31A ++ (it31B ++ (it31C ++ (it31D ++ (it31E ++ (it31G ++ it31H))))) := by
  simp only [it31, it31hd, List.append_assoc]

end Cert.ReferenceIdeal.HandRun

end
-- ==== Proof.RefIt31.lean ====
/- One iteration of the reference: what each of its stages leaves in its result buffer, as the named function of what
   it reads; that the iteration writes only its own buffers; its result as a function of the identity matrix and the
   mask; and the step of the run's invariant. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefFns
import proofs.«136319_g61624190763689_cont_9to1_m_335_26_alg».proof.Proof.RefStep
import proofs.«136319_g61624190763689_cont_9to1_m_335_26_alg».proof.Proof.RefOpsIt31

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 1000000 in
theorem it31A_val (V : Valuation τ sig (Elt F)) :
    after (it31A (F := F)) V (Proc.devRef (τ := τ) .tc main_v568) = RefFns.colMask (V (Proc.devRef (τ := τ) .tc main_v1)) 31 slices_S1024x32x1_S1024x1x1_0_31_0 := by
  simp only [it31A, List.cons_append, List.nil_append]
  after_results_simp
  try simp only [cast_eq]
  rfl

set_option maxRecDepth 65536 in
set_option maxHeartbeats 1000000 in
theorem it31B_val (V : Valuation τ sig (Elt F)) :
    after (it31B (F := F)) V (Proc.devRef (τ := τ) .tc main_v569) = RefFns.cumsumF (V (Proc.devRef (τ := τ) .tc main_v568)) := by
  simp only [it31B, List.cons_append, List.nil_append]
  after_results_simp
  try simp only [cast_eq]
  rfl

set_option maxRecDepth 65536 in
set_option maxHeartbeats 1000000 in
theorem it31C_val (V : Valuation τ sig (Elt F)) :
    after (it31C (F := F)) V (Proc.devRef (τ := τ) .tc main_v579) = Host.scatter scatter_S1024_S1024x1_S1024_n_0_0_1 IntOp.addi (broadcastInDim S1024 ![] bcast_S_S1024 (constantI S_ 32 0#32)) (broadcastInDim S1024x1 ![0] bcast_S1024_S1024x1_0 (select (cmpi .slt (RefFns.clipF (V (Proc.devRef (τ := τ) .tc main_v569)) (constantI S_ 32 0#32)) (broadcastInDim S1024 ![] bcast_S_S1024 (constantI S_ 32 0#32))) (addi (RefFns.clipF (V (Proc.devRef (τ := τ) .tc main_v569)) (constantI S_ 32 0#32)) (broadcastInDim S1024 ![] bcast_S_S1024 (constantI S_ 32 1024#32))) (RefFns.clipF (V (Proc.devRef (τ := τ) .tc main_v569)) (constantI S_ 32 0#32)))) (broadcastInDim S1024 ![] bcast_S_S1024 (constantI S_ 32 1#32)) := by
  simp only [it31C, List.cons_append, List.nil_append]
  after_results_simp
  try simp only [cast_eq]
  rfl

set_option maxRecDepth 65536 in
set_option maxHeartbeats 1000000 in
theorem it31D_val (V : Valuation τ sig (Elt F)) :
    after (it31D (F := F)) V (Proc.devRef (τ := τ) .tc main_v580) = RefFns.cumsum1F (V (Proc.devRef (τ := τ) .tc main_v579)) := by
  simp only [it31D, List.cons_append, List.nil_append]
  after_results_simp
  try simp only [cast_eq]
  rfl

set_option maxRecDepth 65536 in
set_option maxHeartbeats 1000000 in
theorem it31E_val (V : Valuation τ sig (Elt F)) :
    after (it31E (F := F)) V (Proc.devRef (τ := τ) .tc main_v581) = RefFns.floorDivF (V (Proc.devRef (τ := τ) .tc main_v580)) (constantI S_ 32 1#32) := by
  simp only [it31E, List.cons_append, List.nil_append]
  after_results_simp
  try simp only [cast_eq]
  rfl

set_option maxRecDepth 65536 in
set_option maxHeartbeats 1000000 in
theorem it31G_val (V : Valuation τ sig (Elt F)) :
    after (it31G (F := F)) V (Proc.devRef (τ := τ) .tc main_v582) = RefFns.remainderF (V (Proc.devRef (τ := τ) .tc main_v581)) (constantI S_ 32 1024#32) := by
  simp only [it31G, List.cons_append, List.nil_append]
  after_results_simp
  try simp only [cast_eq]
  rfl

set_option maxRecDepth 65536 in
set_option maxHeartbeats 1000000 in
theorem it31H_val (V : Valuation τ sig (Elt F)) :
    after (it31H (F := F)) V (Proc.devRef (τ := τ) .tc main_v583) = RefFns.takeF (V (Proc.devRef (τ := τ) .tc main_v7)) (V (Proc.devRef (τ := τ) .tc main_v582)) := by
  simp only [it31H, List.cons_append, List.nil_append]
  after_results_simp
  try simp only [cast_eq]
  rfl

theorem it31A_writes : (it31A (F := F)).Forall fun op => op.writes ⊆ (it31_W.map (Proc.devRef (τ := τ) .tc)).toFinset :=
  ⟨wsub main_v566 (by decide), wsub main_v567 (by decide), wsub main_v568 (by decide)⟩

theorem it31B_writes : (it31B (F := F)).Forall fun op => op.writes ⊆ (it31_W.map (Proc.devRef (τ := τ) .tc)).toFinset :=
  ⟨wsub (main_call186.v0.ref) (by decide), wsub (main_call186.call0.c.ref) (by decide), wsub (main_call186.call0.v0.ref) (by decide), wsub (main_call186.call0.v1.ref) (by decide)⟩

theorem it31C_writes : (it31C (F := F)).Forall fun op => op.writes ⊆ (it31_W.map (Proc.devRef (τ := τ) .tc)).toFinset :=
  ⟨wsub main_c_217 (by decide), wsub main_v570 (by decide), wsub main_c_218 (by decide), wsub (main_call187.v0.ref) (by decide), wsub (main_call187.v1.ref) (by decide), wsub (main_call187.v2.ref) (by decide), wsub main_c_219 (by decide), wsub main_v572 (by decide), wsub main_v573 (by decide), wsub main_c_220 (by decide), wsub main_v574 (by decide), wsub main_v575 (by decide), wsub main_v576 (by decide), wsub main_v577 (by decide), wsub main_c_221 (by decide), wsub main_v578 (by decide), wsub main_v579 (by decide)⟩

theorem it31D_writes : (it31D (F := F)).Forall fun op => op.writes ⊆ (it31_W.map (Proc.devRef (τ := τ) .tc)).toFinset :=
  ⟨wsub (main_call188.call0.c.ref) (by decide), wsub (main_call188.call0.v0.ref) (by decide), wsub (main_call188.call0.v1.ref) (by decide)⟩

theorem it31E_writes : (it31E (F := F)).Forall fun op => op.writes ⊆ (it31_W.map (Proc.devRef (τ := τ) .tc)).toFinset :=
  ⟨wsub main_c_222 (by decide), wsub (main_call189.v0.ref) (by decide), wsub (main_call189.v1.ref) (by decide), wsub (main_call189.v2.ref) (by decide), wsub (main_call189.v3.ref) (by decide), wsub (main_call189.v4.ref) (by decide), wsub (main_call189.v5.ref) (by decide), wsub (main_call189.v6.ref) (by decide), wsub (main_call189.v7.ref) (by decide), wsub (main_call189.c.ref) (by decide), wsub (main_call189.v8.ref) (by decide), wsub (main_call189.v9.ref) (by decide), wsub (main_call189.v10.ref) (by decide), wsub (main_call189.c_0.ref) (by decide), wsub (main_call189.v11.ref) (by decide), wsub (main_call189.v12.ref) (by decide), wsub (main_call189.call0.v0.ref) (by decide)⟩

theorem it31G_writes : (it31G (F := F)).Forall fun op => op.writes ⊆ (it31_W.map (Proc.devRef (τ := τ) .tc)).toFinset :=
  ⟨wsub main_c_223 (by decide), wsub (main_call190.v0.ref) (by decide), wsub (main_call190.c.ref) (by decide), wsub (main_call190.v1.ref) (by decide), wsub (main_call190.c_0.ref) (by decide), wsub (main_call190.call0.v0.ref) (by decide), wsub (main_call190.v3.ref) (by decide), wsub (main_call190.v4.ref) (by decide), wsub (main_call190.c_1.ref) (by decide), wsub (main_call190.v5.ref) (by decide), wsub (main_call190.v6.ref) (by decide), wsub (main_call190.c_2.ref) (by decide), wsub (main_call190.v7.ref) (by decide), wsub (main_call190.v8.ref) (by decide), wsub (main_call190.c_3.ref) (by decide), wsub (main_call190.v9.ref) (by decide), wsub (main_call190.v10.ref) (by decide), wsub (main_call190.v11.ref) (by decide), wsub (main_call190.v12.ref) (by decide), wsub (main_call190.v13.ref) (by decide), wsub (main_call190.v14.ref) (by decide), wsub (main_call190.v15.ref) (by decide)⟩

theorem it31H_writes : (it31H (F := F)).Forall fun op => op.writes ⊆ (it31_W.map (Proc.devRef (τ := τ) .tc)).toFinset :=
  ⟨wsub (main_call191.c.ref) (by decide), wsub (main_call191.v0.ref) (by decide), wsub (main_call191.v1.ref) (by decide), wsub (main_call191.c_0.ref) (by decide), wsub (main_call191.v2.ref) (by decide), wsub (main_call191.v3.ref) (by decide), wsub (main_call191.call0.v0.ref) (by decide), wsub (main_call191.v5.ref) (by decide), wsub (main_call191.c_1.ref) (by decide), wsub (main_call191.c_2.ref) (by decide), wsub (main_call191.v6.ref) (by decide), wsub (main_call191.v7.ref) (by decide), wsub (main_call191.v8.ref) (by decide), wsub (main_call191.v9.ref) (by decide), wsub (main_call191.v10.ref) (by decide), wsub (main_call191.v11.ref) (by decide), wsub (main_call191.c_3.ref) (by decide), wsub (main_call191.v12.ref) (by decide), wsub (main_call191.v13.ref) (by decide), wsub (main_call191.v14.ref) (by decide), wsub (main_call191.cst.ref) (by decide), wsub (main_call191.v15.ref) (by decide), wsub (main_call191.v16.ref) (by decide)⟩

theorem it31hd_writes : (it31hd (F := F)).Forall fun op => op.writes ⊆ (it31_W.map (Proc.devRef (τ := τ) .tc)).toFinset :=
  forall_append it31A_writes (forall_append it31B_writes (forall_append it31C_writes (forall_append it31D_writes (forall_append it31E_writes it31G_writes))))

theorem it31_writes : (it31 (F := F)).Forall fun op => op.writes ⊆ (it31_W.map (Proc.devRef (τ := τ) .tc)).toFinset :=
  forall_append it31hd_writes (it31H_writes)

/-- The iteration leaves every buffer it does not write as it was. -/
theorem it31_keep (V : Valuation τ sig (Elt F)) (r : Ref sig .tc) (hr : r ∉ it31_W) :
    after (it31 (F := F)) V (Proc.devRef (τ := τ) .tc r) = V (Proc.devRef (τ := τ) .tc r) :=
  after_of_writes_sub it31 V it31_writes hr

theorem it31hd_keep (V : Valuation τ sig (Elt F)) (r : Ref sig .tc) (hr : r ∉ it31_W) :
    after (it31hd (F := F)) V (Proc.devRef (τ := τ) .tc r) = V (Proc.devRef (τ := τ) .tc r) :=
  after_of_writes_sub it31hd V it31hd_writes hr

/-- The iteration's result: the rows of the matrix it is handed at the compacted indices of its mask. -/
theorem it31_res (V : Valuation τ sig (Elt F)) :
    after (it31 (F := F)) V (Proc.devRef (τ := τ) .tc main_v583) = RefFns.nzTake (V (Proc.devRef (τ := τ) .tc main_v7)) (RefFns.colMask (V (Proc.devRef (τ := τ) .tc main_v1)) 31 slices_S1024x32x1_S1024x1x1_0_31_0) := by
  rw [it31, after_append, it31H_val, it31hd_keep V main_v7 (by decide), it31hd]
  simp only [after_append]
  rw [it31G_val, it31E_val, it31D_val, it31C_val, it31B_val, it31A_val]
  rfl

set_option maxRecDepth 65536 in
set_option maxHeartbeats 4000000 in
/-- The invariant of the run survives the iteration, with its block added. -/
theorem it31_step {x : FVec F S1x32x1024 .f32} {V : Valuation τ sig (Elt F)} (hg : Good 31 x V) : Good 32 x (after (it31 (F := F)) V) :=
  good_step 31 (by decide) it31 it31_W slices_S1024x32x1_S1024x1x1_0_31_0 it31_keep it31_res (fun _ => rfl) (by decide +kernel) (by decide +kernel) (by decide +kernel) (by decide +kernel) hg

end Cert.ReferenceIdeal.HandRun

end
-- ==== Proof.RefWin00.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsPre
import proofs.«136319_g61624190763689_cont_9to1_m_335_26_alg».proof.Proof.RefOpsIt00
import proofs.«136319_g61624190763689_cont_9to1_m_335_26_alg».proof.Proof.RefOpsIt01
import proofs.«136319_g61624190763689_cont_9to1_m_335_26_alg».proof.Proof.RefOpsIt02

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win00_eq (d : Dev nD) : main_part0 (F := F) d = seq (pre ++ (it00A ++ (it00B ++ (it00C ++ (it00D ++ (it00E ++ (it00G ++ (it00H ++ (it01A ++ (it01B ++ (it01C ++ (it01D ++ (it01E ++ (it01G ++ (it01H ++ it02Aa))))))))))))))) := by
  simp only [main_part0, pre, it00A, it00B, it00C, it00D, it00E, it00G, it00H, it01A, it01B, it01C, it01D, it01E, it01G, it01H, it02Aa, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin01.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt02
import proofs.«136319_g61624190763689_cont_9to1_m_335_26_alg».proof.Proof.RefOpsIt03
import proofs.«136319_g61624190763689_cont_9to1_m_335_26_alg».proof.Proof.RefOpsIt04

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win01_eq (d : Dev nD) : main_part1 (F := F) d = seq (it02Ab ++ (it02B ++ (it02C ++ (it02D ++ (it02E ++ (it02G ++ (it02H ++ (it03A ++ (it03B ++ (it03C ++ (it03D ++ (it03E ++ (it03G ++ (it03H ++ (it04A ++ (it04B ++ it04Ca)))))))))))))))) := by
  simp only [main_part1, it02Ab, it02B, it02C, it02D, it02E, it02G, it02H, it03A, it03B, it03C, it03D, it03E, it03G, it03H, it04A, it04B, it04Ca, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin02.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt04
import proofs.«136319_g61624190763689_cont_9to1_m_335_26_alg».proof.Proof.RefOpsIt05
import proofs.«136319_g61624190763689_cont_9to1_m_335_26_alg».proof.Proof.RefOpsIt06

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win02_eq (d : Dev nD) : main_part2 (F := F) d = seq (it04Cb ++ (it04D ++ (it04E ++ (it04G ++ (it04H ++ (it05A ++ (it05B ++ (it05C ++ (it05D ++ (it05E ++ (it05G ++ (it05H ++ (it06A ++ (it06B ++ (it06C ++ (it06D ++ it06Ea)))))))))))))))) := by
  simp only [main_part2, it04Cb, it04D, it04E, it04G, it04H, it05A, it05B, it05C, it05D, it05E, it05G, it05H, it06A, it06B, it06C, it06D, it06Ea, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin03.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt06
import proofs.«136319_g61624190763689_cont_9to1_m_335_26_alg».proof.Proof.RefOpsIt07
import proofs.«136319_g61624190763689_cont_9to1_m_335_26_alg».proof.Proof.RefOpsIt08
import proofs.«136319_g61624190763689_cont_9to1_m_335_26_alg».proof.Proof.RefOpsIt09

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win03_eq (d : Dev nD) : main_part3 (F := F) d = seq (it06Eb ++ (it06G ++ (it06H ++ (it07A ++ (it07B ++ (it07C ++ (it07D ++ (it07E ++ (it07G ++ (it07H ++ (it08A ++ (it08B ++ (it08C ++ (it08D ++ (it08E ++ (it08G ++ (it08H ++ (it09A ++ (it09B ++ it09Ca))))))))))))))))))) := by
  simp only [main_part3, it06Eb, it06G, it06H, it07A, it07B, it07C, it07D, it07E, it07G, it07H, it08A, it08B, it08C, it08D, it08E, it08G, it08H, it09A, it09B, it09Ca, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin04.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt09
import proofs.«136319_g61624190763689_cont_9to1_m_335_26_alg».proof.Proof.RefOpsIt10
import proofs.«136319_g61624190763689_cont_9to1_m_335_26_alg».proof.Proof.RefOpsIt11

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win04_eq (d : Dev nD) : main_part4 (F := F) d = seq (it09Cb ++ (it09D ++ (it09E ++ (it09G ++ (it09H ++ (it10A ++ (it10B ++ (it10C ++ (it10D ++ (it10E ++ (it10G ++ (it10H ++ (it11A ++ (it11B ++ it11Ca)))))))))))))) := by
  simp only [main_part4, it09Cb, it09D, it09E, it09G, it09H, it10A, it10B, it10C, it10D, it10E, it10G, it10H, it11A, it11B, it11Ca, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin05.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt11
import proofs.«136319_g61624190763689_cont_9to1_m_335_26_alg».proof.Proof.RefOpsIt12
import proofs.«136319_g61624190763689_cont_9to1_m_335_26_alg».proof.Proof.RefOpsIt13
import proofs.«136319_g61624190763689_cont_9to1_m_335_26_alg».proof.Proof.RefOpsIt14

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win05_eq (d : Dev nD) : main_part5 (F := F) d = seq (it11Cb ++ (it11D ++ (it11E ++ (it11G ++ (it11H ++ (it12A ++ (it12B ++ (it12C ++ (it12D ++ (it12E ++ (it12G ++ (it12H ++ (it13A ++ (it13B ++ (it13C ++ (it13D ++ (it13E ++ (it13G ++ (it13H ++ it14Aa))))))))))))))))))) := by
  simp only [main_part5, it11Cb, it11D, it11E, it11G, it11H, it12A, it12B, it12C, it12D, it12E, it12G, it12H, it13A, it13B, it13C, it13D, it13E, it13G, it13H, it14Aa, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin06.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt14
import proofs.«136319_g61624190763689_cont_9to1_m_335_26_alg».proof.Proof.RefOpsIt15
import proofs.«136319_g61624190763689_cont_9to1_m_335_26_alg».proof.Proof.RefOpsIt16

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win06_eq (d : Dev nD) : main_part6 (F := F) d = seq (it14Ab ++ (it14B ++ (it14C ++ (it14D ++ (it14E ++ (it14G ++ (it14H ++ (it15A ++ (it15B ++ (it15C ++ (it15D ++ (it15E ++ (it15G ++ (it15H ++ (it16A ++ (it16B ++ it16Ca)))))))))))))))) := by
  simp only [main_part6, it14Ab, it14B, it14C, it14D, it14E, it14G, it14H, it15A, it15B, it15C, it15D, it15E, it15G, it15H, it16A, it16B, it16Ca, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin07.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt16
import proofs.«136319_g61624190763689_cont_9to1_m_335_26_alg».proof.Proof.RefOpsIt17
import proofs.«136319_g61624190763689_cont_9to1_m_335_26_alg».proof.Proof.RefOpsIt18

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win07_eq (d : Dev nD) : main_part7 (F := F) d = seq (it16Cb ++ (it16D ++ (it16E ++ (it16G ++ (it16H ++ (it17A ++ (it17B ++ (it17C ++ (it17D ++ (it17E ++ (it17G ++ (it17H ++ (it18A ++ (it18B ++ (it18C ++ (it18D ++ it18Ea)))))))))))))))) := by
  simp only [main_part7, it16Cb, it16D, it16E, it16G, it16H, it17A, it17B, it17C, it17D, it17E, it17G, it17H, it18A, it18B, it18C, it18D, it18Ea, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin08.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt18
import proofs.«136319_g61624190763689_cont_9to1_m_335_26_alg».proof.Proof.RefOpsIt19
import proofs.«136319_g61624190763689_cont_9to1_m_335_26_alg».proof.Proof.RefOpsIt20
import proofs.«136319_g61624190763689_cont_9to1_m_335_26_alg».proof.Proof.RefOpsIt21

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win08_eq (d : Dev nD) : main_part8 (F := F) d = seq (it18Eb ++ (it18G ++ (it18H ++ (it19A ++ (it19B ++ (it19C ++ (it19D ++ (it19E ++ (it19G ++ (it19H ++ (it20A ++ (it20B ++ (it20C ++ (it20D ++ (it20E ++ (it20G ++ (it20H ++ (it21A ++ (it21B ++ it21Ca))))))))))))))))))) := by
  simp only [main_part8, it18Eb, it18G, it18H, it19A, it19B, it19C, it19D, it19E, it19G, it19H, it20A, it20B, it20C, it20D, it20E, it20G, it20H, it21A, it21B, it21Ca, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin09.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt21
import proofs.«136319_g61624190763689_cont_9to1_m_335_26_alg».proof.Proof.RefOpsIt22
import proofs.«136319_g61624190763689_cont_9to1_m_335_26_alg».proof.Proof.RefOpsIt23

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win09_eq (d : Dev nD) : main_part9 (F := F) d = seq (it21Cb ++ (it21D ++ (it21E ++ (it21G ++ (it21H ++ (it22A ++ (it22B ++ (it22C ++ (it22D ++ (it22E ++ (it22G ++ (it22H ++ (it23A ++ (it23B ++ it23Ca)))))))))))))) := by
  simp only [main_part9, it21Cb, it21D, it21E, it21G, it21H, it22A, it22B, it22C, it22D, it22E, it22G, it22H, it23A, it23B, it23Ca, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin10.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt23
import proofs.«136319_g61624190763689_cont_9to1_m_335_26_alg».proof.Proof.RefOpsIt24
import proofs.«136319_g61624190763689_cont_9to1_m_335_26_alg».proof.Proof.RefOpsIt25
import proofs.«136319_g61624190763689_cont_9to1_m_335_26_alg».proof.Proof.RefOpsIt26

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win10_eq (d : Dev nD) : main_part10 (F := F) d = seq (it23Cb ++ (it23D ++ (it23E ++ (it23G ++ (it23H ++ (it24A ++ (it24B ++ (it24C ++ (it24D ++ (it24E ++ (it24G ++ (it24H ++ (it25A ++ (it25B ++ (it25C ++ (it25D ++ (it25E ++ (it25G ++ (it25H ++ it26Aa))))))))))))))))))) := by
  simp only [main_part10, it23Cb, it23D, it23E, it23G, it23H, it24A, it24B, it24C, it24D, it24E, it24G, it24H, it25A, it25B, it25C, it25D, it25E, it25G, it25H, it26Aa, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin11.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt26
import proofs.«136319_g61624190763689_cont_9to1_m_335_26_alg».proof.Proof.RefOpsIt27
import proofs.«136319_g61624190763689_cont_9to1_m_335_26_alg».proof.Proof.RefOpsIt28

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win11_eq (d : Dev nD) : main_part11 (F := F) d = seq (it26Ab ++ (it26B ++ (it26C ++ (it26D ++ (it26E ++ (it26G ++ (it26H ++ (it27A ++ (it27B ++ (it27C ++ (it27D ++ (it27E ++ (it27G ++ (it27H ++ (it28A ++ (it28B ++ it28Ca)))))))))))))))) := by
  simp only [main_part11, it26Ab, it26B, it26C, it26D, it26E, it26G, it26H, it27A, it27B, it27C, it27D, it27E, it27G, it27H, it28A, it28B, it28Ca, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin12.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt28
import proofs.«136319_g61624190763689_cont_9to1_m_335_26_alg».proof.Proof.RefOpsIt29
import proofs.«136319_g61624190763689_cont_9to1_m_335_26_alg».proof.Proof.RefOpsIt30

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win12_eq (d : Dev nD) : main_part12 (F := F) d = seq (it28Cb ++ (it28D ++ (it28E ++ (it28G ++ (it28H ++ (it29A ++ (it29B ++ (it29C ++ (it29D ++ (it29E ++ (it29G ++ (it29H ++ (it30A ++ (it30B ++ (it30C ++ (it30D ++ it30Ea)))))))))))))))) := by
  simp only [main_part12, it28Cb, it28D, it28E, it28G, it28H, it29A, it29B, it29C, it29D, it29E, it29G, it29H, it30A, it30B, it30C, it30D, it30Ea, fn_clip.body, fn_cumsum.body, fn_cumsum_0.body, fn_cumsum_1.body, fn_floor_divide.body, fn_remainder.body, fn_take.body, fn_where.body, fn_where_2.body, List.cons_append, List.nil_append, seq, bind_assoc, pure_bind]
  rfl

end Cert.ReferenceIdeal.HandRun

end
-- ==== Proof.RefWin13.lean ====
/- One printed window of @main is the straight line of its pieces: with the outlined functions' bodies opened at
   their calls, both sides are one chain of operations. -/
import proofs.«136319_g61624190763689_cont_9to1_m_335_26_alg».proof.Proof.Gen.ReferenceIdeal
import Idealize.ShloMosaic.Lib.StableHlo.Run
import proofs.«136319_g61624190763689_cont_9to1_m_335_26_alg».proof.Proof.RefLib
import proofs.«136319_g61624190763689_cont_9to1_m_335_26_alg».proof.Proof.RefOpsIt30
import proofs.«136319_g61624190763689_cont_9to1_m_335_26_alg».proof.Proof.RefOpsIt31
import proofs.«136319_g61624190763689_cont_9to1_m_335_26_alg».proof.Proof.RefOpsTl

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

set_option maxRecDepth 65536 in
set_option maxHeartbeats 4000000 in
theorem win13_eq (d : Dev nD) : main_part13 (F := F) d = seq (it30Eb ++ (it30G ++ (it30H ++ (it31A ++ (it31B ++ (it31C ++ (it31D ++ (it31E ++ (it31G ++ (it31H ++ tl)))))))))) := by
  simp only [main_part13, it30Eb, it30G, it30H, it31A, it31B, it31C, it31D, it31E, it31G, it31H, tl, fn_clip.body, fn_cumsum.body, fn_cumsum_0.body, fn_cumsum_1.body, fn_floor_divide.body, fn_remainder.body, fn_take.body, fn_where.body, fn_where_2.body, List.cons_append, List.nil_append, seq, bind_assoc, pure_bind]

end Cert.ReferenceIdeal.HandRun

end
-- ==== Proof.RefRun.lean ====
/-
  The reference's run, put together.

  @main is one straight line of host operations: a prelude (the not-a-number mask, the identity matrix), 32 iterations
  of the same 89 operations over their own buffers, and a tail that stacks the 32 results.  Each printed window of
  @main is the concatenation of its pieces, so @main is the whole line; run from any memory, every buffer ends at
  the fold of the operations over its launch contents.  The prelude establishes the invariant, each iteration carries
  it one step, and after 32 steps the tail reads the 32 blocks: the result is the reference's value as a function of
  the input, and the input is unchanged.
-/
import proofs.«136319_g61624190763689_cont_9to1_m_335_26_alg».proof.Proof.RefFns
import proofs.«136319_g61624190763689_cont_9to1_m_335_26_alg».proof.Proof.RefLib
import proofs.«136319_g61624190763689_cont_9to1_m_335_26_alg».proof.Proof.RefStep
import proofs.«136319_g61624190763689_cont_9to1_m_335_26_alg».proof.Proof.RefOpsPre
import proofs.«136319_g61624190763689_cont_9to1_m_335_26_alg».proof.Proof.RefOpsTl
import proofs.«136319_g61624190763689_cont_9to1_m_335_26_alg».proof.Proof.RefIt00
import proofs.«136319_g61624190763689_cont_9to1_m_335_26_alg».proof.Proof.RefIt01
import proofs.«136319_g61624190763689_cont_9to1_m_335_26_alg».proof.Proof.RefIt02
import proofs.«136319_g61624190763689_cont_9to1_m_335_26_alg».proof.Proof.RefIt03
import proofs.«136319_g61624190763689_cont_9to1_m_335_26_alg».proof.Proof.RefIt04
import proofs.«136319_g61624190763689_cont_9to1_m_335_26_alg».proof.Proof.RefIt05
import proofs.«136319_g61624190763689_cont_9to1_m_335_26_alg».proof.Proof.RefIt06
import proofs.«136319_g61624190763689_cont_9to1_m_335_26_alg».proof.Proof.RefIt07
import proofs.«136319_g61624190763689_cont_9to1_m_335_26_alg».proof.Proof.RefIt08
import proofs.«136319_g61624190763689_cont_9to1_m_335_26_alg».proof.Proof.RefIt09
import proofs.«136319_g61624190763689_cont_9to1_m_335_26_alg».proof.Proof.RefIt10
import proofs.«136319_g61624190763689_cont_9to1_m_335_26_alg».proof.Proof.RefIt11
import proofs.«136319_g61624190763689_cont_9to1_m_335_26_alg».proof.Proof.RefIt12
import proofs.«136319_g61624190763689_cont_9to1_m_335_26_alg».proof.Proof.RefIt13
import proofs.«136319_g61624190763689_cont_9to1_m_335_26_alg».proof.Proof.RefIt14
import proofs.«136319_g61624190763689_cont_9to1_m_335_26_alg».proof.Proof.RefIt15
import proofs.«136319_g61624190763689_cont_9to1_m_335_26_alg».proof.Proof.RefIt16
import proofs.«136319_g61624190763689_cont_9to1_m_335_26_alg».proof.Proof.RefIt17
import proofs.«136319_g61624190763689_cont_9to1_m_335_26_alg».proof.Proof.RefIt18
import proofs.«136319_g61624190763689_cont_9to1_m_335_26_alg».proof.Proof.RefIt19
import proofs.«136319_g61624190763689_cont_9to1_m_335_26_alg».proof.Proof.RefIt20
import proofs.«136319_g61624190763689_cont_9to1_m_335_26_alg».proof.Proof.RefIt21
import proofs.«136319_g61624190763689_cont_9to1_m_335_26_alg».proof.Proof.RefIt22
import proofs.«136319_g61624190763689_cont_9to1_m_335_26_alg».proof.Proof.RefIt23
import proofs.«136319_g61624190763689_cont_9to1_m_335_26_alg».proof.Proof.RefIt24
import proofs.«136319_g61624190763689_cont_9to1_m_335_26_alg».proof.Proof.RefIt25
import proofs.«136319_g61624190763689_cont_9to1_m_335_26_alg».proof.Proof.RefIt26
import proofs.«136319_g61624190763689_cont_9to1_m_335_26_alg».proof.Proof.RefIt27
import proofs.«136319_g61624190763689_cont_9to1_m_335_26_alg».proof.Proof.RefIt28
import proofs.«136319_g61624190763689_cont_9to1_m_335_26_alg».proof.Proof.RefIt29
import proofs.«136319_g61624190763689_cont_9to1_m_335_26_alg».proof.Proof.RefIt30
import proofs.«136319_g61624190763689_cont_9to1_m_335_26_alg».proof.Proof.RefIt31
import proofs.«136319_g61624190763689_cont_9to1_m_335_26_alg».proof.Proof.RefWin00
import proofs.«136319_g61624190763689_cont_9to1_m_335_26_alg».proof.Proof.RefWin01
import proofs.«136319_g61624190763689_cont_9to1_m_335_26_alg».proof.Proof.RefWin02
import proofs.«136319_g61624190763689_cont_9to1_m_335_26_alg».proof.Proof.RefWin03
import proofs.«136319_g61624190763689_cont_9to1_m_335_26_alg».proof.Proof.RefWin04
import proofs.«136319_g61624190763689_cont_9to1_m_335_26_alg».proof.Proof.RefWin05
import proofs.«136319_g61624190763689_cont_9to1_m_335_26_alg».proof.Proof.RefWin06
import proofs.«136319_g61624190763689_cont_9to1_m_335_26_alg».proof.Proof.RefWin07
import proofs.«136319_g61624190763689_cont_9to1_m_335_26_alg».proof.Proof.RefWin08
import proofs.«136319_g61624190763689_cont_9to1_m_335_26_alg».proof.Proof.RefWin09
import proofs.«136319_g61624190763689_cont_9to1_m_335_26_alg».proof.Proof.RefWin10
import proofs.«136319_g61624190763689_cont_9to1_m_335_26_alg».proof.Proof.RefWin11
import proofs.«136319_g61624190763689_cont_9to1_m_335_26_alg».proof.Proof.RefWin12
import proofs.«136319_g61624190763689_cont_9to1_m_335_26_alg».proof.Proof.RefWin13

noncomputable section

namespace Cert.ReferenceIdeal.HandRun

open Cert.ReferenceIdeal Idealize.ShloMosaic Idealize.ShloMosaic.TcCoe Idealize.SL.Sem Idealize.ShloMosaic.StableHlo

variable {F : FTy → Type} [FloatOps F] [Facts]
open Facts₀ Facts

/-- @main's host operations, in order: the prelude, the 32 iterations, the tail. -/
noncomputable def ops : List (HloOp τ sig (Elt F)) :=
  pre ++ (it00 ++ (it01 ++ (it02 ++ (it03 ++ (it04 ++ (it05 ++ (it06 ++ (it07 ++ (it08 ++ (it09 ++ (it10 ++ (it11 ++ (it12 ++ (it13 ++ (it14 ++ (it15 ++ (it16 ++ (it17 ++ (it18 ++ (it19 ++ (it20 ++ (it21 ++ (it22 ++ (it23 ++ (it24 ++ (it25 ++ (it26 ++ (it27 ++ (it28 ++ (it29 ++ (it30 ++ (it31 ++ (tl)))))))))))))))))))))))))))))))))

theorem ops_sub : (ops (F := F)).Forall fun op => op.bufs ⊆ tcRefs τ sig :=
  forall_append pre_sub (forall_append it00_sub (forall_append it01_sub (forall_append it02_sub (forall_append it03_sub (forall_append it04_sub (forall_append it05_sub (forall_append it06_sub (forall_append it07_sub (forall_append it08_sub (forall_append it09_sub (forall_append it10_sub (forall_append it11_sub (forall_append it12_sub (forall_append it13_sub (forall_append it14_sub (forall_append it15_sub (forall_append it16_sub (forall_append it17_sub (forall_append it18_sub (forall_append it19_sub (forall_append it20_sub (forall_append it21_sub (forall_append it22_sub (forall_append it23_sub (forall_append it24_sub (forall_append it25_sub (forall_append it26_sub (forall_append it27_sub (forall_append it28_sub (forall_append it29_sub (forall_append it30_sub (forall_append it31_sub (tl_sub)))))))))))))))))))))))))))))))))

theorem ops_fresh : ∀ op ∈ ops (F := F), op.fresh = ∅ :=
  List.forall_iff_forall_mem.mp
    (forall_append pre_fresh (forall_append it00_fresh (forall_append it01_fresh (forall_append it02_fresh (forall_append it03_fresh (forall_append it04_fresh (forall_append it05_fresh (forall_append it06_fresh (forall_append it07_fresh (forall_append it08_fresh (forall_append it09_fresh (forall_append it10_fresh (forall_append it11_fresh (forall_append it12_fresh (forall_append it13_fresh (forall_append it14_fresh (forall_append it15_fresh (forall_append it16_fresh (forall_append it17_fresh (forall_append it18_fresh (forall_append it19_fresh (forall_append it20_fresh (forall_append it21_fresh (forall_append it22_fresh (forall_append it23_fresh (forall_append it24_fresh (forall_append it25_fresh (forall_append it26_fresh (forall_append it27_fresh (forall_append it28_fresh (forall_append it29_fresh (forall_append it30_fresh (forall_append it31_fresh (tl_fresh))))))))))))))))))))))))))))))))))

set_option maxRecDepth 65536 in
set_option maxHeartbeats 4000000 in
/-- @main is that line: each window is the line of its pieces, and both sides are the pieces' lines run in order. -/
theorem main_eq (d : Dev nD) : main (F := F) d = seq ops := by
  simp only [main, ops,
    it00_atoms, it01_atoms, it02_atoms, it03_atoms, it04_atoms, it05_atoms, it06_atoms, it07_atoms,
    it08_atoms, it09_atoms, it10_atoms, it11_atoms, it12_atoms, it13_atoms, it14_atoms, it15_atoms,
    it16_atoms, it17_atoms, it18_atoms, it19_atoms, it20_atoms, it21_atoms, it22_atoms, it23_atoms,
    it24_atoms, it25_atoms, it26_atoms, it27_atoms, it28_atoms, it29_atoms, it30_atoms, it31_atoms,
    win00_eq, win01_eq, win02_eq, win03_eq, win04_eq, win05_eq, win06_eq,
    win07_eq, win08_eq, win09_eq, win10_eq, win11_eq, win12_eq, win13_eq,
    seq_append, bind_assoc]

/-! ### The prelude -/

theorem pre_v7 (V : Valuation τ sig (Elt F)) : after (pre (F := F)) V (Proc.devRef .tc main_v7) = RefFns.eyeMat := by
  unfold pre
  after_results_simp
  rfl

theorem pre_v1 (V : Valuation τ sig (Elt F)) :
    after (pre (F := F)) V (Proc.devRef .tc main_v1) = RefFns.nanMask (V (Proc.devRef .tc main_arg0)) := by
  unfold pre
  after_results_simp
  rfl

theorem pre_arg0 (V : Valuation τ sig (Elt F)) :
    after (pre (F := F)) V (Proc.devRef .tc main_arg0) = V (Proc.devRef .tc main_arg0) := by
  unfold pre
  after_results_simp

/-- After the prelude the invariant holds with no iteration done. -/
theorem pre_good (V : Valuation τ sig (Elt F)) : Good 0 (V (Proc.devRef .tc main_arg0)) (after (pre (F := F)) V) :=
  ⟨pre_v7 V, pre_v1 V, pre_arg0 V, fun j hj => absurd hj (Nat.not_lt_zero _)⟩

/-! ### The tail -/

set_option maxRecDepth 65536 in
/-- The tail stacks what the 32 result buffers hold. -/
theorem tl_res (V : Valuation τ sig (Elt F)) :
    after (tl (F := F)) V (Proc.devRef .tc main_v588) = RefFns.tailF (rd V) := by
  unfold tl
  after_results_simp
  rfl

theorem tl_arg0 (V : Valuation τ sig (Elt F)) :
    after (tl (F := F)) V (Proc.devRef .tc main_arg0) = V (Proc.devRef .tc main_arg0) := by
  unfold tl
  after_results_simp

/-! ### The whole line -/

/-- From any contents, the line ends with the result buffer at the reference's value of the input, and the input as
    it was. -/
theorem ops_value (V : Valuation τ sig (Elt F)) :
    after (ops (F := F)) V (Proc.devRef .tc main_v588) = RefFns.refTerm (V (Proc.devRef .tc main_arg0))
      ∧ after (ops (F := F)) V (Proc.devRef .tc main_arg0) = V (Proc.devRef .tc main_arg0) := by
  have g0 := pre_good (F := F) V
  have g1 := it00_step g0
  have g2 := it01_step g1
  have g3 := it02_step g2
  have g4 := it03_step g3
  have g5 := it04_step g4
  have g6 := it05_step g5
  have g7 := it06_step g6
  have g8 := it07_step g7
  have g9 := it08_step g8
  have g10 := it09_step g9
  have g11 := it10_step g10
  have g12 := it11_step g11
  have g13 := it12_step g12
  have g14 := it13_step g13
  have g15 := it14_step g14
  have g16 := it15_step g15
  have g17 := it16_step g16
  have g18 := it17_step g17
  have g19 := it18_step g18
  have g20 := it19_step g19
  have g21 := it20_step g20
  have g22 := it21_step g21
  have g23 := it22_step g22
  have g24 := it23_step g23
  have g25 := it24_step g24
  have g26 := it25_step g25
  have g27 := it26_step g26
  have g28 := it27_step g27
  have g29 := it28_step g28
  have g30 := it29_step g29
  have g31 := it30_step g30
  have g32 := it31_step g31
  simp only [ops, after_append]
  exact ⟨(tl_res _).trans (congrArg RefFns.tailF (funext fun j => g32.2.2.2 j j.isLt)), (tl_arg0 _).trans g32.2.2.1⟩

set_option maxRecDepth 1000000 in
set_option maxHeartbeats 4000000 in
theorem scopedRefs_eq : (Finset.univ.filter fun b : Ref sig .tc => b.isScoped) = ∅ := by decide
set_option maxRecDepth 1000000 in
theorem scopedSems_eq : (Finset.univ.filter fun sm : SemLoc sig => sm.isScoped .tc) = ∅ := by decide

/-- On every device, from any memory with zero counters: every weakly fair execution of @main terminates with the result
    buffer at the reference's value of the input, and the input unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v588) = RefFns.refTerm (m ((c.tc : Thread nD τ).loc main_arg0))
      ∧ r.2.mem ((c.tc : Thread nD τ).loc main_arg0) = m ((c.tc : Thread nD τ).loc main_arg0)) :=
  (θ_run defs _ _).mono (fun _ h c => ⟨(h c main_v588).trans (ops_value _).1, (h c main_arg0).trans (ops_value _).2⟩)
    (run_seq scopedRefs_eq scopedSems_eq defs main (fun _ => ops) main_eq (fun _ => ops_sub) m ρ (fun _ => ops_fresh))

end Cert.ReferenceIdeal.HandRun

end
-- ==== Proof.LibIntCumsumScatter.lean ====
/-
  Integer prefix sums and histograms on the host, read at a position.

  Three idioms of integer index arithmetic, each printed as a left fold of the 32-bit addition, are read here as
  natural-number counts, so that the counting is done in the naturals and turned into a word once, at the end.
  * Folds: adding the words of natural numbers along a list gives the word of their sum; a sum over the row-major
    positions of a rank-1 shape is the sum over its coordinate; among the `k < n` exactly `n - c` satisfy `c ≤ k`.
  * The prefix sum of a vector of length 1024, printed as a window reduction (window 1024, stride 1, 1023 cells of zero
    padding in front): the window at position `j` covers the padded cells `j, …, j + 1023`, so the reduction is the sum
    of the entries `0, …, j` (`cumsum_apply`).  Instances: all ones gives `j + 1`; zero at position 0 and one
    elsewhere gives `j`.
  * The scatter-add, a fold over the updates in row-major order in which an update is added at the position its index
    names and dropped when that position is outside the operand: over words of natural numbers the result at a
    position is the word of the operand's number plus the sum of the updates landing there (`scatter_addi_ofNat`).
    For a vector of updates scattered into a vector (`x.at[idx].add(v)`), update `e` lands on position `n` exactly
    when its index read as a signed integer is `n` (`vec_resultIdx?`), so ones scattered into zeros give a histogram
    (`vec_scatter_count`).  Instance: the indices `1, …, 1024` over 1024 bins give zero in bin 0 and one in every
    other bin, the index 1024 being out of range and dropped (`hist_of_shifted`).
-/
import Idealize.ShloMosaic.Lib.ValueIdx
import Idealize.ShloMosaic.PureOps.Contract

noncomputable section

open scoped BigOperators

namespace Idealize.ShloMosaic.IntCount

open Idealize.ShloMosaic Idealize.ShloMosaic.ValueIdx

/-! ## Folds of additions as natural-number sums -/

/-- Adding the words of `g n`, for `n` along a list, onto the word of `c` gives the word of `c` plus the sum of the `g n`. -/
theorem foldl_addi_ofNat {α : Type} (g : α → ℕ) (l : List α) (c : ℕ) :
    l.foldl (fun r n => IntOp.addi r (BitVec.ofNat 32 (g n))) (BitVec.ofNat 32 c)
      = BitVec.ofNat 32 (c + (l.map g).sum) := by
  induction l generalizing c with
  | nil => simp
  | cons a l ih =>
    simp only [List.foldl_cons, List.map_cons, List.sum_cons]
    have h : IntOp.addi (BitVec.ofNat 32 c) (BitVec.ofNat 32 (g a)) = BitVec.ofNat 32 (c + g a) := by
      unfold IntOp.addi; exact (BitVec.ofNat_add ..).symm
    rw [h, ih, Nat.add_assoc]

/-- A rank-1 index is its one coordinate. -/
def idx1Equiv (n : ℕ) : (⟨1, ![n]⟩ : Shape).Idx ≃ Fin n where
  toFun i := i 0
  invFun k := ix1 k
  left_inv i := (eq_ix1 i).symm
  right_inv _ := rfl

/-- A sum over the row-major positions of a rank-1 shape is the sum over the coordinate. -/
theorem sum_positions_rank1 {n : ℕ} (g : (⟨1, ![n]⟩ : Shape).Idx → ℕ) :
    ((List.finRange (⟨1, ![n]⟩ : Shape).numel).map fun m => g ((⟨1, ![n]⟩ : Shape).rowMajor.symm m)).sum
      = ∑ k : Fin n, g (ix1 k) := by
  rw [← Fin.sum_univ_def, Equiv.sum_comp (⟨1, ![n]⟩ : Shape).rowMajor.symm g, ← Equiv.sum_comp (idx1Equiv n).symm g]
  rfl

/-- Among the `k < n` exactly `n - c` satisfy `c ≤ k`. -/
theorem sum_indicator_ge (n c : ℕ) : (∑ k : Fin n, if c ≤ k.val then 1 else 0) = n - c := by
  rw [Fin.sum_univ_eq_sum_range (fun k => if c ≤ k then 1 else 0) n, Finset.sum_boole]
  have h : (Finset.range n).filter (fun k => c ≤ k) = Finset.Ico c n := by
    ext k
    simp only [Finset.mem_filter, Finset.mem_range, Finset.mem_Ico]
    omega
  rw [h, Nat.card_Ico]; rfl

/-! ## The prefix sum -/

/-- What the window at position `j` sees in its cell `i`: the operand's entry `j + i - 1023`, or the padding's zero. -/
def winCell (f : Fin 1024 → ℕ) (j : Fin 1024) (i : (⟨1, ![1024]⟩ : Shape).Idx) : ℕ :=
  if hk : 1023 ≤ j.val + (i 0).val then
    f ⟨j.val + (i 0).val - 1023, by have : (i 0).val < 1024 := (i 0).isLt; omega⟩
  else 0

/-- The window reduction that a prefix sum of length 1024 prints as, at position `j`, over words of natural numbers:
    the word of the sum, over the window's cells `k`, of the entry `j + k - 1023` where that is not padding. -/
theorem cumsum_apply (f : Fin 1024 → ℕ) (init : (⟨0, ![]⟩ : Shape).Idx → BitVec 32) (hinit : init ix0 = 0#32)
    (h : (⟨1, ![1024]⟩ : Shape).ReduceWindows (![1024] : Fin 1 → ℕ) ![1] ![1023] ![0] ⟨1, ![1024]⟩)
    (hu : 0 < (⟨0, ![]⟩ : Shape).numel) (j : Fin 1024) :
    Host.reduceWindow (s := ⟨1, ![1024]⟩) (t := ⟨1, ![1024]⟩) (u := ⟨0, ![]⟩) IntOp.addi ![1024] ![1] ![1023] ![0]
        (fun i => BitVec.ofNat 32 (f (i 0))) init h hu (ix1 j)
      = BitVec.ofNat 32 (∑ k : Fin 1024, winCell f j (ix1 k)) := by
  have hv : init (Shape.Idx.first hu) = BitVec.ofNat 32 0 := by
    rw [show Shape.Idx.first hu = ix0 from eq_ix0 _, hinit]
  unfold Host.reduceWindow
  simp only [hv]
  refine Eq.trans (List.foldl_ext _
    (fun r n => IntOp.addi r (BitVec.ofNat 32 (winCell f j ((⟨1, ![1024]⟩ : Shape).rowMajor.symm n)))) _
    (fun r n _ => ?_)) ?_
  · refine congrArg (IntOp.addi r) ?_
    let i := (⟨1, ![1024]⟩ : Shape).rowMajor.symm n
    have hw : (i 0).val < 1024 := (i 0).isLt
    by_cases hk : 1023 ≤ j.val + (i 0).val
    · rw [dif_pos (fun a => by
        obtain rfl : a = 0 := Subsingleton.elim _ _
        show 1023 ≤ j.val * 1 + (i 0).val ∧ j.val * 1 + (i 0).val - 1023 < 1024
        omega)]
      unfold winCell; rw [dif_pos hk]
      refine congrArg (fun q => BitVec.ofNat 32 (f q)) (Fin.ext ?_)
      show j.val * 1 + (i 0).val - 1023 = j.val + (i 0).val - 1023
      omega
    · rw [dif_neg (fun hall => hk (by
        have h0 : 1023 ≤ j.val * 1 + (i 0).val := (hall 0).1
        omega))]
      unfold winCell; rw [dif_neg hk]
  · rw [foldl_addi_ofNat (fun n => winCell f j ((⟨1, ![1024]⟩ : Shape).rowMajor.symm n)), Nat.zero_add,
      sum_positions_rank1 (winCell f j)]

/-- The all-ones vector has prefix sums `j + 1`. -/
theorem cumsum_ones (init : (⟨0, ![]⟩ : Shape).Idx → BitVec 32) (hinit : init ix0 = 0#32)
    (h : (⟨1, ![1024]⟩ : Shape).ReduceWindows (![1024] : Fin 1 → ℕ) ![1] ![1023] ![0] ⟨1, ![1024]⟩)
    (hu : 0 < (⟨0, ![]⟩ : Shape).numel) (j : Fin 1024) :
    Host.reduceWindow (s := ⟨1, ![1024]⟩) (t := ⟨1, ![1024]⟩) (u := ⟨0, ![]⟩) IntOp.addi ![1024] ![1] ![1023] ![0]
        (fun _ => 1#32) init h hu (ix1 j)
      = BitVec.ofNat 32 (j.val + 1) := by
  have := cumsum_apply (fun _ => 1) init hinit h hu j
  rw [show (fun i : (⟨1, ![1024]⟩ : Shape).Idx => BitVec.ofNat 32 ((fun _ : Fin 1024 => 1) (i 0))) = fun _ => 1#32 from rfl] at this
  rw [this]
  refine congrArg (BitVec.ofNat 32) ?_
  have hs : ∀ k : Fin 1024, winCell (fun _ => 1) j (ix1 k) = if 1023 - j.val ≤ k.val then 1 else 0 := by
    intro k
    unfold winCell
    by_cases hk : 1023 ≤ j.val + k.val
    · rw [dif_pos hk, if_pos (by omega)]
    · rw [dif_neg hk, if_neg (by omega)]
  rw [Finset.sum_congr rfl (fun k _ => hs k), sum_indicator_ge]
  have := j.isLt; omega

/-- The vector that is zero at position 0 and one elsewhere has prefix sums `j`. -/
theorem cumsum_tail_ones (init : (⟨0, ![]⟩ : Shape).Idx → BitVec 32) (hinit : init ix0 = 0#32)
    (h : (⟨1, ![1024]⟩ : Shape).ReduceWindows (![1024] : Fin 1 → ℕ) ![1] ![1023] ![0] ⟨1, ![1024]⟩)
    (hu : 0 < (⟨0, ![]⟩ : Shape).numel) (j : Fin 1024) :
    Host.reduceWindow (s := ⟨1, ![1024]⟩) (t := ⟨1, ![1024]⟩) (u := ⟨0, ![]⟩) IntOp.addi ![1024] ![1] ![1023] ![0]
        (fun i => BitVec.ofNat 32 (if (i 0).val = 0 then 0 else 1)) init h hu (ix1 j)
      = BitVec.ofNat 32 j.val := by
  have := cumsum_apply (fun i => if i.val = 0 then 0 else 1) init hinit h hu j
  rw [this]
  refine congrArg (BitVec.ofNat 32) ?_
  have hs : ∀ k : Fin 1024, winCell (fun i => if i.val = 0 then 0 else 1) j (ix1 k) = if 1024 - j.val ≤ k.val then 1 else 0 := by
    intro k
    unfold winCell
    by_cases hk : 1023 ≤ j.val + k.val
    · rw [dif_pos hk]
      show (if j.val + k.val - 1023 = 0 then 0 else 1) = _
      by_cases h0 : j.val + k.val - 1023 = 0
      · rw [if_pos h0, if_neg (by omega)]
      · rw [if_neg h0, if_pos (by omega)]
    · rw [dif_neg hk, if_neg (by omega)]
  rw [Finset.sum_congr rfl (fun k _ => hs k), sum_indicator_ge]
  have := j.isLt; omega

/-! ## The scatter-add and the histogram -/

section Fold

variable {s si u : Shape} {w : ℕ} (d : ScatterDims s si u) (idx : IVec si w)

/-- One update of the scatter-add: the update at row-major position `n` is added at the position it lands on, and
    dropped when it lands outside the operand. -/
def scatterStep (upd : u.Idx → BitVec 32) (r : s.Idx → BitVec 32) (n : Fin u.numel) : s.Idx → BitVec 32 :=
  match d.resultIdx? (u.rowMajor.symm n) idx with
  | some i => fun i' => if i' = i then IntOp.addi (r i) (upd (u.rowMajor.symm n)) else r i'
  | none => r

theorem scatter_eq_foldl (x : s.Idx → BitVec 32) (upd : u.Idx → BitVec 32) :
    Host.scatter d IntOp.addi x idx upd = (List.finRange u.numel).foldl (scatterStep d idx upd) x := rfl

/-- One update, over words of natural numbers: every position keeps its number, plus the update's where it lands. -/
theorem scatterStep_ofNat (g : u.Idx → ℕ) (c : s.Idx → ℕ) (n : Fin u.numel) :
    scatterStep d idx (fun j => BitVec.ofNat 32 (g j)) (fun i => BitVec.ofNat 32 (c i)) n
      = fun i' => BitVec.ofNat 32 (c i' + if d.resultIdx? (u.rowMajor.symm n) idx = some i' then g (u.rowMajor.symm n) else 0) := by
  unfold scatterStep
  split
  · rename_i i hres
    funext i'
    rw [hres]
    by_cases hi : i' = i
    · subst hi
      rw [if_pos rfl, if_pos rfl]
      unfold IntOp.addi; exact (BitVec.ofNat_add ..).symm
    · rw [if_neg hi, if_neg (fun h => hi (Option.some.inj h).symm), Nat.add_zero]
  · rename_i hres
    funext i'
    rw [hres, if_neg nofun, Nat.add_zero]

/-- The scatter-add over words of natural numbers, at a position: the word of the operand's number plus the sum of the
    updates that land there. -/
theorem scatter_addi_ofNat (c : s.Idx → ℕ) (g : u.Idx → ℕ) (i' : s.Idx) :
    Host.scatter d IntOp.addi (fun i => BitVec.ofNat 32 (c i)) idx (fun j => BitVec.ofNat 32 (g j)) i'
      = BitVec.ofNat 32 (c i' + ((List.finRange u.numel).map fun n =>
          if d.resultIdx? (u.rowMajor.symm n) idx = some i' then g (u.rowMajor.symm n) else 0).sum) := by
  rw [scatter_eq_foldl]
  generalize List.finRange u.numel = l
  induction l generalizing c with
  | nil => simp
  | cons a l ih =>
    rw [List.foldl_cons, scatterStep_ofNat, ih]
    simp only [List.map_cons, List.sum_cons, Nat.add_assoc]

end Fold

/-! ## A vector scattered into a vector -/

section Vec

/-- The dimension numbers of `x.at[idx].add(v)` for vectors: operand `[N]`, indices `[E, 1]`, updates `[E]`. -/
abbrev vecScatterDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : ℕ} (wf : ScatterDims.WF ⟨1, ![N]⟩ ⟨2, ![E, 1]⟩ ⟨1, ![E]⟩ [] [0] [0] 1)

theorem vec_start (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vec_window (e : Fin E) : (vecScatterDims N E wf).window (ix1 e) 0 = 0 := by
  unfold ScatterDims.window
  rw [dif_neg (show ¬ (0 : Fin 1) ∈ (vecScatterDims N E wf).sKept by simp [ScatterDims.sKept, Shape.kept, List.mem_filter, List.mem_finRange])]

/-- Update `e` lands on position `n` exactly when its index, read as a signed integer, is `n`. -/
theorem vec_resultIdx? (idx : IVec ⟨2, ![E, 1]⟩ w) (e : Fin E) (n : Fin N) :
    (vecScatterDims N E wf).resultIdx? (ix1 e) idx = some (ix1 n) ↔ (idx (ix2 e (0 : Fin 1))).toInt = (n.val : ℤ) := by
  have h0 := vec_start wf idx e
  have w0 := vec_window wf e
  unfold ScatterDims.resultIdx?
  split
  · rename_i h
    rw [Option.some.injEq]
    constructor
    · intro hf
      have e0 := congrArg (fun f => (f 0).val) hf
      have b0 := h 0
      rw [h0, w0] at b0
      have e0' : ((vecScatterDims N E wf).start (ix1 e) idx 0 + ((vecScatterDims N E wf).window (ix1 e) 0 : ℤ)).toNat = n.val := e0
      rw [h0, w0] at e0'
      omega
    · intro hr
      funext a; refine Fin.ext ?_
      match a with
      | ⟨0, _⟩ =>
        show ((vecScatterDims N E wf).start (ix1 e) idx 0 + ((vecScatterDims N E wf).window (ix1 e) 0 : ℤ)).toNat = n.val
        rw [h0, w0]; omega
  · rename_i h
    constructor
    · intro hf; exact absurd hf (by simp)
    · intro hr
      exfalso; apply h
      intro a
      match a with
      | ⟨0, _⟩ =>
        show 0 ≤ (vecScatterDims N E wf).start (ix1 e) idx 0 + ((vecScatterDims N E wf).window (ix1 e) 0 : ℤ)
          ∧ (vecScatterDims N E wf).start (ix1 e) idx 0 + ((vecScatterDims N E wf).window (ix1 e) 0 : ℤ) < (N : ℤ)
        rw [h0, w0]; have := n.isLt; omega

/-- A vector of ones scatter-added into zeros: position `n` ends at the word of the number of updates whose index is `n`. -/
theorem vec_scatter_count (idx : IVec ⟨2, ![E, 1]⟩ w) (n : Fin N) :
    Host.scatter (vecScatterDims N E wf) IntOp.addi (fun _ => 0#32) idx (fun _ => 1#32) (ix1 n)
      = BitVec.ofNat 32 (∑ e : Fin E, if (idx (ix2 e (0 : Fin 1))).toInt = (n.val : ℤ) then 1 else 0) := by
  have := scatter_addi_ofNat (vecScatterDims N E wf) idx (fun _ => 0) (fun _ => 1) (ix1 n)
  rw [show (fun _ : (⟨1, ![N]⟩ : Shape).Idx => BitVec.ofNat 32 0) = fun _ => 0#32 from rfl,
    show (fun _ : (⟨1, ![E]⟩ : Shape).Idx => BitVec.ofNat 32 1) = fun _ => 1#32 from rfl] at this
  rw [this, Nat.zero_add,
    sum_positions_rank1 (fun j => if (vecScatterDims N E wf).resultIdx? j idx = some (ix1 n) then 1 else 0)]
  congr 1
  refine Finset.sum_congr rfl fun e _ => ?_
  simp only [vec_resultIdx? wf idx e n]

/-- The word of a natural number below `2 ^ 31` reads back, as a signed integer, as that number. -/
theorem toInt_ofNat_small (m : ℕ) (hm : m < 2147483648) : (BitVec.ofNat 32 m).toInt = (m : ℤ) := by
  have h1 : (BitVec.ofNat 32 m).toNat = m := by
    rw [BitVec.toNat_ofNat]; exact Nat.mod_eq_of_lt (by omega)
  rw [BitVec.toInt_eq_toNat_cond, h1, if_pos (by omega)]

/-- The histogram of the indices `1, …, 1024` over 1024 bins: zero in bin 0, one in every other bin. -/
theorem hist_of_shifted (wf : ScatterDims.WF ⟨1, ![1024]⟩ ⟨2, ![1024, 1]⟩ ⟨1, ![1024]⟩ [] [0] [0] 1)
    (idx : IVec ⟨2, ![1024, 1]⟩ 32)
    (hidx : ∀ e : Fin 1024, idx (ix2 e (0 : Fin 1)) = BitVec.ofNat 32 (e.val + 1)) (n : Fin 1024) :
    Host.scatter (vecScatterDims 1024 1024 wf) IntOp.addi (fun _ => 0#32) idx (fun _ => 1#32) (ix1 n)
      = BitVec.ofNat 32 (if n.val = 0 then 0 else 1) := by
  rw [vec_scatter_count]
  refine congrArg (BitVec.ofNat 32) ?_
  have hc : ∀ e : Fin 1024, ((idx (ix2 e (0 : Fin 1))).toInt = (n.val : ℤ)) ↔ (e.val + 1 = n.val) := by
    intro e
    rw [hidx, toInt_ofNat_small _ (by have := e.isLt; omega)]
    omega
  simp only [hc]
  by_cases h0 : n.val = 0
  · rw [if_pos h0]; exact Finset.sum_eq_zero (fun e _ => if_neg (by omega))
  · rw [if_neg h0, Finset.sum_eq_single (⟨n.val - 1, by have := n.isLt; omega⟩ : Fin 1024)]
    · rw [if_pos (by show n.val - 1 + 1 = n.val; omega)]
    · intro e _ hne
      exact if_neg (fun h => hne (Fin.ext (by show e.val = n.val - 1; omega)))
    · intro h; exact absurd (Finset.mem_univ _) h

end Vec

end Idealize.ShloMosaic.IntCount

end
-- ==== Proof.LibRowGatherScatter.lean ====
/-
  Rows of a table gathered and scatter-added along an edge list, read at one entry.

  A table [N, C] indexed by a column [E, 1] of integer row numbers:
  * the gather of whole rows (x[idx]): entry (e, q) of the result is the table at row idx[e] — read as a
    signed integer and clamped into [0, N-1] — and column q;
  * the accumulating scatter of whole rows at the extended reals (segment_sum): entry (n, q) of the result
    is the operand's plus the sum, over the edges e whose row number read as a signed integer is exactly n,
    of the update at (e, q); an edge whose number is outside [0, N) adds nothing.
  In both the column is carried through untouched, so the operations act on each column of the table by itself,
  whatever the number C of columns: this is what lets one wide table stand for two narrow ones side by side.
-/
import Idealize.ShloMosaic.Lib.ValueIdx
import Idealize.ShloMosaic.PureOps.Ideal.Laws

noncomputable section

open scoped BigOperators

namespace Idealize.ShloMosaic.RowOps

open Idealize.ShloMosaic Idealize.ShloMosaic.ValueIdx

/-! ## The gather of whole rows -/

section Gather
variable {α : Type}

/-- The dimension numbers of x[idx] for a table [N, C] and row numbers [E, 1]: the row axis is collapsed and
    addressed by the one component of the start index, the column axis is the offset axis, slices are 1 × C. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its row number as a signed integer, clamped into [0, N-1]. -/
def gatherRow {N E w : Nat} (hN : 0 < N) (idx : IVec ⟨2, ![E, 1]⟩ w) (e : Fin E) : Fin N :=
  ⟨min (idx (ix2 e (0 : Fin 1))).toInt.toNat (N - 1), by omega⟩

/-- THE GATHER AT (e, q): the table at edge e's row and the same column q. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowGatherDims N E C wf) x idx (ix2 e q) = x (ix2 (gatherRow hN idx e) q) := by
  unfold Host.gather
  congr 1
  funext a
  refine Fin.ext ?_
  match a with
  | ⟨0, _⟩ =>
    show (rowGatherDims N E C wf).start (ix2 e q) idx 0 + (rowGatherDims N E C wf).batchCoord (ix2 e q) 0
      + (rowGatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e q) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e q) idx 1 + (rowGatherDims N E C wf).batchCoord (ix2 e q) 1
      + (rowGatherDims N E C wf).offCoord (ix2 e q) 1 = q.val
    rw [GatherDims.batchCoord_eq_zero _ _ _ List.not_mem_nil]
    have hs : (rowGatherDims N E C wf).start (ix2 e q) idx 1 = 0 := by
      unfold GatherDims.start
      rw [dif_neg (show ¬ (1 : Fin 2) ∈ ([0] : List (Fin 2)) by decide)]
    have ho : (rowGatherDims N E C wf).offCoord (ix2 e q) 1 = q.val := by
      unfold GatherDims.offCoord
      rw [dif_pos ((GatherDims.mem_sKept (rowGatherDims N E C wf) 1).mpr ⟨(by decide : (1 : Fin 2) ∉ ([0] : List (Fin 2))), List.not_mem_nil⟩)]
      rfl
    rw [hs, ho]; omega

end Gather

/-! ## The accumulating scatter of whole rows, at the extended reals -/

section Scatter

/-- The dimension numbers of segment_sum of rows [E, C] into a table [N, C] at row numbers [E, 1]: the row
    axis is inserted and addressed by the one component of the scatter index, the column axis is the window axis. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

theorem start_row (idx : IVec ⟨2, ![E, 1]⟩ w) (e : Fin E) (q' : Fin C) :
    (rowScatterDims N E C wf).start (ix2 e q') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e q') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem start_col (idx : IVec ⟨2, ![E, 1]⟩ w) (e : Fin E) (q' : Fin C) :
    (rowScatterDims N E C wf).start (ix2 e q') idx 1 = 0 := by
  unfold ScatterDims.start
  rw [dif_neg (show ¬ (1 : Fin 2) ∈ ([0] : List (Fin 2)) by decide)]

theorem window_row (e : Fin E) (q' : Fin C) : (rowScatterDims N E C wf).window (ix2 e q') 0 = 0 := by
  unfold ScatterDims.window
  rw [dif_neg (show ¬ (0 : Fin 2) ∈ (rowScatterDims N E C wf).sKept by simp [ScatterDims.sKept, Shape.kept, List.mem_filter, List.mem_finRange])]

theorem window_col (e : Fin E) (q' : Fin C) : (rowScatterDims N E C wf).window (ix2 e q') 1 = q'.val := by
  unfold ScatterDims.window
  rw [dif_pos (show (1 : Fin 2) ∈ (rowScatterDims N E C wf).sKept by simp [ScatterDims.sKept, Shape.kept, List.mem_filter, List.mem_finRange])]
  rfl

/-- WHERE AN UPDATE LANDS: the update at (e, q') lands on (n, q) exactly when edge e's row number, read as a
    signed integer, is n, and the columns agree. -/
theorem resultIdx?_rows (idx : IVec ⟨2, ![E, 1]⟩ w) (e : Fin E) (q' : Fin C) (n : Fin N) (q : Fin C) :
    (rowScatterDims N E C wf).resultIdx? (ix2 e q') idx = some (ix2 n q)
      ↔ (idx (ix2 e (0 : Fin 1))).toInt = (n.val : ℤ) ∧ q' = q := by
  have h0 := start_row wf idx e q'
  have h1 := start_col wf idx e q'
  have w0 := window_row wf e q'
  have w1 := window_col wf e q'
  unfold ScatterDims.resultIdx?
  split
  · rename_i h
    rw [Option.some.injEq]
    constructor
    · intro hf
      have e0 := congrArg (fun f => (f 0).val) hf
      have e1 := congrArg (fun f => (f 1).val) hf
      have b0 := h 0
      rw [h0, w0] at b0
      have e0' : ((rowScatterDims N E C wf).start (ix2 e q') idx 0 + ((rowScatterDims N E C wf).window (ix2 e q') 0 : ℤ)).toNat = n.val := e0
      have e1' : ((rowScatterDims N E C wf).start (ix2 e q') idx 1 + ((rowScatterDims N E C wf).window (ix2 e q') 1 : ℤ)).toNat = q.val := e1
      rw [h0, w0] at e0'
      rw [h1, w1] at e1'
      refine ⟨by omega, Fin.ext (by omega)⟩
    · rintro ⟨hr, rfl⟩
      funext a; refine Fin.ext ?_
      match a with
      | ⟨0, _⟩ =>
        show ((rowScatterDims N E C wf).start (ix2 e q') idx 0 + ((rowScatterDims N E C wf).window (ix2 e q') 0 : ℤ)).toNat = n.val
        rw [h0, w0]; omega
      | ⟨1, _⟩ =>
        show ((rowScatterDims N E C wf).start (ix2 e q') idx 1 + ((rowScatterDims N E C wf).window (ix2 e q') 1 : ℤ)).toNat = q'.val
        rw [h1, w1]; omega
  · rename_i h
    constructor
    · intro hf; exact absurd hf (by simp)
    · rintro ⟨hr, rfl⟩
      exfalso; apply h
      intro a
      match a with
      | ⟨0, _⟩ =>
        show 0 ≤ (rowScatterDims N E C wf).start (ix2 e q') idx 0 + ((rowScatterDims N E C wf).window (ix2 e q') 0 : ℤ)
          ∧ (rowScatterDims N E C wf).start (ix2 e q') idx 0 + ((rowScatterDims N E C wf).window (ix2 e q') 0 : ℤ) < (N : ℤ)
        rw [h0, w0]; have := n.isLt; omega
      | ⟨1, _⟩ =>
        show 0 ≤ (rowScatterDims N E C wf).start (ix2 e q') idx 1 + ((rowScatterDims N E C wf).window (ix2 e q') 1 : ℤ)
          ∧ (rowScatterDims N E C wf).start (ix2 e q') idx 1 + ((rowScatterDims N E C wf).window (ix2 e q') 1 : ℤ) < (C : ℤ)
        rw [h1, w1]; have := q'.isLt; omega

/-- THE ACCUMULATING SCATTER AT (n, q), over the extended reals: the operand's entry plus the sum, over the edges
    whose row number is n, of the update's entry in the same column. -/
theorem scatterAdd_rows_apply {φ : FTy} (x : (⟨2, ![N, C]⟩ : Shape).Idx → EReal) (idx : IVec ⟨2, ![E, 1]⟩ w)
    (upd : (⟨2, ![E, C]⟩ : Shape).Idx → EReal) (n : Fin N) (q : Fin C) :
    Host.scatterAdd (F := Ideal) (φ := φ) (rowScatterDims N E C wf) x idx upd (ix2 n q)
      = x (ix2 n q) + ∑ e ∈ Finset.univ.filter (fun e : Fin E => (idx (ix2 e (0 : Fin 1))).toInt = (n.val : ℤ)), upd (ix2 e q) := by
  show x (ix2 n q) + ∑ j ∈ Finset.univ.filter (fun j => (rowScatterDims N E C wf).resultIdx? j idx = some (ix2 n q)), upd j = _
  congr 1
  rw [Finset.sum_filter, sum_idx2, Finset.sum_filter]
  refine Finset.sum_congr rfl fun e _ => ?_
  simp only [resultIdx?_rows wf idx e _ n q]
  by_cases he : (idx (ix2 e (0 : Fin 1))).toInt = (n.val : ℤ)
  · simp only [he, true_and, if_true]
    rw [Finset.sum_ite_eq' Finset.univ q (fun b => upd (ix2 e b))]
    simp
  · simp only [he, false_and, if_false]
    exact Finset.sum_const_zero

end Scatter

end Idealize.ShloMosaic.RowOps

end
-- ==== Proof.RefNz.lean ====
/-
  One time step of the reference when every unit is observed.

  With the mask of observed units all ones, the running count at position `j` is `j + 1`; the clamp at zero and the
  wrap of negative indices leave these counts alone; their histogram over 1024 bins is zero in bin 0 and one in every
  other bin (the count 1024 falls outside and is dropped); the running sum of the histogram at `j` is `j`; flooring
  division by 1 and the remainder by 1024 leave `0, …, 1023` alone.  So output row `j` looks up row `j`: every
  index is in range, and the lookup returns the matrix it was given.
-/
import proofs.«136319_g61624190763689_cont_9to1_m_335_26_alg».proof.Proof.RefFns
import proofs.«136319_g61624190763689_cont_9to1_m_335_26_alg».proof.Proof.LibIntCumsumScatter
import proofs.«136319_g61624190763689_cont_9to1_m_335_26_alg».proof.Proof.LibRowGatherScatter
import Idealize.ShloMosaic.Lib.Pipeline.Value
import Idealize.ShloMosaic.Lib.ValueIdx

noncomputable section

namespace Cert.ReferenceIdeal.RefValue

open Idealize.ShloMosaic Idealize.ShloMosaic.ValueIdx Cert.ReferenceIdeal Cert.ReferenceIdeal.RefFns Idealize.ShloMosaic.IntCount

/-- The mask with every unit observed. -/
def ones : IVec S1024 1 := fun _ => 1#1
/-- The vector `0, 1, …, 1023` as words. -/
def ramp : IVec S1024 32 := fun i => BitVec.ofNat 32 (i 0).val
/-- The vector `1, 2, …, 1024` as words. -/
def ramp1 : IVec S1024 32 := fun i => BitVec.ofNat 32 ((i 0).val + 1)

/-! ## Facts about the words `0, …, 1024`, each checked entry by entry -/

set_option maxRecDepth 100000 in
/-- Clamping `1, …, 1024` from below at zero changes nothing. -/
theorem clip_ramp1 : ∀ j : Fin 1024, clipF ramp1 (constantI S_ 32 0#32) (ix1 j) = BitVec.ofNat 32 (j.val + 1) := by
  decide +kernel

set_option maxRecDepth 100000 in
/-- None of `1, …, 1024` is negative, so none is wrapped. -/
theorem wrap_ramp1 : ∀ j : Fin 1024,
    (select (cmpi .slt ramp1 (broadcastInDim S1024 ![] Facts₀.bcast_S_S1024 (constantI S_ 32 0#32)))
      (addi ramp1 (broadcastInDim S1024 ![] Facts₀.bcast_S_S1024 (constantI S_ 32 1024#32))) ramp1 : IVec S1024 32) (ix1 j)
      = BitVec.ofNat 32 (j.val + 1) := by
  decide +kernel

set_option maxRecDepth 100000 in
/-- Floored division of `0, …, 1023` by 1 changes nothing. -/
theorem floorDiv_ramp : ∀ j : Fin 1024, floorDivF ramp (constantI S_ 32 1#32) (ix1 j) = BitVec.ofNat 32 j.val := by
  decide +kernel

set_option maxRecDepth 100000 in
/-- The floored remainder of `0, …, 1023` by 1024 changes nothing. -/
theorem remainder_ramp : ∀ j : Fin 1024, remainderF ramp (constantI S_ 32 1024#32) (ix1 j) = BitVec.ofNat 32 j.val := by
  decide +kernel

set_option maxRecDepth 100000 in
/-- None of `0, …, 1023` is negative, so none is wrapped. -/
theorem takeIdx_ramp : ∀ j : Fin 1024, takeIdx ramp (ix1 j) = BitVec.ofNat 32 j.val := by
  decide +kernel

set_option maxRecDepth 100000 in
/-- Each of `0, …, 1023` is at least 0 and at most 1023. -/
theorem inBounds_ramp : ∀ e : Fin 1024,
    (andi (cmpi .sge (takeIdxCol ramp) (broadcastInDim S1024x1 ![] Facts₀.bcast_S_S1024x1 (constantI S_ 32 0#32)))
      (cmpi .sle (takeIdxCol ramp)
        (broadcastInDim S1024x1 ![0, 1] Facts₀.bcast_S1x1_S1024x1_0_1
          (broadcastInDim S1x1 ![1] Facts₀.bcast_S1_S1x1_1 (constantI S1 32 1023#32)))) : IVec S1024x1 1) (ix2 e (0 : Fin 1))
      = 1#1 := by
  decide +kernel

/-! ## The chain -/

/-- The running count of an all-ones mask is `1, …, 1024`. -/
theorem cumsumF_ones : cumsumF ones = ramp1 := by
  funext i
  obtain ⟨j, rfl⟩ : ∃ j : Fin 1024, i = ix1 j := ⟨i 0, eq_ix1 i⟩
  unfold cumsumF cumsum0F
  have he : extui 32 ones Facts₀.natLt_1_32 = fun _ => 1#32 := rfl
  rw [he]
  exact cumsum_ones _ rfl _ _ j

theorem nzPos_ones : nzPos ones = ramp1 := by
  unfold nzPos
  rw [cumsumF_ones]
  funext i
  obtain ⟨j, rfl⟩ : ∃ j : Fin 1024, i = ix1 j := ⟨i 0, eq_ix1 i⟩
  exact clip_ramp1 j

/-- The scatter indices: position `e` names bin `e + 1`. -/
theorem nzIdx_ones (e : Fin 1024) : nzIdx ones (ix2 e (0 : Fin 1)) = BitVec.ofNat 32 (e.val + 1) := by
  unfold nzIdx
  rw [nzPos_ones]
  refine (broadcastInDim_apply _ _ _ (ix2 e (0 : Fin 1)) (ix1 e) (fun a => ?_)).trans (wrap_ramp1 e)
  obtain rfl : a = 0 := Subsingleton.elim _ _
  rfl

/-- The histogram: zero in bin 0, one in every other bin. -/
theorem nzHist_ones : nzHist ones = fun i => BitVec.ofNat 32 (if (i 0).val = 0 then 0 else 1) := by
  funext i
  obtain ⟨n, rfl⟩ : ∃ n : Fin 1024, i = ix1 n := ⟨i 0, eq_ix1 i⟩
  unfold nzHist
  exact hist_of_shifted Facts₀.scatter_S1024_S1024x1_S1024_n_0_0_1_wf (nzIdx ones) nzIdx_ones n

/-- The running sum of the histogram is `0, …, 1023`. -/
theorem cumsum1F_hist : cumsum1F (nzHist ones) = ramp := by
  funext i
  obtain ⟨j, rfl⟩ : ∃ j : Fin 1024, i = ix1 j := ⟨i 0, eq_ix1 i⟩
  unfold cumsum1F cumsum0F
  rw [nzHist_ones]
  exact cumsum_tail_ones _ rfl _ _ j

/-- Output row `j` looks up row `j`. -/
theorem nzRows_ones : nzRows ones = ramp := by
  unfold nzRows
  rw [cumsum1F_hist]
  have h1 : floorDivF ramp (constantI S_ 32 1#32) = ramp := by
    funext i
    obtain ⟨j, rfl⟩ : ∃ j : Fin 1024, i = ix1 j := ⟨i 0, eq_ix1 i⟩
    exact floorDiv_ramp j
  rw [h1]
  funext i
  obtain ⟨j, rfl⟩ : ∃ j : Fin 1024, i = ix1 j := ⟨i 0, eq_ix1 i⟩
  exact remainder_ramp j

/-- The looked-up index of row `e`, as a column entry. -/
theorem takeIdxCol_ramp (e : Fin 1024) : takeIdxCol ramp (ix2 e (0 : Fin 1)) = BitVec.ofNat 32 e.val := by
  unfold takeIdxCol
  refine (broadcastInDim_apply _ _ _ (ix2 e (0 : Fin 1)) (ix1 e) (fun a => ?_)).trans (takeIdx_ramp e)
  obtain rfl : a = 0 := Subsingleton.elim _ _
  rfl

/-- And-ing ones onto one leaves one. -/
theorem foldl_andi_ones {ι : Type} (x : ι → BitVec 1) (l : List ι) (hx : ∀ i ∈ l, x i = 1#1) :
    l.foldl (fun r i => IntOp.andi r (x i)) 1#1 = 1#1 := by
  induction l with
  | nil => rfl
  | cons a l ih =>
    rw [List.foldl_cons, hx a List.mem_cons_self]
    exact ih (fun i hi => hx i (List.mem_cons_of_mem _ hi))

/-- Every looked-up row is in range. -/
theorem takeInBounds_ramp : takeInBounds ramp = ones := by
  funext i
  unfold takeInBounds
  rw [Host.reduce_eq_foldl]
  refine foldl_andi_ones _ _ (fun k _ => ?_)
  obtain ⟨e, z, rfl⟩ : ∃ (e : Fin 1024) (z : Fin 1), k = ix2 e z := ⟨k 0, k 1, eq_ix2 k⟩
  obtain rfl : z = 0 := Subsingleton.elim _ _
  exact inBounds_ramp e

variable {F : FTy → Type} [FloatOps F]

/-- Looking up rows `0, …, 1023` returns the matrix. -/
theorem takeF_ramp (m : FVec F S1024x1024 .f32) : takeF m ramp = m := by
  funext i
  obtain ⟨r, q, rfl⟩ : ∃ (r : Fin 1024) (q : Fin 1024), i = ix2 r q := ⟨i 0, i 1, eq_ix2 i⟩
  unfold takeF
  rw [select_apply]
  have hc : broadcastInDim S1024x1024 ![0] Facts₀.bcast_S1024_S1024x1024_0 (takeInBounds ramp) (ix2 r q) = 1#1 := by
    rw [takeInBounds_ramp]; rfl
  rw [hc, select_one]
  refine (RowOps.gather_rows_apply (N := 1024) (E := 1024) (C := 1024) (by norm_num)
    Facts₀.gather_S1024x1024_S1024x1_S1024x1024_1_0_n_n_0_1_11024_wf m (takeIdxCol ramp) r q).trans ?_
  refine congrArg (fun r' => m (ix2 r' q)) (Fin.ext ?_)
  show min ((takeIdxCol ramp (ix2 r (0 : Fin 1))).toInt.toNat) (1024 - 1) = r.val
  rw [takeIdxCol_ramp, toInt_ofNat_small _ (by have := r.isLt; omega)]
  have := r.isLt
  omega

/-- One time step with every unit observed returns the matrix it looks rows up in. -/
theorem nzTake_ones (m : FVec F S1024x1024 .f32) : nzTake m ones = m := by
  unfold nzTake
  rw [nzRows_ones]
  exact takeF_ramp m

end Cert.ReferenceIdeal.RefValue

end
-- ==== Proof.RefTail.lean ====
/-
  The stacked result read at an index.

  The reference stacks its 32 blocks of shape [1024, 1024] along the rows — two stacks of sixteen, then the two halves
  —, drops the first column and adds a leading axis of length one.  Row `q` of the stack lies in block `q / 1024` at
  row `q % 1024`; dropping the first column moves column `c` to column `c + 1`; the leading axis changes nothing.
  So entry `(0, q, c)` of the result is entry `(q % 1024, c + 1)` of block `q / 1024`, whatever the blocks are.
-/
import proofs.«136319_g61624190763689_cont_9to1_m_335_26_alg».proof.Proof.RefFns
import Idealize.ShloMosaic.Lib.Pipeline.Value
import Idealize.ShloMosaic.Lib.ValueLayout
import Idealize.ShloMosaic.Lib.ValueIdx

noncomputable section

namespace Cert.ReferenceIdeal.RefValue

open Idealize.ShloMosaic Idealize.ShloMosaic.ValueIdx Cert.ReferenceIdeal Cert.ReferenceIdeal.RefFns

variable {α : Type}

/-- Two halves of 16384 rows stacked: a row of the first half. -/
theorem stack2_left (A B : S16384x1024.Idx → α) (h : Shape.Concatenates [S16384x1024, S16384x1024] S32768x1024 0)
    (q : Fin 32768) (c : Fin 1024) (hq : q.val < 16384) :
    concatenate S32768x1024 0 [⟨S16384x1024, A⟩, ⟨S16384x1024, B⟩] h (ix2 q c) = A (ix2 (⟨q.val, hq⟩ : Fin 16384) c) :=
  concatenate_pair_apply_left (t := S32768x1024) (s₁ := S16384x1024) (s₂ := S16384x1024) 0 A B h (ix2 q c) rfl
    (ix2 (⟨q.val, hq⟩ : Fin 16384) c) (fun a => match a with | ⟨0, _⟩ => rfl | ⟨1, _⟩ => rfl)

/-- Two halves of 16384 rows stacked: a row of the second half. -/
theorem stack2_right (A B : S16384x1024.Idx → α) (h : Shape.Concatenates [S16384x1024, S16384x1024] S32768x1024 0)
    (q : Fin 32768) (c : Fin 1024) (hq : 16384 ≤ q.val) :
    concatenate S32768x1024 0 [⟨S16384x1024, A⟩, ⟨S16384x1024, B⟩] h (ix2 q c)
      = B (ix2 (⟨q.val - 16384, by have := q.isLt; omega⟩ : Fin 16384) c) :=
  concatenate_pair_apply_right (t := S32768x1024) (s₁ := S16384x1024) (s₂ := S16384x1024) 0 A B h (ix2 q c) rfl rfl
    (ix2 (⟨q.val - 16384, by have := q.isLt; omega⟩ : Fin 16384) c)
    (fun a ha => match a with | ⟨0, _⟩ => absurd rfl ha | ⟨1, _⟩ => rfl)
    (by show q.val - 16384 + 16384 = q.val; omega)

/-- Sixteen blocks of 1024 rows stacked: row `q` is row `q % 1024` of block `q / 1024`. -/
theorem stack16_apply (f : Fin 16 → (S1024x1024.Idx → α))
    (h : Shape.Concatenates ((List.ofFn fun n : Fin 16 => (⟨S1024x1024, f n⟩ : (s : Shape) × (s.Idx → α))).map (·.1)) S16384x1024 0)
    (q : Fin 16384) (c : Fin 1024) :
    concatenate S16384x1024 0 (List.ofFn fun n : Fin 16 => (⟨S1024x1024, f n⟩ : (s : Shape) × (s.Idx → α))) h (ix2 q c)
      = f ⟨q.val / 1024, by have := q.isLt; omega⟩ (ix2 (⟨q.val % 1024, Nat.mod_lt _ (by norm_num)⟩ : Fin 1024) c) :=
  concatenate_ofFn_apply (t := S16384x1024) (s₁ := S1024x1024) 0 f h rfl 1024 rfl (ix2 q c)
    (⟨q.val / 1024, by have := q.isLt; omega⟩ : Fin 16) rfl
    (ix2 (⟨q.val % 1024, Nat.mod_lt _ (by norm_num)⟩ : Fin 1024) c) rfl
    (fun a ha => match a with | ⟨0, _⟩ => absurd rfl ha | ⟨1, _⟩ => rfl)

variable {F : FTy → Type} [FloatOps F]

set_option maxRecDepth 16384 in
/-- Entry `(0, q, c)` of the stacked result is entry `(q % 1024, c + 1)` of block `q / 1024`. -/
theorem tailF_apply (b : Fin 32 → FVec F S1024x1024 .f32) (q : Fin 32768) (c : Fin 1023) :
    tailF b (ix3 (0 : Fin 1) q c)
      = b ⟨q.val / 1024, by have := q.isLt; omega⟩ (ix2 (⟨q.val % 1024, Nat.mod_lt _ (by norm_num)⟩ : Fin 1024) (⟨c.val + 1, by omega⟩ : Fin 1024)) := by
  have hq2 : q.val < 32768 := q.isLt
  unfold tailF
  refine (shapeCast_ab_1ab_apply _ _ (0 : Fin 1) q c).trans ?_
  refine (extractStridedSlice_apply ![0, 1] _ _ (ix2 q c) (ix2 q (⟨c.val + 1, by omega⟩ : Fin 1024)) (fun a =>
    match a with
    | ⟨0, _⟩ => by show q.val = 0 + q.val; omega
    | ⟨1, _⟩ => by show c.val + 1 = 1 + c.val; omega)).trans ?_
  by_cases hq : q.val < 16384
  · refine (stack2_left _ _ _ q _ hq).trans ?_
    exact stack16_apply (fun n : Fin 16 => b ⟨n.val, by omega⟩) _ (⟨q.val, hq⟩ : Fin 16384) _
  · refine (stack2_right _ _ _ q _ (by omega)).trans ?_
    refine (stack16_apply (fun n : Fin 16 => b ⟨16 + n.val, by omega⟩) _ (⟨q.val - 16384, by omega⟩ : Fin 16384) _).trans ?_
    have e1 : (⟨16 + (q.val - 16384) / 1024, by omega⟩ : Fin 32) = ⟨q.val / 1024, by omega⟩ :=
      Fin.ext (by show 16 + (q.val - 16384) / 1024 = q.val / 1024; omega)
    have e2 : (⟨(q.val - 16384) % 1024, Nat.mod_lt _ (by norm_num)⟩ : Fin 1024) = ⟨q.val % 1024, Nat.mod_lt _ (by norm_num)⟩ :=
      Fin.ext (by show (q.val - 16384) % 1024 = q.val % 1024; omega)
    show b ⟨16 + (q.val - 16384) / 1024, _⟩ (ix2 (⟨(q.val - 16384) % 1024, _⟩ : Fin 1024) (⟨c.val + 1, _⟩ : Fin 1024)) = _
    rw [e1, e2]

end Cert.ReferenceIdeal.RefValue

end
-- ==== Proof.RefEq.lean ====
/-
  The reference's result is the common specification.

  An extended real is never different from itself, so the not-a-number mask is zero everywhere and, negated, the mask
  of observed units is all ones at every time step.  Each of the 32 blocks is then the identity matrix (one time step
  with every unit observed returns the matrix it looks rows up in), whose entry `(r, c)` is one exactly when `r = c`.
  Reading the stacked result at `(0, q, c)` gives entry `(q % 1024, c + 1)` of the identity.
-/
import proofs.«136319_g61624190763689_cont_9to1_m_335_26_alg».proof.Proof.RefNz
import proofs.«136319_g61624190763689_cont_9to1_m_335_26_alg».proof.Proof.RefTail
import proofs.«136319_g61624190763689_cont_9to1_m_335_26_alg».proof.Proof.Spec
import Idealize.ShloMosaic.PureOps.Ideal.Laws

noncomputable section

namespace Cert.ReferenceIdeal.RefValue

open Idealize.ShloMosaic Idealize.ShloMosaic.ValueIdx Cert.ReferenceIdeal Cert.ReferenceIdeal.RefFns

/-- No extended real differs from itself. -/
theorem une_self (a : EReal) : Ideal.cmp .une a a = 0#1 := by
  unfold Ideal.cmp; simp

/-- At every time step every unit is observed. -/
theorem colMask_nanMask (x : FVec Ideal S1x32x1024 .f32) (k : ℕ) (h : S1024x32x1.Slices ![0, k, 0] S1024x1x1) :
    colMask (nanMask x) k h = ones := by
  funext i
  show ~~~(FloatOps.cmpf (F := Ideal) .une (x _) (x _)) = 1#1
  rw [Ideal.cmpf_def, une_self]; decide

/-- The identity matrix at `(r, c)`. -/
theorem eyeMat_apply (r c : Fin 1024) : eyeMat (F := Ideal) (ix2 r c) = if r.val = c.val then (1 : EReal) else 0 := by
  show (((IntOp.cmpi .eq (IntOp.addi (BitVec.ofNat 32 r.val) 0#32) (BitVec.ofNat 32 c.val)).toNat : ℝ) : EReal) = _
  have ha : IntOp.addi (BitVec.ofNat 32 r.val) 0#32 = BitVec.ofNat 32 r.val := by
    unfold IntOp.addi; exact BitVec.add_zero _
  rw [ha]
  by_cases h : r.val = c.val
  · rw [if_pos h, h]
    have h1 : IntOp.cmpi .eq (BitVec.ofNat 32 c.val) (BitVec.ofNat 32 c.val) = 1#1 := by simp [IntOp.cmpi]
    rw [h1]; simp
  · rw [if_neg h]
    have hne : BitVec.ofNat 32 r.val ≠ BitVec.ofNat 32 c.val := by
      intro e
      have e' := congrArg BitVec.toNat e
      rw [BitVec.toNat_ofNat, BitVec.toNat_ofNat, Nat.mod_eq_of_lt (by have := r.isLt; omega),
        Nat.mod_eq_of_lt (by have := c.isLt; omega)] at e'
      exact h e'
    have h0 : IntOp.cmpi .eq (BitVec.ofNat 32 r.val) (BitVec.ofNat 32 c.val) = 0#1 := by
      unfold IntOp.cmpi
      show BitVec.ofBool (BitVec.ofNat 32 r.val == BitVec.ofNat 32 c.val) = 0#1
      rw [beq_eq_false_iff_ne.mpr hne]; rfl
    rw [h0]; simp

/-- A property of the head and of every entry of the tail holds of every entry of the vector. -/
theorem vecCons_all {α : Type} {P : α → Prop} {n : ℕ} (a : α) (v : Fin n → α) (ha : P a) (hv : ∀ i, P (v i)) :
    ∀ i, P (Matrix.vecCons a v i) := by
  intro i
  refine Fin.cases ?_ (fun j => ?_) i
  · rw [Matrix.cons_val_zero]; exact ha
  · rw [Matrix.cons_val_succ]; exact hv j

set_option maxHeartbeats 1000000 in
/-- Every block is the identity matrix. -/
theorem blocks_eq (x : FVec Ideal S1x32x1024 .f32) (n : Fin 32) : blocks x n = eyeMat := by
  have key : ∀ (k : ℕ) (h : S1024x32x1.Slices ![0, k, 0] S1024x1x1),
      nzTake (eyeMat : FVec Ideal S1024x1024 .f32) (colMask (nanMask x) k h) = eyeMat := fun k h => by
    rw [colMask_nanMask]; exact nzTake_ones _
  unfold blocks
  revert n
  repeat (first
    | exact (fun i => i.elim0)
    | refine vecCons_all (P := fun a => a = (eyeMat : FVec Ideal S1024x1024 .f32)) _ _ (key _ _) ?_)

/-- The reference's result, for every input, is the specification. -/
theorem refTerm_eq (x : FVec Ideal S1x32x1024 .f32) : refTerm x = Cert.Spec.G := by
  funext i
  obtain ⟨z, q, c, rfl⟩ : ∃ (z : Fin 1) (q : Fin 32768) (c : Fin 1023), i = ix3 z q c := ⟨i 0, i 1, i 2, eq_ix3 i⟩
  obtain rfl : z = 0 := Subsingleton.elim _ _
  unfold refTerm
  rw [tailF_apply, blocks_eq, eyeMat_apply]
  rfl

end Cert.ReferenceIdeal.RefValue

end
-- ==== Proof.lean ====
/-
  The certificate: the kernel and its reference end at one array, and that array does not depend on the input.

  Both programs build, for each of 32 time steps, the 1024 × 1024 matrix that sends every observed unit to its
  compacted row, drop the column of unit 0 and stack the 32 matrices.  "Observed" means "not a NaN", tested as `x ≠ x`;
  an extended real never differs from itself, so at the ideal instance every unit is observed at every step, unit `n`
  is compacted to row `n`, and each matrix is the identity.  The result is therefore the array whose entry `(0, q, c)`
  is one exactly when `q % 1024 = c + 1` (`Cert.Spec.G`).
  * The kernel reaches it by a running count computed as a product with an upper-triangular matrix of ones, kept as a
    table of target rows in scratch memory by the first grid point and compared against a row counter by every point
    (the modules `Kern…`).
  * The reference reaches it by the compaction idiom — running count, histogram of the counts, running sum of the
    histogram, row lookup in the identity — unrolled 32 times (its run: the modules `RefOps…`, `RefRun`; its value:
    `LibIntCumsumScatter`, `LibRowGatherScatter`, `RefNz`, `RefTail`, `RefEq`).
  The three frames: the two kernel programs' by their generated frame certificates, the reference's by its run with
  the value forgotten.  Nothing was rewritten by the idealization, so there is nothing to preserve.  The precondition
  (finite inputs) is never used: the two results agree on every extended-real input.
-/
import proofs.«136319_g61624190763689_cont_9to1_m_335_26_alg».proof.Defs
import proofs.«136319_g61624190763689_cont_9to1_m_335_26_alg».proof.Proof.Gen.Kernel
import proofs.«136319_g61624190763689_cont_9to1_m_335_26_alg».proof.Proof.Gen.Kernel.Skeleton
import proofs.«136319_g61624190763689_cont_9to1_m_335_26_alg».proof.Proof.Gen.Kernel.Launch
import proofs.«136319_g61624190763689_cont_9to1_m_335_26_alg».proof.Proof.Gen.Kernel.Points
import proofs.«136319_g61624190763689_cont_9to1_m_335_26_alg».proof.Proof.Gen.Kernel.Frame
import proofs.«136319_g61624190763689_cont_9to1_m_335_26_alg».proof.Proof.Gen.KernelIdeal
import proofs.«136319_g61624190763689_cont_9to1_m_335_26_alg».proof.Proof.Gen.KernelIdeal.Skeleton
import proofs.«136319_g61624190763689_cont_9to1_m_335_26_alg».proof.Proof.Gen.KernelIdeal.Launch
import proofs.«136319_g61624190763689_cont_9to1_m_335_26_alg».proof.Proof.Gen.KernelIdeal.Points
import proofs.«136319_g61624190763689_cont_9to1_m_335_26_alg».proof.Proof.Gen.KernelIdeal.Frame
import proofs.«136319_g61624190763689_cont_9to1_m_335_26_alg».proof.Proof.Gen.ReferenceIdeal
import proofs.«136319_g61624190763689_cont_9to1_m_335_26_alg».proof.Proof.Gen.Pre_finite_inputs
import proofs.«136319_g61624190763689_cont_9to1_m_335_26_alg».proof.Proof.Spec
import proofs.«136319_g61624190763689_cont_9to1_m_335_26_alg».proof.Proof.KernRun
import proofs.«136319_g61624190763689_cont_9to1_m_335_26_alg».proof.Proof.RefRun
import proofs.«136319_g61624190763689_cont_9to1_m_335_26_alg».proof.Proof.RefEq
import Idealize.ShloMosaic.Adequacy
import Idealize.ShloMosaic.Init

noncomputable section

namespace Cert.Proof

open Idealize.ShloMosaic Idealize.SL.Sem

/-- The kernel as printed runs and leaves its argument alone. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- The reference runs and leaves its argument alone: its run, the value forgotten. -/
theorem frame_reference : Cert.frame_ReferenceIdeal := fun m ρ _ =>
  (θ_run Cert.ReferenceIdeal.defs _ _).mono (fun _ h c => (h c).2) (Cert.ReferenceIdeal.HandRun.run m ρ)

/-- Both ideal programs end at `Cert.Spec.G`, whatever the (common) argument. -/
theorem algebraic : Cert.algebraic_KernelIdeal_ReferenceIdeal := by
  intro m ρ m' ρ' _ _
  refine ⟨fun _ => Cert.Spec.G, Cert.KernelIdeal.HandValue.run m ρ, ?_⟩
  exact (θ_run Cert.ReferenceIdeal.defs _ _).mono
    (fun _ h c => ⟨(h c).1.trans (Cert.ReferenceIdeal.RefValue.refTerm_eq _), (h c).2⟩)
    (Cert.ReferenceIdeal.HandRun.run m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
